-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v143) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x3 : Shape := ⟨2, ![10000, 3]⟩
abbrev S8x512 : Shape := ⟨2, ![8, 512]⟩
abbrev S2x60000 : Shape := ⟨2, ![2, 60000]⟩
abbrev S256x515 : Shape := ⟨2, ![256, 515]⟩
abbrev S256 : Shape := ⟨1, ![256]⟩
abbrev S5x256x256 : Shape := ⟨3, ![5, 256, 256]⟩
abbrev S5x256 : Shape := ⟨2, ![5, 256]⟩
abbrev S3x256 : Shape := ⟨2, ![3, 256]⟩
abbrev S3 : Shape := ⟨1, ![3]⟩
abbrev S_ : Shape := ⟨0, ![]⟩

class Facts : Prop where
  bcast_S_S10000x3 : S_.BroadcastsInDim S10000x3 (![] : Fin 0 → Fin S10000x3.rank)
  reducesTo_S10000x3_S_d0_1 : S10000x3.ReducesTo [0, 1] S_
  h_S_ : 0 < S_.numel
  bcast_S_S8x512 : S_.BroadcastsInDim S8x512 (![] : Fin 0 → Fin S8x512.rank)
  reducesTo_S8x512_S_d0_1 : S8x512.ReducesTo [0, 1] S_
  bcast_S_S256x515 : S_.BroadcastsInDim S256x515 (![] : Fin 0 → Fin S256x515.rank)
  reducesTo_S256x515_S_d0_1 : S256x515.ReducesTo [0, 1] S_
  bcast_S_S256 : S_.BroadcastsInDim S256 (![] : Fin 0 → Fin S256.rank)
  reducesTo_S256_S_d0 : S256.ReducesTo [0] S_
  bcast_S_S5x256x256 : S_.BroadcastsInDim S5x256x256 (![] : Fin 0 → Fin S5x256x256.rank)
  reducesTo_S5x256x256_S_d0_1_2 : S5x256x256.ReducesTo [0, 1, 2] S_
  bcast_S_S5x256 : S_.BroadcastsInDim S5x256 (![] : Fin 0 → Fin S5x256.rank)
  reducesTo_S5x256_S_d0_1 : S5x256.ReducesTo [0, 1] S_
  bcast_S_S3x256 : S_.BroadcastsInDim S3x256 (![] : Fin 0 → Fin S3x256.rank)
  reducesTo_S3x256_S_d0_1 : S3x256.ReducesTo [0, 1] S_
  bcast_S_S3 : S_.BroadcastsInDim S3 (![] : Fin 0 → Fin S3.rank)
  reducesTo_S3_S_d0 : S3.ReducesTo [0] S_
  bcast_S_S2x60000 : S_.BroadcastsInDim S2x60000 (![] : Fin 0 → Fin S2x60000.rank)
  reducesTo_S2x60000_S_d0_1 : S2x60000.ReducesTo [0, 1] S_

variable [Facts]

def fn_part2 {F : FTy → Type} [FloatOps F] (main_arg2 : IVec S2x60000 32) (main_arg8 : FVec F S3 .f32) (main_v33 : IVec S_ 1) : IVec S_ 1 :=
  let main_v34 : FVec F S3 .f32 := Host.absf main_arg8
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_c_14 : IVec S_ 32 := constantI S_ 32 0#32
  let main_v39 : IVec S2x60000 32 := broadcastInDim S2x60000 ![] bcast_S_S2x60000 main_c_14
  let main_v40 : IVec S2x60000 1 := cmpi .sge main_arg2 main_v39
  let main_c_15 : IVec S_ 32 := constantI S_ 32 10000#32
  let main_v41 : IVec S2x60000 32 := broadcastInDim S2x60000 ![] bcast_S_S2x60000 main_c_15
  let main_v42 : IVec S2x60000 1 := cmpi .slt main_arg2 main_v41
  let main_v43 : IVec S2x60000 1 := andi main_v40 main_v42
  let main_c_16 : IVec S_ 1 := constantI S_ 1 1#1
  let main_v44 : IVec S_ 1 := (fun x v => Host.reduce IntOp.andi x v reducesTo_S2x60000_S_d0_1 h_S_) main_v43 main_c_16
  let main_v45 : IVec S_ 1 := andi main_v38 main_v44
  main_v45

def fn_part1 {F : FTy → Type} [FloatOps F] (main_arg2 : IVec S2x60000 32) (main_arg5 : FVec F S5x256x256 .f32) (main_arg6 : FVec F S5x256 .f32) (main_arg7 : FVec F S3x256 .f32) (main_arg8 : FVec F S3 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S5x256x256 .f32 := Host.absf main_arg5
  let main_cst_6 : FVec F S_ .f32 := constant S_ .f32 0x7F800000#32
  let main_v20 : FVec F S5x256x256 .f32 := broadcastInDim S5x256x256 ![] bcast_S_S5x256x256 main_cst_6
  let main_v21 : IVec S5x256x256 1 := cmpf .olt main_v19 main_v20
  let main_c_7 : IVec S_ 1 := constantI S_ 1 1#1
  let main_v22 : IVec S_ 1 := (fun x v => Host.reduce IntOp.andi x v reducesTo_S5x256x256_S_d0_1_2 h_S_) main_v21 main_c_7
  let main_v23 : IVec S_ 1 := andi main_v18 main_v22
  let main_v24 : FVec F S5x256 .f32 := Host.absf main_arg6
  let main_cst_8 : FVec F S_ .f32 := constant S_ .f32 0x7F800000#32
  let main_v25 : FVec F S5x256 .f32 := broadcastInDim S5x256 ![] bcast_S_S5x256 main_cst_8
  let main_v26 : IVec S5x256 1 := cmpf .olt main_v24 main_v25
  let main_c_9 : IVec S_ 1 := constantI S_ 1 1#1
  let main_v27 : IVec S_ 1 := (fun x v => Host.reduce IntOp.andi x v reducesTo_S5x256_S_d0_1 h_S_) main_v26 main_c_9
  let main_v28 : IVec S_ 1 := andi main_v23 main_v27
  let main_v29 : FVec F S3x256 .f32 := Host.absf main_arg7
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  fn_part2 (F := F) main_arg2 main_arg8 main_v33

def fn {F : FTy → Type} [FloatOps F] (main_arg0 : FVec F S10000x3 .f32) (main_arg1 : FVec F S8x512 .f32) (main_arg2 : IVec S2x60000 32) (main_arg3 : FVec F S256x515 .f32) (main_arg4 : FVec F S256 .f32) (main_arg5 : FVec F S5x256x256 .f32) (main_arg6 : FVec F S5x256 .f32) (main_arg7 : FVec F S3x256 .f32) (main_arg8 : FVec F S3 .f32) : IVec S_ 1 :=
  let main_v0 : FVec F S10000x3 .f32 := Host.absf main_arg0
  let main_cst : FVec F S_ .f32 := constant S_ .f32 0x7F800000#32
  let main_v1 : FVec F S10000x3 .f32 := broadcastInDim S10000x3 ![] bcast_S_S10000x3 main_cst
  let main_v2 : IVec S10000x3 1 := cmpf .olt main_v0 main_v1
  let main_c : IVec S_ 1 := constantI S_ 1 1#1
  let main_v3 : IVec S_ 1 := (fun x v => Host.reduce IntOp.andi x v reducesTo_S10000x3_S_d0_1 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S256x515 .f32 := Host.absf main_arg3
  let main_cst_2 : FVec F S_ .f32 := constant S_ .f32 0x7F800000#32
  let main_v10 : FVec F S256x515 .f32 := broadcastInDim S256x515 ![] bcast_S_S256x515 main_cst_2
  let main_v11 : IVec S256x515 1 := cmpf .olt main_v9 main_v10
  let main_c_3 : IVec S_ 1 := constantI S_ 1 1#1
  let main_v12 : IVec S_ 1 := (fun x v => Host.reduce IntOp.andi x v reducesTo_S256x515_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_arg7 main_arg8 main_v13 main_v16
-- ==== Kernel.lean ====
abbrev S10000x3 : Shape := ⟨2, ![10000, 3]⟩
abbrev S8x512 : Shape := ⟨2, ![8, 512]⟩
abbrev S2x60000 : Shape := ⟨2, ![2, 60000]⟩
abbrev S256x515 : Shape := ⟨2, ![256, 515]⟩
abbrev S256 : Shape := ⟨1, ![256]⟩
abbrev S5x256x256 : Shape := ⟨3, ![5, 256, 256]⟩
abbrev S5x256 : Shape := ⟨2, ![5, 256]⟩
abbrev S3x256 : Shape := ⟨2, ![3, 256]⟩
abbrev S3 : Shape := ⟨1, ![3]⟩
abbrev S1x60000 : Shape := ⟨2, ![1, 60000]⟩
abbrev S60000 : Shape := ⟨1, ![60000]⟩
abbrev S10000 : Shape := ⟨1, ![10000]⟩
abbrev S70000 : Shape := ⟨1, ![70000]⟩
abbrev S_ : Shape := ⟨0, ![]⟩
abbrev S70000x1 : Shape := ⟨2, ![70000, 1]⟩
abbrev S10240x10240 : Shape := ⟨2, ![10240, 10240]⟩
abbrev S70000x2 : Shape := ⟨2, ![70000, 2]⟩
abbrev S1x10000x3 : Shape := ⟨3, ![1, 10000, 3]⟩
abbrev S8x10000x3 : Shape := ⟨3, ![8, 10000, 3]⟩
abbrev S8x1x512 : Shape := ⟨3, ![8, 1, 512]⟩
abbrev S8x10000x512 : Shape := ⟨3, ![8, 10000, 512]⟩
abbrev S8x10000x515 : Shape := ⟨3, ![8, 10000, 515]⟩
abbrev S8x10240x515 : Shape := ⟨3, ![8, 10240, 515]⟩
abbrev S515x256 : Shape := ⟨2, ![515, 256]⟩
abbrev S256x3 : Shape := ⟨2, ![256, 3]⟩
abbrev S81920x515 : Shape := ⟨2, ![81920, 515]⟩
abbrev S1x256 : Shape := ⟨2, ![1, 256]⟩
abbrev S81920x256 : Shape := ⟨2, ![81920, 256]⟩
abbrev S2048x515 : Shape := ⟨2, ![2048, 515]⟩
abbrev S2048x256 : Shape := ⟨2, ![2048, 256]⟩
abbrev S8x10240x256 : Shape := ⟨3, ![8, 10240, 256]⟩
abbrev S1x256x256 : Shape := ⟨3, ![1, 256, 256]⟩
abbrev S256x256 : Shape := ⟨2, ![256, 256]⟩
abbrev S10240x8x256 : Shape := ⟨3, ![10240, 8, 256]⟩
abbrev S10240x2048 : Shape := ⟨2, ![10240, 2048]⟩
abbrev S8x256 : Shape := ⟨2, ![8, 256]⟩
abbrev S2048 : Shape := ⟨1, ![2048]⟩
abbrev S1x2048 : Shape := ⟨2, ![1, 2048]⟩
abbrev S1280x1280 : Shape := ⟨2, ![1280, 1280]⟩
abbrev S1280x2048 : Shape := ⟨2, ![1280, 2048]⟩
abbrev S1x3 : Shape := ⟨2, ![1, 3]⟩
abbrev S81920x3 : Shape := ⟨2, ![81920, 3]⟩
abbrev S2048x3 : Shape := ⟨2, ![2048, 3]⟩
abbrev S8x10240x3 : Shape := ⟨3, ![8, 10240, 3]⟩

abbrev nBuf : Space → Nat
  | .hbm => 170
  | .vmem => 77
  | .smem => 0
  | _ => 0

abbrev hbmTy0_0 (i : Nat) : BufTy := match i % 128 with
  | 0 => ⟨S10000x3, .f32⟩
  | 1 => ⟨S8x512, .f32⟩
  | 2 => ⟨S2x60000, .i32⟩
  | 3 => ⟨S256x515, .f32⟩
  | 4 => ⟨S256, .f32⟩
  | 5 => ⟨S5x256x256, .f32⟩
  | 6 => ⟨S5x256, .f32⟩
  | 7 => ⟨S3x256, .f32⟩
  | 8 => ⟨S3, .f32⟩
  | 9 => ⟨S1x60000, .i32⟩
  | 10 => ⟨S60000, .i32⟩
  | 11 => ⟨S1x60000, .i32⟩
  | 12 => ⟨S60000, .i32⟩
  | 13 => ⟨S10000, .i32⟩
  | 14 => ⟨S70000, .i32⟩
  | 15 => ⟨S70000, .i32⟩
  | 16 => ⟨S_, .f32⟩
  | 17 => ⟨S70000, .f32⟩
  | 18 => ⟨S_, .f32⟩
  | 19 => ⟨S10000, .f32⟩
  | 20 => ⟨S70000x1, .i32⟩
  | 21 => ⟨S10000, .f32⟩
  | 22 => ⟨S_, .f32⟩
  | 23 => ⟨S10000, .f32⟩
  | 24 => ⟨S10000, .i1⟩
  | 25 => ⟨S10000, .f32⟩
  | 26 => ⟨S_, .f32⟩
  | 27 => ⟨S_, .f32⟩
  | 28 => ⟨S10000, .f32⟩
  | 29 => ⟨S10000, .f32⟩
  | 30 => ⟨S_, .i32⟩
  | 31 => ⟨S70000, .i32⟩
  | 32 => ⟨S70000, .i1⟩
  | 33 => ⟨S_, .i32⟩
  | 34 => ⟨S70000, .i32⟩
  | 35 => ⟨S70000, .i32⟩
  | 36 => ⟨S70000, .i32⟩
  | 37 => ⟨S70000x1, .i32⟩
  | 38 => ⟨S70000, .f32⟩
  | 39 => ⟨S_, .i32⟩
  | 40 => ⟨S70000, .i32⟩
  | 41 => ⟨S70000, .i1⟩
  | 42 => ⟨S_, .i32⟩
  | 43 => ⟨S70000, .i32⟩
  | 44 => ⟨S70000, .i32⟩
  | 45 => ⟨S70000, .i32⟩
  | 46 => ⟨S70000x1, .i32⟩
  | 47 => ⟨S70000, .f32⟩
  | 48 => ⟨S70000, .f32⟩
  | 49 => ⟨S_, .f32⟩
  | 50 => ⟨S10240x10240, .f32⟩
  | 51 => ⟨S_, .i32⟩
  | 52 => ⟨S70000, .i32⟩
  | 53 => ⟨S70000, .i1⟩
  | 54 => ⟨S_, .i32⟩
  | 55 => ⟨S70000, .i32⟩
  | 56 => ⟨S70000, .i32⟩
  | 57 => ⟨S70000, .i32⟩
  | 58 => ⟨S_, .i32⟩
  | 59 => ⟨S70000, .i32⟩
  | 60 => ⟨S70000, .i1⟩
  | 61 => ⟨S_, .i32⟩
  | 62 => ⟨S70000, .i32⟩
  | 63 => ⟨S70000, .i32⟩
  | 64 => ⟨S70000, .i32⟩
  | 65 => ⟨S70000x1, .i32⟩
  | 66 => ⟨S70000x1, .i32⟩
  | 67 => ⟨S70000x2, .i32⟩
  | 68 => ⟨S10240x10240, .f32⟩
  | 69 => ⟨S10240x10240, .bf16⟩
  | 70 => ⟨S1x10000x3, .f32⟩
  | 71 => ⟨S8x10000x3, .f32⟩
  | 72 => ⟨S8x1x512, .f32⟩
  | 73 => ⟨S8x10000x512, .f32⟩
  | 74 => ⟨S8x10000x515, .f32⟩
  | 75 => ⟨S_, .i32⟩
  | 76 => ⟨S_, .f32⟩
  | 77 => ⟨S8x10240x515, .f32⟩
  | 78 => ⟨S515x256, .f32⟩
  | 79 => ⟨S5x256x256, .f32⟩
  | 80 => ⟨S256x3, .f32⟩
  | 81 => ⟨S81920x515, .f32⟩
  | 82 => ⟨S1x256, .f32⟩
  | 83 => ⟨S81920x256, .bf16⟩
  | 84 => ⟨S8x10240x256, .bf16⟩
  | 85 => ⟨S81920x256, .bf16⟩
  | 86 => ⟨S1x256x256, .f32⟩
  | 87 => ⟨S256x256, .f32⟩
  | 88 => ⟨S81920x256, .bf16⟩
  | 89 => ⟨S8x10240x256, .bf16⟩
  | 90 => ⟨S10240x8x256, .bf16⟩
  | 91 => ⟨S10240x2048, .bf16⟩
  | 92 => ⟨S1x256, .f32⟩
  | 93 => ⟨S256, .f32⟩
  | 94 => ⟨S1x256, .f32⟩
  | 95 => ⟨S8x256, .f32⟩
  | 96 => ⟨S2048, .f32⟩
  | 97 => ⟨S1x2048, .f32⟩
  | 98 => ⟨S10240x2048, .bf16⟩
  | 99 => ⟨S10240x8x256, .bf16⟩
  | 100 => ⟨S8x10240x256, .bf16⟩
  | 101 => ⟨S81920x256, .bf16⟩
  | 102 => ⟨S1x256x256, .f32⟩
  | 103 => ⟨S256x256, .f32⟩
  | 104 => ⟨S81920x256, .bf16⟩
  | 105 => ⟨S8x10240x256, .bf16⟩
  | 106 => ⟨S10240x8x256, .bf16⟩
  | 107 => ⟨S10240x2048, .bf16⟩
  | 108 => ⟨S1x256, .f32⟩
  | 109 => ⟨S256, .f32⟩
  | 110 => ⟨S1x256, .f32⟩
  | 111 => ⟨S8x256, .f32⟩
  | 112 => ⟨S2048, .f32⟩
  | 113 => ⟨S1x2048, .f32⟩
  | 114 => ⟨S10240x2048, .bf16⟩
  | 115 => ⟨S10240x8x256, .bf16⟩
  | 116 => ⟨S8x10240x256, .bf16⟩
  | 117 => ⟨S81920x256, .bf16⟩
  | 118 => ⟨S1x256x256, .f32⟩
  | 119 => ⟨S256x256, .f32⟩
  | 120 => ⟨S81920x256, .bf16⟩
  | 121 => ⟨S8x10240x256, .bf16⟩
  | 122 => ⟨S10240x8x256, .bf16⟩
  | 123 => ⟨S10240x2048, .bf16⟩
  | 124 => ⟨S1x256, .f32⟩
  | 125 => ⟨S256, .f32⟩
  | 126 => ⟨S1x256, .f32⟩
  | 127 => ⟨S8x256, .f32⟩
  | _ => ⟨S10000x3, .f32⟩

abbrev hbmTy0_1 (i : Nat) : BufTy := match i % 128 with
  | 0 => ⟨S2048, .f32⟩
  | 1 => ⟨S1x2048, .f32⟩
  | 2 => ⟨S10240x2048, .bf16⟩
  | 3 => ⟨S10240x8x256, .bf16⟩
  | 4 => ⟨S8x10240x256, .bf16⟩
  | 5 => ⟨S81920x256, .bf16⟩
  | 6 => ⟨S1x256x256, .f32⟩
  | 7 => ⟨S256x256, .f32⟩
  | 8 => ⟨S81920x256, .bf16⟩
  | 9 => ⟨S8x10240x256, .bf16⟩
  | 10 => ⟨S10240x8x256, .bf16⟩
  | 11 => ⟨S10240x2048, .bf16⟩
  | 12 => ⟨S1x256, .f32⟩
  | 13 => ⟨S256, .f32⟩
  | 14 => ⟨S1x256, .f32⟩
  | 15 => ⟨S8x256, .f32⟩
  | 16 => ⟨S2048, .f32⟩
  | 17 => ⟨S1x2048, .f32⟩
  | 18 => ⟨S10240x2048, .bf16⟩
  | 19 => ⟨S10240x8x256, .bf16⟩
  | 20 => ⟨S8x10240x256, .bf16⟩
  | 21 => ⟨S81920x256, .bf16⟩
  | 22 => ⟨S1x256x256, .f32⟩
  | 23 => ⟨S256x256, .f32⟩
  | 24 => ⟨S81920x256, .bf16⟩
  | 25 => ⟨S8x10240x256, .bf16⟩
  | 26 => ⟨S10240x8x256, .bf16⟩
  | 27 => ⟨S10240x2048, .bf16⟩
  | 28 => ⟨S1x256, .f32⟩
  | 29 => ⟨S256, .f32⟩
  | 30 => ⟨S1x256, .f32⟩
  | 31 => ⟨S8x256, .f32⟩
  | 32 => ⟨S2048, .f32⟩
  | 33 => ⟨S1x2048, .f32⟩
  | 34 => ⟨S10240x2048, .bf16⟩
  | 35 => ⟨S10240x8x256, .bf16⟩
  | 36 => ⟨S8x10240x256, .bf16⟩
  | 37 => ⟨S81920x256, .bf16⟩
  | 38 => ⟨S1x3, .f32⟩
  | 39 => ⟨S81920x3, .f32⟩
  | 40 => ⟨S8x10240x3, .f32⟩
  | 41 => ⟨S8x10000x3, .f32⟩
  | _ => ⟨S10000x3, .f32⟩

abbrev hbmTy (i : Nat) : BufTy := match i / 128 with
  | 0 => hbmTy0_0 i
  | 1 => hbmTy0_1 i
  | _ => ⟨S10000x3, .f32⟩

abbrev bufTy : (tb : Table) → Fin (tcTables nBuf tb) → BufTy
  | .hbm, ⟨i, _⟩ => hbmTy i
  | .local _ .vmem, ⟨0, _⟩ => ⟨S2048x515, .f32⟩
  | .local _ .vmem, ⟨1, _⟩ => ⟨S2048x515, .f32⟩
  | .local _ .vmem, ⟨2, _⟩ => ⟨S515x256, .f32⟩
  | .local _ .vmem, ⟨3, _⟩ => ⟨S1x256, .f32⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S256x256, .f32⟩
  | .local _ .vmem, ⟨9, _⟩ => ⟨S2048x256, .bf16⟩
  | .local _ .vmem, ⟨10, _⟩ => ⟨S2048x256, .bf16⟩
  | .local _ .vmem, ⟨11, _⟩ => ⟨S1280x1280, .bf16⟩
  | .local _ .vmem, ⟨12, _⟩ => ⟨S1280x1280, .bf16⟩
  | .local _ .vmem, ⟨13, _⟩ => ⟨S1280x2048, .bf16⟩
  | .local _ .vmem, ⟨14, _⟩ => ⟨S1280x2048, .bf16⟩
  | .local _ .vmem, ⟨15, _⟩ => ⟨S1x2048, .f32⟩
  | .local _ .vmem, ⟨16, _⟩ => ⟨S1280x2048, .bf16⟩
  | .local _ .vmem, ⟨17, _⟩ => ⟨S1280x2048, .bf16⟩
  | .local _ .vmem, ⟨18, _⟩ => ⟨S1280x2048, .f32⟩
  | .local _ .vmem, ⟨19, _⟩ => ⟨S2048x256, .bf16⟩
  | .local _ .vmem, ⟨20, _⟩ => ⟨S2048x256, .bf16⟩
  | .local _ .vmem, ⟨21, _⟩ => ⟨S256x256, .f32⟩
  | .local _ .vmem, ⟨22, _⟩ => ⟨S2048x256, .bf16⟩
  | .local _ .vmem, ⟨23, _⟩ => ⟨S2048x256, .bf16⟩
  | .local _ .vmem, ⟨24, _⟩ => ⟨S1280x1280, .bf16⟩
  | .local _ .vmem, ⟨25, _⟩ => ⟨S1280x1280, .bf16⟩
  | .local _ .vmem, ⟨26, _⟩ => ⟨S1280x2048, .bf16⟩
  | .local _ .vmem, ⟨27, _⟩ => ⟨S1280x2048, .bf16⟩
  | .local _ .vmem, ⟨28, _⟩ => ⟨S1x2048, .f32⟩
  | .local _ .vmem, ⟨29, _⟩ => ⟨S1280x2048, .bf16⟩
  | .local _ .vmem, ⟨30, _⟩ => ⟨S1280x2048, .bf16⟩
  | .local _ .vmem, ⟨31, _⟩ => ⟨S1280x2048, .f32⟩
  | .local _ .vmem, ⟨32, _⟩ => ⟨S2048x256, .bf16⟩
  | .local _ .vmem, ⟨33, _⟩ => ⟨S2048x256, .bf16⟩
  | .local _ .vmem, ⟨34, _⟩ => ⟨S256x256, .f32⟩
  | .local _ .vmem, ⟨35, _⟩ => ⟨S2048x256, .bf16⟩
  | .local _ .vmem, ⟨36, _⟩ => ⟨S2048x256, .bf16⟩
  | .local _ .vmem, ⟨37, _⟩ => ⟨S1280x1280, .bf16⟩
  | .local _ .vmem, ⟨38, _⟩ => ⟨S1280x1280, .bf16⟩
  | .local _ .vmem, ⟨39, _⟩ => ⟨S1280x2048, .bf16⟩
  | .local _ .vmem, ⟨40, _⟩ => ⟨S1280x2048, .bf16⟩
  | .local _ .vmem, ⟨41, _⟩ => ⟨S1x2048, .f32⟩
  | .local _ .vmem, ⟨42, _⟩ => ⟨S1280x2048, .bf16⟩
  | .local _ .vmem, ⟨43, _⟩ => ⟨S1280x2048, .bf16⟩
  | .local _ .vmem, ⟨44, _⟩ => ⟨S1280x2048, .f32⟩
  | .local _ .vmem, ⟨45, _⟩ => ⟨S2048x256, .bf16⟩
  | .local _ .vmem, ⟨46, _⟩ => ⟨S2048x256, .bf16⟩
  | .local _ .vmem, ⟨47, _⟩ => ⟨S256x256, .f32⟩
  | .local _ .vmem, ⟨48, _⟩ => ⟨S2048x256, .bf16⟩
  | .local _ .vmem, ⟨49, _⟩ => ⟨S2048x256, .bf16⟩
  | .local _ .vmem, ⟨50, _⟩ => ⟨S1280x1280, .bf16⟩
  | .local _ .vmem, ⟨51, _⟩ => ⟨S1280x1280, .bf16⟩
  | .local _ .vmem, ⟨52, _⟩ => ⟨S1280x2048, .bf16⟩
  | .local _ .vmem, ⟨53, _⟩ => ⟨S1280x2048, .bf16⟩
  | .local _ .vmem, ⟨54, _⟩ => ⟨S1x2048, .f32⟩
  | .local _ .vmem, ⟨55, _⟩ => ⟨S1280x2048, .bf16⟩
  | .local _ .vmem, ⟨56, _⟩ => ⟨S1280x2048, .bf16⟩
  | .local _ .vmem, ⟨57, _⟩ => ⟨S1280x2048, .f32⟩
  | .local _ .vmem, ⟨58, _⟩ => ⟨S2048x256, .bf16⟩
  | .local _ .vmem, ⟨59, _⟩ => ⟨S2048x256, .bf16⟩
  | .local _ .vmem, ⟨60, _⟩ => ⟨S256x256, .f32⟩
  | .local _ .vmem, ⟨61, _⟩ => ⟨S2048x256, .bf16⟩
  | .local _ .vmem, ⟨62, _⟩ => ⟨S2048x256, .bf16⟩
  | .local _ .vmem, ⟨63, _⟩ => ⟨S1280x1280, .bf16⟩
  | .local _ .vmem, ⟨64, _⟩ => ⟨S1280x1280, .bf16⟩
  | .local _ .vmem, ⟨65, _⟩ => ⟨S1280x2048, .bf16⟩
  | .local _ .vmem, ⟨66, _⟩ => ⟨S1280x2048, .bf16⟩
  | .local _ .vmem, ⟨67, _⟩ => ⟨S1x2048, .f32⟩
  | .local _ .vmem, ⟨68, _⟩ => ⟨S1280x2048, .bf16⟩
  | .local _ .vmem, ⟨69, _⟩ => ⟨S1280x2048, .bf16⟩
  | .local _ .vmem, ⟨70, _⟩ => ⟨S1280x2048, .f32⟩
  | .local _ .vmem, ⟨71, _⟩ => ⟨S2048x256, .bf16⟩
  | .local _ .vmem, ⟨72, _⟩ => ⟨S2048x256, .bf16⟩
  | .local _ .vmem, ⟨73, _⟩ => ⟨S256x3, .f32⟩
  | .local _ .vmem, ⟨74, _⟩ => ⟨S1x3, .f32⟩
  | .local _ .vmem, ⟨75, _⟩ => ⟨S2048x3, .f32⟩
  | .local _ .vmem, ⟨76, _⟩ => ⟨S2048x3, .f32⟩
  | _, _ => ⟨S10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg3_1 : Ref sig .tc := ⟨.vmem, 30, rfl⟩
abbrev cc4_scratch0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg1_1 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg3_1 : Ref sig .tc := ⟨.vmem, 43, rfl⟩
abbrev cc6_scratch0 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg2_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg3_0 : Ref sig .tc := ⟨.vmem, 55, rfl⟩
abbrev cc8_stg3_1 : Ref sig .tc := ⟨.vmem, 56, rfl⟩
abbrev cc8_scratch0 : Ref sig .tc := ⟨.vmem, 57, rfl⟩
abbrev cc9_stg0_0 : Ref sig .tc := ⟨.vmem, 58, rfl⟩
abbrev cc9_stg0_1 : Ref sig .tc := ⟨.vmem, 59, rfl⟩
abbrev cc9_stg1_0 : Ref sig .tc := ⟨.vmem, 60, rfl⟩
abbrev cc9_stg2_0 : Ref sig .tc := ⟨.vmem, 61, rfl⟩
abbrev cc9_stg2_1 : Ref sig .tc := ⟨.vmem, 62, rfl⟩
abbrev cc10_stg0_0 : Ref sig .tc := ⟨.vmem, 63, rfl⟩
abbrev cc10_stg0_1 : Ref sig .tc := ⟨.vmem, 64, rfl⟩
abbrev cc10_stg1_0 : Ref sig .tc := ⟨.vmem, 65, rfl⟩
abbrev cc10_stg1_1 : Ref sig .tc := ⟨.vmem, 66, rfl⟩
abbrev cc10_stg2_0 : Ref sig .tc := ⟨.vmem, 67, rfl⟩
abbrev cc10_stg3_0 : Ref sig .tc := ⟨.vmem, 68, rfl⟩
abbrev cc10_stg3_1 : Ref sig .tc := ⟨.vmem, 69, rfl⟩
abbrev cc10_scratch0 : Ref sig .tc := ⟨.vmem, 70, rfl⟩
abbrev cc11_stg0_0 : Ref sig .tc := ⟨.vmem, 71, rfl⟩
abbrev cc11_stg0_1 : Ref sig .tc := ⟨.vmem, 72, rfl⟩
abbrev cc11_stg1_0 : Ref sig .tc := ⟨.vmem, 73, rfl⟩
abbrev cc11_stg2_0 : Ref sig .tc := ⟨.vmem, 74, rfl⟩
abbrev cc11_stg3_0 : Ref sig .tc := ⟨.vmem, 75, rfl⟩
abbrev cc11_stg3_1 : Ref sig .tc := ⟨.vmem, 76, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem1_1 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem2_1 : DmaSem sig := 46
abbrev cc8_sem0_0 : DmaSem sig := 47
abbrev cc8_sem0_1 : DmaSem sig := 48
abbrev cc8_sem1_0 : DmaSem sig := 49
abbrev cc8_sem1_1 : DmaSem sig := 50
abbrev cc8_sem2_0 : DmaSem sig := 51
abbrev cc8_sem3_0 : DmaSem sig := 52
abbrev cc8_sem3_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem2_1 : DmaSem sig := 58
abbrev cc10_sem0_0 : DmaSem sig := 59
abbrev cc10_sem0_1 : DmaSem sig := 60
abbrev cc10_sem1_0 : DmaSem sig := 61
abbrev cc10_sem1_1 : DmaSem sig := 62
abbrev cc10_sem2_0 : DmaSem sig := 63
abbrev cc10_sem3_0 : DmaSem sig := 64
abbrev cc10_sem3_1 : DmaSem sig := 65
abbrev cc11_sem0_0 : DmaSem sig := 66
abbrev cc11_sem0_1 : DmaSem sig := 67
abbrev cc11_sem1_0 : DmaSem sig := 68
abbrev cc11_sem2_0 : DmaSem sig := 69
abbrev cc11_sem3_0 : DmaSem sig := 70
abbrev cc11_sem3_1 : DmaSem sig := 71

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x515 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S515x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1280x1280 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1280x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1280x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![8, 8], ![false, false]⟩

def k4_cond2 (i : grid4.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1280x1280 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1280x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 1 → Memref sig .tc .vmem S1x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1280x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2048x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨2, ![8, 8], ![false, false]⟩

def k6_cond2 (i : grid6.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1280x1280 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1280x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 1 → Memref sig .tc .vmem S1x2048 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 2 → Memref sig .tc .vmem S1280x2048 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨1, ![40], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2048x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2048x256 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨2, ![8, 8], ![false, false]⟩

def k8_cond2 (i : grid8.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S1280x1280 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1280x2048 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 1 → Memref sig .tc .vmem S1x2048 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 2 → Memref sig .tc .vmem S1280x2048 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev grid9 : Pipeline.Grid := ⟨1, ![40], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2048x256 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S256x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2048x256 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨2, ![8, 8], ![false, false]⟩

def k10_cond2 (i : grid10.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S1280x1280 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1280x2048 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 1 → Memref sig .tc .vmem S1x2048 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false, false]

abbrev stage10_3 : Fin 2 → Memref sig .tc .vmem S1280x2048 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

abbrev grid11 : Pipeline.Grid := ⟨1, ![40], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2048x256 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S256x3 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x3 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S2048x3 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

class Facts₀ : Prop where
  slices_S2x60000_S1x60000_0_0 : S2x60000.Slices ![0, 0] S1x60000
  shapeCasts_S1x60000_S60000 : S1x60000.ShapeCasts S60000
  slices_S2x60000_S1x60000_1_0 : S2x60000.Slices ![1, 0] S1x60000
  concatenates_S60000_S10000_S70000_d0 : Shape.Concatenates [S60000, S10000] S70000 0
  bcast_S_S70000 : S_.BroadcastsInDim S70000 (![] : Fin 0 → Fin S70000.rank)
  bcast_S_S10000 : S_.BroadcastsInDim S10000 (![] : Fin 0 → Fin S10000.rank)
  bcast_S70000_S70000x1_0 : S70000.BroadcastsInDim S70000x1 (![0] : Fin 1 → Fin S70000x1.rank)
  bcast_S_S10240x10240 : S_.BroadcastsInDim S10240x10240 (![] : Fin 0 → Fin S10240x10240.rank)
  concatenates_S70000x1_S70000x1_S70000x2_d1 : Shape.Concatenates [S70000x1, S70000x1] S70000x2 1
  bitsLt_bf16_f32 : FTy.bits .bf16 < FTy.bits .f32
  bcast_S10000x3_S1x10000x3_1_2 : S10000x3.BroadcastsInDim S1x10000x3 (![1, 2] : Fin 2 → Fin S1x10000x3.rank)
  bcast_S1x10000x3_S8x10000x3_0_1_2 : S1x10000x3.BroadcastsInDim S8x10000x3 (![0, 1, 2] : Fin 3 → Fin S8x10000x3.rank)
  bcast_S8x512_S8x1x512_0_2 : S8x512.BroadcastsInDim S8x1x512 (![0, 2] : Fin 2 → Fin S8x1x512.rank)
  bcast_S8x1x512_S8x10000x512_0_1_2 : S8x1x512.BroadcastsInDim S8x10000x512 (![0, 1, 2] : Fin 3 → Fin S8x10000x512.rank)
  concatenates_S8x10000x3_S8x10000x512_S8x10000x515_d2 : Shape.Concatenates [S8x10000x3, S8x10000x512] S8x10000x515 2
  pads_S8x10000x515_S8x10240x515_000_02400_000 : S8x10000x515.Pads (![0, 0, 0] : Fin 3 → Nat) ![0, 240, 0] ![0, 0, 0] S8x10240x515
  h_S_ : 0 < S_.numel
  transposes_S256x515_S515x256_1_0 : S256x515.Transposes [1, 0] S515x256
  transposes_S5x256x256_S5x256x256_0_2_1 : S5x256x256.Transposes [0, 2, 1] S5x256x256
  transposes_S3x256_S256x3_1_0 : S3x256.Transposes [1, 0] S256x3
  shapeCasts_S8x10240x515_S81920x515 : S8x10240x515.ShapeCasts S81920x515
  shapeCasts_S256_S1x256 : S256.ShapeCasts S1x256
  inb_S2048x515_S2048x515_0_0 : ∀ a, (![0, 0] : Fin 2 → Nat) a + S2048x515.size a ≤ S2048x515.size a
  h_S2048x515 : 0 < S2048x515.numel
  shapeCasts_S2048x515_S2048x515 : S2048x515.ShapeCasts S2048x515
  inb_S515x256_S515x256_0_0 : ∀ a, (![0, 0] : Fin 2 → Nat) a + S515x256.size a ≤ S515x256.size a
  h_S515x256 : 0 < S515x256.numel
  shapeCasts_S515x256_S515x256 : S515x256.ShapeCasts S515x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  shapeCasts_S81920x256_S8x10240x256 : S81920x256.ShapeCasts S8x10240x256
  shapeCasts_S8x10240x256_S81920x256 : S8x10240x256.ShapeCasts S81920x256
  slices_S5x256x256_S1x256x256_0_0_0 : S5x256x256.Slices ![0, 0, 0] S1x256x256
  shapeCasts_S1x256x256_S256x256 : S1x256x256.ShapeCasts S256x256
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S8x10240x256_S10240x8x256_1_0_2 : S8x10240x256.Transposes [1, 0, 2] S10240x8x256
  shapeCasts_S10240x8x256_S10240x2048 : S10240x8x256.ShapeCasts S10240x2048
  slices_S5x256_S1x256_0_0 : S5x256.Slices ![0, 0] S1x256
  shapeCasts_S1x256_S256 : S1x256.ShapeCasts S256
  bcast_S1x256_S8x256_0_1 : S1x256.BroadcastsInDim S8x256 (![0, 1] : Fin 2 → Fin S8x256.rank)
  shapeCasts_S8x256_S2048 : S8x256.ShapeCasts S2048
  shapeCasts_S2048_S1x2048 : S2048.ShapeCasts S1x2048
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1280x2048 : S1x2048.Broadcasts S1280x2048
  packedbf16_S1280x2048_S1280x2048_0_0 : (Rect.unit (s := S1280x2048) ![0, 0] S1280x2048.size inb_S1280x2048_S1280x2048_0_0).PackedRows (EltTy.packing .bf16)
  shapeCasts_S10240x2048_S10240x8x256 : S10240x2048.ShapeCasts S10240x8x256
  transposes_S10240x8x256_S8x10240x256_1_0_2 : S10240x8x256.Transposes [1, 0, 2] S8x10240x256
  slices_S5x256x256_S1x256x256_1_0_0 : S5x256x256.Slices ![1, 0, 0] S1x256x256
  slices_S5x256_S1x256_1_0 : S5x256.Slices ![1, 0] S1x256
  slices_S5x256x256_S1x256x256_2_0_0 : S5x256x256.Slices ![2, 0, 0] S1x256x256
  slices_S5x256_S1x256_2_0 : S5x256.Slices ![2, 0] S1x256
  slices_S5x256x256_S1x256x256_3_0_0 : S5x256x256.Slices ![3, 0, 0] S1x256x256
  slices_S5x256_S1x256_3_0 : S5x256.Slices ![3, 0] S1x256
  slices_S5x256x256_S1x256x256_4_0_0 : S5x256x256.Slices ![4, 0, 0] S1x256x256
  slices_S5x256_S1x256_4_0 : S5x256.Slices ![4, 0] S1x256
  shapeCasts_S3_S1x3 : S3.ShapeCasts S1x3
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2048x3 : S1x3.Broadcasts S2048x3
  inb_S2048x3_S2048x3_0_0 : ∀ a, (![0, 0] : Fin 2 → Nat) a + S2048x3.size a ≤ S2048x3.size a
  h_S2048x3 : 0 < S2048x3.numel
  shapeCasts_S81920x3_S8x10240x3 : S81920x3.ShapeCasts S8x10240x3
  slices_S8x10240x3_S8x10000x3_0_0_0 : S8x10240x3.Slices ![0, 0, 0] S8x10000x3
  scatter_S10000_S70000x1_S70000_n_0_0_1_wf : ScatterDims.WF S10000 S70000x1 S70000 [] [0] [0] 1
  gather_S10000_S70000x1_S70000_n_0_n_n_0_1_1_wf : GatherDims.WF S10000 S70000x1 S70000 [] [0] [] [0] [] 1 ![1]
  scatter_S10240x10240_S70000x2_S70000_n_01_01_1_wf : ScatterDims.WF S10240x10240 S70000x2 S70000 [] [0, 1] [0, 1] 1
  dot_S2048x515_S515x256_S2048x256_1_0_0_1_n_n_wf : DotDims.WF S2048x515 S515x256 S2048x256 [1] [0] [0] [1] [] []
  dot_S2048x256_S256x256_S2048x256_1_0_0_1_n_n_wf : DotDims.WF S2048x256 S256x256 S2048x256 [1] [0] [0] [1] [] []
  dot_S1280x1280_S1280x2048_S1280x2048_1_0_0_1_n_n_wf : DotDims.WF S1280x1280 S1280x2048 S1280x2048 [1] [0] [0] [1] [] []
  dot_S2048x256_S256x3_S2048x3_1_0_0_1_n_n_wf : DotDims.WF S2048x256 S256x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x515.size a ≤ S81920x515.size a
  hwx0_0 : ∀ i : grid0.Coords, EltTy.bits .f32 = 32 ∨ (Rect.block (s := S81920x515) S2048x515.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S515x256.size a ≤ S515x256.size a
  hwx0_1 : ∀ i : grid0.Coords, EltTy.bits .f32 = 32 ∨ (Rect.block (s := S515x256) S515x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S81920x256.size a
  hwx0_3 : ∀ i : grid0.Coords, EltTy.bits .bf16 = 32 ∨ (Rect.block (s := S81920x256) S2048x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S81920x256.size a
  hwx1_0 : ∀ i : grid1.Coords, EltTy.bits .bf16 = 32 ∨ (Rect.block (s := S81920x256) S2048x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S81920x256.size a
  hwx1_2 : ∀ i : grid1.Coords, EltTy.bits .bf16 = 32 ∨ (Rect.block (s := S81920x256) S2048x256.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1280x1280.size a ≤ S10240x10240.size a
  hwx2_0 : ∀ i : grid2.Coords, EltTy.bits .bf16 = 32 ∨ (Rect.block (s := S10240x10240) S1280x1280.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1280x2048.size a ≤ S10240x2048.size a
  hwx2_1 : ∀ i : grid2.Coords, EltTy.bits .bf16 = 32 ∨ (Rect.block (s := S10240x2048) S1280x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1280x2048.size a ≤ S10240x2048.size a
  hwx2_3 : ∀ i : grid2.Coords, EltTy.bits .bf16 = 32 ∨ (Rect.block (s := S10240x2048) S1280x2048.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S81920x256.size a
  hwx3_0 : ∀ i : grid3.Coords, EltTy.bits .bf16 = 32 ∨ (Rect.block (s := S81920x256) S2048x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S81920x256.size a
  hwx3_2 : ∀ i : grid3.Coords, EltTy.bits .bf16 = 32 ∨ (Rect.block (s := S81920x256) S2048x256.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1280x1280.size a ≤ S10240x10240.size a
  hwx4_0 : ∀ i : grid4.Coords, EltTy.bits .bf16 = 32 ∨ (Rect.block (s := S10240x10240) S1280x1280.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1280x2048.size a ≤ S10240x2048.size a
  hwx4_1 : ∀ i : grid4.Coords, EltTy.bits .bf16 = 32 ∨ (Rect.block (s := S10240x2048) S1280x2048.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x2048.size a
  hwx4_2 : ∀ i : grid4.Coords, EltTy.bits .f32 = 32 ∨ (Rect.block (s := S1x2048) S1x2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1280x2048.size a ≤ S10240x2048.size a
  hwx4_3 : ∀ i : grid4.Coords, EltTy.bits .bf16 = 32 ∨ (Rect.block (s := S10240x2048) S1280x2048.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x256.size a ≤ S81920x256.size a
  hwx5_0 : ∀ i : grid5.Coords, EltTy.bits .bf16 = 32 ∨ (Rect.block (s := S81920x256) S2048x256.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x256.size a ≤ S81920x256.size a
  hwx5_2 : ∀ i : grid5.Coords, EltTy.bits .bf16 = 32 ∨ (Rect.block (s := S81920x256) S2048x256.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1280x1280.size a ≤ S10240x10240.size a
  hwx6_0 : ∀ i : grid6.Coords, EltTy.bits .bf16 = 32 ∨ (Rect.block (s := S10240x10240) S1280x1280.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1280x2048.size a ≤ S10240x2048.size a
  hwx6_1 : ∀ i : grid6.Coords, EltTy.bits .bf16 = 32 ∨ (Rect.block (s := S10240x2048) S1280x2048.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2048.size a ≤ S1x2048.size a
  hwx6_2 : ∀ i : grid6.Coords, EltTy.bits .f32 = 32 ∨ (Rect.block (s := S1x2048) S1x2048.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1280x2048.size a ≤ S10240x2048.size a
  hwx6_3 : ∀ i : grid6.Coords, EltTy.bits .bf16 = 32 ∨ (Rect.block (s := S10240x2048) S1280x2048.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x256.size a ≤ S81920x256.size a
  hwx7_0 : ∀ i : grid7.Coords, EltTy.bits .bf16 = 32 ∨ (Rect.block (s := S81920x256) S2048x256.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x256.size a ≤ S256x256.size a
  hwx7_1 : ∀ i : grid7.Coords, EltTy.bits .f32 = 32 ∨ (Rect.block (s := S256x256) S256x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x256.size a ≤ S81920x256.size a
  hwx7_2 : ∀ i : grid7.Coords, EltTy.bits .bf16 = 32 ∨ (Rect.block (s := S81920x256) S2048x256.size (cc7_transform_2 i) (hinb7_2 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1280x1280.size a ≤ S10240x10240.size a
  hwx8_0 : ∀ i : grid8.Coords, EltTy.bits .bf16 = 32 ∨ (Rect.block (s := S10240x10240) S1280x1280.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1280x2048.size a ≤ S10240x2048.size a
  hwx8_1 : ∀ i : grid8.Coords, EltTy.bits .bf16 = 32 ∨ (Rect.block (s := S10240x2048) S1280x2048.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x2048.size a ≤ S1x2048.size a
  hwx8_2 : ∀ i : grid8.Coords, EltTy.bits .f32 = 32 ∨ (Rect.block (s := S1x2048) S1x2048.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1280x2048.size a ≤ S10240x2048.size a
  hwx8_3 : ∀ i : grid8.Coords, EltTy.bits .bf16 = 32 ∨ (Rect.block (s := S10240x2048) S1280x2048.size (cc8_transform_3 i) (hinb8_3 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x256.size a ≤ S81920x256.size a
  hwx9_0 : ∀ i : grid9.Coords, EltTy.bits .bf16 = 32 ∨ (Rect.block (s := S81920x256) S2048x256.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x256.size a ≤ S256x256.size a
  hwx9_1 : ∀ i : grid9.Coords, EltTy.bits .f32 = 32 ∨ (Rect.block (s := S256x256) S256x256.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2048x256.size a ≤ S81920x256.size a
  hwx9_2 : ∀ i : grid9.Coords, EltTy.bits .bf16 = 32 ∨ (Rect.block (s := S81920x256) S2048x256.size (cc9_transform_2 i) (hinb9_2 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1280x1280.size a ≤ S10240x10240.size a
  hwx10_0 : ∀ i : grid10.Coords, EltTy.bits .bf16 = 32 ∨ (Rect.block (s := S10240x10240) S1280x1280.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1280x2048.size a ≤ S10240x2048.size a
  hwx10_1 : ∀ i : grid10.Coords, EltTy.bits .bf16 = 32 ∨ (Rect.block (s := S10240x2048) S1280x2048.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x2048.size a ≤ S1x2048.size a
  hwx10_2 : ∀ i : grid10.Coords, EltTy.bits .f32 = 32 ∨ (Rect.block (s := S1x2048) S1x2048.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1280x2048.size a ≤ S10240x2048.size a
  hwx10_3 : ∀ i : grid10.Coords, EltTy.bits .bf16 = 32 ∨ (Rect.block (s := S10240x2048) S1280x2048.size (cc10_transform_3 i) (hinb10_3 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2048x256.size a ≤ S81920x256.size a
  hwx11_0 : ∀ i : grid11.Coords, EltTy.bits .bf16 = 32 ∨ (Rect.block (s := S81920x256) S2048x256.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S256x3.size a ≤ S256x3.size a
  hwx11_1 : ∀ i : grid11.Coords, EltTy.bits .f32 = 32 ∨ (Rect.block (s := S256x3) S256x3.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x3.size a ≤ S1x3.size a
  hwx11_2 : ∀ i : grid11.Coords, EltTy.bits .f32 = 32 ∨ (Rect.block (s := S1x3) S1x3.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2048x3.size a ≤ S81920x3.size a
  hwx11_3 : ∀ i : grid11.Coords, EltTy.bits .f32 = 32 ∨ (Rect.block (s := S81920x3) S2048x3.size (cc11_transform_3 i) (hinb11_3 i)).WholeWords (EltTy.packing .f32)

variable [Facts₀]

def scatter_S10000_S70000x1_S70000_n_0_0_1 : ScatterDims S10000 S70000x1 S70000 where
  updateWindowDims := []
  insertedWindowDims := [0]
  scatterDimsToOperandDims := [0]
  indexVectorDim := 1
  wf := scatter_S10000_S70000x1_S70000_n_0_0_1_wf
def gather_S10000_S70000x1_S70000_n_0_n_n_0_1_1 : GatherDims S10000 S70000x1 S70000 where
  offsetDims := []
  collapsedSliceDims := [0]
  operandBatchingDims := []
  startIndicesBatchingDims := []
  startIndexMap := [0]
  indexVectorDim := 1
  sliceSizes := ![1]
  wf := gather_S10000_S70000x1_S70000_n_0_n_n_0_1_1_wf
def scatter_S10240x10240_S70000x2_S70000_n_01_01_1 : ScatterDims S10240x10240 S70000x2 S70000 where
  updateWindowDims := []
  insertedWindowDims := [0, 1]
  scatterDimsToOperandDims := [0, 1]
  indexVectorDim := 1
  wf := scatter_S10240x10240_S70000x2_S70000_n_01_01_1_wf
def dot_S2048x515_S515x256_S2048x256_1_0_0_1_n_n : DotDims S2048x515 S515x256 S2048x256 where
  lhsContracting := [1]
  rhsContracting := [0]
  lhsNonContracting := [0]
  rhsNonContracting := [1]
  lhsBatch := []
  rhsBatch := []
  wf := dot_S2048x515_S515x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1280x1280_S1280x2048_S1280x2048_1_0_0_1_n_n : DotDims S1280x1280 S1280x2048 S1280x2048 where
  lhsContracting := [1]
  rhsContracting := [0]
  lhsNonContracting := [0]
  rhsNonContracting := [1]
  lhsBatch := []
  rhsBatch := []
  wf := dot_S1280x1280_S1280x2048_S1280x2048_1_0_0_1_n_n_wf
def dot_S2048x256_S256x3_S2048x3_1_0_0_1_n_n : DotDims S2048x256 S256x3 S2048x3 where
  lhsContracting := [1]
  rhsContracting := [0]
  lhsNonContracting := [0]
  rhsNonContracting := [1]
  lhsBatch := []
  rhsBatch := []
  wf := dot_S2048x256_S256x3_S2048x3_1_0_0_1_n_n_wf

abbrev win0_0 : Pipeline.Window sig grid0 :=
  Pipeline.Window.ofSpec (Memref.whole main_v55) S2048x515.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S515x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v56) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v57) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v59) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S1280x1280.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S1280x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v71) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S1280x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v75) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S2048x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v45) S1280x1280.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S1280x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v87) S1x2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S1280x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v91) S2048x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v94) S2048x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v45) S1280x1280.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v97) S1280x2048.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v103) S1x2048.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v104) S1280x2048.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v107) S2048x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v109) S256x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v110) S2048x256.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v45) S1280x1280.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v113) S1280x2048.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v119) S1x2048.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v120) S1280x2048.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

abbrev win9_0 : Pipeline.Window sig grid9 :=
  Pipeline.Window.ofSpec (Memref.whole main_v123) S2048x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v125) S256x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v126) S2048x256.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v45) S1280x1280.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v129) S1280x2048.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v135) S1x2048.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v136) S1280x2048.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun _ => false | 3 => fun i => !(k10_cond2 i == 1#1) | ⟨_ + 4, h⟩ => absurd h (Nat.not_lt.2 (Nat.le_add_left _ _))

abbrev win11_0 : Pipeline.Window sig grid11 :=
  Pipeline.Window.ofSpec (Memref.whole main_v139) S2048x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v54) S256x3.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v140) S1x3.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v141) S2048x3.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S10000x3 : Shape := ⟨2, ![10000, 3]⟩
abbrev S8x512 : Shape := ⟨2, ![8, 512]⟩
abbrev S2x60000 : Shape := ⟨2, ![2, 60000]⟩
abbrev S256x515 : Shape := ⟨2, ![256, 515]⟩
abbrev S256 : Shape := ⟨1, ![256]⟩
abbrev S5x256x256 : Shape := ⟨3, ![5, 256, 256]⟩
abbrev S5x256 : Shape := ⟨2, ![5, 256]⟩
abbrev S3x256 : Shape := ⟨2, ![3, 256]⟩
abbrev S3 : Shape := ⟨1, ![3]⟩
abbrev S1x10000x3 : Shape := ⟨3, ![1, 10000, 3]⟩
abbrev S8x10000x3 : Shape := ⟨3, ![8, 10000, 3]⟩
abbrev S8x1x512 : Shape := ⟨3, ![8, 1, 512]⟩
abbrev S8x10000x512 : Shape := ⟨3, ![8, 10000, 512]⟩
abbrev S8x10000x515 : Shape := ⟨3, ![8, 10000, 515]⟩
abbrev S8x10000x256 : Shape := ⟨3, ![8, 10000, 256]⟩
abbrev S1x1x256 : Shape := ⟨3, ![1, 1, 256]⟩
abbrev S_ : Shape := ⟨0, ![]⟩
abbrev S1x60000 : Shape := ⟨2, ![1, 60000]⟩
abbrev S60000 : Shape := ⟨1, ![60000]⟩
abbrev S10000 : Shape := ⟨1, ![10000]⟩
abbrev S70000 : Shape := ⟨1, ![70000]⟩
abbrev S70000x1 : Shape := ⟨2, ![70000, 1]⟩
abbrev S1x256x256 : Shape := ⟨3, ![1, 256, 256]⟩
abbrev S256x256 : Shape := ⟨2, ![256, 256]⟩
abbrev S8x70000x256 : Shape := ⟨3, ![8, 70000, 256]⟩
abbrev S1x70000x1 : Shape := ⟨3, ![1, 70000, 1]⟩
abbrev S1x256 : Shape := ⟨2, ![1, 256]⟩
abbrev S1x1x3 : Shape := ⟨3, ![1, 1, 3]⟩

abbrev nBuf : Space → Nat
  | .hbm => 235
  | .vmem => 0
  | .smem => 0
  | _ => 0

abbrev hbmTy0_0 (i : Nat) : BufTy := match i % 128 with
  | 0 => ⟨S10000x3, .f32⟩
  | 1 => ⟨S8x512, .f32⟩
  | 2 => ⟨S2x60000, .i32⟩
  | 3 => ⟨S256x515, .f32⟩
  | 4 => ⟨S256, .f32⟩
  | 5 => ⟨S5x256x256, .f32⟩
  | 6 => ⟨S5x256, .f32⟩
  | 7 => ⟨S3x256, .f32⟩
  | 8 => ⟨S3, .f32⟩
  | 9 => ⟨S1x10000x3, .f32⟩
  | 10 => ⟨S8x10000x3, .f32⟩
  | 11 => ⟨S8x1x512, .f32⟩
  | 12 => ⟨S8x10000x512, .f32⟩
  | 13 => ⟨S8x10000x515, .f32⟩
  | 14 => ⟨S8x10000x256, .f32⟩
  | 15 => ⟨S1x1x256, .f32⟩
  | 16 => ⟨S8x10000x256, .f32⟩
  | 17 => ⟨S8x10000x256, .f32⟩
  | 18 => ⟨S_, .f32⟩
  | 19 => ⟨S8x10000x256, .f32⟩
  | 20 => ⟨S8x10000x256, .f32⟩
  | 21 => ⟨S1x60000, .i32⟩
  | 22 => ⟨S60000, .i32⟩
  | 23 => ⟨S1x60000, .i32⟩
  | 24 => ⟨S60000, .i32⟩
  | 25 => ⟨S10000, .i32⟩
  | 26 => ⟨S70000, .i32⟩
  | 27 => ⟨S70000, .i32⟩
  | 28 => ⟨S_, .f32⟩
  | 29 => ⟨S70000, .f32⟩
  | 30 => ⟨S_, .f32⟩
  | 31 => ⟨S10000, .f32⟩
  | 32 => ⟨S70000x1, .i32⟩
  | 33 => ⟨S10000, .f32⟩
  | 34 => ⟨S_, .f32⟩
  | 35 => ⟨S10000, .f32⟩
  | 36 => ⟨S10000, .i1⟩
  | 37 => ⟨S10000, .f32⟩
  | 38 => ⟨S_, .f32⟩
  | 39 => ⟨S_, .f32⟩
  | 40 => ⟨S10000, .f32⟩
  | 41 => ⟨S10000, .f32⟩
  | 42 => ⟨S_, .i32⟩
  | 43 => ⟨S70000, .i32⟩
  | 44 => ⟨S70000, .i1⟩
  | 45 => ⟨S_, .i32⟩
  | 46 => ⟨S70000, .i32⟩
  | 47 => ⟨S70000, .i32⟩
  | 48 => ⟨S70000, .i32⟩
  | 49 => ⟨S70000x1, .i32⟩
  | 50 => ⟨S70000, .f32⟩
  | 51 => ⟨S_, .i32⟩
  | 52 => ⟨S70000, .i32⟩
  | 53 => ⟨S70000, .i1⟩
  | 54 => ⟨S_, .i32⟩
  | 55 => ⟨S70000, .i32⟩
  | 56 => ⟨S70000, .i32⟩
  | 57 => ⟨S70000, .i32⟩
  | 58 => ⟨S70000x1, .i32⟩
  | 59 => ⟨S70000, .f32⟩
  | 60 => ⟨S70000, .f32⟩
  | 61 => ⟨S1x256x256, .f32⟩
  | 62 => ⟨S256x256, .f32⟩
  | 63 => ⟨S8x10000x256, .f32⟩
  | 64 => ⟨S_, .i32⟩
  | 65 => ⟨S70000, .i32⟩
  | 66 => ⟨S70000, .i1⟩
  | 67 => ⟨S_, .i32⟩
  | 68 => ⟨S70000, .i32⟩
  | 69 => ⟨S70000, .i32⟩
  | 70 => ⟨S70000, .i32⟩
  | 71 => ⟨S70000x1, .i32⟩
  | 72 => ⟨S8x70000x256, .f32⟩
  | 73 => ⟨S1x70000x1, .f32⟩
  | 74 => ⟨S8x70000x256, .f32⟩
  | 75 => ⟨S8x70000x256, .f32⟩
  | 76 => ⟨S_, .f32⟩
  | 77 => ⟨S8x10000x256, .f32⟩
  | 78 => ⟨S_, .i32⟩
  | 79 => ⟨S70000, .i32⟩
  | 80 => ⟨S70000, .i1⟩
  | 81 => ⟨S_, .i32⟩
  | 82 => ⟨S70000, .i32⟩
  | 83 => ⟨S70000, .i32⟩
  | 84 => ⟨S70000, .i32⟩
  | 85 => ⟨S70000x1, .i32⟩
  | 86 => ⟨S8x10000x256, .f32⟩
  | 87 => ⟨S1x256, .f32⟩
  | 88 => ⟨S256, .f32⟩
  | 89 => ⟨S1x1x256, .f32⟩
  | 90 => ⟨S8x10000x256, .f32⟩
  | 91 => ⟨S8x10000x256, .f32⟩
  | 92 => ⟨S_, .f32⟩
  | 93 => ⟨S8x10000x256, .f32⟩
  | 94 => ⟨S8x10000x256, .f32⟩
  | 95 => ⟨S1x256x256, .f32⟩
  | 96 => ⟨S256x256, .f32⟩
  | 97 => ⟨S8x10000x256, .f32⟩
  | 98 => ⟨S_, .i32⟩
  | 99 => ⟨S70000, .i32⟩
  | 100 => ⟨S70000, .i1⟩
  | 101 => ⟨S_, .i32⟩
  | 102 => ⟨S70000, .i32⟩
  | 103 => ⟨S70000, .i32⟩
  | 104 => ⟨S70000, .i32⟩
  | 105 => ⟨S70000x1, .i32⟩
  | 106 => ⟨S8x70000x256, .f32⟩
  | 107 => ⟨S1x70000x1, .f32⟩
  | 108 => ⟨S8x70000x256, .f32⟩
  | 109 => ⟨S8x70000x256, .f32⟩
  | 110 => ⟨S_, .f32⟩
  | 111 => ⟨S8x10000x256, .f32⟩
  | 112 => ⟨S_, .i32⟩
  | 113 => ⟨S70000, .i32⟩
  | 114 => ⟨S70000, .i1⟩
  | 115 => ⟨S_, .i32⟩
  | 116 => ⟨S70000, .i32⟩
  | 117 => ⟨S70000, .i32⟩
  | 118 => ⟨S70000, .i32⟩
  | 119 => ⟨S70000x1, .i32⟩
  | 120 => ⟨S8x10000x256, .f32⟩
  | 121 => ⟨S1x256, .f32⟩
  | 122 => ⟨S256, .f32⟩
  | 123 => ⟨S1x1x256, .f32⟩
  | 124 => ⟨S8x10000x256, .f32⟩
  | 125 => ⟨S8x10000x256, .f32⟩
  | 126 => ⟨S_, .f32⟩
  | 127 => ⟨S8x10000x256, .f32⟩
  | _ => ⟨S10000x3, .f32⟩

abbrev hbmTy0_1 (i : Nat) : BufTy := match i % 128 with
  | 0 => ⟨S8x10000x256, .f32⟩
  | 1 => ⟨S1x256x256, .f32⟩
  | 2 => ⟨S256x256, .f32⟩
  | 3 => ⟨S8x10000x256, .f32⟩
  | 4 => ⟨S_, .i32⟩
  | 5 => ⟨S70000, .i32⟩
  | 6 => ⟨S70000, .i1⟩
  | 7 => ⟨S_, .i32⟩
  | 8 => ⟨S70000, .i32⟩
  | 9 => ⟨S70000, .i32⟩
  | 10 => ⟨S70000, .i32⟩
  | 11 => ⟨S70000x1, .i32⟩
  | 12 => ⟨S8x70000x256, .f32⟩
  | 13 => ⟨S1x70000x1, .f32⟩
  | 14 => ⟨S8x70000x256, .f32⟩
  | 15 => ⟨S8x70000x256, .f32⟩
  | 16 => ⟨S_, .f32⟩
  | 17 => ⟨S8x10000x256, .f32⟩
  | 18 => ⟨S_, .i32⟩
  | 19 => ⟨S70000, .i32⟩
  | 20 => ⟨S70000, .i1⟩
  | 21 => ⟨S_, .i32⟩
  | 22 => ⟨S70000, .i32⟩
  | 23 => ⟨S70000, .i32⟩
  | 24 => ⟨S70000, .i32⟩
  | 25 => ⟨S70000x1, .i32⟩
  | 26 => ⟨S8x10000x256, .f32⟩
  | 27 => ⟨S1x256, .f32⟩
  | 28 => ⟨S256, .f32⟩
  | 29 => ⟨S1x1x256, .f32⟩
  | 30 => ⟨S8x10000x256, .f32⟩
  | 31 => ⟨S8x10000x256, .f32⟩
  | 32 => ⟨S_, .f32⟩
  | 33 => ⟨S8x10000x256, .f32⟩
  | 34 => ⟨S8x10000x256, .f32⟩
  | 35 => ⟨S1x256x256, .f32⟩
  | 36 => ⟨S256x256, .f32⟩
  | 37 => ⟨S8x10000x256, .f32⟩
  | 38 => ⟨S_, .i32⟩
  | 39 => ⟨S70000, .i32⟩
  | 40 => ⟨S70000, .i1⟩
  | 41 => ⟨S_, .i32⟩
  | 42 => ⟨S70000, .i32⟩
  | 43 => ⟨S70000, .i32⟩
  | 44 => ⟨S70000, .i32⟩
  | 45 => ⟨S70000x1, .i32⟩
  | 46 => ⟨S8x70000x256, .f32⟩
  | 47 => ⟨S1x70000x1, .f32⟩
  | 48 => ⟨S8x70000x256, .f32⟩
  | 49 => ⟨S8x70000x256, .f32⟩
  | 50 => ⟨S_, .f32⟩
  | 51 => ⟨S8x10000x256, .f32⟩
  | 52 => ⟨S_, .i32⟩
  | 53 => ⟨S70000, .i32⟩
  | 54 => ⟨S70000, .i1⟩
  | 55 => ⟨S_, .i32⟩
  | 56 => ⟨S70000, .i32⟩
  | 57 => ⟨S70000, .i32⟩
  | 58 => ⟨S70000, .i32⟩
  | 59 => ⟨S70000x1, .i32⟩
  | 60 => ⟨S8x10000x256, .f32⟩
  | 61 => ⟨S1x256, .f32⟩
  | 62 => ⟨S256, .f32⟩
  | 63 => ⟨S1x1x256, .f32⟩
  | 64 => ⟨S8x10000x256, .f32⟩
  | 65 => ⟨S8x10000x256, .f32⟩
  | 66 => ⟨S_, .f32⟩
  | 67 => ⟨S8x10000x256, .f32⟩
  | 68 => ⟨S8x10000x256, .f32⟩
  | 69 => ⟨S1x256x256, .f32⟩
  | 70 => ⟨S256x256, .f32⟩
  | 71 => ⟨S8x10000x256, .f32⟩
  | 72 => ⟨S_, .i32⟩
  | 73 => ⟨S70000, .i32⟩
  | 74 => ⟨S70000, .i1⟩
  | 75 => ⟨S_, .i32⟩
  | 76 => ⟨S70000, .i32⟩
  | 77 => ⟨S70000, .i32⟩
  | 78 => ⟨S70000, .i32⟩
  | 79 => ⟨S70000x1, .i32⟩
  | 80 => ⟨S8x70000x256, .f32⟩
  | 81 => ⟨S1x70000x1, .f32⟩
  | 82 => ⟨S8x70000x256, .f32⟩
  | 83 => ⟨S8x70000x256, .f32⟩
  | 84 => ⟨S_, .f32⟩
  | 85 => ⟨S8x10000x256, .f32⟩
  | 86 => ⟨S_, .i32⟩
  | 87 => ⟨S70000, .i32⟩
  | 88 => ⟨S70000, .i1⟩
  | 89 => ⟨S_, .i32⟩
  | 90 => ⟨S70000, .i32⟩
  | 91 => ⟨S70000, .i32⟩
  | 92 => ⟨S70000, .i32⟩
  | 93 => ⟨S70000x1, .i32⟩
  | 94 => ⟨S8x10000x256, .f32⟩
  | 95 => ⟨S1x256, .f32⟩
  | 96 => ⟨S256, .f32⟩
  | 97 => ⟨S1x1x256, .f32⟩
  | 98 => ⟨S8x10000x256, .f32⟩
  | 99 => ⟨S8x10000x256, .f32⟩
  | 100 => ⟨S_, .f32⟩
  | 101 => ⟨S8x10000x256, .f32⟩
  | 102 => ⟨S8x10000x256, .f32⟩
  | 103 => ⟨S8x10000x3, .f32⟩
  | 104 => ⟨S1x1x3, .f32⟩
  | 105 => ⟨S8x10000x3, .f32⟩
  | 106 => ⟨S8x10000x3, .f32⟩
  | _ => ⟨S10000x3, .f32⟩

abbrev hbmTy (i : Nat) : BufTy := match i / 128 with
  | 0 => hbmTy0_0 i
  | 1 => hbmTy0_1 i
  | _ => ⟨S10000x3, .f32⟩

abbrev bufTy : (tb : Table) → Fin (tcTables nBuf tb) → BufTy
  | .hbm, ⟨i, _⟩ => hbmTy i
  | _, _ => ⟨S10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_call1_v0 : Ref sig .tc := ⟨.hbm, 39, rfl⟩
abbrev main_call1_v1 : Ref sig .tc := ⟨.hbm, 40, rfl⟩
abbrev main_v24 : Ref sig .tc := ⟨.hbm, 41, rfl⟩
abbrev main_c : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_6 : Ref sig .tc := ⟨.hbm, 64, rfl⟩
abbrev main_v43 : Ref sig .tc := ⟨.hbm, 65, rfl⟩
abbrev main_v44 : Ref sig .tc := ⟨.hbm, 66, rfl⟩
abbrev main_c_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call2_cst : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_11 : Ref sig .tc := ⟨.hbm, 98, rfl⟩
abbrev main_v70 : Ref sig .tc := ⟨.hbm, 99, rfl⟩
abbrev main_v71 : Ref sig .tc := ⟨.hbm, 100, rfl⟩
abbrev main_c_12 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_13 : Ref sig .tc := ⟨.hbm, 110, rfl⟩
abbrev main_v80 : Ref sig .tc := ⟨.hbm, 111, rfl⟩
abbrev main_c_14 : Ref sig .tc := ⟨.hbm, 112, rfl⟩
abbrev main_v81 : Ref sig .tc := ⟨.hbm, 113, rfl⟩
abbrev main_v82 : Ref sig .tc := ⟨.hbm, 114, rfl⟩
abbrev main_c_15 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call3_cst : Ref sig .tc := ⟨.hbm, 126, rfl⟩
abbrev main_call3_v0 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_16 : Ref sig .tc := ⟨.hbm, 132, rfl⟩
abbrev main_v97 : Ref sig .tc := ⟨.hbm, 133, rfl⟩
abbrev main_v98 : Ref sig .tc := ⟨.hbm, 134, rfl⟩
abbrev main_c_17 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_18 : Ref sig .tc := ⟨.hbm, 144, rfl⟩
abbrev main_v107 : Ref sig .tc := ⟨.hbm, 145, rfl⟩
abbrev main_c_19 : Ref sig .tc := ⟨.hbm, 146, rfl⟩
abbrev main_v108 : Ref sig .tc := ⟨.hbm, 147, rfl⟩
abbrev main_v109 : Ref sig .tc := ⟨.hbm, 148, rfl⟩
abbrev main_c_20 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_call4_cst : Ref sig .tc := ⟨.hbm, 160, rfl⟩
abbrev main_call4_v0 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_c_21 : Ref sig .tc := ⟨.hbm, 166, rfl⟩
abbrev main_v124 : Ref sig .tc := ⟨.hbm, 167, rfl⟩
abbrev main_v125 : Ref sig .tc := ⟨.hbm, 168, rfl⟩
abbrev main_c_22 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_cst_23 : Ref sig .tc := ⟨.hbm, 178, rfl⟩
abbrev main_v134 : Ref sig .tc := ⟨.hbm, 179, rfl⟩
abbrev main_c_24 : Ref sig .tc := ⟨.hbm, 180, rfl⟩
abbrev main_v135 : Ref sig .tc := ⟨.hbm, 181, rfl⟩
abbrev main_v136 : Ref sig .tc := ⟨.hbm, 182, rfl⟩
abbrev main_c_25 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_call5_cst : Ref sig .tc := ⟨.hbm, 194, rfl⟩
abbrev main_call5_v0 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_c_26 : Ref sig .tc := ⟨.hbm, 200, rfl⟩
abbrev main_v151 : Ref sig .tc := ⟨.hbm, 201, rfl⟩
abbrev main_v152 : Ref sig .tc := ⟨.hbm, 202, rfl⟩
abbrev main_c_27 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_cst_28 : Ref sig .tc := ⟨.hbm, 212, rfl⟩
abbrev main_v161 : Ref sig .tc := ⟨.hbm, 213, rfl⟩
abbrev main_c_29 : Ref sig .tc := ⟨.hbm, 214, rfl⟩
abbrev main_v162 : Ref sig .tc := ⟨.hbm, 215, rfl⟩
abbrev main_v163 : Ref sig .tc := ⟨.hbm, 216, rfl⟩
abbrev main_c_30 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_call6_cst : Ref sig .tc := ⟨.hbm, 228, rfl⟩
abbrev main_call6_v0 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩

abbrev nD : Nat := 1
abbrev τ : Topo := Topo.v7x

variable {F : FTy → Type} [FloatOps F]

class Facts₀ : Prop where
  bcast_S10000x3_S1x10000x3_1_2 : S10000x3.BroadcastsInDim S1x10000x3 (![1, 2] : Fin 2 → Fin S1x10000x3.rank)
  bcast_S1x10000x3_S8x10000x3_0_1_2 : S1x10000x3.BroadcastsInDim S8x10000x3 (![0, 1, 2] : Fin 3 → Fin S8x10000x3.rank)
  bcast_S8x512_S8x1x512_0_2 : S8x512.BroadcastsInDim S8x1x512 (![0, 2] : Fin 2 → Fin S8x1x512.rank)
  bcast_S8x1x512_S8x10000x512_0_1_2 : S8x1x512.BroadcastsInDim S8x10000x512 (![0, 1, 2] : Fin 3 → Fin S8x10000x512.rank)
  concatenates_S8x10000x3_S8x10000x512_S8x10000x515_d2 : Shape.Concatenates [S8x10000x3, S8x10000x512] S8x10000x515 2
  bcast_S256_S1x1x256_2 : S256.BroadcastsInDim S1x1x256 (![2] : Fin 1 → Fin S1x1x256.rank)
  bcast_S1x1x256_S8x10000x256_0_1_2 : S1x1x256.BroadcastsInDim S8x10000x256 (![0, 1, 2] : Fin 3 → Fin S8x10000x256.rank)
  bcast_S_S8x10000x256 : S_.BroadcastsInDim S8x10000x256 (![] : Fin 0 → Fin S8x10000x256.rank)
  slices_S2x60000_S1x60000_0_0 : S2x60000.Slices ![0, 0] S1x60000
  shapeCasts_S1x60000_S60000 : S1x60000.ShapeCasts S60000
  slices_S2x60000_S1x60000_1_0 : S2x60000.Slices ![1, 0] S1x60000
  concatenates_S60000_S10000_S70000_d0 : Shape.Concatenates [S60000, S10000] S70000 0
  bcast_S_S70000 : S_.BroadcastsInDim S70000 (![] : Fin 0 → Fin S70000.rank)
  bcast_S_S10000 : S_.BroadcastsInDim S10000 (![] : Fin 0 → Fin S10000.rank)
  bcast_S70000_S70000x1_0 : S70000.BroadcastsInDim S70000x1 (![0] : Fin 1 → Fin S70000x1.rank)
  slices_S5x256x256_S1x256x256_0_0_0 : S5x256x256.Slices ![0, 0, 0] S1x256x256
  shapeCasts_S1x256x256_S256x256 : S1x256x256.ShapeCasts S256x256
  bcast_S70000_S1x70000x1_1 : S70000.BroadcastsInDim S1x70000x1 (![1] : Fin 1 → Fin S1x70000x1.rank)
  bcast_S1x70000x1_S8x70000x256_0_1_2 : S1x70000x1.BroadcastsInDim S8x70000x256 (![0, 1, 2] : Fin 3 → Fin S8x70000x256.rank)
  slices_S5x256_S1x256_0_0 : S5x256.Slices ![0, 0] S1x256
  shapeCasts_S1x256_S256 : S1x256.ShapeCasts S256
  slices_S5x256x256_S1x256x256_1_0_0 : S5x256x256.Slices ![1, 0, 0] S1x256x256
  slices_S5x256_S1x256_1_0 : S5x256.Slices ![1, 0] S1x256
  slices_S5x256x256_S1x256x256_2_0_0 : S5x256x256.Slices ![2, 0, 0] S1x256x256
  slices_S5x256_S1x256_2_0 : S5x256.Slices ![2, 0] S1x256
  slices_S5x256x256_S1x256x256_3_0_0 : S5x256x256.Slices ![3, 0, 0] S1x256x256
  slices_S5x256_S1x256_3_0 : S5x256.Slices ![3, 0] S1x256
  slices_S5x256x256_S1x256x256_4_0_0 : S5x256x256.Slices ![4, 0, 0] S1x256x256
  slices_S5x256_S1x256_4_0 : S5x256.Slices ![4, 0] S1x256
  bcast_S3_S1x1x3_2 : S3.BroadcastsInDim S1x1x3 (![2] : Fin 1 → Fin S1x1x3.rank)
  bcast_S1x1x3_S8x10000x3_0_1_2 : S1x1x3.BroadcastsInDim S8x10000x3 (![0, 1, 2] : Fin 3 → Fin S8x10000x3.rank)
  dot_S8x10000x515_S256x515_S8x10000x256_2_1_01_0_n_n_wf : DotDims.WF S8x10000x515 S256x515 S8x10000x256 [2] [1] [0, 1] [0] [] []
  scatter_S10000_S70000x1_S70000_n_0_0_1_wf : ScatterDims.WF S10000 S70000x1 S70000 [] [0] [0] 1
  gather_S10000_S70000x1_S70000_n_0_n_n_0_1_1_wf : GatherDims.WF S10000 S70000x1 S70000 [] [0] [] [0] [] 1 ![1]
  dot_S8x10000x256_S256x256_S8x10000x256_2_1_01_0_n_n_wf : DotDims.WF S8x10000x256 S256x256 S8x10000x256 [2] [1] [0, 1] [0] [] []
  gather_S8x10000x256_S70000x1_S8x70000x256_02_1_n_n_1_1_81256_wf : GatherDims.WF S8x10000x256 S70000x1 S8x70000x256 [0, 2] [1] [] [1] [] 1 ![8, 1, 256]
  scatter_S8x10000x256_S70000x1_S8x70000x256_02_1_1_1_wf : ScatterDims.WF S8x10000x256 S70000x1 S8x70000x256 [0, 2] [1] [1] 1
  dot_S8x10000x256_S3x256_S8x10000x3_2_1_01_0_n_n_wf : DotDims.WF S8x10000x256 S3x256 S8x10000x3 [2] [1] [0, 1] [0] [] []

variable [Facts₀]

def dot_S8x10000x515_S256x515_S8x10000x256_2_1_01_0_n_n : DotDims S8x10000x515 S256x515 S8x10000x256 where
  lhsContracting := [2]
  rhsContracting := [1]
  lhsNonContracting := [0, 1]
  rhsNonContracting := [0]
  lhsBatch := []
  rhsBatch := []
  wf := dot_S8x10000x515_S256x515_S8x10000x256_2_1_01_0_n_n_wf
def scatter_S10000_S70000x1_S70000_n_0_0_1 : ScatterDims S10000 S70000x1 S70000 where
  updateWindowDims := []
  insertedWindowDims := [0]
  scatterDimsToOperandDims := [0]
  indexVectorDim := 1
  wf := scatter_S10000_S70000x1_S70000_n_0_0_1_wf
def gather_S10000_S70000x1_S70000_n_0_n_n_0_1_1 : GatherDims S10000 S70000x1 S70000 where
  offsetDims := []
  collapsedSliceDims := [0]
  operandBatchingDims := []
  startIndicesBatchingDims := []
  startIndexMap := [0]
  indexVectorDim := 1
  sliceSizes := ![1]
  wf := gather_S10000_S70000x1_S70000_n_0_n_n_0_1_1_wf
def dot_S8x10000x256_S256x256_S8x10000x256_2_1_01_0_n_n : DotDims S8x10000x256 S256x256 S8x10000x256 where
  lhsContracting := [2]
  rhsContracting := [1]
  lhsNonContracting := [0, 1]
  rhsNonContracting := [0]
  lhsBatch := []
  rhsBatch := []
  wf := dot_S8x10000x256_S256x256_S8x10000x256_2_1_01_0_n_n_wf
def gather_S8x10000x256_S70000x1_S8x70000x256_02_1_n_n_1_1_81256 : GatherDims S8x10000x256 S70000x1 S8x70000x256 where
  offsetDims := [0, 2]
  collapsedSliceDims := [1]
  operandBatchingDims := []
  startIndicesBatchingDims := []
  startIndexMap := [1]
  indexVectorDim := 1
  sliceSizes := ![8, 1, 256]
  wf := gather_S8x10000x256_S70000x1_S8x70000x256_02_1_n_n_1_1_81256_wf
def scatter_S8x10000x256_S70000x1_S8x70000x256_02_1_1_1 : ScatterDims S8x10000x256 S70000x1 S8x70000x256 where
  updateWindowDims := [0, 2]
  insertedWindowDims := [1]
  scatterDimsToOperandDims := [1]
  indexVectorDim := 1
  wf := scatter_S8x10000x256_S70000x1_S8x70000x256_02_1_1_1_wf
def dot_S8x10000x256_S3x256_S8x10000x3_2_1_01_0_n_n : DotDims S8x10000x256 S3x256 S8x10000x3 where
  lhsContracting := [2]
  rhsContracting := [1]
  lhsNonContracting := [0, 1]
  rhsNonContracting := [0]
  lhsBatch := []
  rhsBatch := []
  wf := dot_S8x10000x256_S3x256_S8x10000x3_2_1_01_0_n_n_wf

class Facts : Prop extends Facts₀ where

variable [Facts]
-- ==== Proof.Lin0.lean ====
import proofs.«169470_j5557687681111_1_alg».proof.Proof.Gen.KernelIdeal.Launch
import proofs.«169470_j5557687681111_1_alg».proof.Proof.Gen.KernelIdeal.Skeleton
import proofs.«169470_j5557687681111_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The input linear layer with bias and rectifier (pallas_call 0): features [81920,515] times weights [515,256], plus bias [1,256], clamped below at zero, by row blocks

The grid has forty points; point `t` takes rows `2048·t … 2048·t + 2047` of the f32 features, rounds them and the
whole f32 weight matrix to bf16, multiplies them accumulating in f32, adds the bias row to every row, takes the maximum
with zero, rounds to bf16, and writes the same rows of the result. The features' block moves with the point and is
fetched at each; the weights and the bias are whole arrays, fetched once; the result's block is written back at each
point. -/

/-- What window `w` of the layer holds for grid point `t`, read out of the arrays as the layer finds them (`V`):
    for the features and the result the `t`-th block of 2048 rows, for the weights and the bias the whole array. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## The input buffers when the body runs -/

/-- The features' staging buffer holds the point's block of rows whenever the body runs, for any proof data over the
    entry arrays `V` whose body leaves that block where it found it. The array's block at a point is `iblk0`
    (`hblock`); the window is an input, never idle and not cut, so a fetch fills the whole buffer with the block, and
    where no fetch happens the block index has not moved since the last one (`Dat.before_in_eq_fetched`). -/
theorem before0_0_of {c : Dev nD} (dat : Dat τ (Elt F) Unit ℕ (Pipeline.UD sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hblock : ∀ t, dat.blockOf 0 t = iblk0 V c 0 t := fun t => by unfold Dat.blockOf iblk0; rw [hA]
  rw [dat.before_in_eq_fetched 0 rfl (fun _ => rfl) (fun _ _ _ => rfl) (fun t => by rw [hafter, hblock]) t d]
  exact hblock t

/-- The weights' staging buffer holds the whole weight matrix whenever the body runs: it is fetched at the first point
    only, its block index is the same at every point, and the body leaves it as found. -/
theorem before0_1_of {c : Dev nD} (dat : Dat τ (Elt F) Unit ℕ (Pipeline.UD sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hblock : ∀ t, dat.blockOf 1 t = iblk0 V c 1 t := fun t => by unfold Dat.blockOf iblk0; rw [hA]
  rw [dat.before_in_eq_fetched 1 rfl (fun _ => rfl) (fun _ _ _ => rfl) (fun t => by rw [hafter, hblock]) t d]
  exact hblock t

/-- The bias row's staging buffer likewise holds the whole bias whenever the body runs. -/
theorem before0_2_of {c : Dev nD} (dat : Dat τ (Elt F) Unit ℕ (Pipeline.UD sig nD τ) ℕ cfg0 c)
    (hA : dat.A 2 = V c (Pipeline.arrRef spec0 2)) (hafter : ∀ t, dat.after 2 t = iblk0 V c 2 t)
    (t : Fin cfg0.N) (d) : dat.before 2 t d = iblk0 V c 2 t := by
  have hblock : ∀ t, dat.blockOf 2 t = iblk0 V c 2 t := fun t => by unfold Dat.blockOf iblk0; rw [hA]
  rw [dat.before_in_eq_fetched 2 rfl (fun _ => rfl) (fun _ _ _ => rfl) (fun t => by rw [hafter, hblock]) t d]
  exact hblock t

/-! ## What the body does to its buffers -/

/-- The body touches each staging buffer as a whole: the 2048x515 block of features, -/
abbrev rowsAll0 : Rect S2048x515 := Rect.unit (s := S2048x515) ![0, 0] S2048x515.size inb_S2048x515_S2048x515_0_0
/-- the 515x256 weights, -/
abbrev weightsAll0 : Rect S515x256 := Rect.unit (s := S515x256) ![0, 0] S515x256.size inb_S515x256_S515x256_0_0
/-- the 1x256 bias row, -/
abbrev biasAll0 : Rect S1x256 := Rect.unit (s := S1x256) ![0, 0] S1x256.size inb_S1x256_S1x256_0_0
/-- and the 2048x256 result block. -/
abbrev resultAll0 : Rect S2048x256 := Rect.unit (s := S2048x256) ![0, 0] S2048x256.size inb_S2048x256_S2048x256_0_0

/-- The result block the body leaves from a block `x` of features, the weights `wt` and the bias `b`: its one store
    writes `k0_pay1` of what it loaded (the rounded product plus the bias, clamped below at zero, rounded to bf16) over the whole buffer. -/
def out0_3 (x : Vec F S2048x515 .f32) (wt : Vec F S515x256 .f32) (b : Vec F S1x256 .f32) : Vec F S2048x256 .bf16 :=
  View.canon [⟨resultAll0, k0_pay1 (View.ld x rowsAll0) (View.ld wt weightsAll0) (View.ld b biasAll0)⟩]

/-- That one store is of the whole 2048x256 shape, so it covers the buffer. -/
theorem store_covers0 (p : Vec F S2048x256 .bf16) (y : S2048x256.Idx) :
    ∃ pc ∈ ([⟨resultAll0, p⟩] : List (View.Piece (Elt F) S2048x256 .bf16)), y ∈ pc.1.set :=
  View.cover_of_wholeMem _ (View.Piece.wholeMem_here rfl) y

set_option maxHeartbeats 1000000 in
/-- The kernel body on whole staging buffers: given the features' buffer reading `x`, the weights' reading `wt`, the
    bias's reading `b` and the result's holding anything, it returns with the three inputs as they were and the
    result's buffer reading `out0_3 x wt b`. The printed function is its skeleton — three loads, a load of the result
    buffer whose value goes unused, one store —, which is run operation by operation; what the store's writes leave
    reads as their canonical contents because the store covers the buffer. -/
theorem sound_kernel0 (c : Dev nD) (E : Set ℕ) (i : grid0.Coords)
    (xbuf : Memref sig .tc .vmem S2048x515 .f32) (hx : xbuf.IsWhole)
    (wbuf : Memref sig .tc .vmem S515x256 .f32) (hw : wbuf.IsWhole)
    (bbuf : Memref sig .tc .vmem S1x256 .f32) (hb : bbuf.IsWhole)
    (obuf : Memref sig .tc .vmem S2048x256 .bf16) (ho : obuf.IsWhole)
    (x : Vec F S2048x515 .f32) (wt : Vec F S515x256 .f32) (b : Vec F S1x256 .f32) (K : PUnit → sProp 𝕄) :
    iprop(owns (c : Thread nD τ) xbuf fullShare x ∗ owns (c : Thread nD τ) wbuf fullShare wt
        ∗ owns (c : Thread nD τ) bbuf fullShare b ∗ (∃ d, owns (c : Thread nD τ) obuf fullShare d)
        ∗ (iprop(owns (c : Thread nD τ) xbuf fullShare x ∗ owns (c : Thread nD τ) wbuf fullShare wt
            ∗ owns (c : Thread nD τ) bbuf fullShare b ∗ owns (c : Thread nD τ) obuf fullShare (out0_3 x wt b)) -∗ K ⟨⟩))
      ⊢ wp frame (wpE (defs₀ (F := F)) Variants.none c none) E (cc0_kernel i xbuf hx wbuf hw bbuf hb obuf ho) K := by
  simp only [cc0_kernel_eq_skeleton]; unfold cc0_kernel_skel
  unfold owns
  iintro ⟨⟨%fx, %hfx, Hx⟩, ⟨%fw, %hfw, Hw⟩, ⟨%fb, %hfb, Hb⟩, ⟨%d, %fo, -, Ho⟩, Hk⟩
  subst hfx; subst hfw; subst hfb
  sl_exec
  sl_step
  iapply Hk
  isplitl [Hx]
  · iexists fx; isplitr
    · ipureintro; rfl
    · iexact Hx
  isplitl [Hw]
  · iexists fw; isplitr
    · ipureintro; rfl
    · iexact Hw
  isplitl [Hb]
  · iexists fb; isplitr
    · ipureintro; rfl
    · iexact Hb
  iexists _; isplitr
  pick_goal 2
  · iexact Ho
  · ipureintro; exact View.read_writes_eq_canon _ _ _ (store_covers0 _)

/-! ## The pipeline's proof data -/

/-- The proof data of the layer's pipeline on core `c`: the arrays as found (`V`); after the body at point `t` the
    three inputs' buffers at their blocks and the result's at `out0_3` of those; the invariant of a pipeline whose
    body touches only its windows' buffers (`Pipeline.ΦA`); full shares; nothing owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- Its arrays are the entry contents. -/
theorem A_eq0 (c : Dev nD) (w : Fin cfg0.W) : (dat0 V c).A w = V c (Pipeline.arrRef spec0 w) := by
  dsimp only [dat0]

/-- What the body leaves in each window's buffer, one window at a time. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- So the body finds the block of features, the weights and the bias in its input buffers at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- The invariant and the tallies owed are the same before and after every point: the body reads neither. -/
theorem Φ_step0 (c : Dev nD) (t : Fin cfg0.N) : (dat0 V c).Φ t.succ = (dat0 V c).Φ t.castSucc := rfl
theorem owes_step0 (c : Dev nD) (t : Fin cfg0.N) :
    (dat0 V c).owesAt () t.succ = (dat0 V c).owesAt () t.castSucc := rfl

/-! ## The body obligation -/

/-- The body at grid point `t`, window by window: handed the invariant, what is owed, and its four current staging
    buffers holding what `Dat.before` says, it returns them holding what `dat0` says it leaves. The inputs hold their
    blocks (`before0_0`, `before0_1`, `before0_2`), so the kernel's triple applies; the invariant and the tallies
    pass by. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t))) := by
  simp only [before0_0, before0_1, before0_2]
  rw [Φ_step0, owes_step0, after0_0, after0_1, after0_2, after0_3]
  iintro ⟨HΦ, Howed, ⟨%d0, Hx⟩, ⟨%d1, Hw⟩, ⟨%d2, Hb⟩, ⟨%d3, Ho⟩⟩
  iapply (sound_kernel0 c Set.univ (grid0.coords t) _ _ _ _ _ _ _ _
    (iblk0 V c 0 t) (iblk0 V c 1 t) (iblk0 V c 2 t) _)
  isplitl [Hx]; · iexact Hx
  isplitl [Hw]; · iexact Hw
  isplitl [Hb]; · iexact Hb
  isplitl [Ho]; · iexists _; iexact Ho
  iintro ⟨Hx, Hw, Hb, Ho⟩
  isplitl [HΦ]; · iexact HΦ
  isplitl [Howed]; · iexact Howed
  isplitl [Hx]; · iexact Hx
  isplitl [Hw]; · iexact Hw
  isplitl [Hb]; · iexact Hb
  iexact Ho

/-- The library's body obligation for the layer, at every grid point. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand
-- ==== Proof.Lin1.lean ====
import proofs.«169470_j5557687681111_1_alg».proof.Proof.Gen.KernelIdeal.Launch
import proofs.«169470_j5557687681111_1_alg».proof.Proof.Gen.KernelIdeal.Skeleton
import proofs.«169470_j5557687681111_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The first bias-free linear layer (pallas_call 1): activations [81920,256] times weights [256,256], by row blocks

The grid has forty points; point `t` multiplies rows `2048·t … 2048·t + 2047` of the bf16 activations by the whole
f32 weight matrix (rounded to bf16, accumulated in f32, rounded back to bf16) and writes the same rows of the result.
The activations' block moves with the point and is fetched at each; the weights' block is the whole matrix, fetched
once; the result's block is written back at each point. -/

/-- What window `w` of the layer holds for grid point `t`, read out of the arrays as the layer finds them (`V`):
    for the activations and the result the `t`-th block of 2048 rows, for the weights the whole matrix. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The input buffers when the body runs -/

/-- The activations' staging buffer holds the point's block of rows whenever the body runs, for any proof data over
    the entry arrays `V` whose body leaves that block where it found it. The array's block at a point is `iblk1`
    (`hblock`); the window is an input, never idle and not cut, so a fetch fills the whole buffer with the block, and
    where no fetch happens the block index has not moved since the last one (`Dat.before_in_eq_fetched`). -/
theorem before1_0_of {c : Dev nD} (dat : Dat τ (Elt F) Unit ℕ (Pipeline.UD sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  have hblock : ∀ t, dat.blockOf 0 t = iblk1 V c 0 t := fun t => by unfold Dat.blockOf iblk1; rw [hA]
  rw [dat.before_in_eq_fetched 0 rfl (fun _ => rfl) (fun _ _ _ => rfl) (fun t => by rw [hafter, hblock]) t d]
  exact hblock t

/-- The weights' staging buffer holds the whole weight matrix whenever the body runs: it is fetched at the first point
    only, its block index is the same at every point, and the body leaves it as found. -/
theorem before1_1_of {c : Dev nD} (dat : Dat τ (Elt F) Unit ℕ (Pipeline.UD sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  have hblock : ∀ t, dat.blockOf 1 t = iblk1 V c 1 t := fun t => by unfold Dat.blockOf iblk1; rw [hA]
  rw [dat.before_in_eq_fetched 1 rfl (fun _ => rfl) (fun _ _ _ => rfl) (fun t => by rw [hafter, hblock]) t d]
  exact hblock t

/-! ## What the body does to its buffers -/

/-- The body touches each staging buffer as a whole: all 2048 rows by 256 columns of an activation block, -/
abbrev rowsAll1 : Rect S2048x256 := Rect.unit (s := S2048x256) ![0, 0] S2048x256.size inb_S2048x256_S2048x256_0_0
/-- and all 256 by 256 entries of the weights. -/
abbrev weightsAll1 : Rect S256x256 := Rect.unit (s := S256x256) ![0, 0] S256x256.size inb_S256x256_S256x256_0_0

/-- The result block the body leaves from an activation block `h` and the weights `wt`: its one store writes the
    product `k1_pay1` of what it loaded over the whole buffer. -/
def out1_2 (h : Vec F S2048x256 .bf16) (wt : Vec F S256x256 .f32) : Vec F S2048x256 .bf16 :=
  View.canon [⟨rowsAll1, k1_pay1 (View.ld h rowsAll1) (View.ld wt weightsAll1)⟩]

/-- That one store is of the whole 2048 by 256 shape, so it covers the buffer. -/
theorem store_covers1 (p : Vec F S2048x256 .bf16) (y : S2048x256.Idx) :
    ∃ pc ∈ ([⟨rowsAll1, p⟩] : List (View.Piece (Elt F) S2048x256 .bf16)), y ∈ pc.1.set :=
  View.cover_of_wholeMem _ (View.Piece.wholeMem_here rfl) y

set_option maxHeartbeats 1000000 in
/-- The kernel body on whole staging buffers: given the activations' buffer reading `h`, the weights' reading `wt` and
    the result's holding anything, it returns with the two inputs as they were and the result's buffer reading
    `out1_2 h wt`. The printed function is its skeleton — two loads, a load of the result buffer whose value goes
    unused, one store —, which the executor runs; what the store's writes leave reads as their canonical contents
    because the store covers the buffer. -/
theorem sound_kernel1 (c : Dev nD) (E : Set ℕ) (i : grid1.Coords)
    (hbuf : Memref sig .tc .vmem S2048x256 .bf16) (hh : hbuf.IsWhole)
    (wbuf : Memref sig .tc .vmem S256x256 .f32) (hw : wbuf.IsWhole)
    (obuf : Memref sig .tc .vmem S2048x256 .bf16) (ho : obuf.IsWhole)
    (h : Vec F S2048x256 .bf16) (wt : Vec F S256x256 .f32) (K : PUnit → sProp 𝕄) :
    iprop(owns (c : Thread nD τ) hbuf fullShare h ∗ owns (c : Thread nD τ) wbuf fullShare wt
        ∗ (∃ d, owns (c : Thread nD τ) obuf fullShare d)
        ∗ (iprop(owns (c : Thread nD τ) hbuf fullShare h ∗ owns (c : Thread nD τ) wbuf fullShare wt
            ∗ owns (c : Thread nD τ) obuf fullShare (out1_2 h wt)) -∗ K ⟨⟩))
      ⊢ wp frame (wpE (defs₀ (F := F)) Variants.none c none) E (cc1_kernel i hbuf hh wbuf hw obuf ho) K := by
  simp only [cc1_kernel_eq_skeleton]; unfold cc1_kernel_skel
  unfold owns
  iintro ⟨⟨%fh, %hfh, Hh⟩, ⟨%fw, %hfw, Hw⟩, ⟨%d, %fo, -, Ho⟩, Hk⟩
  subst hfh; subst hfw
  sl_exec
  sl_step
  iapply Hk
  isplitl [Hh]
  · iexists fh; isplitr
    · ipureintro; rfl
    · iexact Hh
  isplitl [Hw]
  · iexists fw; isplitr
    · ipureintro; rfl
    · iexact Hw
  iexists _; isplitr
  pick_goal 2
  · iexact Ho
  · ipureintro; exact View.read_writes_eq_canon _ _ _ (store_covers1 _)

/-! ## The pipeline's proof data -/

/-- The proof data of the layer's pipeline on core `c`: the arrays as found (`V`); after the body at point `t` the
    two inputs' buffers at their blocks and the result's at `out1_2` of those; the invariant of a pipeline whose body
    touches only its windows' buffers (`Pipeline.ΦA`); full shares; nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- Its arrays are the entry contents. -/
theorem A_eq1 (c : Dev nD) (w : Fin cfg1.W) : (dat1 V c).A w = V c (Pipeline.arrRef spec1 w) := by
  dsimp only [dat1]

/-- What the body leaves in each window's buffer, one window at a time. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- So the body finds the activations' block and the weights in its input buffers at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The invariant and the tallies owed are the same before and after every point: the body reads neither. -/
theorem Φ_step1 (c : Dev nD) (t : Fin cfg1.N) : (dat1 V c).Φ t.succ = (dat1 V c).Φ t.castSucc := rfl
theorem owes_step1 (c : Dev nD) (t : Fin cfg1.N) :
    (dat1 V c).owesAt () t.succ = (dat1 V c).owesAt () t.castSucc := rfl

/-! ## The body obligation -/

/-- The body at grid point `t`, window by window: handed the invariant, what is owed, and its three current staging
    buffers holding what `Dat.before` says, it returns them holding what `dat1` says it leaves. The inputs hold their
    blocks (`before1_0`, `before1_1`), so the kernel's triple applies; the invariant and the tallies pass by. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  simp only [before1_0, before1_1]
  rw [Φ_step1, owes_step1, after1_0, after1_1, after1_2]
  iintro ⟨HΦ, Howed, ⟨%d0, Hh⟩, ⟨%d1, Hw⟩, ⟨%d2, Ho⟩⟩
  iapply (sound_kernel1 c Set.univ (grid1.coords t) _ _ _ _ _ _ (iblk1 V c 0 t) (iblk1 V c 1 t) _)
  isplitl [Hh]; · iexact Hh
  isplitl [Hw]; · iexact Hw
  isplitl [Ho]; · iexists _; iexact Ho
  iintro ⟨Hh, Hw, Ho⟩
  isplitl [HΦ]; · iexact HΦ
  isplitl [Howed]; · iexact Howed
  isplitl [Hh]; · iexact Hh
  isplitl [Hw]; · iexact Hw
  iexact Ho

/-- The library's body obligation for the layer, at every grid point. -/
theorem body_obligation1 (c : Dev nD) :
    BodyObligation (dat1 (F := F) V c) (defs₀ (F := F)) Variants.none () Set.univ := fun t => by
  rw [bigSep_W1, bigSep_W1]
  exact sound_body1 V c t

end Cert.KernelIdeal.Hand
-- ==== Proof.Agg2.lean ====
import proofs.«169470_j5557687681111_1_alg».proof.Proof.Gen.KernelIdeal.Launch
import proofs.«169470_j5557687681111_1_alg».proof.Proof.Gen.KernelIdeal.Skeleton
import proofs.«169470_j5557687681111_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 2 of @main: the aggregation `out = relu(A · Hc + bias)`, blocked over (i, k) on an 8 × 8 grid

The body keeps an f32 accumulator in a scratch buffer from grid point to grid point: zeroed at k = 0, added into at every
k, and read out into the output block (bias added, clamped at zero, rounded to bf16) at k = 7. -/

/-! ## Whole-buffer accesses

Every load and store of the body goes through the rectangle of the buffer's own sizes at offsets `![0, 0]`. -/

/-- The offsets `![0, 0]` are the zero offsets. -/
theorem offs00 : (![0, 0] : Fin 2 → ℕ) = fun _ => 0 := by
  funext a; fin_cases a <;> rfl

/-- A load through the whole-buffer rectangle of a whole memref held at the contents that read `X` reads `X`. -/
theorem readAt_whole_unread {κ : Kind} {sp : Space} {S : Shape} {e : EltTy} {m : Memref sig κ sp S e} (hm : m.IsWhole)
    {off : Fin S.rank → ℕ} (h0 : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h0]

/-- After a store through the whole-buffer rectangle, made last, the buffer reads as that store's payload. -/
theorem read_writes_whole {κ : Kind} {sp : Space} {S : Shape} {e : EltTy} (v : View sig κ sp S e) (f : v.ty.Contents (Elt F))
    {off : Fin S.rank → ℕ} (h0 : off = fun _ => 0) (inb : ∀ a, off a + S.size a ≤ S.size a) (p : S.Idx → Elt F e)
    (L : List (View.Piece (Elt F) S e)) :
    v.read (Elt F) (v.writes (Elt F) f ((⟨Rect.unit off S.size inb, p⟩ : View.Piece (Elt F) S e) :: L)) = p := by
  rw [View.read_writes_eq_canon v f _ (fun y => ⟨_, List.mem_cons_self, View.mem_set_unit_zero h0 inb y⟩),
    View.canon_cons_unit_zero h0]

/-! ## The body's two conditions -/

/-- The condition of the body's first `scf.if` (zero the accumulator), from the grid coordinates. -/
abbrev isFirstK2 (i : grid2.Coords) : Prop :=
  (Scalar.cmpi .ne (Scalar.extui (Scalar.cmpi .eq (BitVec.ofNat 32 (i 1).val) 0#32)) 0#32) = 1#1
/-- The condition of its second `scf.if` (store the output block). -/
abbrev isLastK2 (i : grid2.Coords) : Prop := k2_cond2 i = 1#1

/-- The first holds at the points with k = 0, -/
theorem isFirstK2_iff : ∀ t : Fin cfg2.N, isFirstK2 (grid2.coords t) ↔ t.val % 8 = 0 :=
  (by decide +kernel : ∀ t : Fin grid2.N, isFirstK2 (grid2.coords t) ↔ t.val % 8 = 0)
/-- the second at the points with k = 7. -/
theorem isLastK2_iff : ∀ t : Fin cfg2.N, isLastK2 (grid2.coords t) ↔ t.val % 8 = 7 :=
  (by decide +kernel : ∀ t : Fin grid2.N, isLastK2 (grid2.coords t) ↔ t.val % 8 = 7)

/-! ## The body's triple, one per case

On whole memrefs: `a`, `h`, `b` are what the three input buffers read, `s` what the accumulator reads on entry. -/

set_option maxHeartbeats 1000000 in
/-- k = 0: the accumulator, whatever it held, ends at `zeros + a · h`; the output buffer is handed back untouched. -/
theorem cc2_first (c : Dev nD) (E : Set ℕ) (i : grid2.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : isFirstK2 i) (hc1 : ¬isLastK2 i)
    (a : Vec F S1280x1280 .bf16) (h : Vec F S1280x2048 .bf16) (b : Vec F S1x2048 .f32) (o : Vec F S1280x2048 .bf16)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ (∃ s, owns (c : Thread nD τ) arg6 fullShare s)
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k2_pay2 (k2_pay1 (F := F)) a h)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f2, %hf2, H2⟩, ⟨%f3, %hf3, H3⟩, ⟨%f4, %hf4, H4⟩, ⟨%f5, %hf5, H5⟩, ⟨%s, %f6, -, H6⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  sl_unfold_run_names
  rw [read_writes_whole _ _ offs00, View.readCov_unit_zero _ offs00, readAt_whole_unread harg2 offs00, readAt_whole_unread harg3 offs00]

set_option maxHeartbeats 1000000 in
/-- 0 < k < 7: the accumulator goes from `s` to `s + a · h`; the output buffer is handed back untouched. -/
theorem cc2_mid (c : Dev nD) (E : Set ℕ) (i : grid2.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK2 i) (hc1 : ¬isLastK2 i)
    (a : Vec F S1280x1280 .bf16) (h : Vec F S1280x2048 .bf16) (b : Vec F S1x2048 .f32) (o : Vec F S1280x2048 .bf16) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k2_pay2 s a h)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [read_writes_whole _ _ offs00, readAt_whole_unread harg6 offs00, readAt_whole_unread harg2 offs00, readAt_whole_unread harg3 offs00]

set_option maxHeartbeats 1000000 in
/-- k = 7: the accumulator goes from `s` to `s + a · h`, and the output buffer, whatever it held, ends at
    `max(s + a · h + b, 0)` rounded to bf16. -/
theorem cc2_last (c : Dev nD) (E : Set ℕ) (i : grid2.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK2 i) (hc1 : isLastK2 i)
    (a : Vec F S1280x1280 .bf16) (h : Vec F S1280x2048 .bf16) (b : Vec F S1x2048 .f32) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ (∃ o, owns (c : Thread nD τ) arg5 fullShare o) ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare (k2_pay3 (k2_pay2 s a h) b) ∗ owns (c : Thread nD τ) arg6 fullShare (k2_pay2 s a h)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f2, %hf2, H2⟩, ⟨%f3, %hf3, H3⟩, ⟨%f4, %hf4, H4⟩, ⟨%o, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [read_writes_whole _ _ offs00, View.readCov_unit_zero _ offs00, readAt_whole_unread harg6 offs00, readAt_whole_unread harg2 offs00,
      readAt_whole_unread harg3 offs00, readAt_whole_unread harg4 offs00]
  iexists _; isplitr
  swap; · iexact H6
  ipureintro
  sl_unfold_run_names
  rw [read_writes_whole _ _ offs00, readAt_whole_unread harg6 offs00, readAt_whole_unread harg2 offs00, readAt_whole_unread harg3 offs00]

section Region

-- the TensorCore's buffer contents when the region is entered: everything below is stated at this parameter
variable (V : (c : Dev nD) → (b : Ref sig .tc) → Buf (Elt F) ((c : Thread nD τ).loc b))

/-! ## The windows' blocks -/

/-- Window `w`'s block at point `t`, read off the window's array as the region finds it. Window 0 is the block (i, k) of
    `A`, window 1 the block (k, 0) of `Hc`, window 2 the bias row, window 3 the block (i, 0) of the output. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulator, point by point -/

/-- What the accumulator holds AFTER the body at point `n`: at a point with k = 0 the product of the point's blocks added
    to zeros, at any other the product added to what the point before left. -/
def accAfter2 (c : Dev nD) : (n : ℕ) → n < cfg2.N → Vec F S1280x2048 .f32
  | 0, hn => k2_pay2 (k2_pay1 (F := F)) (iblk2 V c 0 ⟨0, hn⟩) (iblk2 V c 1 ⟨0, hn⟩)
  | n + 1, hn =>
    if (n + 1) % 8 = 0 then k2_pay2 (k2_pay1 (F := F)) (iblk2 V c 0 ⟨n + 1, hn⟩) (iblk2 V c 1 ⟨n + 1, hn⟩)
    else k2_pay2 (accAfter2 c n (Nat.lt_of_succ_lt hn)) (iblk2 V c 0 ⟨n + 1, hn⟩) (iblk2 V c 1 ⟨n + 1, hn⟩)

/-- At a point with k = 0 the accumulator restarts from zeros. -/
theorem accAfter2_first (c : Dev nD) (t : Fin cfg2.N) (h0 : t.val % 8 = 0) :
    accAfter2 V c t.val t.isLt = k2_pay2 (k2_pay1 (F := F)) (iblk2 V c 0 t) (iblk2 V c 1 t) := by
  obtain ⟨n, hn⟩ := t
  cases n with
  | zero => rfl
  | succ n => exact if_pos h0

/-- At any other point it adds to what the point before left. -/
theorem accAfter2_next (c : Dev nD) (t : Fin cfg2.N) (h0 : ¬t.val % 8 = 0) :
    accAfter2 V c t.val t.isLt
      = k2_pay2 (accAfter2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact if_neg h0

/-- What the scratch holds BEFORE point `t`: what the point before left (before the first point the scratch holds
    anything — the zeros here are a placeholder the invariant does not use). -/
def acc2 (c : Dev nD) (t : Fin (cfg2.N + 1)) : Vec F S1280x2048 .f32 :=
  match t with
  | ⟨0, _⟩ => k2_pay1 (F := F)
  | ⟨n + 1, h⟩ => accAfter2 V c n (Nat.lt_of_succ_lt_succ h)

/-- What the output's staging buffer holds after the body at a point with k = 7: the accumulator, bias added, clamped at
    zero, rounded. (At the other points the body does not touch that buffer and the pipeline does not write it back; the
    proof data's entry there is not consulted.) -/
def out2_3 (c : Dev nD) (t : Fin cfg2.N) : Vec F S1280x2048 .bf16 :=
  k2_pay3 (accAfter2 V c t.val t.isLt) (iblk2 V c 2 t)

/-! ## The row fold: the value the region writes back -/

/-- The accumulator of the row block whose first point is `n0`, after its column blocks 0 … k: a left fold of
    `k2_pay2` from the zeros `k2_pay1` over the blocks at the points `n0`, …, `n0 + k`. -/
def rowAcc2 (c : Dev nD) (n0 : ℕ) : (k : ℕ) → n0 + k < cfg2.N → Vec F S1280x2048 .f32
  | 0, h => k2_pay2 (k2_pay1 (F := F)) (iblk2 V c 0 ⟨n0, h⟩) (iblk2 V c 1 ⟨n0, h⟩)
  | k + 1, h => k2_pay2 (rowAcc2 c n0 k (Nat.lt_of_succ_lt h)) (iblk2 V c 0 ⟨n0 + (k + 1), h⟩) (iblk2 V c 1 ⟨n0 + (k + 1), h⟩)

/-- Within a row block (first point `n0` ≡ 0 mod 8, k < 8) the point-by-point accumulator is the row fold. -/
theorem accAfter2_eq_rowAcc2 (c : Dev nD) (n0 : ℕ) (h0 : n0 % 8 = 0) :
    ∀ (k : ℕ) (_ : k < 8) (h : n0 + k < cfg2.N), accAfter2 V c (n0 + k) h = rowAcc2 V c n0 k h
  | 0, _, h => accAfter2_first V c ⟨n0, h⟩ h0
  | k + 1, hk, h => by
    have hne : ¬(n0 + (k + 1)) % 8 = 0 := by omega
    have e := accAfter2_next V c ⟨n0 + (k + 1), h⟩ hne
    have ih := accAfter2_eq_rowAcc2 c n0 h0 k (by omega) (Nat.lt_of_succ_lt h)
    simp only [Nat.add_succ_sub_one] at e
    rw [e, ih]; rfl

/-- THE VALUE written back for a row block: at a point `t` with k = 7 the output buffer holds `k2_pay3` of the fold of
    `k2_pay2` from `k2_pay1` over the eight points `8 · (t / 8) + k`, k = 0 … 7, and of the bias block. -/
theorem out2_3_last (c : Dev nD) (t : Fin cfg2.N) (h7 : t.val % 8 = 7) :
    out2_3 V c t = k2_pay3 (rowAcc2 V c (8 * (t.val / 8)) 7 (by have := t.isLt; omega)) (iblk2 V c 2 t) := by
  unfold out2_3
  have e : t.val = 8 * (t.val / 8) + 7 := by omega
  have h := accAfter2_eq_rowAcc2 V c (8 * (t.val / 8)) (by omega) 7 (by omega) (by have := t.isLt; omega)
  congr 1
  rw [← h]; congr 1

/-! ## The invariant: the scratch carried from point to point -/

/-- The accumulator scratch as a memref: a whole scoped buffer of the kernel's own, passed beside the windows. -/
abbrev scM2 : Memref sig .tc .vmem S1280x2048 .f32 := Memref.whole cc2_scratch0

/-- Every scoped buffer of the core that is neither a staging buffer of this call nor its scratch, at some contents:
    carried through the region unopened. -/
abbrev others2 (c : Dev nD) : sProp 𝕄 :=
  Pipeline.scopedRestBut (Ix := Unit) (Name := ℕ) (U := Pipeline.UD sig nD τ) (Lvl := ℕ) (Val := Elt F) spec2 c [cc2_scratch0]

/-- The class invariant with the scratch split out and owned as a memref at some contents. -/
theorem PhiA2_eq (c : Dev nD) :
    (Pipeline.ΦA spec2 c : sProp 𝕄)
      = iprop(iprop((∃ d, owns (c : Thread nD τ) scM2 fullShare d) ∗ others2 c) ∗ (∃ r, prngReg c r)) := by
  unfold Pipeline.ΦA; rw [scopedRest2_split]; simp only [scM2, owns_whole]; rfl

/-- The invariant before position `n`: before the first point the class's (the scratch at anything); afterwards the
    same with the scratch at what the point before left in it. -/
def Phi2 (c : Dev nD) : (n : ℕ) → n ≤ cfg2.N → sProp 𝕄
  | 0, _ => Pipeline.ΦA spec2 c
  | n + 1, hn => iprop(iprop(owns (c : Thread nD τ) scM2 fullShare (accAfter2 V c n hn) ∗ others2 c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (accAfter2 V c n hn) ∗ others2 c) ∗ (∃ r, prngReg c r)) := rfl

theorem Phi2_pos (c : Dev nD) (n : ℕ) (h : n ≤ cfg2.N) (hz : n ≠ 0) :
    Phi2 V c n h = iprop(iprop(owns (c : Thread nD τ) scM2 fullShare (accAfter2 V c (n - 1) (by omega)) ∗ others2 c) ∗ (∃ r, prngReg c r)) := by
  cases n with
  | zero => exact absurd rfl hz
  | succ n => rfl

/-! ## The pipeline's proof data -/

/-- The proof data of the region's pipeline on core `c`: the arrays as the region finds them; after the body each input's
    buffer at its block and the output's at `out2_3`; the invariant `Phi2`; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 V c t := by dsimp only [dat2]

/-- The invariant at a point's start, restated at the point's position. -/
theorem Phi2_castSucc (c : Dev nD) (t : Fin cfg2.N) :
    (dat2 V c).Φ t.castSucc = Phi2 V c t.val (Nat.le_of_lt t.isLt) := by
  dsimp only [dat2]; simp only [Fin.coe_castSucc]

/-! ## What the body finds in the inputs' buffers

Each input's current staging buffer holds the window's block at every point, whether the pipeline fetched it there or
not: the body leaves the inputs in place, and an input not fetched at a point has the block index of the point before
(the bias row, fetched once). -/

theorem before2_0 (c : Dev nD) (t : Fin cfg2.N) (d) : (dat2 V c).before 0 t d = iblk2 V c 0 t := by
  have hkeep : ∀ t, (cfg2.win 0).cut (cfg2.grid.coords t) ((dat2 V c).after 0 t) = (dat2 V c).blockOf 0 t := fun t => by
    rw [after2_0]; unfold Dat.blockOf iblk2; rw [A_eq2]; try rfl
  rw [(dat2 V c).before_in_eq_fetched 0 rfl (fun _ => rfl) (fun _ _ _ => rfl) hkeep t d]
  unfold Dat.fetched Dat.blockOf iblk2; rw [A_eq2]; try rfl

theorem before2_1 (c : Dev nD) (t : Fin cfg2.N) (d) : (dat2 V c).before 1 t d = iblk2 V c 1 t := by
  have hkeep : ∀ t, (cfg2.win 1).cut (cfg2.grid.coords t) ((dat2 V c).after 1 t) = (dat2 V c).blockOf 1 t := fun t => by
    rw [after2_1]; unfold Dat.blockOf iblk2; rw [A_eq2]; try rfl
  rw [(dat2 V c).before_in_eq_fetched 1 rfl (fun _ => rfl) (fun _ _ _ => rfl) hkeep t d]
  unfold Dat.fetched Dat.blockOf iblk2; rw [A_eq2]; try rfl

theorem before2_2 (c : Dev nD) (t : Fin cfg2.N) (d) : (dat2 V c).before 2 t d = iblk2 V c 2 t := by
  have hkeep : ∀ t, (cfg2.win 2).cut (cfg2.grid.coords t) ((dat2 V c).after 2 t) = (dat2 V c).blockOf 2 t := fun t => by
    rw [after2_2]; unfold Dat.blockOf iblk2; rw [A_eq2]; try rfl
  rw [(dat2 V c).before_in_eq_fetched 2 rfl (fun _ => rfl) (fun _ _ _ => rfl) hkeep t d]
  unfold Dat.fetched Dat.blockOf iblk2; rw [A_eq2]; try rfl

/-! ## Where the output window is idle -/

/-- Away from k = 7 the printed configuration calls the output window idle (the body does not store into it), -/
theorem idle2_3 : ∀ t : Fin cfg2.N, ¬t.val % 8 = 7 → cfg2.idle 3 (cfg2.grid.coords t) = true := by decide +kernel
/-- and the pipeline does not write its block back; -/
theorem noFlush2_3 (t : Fin cfg2.N) (h : ¬t.val % 8 = 7) : (cfg2.win 3).flush t = false :=
  Bool.eq_false_iff.mpr fun hf => h ((flush2_3 t).mp hf)
/-- at k = 7 it is live. -/
theorem live2_3 : ∀ t : Fin cfg2.N, t.val % 8 = 7 → cfg2.idle 3 (cfg2.grid.coords t) = false := by decide +kernel

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

/-- An input window's buffer is left at its block. -/
theorem leaves2_0 (c : Dev nD) (t : Fin cfg2.N) :
    (dat2 V c).leavesExact 0 t = owns (c : Thread nD τ) (st2_0 t) fullShare (iblk2 V c 0 t) := by
  rw [← after2_0]
theorem leaves2_1 (c : Dev nD) (t : Fin cfg2.N) :
    (dat2 V c).leavesExact 1 t = owns (c : Thread nD τ) (st2_1 t) fullShare (iblk2 V c 1 t) := by
  rw [← after2_1]
theorem leaves2_2 (c : Dev nD) (t : Fin cfg2.N) :
    (dat2 V c).leavesExact 2 t = owns (c : Thread nD τ) (st2_2 t) fullShare (iblk2 V c 2 t) := by
  rw [← after2_2]
/-- The output window's, away from k = 7, as the body found it; at k = 7 at `out2_3`. -/
theorem leaves2_3_idle (c : Dev nD) (t : Fin cfg2.N) (h : ¬t.val % 8 = 7) :
    (dat2 V c).leavesExact 3 t = iprop(∃ d, owns (c : Thread nD τ) (st2_3 t) fullShare ((dat2 V c).before 3 t d)) :=
  Dat.leavesExact_idle (dat2 V c) 3 t (idle2_3 t h) (noFlush2_3 t h)
theorem leaves2_3_live (c : Dev nD) (t : Fin cfg2.N) (h : t.val % 8 = 7) :
    (dat2 V c).leavesExact 3 t = owns (c : Thread nD τ) (st2_3 t) fullShare (out2_3 V c t) := by
  unfold Dat.leavesExact; rw [live2_3 t h, after2_3]

set_option maxHeartbeats 4000000 in
/-- The body at any point. The inputs' memrefs hold their blocks (`before2_W`); the position of the point in its row
    (k = 0, 0 < k < 7, k = 7) says which of the three triples applies; the invariant hands the body the scratch at what
    the point before left (at anything before the first point, and at a k = 0 point the triple asks no more) and takes
    it back at this point's contents; the output's buffer is handed back as found away from k = 7 and at `out2_3`
    there; the other scoped buffers, the generator register and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2, Phi2_castSucc]
  have hN : t.val < 64 := lt_of_lt_of_eq t.isLt (show cfg2.N = 64 from N_2)
  by_cases h0 : t.val % 8 = 0
  · have h7 : ¬t.val % 8 = 7 := by omega
    rw [leaves2_3_idle V c t h7, accAfter2_first V c t h0]
    by_cases hz : t.val = 0
    · rw [Phi2_zero V c _ _ hz, PhiA2_eq]
      iintro ⟨⟨⟨HS, HR⟩, Hg⟩, Ho, ⟨%d0, H0⟩, ⟨%d1, H1⟩, ⟨%d2, H2⟩, ⟨%d3, H3⟩⟩
      iapply (cc2_first c Set.univ (grid2.coords t) _ _ _ _ _ _ _ _ _ _ ((isFirstK2_iff t).mpr h0) (fun h => h7 ((isLastK2_iff t).mp h))
        (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi2_pos V c _ _ hz]
      iintro ⟨⟨⟨HS, HR⟩, Hg⟩, Ho, ⟨%d0, H0⟩, ⟨%d1, H1⟩, ⟨%d2, H2⟩, ⟨%d3, H3⟩⟩
      iapply (cc2_first c Set.univ (grid2.coords t) _ _ _ _ _ _ _ _ _ _ ((isFirstK2_iff t).mpr h0) (fun h => h7 ((isLastK2_iff t).mp h))
        (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [Phi2_pos V c _ _ hz, accAfter2_next V c t h0]
    by_cases h7 : t.val % 8 = 7
    · rw [leaves2_3_live V c t h7]; unfold out2_3; rw [accAfter2_next V c t h0]
      iintro ⟨⟨⟨HS, HR⟩, Hg⟩, Ho, ⟨%d0, H0⟩, ⟨%d1, H1⟩, ⟨%d2, H2⟩, ⟨%d3, H3⟩⟩
      iapply (cc2_last c Set.univ (grid2.coords t) _ _ _ _ _ _ _ _ _ _ (fun h => h0 ((isFirstK2_iff t).mp h)) ((isLastK2_iff t).mpr h7)
        (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [leaves2_3_idle V c t h7]
      iintro ⟨⟨⟨HS, HR⟩, Hg⟩, Ho, ⟨%d0, H0⟩, ⟨%d1, H1⟩, ⟨%d2, H2⟩, ⟨%d3, H3⟩⟩
      iapply (cc2_mid c Set.univ (grid2.coords t) _ _ _ _ _ _ _ _ _ _ (fun h => h0 ((isFirstK2_iff t).mp h)) (fun h => h7 ((isLastK2_iff t).mp h))
        (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Around the invariant: what the region hands it and takes back -/

/-- The invariant before the first point, from the generator register, anything `T` handed beside it (the prefetched
    tables: this pipeline has none, and the invariant keeps nothing of them) and the scoped buffers no window stages. -/
theorem hin2 (c : Dev nD) (T : sProp 𝕄) :
    iprop((∃ r, prngReg c r) ∗ T
        ∗ Pipeline.scopedRest (Ix := Unit) (Name := ℕ) (U := Pipeline.UD sig nD τ) (Lvl := ℕ) (Val := Elt F) spec2 c)
      ⊢ (dat2 V c).Φ 0 := by
  rw [show (dat2 V c).Φ 0 = Phi2 V c 0 (Nat.zero_le _) from rfl, Phi2_zero V c 0 _ rfl]; unfold Pipeline.ΦA
  iintro ⟨Hg, -, Hr⟩
  isplitl [Hr]; · iexact Hr
  iexact Hg

/-- After any point but the first the invariant gives the class's back: the scratch's named contents are forgotten. -/
theorem Phi2_forget (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨HS, HR⟩, Hg⟩
  isplitl [HS HR]
  · isplitl [HS]; · iexists _; iexact HS
    iexact HR
  iexact Hg

/-- The invariant after the last point gives back the generator register, the kernel's own semaphores (it has none) and
    the scoped buffers no window stages. -/
theorem hout2 (c : Dev nD) :
    (dat2 V c).Φ (Fin.last cfg2.N)
      ⊢ iprop((∃ r, prngReg c r)
          ∗ Pipeline.ownSems0 (Ix := Unit) (Name := ℕ) (U := Pipeline.UD sig nD τ) (Lvl := ℕ) (Val := Elt F) (τ := τ) (fun k : PEmpty => k.elim) c
          ∗ Pipeline.scopedRest (Ix := Unit) (Name := ℕ) (U := Pipeline.UD sig nD τ) (Lvl := ℕ) (Val := Elt F) spec2 c) := by
  rw [Pipeline.ownSems0_none]
  refine (Phi2_forget V c _ (by rw [Fin.val_last]; have : cfg2.N = 64 := N_2; omega)).trans ?_
  unfold Pipeline.ΦA
  iintro ⟨Hr, Hg⟩
  isplitl [Hg]; · iexact Hg
  isplitr; · iempintro
  iexact Hr

end Region

end Cert.KernelIdeal.Hand

end
-- ==== Proof.Lin3.lean ====
import proofs.«169470_j5557687681111_1_alg».proof.Proof.Gen.KernelIdeal.Launch
import proofs.«169470_j5557687681111_1_alg».proof.Proof.Gen.KernelIdeal.Skeleton
import proofs.«169470_j5557687681111_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The second bias-free linear layer (pallas_call 3): activations [81920,256] times weights [256,256], by row blocks

The grid has forty points; point `t` multiplies rows `2048·t … 2048·t + 2047` of the bf16 activations by the whole
f32 weight matrix (rounded to bf16, accumulated in f32, rounded back to bf16) and writes the same rows of the result.
The activations' block moves with the point and is fetched at each; the weights' block is the whole matrix, fetched
once; the result's block is written back at each point. -/

/-- What window `w` of the layer holds for grid point `t`, read out of the arrays as the layer finds them (`V`):
    for the activations and the result the `t`-th block of 2048 rows, for the weights the whole matrix. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-! ## The input buffers when the body runs -/

/-- The activations' staging buffer holds the point's block of rows whenever the body runs, for any proof data over
    the entry arrays `V` whose body leaves that block where it found it. The array's block at a point is `iblk3`
    (`hblock`); the window is an input, never idle and not cut, so a fetch fills the whole buffer with the block, and
    where no fetch happens the block index has not moved since the last one (`Dat.before_in_eq_fetched`). -/
theorem before3_0_of {c : Dev nD} (dat : Dat τ (Elt F) Unit ℕ (Pipeline.UD sig nD τ) ℕ cfg3 c)
    (hA : dat.A 0 = V c (Pipeline.arrRef spec3 0)) (hafter : ∀ t, dat.after 0 t = iblk3 V c 0 t)
    (t : Fin cfg3.N) (d) : dat.before 0 t d = iblk3 V c 0 t := by
  have hblock : ∀ t, dat.blockOf 0 t = iblk3 V c 0 t := fun t => by unfold Dat.blockOf iblk3; rw [hA]
  rw [dat.before_in_eq_fetched 0 rfl (fun _ => rfl) (fun _ _ _ => rfl) (fun t => by rw [hafter, hblock]) t d]
  exact hblock t

/-- The weights' staging buffer holds the whole weight matrix whenever the body runs: it is fetched at the first point
    only, its block index is the same at every point, and the body leaves it as found. -/
theorem before3_1_of {c : Dev nD} (dat : Dat τ (Elt F) Unit ℕ (Pipeline.UD sig nD τ) ℕ cfg3 c)
    (hA : dat.A 1 = V c (Pipeline.arrRef spec3 1)) (hafter : ∀ t, dat.after 1 t = iblk3 V c 1 t)
    (t : Fin cfg3.N) (d) : dat.before 1 t d = iblk3 V c 1 t := by
  have hblock : ∀ t, dat.blockOf 1 t = iblk3 V c 1 t := fun t => by unfold Dat.blockOf iblk3; rw [hA]
  rw [dat.before_in_eq_fetched 1 rfl (fun _ => rfl) (fun _ _ _ => rfl) (fun t => by rw [hafter, hblock]) t d]
  exact hblock t

/-! ## What the body does to its buffers -/

/-- The body touches each staging buffer as a whole: all 2048 rows by 256 columns of an activation block, -/
abbrev rowsAll3 : Rect S2048x256 := Rect.unit (s := S2048x256) ![0, 0] S2048x256.size inb_S2048x256_S2048x256_0_0
/-- and all 256 by 256 entries of the weights. -/
abbrev weightsAll3 : Rect S256x256 := Rect.unit (s := S256x256) ![0, 0] S256x256.size inb_S256x256_S256x256_0_0

/-- The result block the body leaves from an activation block `h` and the weights `wt`: its one store writes the
    product `k3_pay1` of what it loaded over the whole buffer. -/
def out3_2 (h : Vec F S2048x256 .bf16) (wt : Vec F S256x256 .f32) : Vec F S2048x256 .bf16 :=
  View.canon [⟨rowsAll3, k3_pay1 (View.ld h rowsAll3) (View.ld wt weightsAll3)⟩]

/-- That one store is of the whole 2048 by 256 shape, so it covers the buffer. -/
theorem store_covers3 (p : Vec F S2048x256 .bf16) (y : S2048x256.Idx) :
    ∃ pc ∈ ([⟨rowsAll3, p⟩] : List (View.Piece (Elt F) S2048x256 .bf16)), y ∈ pc.1.set :=
  View.cover_of_wholeMem _ (View.Piece.wholeMem_here rfl) y

set_option maxHeartbeats 1000000 in
/-- The kernel body on whole staging buffers: given the activations' buffer reading `h`, the weights' reading `wt` and
    the result's holding anything, it returns with the two inputs as they were and the result's buffer reading
    `out3_2 h wt`. The printed function is its skeleton — two loads, a load of the result buffer whose value goes
    unused, one store —, which the executor runs; what the store's writes leave reads as their canonical contents
    because the store covers the buffer. -/
theorem sound_kernel3 (c : Dev nD) (E : Set ℕ) (i : grid3.Coords)
    (hbuf : Memref sig .tc .vmem S2048x256 .bf16) (hh : hbuf.IsWhole)
    (wbuf : Memref sig .tc .vmem S256x256 .f32) (hw : wbuf.IsWhole)
    (obuf : Memref sig .tc .vmem S2048x256 .bf16) (ho : obuf.IsWhole)
    (h : Vec F S2048x256 .bf16) (wt : Vec F S256x256 .f32) (K : PUnit → sProp 𝕄) :
    iprop(owns (c : Thread nD τ) hbuf fullShare h ∗ owns (c : Thread nD τ) wbuf fullShare wt
        ∗ (∃ d, owns (c : Thread nD τ) obuf fullShare d)
        ∗ (iprop(owns (c : Thread nD τ) hbuf fullShare h ∗ owns (c : Thread nD τ) wbuf fullShare wt
            ∗ owns (c : Thread nD τ) obuf fullShare (out3_2 h wt)) -∗ K ⟨⟩))
      ⊢ wp frame (wpE (defs₀ (F := F)) Variants.none c none) E (cc3_kernel i hbuf hh wbuf hw obuf ho) K := by
  simp only [cc3_kernel_eq_skeleton]; unfold cc3_kernel_skel
  unfold owns
  iintro ⟨⟨%fh, %hfh, Hh⟩, ⟨%fw, %hfw, Hw⟩, ⟨%d, %fo, -, Ho⟩, Hk⟩
  subst hfh; subst hfw
  sl_exec
  sl_step
  iapply Hk
  isplitl [Hh]
  · iexists fh; isplitr
    · ipureintro; rfl
    · iexact Hh
  isplitl [Hw]
  · iexists fw; isplitr
    · ipureintro; rfl
    · iexact Hw
  iexists _; isplitr
  pick_goal 2
  · iexact Ho
  · ipureintro; exact View.read_writes_eq_canon _ _ _ (store_covers3 _)

/-! ## The pipeline's proof data -/

/-- The proof data of the layer's pipeline on core `c`: the arrays as found (`V`); after the body at point `t` the
    two inputs' buffers at their blocks and the result's at `out3_2` of those; the invariant of a pipeline whose body
    touches only its windows' buffers (`Pipeline.ΦA`); full shares; nothing owed. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- Its arrays are the entry contents. -/
theorem A_eq3 (c : Dev nD) (w : Fin cfg3.W) : (dat3 V c).A w = V c (Pipeline.arrRef spec3 w) := by
  dsimp only [dat3]

/-- What the body leaves in each window's buffer, one window at a time. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

/-- So the body finds the activations' block and the weights in its input buffers at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- The invariant and the tallies owed are the same before and after every point: the body reads neither. -/
theorem Φ_step3 (c : Dev nD) (t : Fin cfg3.N) : (dat3 V c).Φ t.succ = (dat3 V c).Φ t.castSucc := rfl
theorem owes_step3 (c : Dev nD) (t : Fin cfg3.N) :
    (dat3 V c).owesAt () t.succ = (dat3 V c).owesAt () t.castSucc := rfl

/-! ## The body obligation -/

/-- The body at grid point `t`, window by window: handed the invariant, what is owed, and its three current staging
    buffers holding what `Dat.before` says, it returns them holding what `dat3` says it leaves. The inputs hold their
    blocks (`before3_0`, `before3_1`), so the kernel's triple applies; the invariant and the tallies pass by. -/
theorem sound_body3 (c : Dev nD) (t : Fin cfg3.N) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d)))
      ⊢ wp frame (wpE (defs₀ (F := F)) Variants.none c none) Set.univ (bodyAt3 t) (fun _ =>
          iprop((dat3 V c).Φ t.succ ∗ (dat3 V c).owesAt () t.succ
            ∗ owns (c : Thread nD τ) (st3_0 t) fullShare ((dat3 V c).after 0 t)
            ∗ owns (c : Thread nD τ) (st3_1 t) fullShare ((dat3 V c).after 1 t)
            ∗ owns (c : Thread nD τ) (st3_2 t) fullShare ((dat3 V c).after 2 t))) := by
  simp only [before3_0, before3_1]
  rw [Φ_step3, owes_step3, after3_0, after3_1, after3_2]
  iintro ⟨HΦ, Howed, ⟨%d0, Hh⟩, ⟨%d1, Hw⟩, ⟨%d2, Ho⟩⟩
  iapply (sound_kernel3 c Set.univ (grid3.coords t) _ _ _ _ _ _ (iblk3 V c 0 t) (iblk3 V c 1 t) _)
  isplitl [Hh]; · iexact Hh
  isplitl [Hw]; · iexact Hw
  isplitl [Ho]; · iexists _; iexact Ho
  iintro ⟨Hh, Hw, Ho⟩
  isplitl [HΦ]; · iexact HΦ
  isplitl [Howed]; · iexact Howed
  isplitl [Hh]; · iexact Hh
  isplitl [Hw]; · iexact Hw
  iexact Ho

/-- The library's body obligation for the layer, at every grid point. -/
theorem body_obligation3 (c : Dev nD) :
    BodyObligation (dat3 (F := F) V c) (defs₀ (F := F)) Variants.none () Set.univ := fun t => by
  rw [bigSep_W3, bigSep_W3]
  exact sound_body3 V c t

end Cert.KernelIdeal.Hand
-- ==== Proof.Agg4.lean ====
import proofs.«169470_j5557687681111_1_alg».proof.Proof.Gen.KernelIdeal.Launch
import proofs.«169470_j5557687681111_1_alg».proof.Proof.Gen.KernelIdeal.Skeleton
import proofs.«169470_j5557687681111_1_alg».proof.Proof.Gen.KernelIdeal.Points
import proofs.«169470_j5557687681111_1_alg».proof.Proof.Agg2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 4 of @main: the aggregation `out = relu(A · Hc + bias)`, blocked over (i, k) on an 8 × 8 grid

The same kernel as region 2's on this layer's operands: an f32 accumulator kept in a scratch buffer from grid point to
grid point, zeroed at k = 0, added into at every k, read out into the output block at k = 7. The whole-buffer access
lemmas are region 2's. -/

/-! ## The body's two conditions -/

/-- The condition of the body's first `scf.if` (zero the accumulator), from the grid coordinates. -/
abbrev isFirstK4 (i : grid4.Coords) : Prop :=
  (Scalar.cmpi .ne (Scalar.extui (Scalar.cmpi .eq (BitVec.ofNat 32 (i 1).val) 0#32)) 0#32) = 1#1
/-- The condition of its second `scf.if` (store the output block). -/
abbrev isLastK4 (i : grid4.Coords) : Prop := k4_cond2 i = 1#1

/-- The first holds at the points with k = 0, -/
theorem isFirstK4_iff : ∀ t : Fin cfg4.N, isFirstK4 (grid4.coords t) ↔ t.val % 8 = 0 :=
  (by decide +kernel : ∀ t : Fin grid4.N, isFirstK4 (grid4.coords t) ↔ t.val % 8 = 0)
/-- the second at the points with k = 7. -/
theorem isLastK4_iff : ∀ t : Fin cfg4.N, isLastK4 (grid4.coords t) ↔ t.val % 8 = 7 :=
  (by decide +kernel : ∀ t : Fin grid4.N, isLastK4 (grid4.coords t) ↔ t.val % 8 = 7)

/-! ## The body's triple, one per case

On whole memrefs: `a`, `h`, `b` are what the three input buffers read, `s` what the accumulator reads on entry. -/

set_option maxHeartbeats 1000000 in
/-- k = 0: the accumulator, whatever it held, ends at `zeros + a · h`; the output buffer is handed back untouched. -/
theorem cc4_first (c : Dev nD) (E : Set ℕ) (i : grid4.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : isFirstK4 i) (hc1 : ¬isLastK4 i)
    (a : Vec F S1280x1280 .bf16) (h : Vec F S1280x2048 .bf16) (b : Vec F S1x2048 .f32) (o : Vec F S1280x2048 .bf16)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ (∃ s, owns (c : Thread nD τ) arg6 fullShare s)
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k4_pay2 (k4_pay1 (F := F)) a h)) -∗ K ⟨⟩))
      ⊢ wp frame (wpE (defs₀ (F := F)) Variants.none c none) E (cc4_kernel i arg2 harg2 arg3 harg3 arg4 harg4 arg5 harg5 arg6 harg6) K := by
  simp only [cc4_kernel_eq_skeleton]; unfold cc4_kernel_skel
  unfold owns
  iintro ⟨⟨%f2, %hf2, H2⟩, ⟨%f3, %hf3, H3⟩, ⟨%f4, %hf4, H4⟩, ⟨%f5, %hf5, H5⟩, ⟨%s, %f6, -, H6⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  sl_unfold_run_names
  rw [read_writes_whole _ _ offs00, View.readCov_unit_zero _ offs00, readAt_whole_unread harg2 offs00, readAt_whole_unread harg3 offs00]

set_option maxHeartbeats 1000000 in
/-- 0 < k < 7: the accumulator goes from `s` to `s + a · h`; the output buffer is handed back untouched. -/
theorem cc4_mid (c : Dev nD) (E : Set ℕ) (i : grid4.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK4 i) (hc1 : ¬isLastK4 i)
    (a : Vec F S1280x1280 .bf16) (h : Vec F S1280x2048 .bf16) (b : Vec F S1x2048 .f32) (o : Vec F S1280x2048 .bf16) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k4_pay2 s a h)) -∗ K ⟨⟩))
      ⊢ wp frame (wpE (defs₀ (F := F)) Variants.none c none) E (cc4_kernel i arg2 harg2 arg3 harg3 arg4 harg4 arg5 harg5 arg6 harg6) K := by
  simp only [cc4_kernel_eq_skeleton]; unfold cc4_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [read_writes_whole _ _ offs00, readAt_whole_unread harg6 offs00, readAt_whole_unread harg2 offs00, readAt_whole_unread harg3 offs00]

set_option maxHeartbeats 1000000 in
/-- k = 7: the accumulator goes from `s` to `s + a · h`, and the output buffer, whatever it held, ends at
    `max(s + a · h + b, 0)` rounded to bf16. -/
theorem cc4_last (c : Dev nD) (E : Set ℕ) (i : grid4.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK4 i) (hc1 : isLastK4 i)
    (a : Vec F S1280x1280 .bf16) (h : Vec F S1280x2048 .bf16) (b : Vec F S1x2048 .f32) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ (∃ o, owns (c : Thread nD τ) arg5 fullShare o) ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare (k4_pay3 (k4_pay2 s a h) b) ∗ owns (c : Thread nD τ) arg6 fullShare (k4_pay2 s a h)) -∗ K ⟨⟩))
      ⊢ wp frame (wpE (defs₀ (F := F)) Variants.none c none) E (cc4_kernel i arg2 harg2 arg3 harg3 arg4 harg4 arg5 harg5 arg6 harg6) K := by
  simp only [cc4_kernel_eq_skeleton]; unfold cc4_kernel_skel
  unfold owns
  iintro ⟨⟨%f2, %hf2, H2⟩, ⟨%f3, %hf3, H3⟩, ⟨%f4, %hf4, H4⟩, ⟨%o, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [read_writes_whole _ _ offs00, View.readCov_unit_zero _ offs00, readAt_whole_unread harg6 offs00, readAt_whole_unread harg2 offs00,
      readAt_whole_unread harg3 offs00, readAt_whole_unread harg4 offs00]
  iexists _; isplitr
  swap; · iexact H6
  ipureintro
  sl_unfold_run_names
  rw [read_writes_whole _ _ offs00, readAt_whole_unread harg6 offs00, readAt_whole_unread harg2 offs00, readAt_whole_unread harg3 offs00]

section Region

-- the TensorCore's buffer contents when the region is entered: everything below is stated at this parameter
variable (V : (c : Dev nD) → (b : Ref sig .tc) → Buf (Elt F) ((c : Thread nD τ).loc b))

/-! ## The windows' blocks -/

/-- Window `w`'s block at point `t`, read off the window's array as the region finds it. Window 0 is the block (i, k) of
    `A`, window 1 the block (k, 0) of `Hc`, window 2 the bias row, window 3 the block (i, 0) of the output. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The accumulator, point by point -/

/-- What the accumulator holds AFTER the body at point `n`: at a point with k = 0 the product of the point's blocks added
    to zeros, at any other the product added to what the point before left. -/
def accAfter4 (c : Dev nD) : (n : ℕ) → n < cfg4.N → Vec F S1280x2048 .f32
  | 0, hn => k4_pay2 (k4_pay1 (F := F)) (iblk4 V c 0 ⟨0, hn⟩) (iblk4 V c 1 ⟨0, hn⟩)
  | n + 1, hn =>
    if (n + 1) % 8 = 0 then k4_pay2 (k4_pay1 (F := F)) (iblk4 V c 0 ⟨n + 1, hn⟩) (iblk4 V c 1 ⟨n + 1, hn⟩)
    else k4_pay2 (accAfter4 c n (Nat.lt_of_succ_lt hn)) (iblk4 V c 0 ⟨n + 1, hn⟩) (iblk4 V c 1 ⟨n + 1, hn⟩)

/-- At a point with k = 0 the accumulator restarts from zeros. -/
theorem accAfter4_first (c : Dev nD) (t : Fin cfg4.N) (h0 : t.val % 8 = 0) :
    accAfter4 V c t.val t.isLt = k4_pay2 (k4_pay1 (F := F)) (iblk4 V c 0 t) (iblk4 V c 1 t) := by
  obtain ⟨n, hn⟩ := t
  cases n with
  | zero => rfl
  | succ n => exact if_pos h0

/-- At any other point it adds to what the point before left. -/
theorem accAfter4_next (c : Dev nD) (t : Fin cfg4.N) (h0 : ¬t.val % 8 = 0) :
    accAfter4 V c t.val t.isLt
      = k4_pay2 (accAfter4 V c (t.val - 1) (Nat.lt_of_le_of_lt (Nat.sub_le _ _) t.isLt)) (iblk4 V c 0 t) (iblk4 V c 1 t) := by
  obtain ⟨n, hn⟩ := t
  cases n with
  | zero => exact absurd (Nat.zero_mod _) h0
  | succ n => exact if_neg h0

/-- What the scratch holds BEFORE point `t`: what the point before left (before the first point the scratch holds
    anything — the zeros here are a placeholder the invariant does not use). -/
def acc4 (c : Dev nD) (t : Fin (cfg4.N + 1)) : Vec F S1280x2048 .f32 :=
  match t with
  | ⟨0, _⟩ => k4_pay1 (F := F)
  | ⟨n + 1, h⟩ => accAfter4 V c n (Nat.lt_of_succ_lt_succ h)

/-- What the output's staging buffer holds after the body at a point with k = 7: the accumulator, bias added, clamped at
    zero, rounded. (At the other points the body does not touch that buffer and the pipeline does not write it back; the
    proof data's entry there is not consulted.) -/
def out4_3 (c : Dev nD) (t : Fin cfg4.N) : Vec F S1280x2048 .bf16 :=
  k4_pay3 (accAfter4 V c t.val t.isLt) (iblk4 V c 2 t)

/-! ## The row fold: the value the region writes back -/

/-- The accumulator of the row block whose first point is `n0`, after its column blocks 0 … k: a left fold of
    `k4_pay2` from the zeros `k4_pay1` over the blocks at the points `n0`, …, `n0 + k`. -/
def rowAcc4 (c : Dev nD) (n0 : ℕ) : (k : ℕ) → n0 + k < cfg4.N → Vec F S1280x2048 .f32
  | 0, h => k4_pay2 (k4_pay1 (F := F)) (iblk4 V c 0 ⟨n0, h⟩) (iblk4 V c 1 ⟨n0, h⟩)
  | k + 1, h => k4_pay2 (rowAcc4 c n0 k (Nat.lt_of_succ_lt h)) (iblk4 V c 0 ⟨n0 + (k + 1), h⟩) (iblk4 V c 1 ⟨n0 + (k + 1), h⟩)

/-- Within a row block (first point `n0` ≡ 0 mod 8, k < 8) the point-by-point accumulator is the row fold. -/
theorem accAfter4_eq_rowAcc4 (c : Dev nD) (n0 : ℕ) (h0 : n0 % 8 = 0) :
    ∀ (k : ℕ) (_ : k < 8) (h : n0 + k < cfg4.N), accAfter4 V c (n0 + k) h = rowAcc4 V c n0 k h
  | 0, _, h => accAfter4_first V c ⟨n0, h⟩ h0
  | k + 1, hk, h => by
    have hne : ¬(n0 + (k + 1)) % 8 = 0 := by omega
    have e := accAfter4_next V c ⟨n0 + (k + 1), h⟩ hne
    have ih := accAfter4_eq_rowAcc4 c n0 h0 k (by omega) (Nat.lt_of_succ_lt h)
    simp only [Nat.add_succ_sub_one] at e
    rw [e, ih]; rfl

/-- THE VALUE written back for a row block: at a point `t` with k = 7 the output buffer holds `k4_pay3` of the fold of
    `k4_pay2` from `k4_pay1` over the eight points `8 · (t / 8) + k`, k = 0 … 7, and of the bias block. -/
theorem out4_3_last (c : Dev nD) (t : Fin cfg4.N) (h7 : t.val % 8 = 7) :
    out4_3 V c t = k4_pay3 (rowAcc4 V c (8 * (t.val / 8)) 7 (by have := t.isLt; omega)) (iblk4 V c 2 t) := by
  unfold out4_3
  have e : t.val = 8 * (t.val / 8) + 7 := by omega
  have h := accAfter4_eq_rowAcc4 V c (8 * (t.val / 8)) (by omega) 7 (by omega) (by have := t.isLt; omega)
  congr 1
  rw [← h]; congr 1

/-! ## The invariant: the scratch carried from point to point -/

/-- The accumulator scratch as a memref: a whole scoped buffer of the kernel's own, passed beside the windows. -/
abbrev scM4 : Memref sig .tc .vmem S1280x2048 .f32 := Memref.whole cc4_scratch0

/-- Every scoped buffer of the core that is neither a staging buffer of this call nor its scratch, at some contents:
    carried through the region unopened. -/
abbrev others4 (c : Dev nD) : sProp 𝕄 :=
  Pipeline.scopedRestBut (Ix := Unit) (Name := ℕ) (U := Pipeline.UD sig nD τ) (Lvl := ℕ) (Val := Elt F) spec4 c [cc4_scratch0]

/-- The class invariant with the scratch split out and owned as a memref at some contents. -/
theorem PhiA4_eq (c : Dev nD) :
    (Pipeline.ΦA spec4 c : sProp 𝕄)
      = iprop(iprop((∃ d, owns (c : Thread nD τ) scM4 fullShare d) ∗ others4 c) ∗ (∃ r, prngReg c r)) := by
  unfold Pipeline.ΦA; rw [scopedRest4_split]; simp only [scM4, owns_whole]; rfl

/-- The invariant before position `n`: before the first point the class's (the scratch at anything); afterwards the
    same with the scratch at what the point before left in it. -/
def Phi4 (c : Dev nD) : (n : ℕ) → n ≤ cfg4.N → sProp 𝕄
  | 0, _ => Pipeline.ΦA spec4 c
  | n + 1, hn => iprop(iprop(owns (c : Thread nD τ) scM4 fullShare (accAfter4 V c n hn) ∗ others4 c) ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(owns (c : Thread nD τ) scM4 fullShare (accAfter4 V c n hn) ∗ others4 c) ∗ (∃ r, prngReg c r)) := rfl

theorem Phi4_pos (c : Dev nD) (n : ℕ) (h : n ≤ cfg4.N) (hz : n ≠ 0) :
    Phi4 V c n h = iprop(iprop(owns (c : Thread nD τ) scM4 fullShare (accAfter4 V c (n - 1) (by omega)) ∗ others4 c) ∗ (∃ r, prngReg c r)) := by
  cases n with
  | zero => exact absurd rfl hz
  | succ n => rfl

/-! ## The pipeline's proof data -/

/-- The proof data of the region's pipeline on core `c`: the arrays as the region finds them; after the body each input's
    buffer at its block and the output's at `out4_3`; the invariant `Phi4`; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 V c t
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 V c t := by dsimp only [dat4]

/-- The invariant at a point's start, restated at the point's position. -/
theorem Phi4_castSucc (c : Dev nD) (t : Fin cfg4.N) :
    (dat4 V c).Φ t.castSucc = Phi4 V c t.val (Nat.le_of_lt t.isLt) := by
  dsimp only [dat4]; simp only [Fin.coe_castSucc]

/-! ## What the body finds in the inputs' buffers

Each input's current staging buffer holds the window's block at every point, whether the pipeline fetched it there or
not: the body leaves the inputs in place, and an input not fetched at a point has the block index of the point before
(the bias row, fetched once). -/

theorem before4_0 (c : Dev nD) (t : Fin cfg4.N) (d) : (dat4 V c).before 0 t d = iblk4 V c 0 t := by
  have hkeep : ∀ t, (cfg4.win 0).cut (cfg4.grid.coords t) ((dat4 V c).after 0 t) = (dat4 V c).blockOf 0 t := fun t => by
    rw [after4_0]; unfold Dat.blockOf iblk4; rw [A_eq4]; try rfl
  rw [(dat4 V c).before_in_eq_fetched 0 rfl (fun _ => rfl) (fun _ _ _ => rfl) hkeep t d]
  unfold Dat.fetched Dat.blockOf iblk4; rw [A_eq4]; try rfl

theorem before4_1 (c : Dev nD) (t : Fin cfg4.N) (d) : (dat4 V c).before 1 t d = iblk4 V c 1 t := by
  have hkeep : ∀ t, (cfg4.win 1).cut (cfg4.grid.coords t) ((dat4 V c).after 1 t) = (dat4 V c).blockOf 1 t := fun t => by
    rw [after4_1]; unfold Dat.blockOf iblk4; rw [A_eq4]; try rfl
  rw [(dat4 V c).before_in_eq_fetched 1 rfl (fun _ => rfl) (fun _ _ _ => rfl) hkeep t d]
  unfold Dat.fetched Dat.blockOf iblk4; rw [A_eq4]; try rfl

theorem before4_2 (c : Dev nD) (t : Fin cfg4.N) (d) : (dat4 V c).before 2 t d = iblk4 V c 2 t := by
  have hkeep : ∀ t, (cfg4.win 2).cut (cfg4.grid.coords t) ((dat4 V c).after 2 t) = (dat4 V c).blockOf 2 t := fun t => by
    rw [after4_2]; unfold Dat.blockOf iblk4; rw [A_eq4]; try rfl
  rw [(dat4 V c).before_in_eq_fetched 2 rfl (fun _ => rfl) (fun _ _ _ => rfl) hkeep t d]
  unfold Dat.fetched Dat.blockOf iblk4; rw [A_eq4]; try rfl

/-! ## Where the output window is idle -/

/-- Away from k = 7 the printed configuration calls the output window idle (the body does not store into it), -/
theorem idle4_3 : ∀ t : Fin cfg4.N, ¬t.val % 8 = 7 → cfg4.idle 3 (cfg4.grid.coords t) = true := by decide +kernel
/-- and the pipeline does not write its block back; -/
theorem noFlush4_3 (t : Fin cfg4.N) (h : ¬t.val % 8 = 7) : (cfg4.win 3).flush t = false :=
  Bool.eq_false_iff.mpr fun hf => h ((flush4_3 t).mp hf)
/-- at k = 7 it is live. -/
theorem live4_3 : ∀ t : Fin cfg4.N, t.val % 8 = 7 → cfg4.idle 3 (cfg4.grid.coords t) = false := by decide +kernel

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

/-- An input window's buffer is left at its block. -/
theorem leaves4_0 (c : Dev nD) (t : Fin cfg4.N) :
    (dat4 V c).leavesExact 0 t = owns (c : Thread nD τ) (st4_0 t) fullShare (iblk4 V c 0 t) := by
  rw [← after4_0]
theorem leaves4_1 (c : Dev nD) (t : Fin cfg4.N) :
    (dat4 V c).leavesExact 1 t = owns (c : Thread nD τ) (st4_1 t) fullShare (iblk4 V c 1 t) := by
  rw [← after4_1]
theorem leaves4_2 (c : Dev nD) (t : Fin cfg4.N) :
    (dat4 V c).leavesExact 2 t = owns (c : Thread nD τ) (st4_2 t) fullShare (iblk4 V c 2 t) := by
  rw [← after4_2]
/-- The output window's, away from k = 7, as the body found it; at k = 7 at `out4_3`. -/
theorem leaves4_3_idle (c : Dev nD) (t : Fin cfg4.N) (h : ¬t.val % 8 = 7) :
    (dat4 V c).leavesExact 3 t = iprop(∃ d, owns (c : Thread nD τ) (st4_3 t) fullShare ((dat4 V c).before 3 t d)) :=
  Dat.leavesExact_idle (dat4 V c) 3 t (idle4_3 t h) (noFlush4_3 t h)
theorem leaves4_3_live (c : Dev nD) (t : Fin cfg4.N) (h : t.val % 8 = 7) :
    (dat4 V c).leavesExact 3 t = owns (c : Thread nD τ) (st4_3 t) fullShare (out4_3 V c t) := by
  unfold Dat.leavesExact; rw [live4_3 t h, after4_3]

set_option maxHeartbeats 4000000 in
/-- The body at any point. The inputs' memrefs hold their blocks (`before4_W`); the position of the point in its row
    (k = 0, 0 < k < 7, k = 7) says which of the three triples applies; the invariant hands the body the scratch at what
    the point before left (at anything before the first point, and at a k = 0 point the triple asks no more) and takes
    it back at this point's contents; the output's buffer is handed back as found away from k = 7 and at `out4_3`
    there; the other scoped buffers, the generator register and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = Phi4 V c (t.val + 1) t.isLt from rfl, Phi4_succ]
  rw [leaves4_0, leaves4_1, leaves4_2, Phi4_castSucc]
  have hN : t.val < 64 := lt_of_lt_of_eq t.isLt (show cfg4.N = 64 from N_4)
  by_cases h0 : t.val % 8 = 0
  · have h7 : ¬t.val % 8 = 7 := by omega
    rw [leaves4_3_idle V c t h7, accAfter4_first V c t h0]
    by_cases hz : t.val = 0
    · rw [Phi4_zero V c _ _ hz, PhiA4_eq]
      iintro ⟨⟨⟨HS, HR⟩, Hg⟩, Ho, ⟨%d0, H0⟩, ⟨%d1, H1⟩, ⟨%d2, H2⟩, ⟨%d3, H3⟩⟩
      iapply (cc4_first c Set.univ (grid4.coords t) _ _ _ _ _ _ _ _ _ _ ((isFirstK4_iff t).mpr h0) (fun h => h7 ((isLastK4_iff t).mp h))
        (iblk4 V c 0 t) (iblk4 V c 1 t) (iblk4 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi4_pos V c _ _ hz]
      iintro ⟨⟨⟨HS, HR⟩, Hg⟩, Ho, ⟨%d0, H0⟩, ⟨%d1, H1⟩, ⟨%d2, H2⟩, ⟨%d3, H3⟩⟩
      iapply (cc4_first c Set.univ (grid4.coords t) _ _ _ _ _ _ _ _ _ _ ((isFirstK4_iff t).mpr h0) (fun h => h7 ((isLastK4_iff t).mp h))
        (iblk4 V c 0 t) (iblk4 V c 1 t) (iblk4 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [Phi4_pos V c _ _ hz, accAfter4_next V c t h0]
    by_cases h7 : t.val % 8 = 7
    · rw [leaves4_3_live V c t h7]; unfold out4_3; rw [accAfter4_next V c t h0]
      iintro ⟨⟨⟨HS, HR⟩, Hg⟩, Ho, ⟨%d0, H0⟩, ⟨%d1, H1⟩, ⟨%d2, H2⟩, ⟨%d3, H3⟩⟩
      iapply (cc4_last c Set.univ (grid4.coords t) _ _ _ _ _ _ _ _ _ _ (fun h => h0 ((isFirstK4_iff t).mp h)) ((isLastK4_iff t).mpr h7)
        (iblk4 V c 0 t) (iblk4 V c 1 t) (iblk4 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [leaves4_3_idle V c t h7]
      iintro ⟨⟨⟨HS, HR⟩, Hg⟩, Ho, ⟨%d0, H0⟩, ⟨%d1, H1⟩, ⟨%d2, H2⟩, ⟨%d3, H3⟩⟩
      iapply (cc4_mid c Set.univ (grid4.coords t) _ _ _ _ _ _ _ _ _ _ (fun h => h0 ((isFirstK4_iff t).mp h)) (fun h => h7 ((isLastK4_iff t).mp h))
        (iblk4 V c 0 t) (iblk4 V c 1 t) (iblk4 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Around the invariant: what the region hands it and takes back -/

/-- The invariant before the first point, from the generator register, anything `T` handed beside it (the prefetched
    tables: this pipeline has none, and the invariant keeps nothing of them) and the scoped buffers no window stages. -/
theorem hin4 (c : Dev nD) (T : sProp 𝕄) :
    iprop((∃ r, prngReg c r) ∗ T
        ∗ Pipeline.scopedRest (Ix := Unit) (Name := ℕ) (U := Pipeline.UD sig nD τ) (Lvl := ℕ) (Val := Elt F) spec4 c)
      ⊢ (dat4 V c).Φ 0 := by
  rw [show (dat4 V c).Φ 0 = Phi4 V c 0 (Nat.zero_le _) from rfl, Phi4_zero V c 0 _ rfl]; unfold Pipeline.ΦA
  iintro ⟨Hg, -, Hr⟩
  isplitl [Hr]; · iexact Hr
  iexact Hg

/-- After any point but the first the invariant gives the class's back: the scratch's named contents are forgotten. -/
theorem Phi4_forget (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨⟨HS, HR⟩, Hg⟩
  isplitl [HS HR]
  · isplitl [HS]; · iexists _; iexact HS
    iexact HR
  iexact Hg

/-- The invariant after the last point gives back the generator register, the kernel's own semaphores (it has none) and
    the scoped buffers no window stages. -/
theorem hout4 (c : Dev nD) :
    (dat4 V c).Φ (Fin.last cfg4.N)
      ⊢ iprop((∃ r, prngReg c r)
          ∗ Pipeline.ownSems0 (Ix := Unit) (Name := ℕ) (U := Pipeline.UD sig nD τ) (Lvl := ℕ) (Val := Elt F) (τ := τ) (fun k : PEmpty => k.elim) c
          ∗ Pipeline.scopedRest (Ix := Unit) (Name := ℕ) (U := Pipeline.UD sig nD τ) (Lvl := ℕ) (Val := Elt F) spec4 c) := by
  rw [Pipeline.ownSems0_none]
  refine (Phi4_forget V c _ (by rw [Fin.val_last]; have : cfg4.N = 64 := N_4; omega)).trans ?_
  unfold Pipeline.ΦA
  iintro ⟨Hr, Hg⟩
  isplitl [Hg]; · iexact Hg
  isplitr; · iempintro
  iexact Hr

end Region

end Cert.KernelIdeal.Hand

end
-- ==== Proof.Lin5.lean ====
import proofs.«169470_j5557687681111_1_alg».proof.Proof.Gen.KernelIdeal.Launch
import proofs.«169470_j5557687681111_1_alg».proof.Proof.Gen.KernelIdeal.Skeleton
import proofs.«169470_j5557687681111_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The third bias-free linear layer (pallas_call 5): activations [81920,256] times weights [256,256], by row blocks

The grid has forty points; point `t` multiplies rows `2048·t … 2048·t + 2047` of the bf16 activations by the whole
f32 weight matrix (rounded to bf16, accumulated in f32, rounded back to bf16) and writes the same rows of the result.
The activations' block moves with the point and is fetched at each; the weights' block is the whole matrix, fetched
once; the result's block is written back at each point. -/

/-- What window `w` of the layer holds for grid point `t`, read out of the arrays as the layer finds them (`V`):
    for the activations and the result the `t`-th block of 2048 rows, for the weights the whole matrix. -/
def iblk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-! ## The input buffers when the body runs -/

/-- The activations' staging buffer holds the point's block of rows whenever the body runs, for any proof data over
    the entry arrays `V` whose body leaves that block where it found it. The array's block at a point is `iblk5`
    (`hblock`); the window is an input, never idle and not cut, so a fetch fills the whole buffer with the block, and
    where no fetch happens the block index has not moved since the last one (`Dat.before_in_eq_fetched`). -/
theorem before5_0_of {c : Dev nD} (dat : Dat τ (Elt F) Unit ℕ (Pipeline.UD sig nD τ) ℕ cfg5 c)
    (hA : dat.A 0 = V c (Pipeline.arrRef spec5 0)) (hafter : ∀ t, dat.after 0 t = iblk5 V c 0 t)
    (t : Fin cfg5.N) (d) : dat.before 0 t d = iblk5 V c 0 t := by
  have hblock : ∀ t, dat.blockOf 0 t = iblk5 V c 0 t := fun t => by unfold Dat.blockOf iblk5; rw [hA]
  rw [dat.before_in_eq_fetched 0 rfl (fun _ => rfl) (fun _ _ _ => rfl) (fun t => by rw [hafter, hblock]) t d]
  exact hblock t

/-- The weights' staging buffer holds the whole weight matrix whenever the body runs: it is fetched at the first point
    only, its block index is the same at every point, and the body leaves it as found. -/
theorem before5_1_of {c : Dev nD} (dat : Dat τ (Elt F) Unit ℕ (Pipeline.UD sig nD τ) ℕ cfg5 c)
    (hA : dat.A 1 = V c (Pipeline.arrRef spec5 1)) (hafter : ∀ t, dat.after 1 t = iblk5 V c 1 t)
    (t : Fin cfg5.N) (d) : dat.before 1 t d = iblk5 V c 1 t := by
  have hblock : ∀ t, dat.blockOf 1 t = iblk5 V c 1 t := fun t => by unfold Dat.blockOf iblk5; rw [hA]
  rw [dat.before_in_eq_fetched 1 rfl (fun _ => rfl) (fun _ _ _ => rfl) (fun t => by rw [hafter, hblock]) t d]
  exact hblock t

/-! ## What the body does to its buffers -/

/-- The body touches each staging buffer as a whole: all 2048 rows by 256 columns of an activation block, -/
abbrev rowsAll5 : Rect S2048x256 := Rect.unit (s := S2048x256) ![0, 0] S2048x256.size inb_S2048x256_S2048x256_0_0
/-- and all 256 by 256 entries of the weights. -/
abbrev weightsAll5 : Rect S256x256 := Rect.unit (s := S256x256) ![0, 0] S256x256.size inb_S256x256_S256x256_0_0

/-- The result block the body leaves from an activation block `h` and the weights `wt`: its one store writes the
    product `k5_pay1` of what it loaded over the whole buffer. -/
def out5_2 (h : Vec F S2048x256 .bf16) (wt : Vec F S256x256 .f32) : Vec F S2048x256 .bf16 :=
  View.canon [⟨rowsAll5, k5_pay1 (View.ld h rowsAll5) (View.ld wt weightsAll5)⟩]

/-- That one store is of the whole 2048 by 256 shape, so it covers the buffer. -/
theorem store_covers5 (p : Vec F S2048x256 .bf16) (y : S2048x256.Idx) :
    ∃ pc ∈ ([⟨rowsAll5, p⟩] : List (View.Piece (Elt F) S2048x256 .bf16)), y ∈ pc.1.set :=
  View.cover_of_wholeMem _ (View.Piece.wholeMem_here rfl) y

set_option maxHeartbeats 1000000 in
/-- The kernel body on whole staging buffers: given the activations' buffer reading `h`, the weights' reading `wt` and
    the result's holding anything, it returns with the two inputs as they were and the result's buffer reading
    `out5_2 h wt`. The printed function is its skeleton — two loads, a load of the result buffer whose value goes
    unused, one store —, which the executor runs; what the store's writes leave reads as their canonical contents
    because the store covers the buffer. -/
theorem sound_kernel5 (c : Dev nD) (E : Set ℕ) (i : grid5.Coords)
    (hbuf : Memref sig .tc .vmem S2048x256 .bf16) (hh : hbuf.IsWhole)
    (wbuf : Memref sig .tc .vmem S256x256 .f32) (hw : wbuf.IsWhole)
    (obuf : Memref sig .tc .vmem S2048x256 .bf16) (ho : obuf.IsWhole)
    (h : Vec F S2048x256 .bf16) (wt : Vec F S256x256 .f32) (K : PUnit → sProp 𝕄) :
    iprop(owns (c : Thread nD τ) hbuf fullShare h ∗ owns (c : Thread nD τ) wbuf fullShare wt
        ∗ (∃ d, owns (c : Thread nD τ) obuf fullShare d)
        ∗ (iprop(owns (c : Thread nD τ) hbuf fullShare h ∗ owns (c : Thread nD τ) wbuf fullShare wt
            ∗ owns (c : Thread nD τ) obuf fullShare (out5_2 h wt)) -∗ K ⟨⟩))
      ⊢ wp frame (wpE (defs₀ (F := F)) Variants.none c none) E (cc5_kernel i hbuf hh wbuf hw obuf ho) K := by
  simp only [cc5_kernel_eq_skeleton]; unfold cc5_kernel_skel
  unfold owns
  iintro ⟨⟨%fh, %hfh, Hh⟩, ⟨%fw, %hfw, Hw⟩, ⟨%d, %fo, -, Ho⟩, Hk⟩
  subst hfh; subst hfw
  sl_exec
  sl_step
  iapply Hk
  isplitl [Hh]
  · iexists fh; isplitr
    · ipureintro; rfl
    · iexact Hh
  isplitl [Hw]
  · iexists fw; isplitr
    · ipureintro; rfl
    · iexact Hw
  iexists _; isplitr
  pick_goal 2
  · iexact Ho
  · ipureintro; exact View.read_writes_eq_canon _ _ _ (store_covers5 _)

/-! ## The pipeline's proof data -/

/-- The proof data of the layer's pipeline on core `c`: the arrays as found (`V`); after the body at point `t` the
    two inputs' buffers at their blocks and the result's at `out5_2` of those; the invariant of a pipeline whose body
    touches only its windows' buffers (`Pipeline.ΦA`); full shares; nothing owed. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- Its arrays are the entry contents. -/
theorem A_eq5 (c : Dev nD) (w : Fin cfg5.W) : (dat5 V c).A w = V c (Pipeline.arrRef spec5 w) := by
  dsimp only [dat5]

/-- What the body leaves in each window's buffer, one window at a time. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) :
    (dat5 V c).after 2 t = out5_2 (iblk5 V c 0 t) (iblk5 V c 1 t) := by dsimp only [dat5]

/-- So the body finds the activations' block and the weights in its input buffers at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- The invariant and the tallies owed are the same before and after every point: the body reads neither. -/
theorem Φ_step5 (c : Dev nD) (t : Fin cfg5.N) : (dat5 V c).Φ t.succ = (dat5 V c).Φ t.castSucc := rfl
theorem owes_step5 (c : Dev nD) (t : Fin cfg5.N) :
    (dat5 V c).owesAt () t.succ = (dat5 V c).owesAt () t.castSucc := rfl

/-! ## The body obligation -/

/-- The body at grid point `t`, window by window: handed the invariant, what is owed, and its three current staging
    buffers holding what `Dat.before` says, it returns them holding what `dat5` says it leaves. The inputs hold their
    blocks (`before5_0`, `before5_1`), so the kernel's triple applies; the invariant and the tallies pass by. -/
theorem sound_body5 (c : Dev nD) (t : Fin cfg5.N) :
    iprop((dat5 V c).Φ t.castSucc ∗ (dat5 V c).owesAt () t.castSucc
        ∗ (∃ d, owns (c : Thread nD τ) (st5_0 t) fullShare ((dat5 V c).before 0 t d))
        ∗ (∃ d, owns (c : Thread nD τ) (st5_1 t) fullShare ((dat5 V c).before 1 t d))
        ∗ (∃ d, owns (c : Thread nD τ) (st5_2 t) fullShare ((dat5 V c).before 2 t d)))
      ⊢ wp frame (wpE (defs₀ (F := F)) Variants.none c none) Set.univ (bodyAt5 t) (fun _ =>
          iprop((dat5 V c).Φ t.succ ∗ (dat5 V c).owesAt () t.succ
            ∗ owns (c : Thread nD τ) (st5_0 t) fullShare ((dat5 V c).after 0 t)
            ∗ owns (c : Thread nD τ) (st5_1 t) fullShare ((dat5 V c).after 1 t)
            ∗ owns (c : Thread nD τ) (st5_2 t) fullShare ((dat5 V c).after 2 t))) := by
  simp only [before5_0, before5_1]
  rw [Φ_step5, owes_step5, after5_0, after5_1, after5_2]
  iintro ⟨HΦ, Howed, ⟨%d0, Hh⟩, ⟨%d1, Hw⟩, ⟨%d2, Ho⟩⟩
  iapply (sound_kernel5 c Set.univ (grid5.coords t) _ _ _ _ _ _ (iblk5 V c 0 t) (iblk5 V c 1 t) _)
  isplitl [Hh]; · iexact Hh
  isplitl [Hw]; · iexact Hw
  isplitl [Ho]; · iexists _; iexact Ho
  iintro ⟨Hh, Hw, Ho⟩
  isplitl [HΦ]; · iexact HΦ
  isplitl [Howed]; · iexact Howed
  isplitl [Hh]; · iexact Hh
  isplitl [Hw]; · iexact Hw
  iexact Ho

/-- The library's body obligation for the layer, at every grid point. -/
theorem body_obligation5 (c : Dev nD) :
    BodyObligation (dat5 (F := F) V c) (defs₀ (F := F)) Variants.none () Set.univ := fun t => by
  rw [bigSep_W5, bigSep_W5]
  exact sound_body5 V c t

end Cert.KernelIdeal.Hand
-- ==== Proof.Agg6.lean ====
import proofs.«169470_j5557687681111_1_alg».proof.Proof.Gen.KernelIdeal.Launch
import proofs.«169470_j5557687681111_1_alg».proof.Proof.Gen.KernelIdeal.Skeleton
import proofs.«169470_j5557687681111_1_alg».proof.Proof.Gen.KernelIdeal.Points
import proofs.«169470_j5557687681111_1_alg».proof.Proof.Agg2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 6 of @main: the aggregation `out = relu(A · Hc + bias)`, blocked over (i, k) on an 8 × 8 grid

The same kernel as region 2's on this layer's operands: an f32 accumulator kept in a scratch buffer from grid point to
grid point, zeroed at k = 0, added into at every k, read out into the output block at k = 7. The whole-buffer access
lemmas are region 2's. -/

/-! ## The body's two conditions -/

/-- The condition of the body's first `scf.if` (zero the accumulator), from the grid coordinates. -/
abbrev isFirstK6 (i : grid6.Coords) : Prop :=
  (Scalar.cmpi .ne (Scalar.extui (Scalar.cmpi .eq (BitVec.ofNat 32 (i 1).val) 0#32)) 0#32) = 1#1
/-- The condition of its second `scf.if` (store the output block). -/
abbrev isLastK6 (i : grid6.Coords) : Prop := k6_cond2 i = 1#1

/-- The first holds at the points with k = 0, -/
theorem isFirstK6_iff : ∀ t : Fin cfg6.N, isFirstK6 (grid6.coords t) ↔ t.val % 8 = 0 :=
  (by decide +kernel : ∀ t : Fin grid6.N, isFirstK6 (grid6.coords t) ↔ t.val % 8 = 0)
/-- the second at the points with k = 7. -/
theorem isLastK6_iff : ∀ t : Fin cfg6.N, isLastK6 (grid6.coords t) ↔ t.val % 8 = 7 :=
  (by decide +kernel : ∀ t : Fin grid6.N, isLastK6 (grid6.coords t) ↔ t.val % 8 = 7)

/-! ## The body's triple, one per case

On whole memrefs: `a`, `h`, `b` are what the three input buffers read, `s` what the accumulator reads on entry. -/

set_option maxHeartbeats 1000000 in
/-- k = 0: the accumulator, whatever it held, ends at `zeros + a · h`; the output buffer is handed back untouched. -/
theorem cc6_first (c : Dev nD) (E : Set ℕ) (i : grid6.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : isFirstK6 i) (hc1 : ¬isLastK6 i)
    (a : Vec F S1280x1280 .bf16) (h : Vec F S1280x2048 .bf16) (b : Vec F S1x2048 .f32) (o : Vec F S1280x2048 .bf16)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ (∃ s, owns (c : Thread nD τ) arg6 fullShare s)
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k6_pay2 (k6_pay1 (F := F)) a h)) -∗ K ⟨⟩))
      ⊢ wp frame (wpE (defs₀ (F := F)) Variants.none c none) E (cc6_kernel i arg2 harg2 arg3 harg3 arg4 harg4 arg5 harg5 arg6 harg6) K := by
  simp only [cc6_kernel_eq_skeleton]; unfold cc6_kernel_skel
  unfold owns
  iintro ⟨⟨%f2, %hf2, H2⟩, ⟨%f3, %hf3, H3⟩, ⟨%f4, %hf4, H4⟩, ⟨%f5, %hf5, H5⟩, ⟨%s, %f6, -, H6⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  sl_unfold_run_names
  rw [read_writes_whole _ _ offs00, View.readCov_unit_zero _ offs00, readAt_whole_unread harg2 offs00, readAt_whole_unread harg3 offs00]

set_option maxHeartbeats 1000000 in
/-- 0 < k < 7: the accumulator goes from `s` to `s + a · h`; the output buffer is handed back untouched. -/
theorem cc6_mid (c : Dev nD) (E : Set ℕ) (i : grid6.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK6 i) (hc1 : ¬isLastK6 i)
    (a : Vec F S1280x1280 .bf16) (h : Vec F S1280x2048 .bf16) (b : Vec F S1x2048 .f32) (o : Vec F S1280x2048 .bf16) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k6_pay2 s a h)) -∗ K ⟨⟩))
      ⊢ wp frame (wpE (defs₀ (F := F)) Variants.none c none) E (cc6_kernel i arg2 harg2 arg3 harg3 arg4 harg4 arg5 harg5 arg6 harg6) K := by
  simp only [cc6_kernel_eq_skeleton]; unfold cc6_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [read_writes_whole _ _ offs00, readAt_whole_unread harg6 offs00, readAt_whole_unread harg2 offs00, readAt_whole_unread harg3 offs00]

set_option maxHeartbeats 1000000 in
/-- k = 7: the accumulator goes from `s` to `s + a · h`, and the output buffer, whatever it held, ends at
    `max(s + a · h + b, 0)` rounded to bf16. -/
theorem cc6_last (c : Dev nD) (E : Set ℕ) (i : grid6.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK6 i) (hc1 : isLastK6 i)
    (a : Vec F S1280x1280 .bf16) (h : Vec F S1280x2048 .bf16) (b : Vec F S1x2048 .f32) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ (∃ o, owns (c : Thread nD τ) arg5 fullShare o) ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare (k6_pay3 (k6_pay2 s a h) b) ∗ owns (c : Thread nD τ) arg6 fullShare (k6_pay2 s a h)) -∗ K ⟨⟩))
      ⊢ wp frame (wpE (defs₀ (F := F)) Variants.none c none) E (cc6_kernel i arg2 harg2 arg3 harg3 arg4 harg4 arg5 harg5 arg6 harg6) K := by
  simp only [cc6_kernel_eq_skeleton]; unfold cc6_kernel_skel
  unfold owns
  iintro ⟨⟨%f2, %hf2, H2⟩, ⟨%f3, %hf3, H3⟩, ⟨%f4, %hf4, H4⟩, ⟨%o, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [read_writes_whole _ _ offs00, View.readCov_unit_zero _ offs00, readAt_whole_unread harg6 offs00, readAt_whole_unread harg2 offs00,
      readAt_whole_unread harg3 offs00, readAt_whole_unread harg4 offs00]
  iexists _; isplitr
  swap; · iexact H6
  ipureintro
  sl_unfold_run_names
  rw [read_writes_whole _ _ offs00, readAt_whole_unread harg6 offs00, readAt_whole_unread harg2 offs00, readAt_whole_unread harg3 offs00]

section Region

-- the TensorCore's buffer contents when the region is entered: everything below is stated at this parameter
variable (V : (c : Dev nD) → (b : Ref sig .tc) → Buf (Elt F) ((c : Thread nD τ).loc b))

/-! ## The windows' blocks -/

/-- Window `w`'s block at point `t`, read off the window's array as the region finds it. Window 0 is the block (i, k) of
    `A`, window 1 the block (k, 0) of `Hc`, window 2 the bias row, window 3 the block (i, 0) of the output. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The accumulator, point by point -/

/-- What the accumulator holds AFTER the body at point `n`: at a point with k = 0 the product of the point's blocks added
    to zeros, at any other the product added to what the point before left. -/
def accAfter6 (c : Dev nD) : (n : ℕ) → n < cfg6.N → Vec F S1280x2048 .f32
  | 0, hn => k6_pay2 (k6_pay1 (F := F)) (iblk6 V c 0 ⟨0, hn⟩) (iblk6 V c 1 ⟨0, hn⟩)
  | n + 1, hn =>
    if (n + 1) % 8 = 0 then k6_pay2 (k6_pay1 (F := F)) (iblk6 V c 0 ⟨n + 1, hn⟩) (iblk6 V c 1 ⟨n + 1, hn⟩)
    else k6_pay2 (accAfter6 c n (Nat.lt_of_succ_lt hn)) (iblk6 V c 0 ⟨n + 1, hn⟩) (iblk6 V c 1 ⟨n + 1, hn⟩)

/-- At a point with k = 0 the accumulator restarts from zeros. -/
theorem accAfter6_first (c : Dev nD) (t : Fin cfg6.N) (h0 : t.val % 8 = 0) :
    accAfter6 V c t.val t.isLt = k6_pay2 (k6_pay1 (F := F)) (iblk6 V c 0 t) (iblk6 V c 1 t) := by
  obtain ⟨n, hn⟩ := t
  cases n with
  | zero => rfl
  | succ n => exact if_pos h0

/-- At any other point it adds to what the point before left. -/
theorem accAfter6_next (c : Dev nD) (t : Fin cfg6.N) (h0 : ¬t.val % 8 = 0) :
    accAfter6 V c t.val t.isLt
      = k6_pay2 (accAfter6 V c (t.val - 1) (Nat.lt_of_le_of_lt (Nat.sub_le _ _) t.isLt)) (iblk6 V c 0 t) (iblk6 V c 1 t) := by
  obtain ⟨n, hn⟩ := t
  cases n with
  | zero => exact absurd (Nat.zero_mod _) h0
  | succ n => exact if_neg h0

/-- What the scratch holds BEFORE point `t`: what the point before left (before the first point the scratch holds
    anything — the zeros here are a placeholder the invariant does not use). -/
def acc6 (c : Dev nD) (t : Fin (cfg6.N + 1)) : Vec F S1280x2048 .f32 :=
  match t with
  | ⟨0, _⟩ => k6_pay1 (F := F)
  | ⟨n + 1, h⟩ => accAfter6 V c n (Nat.lt_of_succ_lt_succ h)

/-- What the output's staging buffer holds after the body at a point with k = 7: the accumulator, bias added, clamped at
    zero, rounded. (At the other points the body does not touch that buffer and the pipeline does not write it back; the
    proof data's entry there is not consulted.) -/
def out6_3 (c : Dev nD) (t : Fin cfg6.N) : Vec F S1280x2048 .bf16 :=
  k6_pay3 (accAfter6 V c t.val t.isLt) (iblk6 V c 2 t)

/-! ## The row fold: the value the region writes back -/

/-- The accumulator of the row block whose first point is `n0`, after its column blocks 0 … k: a left fold of
    `k6_pay2` from the zeros `k6_pay1` over the blocks at the points `n0`, …, `n0 + k`. -/
def rowAcc6 (c : Dev nD) (n0 : ℕ) : (k : ℕ) → n0 + k < cfg6.N → Vec F S1280x2048 .f32
  | 0, h => k6_pay2 (k6_pay1 (F := F)) (iblk6 V c 0 ⟨n0, h⟩) (iblk6 V c 1 ⟨n0, h⟩)
  | k + 1, h => k6_pay2 (rowAcc6 c n0 k (Nat.lt_of_succ_lt h)) (iblk6 V c 0 ⟨n0 + (k + 1), h⟩) (iblk6 V c 1 ⟨n0 + (k + 1), h⟩)

/-- Within a row block (first point `n0` ≡ 0 mod 8, k < 8) the point-by-point accumulator is the row fold. -/
theorem accAfter6_eq_rowAcc6 (c : Dev nD) (n0 : ℕ) (h0 : n0 % 8 = 0) :
    ∀ (k : ℕ) (_ : k < 8) (h : n0 + k < cfg6.N), accAfter6 V c (n0 + k) h = rowAcc6 V c n0 k h
  | 0, _, h => accAfter6_first V c ⟨n0, h⟩ h0
  | k + 1, hk, h => by
    have hne : ¬(n0 + (k + 1)) % 8 = 0 := by omega
    have e := accAfter6_next V c ⟨n0 + (k + 1), h⟩ hne
    have ih := accAfter6_eq_rowAcc6 c n0 h0 k (by omega) (Nat.lt_of_succ_lt h)
    simp only [Nat.add_succ_sub_one] at e
    rw [e, ih]; rfl

/-- THE VALUE written back for a row block: at a point `t` with k = 7 the output buffer holds `k6_pay3` of the fold of
    `k6_pay2` from `k6_pay1` over the eight points `8 · (t / 8) + k`, k = 0 … 7, and of the bias block. -/
theorem out6_3_last (c : Dev nD) (t : Fin cfg6.N) (h7 : t.val % 8 = 7) :
    out6_3 V c t = k6_pay3 (rowAcc6 V c (8 * (t.val / 8)) 7 (by have := t.isLt; omega)) (iblk6 V c 2 t) := by
  unfold out6_3
  have e : t.val = 8 * (t.val / 8) + 7 := by omega
  have h := accAfter6_eq_rowAcc6 V c (8 * (t.val / 8)) (by omega) 7 (by omega) (by have := t.isLt; omega)
  congr 1
  rw [← h]; congr 1

/-! ## The invariant: the scratch carried from point to point -/

/-- The accumulator scratch as a memref: a whole scoped buffer of the kernel's own, passed beside the windows. -/
abbrev scM6 : Memref sig .tc .vmem S1280x2048 .f32 := Memref.whole cc6_scratch0

/-- Every scoped buffer of the core that is neither a staging buffer of this call nor its scratch, at some contents:
    carried through the region unopened. -/
abbrev others6 (c : Dev nD) : sProp 𝕄 :=
  Pipeline.scopedRestBut (Ix := Unit) (Name := ℕ) (U := Pipeline.UD sig nD τ) (Lvl := ℕ) (Val := Elt F) spec6 c [cc6_scratch0]

/-- The class invariant with the scratch split out and owned as a memref at some contents. -/
theorem PhiA6_eq (c : Dev nD) :
    (Pipeline.ΦA spec6 c : sProp 𝕄)
      = iprop(iprop((∃ d, owns (c : Thread nD τ) scM6 fullShare d) ∗ others6 c) ∗ (∃ r, prngReg c r)) := by
  unfold Pipeline.ΦA; rw [scopedRest6_split]; simp only [scM6, owns_whole]; rfl

/-- The invariant before position `n`: before the first point the class's (the scratch at anything); afterwards the
    same with the scratch at what the point before left in it. -/
def Phi6 (c : Dev nD) : (n : ℕ) → n ≤ cfg6.N → sProp 𝕄
  | 0, _ => Pipeline.ΦA spec6 c
  | n + 1, hn => iprop(iprop(owns (c : Thread nD τ) scM6 fullShare (accAfter6 V c n hn) ∗ others6 c) ∗ (∃ r, prngReg c r))

theorem Phi6_zero (c : Dev nD) (n : ℕ) (h : n ≤ cfg6.N) (hz : n = 0) : Phi6 V c n h = Pipeline.ΦA spec6 c := by
  subst hz; rfl

theorem Phi6_succ (c : Dev nD) (n : ℕ) (hn : n < cfg6.N) :
    Phi6 V c (n + 1) hn = iprop(iprop(owns (c : Thread nD τ) scM6 fullShare (accAfter6 V c n hn) ∗ others6 c) ∗ (∃ r, prngReg c r)) := rfl

theorem Phi6_pos (c : Dev nD) (n : ℕ) (h : n ≤ cfg6.N) (hz : n ≠ 0) :
    Phi6 V c n h = iprop(iprop(owns (c : Thread nD τ) scM6 fullShare (accAfter6 V c (n - 1) (by omega)) ∗ others6 c) ∗ (∃ r, prngReg c r)) := by
  cases n with
  | zero => exact absurd rfl hz
  | succ n => rfl

/-! ## The pipeline's proof data -/

/-- The proof data of the region's pipeline on core `c`: the arrays as the region finds them; after the body each input's
    buffer at its block and the output's at `out6_3`; the invariant `Phi6`; nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 V c t
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 V c t := by dsimp only [dat6]

/-- The invariant at a point's start, restated at the point's position. -/
theorem Phi6_castSucc (c : Dev nD) (t : Fin cfg6.N) :
    (dat6 V c).Φ t.castSucc = Phi6 V c t.val (Nat.le_of_lt t.isLt) := by
  dsimp only [dat6]; simp only [Fin.coe_castSucc]

/-! ## What the body finds in the inputs' buffers

Each input's current staging buffer holds the window's block at every point, whether the pipeline fetched it there or
not: the body leaves the inputs in place, and an input not fetched at a point has the block index of the point before
(the bias row, fetched once). -/

theorem before6_0 (c : Dev nD) (t : Fin cfg6.N) (d) : (dat6 V c).before 0 t d = iblk6 V c 0 t := by
  have hkeep : ∀ t, (cfg6.win 0).cut (cfg6.grid.coords t) ((dat6 V c).after 0 t) = (dat6 V c).blockOf 0 t := fun t => by
    rw [after6_0]; unfold Dat.blockOf iblk6; rw [A_eq6]; try rfl
  rw [(dat6 V c).before_in_eq_fetched 0 rfl (fun _ => rfl) (fun _ _ _ => rfl) hkeep t d]
  unfold Dat.fetched Dat.blockOf iblk6; rw [A_eq6]; try rfl

theorem before6_1 (c : Dev nD) (t : Fin cfg6.N) (d) : (dat6 V c).before 1 t d = iblk6 V c 1 t := by
  have hkeep : ∀ t, (cfg6.win 1).cut (cfg6.grid.coords t) ((dat6 V c).after 1 t) = (dat6 V c).blockOf 1 t := fun t => by
    rw [after6_1]; unfold Dat.blockOf iblk6; rw [A_eq6]; try rfl
  rw [(dat6 V c).before_in_eq_fetched 1 rfl (fun _ => rfl) (fun _ _ _ => rfl) hkeep t d]
  unfold Dat.fetched Dat.blockOf iblk6; rw [A_eq6]; try rfl

theorem before6_2 (c : Dev nD) (t : Fin cfg6.N) (d) : (dat6 V c).before 2 t d = iblk6 V c 2 t := by
  have hkeep : ∀ t, (cfg6.win 2).cut (cfg6.grid.coords t) ((dat6 V c).after 2 t) = (dat6 V c).blockOf 2 t := fun t => by
    rw [after6_2]; unfold Dat.blockOf iblk6; rw [A_eq6]; try rfl
  rw [(dat6 V c).before_in_eq_fetched 2 rfl (fun _ => rfl) (fun _ _ _ => rfl) hkeep t d]
  unfold Dat.fetched Dat.blockOf iblk6; rw [A_eq6]; try rfl

/-! ## Where the output window is idle -/

/-- Away from k = 7 the printed configuration calls the output window idle (the body does not store into it), -/
theorem idle6_3 : ∀ t : Fin cfg6.N, ¬t.val % 8 = 7 → cfg6.idle 3 (cfg6.grid.coords t) = true := by decide +kernel
/-- and the pipeline does not write its block back; -/
theorem noFlush6_3 (t : Fin cfg6.N) (h : ¬t.val % 8 = 7) : (cfg6.win 3).flush t = false :=
  Bool.eq_false_iff.mpr fun hf => h ((flush6_3 t).mp hf)
/-- at k = 7 it is live. -/
theorem live6_3 : ∀ t : Fin cfg6.N, t.val % 8 = 7 → cfg6.idle 3 (cfg6.grid.coords t) = false := by decide +kernel

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

/-- An input window's buffer is left at its block. -/
theorem leaves6_0 (c : Dev nD) (t : Fin cfg6.N) :
    (dat6 V c).leavesExact 0 t = owns (c : Thread nD τ) (st6_0 t) fullShare (iblk6 V c 0 t) := by
  rw [← after6_0]
theorem leaves6_1 (c : Dev nD) (t : Fin cfg6.N) :
    (dat6 V c).leavesExact 1 t = owns (c : Thread nD τ) (st6_1 t) fullShare (iblk6 V c 1 t) := by
  rw [← after6_1]
theorem leaves6_2 (c : Dev nD) (t : Fin cfg6.N) :
    (dat6 V c).leavesExact 2 t = owns (c : Thread nD τ) (st6_2 t) fullShare (iblk6 V c 2 t) := by
  rw [← after6_2]
/-- The output window's, away from k = 7, as the body found it; at k = 7 at `out6_3`. -/
theorem leaves6_3_idle (c : Dev nD) (t : Fin cfg6.N) (h : ¬t.val % 8 = 7) :
    (dat6 V c).leavesExact 3 t = iprop(∃ d, owns (c : Thread nD τ) (st6_3 t) fullShare ((dat6 V c).before 3 t d)) :=
  Dat.leavesExact_idle (dat6 V c) 3 t (idle6_3 t h) (noFlush6_3 t h)
theorem leaves6_3_live (c : Dev nD) (t : Fin cfg6.N) (h : t.val % 8 = 7) :
    (dat6 V c).leavesExact 3 t = owns (c : Thread nD τ) (st6_3 t) fullShare (out6_3 V c t) := by
  unfold Dat.leavesExact; rw [live6_3 t h, after6_3]

set_option maxHeartbeats 4000000 in
/-- The body at any point. The inputs' memrefs hold their blocks (`before6_W`); the position of the point in its row
    (k = 0, 0 < k < 7, k = 7) says which of the three triples applies; the invariant hands the body the scratch at what
    the point before left (at anything before the first point, and at a k = 0 point the triple asks no more) and takes
    it back at this point's contents; the output's buffer is handed back as found away from k = 7 and at `out6_3`
    there; the other scoped buffers, the generator register and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = Phi6 V c (t.val + 1) t.isLt from rfl, Phi6_succ]
  rw [leaves6_0, leaves6_1, leaves6_2, Phi6_castSucc]
  have hN : t.val < 64 := lt_of_lt_of_eq t.isLt (show cfg6.N = 64 from N_6)
  by_cases h0 : t.val % 8 = 0
  · have h7 : ¬t.val % 8 = 7 := by omega
    rw [leaves6_3_idle V c t h7, accAfter6_first V c t h0]
    by_cases hz : t.val = 0
    · rw [Phi6_zero V c _ _ hz, PhiA6_eq]
      iintro ⟨⟨⟨HS, HR⟩, Hg⟩, Ho, ⟨%d0, H0⟩, ⟨%d1, H1⟩, ⟨%d2, H2⟩, ⟨%d3, H3⟩⟩
      iapply (cc6_first c Set.univ (grid6.coords t) _ _ _ _ _ _ _ _ _ _ ((isFirstK6_iff t).mpr h0) (fun h => h7 ((isLastK6_iff t).mp h))
        (iblk6 V c 0 t) (iblk6 V c 1 t) (iblk6 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi6_pos V c _ _ hz]
      iintro ⟨⟨⟨HS, HR⟩, Hg⟩, Ho, ⟨%d0, H0⟩, ⟨%d1, H1⟩, ⟨%d2, H2⟩, ⟨%d3, H3⟩⟩
      iapply (cc6_first c Set.univ (grid6.coords t) _ _ _ _ _ _ _ _ _ _ ((isFirstK6_iff t).mpr h0) (fun h => h7 ((isLastK6_iff t).mp h))
        (iblk6 V c 0 t) (iblk6 V c 1 t) (iblk6 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [Phi6_pos V c _ _ hz, accAfter6_next V c t h0]
    by_cases h7 : t.val % 8 = 7
    · rw [leaves6_3_live V c t h7]; unfold out6_3; rw [accAfter6_next V c t h0]
      iintro ⟨⟨⟨HS, HR⟩, Hg⟩, Ho, ⟨%d0, H0⟩, ⟨%d1, H1⟩, ⟨%d2, H2⟩, ⟨%d3, H3⟩⟩
      iapply (cc6_last c Set.univ (grid6.coords t) _ _ _ _ _ _ _ _ _ _ (fun h => h0 ((isFirstK6_iff t).mp h)) ((isLastK6_iff t).mpr h7)
        (iblk6 V c 0 t) (iblk6 V c 1 t) (iblk6 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [leaves6_3_idle V c t h7]
      iintro ⟨⟨⟨HS, HR⟩, Hg⟩, Ho, ⟨%d0, H0⟩, ⟨%d1, H1⟩, ⟨%d2, H2⟩, ⟨%d3, H3⟩⟩
      iapply (cc6_mid c Set.univ (grid6.coords t) _ _ _ _ _ _ _ _ _ _ (fun h => h0 ((isFirstK6_iff t).mp h)) (fun h => h7 ((isLastK6_iff t).mp h))
        (iblk6 V c 0 t) (iblk6 V c 1 t) (iblk6 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## Around the invariant: what the region hands it and takes back -/

/-- The invariant before the first point, from the generator register, anything `T` handed beside it (the prefetched
    tables: this pipeline has none, and the invariant keeps nothing of them) and the scoped buffers no window stages. -/
theorem hin6 (c : Dev nD) (T : sProp 𝕄) :
    iprop((∃ r, prngReg c r) ∗ T
        ∗ Pipeline.scopedRest (Ix := Unit) (Name := ℕ) (U := Pipeline.UD sig nD τ) (Lvl := ℕ) (Val := Elt F) spec6 c)
      ⊢ (dat6 V c).Φ 0 := by
  rw [show (dat6 V c).Φ 0 = Phi6 V c 0 (Nat.zero_le _) from rfl, Phi6_zero V c 0 _ rfl]; unfold Pipeline.ΦA
  iintro ⟨Hg, -, Hr⟩
  isplitl [Hr]; · iexact Hr
  iexact Hg

/-- After any point but the first the invariant gives the class's back: the scratch's named contents are forgotten. -/
theorem Phi6_forget (c : Dev nD) (t : Fin (cfg6.N + 1)) (ht : t.val ≠ 0) : (dat6 V c).Φ t ⊢ Pipeline.ΦA spec6 c := by
  rw [show (dat6 V c).Φ t = Phi6 V c t.val (Nat.le_of_lt_succ t.isLt) from rfl, Phi6_pos V c _ _ ht, PhiA6_eq]
  iintro ⟨⟨HS, HR⟩, Hg⟩
  isplitl [HS HR]
  · isplitl [HS]; · iexists _; iexact HS
    iexact HR
  iexact Hg

/-- The invariant after the last point gives back the generator register, the kernel's own semaphores (it has none) and
    the scoped buffers no window stages. -/
theorem hout6 (c : Dev nD) :
    (dat6 V c).Φ (Fin.last cfg6.N)
      ⊢ iprop((∃ r, prngReg c r)
          ∗ Pipeline.ownSems0 (Ix := Unit) (Name := ℕ) (U := Pipeline.UD sig nD τ) (Lvl := ℕ) (Val := Elt F) (τ := τ) (fun k : PEmpty => k.elim) c
          ∗ Pipeline.scopedRest (Ix := Unit) (Name := ℕ) (U := Pipeline.UD sig nD τ) (Lvl := ℕ) (Val := Elt F) spec6 c) := by
  rw [Pipeline.ownSems0_none]
  refine (Phi6_forget V c _ (by rw [Fin.val_last]; have : cfg6.N = 64 := N_6; omega)).trans ?_
  unfold Pipeline.ΦA
  iintro ⟨Hr, Hg⟩
  isplitl [Hg]; · iexact Hg
  isplitr; · iempintro
  iexact Hr

end Region

end Cert.KernelIdeal.Hand

end
-- ==== Proof.Lin7.lean ====
import proofs.«169470_j5557687681111_1_alg».proof.Proof.Gen.KernelIdeal.Launch
import proofs.«169470_j5557687681111_1_alg».proof.Proof.Gen.KernelIdeal.Skeleton
import proofs.«169470_j5557687681111_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The fourth bias-free linear layer (pallas_call 7): activations [81920,256] times weights [256,256], by row blocks

The grid has forty points; point `t` multiplies rows `2048·t … 2048·t + 2047` of the bf16 activations by the whole
f32 weight matrix (rounded to bf16, accumulated in f32, rounded back to bf16) and writes the same rows of the result.
The activations' block moves with the point and is fetched at each; the weights' block is the whole matrix, fetched
once; the result's block is written back at each point. -/

/-- What window `w` of the layer holds for grid point `t`, read out of the arrays as the layer finds them (`V`):
    for the activations and the result the `t`-th block of 2048 rows, for the weights the whole matrix. -/
def iblk7 (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-! ## The input buffers when the body runs -/

/-- The activations' staging buffer holds the point's block of rows whenever the body runs, for any proof data over
    the entry arrays `V` whose body leaves that block where it found it. The array's block at a point is `iblk7`
    (`hblock`); the window is an input, never idle and not cut, so a fetch fills the whole buffer with the block, and
    where no fetch happens the block index has not moved since the last one (`Dat.before_in_eq_fetched`). -/
theorem before7_0_of {c : Dev nD} (dat : Dat τ (Elt F) Unit ℕ (Pipeline.UD sig nD τ) ℕ cfg7 c)
    (hA : dat.A 0 = V c (Pipeline.arrRef spec7 0)) (hafter : ∀ t, dat.after 0 t = iblk7 V c 0 t)
    (t : Fin cfg7.N) (d) : dat.before 0 t d = iblk7 V c 0 t := by
  have hblock : ∀ t, dat.blockOf 0 t = iblk7 V c 0 t := fun t => by unfold Dat.blockOf iblk7; rw [hA]
  rw [dat.before_in_eq_fetched 0 rfl (fun _ => rfl) (fun _ _ _ => rfl) (fun t => by rw [hafter, hblock]) t d]
  exact hblock t

/-- The weights' staging buffer holds the whole weight matrix whenever the body runs: it is fetched at the first point
    only, its block index is the same at every point, and the body leaves it as found. -/
theorem before7_1_of {c : Dev nD} (dat : Dat τ (Elt F) Unit ℕ (Pipeline.UD sig nD τ) ℕ cfg7 c)
    (hA : dat.A 1 = V c (Pipeline.arrRef spec7 1)) (hafter : ∀ t, dat.after 1 t = iblk7 V c 1 t)
    (t : Fin cfg7.N) (d) : dat.before 1 t d = iblk7 V c 1 t := by
  have hblock : ∀ t, dat.blockOf 1 t = iblk7 V c 1 t := fun t => by unfold Dat.blockOf iblk7; rw [hA]
  rw [dat.before_in_eq_fetched 1 rfl (fun _ => rfl) (fun _ _ _ => rfl) (fun t => by rw [hafter, hblock]) t d]
  exact hblock t

/-! ## What the body does to its buffers -/

/-- The body touches each staging buffer as a whole: all 2048 rows by 256 columns of an activation block, -/
abbrev rowsAll7 : Rect S2048x256 := Rect.unit (s := S2048x256) ![0, 0] S2048x256.size inb_S2048x256_S2048x256_0_0
/-- and all 256 by 256 entries of the weights. -/
abbrev weightsAll7 : Rect S256x256 := Rect.unit (s := S256x256) ![0, 0] S256x256.size inb_S256x256_S256x256_0_0

/-- The result block the body leaves from an activation block `h` and the weights `wt`: its one store writes the
    product `k7_pay1` of what it loaded over the whole buffer. -/
def out7_2 (h : Vec F S2048x256 .bf16) (wt : Vec F S256x256 .f32) : Vec F S2048x256 .bf16 :=
  View.canon [⟨rowsAll7, k7_pay1 (View.ld h rowsAll7) (View.ld wt weightsAll7)⟩]

/-- That one store is of the whole 2048 by 256 shape, so it covers the buffer. -/
theorem store_covers7 (p : Vec F S2048x256 .bf16) (y : S2048x256.Idx) :
    ∃ pc ∈ ([⟨rowsAll7, p⟩] : List (View.Piece (Elt F) S2048x256 .bf16)), y ∈ pc.1.set :=
  View.cover_of_wholeMem _ (View.Piece.wholeMem_here rfl) y

set_option maxHeartbeats 1000000 in
/-- The kernel body on whole staging buffers: given the activations' buffer reading `h`, the weights' reading `wt` and
    the result's holding anything, it returns with the two inputs as they were and the result's buffer reading
    `out7_2 h wt`. The printed function is its skeleton — two loads, a load of the result buffer whose value goes
    unused, one store —, which the executor runs; what the store's writes leave reads as their canonical contents
    because the store covers the buffer. -/
theorem sound_kernel7 (c : Dev nD) (E : Set ℕ) (i : grid7.Coords)
    (hbuf : Memref sig .tc .vmem S2048x256 .bf16) (hh : hbuf.IsWhole)
    (wbuf : Memref sig .tc .vmem S256x256 .f32) (hw : wbuf.IsWhole)
    (obuf : Memref sig .tc .vmem S2048x256 .bf16) (ho : obuf.IsWhole)
    (h : Vec F S2048x256 .bf16) (wt : Vec F S256x256 .f32) (K : PUnit → sProp 𝕄) :
    iprop(owns (c : Thread nD τ) hbuf fullShare h ∗ owns (c : Thread nD τ) wbuf fullShare wt
        ∗ (∃ d, owns (c : Thread nD τ) obuf fullShare d)
        ∗ (iprop(owns (c : Thread nD τ) hbuf fullShare h ∗ owns (c : Thread nD τ) wbuf fullShare wt
            ∗ owns (c : Thread nD τ) obuf fullShare (out7_2 h wt)) -∗ K ⟨⟩))
      ⊢ wp frame (wpE (defs₀ (F := F)) Variants.none c none) E (cc7_kernel i hbuf hh wbuf hw obuf ho) K := by
  simp only [cc7_kernel_eq_skeleton]; unfold cc7_kernel_skel
  unfold owns
  iintro ⟨⟨%fh, %hfh, Hh⟩, ⟨%fw, %hfw, Hw⟩, ⟨%d, %fo, -, Ho⟩, Hk⟩
  subst hfh; subst hfw
  sl_exec
  sl_step
  iapply Hk
  isplitl [Hh]
  · iexists fh; isplitr
    · ipureintro; rfl
    · iexact Hh
  isplitl [Hw]
  · iexists fw; isplitr
    · ipureintro; rfl
    · iexact Hw
  iexists _; isplitr
  pick_goal 2
  · iexact Ho
  · ipureintro; exact View.read_writes_eq_canon _ _ _ (store_covers7 _)

/-! ## The pipeline's proof data -/

/-- The proof data of the layer's pipeline on core `c`: the arrays as found (`V`); after the body at point `t` the
    two inputs' buffers at their blocks and the result's at `out7_2` of those; the invariant of a pipeline whose body
    touches only its windows' buffers (`Pipeline.ΦA`); full shares; nothing owed. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

/-- Its arrays are the entry contents. -/
theorem A_eq7 (c : Dev nD) (w : Fin cfg7.W) : (dat7 V c).A w = V c (Pipeline.arrRef spec7 w) := by
  dsimp only [dat7]

/-- What the body leaves in each window's buffer, one window at a time. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) :
    (dat7 V c).after 2 t = out7_2 (iblk7 V c 0 t) (iblk7 V c 1 t) := by dsimp only [dat7]

/-- So the body finds the activations' block and the weights in its input buffers at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- The invariant and the tallies owed are the same before and after every point: the body reads neither. -/
theorem Φ_step7 (c : Dev nD) (t : Fin cfg7.N) : (dat7 V c).Φ t.succ = (dat7 V c).Φ t.castSucc := rfl
theorem owes_step7 (c : Dev nD) (t : Fin cfg7.N) :
    (dat7 V c).owesAt () t.succ = (dat7 V c).owesAt () t.castSucc := rfl

/-! ## The body obligation -/

/-- The body at grid point `t`, window by window: handed the invariant, what is owed, and its three current staging
    buffers holding what `Dat.before` says, it returns them holding what `dat7` says it leaves. The inputs hold their
    blocks (`before7_0`, `before7_1`), so the kernel's triple applies; the invariant and the tallies pass by. -/
theorem sound_body7 (c : Dev nD) (t : Fin cfg7.N) :
    iprop((dat7 V c).Φ t.castSucc ∗ (dat7 V c).owesAt () t.castSucc
        ∗ (∃ d, owns (c : Thread nD τ) (st7_0 t) fullShare ((dat7 V c).before 0 t d))
        ∗ (∃ d, owns (c : Thread nD τ) (st7_1 t) fullShare ((dat7 V c).before 1 t d))
        ∗ (∃ d, owns (c : Thread nD τ) (st7_2 t) fullShare ((dat7 V c).before 2 t d)))
      ⊢ wp frame (wpE (defs₀ (F := F)) Variants.none c none) Set.univ (bodyAt7 t) (fun _ =>
          iprop((dat7 V c).Φ t.succ ∗ (dat7 V c).owesAt () t.succ
            ∗ owns (c : Thread nD τ) (st7_0 t) fullShare ((dat7 V c).after 0 t)
            ∗ owns (c : Thread nD τ) (st7_1 t) fullShare ((dat7 V c).after 1 t)
            ∗ owns (c : Thread nD τ) (st7_2 t) fullShare ((dat7 V c).after 2 t))) := by
  simp only [before7_0, before7_1]
  rw [Φ_step7, owes_step7, after7_0, after7_1, after7_2]
  iintro ⟨HΦ, Howed, ⟨%d0, Hh⟩, ⟨%d1, Hw⟩, ⟨%d2, Ho⟩⟩
  iapply (sound_kernel7 c Set.univ (grid7.coords t) _ _ _ _ _ _ (iblk7 V c 0 t) (iblk7 V c 1 t) _)
  isplitl [Hh]; · iexact Hh
  isplitl [Hw]; · iexact Hw
  isplitl [Ho]; · iexists _; iexact Ho
  iintro ⟨Hh, Hw, Ho⟩
  isplitl [HΦ]; · iexact HΦ
  isplitl [Howed]; · iexact Howed
  isplitl [Hh]; · iexact Hh
  isplitl [Hw]; · iexact Hw
  iexact Ho

/-- The library's body obligation for the layer, at every grid point. -/
theorem body_obligation7 (c : Dev nD) :
    BodyObligation (dat7 (F := F) V c) (defs₀ (F := F)) Variants.none () Set.univ := fun t => by
  rw [bigSep_W7, bigSep_W7]
  exact sound_body7 V c t

end Cert.KernelIdeal.Hand
-- ==== Proof.Agg8.lean ====
import proofs.«169470_j5557687681111_1_alg».proof.Proof.Gen.KernelIdeal.Launch
import proofs.«169470_j5557687681111_1_alg».proof.Proof.Gen.KernelIdeal.Skeleton
import proofs.«169470_j5557687681111_1_alg».proof.Proof.Gen.KernelIdeal.Points
import proofs.«169470_j5557687681111_1_alg».proof.Proof.Agg2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 8 of @main: the aggregation `out = relu(A · Hc + bias)`, blocked over (i, k) on an 8 × 8 grid

The same kernel as region 2's on this layer's operands: an f32 accumulator kept in a scratch buffer from grid point to
grid point, zeroed at k = 0, added into at every k, read out into the output block at k = 7. The whole-buffer access
lemmas are region 2's. -/

/-! ## The body's two conditions -/

/-- The condition of the body's first `scf.if` (zero the accumulator), from the grid coordinates. -/
abbrev isFirstK8 (i : grid8.Coords) : Prop :=
  (Scalar.cmpi .ne (Scalar.extui (Scalar.cmpi .eq (BitVec.ofNat 32 (i 1).val) 0#32)) 0#32) = 1#1
/-- The condition of its second `scf.if` (store the output block). -/
abbrev isLastK8 (i : grid8.Coords) : Prop := k8_cond2 i = 1#1

/-- The first holds at the points with k = 0, -/
theorem isFirstK8_iff : ∀ t : Fin cfg8.N, isFirstK8 (grid8.coords t) ↔ t.val % 8 = 0 :=
  (by decide +kernel : ∀ t : Fin grid8.N, isFirstK8 (grid8.coords t) ↔ t.val % 8 = 0)
/-- the second at the points with k = 7. -/
theorem isLastK8_iff : ∀ t : Fin cfg8.N, isLastK8 (grid8.coords t) ↔ t.val % 8 = 7 :=
  (by decide +kernel : ∀ t : Fin grid8.N, isLastK8 (grid8.coords t) ↔ t.val % 8 = 7)

/-! ## The body's triple, one per case

On whole memrefs: `a`, `h`, `b` are what the three input buffers read, `s` what the accumulator reads on entry. -/

set_option maxHeartbeats 1000000 in
/-- k = 0: the accumulator, whatever it held, ends at `zeros + a · h`; the output buffer is handed back untouched. -/
theorem cc8_first (c : Dev nD) (E : Set ℕ) (i : grid8.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : isFirstK8 i) (hc1 : ¬isLastK8 i)
    (a : Vec F S1280x1280 .bf16) (h : Vec F S1280x2048 .bf16) (b : Vec F S1x2048 .f32) (o : Vec F S1280x2048 .bf16)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ (∃ s, owns (c : Thread nD τ) arg6 fullShare s)
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k8_pay2 (k8_pay1 (F := F)) a h)) -∗ K ⟨⟩))
      ⊢ wp frame (wpE (defs₀ (F := F)) Variants.none c none) E (cc8_kernel i arg2 harg2 arg3 harg3 arg4 harg4 arg5 harg5 arg6 harg6) K := by
  simp only [cc8_kernel_eq_skeleton]; unfold cc8_kernel_skel
  unfold owns
  iintro ⟨⟨%f2, %hf2, H2⟩, ⟨%f3, %hf3, H3⟩, ⟨%f4, %hf4, H4⟩, ⟨%f5, %hf5, H5⟩, ⟨%s, %f6, -, H6⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  sl_unfold_run_names
  rw [read_writes_whole _ _ offs00, View.readCov_unit_zero _ offs00, readAt_whole_unread harg2 offs00, readAt_whole_unread harg3 offs00]

set_option maxHeartbeats 1000000 in
/-- 0 < k < 7: the accumulator goes from `s` to `s + a · h`; the output buffer is handed back untouched. -/
theorem cc8_mid (c : Dev nD) (E : Set ℕ) (i : grid8.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK8 i) (hc1 : ¬isLastK8 i)
    (a : Vec F S1280x1280 .bf16) (h : Vec F S1280x2048 .bf16) (b : Vec F S1x2048 .f32) (o : Vec F S1280x2048 .bf16) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k8_pay2 s a h)) -∗ K ⟨⟩))
      ⊢ wp frame (wpE (defs₀ (F := F)) Variants.none c none) E (cc8_kernel i arg2 harg2 arg3 harg3 arg4 harg4 arg5 harg5 arg6 harg6) K := by
  simp only [cc8_kernel_eq_skeleton]; unfold cc8_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [read_writes_whole _ _ offs00, readAt_whole_unread harg6 offs00, readAt_whole_unread harg2 offs00, readAt_whole_unread harg3 offs00]

set_option maxHeartbeats 1000000 in
/-- k = 7: the accumulator goes from `s` to `s + a · h`, and the output buffer, whatever it held, ends at
    `max(s + a · h + b, 0)` rounded to bf16. -/
theorem cc8_last (c : Dev nD) (E : Set ℕ) (i : grid8.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK8 i) (hc1 : isLastK8 i)
    (a : Vec F S1280x1280 .bf16) (h : Vec F S1280x2048 .bf16) (b : Vec F S1x2048 .f32) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ (∃ o, owns (c : Thread nD τ) arg5 fullShare o) ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare (k8_pay3 (k8_pay2 s a h) b) ∗ owns (c : Thread nD τ) arg6 fullShare (k8_pay2 s a h)) -∗ K ⟨⟩))
      ⊢ wp frame (wpE (defs₀ (F := F)) Variants.none c none) E (cc8_kernel i arg2 harg2 arg3 harg3 arg4 harg4 arg5 harg5 arg6 harg6) K := by
  simp only [cc8_kernel_eq_skeleton]; unfold cc8_kernel_skel
  unfold owns
  iintro ⟨⟨%f2, %hf2, H2⟩, ⟨%f3, %hf3, H3⟩, ⟨%f4, %hf4, H4⟩, ⟨%o, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [read_writes_whole _ _ offs00, View.readCov_unit_zero _ offs00, readAt_whole_unread harg6 offs00, readAt_whole_unread harg2 offs00,
      readAt_whole_unread harg3 offs00, readAt_whole_unread harg4 offs00]
  iexists _; isplitr
  swap; · iexact H6
  ipureintro
  sl_unfold_run_names
  rw [read_writes_whole _ _ offs00, readAt_whole_unread harg6 offs00, readAt_whole_unread harg2 offs00, readAt_whole_unread harg3 offs00]

section Region

-- the TensorCore's buffer contents when the region is entered: everything below is stated at this parameter
variable (V : (c : Dev nD) → (b : Ref sig .tc) → Buf (Elt F) ((c : Thread nD τ).loc b))

/-! ## The windows' blocks -/

/-- Window `w`'s block at point `t`, read off the window's array as the region finds it. Window 0 is the block (i, k) of
    `A`, window 1 the block (k, 0) of `Hc`, window 2 the bias row, window 3 the block (i, 0) of the output. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The accumulator, point by point -/

/-- What the accumulator holds AFTER the body at point `n`: at a point with k = 0 the product of the point's blocks added
    to zeros, at any other the product added to what the point before left. -/
def accAfter8 (c : Dev nD) : (n : ℕ) → n < cfg8.N → Vec F S1280x2048 .f32
  | 0, hn => k8_pay2 (k8_pay1 (F := F)) (iblk8 V c 0 ⟨0, hn⟩) (iblk8 V c 1 ⟨0, hn⟩)
  | n + 1, hn =>
    if (n + 1) % 8 = 0 then k8_pay2 (k8_pay1 (F := F)) (iblk8 V c 0 ⟨n + 1, hn⟩) (iblk8 V c 1 ⟨n + 1, hn⟩)
    else k8_pay2 (accAfter8 c n (Nat.lt_of_succ_lt hn)) (iblk8 V c 0 ⟨n + 1, hn⟩) (iblk8 V c 1 ⟨n + 1, hn⟩)

/-- At a point with k = 0 the accumulator restarts from zeros. -/
theorem accAfter8_first (c : Dev nD) (t : Fin cfg8.N) (h0 : t.val % 8 = 0) :
    accAfter8 V c t.val t.isLt = k8_pay2 (k8_pay1 (F := F)) (iblk8 V c 0 t) (iblk8 V c 1 t) := by
  obtain ⟨n, hn⟩ := t
  cases n with
  | zero => rfl
  | succ n => exact if_pos h0

/-- At any other point it adds to what the point before left. -/
theorem accAfter8_next (c : Dev nD) (t : Fin cfg8.N) (h0 : ¬t.val % 8 = 0) :
    accAfter8 V c t.val t.isLt
      = k8_pay2 (accAfter8 V c (t.val - 1) (Nat.lt_of_le_of_lt (Nat.sub_le _ _) t.isLt)) (iblk8 V c 0 t) (iblk8 V c 1 t) := by
  obtain ⟨n, hn⟩ := t
  cases n with
  | zero => exact absurd (Nat.zero_mod _) h0
  | succ n => exact if_neg h0

/-- What the scratch holds BEFORE point `t`: what the point before left (before the first point the scratch holds
    anything — the zeros here are a placeholder the invariant does not use). -/
def acc8 (c : Dev nD) (t : Fin (cfg8.N + 1)) : Vec F S1280x2048 .f32 :=
  match t with
  | ⟨0, _⟩ => k8_pay1 (F := F)
  | ⟨n + 1, h⟩ => accAfter8 V c n (Nat.lt_of_succ_lt_succ h)

/-- What the output's staging buffer holds after the body at a point with k = 7: the accumulator, bias added, clamped at
    zero, rounded. (At the other points the body does not touch that buffer and the pipeline does not write it back; the
    proof data's entry there is not consulted.) -/
def out8_3 (c : Dev nD) (t : Fin cfg8.N) : Vec F S1280x2048 .bf16 :=
  k8_pay3 (accAfter8 V c t.val t.isLt) (iblk8 V c 2 t)

/-! ## The row fold: the value the region writes back -/

/-- The accumulator of the row block whose first point is `n0`, after its column blocks 0 … k: a left fold of
    `k8_pay2` from the zeros `k8_pay1` over the blocks at the points `n0`, …, `n0 + k`. -/
def rowAcc8 (c : Dev nD) (n0 : ℕ) : (k : ℕ) → n0 + k < cfg8.N → Vec F S1280x2048 .f32
  | 0, h => k8_pay2 (k8_pay1 (F := F)) (iblk8 V c 0 ⟨n0, h⟩) (iblk8 V c 1 ⟨n0, h⟩)
  | k + 1, h => k8_pay2 (rowAcc8 c n0 k (Nat.lt_of_succ_lt h)) (iblk8 V c 0 ⟨n0 + (k + 1), h⟩) (iblk8 V c 1 ⟨n0 + (k + 1), h⟩)

/-- Within a row block (first point `n0` ≡ 0 mod 8, k < 8) the point-by-point accumulator is the row fold. -/
theorem accAfter8_eq_rowAcc8 (c : Dev nD) (n0 : ℕ) (h0 : n0 % 8 = 0) :
    ∀ (k : ℕ) (_ : k < 8) (h : n0 + k < cfg8.N), accAfter8 V c (n0 + k) h = rowAcc8 V c n0 k h
  | 0, _, h => accAfter8_first V c ⟨n0, h⟩ h0
  | k + 1, hk, h => by
    have hne : ¬(n0 + (k + 1)) % 8 = 0 := by omega
    have e := accAfter8_next V c ⟨n0 + (k + 1), h⟩ hne
    have ih := accAfter8_eq_rowAcc8 c n0 h0 k (by omega) (Nat.lt_of_succ_lt h)
    simp only [Nat.add_succ_sub_one] at e
    rw [e, ih]; rfl

/-- THE VALUE written back for a row block: at a point `t` with k = 7 the output buffer holds `k8_pay3` of the fold of
    `k8_pay2` from `k8_pay1` over the eight points `8 · (t / 8) + k`, k = 0 … 7, and of the bias block. -/
theorem out8_3_last (c : Dev nD) (t : Fin cfg8.N) (h7 : t.val % 8 = 7) :
    out8_3 V c t = k8_pay3 (rowAcc8 V c (8 * (t.val / 8)) 7 (by have := t.isLt; omega)) (iblk8 V c 2 t) := by
  unfold out8_3
  have e : t.val = 8 * (t.val / 8) + 7 := by omega
  have h := accAfter8_eq_rowAcc8 V c (8 * (t.val / 8)) (by omega) 7 (by omega) (by have := t.isLt; omega)
  congr 1
  rw [← h]; congr 1

/-! ## The invariant: the scratch carried from point to point -/

/-- The accumulator scratch as a memref: a whole scoped buffer of the kernel's own, passed beside the windows. -/
abbrev scM8 : Memref sig .tc .vmem S1280x2048 .f32 := Memref.whole cc8_scratch0

/-- Every scoped buffer of the core that is neither a staging buffer of this call nor its scratch, at some contents:
    carried through the region unopened. -/
abbrev others8 (c : Dev nD) : sProp 𝕄 :=
  Pipeline.scopedRestBut (Ix := Unit) (Name := ℕ) (U := Pipeline.UD sig nD τ) (Lvl := ℕ) (Val := Elt F) spec8 c [cc8_scratch0]

/-- The class invariant with the scratch split out and owned as a memref at some contents. -/
theorem PhiA8_eq (c : Dev nD) :
    (Pipeline.ΦA spec8 c : sProp 𝕄)
      = iprop(iprop((∃ d, owns (c : Thread nD τ) scM8 fullShare d) ∗ others8 c) ∗ (∃ r, prngReg c r)) := by
  unfold Pipeline.ΦA; rw [scopedRest8_split]; simp only [scM8, owns_whole]; rfl

/-- The invariant before position `n`: before the first point the class's (the scratch at anything); afterwards the
    same with the scratch at what the point before left in it. -/
def Phi8 (c : Dev nD) : (n : ℕ) → n ≤ cfg8.N → sProp 𝕄
  | 0, _ => Pipeline.ΦA spec8 c
  | n + 1, hn => iprop(iprop(owns (c : Thread nD τ) scM8 fullShare (accAfter8 V c n hn) ∗ others8 c) ∗ (∃ r, prngReg c r))

theorem Phi8_zero (c : Dev nD) (n : ℕ) (h : n ≤ cfg8.N) (hz : n = 0) : Phi8 V c n h = Pipeline.ΦA spec8 c := by
  subst hz; rfl

theorem Phi8_succ (c : Dev nD) (n : ℕ) (hn : n < cfg8.N) :
    Phi8 V c (n + 1) hn = iprop(iprop(owns (c : Thread nD τ) scM8 fullShare (accAfter8 V c n hn) ∗ others8 c) ∗ (∃ r, prngReg c r)) := rfl

theorem Phi8_pos (c : Dev nD) (n : ℕ) (h : n ≤ cfg8.N) (hz : n ≠ 0) :
    Phi8 V c n h = iprop(iprop(owns (c : Thread nD τ) scM8 fullShare (accAfter8 V c (n - 1) (by omega)) ∗ others8 c) ∗ (∃ r, prngReg c r)) := by
  cases n with
  | zero => exact absurd rfl hz
  | succ n => rfl

/-! ## The pipeline's proof data -/

/-- The proof data of the region's pipeline on core `c`: the arrays as the region finds them; after the body each input's
    buffer at its block and the output's at `out8_3`; the invariant `Phi8`; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 V c t
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 V c t := by dsimp only [dat8]

/-- The invariant at a point's start, restated at the point's position. -/
theorem Phi8_castSucc (c : Dev nD) (t : Fin cfg8.N) :
    (dat8 V c).Φ t.castSucc = Phi8 V c t.val (Nat.le_of_lt t.isLt) := by
  dsimp only [dat8]; simp only [Fin.coe_castSucc]

/-! ## What the body finds in the inputs' buffers

Each input's current staging buffer holds the window's block at every point, whether the pipeline fetched it there or
not: the body leaves the inputs in place, and an input not fetched at a point has the block index of the point before
(the bias row, fetched once). -/

theorem before8_0 (c : Dev nD) (t : Fin cfg8.N) (d) : (dat8 V c).before 0 t d = iblk8 V c 0 t := by
  have hkeep : ∀ t, (cfg8.win 0).cut (cfg8.grid.coords t) ((dat8 V c).after 0 t) = (dat8 V c).blockOf 0 t := fun t => by
    rw [after8_0]; unfold Dat.blockOf iblk8; rw [A_eq8]; try rfl
  rw [(dat8 V c).before_in_eq_fetched 0 rfl (fun _ => rfl) (fun _ _ _ => rfl) hkeep t d]
  unfold Dat.fetched Dat.blockOf iblk8; rw [A_eq8]; try rfl

theorem before8_1 (c : Dev nD) (t : Fin cfg8.N) (d) : (dat8 V c).before 1 t d = iblk8 V c 1 t := by
  have hkeep : ∀ t, (cfg8.win 1).cut (cfg8.grid.coords t) ((dat8 V c).after 1 t) = (dat8 V c).blockOf 1 t := fun t => by
    rw [after8_1]; unfold Dat.blockOf iblk8; rw [A_eq8]; try rfl
  rw [(dat8 V c).before_in_eq_fetched 1 rfl (fun _ => rfl) (fun _ _ _ => rfl) hkeep t d]
  unfold Dat.fetched Dat.blockOf iblk8; rw [A_eq8]; try rfl

theorem before8_2 (c : Dev nD) (t : Fin cfg8.N) (d) : (dat8 V c).before 2 t d = iblk8 V c 2 t := by
  have hkeep : ∀ t, (cfg8.win 2).cut (cfg8.grid.coords t) ((dat8 V c).after 2 t) = (dat8 V c).blockOf 2 t := fun t => by
    rw [after8_2]; unfold Dat.blockOf iblk8; rw [A_eq8]; try rfl
  rw [(dat8 V c).before_in_eq_fetched 2 rfl (fun _ => rfl) (fun _ _ _ => rfl) hkeep t d]
  unfold Dat.fetched Dat.blockOf iblk8; rw [A_eq8]; try rfl

/-! ## Where the output window is idle -/

/-- Away from k = 7 the printed configuration calls the output window idle (the body does not store into it), -/
theorem idle8_3 : ∀ t : Fin cfg8.N, ¬t.val % 8 = 7 → cfg8.idle 3 (cfg8.grid.coords t) = true := by decide +kernel
/-- and the pipeline does not write its block back; -/
theorem noFlush8_3 (t : Fin cfg8.N) (h : ¬t.val % 8 = 7) : (cfg8.win 3).flush t = false :=
  Bool.eq_false_iff.mpr fun hf => h ((flush8_3 t).mp hf)
/-- at k = 7 it is live. -/
theorem live8_3 : ∀ t : Fin cfg8.N, t.val % 8 = 7 → cfg8.idle 3 (cfg8.grid.coords t) = false := by decide +kernel

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

/-- An input window's buffer is left at its block. -/
theorem leaves8_0 (c : Dev nD) (t : Fin cfg8.N) :
    (dat8 V c).leavesExact 0 t = owns (c : Thread nD τ) (st8_0 t) fullShare (iblk8 V c 0 t) := by
  rw [← after8_0]
theorem leaves8_1 (c : Dev nD) (t : Fin cfg8.N) :
    (dat8 V c).leavesExact 1 t = owns (c : Thread nD τ) (st8_1 t) fullShare (iblk8 V c 1 t) := by
  rw [← after8_1]
theorem leaves8_2 (c : Dev nD) (t : Fin cfg8.N) :
    (dat8 V c).leavesExact 2 t = owns (c : Thread nD τ) (st8_2 t) fullShare (iblk8 V c 2 t) := by
  rw [← after8_2]
/-- The output window's, away from k = 7, as the body found it; at k = 7 at `out8_3`. -/
theorem leaves8_3_idle (c : Dev nD) (t : Fin cfg8.N) (h : ¬t.val % 8 = 7) :
    (dat8 V c).leavesExact 3 t = iprop(∃ d, owns (c : Thread nD τ) (st8_3 t) fullShare ((dat8 V c).before 3 t d)) :=
  Dat.leavesExact_idle (dat8 V c) 3 t (idle8_3 t h) (noFlush8_3 t h)
theorem leaves8_3_live (c : Dev nD) (t : Fin cfg8.N) (h : t.val % 8 = 7) :
    (dat8 V c).leavesExact 3 t = owns (c : Thread nD τ) (st8_3 t) fullShare (out8_3 V c t) := by
  unfold Dat.leavesExact; rw [live8_3 t h, after8_3]

set_option maxHeartbeats 4000000 in
/-- The body at any point. The inputs' memrefs hold their blocks (`before8_W`); the position of the point in its row
    (k = 0, 0 < k < 7, k = 7) says which of the three triples applies; the invariant hands the body the scratch at what
    the point before left (at anything before the first point, and at a k = 0 point the triple asks no more) and takes
    it back at this point's contents; the output's buffer is handed back as found away from k = 7 and at `out8_3`
    there; the other scoped buffers, the generator register and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).owesAt () t.succ = (dat8 V c).owesAt () t.castSucc from rfl]
  rw [show (dat8 V c).Φ t.succ = Phi8 V c (t.val + 1) t.isLt from rfl, Phi8_succ]
  rw [leaves8_0, leaves8_1, leaves8_2, Phi8_castSucc]
  have hN : t.val < 64 := lt_of_lt_of_eq t.isLt (show cfg8.N = 64 from N_8)
  by_cases h0 : t.val % 8 = 0
  · have h7 : ¬t.val % 8 = 7 := by omega
    rw [leaves8_3_idle V c t h7, accAfter8_first V c t h0]
    by_cases hz : t.val = 0
    · rw [Phi8_zero V c _ _ hz, PhiA8_eq]
      iintro ⟨⟨⟨HS, HR⟩, Hg⟩, Ho, ⟨%d0, H0⟩, ⟨%d1, H1⟩, ⟨%d2, H2⟩, ⟨%d3, H3⟩⟩
      iapply (cc8_first c Set.univ (grid8.coords t) _ _ _ _ _ _ _ _ _ _ ((isFirstK8_iff t).mpr h0) (fun h => h7 ((isLastK8_iff t).mp h))
        (iblk8 V c 0 t) (iblk8 V c 1 t) (iblk8 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi8_pos V c _ _ hz]
      iintro ⟨⟨⟨HS, HR⟩, Hg⟩, Ho, ⟨%d0, H0⟩, ⟨%d1, H1⟩, ⟨%d2, H2⟩, ⟨%d3, H3⟩⟩
      iapply (cc8_first c Set.univ (grid8.coords t) _ _ _ _ _ _ _ _ _ _ ((isFirstK8_iff t).mpr h0) (fun h => h7 ((isLastK8_iff t).mp h))
        (iblk8 V c 0 t) (iblk8 V c 1 t) (iblk8 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [Phi8_pos V c _ _ hz, accAfter8_next V c t h0]
    by_cases h7 : t.val % 8 = 7
    · rw [leaves8_3_live V c t h7]; unfold out8_3; rw [accAfter8_next V c t h0]
      iintro ⟨⟨⟨HS, HR⟩, Hg⟩, Ho, ⟨%d0, H0⟩, ⟨%d1, H1⟩, ⟨%d2, H2⟩, ⟨%d3, H3⟩⟩
      iapply (cc8_last c Set.univ (grid8.coords t) _ _ _ _ _ _ _ _ _ _ (fun h => h0 ((isFirstK8_iff t).mp h)) ((isLastK8_iff t).mpr h7)
        (iblk8 V c 0 t) (iblk8 V c 1 t) (iblk8 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [leaves8_3_idle V c t h7]
      iintro ⟨⟨⟨HS, HR⟩, Hg⟩, Ho, ⟨%d0, H0⟩, ⟨%d1, H1⟩, ⟨%d2, H2⟩, ⟨%d3, H3⟩⟩
      iapply (cc8_mid c Set.univ (grid8.coords t) _ _ _ _ _ _ _ _ _ _ (fun h => h0 ((isFirstK8_iff t).mp h)) (fun h => h7 ((isLastK8_iff t).mp h))
        (iblk8 V c 0 t) (iblk8 V c 1 t) (iblk8 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## Around the invariant: what the region hands it and takes back -/

/-- The invariant before the first point, from the generator register, anything `T` handed beside it (the prefetched
    tables: this pipeline has none, and the invariant keeps nothing of them) and the scoped buffers no window stages. -/
theorem hin8 (c : Dev nD) (T : sProp 𝕄) :
    iprop((∃ r, prngReg c r) ∗ T
        ∗ Pipeline.scopedRest (Ix := Unit) (Name := ℕ) (U := Pipeline.UD sig nD τ) (Lvl := ℕ) (Val := Elt F) spec8 c)
      ⊢ (dat8 V c).Φ 0 := by
  rw [show (dat8 V c).Φ 0 = Phi8 V c 0 (Nat.zero_le _) from rfl, Phi8_zero V c 0 _ rfl]; unfold Pipeline.ΦA
  iintro ⟨Hg, -, Hr⟩
  isplitl [Hr]; · iexact Hr
  iexact Hg

/-- After any point but the first the invariant gives the class's back: the scratch's named contents are forgotten. -/
theorem Phi8_forget (c : Dev nD) (t : Fin (cfg8.N + 1)) (ht : t.val ≠ 0) : (dat8 V c).Φ t ⊢ Pipeline.ΦA spec8 c := by
  rw [show (dat8 V c).Φ t = Phi8 V c t.val (Nat.le_of_lt_succ t.isLt) from rfl, Phi8_pos V c _ _ ht, PhiA8_eq]
  iintro ⟨⟨HS, HR⟩, Hg⟩
  isplitl [HS HR]
  · isplitl [HS]; · iexists _; iexact HS
    iexact HR
  iexact Hg

/-- The invariant after the last point gives back the generator register, the kernel's own semaphores (it has none) and
    the scoped buffers no window stages. -/
theorem hout8 (c : Dev nD) :
    (dat8 V c).Φ (Fin.last cfg8.N)
      ⊢ iprop((∃ r, prngReg c r)
          ∗ Pipeline.ownSems0 (Ix := Unit) (Name := ℕ) (U := Pipeline.UD sig nD τ) (Lvl := ℕ) (Val := Elt F) (τ := τ) (fun k : PEmpty => k.elim) c
          ∗ Pipeline.scopedRest (Ix := Unit) (Name := ℕ) (U := Pipeline.UD sig nD τ) (Lvl := ℕ) (Val := Elt F) spec8 c) := by
  rw [Pipeline.ownSems0_none]
  refine (Phi8_forget V c _ (by rw [Fin.val_last]; have : cfg8.N = 64 := N_8; omega)).trans ?_
  unfold Pipeline.ΦA
  iintro ⟨Hr, Hg⟩
  isplitl [Hg]; · iexact Hg
  isplitr; · iempintro
  iexact Hr

end Region

end Cert.KernelIdeal.Hand

end
-- ==== Proof.Lin9.lean ====
import proofs.«169470_j5557687681111_1_alg».proof.Proof.Gen.KernelIdeal.Launch
import proofs.«169470_j5557687681111_1_alg».proof.Proof.Gen.KernelIdeal.Skeleton
import proofs.«169470_j5557687681111_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The fifth bias-free linear layer (pallas_call 9): activations [81920,256] times weights [256,256], by row blocks

The grid has forty points; point `t` multiplies rows `2048·t … 2048·t + 2047` of the bf16 activations by the whole
f32 weight matrix (rounded to bf16, accumulated in f32, rounded back to bf16) and writes the same rows of the result.
The activations' block moves with the point and is fetched at each; the weights' block is the whole matrix, fetched
once; the result's block is written back at each point. -/

/-- What window `w` of the layer holds for grid point `t`, read out of the arrays as the layer finds them (`V`):
    for the activations and the result the `t`-th block of 2048 rows, for the weights the whole matrix. -/
def iblk9 (c : Dev nD) (w : Fin cfg9.W) (t : Fin cfg9.N) :
    ((cfg9.win w).xblock (cfg9.grid.coords t)).Idx → Elt F (cfg9.win w).elt :=
  ((cfg9.win w).blk t).view.read (Elt F) (V c (Pipeline.arrRef spec9 w))

/-! ## The input buffers when the body runs -/

/-- The activations' staging buffer holds the point's block of rows whenever the body runs, for any proof data over
    the entry arrays `V` whose body leaves that block where it found it. The array's block at a point is `iblk9`
    (`hblock`); the window is an input, never idle and not cut, so a fetch fills the whole buffer with the block, and
    where no fetch happens the block index has not moved since the last one (`Dat.before_in_eq_fetched`). -/
theorem before9_0_of {c : Dev nD} (dat : Dat τ (Elt F) Unit ℕ (Pipeline.UD sig nD τ) ℕ cfg9 c)
    (hA : dat.A 0 = V c (Pipeline.arrRef spec9 0)) (hafter : ∀ t, dat.after 0 t = iblk9 V c 0 t)
    (t : Fin cfg9.N) (d) : dat.before 0 t d = iblk9 V c 0 t := by
  have hblock : ∀ t, dat.blockOf 0 t = iblk9 V c 0 t := fun t => by unfold Dat.blockOf iblk9; rw [hA]
  rw [dat.before_in_eq_fetched 0 rfl (fun _ => rfl) (fun _ _ _ => rfl) (fun t => by rw [hafter, hblock]) t d]
  exact hblock t

/-- The weights' staging buffer holds the whole weight matrix whenever the body runs: it is fetched at the first point
    only, its block index is the same at every point, and the body leaves it as found. -/
theorem before9_1_of {c : Dev nD} (dat : Dat τ (Elt F) Unit ℕ (Pipeline.UD sig nD τ) ℕ cfg9 c)
    (hA : dat.A 1 = V c (Pipeline.arrRef spec9 1)) (hafter : ∀ t, dat.after 1 t = iblk9 V c 1 t)
    (t : Fin cfg9.N) (d) : dat.before 1 t d = iblk9 V c 1 t := by
  have hblock : ∀ t, dat.blockOf 1 t = iblk9 V c 1 t := fun t => by unfold Dat.blockOf iblk9; rw [hA]
  rw [dat.before_in_eq_fetched 1 rfl (fun _ => rfl) (fun _ _ _ => rfl) (fun t => by rw [hafter, hblock]) t d]
  exact hblock t

/-! ## What the body does to its buffers -/

/-- The body touches each staging buffer as a whole: all 2048 rows by 256 columns of an activation block, -/
abbrev rowsAll9 : Rect S2048x256 := Rect.unit (s := S2048x256) ![0, 0] S2048x256.size inb_S2048x256_S2048x256_0_0
/-- and all 256 by 256 entries of the weights. -/
abbrev weightsAll9 : Rect S256x256 := Rect.unit (s := S256x256) ![0, 0] S256x256.size inb_S256x256_S256x256_0_0

/-- The result block the body leaves from an activation block `h` and the weights `wt`: its one store writes the
    product `k9_pay1` of what it loaded over the whole buffer. -/
def out9_2 (h : Vec F S2048x256 .bf16) (wt : Vec F S256x256 .f32) : Vec F S2048x256 .bf16 :=
  View.canon [⟨rowsAll9, k9_pay1 (View.ld h rowsAll9) (View.ld wt weightsAll9)⟩]

/-- That one store is of the whole 2048 by 256 shape, so it covers the buffer. -/
theorem store_covers9 (p : Vec F S2048x256 .bf16) (y : S2048x256.Idx) :
    ∃ pc ∈ ([⟨rowsAll9, p⟩] : List (View.Piece (Elt F) S2048x256 .bf16)), y ∈ pc.1.set :=
  View.cover_of_wholeMem _ (View.Piece.wholeMem_here rfl) y

set_option maxHeartbeats 1000000 in
/-- The kernel body on whole staging buffers: given the activations' buffer reading `h`, the weights' reading `wt` and
    the result's holding anything, it returns with the two inputs as they were and the result's buffer reading
    `out9_2 h wt`. The printed function is its skeleton — two loads, a load of the result buffer whose value goes
    unused, one store —, which the executor runs; what the store's writes leave reads as their canonical contents
    because the store covers the buffer. -/
theorem sound_kernel9 (c : Dev nD) (E : Set ℕ) (i : grid9.Coords)
    (hbuf : Memref sig .tc .vmem S2048x256 .bf16) (hh : hbuf.IsWhole)
    (wbuf : Memref sig .tc .vmem S256x256 .f32) (hw : wbuf.IsWhole)
    (obuf : Memref sig .tc .vmem S2048x256 .bf16) (ho : obuf.IsWhole)
    (h : Vec F S2048x256 .bf16) (wt : Vec F S256x256 .f32) (K : PUnit → sProp 𝕄) :
    iprop(owns (c : Thread nD τ) hbuf fullShare h ∗ owns (c : Thread nD τ) wbuf fullShare wt
        ∗ (∃ d, owns (c : Thread nD τ) obuf fullShare d)
        ∗ (iprop(owns (c : Thread nD τ) hbuf fullShare h ∗ owns (c : Thread nD τ) wbuf fullShare wt
            ∗ owns (c : Thread nD τ) obuf fullShare (out9_2 h wt)) -∗ K ⟨⟩))
      ⊢ wp frame (wpE (defs₀ (F := F)) Variants.none c none) E (cc9_kernel i hbuf hh wbuf hw obuf ho) K := by
  simp only [cc9_kernel_eq_skeleton]; unfold cc9_kernel_skel
  unfold owns
  iintro ⟨⟨%fh, %hfh, Hh⟩, ⟨%fw, %hfw, Hw⟩, ⟨%d, %fo, -, Ho⟩, Hk⟩
  subst hfh; subst hfw
  sl_exec
  sl_step
  iapply Hk
  isplitl [Hh]
  · iexists fh; isplitr
    · ipureintro; rfl
    · iexact Hh
  isplitl [Hw]
  · iexists fw; isplitr
    · ipureintro; rfl
    · iexact Hw
  iexists _; isplitr
  pick_goal 2
  · iexact Ho
  · ipureintro; exact View.read_writes_eq_canon _ _ _ (store_covers9 _)

/-! ## The pipeline's proof data -/

/-- The proof data of the layer's pipeline on core `c`: the arrays as found (`V`); after the body at point `t` the
    two inputs' buffers at their blocks and the result's at `out9_2` of those; the invariant of a pipeline whose body
    touches only its windows' buffers (`Pipeline.ΦA`); full shares; nothing owed. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- Its arrays are the entry contents. -/
theorem A_eq9 (c : Dev nD) (w : Fin cfg9.W) : (dat9 V c).A w = V c (Pipeline.arrRef spec9 w) := by
  dsimp only [dat9]

/-- What the body leaves in each window's buffer, one window at a time. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) :
    (dat9 V c).after 2 t = out9_2 (iblk9 V c 0 t) (iblk9 V c 1 t) := by dsimp only [dat9]

/-- So the body finds the activations' block and the weights in its input buffers at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- The invariant and the tallies owed are the same before and after every point: the body reads neither. -/
theorem Φ_step9 (c : Dev nD) (t : Fin cfg9.N) : (dat9 V c).Φ t.succ = (dat9 V c).Φ t.castSucc := rfl
theorem owes_step9 (c : Dev nD) (t : Fin cfg9.N) :
    (dat9 V c).owesAt () t.succ = (dat9 V c).owesAt () t.castSucc := rfl

/-! ## The body obligation -/

/-- The body at grid point `t`, window by window: handed the invariant, what is owed, and its three current staging
    buffers holding what `Dat.before` says, it returns them holding what `dat9` says it leaves. The inputs hold their
    blocks (`before9_0`, `before9_1`), so the kernel's triple applies; the invariant and the tallies pass by. -/
theorem sound_body9 (c : Dev nD) (t : Fin cfg9.N) :
    iprop((dat9 V c).Φ t.castSucc ∗ (dat9 V c).owesAt () t.castSucc
        ∗ (∃ d, owns (c : Thread nD τ) (st9_0 t) fullShare ((dat9 V c).before 0 t d))
        ∗ (∃ d, owns (c : Thread nD τ) (st9_1 t) fullShare ((dat9 V c).before 1 t d))
        ∗ (∃ d, owns (c : Thread nD τ) (st9_2 t) fullShare ((dat9 V c).before 2 t d)))
      ⊢ wp frame (wpE (defs₀ (F := F)) Variants.none c none) Set.univ (bodyAt9 t) (fun _ =>
          iprop((dat9 V c).Φ t.succ ∗ (dat9 V c).owesAt () t.succ
            ∗ owns (c : Thread nD τ) (st9_0 t) fullShare ((dat9 V c).after 0 t)
            ∗ owns (c : Thread nD τ) (st9_1 t) fullShare ((dat9 V c).after 1 t)
            ∗ owns (c : Thread nD τ) (st9_2 t) fullShare ((dat9 V c).after 2 t))) := by
  simp only [before9_0, before9_1]
  rw [Φ_step9, owes_step9, after9_0, after9_1, after9_2]
  iintro ⟨HΦ, Howed, ⟨%d0, Hh⟩, ⟨%d1, Hw⟩, ⟨%d2, Ho⟩⟩
  iapply (sound_kernel9 c Set.univ (grid9.coords t) _ _ _ _ _ _ (iblk9 V c 0 t) (iblk9 V c 1 t) _)
  isplitl [Hh]; · iexact Hh
  isplitl [Hw]; · iexact Hw
  isplitl [Ho]; · iexists _; iexact Ho
  iintro ⟨Hh, Hw, Ho⟩
  isplitl [HΦ]; · iexact HΦ
  isplitl [Howed]; · iexact Howed
  isplitl [Hh]; · iexact Hh
  isplitl [Hw]; · iexact Hw
  iexact Ho

/-- The library's body obligation for the layer, at every grid point. -/
theorem body_obligation9 (c : Dev nD) :
    BodyObligation (dat9 (F := F) V c) (defs₀ (F := F)) Variants.none () Set.univ := fun t => by
  rw [bigSep_W9, bigSep_W9]
  exact sound_body9 V c t

end Cert.KernelIdeal.Hand
-- ==== Proof.Agg10.lean ====
import proofs.«169470_j5557687681111_1_alg».proof.Proof.Gen.KernelIdeal.Launch
import proofs.«169470_j5557687681111_1_alg».proof.Proof.Gen.KernelIdeal.Skeleton
import proofs.«169470_j5557687681111_1_alg».proof.Proof.Gen.KernelIdeal.Points
import proofs.«169470_j5557687681111_1_alg».proof.Proof.Agg2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 10 of @main: the aggregation `out = relu(A · Hc + bias)`, blocked over (i, k) on an 8 × 8 grid

The same kernel as region 2's on this layer's operands: an f32 accumulator kept in a scratch buffer from grid point to
grid point, zeroed at k = 0, added into at every k, read out into the output block at k = 7. The whole-buffer access
lemmas are region 2's. -/

/-! ## The body's two conditions -/

/-- The condition of the body's first `scf.if` (zero the accumulator), from the grid coordinates. -/
abbrev isFirstK10 (i : grid10.Coords) : Prop :=
  (Scalar.cmpi .ne (Scalar.extui (Scalar.cmpi .eq (BitVec.ofNat 32 (i 1).val) 0#32)) 0#32) = 1#1
/-- The condition of its second `scf.if` (store the output block). -/
abbrev isLastK10 (i : grid10.Coords) : Prop := k10_cond2 i = 1#1

/-- The first holds at the points with k = 0, -/
theorem isFirstK10_iff : ∀ t : Fin cfg10.N, isFirstK10 (grid10.coords t) ↔ t.val % 8 = 0 :=
  (by decide +kernel : ∀ t : Fin grid10.N, isFirstK10 (grid10.coords t) ↔ t.val % 8 = 0)
/-- the second at the points with k = 7. -/
theorem isLastK10_iff : ∀ t : Fin cfg10.N, isLastK10 (grid10.coords t) ↔ t.val % 8 = 7 :=
  (by decide +kernel : ∀ t : Fin grid10.N, isLastK10 (grid10.coords t) ↔ t.val % 8 = 7)

/-! ## The body's triple, one per case

On whole memrefs: `a`, `h`, `b` are what the three input buffers read, `s` what the accumulator reads on entry. -/

set_option maxHeartbeats 1000000 in
/-- k = 0: the accumulator, whatever it held, ends at `zeros + a · h`; the output buffer is handed back untouched. -/
theorem cc10_first (c : Dev nD) (E : Set ℕ) (i : grid10.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : isFirstK10 i) (hc1 : ¬isLastK10 i)
    (a : Vec F S1280x1280 .bf16) (h : Vec F S1280x2048 .bf16) (b : Vec F S1x2048 .f32) (o : Vec F S1280x2048 .bf16)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ (∃ s, owns (c : Thread nD τ) arg6 fullShare s)
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k10_pay2 (k10_pay1 (F := F)) a h)) -∗ K ⟨⟩))
      ⊢ wp frame (wpE (defs₀ (F := F)) Variants.none c none) E (cc10_kernel i arg2 harg2 arg3 harg3 arg4 harg4 arg5 harg5 arg6 harg6) K := by
  simp only [cc10_kernel_eq_skeleton]; unfold cc10_kernel_skel
  unfold owns
  iintro ⟨⟨%f2, %hf2, H2⟩, ⟨%f3, %hf3, H3⟩, ⟨%f4, %hf4, H4⟩, ⟨%f5, %hf5, H5⟩, ⟨%s, %f6, -, H6⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  sl_unfold_run_names
  rw [read_writes_whole _ _ offs00, View.readCov_unit_zero _ offs00, readAt_whole_unread harg2 offs00, readAt_whole_unread harg3 offs00]

set_option maxHeartbeats 1000000 in
/-- 0 < k < 7: the accumulator goes from `s` to `s + a · h`; the output buffer is handed back untouched. -/
theorem cc10_mid (c : Dev nD) (E : Set ℕ) (i : grid10.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK10 i) (hc1 : ¬isLastK10 i)
    (a : Vec F S1280x1280 .bf16) (h : Vec F S1280x2048 .bf16) (b : Vec F S1x2048 .f32) (o : Vec F S1280x2048 .bf16) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k10_pay2 s a h)) -∗ K ⟨⟩))
      ⊢ wp frame (wpE (defs₀ (F := F)) Variants.none c none) E (cc10_kernel i arg2 harg2 arg3 harg3 arg4 harg4 arg5 harg5 arg6 harg6) K := by
  simp only [cc10_kernel_eq_skeleton]; unfold cc10_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [read_writes_whole _ _ offs00, readAt_whole_unread harg6 offs00, readAt_whole_unread harg2 offs00, readAt_whole_unread harg3 offs00]

set_option maxHeartbeats 1000000 in
/-- k = 7: the accumulator goes from `s` to `s + a · h`, and the output buffer, whatever it held, ends at
    `max(s + a · h + b, 0)` rounded to bf16. -/
theorem cc10_last (c : Dev nD) (E : Set ℕ) (i : grid10.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK10 i) (hc1 : isLastK10 i)
    (a : Vec F S1280x1280 .bf16) (h : Vec F S1280x2048 .bf16) (b : Vec F S1x2048 .f32) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ (∃ o, owns (c : Thread nD τ) arg5 fullShare o) ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare (k10_pay3 (k10_pay2 s a h) b) ∗ owns (c : Thread nD τ) arg6 fullShare (k10_pay2 s a h)) -∗ K ⟨⟩))
      ⊢ wp frame (wpE (defs₀ (F := F)) Variants.none c none) E (cc10_kernel i arg2 harg2 arg3 harg3 arg4 harg4 arg5 harg5 arg6 harg6) K := by
  simp only [cc10_kernel_eq_skeleton]; unfold cc10_kernel_skel
  unfold owns
  iintro ⟨⟨%f2, %hf2, H2⟩, ⟨%f3, %hf3, H3⟩, ⟨%f4, %hf4, H4⟩, ⟨%o, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [read_writes_whole _ _ offs00, View.readCov_unit_zero _ offs00, readAt_whole_unread harg6 offs00, readAt_whole_unread harg2 offs00,
      readAt_whole_unread harg3 offs00, readAt_whole_unread harg4 offs00]
  iexists _; isplitr
  swap; · iexact H6
  ipureintro
  sl_unfold_run_names
  rw [read_writes_whole _ _ offs00, readAt_whole_unread harg6 offs00, readAt_whole_unread harg2 offs00, readAt_whole_unread harg3 offs00]

section Region

-- the TensorCore's buffer contents when the region is entered: everything below is stated at this parameter
variable (V : (c : Dev nD) → (b : Ref sig .tc) → Buf (Elt F) ((c : Thread nD τ).loc b))

/-! ## The windows' blocks -/

/-- Window `w`'s block at point `t`, read off the window's array as the region finds it. Window 0 is the block (i, k) of
    `A`, window 1 the block (k, 0) of `Hc`, window 2 the bias row, window 3 the block (i, 0) of the output. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The accumulator, point by point -/

/-- What the accumulator holds AFTER the body at point `n`: at a point with k = 0 the product of the point's blocks added
    to zeros, at any other the product added to what the point before left. -/
def accAfter10 (c : Dev nD) : (n : ℕ) → n < cfg10.N → Vec F S1280x2048 .f32
  | 0, hn => k10_pay2 (k10_pay1 (F := F)) (iblk10 V c 0 ⟨0, hn⟩) (iblk10 V c 1 ⟨0, hn⟩)
  | n + 1, hn =>
    if (n + 1) % 8 = 0 then k10_pay2 (k10_pay1 (F := F)) (iblk10 V c 0 ⟨n + 1, hn⟩) (iblk10 V c 1 ⟨n + 1, hn⟩)
    else k10_pay2 (accAfter10 c n (Nat.lt_of_succ_lt hn)) (iblk10 V c 0 ⟨n + 1, hn⟩) (iblk10 V c 1 ⟨n + 1, hn⟩)

/-- At a point with k = 0 the accumulator restarts from zeros. -/
theorem accAfter10_first (c : Dev nD) (t : Fin cfg10.N) (h0 : t.val % 8 = 0) :
    accAfter10 V c t.val t.isLt = k10_pay2 (k10_pay1 (F := F)) (iblk10 V c 0 t) (iblk10 V c 1 t) := by
  obtain ⟨n, hn⟩ := t
  cases n with
  | zero => rfl
  | succ n => exact if_pos h0

/-- At any other point it adds to what the point before left. -/
theorem accAfter10_next (c : Dev nD) (t : Fin cfg10.N) (h0 : ¬t.val % 8 = 0) :
    accAfter10 V c t.val t.isLt
      = k10_pay2 (accAfter10 V c (t.val - 1) (Nat.lt_of_le_of_lt (Nat.sub_le _ _) t.isLt)) (iblk10 V c 0 t) (iblk10 V c 1 t) := by
  obtain ⟨n, hn⟩ := t
  cases n with
  | zero => exact absurd (Nat.zero_mod _) h0
  | succ n => exact if_neg h0

/-- What the scratch holds BEFORE point `t`: what the point before left (before the first point the scratch holds
    anything — the zeros here are a placeholder the invariant does not use). -/
def acc10 (c : Dev nD) (t : Fin (cfg10.N + 1)) : Vec F S1280x2048 .f32 :=
  match t with
  | ⟨0, _⟩ => k10_pay1 (F := F)
  | ⟨n + 1, h⟩ => accAfter10 V c n (Nat.lt_of_succ_lt_succ h)

/-- What the output's staging buffer holds after the body at a point with k = 7: the accumulator, bias added, clamped at
    zero, rounded. (At the other points the body does not touch that buffer and the pipeline does not write it back; the
    proof data's entry there is not consulted.) -/
def out10_3 (c : Dev nD) (t : Fin cfg10.N) : Vec F S1280x2048 .bf16 :=
  k10_pay3 (accAfter10 V c t.val t.isLt) (iblk10 V c 2 t)

/-! ## The row fold: the value the region writes back -/

/-- The accumulator of the row block whose first point is `n0`, after its column blocks 0 … k: a left fold of
    `k10_pay2` from the zeros `k10_pay1` over the blocks at the points `n0`, …, `n0 + k`. -/
def rowAcc10 (c : Dev nD) (n0 : ℕ) : (k : ℕ) → n0 + k < cfg10.N → Vec F S1280x2048 .f32
  | 0, h => k10_pay2 (k10_pay1 (F := F)) (iblk10 V c 0 ⟨n0, h⟩) (iblk10 V c 1 ⟨n0, h⟩)
  | k + 1, h => k10_pay2 (rowAcc10 c n0 k (Nat.lt_of_succ_lt h)) (iblk10 V c 0 ⟨n0 + (k + 1), h⟩) (iblk10 V c 1 ⟨n0 + (k + 1), h⟩)

/-- Within a row block (first point `n0` ≡ 0 mod 8, k < 8) the point-by-point accumulator is the row fold. -/
theorem accAfter10_eq_rowAcc10 (c : Dev nD) (n0 : ℕ) (h0 : n0 % 8 = 0) :
    ∀ (k : ℕ) (_ : k < 8) (h : n0 + k < cfg10.N), accAfter10 V c (n0 + k) h = rowAcc10 V c n0 k h
  | 0, _, h => accAfter10_first V c ⟨n0, h⟩ h0
  | k + 1, hk, h => by
    have hne : ¬(n0 + (k + 1)) % 8 = 0 := by omega
    have e := accAfter10_next V c ⟨n0 + (k + 1), h⟩ hne
    have ih := accAfter10_eq_rowAcc10 c n0 h0 k (by omega) (Nat.lt_of_succ_lt h)
    simp only [Nat.add_succ_sub_one] at e
    rw [e, ih]; rfl

/-- THE VALUE written back for a row block: at a point `t` with k = 7 the output buffer holds `k10_pay3` of the fold of
    `k10_pay2` from `k10_pay1` over the eight points `8 · (t / 8) + k`, k = 0 … 7, and of the bias block. -/
theorem out10_3_last (c : Dev nD) (t : Fin cfg10.N) (h7 : t.val % 8 = 7) :
    out10_3 V c t = k10_pay3 (rowAcc10 V c (8 * (t.val / 8)) 7 (by have := t.isLt; omega)) (iblk10 V c 2 t) := by
  unfold out10_3
  have e : t.val = 8 * (t.val / 8) + 7 := by omega
  have h := accAfter10_eq_rowAcc10 V c (8 * (t.val / 8)) (by omega) 7 (by omega) (by have := t.isLt; omega)
  congr 1
  rw [← h]; congr 1

/-! ## The invariant: the scratch carried from point to point -/

/-- The accumulator scratch as a memref: a whole scoped buffer of the kernel's own, passed beside the windows. -/
abbrev scM10 : Memref sig .tc .vmem S1280x2048 .f32 := Memref.whole cc10_scratch0

/-- Every scoped buffer of the core that is neither a staging buffer of this call nor its scratch, at some contents:
    carried through the region unopened. -/
abbrev others10 (c : Dev nD) : sProp 𝕄 :=
  Pipeline.scopedRestBut (Ix := Unit) (Name := ℕ) (U := Pipeline.UD sig nD τ) (Lvl := ℕ) (Val := Elt F) spec10 c [cc10_scratch0]

/-- The class invariant with the scratch split out and owned as a memref at some contents. -/
theorem PhiA10_eq (c : Dev nD) :
    (Pipeline.ΦA spec10 c : sProp 𝕄)
      = iprop(iprop((∃ d, owns (c : Thread nD τ) scM10 fullShare d) ∗ others10 c) ∗ (∃ r, prngReg c r)) := by
  unfold Pipeline.ΦA; rw [scopedRest10_split]; simp only [scM10, owns_whole]; rfl

/-- The invariant before position `n`: before the first point the class's (the scratch at anything); afterwards the
    same with the scratch at what the point before left in it. -/
def Phi10 (c : Dev nD) : (n : ℕ) → n ≤ cfg10.N → sProp 𝕄
  | 0, _ => Pipeline.ΦA spec10 c
  | n + 1, hn => iprop(iprop(owns (c : Thread nD τ) scM10 fullShare (accAfter10 V c n hn) ∗ others10 c) ∗ (∃ r, prngReg c r))

theorem Phi10_zero (c : Dev nD) (n : ℕ) (h : n ≤ cfg10.N) (hz : n = 0) : Phi10 V c n h = Pipeline.ΦA spec10 c := by
  subst hz; rfl

theorem Phi10_succ (c : Dev nD) (n : ℕ) (hn : n < cfg10.N) :
    Phi10 V c (n + 1) hn = iprop(iprop(owns (c : Thread nD τ) scM10 fullShare (accAfter10 V c n hn) ∗ others10 c) ∗ (∃ r, prngReg c r)) := rfl

theorem Phi10_pos (c : Dev nD) (n : ℕ) (h : n ≤ cfg10.N) (hz : n ≠ 0) :
    Phi10 V c n h = iprop(iprop(owns (c : Thread nD τ) scM10 fullShare (accAfter10 V c (n - 1) (by omega)) ∗ others10 c) ∗ (∃ r, prngReg c r)) := by
  cases n with
  | zero => exact absurd rfl hz
  | succ n => rfl

/-! ## The pipeline's proof data -/

/-- The proof data of the region's pipeline on core `c`: the arrays as the region finds them; after the body each input's
    buffer at its block and the output's at `out10_3`; the invariant `Phi10`; nothing owed; full shares. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 V c t
  Φ t := Phi10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = out10_3 V c t := by dsimp only [dat10]

/-- The invariant at a point's start, restated at the point's position. -/
theorem Phi10_castSucc (c : Dev nD) (t : Fin cfg10.N) :
    (dat10 V c).Φ t.castSucc = Phi10 V c t.val (Nat.le_of_lt t.isLt) := by
  dsimp only [dat10]; simp only [Fin.coe_castSucc]

/-! ## What the body finds in the inputs' buffers

Each input's current staging buffer holds the window's block at every point, whether the pipeline fetched it there or
not: the body leaves the inputs in place, and an input not fetched at a point has the block index of the point before
(the bias row, fetched once). -/

theorem before10_0 (c : Dev nD) (t : Fin cfg10.N) (d) : (dat10 V c).before 0 t d = iblk10 V c 0 t := by
  have hkeep : ∀ t, (cfg10.win 0).cut (cfg10.grid.coords t) ((dat10 V c).after 0 t) = (dat10 V c).blockOf 0 t := fun t => by
    rw [after10_0]; unfold Dat.blockOf iblk10; rw [A_eq10]; try rfl
  rw [(dat10 V c).before_in_eq_fetched 0 rfl (fun _ => rfl) (fun _ _ _ => rfl) hkeep t d]
  unfold Dat.fetched Dat.blockOf iblk10; rw [A_eq10]; try rfl

theorem before10_1 (c : Dev nD) (t : Fin cfg10.N) (d) : (dat10 V c).before 1 t d = iblk10 V c 1 t := by
  have hkeep : ∀ t, (cfg10.win 1).cut (cfg10.grid.coords t) ((dat10 V c).after 1 t) = (dat10 V c).blockOf 1 t := fun t => by
    rw [after10_1]; unfold Dat.blockOf iblk10; rw [A_eq10]; try rfl
  rw [(dat10 V c).before_in_eq_fetched 1 rfl (fun _ => rfl) (fun _ _ _ => rfl) hkeep t d]
  unfold Dat.fetched Dat.blockOf iblk10; rw [A_eq10]; try rfl

theorem before10_2 (c : Dev nD) (t : Fin cfg10.N) (d) : (dat10 V c).before 2 t d = iblk10 V c 2 t := by
  have hkeep : ∀ t, (cfg10.win 2).cut (cfg10.grid.coords t) ((dat10 V c).after 2 t) = (dat10 V c).blockOf 2 t := fun t => by
    rw [after10_2]; unfold Dat.blockOf iblk10; rw [A_eq10]; try rfl
  rw [(dat10 V c).before_in_eq_fetched 2 rfl (fun _ => rfl) (fun _ _ _ => rfl) hkeep t d]
  unfold Dat.fetched Dat.blockOf iblk10; rw [A_eq10]; try rfl

/-! ## Where the output window is idle -/

/-- Away from k = 7 the printed configuration calls the output window idle (the body does not store into it), -/
theorem idle10_3 : ∀ t : Fin cfg10.N, ¬t.val % 8 = 7 → cfg10.idle 3 (cfg10.grid.coords t) = true := by decide +kernel
/-- and the pipeline does not write its block back; -/
theorem noFlush10_3 (t : Fin cfg10.N) (h : ¬t.val % 8 = 7) : (cfg10.win 3).flush t = false :=
  Bool.eq_false_iff.mpr fun hf => h ((flush10_3 t).mp hf)
/-- at k = 7 it is live. -/
theorem live10_3 : ∀ t : Fin cfg10.N, t.val % 8 = 7 → cfg10.idle 3 (cfg10.grid.coords t) = false := by decide +kernel

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

/-- An input window's buffer is left at its block. -/
theorem leaves10_0 (c : Dev nD) (t : Fin cfg10.N) :
    (dat10 V c).leavesExact 0 t = owns (c : Thread nD τ) (st10_0 t) fullShare (iblk10 V c 0 t) := by
  rw [← after10_0]
theorem leaves10_1 (c : Dev nD) (t : Fin cfg10.N) :
    (dat10 V c).leavesExact 1 t = owns (c : Thread nD τ) (st10_1 t) fullShare (iblk10 V c 1 t) := by
  rw [← after10_1]
theorem leaves10_2 (c : Dev nD) (t : Fin cfg10.N) :
    (dat10 V c).leavesExact 2 t = owns (c : Thread nD τ) (st10_2 t) fullShare (iblk10 V c 2 t) := by
  rw [← after10_2]
/-- The output window's, away from k = 7, as the body found it; at k = 7 at `out10_3`. -/
theorem leaves10_3_idle (c : Dev nD) (t : Fin cfg10.N) (h : ¬t.val % 8 = 7) :
    (dat10 V c).leavesExact 3 t = iprop(∃ d, owns (c : Thread nD τ) (st10_3 t) fullShare ((dat10 V c).before 3 t d)) :=
  Dat.leavesExact_idle (dat10 V c) 3 t (idle10_3 t h) (noFlush10_3 t h)
theorem leaves10_3_live (c : Dev nD) (t : Fin cfg10.N) (h : t.val % 8 = 7) :
    (dat10 V c).leavesExact 3 t = owns (c : Thread nD τ) (st10_3 t) fullShare (out10_3 V c t) := by
  unfold Dat.leavesExact; rw [live10_3 t h, after10_3]

set_option maxHeartbeats 4000000 in
/-- The body at any point. The inputs' memrefs hold their blocks (`before10_W`); the position of the point in its row
    (k = 0, 0 < k < 7, k = 7) says which of the three triples applies; the invariant hands the body the scratch at what
    the point before left (at anything before the first point, and at a k = 0 point the triple asks no more) and takes
    it back at this point's contents; the output's buffer is handed back as found away from k = 7 and at `out10_3`
    there; the other scoped buffers, the generator register and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).owesAt () t.succ = (dat10 V c).owesAt () t.castSucc from rfl]
  rw [show (dat10 V c).Φ t.succ = Phi10 V c (t.val + 1) t.isLt from rfl, Phi10_succ]
  rw [leaves10_0, leaves10_1, leaves10_2, Phi10_castSucc]
  have hN : t.val < 64 := lt_of_lt_of_eq t.isLt (show cfg10.N = 64 from N_10)
  by_cases h0 : t.val % 8 = 0
  · have h7 : ¬t.val % 8 = 7 := by omega
    rw [leaves10_3_idle V c t h7, accAfter10_first V c t h0]
    by_cases hz : t.val = 0
    · rw [Phi10_zero V c _ _ hz, PhiA10_eq]
      iintro ⟨⟨⟨HS, HR⟩, Hg⟩, Ho, ⟨%d0, H0⟩, ⟨%d1, H1⟩, ⟨%d2, H2⟩, ⟨%d3, H3⟩⟩
      iapply (cc10_first c Set.univ (grid10.coords t) _ _ _ _ _ _ _ _ _ _ ((isFirstK10_iff t).mpr h0) (fun h => h7 ((isLastK10_iff t).mp h))
        (iblk10 V c 0 t) (iblk10 V c 1 t) (iblk10 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi10_pos V c _ _ hz]
      iintro ⟨⟨⟨HS, HR⟩, Hg⟩, Ho, ⟨%d0, H0⟩, ⟨%d1, H1⟩, ⟨%d2, H2⟩, ⟨%d3, H3⟩⟩
      iapply (cc10_first c Set.univ (grid10.coords t) _ _ _ _ _ _ _ _ _ _ ((isFirstK10_iff t).mpr h0) (fun h => h7 ((isLastK10_iff t).mp h))
        (iblk10 V c 0 t) (iblk10 V c 1 t) (iblk10 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [Phi10_pos V c _ _ hz, accAfter10_next V c t h0]
    by_cases h7 : t.val % 8 = 7
    · rw [leaves10_3_live V c t h7]; unfold out10_3; rw [accAfter10_next V c t h0]
      iintro ⟨⟨⟨HS, HR⟩, Hg⟩, Ho, ⟨%d0, H0⟩, ⟨%d1, H1⟩, ⟨%d2, H2⟩, ⟨%d3, H3⟩⟩
      iapply (cc10_last c Set.univ (grid10.coords t) _ _ _ _ _ _ _ _ _ _ (fun h => h0 ((isFirstK10_iff t).mp h)) ((isLastK10_iff t).mpr h7)
        (iblk10 V c 0 t) (iblk10 V c 1 t) (iblk10 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [leaves10_3_idle V c t h7]
      iintro ⟨⟨⟨HS, HR⟩, Hg⟩, Ho, ⟨%d0, H0⟩, ⟨%d1, H1⟩, ⟨%d2, H2⟩, ⟨%d3, H3⟩⟩
      iapply (cc10_mid c Set.univ (grid10.coords t) _ _ _ _ _ _ _ _ _ _ (fun h => h0 ((isFirstK10_iff t).mp h)) (fun h => h7 ((isLastK10_iff t).mp h))
        (iblk10 V c 0 t) (iblk10 V c 1 t) (iblk10 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## Around the invariant: what the region hands it and takes back -/

/-- The invariant before the first point, from the generator register, anything `T` handed beside it (the prefetched
    tables: this pipeline has none, and the invariant keeps nothing of them) and the scoped buffers no window stages. -/
theorem hin10 (c : Dev nD) (T : sProp 𝕄) :
    iprop((∃ r, prngReg c r) ∗ T
        ∗ Pipeline.scopedRest (Ix := Unit) (Name := ℕ) (U := Pipeline.UD sig nD τ) (Lvl := ℕ) (Val := Elt F) spec10 c)
      ⊢ (dat10 V c).Φ 0 := by
  rw [show (dat10 V c).Φ 0 = Phi10 V c 0 (Nat.zero_le _) from rfl, Phi10_zero V c 0 _ rfl]; unfold Pipeline.ΦA
  iintro ⟨Hg, -, Hr⟩
  isplitl [Hr]; · iexact Hr
  iexact Hg

/-- After any point but the first the invariant gives the class's back: the scratch's named contents are forgotten. -/
theorem Phi10_forget (c : Dev nD) (t : Fin (cfg10.N + 1)) (ht : t.val ≠ 0) : (dat10 V c).Φ t ⊢ Pipeline.ΦA spec10 c := by
  rw [show (dat10 V c).Φ t = Phi10 V c t.val (Nat.le_of_lt_succ t.isLt) from rfl, Phi10_pos V c _ _ ht, PhiA10_eq]
  iintro ⟨⟨HS, HR⟩, Hg⟩
  isplitl [HS HR]
  · isplitl [HS]; · iexists _; iexact HS
    iexact HR
  iexact Hg

/-- The invariant after the last point gives back the generator register, the kernel's own semaphores (it has none) and
    the scoped buffers no window stages. -/
theorem hout10 (c : Dev nD) :
    (dat10 V c).Φ (Fin.last cfg10.N)
      ⊢ iprop((∃ r, prngReg c r)
          ∗ Pipeline.ownSems0 (Ix := Unit) (Name := ℕ) (U := Pipeline.UD sig nD τ) (Lvl := ℕ) (Val := Elt F) (τ := τ) (fun k : PEmpty => k.elim) c
          ∗ Pipeline.scopedRest (Ix := Unit) (Name := ℕ) (U := Pipeline.UD sig nD τ) (Lvl := ℕ) (Val := Elt F) spec10 c) := by
  rw [Pipeline.ownSems0_none]
  refine (Phi10_forget V c _ (by rw [Fin.val_last]; have : cfg10.N = 64 := N_10; omega)).trans ?_
  unfold Pipeline.ΦA
  iintro ⟨Hr, Hg⟩
  isplitl [Hg]; · iexact Hg
  isplitr; · iempintro
  iexact Hr

end Region

end Cert.KernelIdeal.Hand

end
-- ==== Proof.Lin11.lean ====
import proofs.«169470_j5557687681111_1_alg».proof.Proof.Gen.KernelIdeal.Launch
import proofs.«169470_j5557687681111_1_alg».proof.Proof.Gen.KernelIdeal.Skeleton
import proofs.«169470_j5557687681111_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The output linear layer with bias (pallas_call 11): activations [81920,256] times weights [256,3], plus bias [1,3], by row blocks

The grid has forty points; point `t` takes rows `2048·t … 2048·t + 2047` of the bf16 activations, multiplies them by
the whole f32 weight matrix rounded to bf16, accumulating in f32, adds the bias row to every row, and writes the same
rows of the f32 result. The activations' block moves with the point and is fetched at each; the weights and the bias
are whole arrays, fetched once; the result's block is written back at each point. -/

/-- What window `w` of the layer holds for grid point `t`, read out of the arrays as the layer finds them (`V`):
    for the activations and the result the `t`-th block of 2048 rows, for the weights and the bias the whole array. -/
def iblk11 (c : Dev nD) (w : Fin cfg11.W) (t : Fin cfg11.N) :
    ((cfg11.win w).xblock (cfg11.grid.coords t)).Idx → Elt F (cfg11.win w).elt :=
  ((cfg11.win w).blk t).view.read (Elt F) (V c (Pipeline.arrRef spec11 w))

/-! ## The input buffers when the body runs -/

/-- The activations' staging buffer holds the point's block of rows whenever the body runs, for any proof data over the
    entry arrays `V` whose body leaves that block where it found it. The array's block at a point is `iblk11`
    (`hblock`); the window is an input, never idle and not cut, so a fetch fills the whole buffer with the block, and
    where no fetch happens the block index has not moved since the last one (`Dat.before_in_eq_fetched`). -/
theorem before11_0_of {c : Dev nD} (dat : Dat τ (Elt F) Unit ℕ (Pipeline.UD sig nD τ) ℕ cfg11 c)
    (hA : dat.A 0 = V c (Pipeline.arrRef spec11 0)) (hafter : ∀ t, dat.after 0 t = iblk11 V c 0 t)
    (t : Fin cfg11.N) (d) : dat.before 0 t d = iblk11 V c 0 t := by
  have hblock : ∀ t, dat.blockOf 0 t = iblk11 V c 0 t := fun t => by unfold Dat.blockOf iblk11; rw [hA]
  rw [dat.before_in_eq_fetched 0 rfl (fun _ => rfl) (fun _ _ _ => rfl) (fun t => by rw [hafter, hblock]) t d]
  exact hblock t

/-- The weights' staging buffer holds the whole weight matrix whenever the body runs: it is fetched at the first point
    only, its block index is the same at every point, and the body leaves it as found. -/
theorem before11_1_of {c : Dev nD} (dat : Dat τ (Elt F) Unit ℕ (Pipeline.UD sig nD τ) ℕ cfg11 c)
    (hA : dat.A 1 = V c (Pipeline.arrRef spec11 1)) (hafter : ∀ t, dat.after 1 t = iblk11 V c 1 t)
    (t : Fin cfg11.N) (d) : dat.before 1 t d = iblk11 V c 1 t := by
  have hblock : ∀ t, dat.blockOf 1 t = iblk11 V c 1 t := fun t => by unfold Dat.blockOf iblk11; rw [hA]
  rw [dat.before_in_eq_fetched 1 rfl (fun _ => rfl) (fun _ _ _ => rfl) (fun t => by rw [hafter, hblock]) t d]
  exact hblock t

/-- The bias row's staging buffer likewise holds the whole bias whenever the body runs. -/
theorem before11_2_of {c : Dev nD} (dat : Dat τ (Elt F) Unit ℕ (Pipeline.UD sig nD τ) ℕ cfg11 c)
    (hA : dat.A 2 = V c (Pipeline.arrRef spec11 2)) (hafter : ∀ t, dat.after 2 t = iblk11 V c 2 t)
    (t : Fin cfg11.N) (d) : dat.before 2 t d = iblk11 V c 2 t := by
  have hblock : ∀ t, dat.blockOf 2 t = iblk11 V c 2 t := fun t => by unfold Dat.blockOf iblk11; rw [hA]
  rw [dat.before_in_eq_fetched 2 rfl (fun _ => rfl) (fun _ _ _ => rfl) (fun t => by rw [hafter, hblock]) t d]
  exact hblock t

/-! ## What the body does to its buffers -/

/-- The body touches each staging buffer as a whole: the 2048x256 block of activations, -/
abbrev rowsAll11 : Rect S2048x256 := Rect.unit (s := S2048x256) ![0, 0] S2048x256.size inb_S2048x256_S2048x256_0_0
/-- the 256x3 weights, -/
abbrev weightsAll11 : Rect S256x3 := Rect.unit (s := S256x3) ![0, 0] S256x3.size inb_S256x3_S256x3_0_0
/-- the 1x3 bias row, -/
abbrev biasAll11 : Rect S1x3 := Rect.unit (s := S1x3) ![0, 0] S1x3.size inb_S1x3_S1x3_0_0
/-- and the 2048x3 result block. -/
abbrev resultAll11 : Rect S2048x3 := Rect.unit (s := S2048x3) ![0, 0] S2048x3.size inb_S2048x3_S2048x3_0_0

/-- The result block the body leaves from a block `x` of activations, the weights `wt` and the bias `b`: its one store
    writes `k11_pay1` of what it loaded (the product in f32 plus the bias) over the whole buffer. -/
def out11_3 (x : Vec F S2048x256 .bf16) (wt : Vec F S256x3 .f32) (b : Vec F S1x3 .f32) : Vec F S2048x3 .f32 :=
  View.canon [⟨resultAll11, k11_pay1 (View.ld x rowsAll11) (View.ld wt weightsAll11) (View.ld b biasAll11)⟩]

/-- That one store is of the whole 2048x3 shape, so it covers the buffer. -/
theorem store_covers11 (p : Vec F S2048x3 .f32) (y : S2048x3.Idx) :
    ∃ pc ∈ ([⟨resultAll11, p⟩] : List (View.Piece (Elt F) S2048x3 .f32)), y ∈ pc.1.set :=
  View.cover_of_wholeMem _ (View.Piece.wholeMem_here rfl) y

set_option maxHeartbeats 1000000 in
/-- The kernel body on whole staging buffers: given the activations' buffer reading `x`, the weights' reading `wt`, the
    bias's reading `b` and the result's holding anything, it returns with the three inputs as they were and the
    result's buffer reading `out11_3 x wt b`. The printed function is its skeleton — three loads, a load of the result
    buffer whose value goes unused, one store —, which is run operation by operation; what the store's writes leave
    reads as their canonical contents because the store covers the buffer. -/
theorem sound_kernel11 (c : Dev nD) (E : Set ℕ) (i : grid11.Coords)
    (xbuf : Memref sig .tc .vmem S2048x256 .bf16) (hx : xbuf.IsWhole)
    (wbuf : Memref sig .tc .vmem S256x3 .f32) (hw : wbuf.IsWhole)
    (bbuf : Memref sig .tc .vmem S1x3 .f32) (hb : bbuf.IsWhole)
    (obuf : Memref sig .tc .vmem S2048x3 .f32) (ho : obuf.IsWhole)
    (x : Vec F S2048x256 .bf16) (wt : Vec F S256x3 .f32) (b : Vec F S1x3 .f32) (K : PUnit → sProp 𝕄) :
    iprop(owns (c : Thread nD τ) xbuf fullShare x ∗ owns (c : Thread nD τ) wbuf fullShare wt
        ∗ owns (c : Thread nD τ) bbuf fullShare b ∗ (∃ d, owns (c : Thread nD τ) obuf fullShare d)
        ∗ (iprop(owns (c : Thread nD τ) xbuf fullShare x ∗ owns (c : Thread nD τ) wbuf fullShare wt
            ∗ owns (c : Thread nD τ) bbuf fullShare b ∗ owns (c : Thread nD τ) obuf fullShare (out11_3 x wt b)) -∗ K ⟨⟩))
      ⊢ wp frame (wpE (defs₀ (F := F)) Variants.none c none) E (cc11_kernel i xbuf hx wbuf hw bbuf hb obuf ho) K := by
  simp only [cc11_kernel_eq_skeleton]; unfold cc11_kernel_skel
  unfold owns
  iintro ⟨⟨%fx, %hfx, Hx⟩, ⟨%fw, %hfw, Hw⟩, ⟨%fb, %hfb, Hb⟩, ⟨%d, %fo, -, Ho⟩, Hk⟩
  subst hfx; subst hfw; subst hfb
  sl_exec
  sl_step
  iapply Hk
  isplitl [Hx]
  · iexists fx; isplitr
    · ipureintro; rfl
    · iexact Hx
  isplitl [Hw]
  · iexists fw; isplitr
    · ipureintro; rfl
    · iexact Hw
  isplitl [Hb]
  · iexists fb; isplitr
    · ipureintro; rfl
    · iexact Hb
  iexists _; isplitr
  pick_goal 2
  · iexact Ho
  · ipureintro; exact View.read_writes_eq_canon _ _ _ (store_covers11 _)

/-! ## The pipeline's proof data -/

/-- The proof data of the layer's pipeline on core `c`: the arrays as found (`V`); after the body at point `t` the
    three inputs' buffers at their blocks and the result's at `out11_3` of those; the invariant of a pipeline whose
    body touches only its windows' buffers (`Pipeline.ΦA`); full shares; nothing owed. -/
def dat11 (c : Dev nD) : Dat τ (Elt F) Unit ℕ (Pipeline.UD sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

/-- Its arrays are the entry contents. -/
theorem A_eq11 (c : Dev nD) (w : Fin cfg11.W) : (dat11 V c).A w = V c (Pipeline.arrRef spec11 w) := by
  dsimp only [dat11]

/-- What the body leaves in each window's buffer, one window at a time. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) :
    (dat11 V c).after 3 t = out11_3 (iblk11 V c 0 t) (iblk11 V c 1 t) (iblk11 V c 2 t) := by dsimp only [dat11]

/-- So the body finds the block of activations, the weights and the bias in its input buffers at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- The invariant and the tallies owed are the same before and after every point: the body reads neither. -/
theorem Φ_step11 (c : Dev nD) (t : Fin cfg11.N) : (dat11 V c).Φ t.succ = (dat11 V c).Φ t.castSucc := rfl
theorem owes_step11 (c : Dev nD) (t : Fin cfg11.N) :
    (dat11 V c).owesAt () t.succ = (dat11 V c).owesAt () t.castSucc := rfl

/-! ## The body obligation -/

/-- The body at grid point `t`, window by window: handed the invariant, what is owed, and its four current staging
    buffers holding what `Dat.before` says, it returns them holding what `dat11` says it leaves. The inputs hold their
    blocks (`before11_0`, `before11_1`, `before11_2`), so the kernel's triple applies; the invariant and the tallies
    pass by. -/
theorem sound_body11 (c : Dev nD) (t : Fin cfg11.N) :
    iprop((dat11 V c).Φ t.castSucc ∗ (dat11 V c).owesAt () t.castSucc
        ∗ (∃ d, owns (c : Thread nD τ) (st11_0 t) fullShare ((dat11 V c).before 0 t d))
        ∗ (∃ d, owns (c : Thread nD τ) (st11_1 t) fullShare ((dat11 V c).before 1 t d))
        ∗ (∃ d, owns (c : Thread nD τ) (st11_2 t) fullShare ((dat11 V c).before 2 t d))
        ∗ (∃ d, owns (c : Thread nD τ) (st11_3 t) fullShare ((dat11 V c).before 3 t d)))
      ⊢ wp frame (wpE (defs₀ (F := F)) Variants.none c none) Set.univ (bodyAt11 t) (fun _ =>
          iprop((dat11 V c).Φ t.succ ∗ (dat11 V c).owesAt () t.succ
            ∗ owns (c : Thread nD τ) (st11_0 t) fullShare ((dat11 V c).after 0 t)
            ∗ owns (c : Thread nD τ) (st11_1 t) fullShare ((dat11 V c).after 1 t)
            ∗ owns (c : Thread nD τ) (st11_2 t) fullShare ((dat11 V c).after 2 t)
            ∗ owns (c : Thread nD τ) (st11_3 t) fullShare ((dat11 V c).after 3 t))) := by
  simp only [before11_0, before11_1, before11_2]
  rw [Φ_step11, owes_step11, after11_0, after11_1, after11_2, after11_3]
  iintro ⟨HΦ, Howed, ⟨%d0, Hx⟩, ⟨%d1, Hw⟩, ⟨%d2, Hb⟩, ⟨%d3, Ho⟩⟩
  iapply (sound_kernel11 c Set.univ (grid11.coords t) _ _ _ _ _ _ _ _
    (iblk11 V c 0 t) (iblk11 V c 1 t) (iblk11 V c 2 t) _)
  isplitl [Hx]; · iexact Hx
  isplitl [Hw]; · iexact Hw
  isplitl [Hb]; · iexact Hb
  isplitl [Ho]; · iexists _; iexact Ho
  iintro ⟨Hx, Hw, Hb, Ho⟩
  isplitl [HΦ]; · iexact HΦ
  isplitl [Howed]; · iexact Howed
  isplitl [Hx]; · iexact Hx
  isplitl [Hw]; · iexact Hw
  isplitl [Hb]; · iexact Hb
  iexact Ho

/-- The library's body obligation for the layer, at every grid point. -/
theorem body_obligation11 (c : Dev nD) :
    BodyObligation (dat11 (F := F) V c) (defs₀ (F := F)) Variants.none () Set.univ := fun t => by
  rw [bigSep_W11, bigSep_W11]
  exact sound_body11 V c t

end Cert.KernelIdeal.Hand
-- ==== Proof.Bounds.lean ====
import proofs.«169470_j5557687681111_1_alg».proof.Proof.Gen.KernelIdeal.Regions
import proofs.«169470_j5557687681111_1_alg».proof.Proof.Lin0
import proofs.«169470_j5557687681111_1_alg».proof.Proof.Lin1
import proofs.«169470_j5557687681111_1_alg».proof.Proof.Agg2
import proofs.«169470_j5557687681111_1_alg».proof.Proof.Lin3
import proofs.«169470_j5557687681111_1_alg».proof.Proof.Agg4
import proofs.«169470_j5557687681111_1_alg».proof.Proof.Lin5
import proofs.«169470_j5557687681111_1_alg».proof.Proof.Agg6
import proofs.«169470_j5557687681111_1_alg».proof.Proof.Lin7
import proofs.«169470_j5557687681111_1_alg».proof.Proof.Agg8
import proofs.«169470_j5557687681111_1_alg».proof.Proof.Lin9
import proofs.«169470_j5557687681111_1_alg».proof.Proof.Agg10
import proofs.«169470_j5557687681111_1_alg».proof.Proof.Lin11

/-! The buffers' contents at every boundary between two items of the host program: the launch memory pushed through each
    host stretch (the operations' pure results) and, at each kernel region, the region's output array replaced by what the
    region's write-backs leave (the region's proof data read at the valuation the region is entered from). -/

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]
variable (m : (ℓ : Loc nD τ sig) → Buf (Elt F) ℓ)

/-- Before the first region: the five leading host stretches have run. -/
def B5 (c : Dev nD) : Valuation τ sig (Elt F) := V5 m c
/-- After region 0: `main_v57` holds what the region's write-backs leave, every other buffer is as it was. -/
def B6 (c : Dev nD) : Valuation τ sig (Elt F) :=
  Function.update (B5 m c) main_v57 ((dat0 (fun c b => B5 m c b) c).arrAt 3 cfg0.N)
/-- After the host stretch that follows it. -/
def B7 (c : Dev nD) : Valuation τ sig (Elt F) := StableHlo.after hostOps1 (B6 m c)
/-- After region 1: `main_v62` holds what the region's write-backs leave, every other buffer is as it was. -/
def B8 (c : Dev nD) : Valuation τ sig (Elt F) :=
  Function.update (B7 m c) main_v62 ((dat1 (fun c b => B7 m c b) c).arrAt 2 cfg1.N)
/-- After the host stretch that follows it. -/
def B9 (c : Dev nD) : Valuation τ sig (Elt F) := StableHlo.after hostOps2 (B8 m c)
/-- After region 2: `main_v72` holds what the region's write-backs leave, every other buffer is as it was. -/
def B10 (c : Dev nD) : Valuation τ sig (Elt F) :=
  Function.update (B9 m c) main_v72 ((dat2 (fun c b => B9 m c b) c).arrAt 3 cfg2.N)
/-- After the host stretch that follows it. -/
def B11 (c : Dev nD) : Valuation τ sig (Elt F) := StableHlo.after hostOps3 (B10 m c)
/-- After region 3: `main_v78` holds what the region's write-backs leave, every other buffer is as it was. -/
def B12 (c : Dev nD) : Valuation τ sig (Elt F) :=
  Function.update (B11 m c) main_v78 ((dat3 (fun c b => B11 m c b) c).arrAt 2 cfg3.N)
/-- After the host stretch that follows it. -/
def B13 (c : Dev nD) : Valuation τ sig (Elt F) := StableHlo.after hostOps4 (B12 m c)
/-- After region 4: `main_v88` holds what the region's write-backs leave, every other buffer is as it was. -/
def B14 (c : Dev nD) : Valuation τ sig (Elt F) :=
  Function.update (B13 m c) main_v88 ((dat4 (fun c b => B13 m c b) c).arrAt 3 cfg4.N)
/-- After the host stretch that follows it. -/
def B15 (c : Dev nD) : Valuation τ sig (Elt F) := StableHlo.after hostOps5 (B14 m c)
/-- After region 5: `main_v94` holds what the region's write-backs leave, every other buffer is as it was. -/
def B16 (c : Dev nD) : Valuation τ sig (Elt F) :=
  Function.update (B15 m c) main_v94 ((dat5 (fun c b => B15 m c b) c).arrAt 2 cfg5.N)
/-- After the host stretch that follows it. -/
def B17 (c : Dev nD) : Valuation τ sig (Elt F) := StableHlo.after hostOps6 (B16 m c)
/-- After region 6: `main_v104` holds what the region's write-backs leave, every other buffer is as it was. -/
def B18 (c : Dev nD) : Valuation τ sig (Elt F) :=
  Function.update (B17 m c) main_v104 ((dat6 (fun c b => B17 m c b) c).arrAt 3 cfg6.N)
/-- After the host stretch that follows it. -/
def B19 (c : Dev nD) : Valuation τ sig (Elt F) := StableHlo.after hostOps7 (B18 m c)
/-- After region 7: `main_v110` holds what the region's write-backs leave, every other buffer is as it was. -/
def B20 (c : Dev nD) : Valuation τ sig (Elt F) :=
  Function.update (B19 m c) main_v110 ((dat7 (fun c b => B19 m c b) c).arrAt 2 cfg7.N)
/-- After the host stretch that follows it. -/
def B21 (c : Dev nD) : Valuation τ sig (Elt F) := StableHlo.after hostOps8 (B20 m c)
/-- After region 8: `main_v120` holds what the region's write-backs leave, every other buffer is as it was. -/
def B22 (c : Dev nD) : Valuation τ sig (Elt F) :=
  Function.update (B21 m c) main_v120 ((dat8 (fun c b => B21 m c b) c).arrAt 3 cfg8.N)
/-- After the host stretch that follows it. -/
def B23 (c : Dev nD) : Valuation τ sig (Elt F) := StableHlo.after hostOps9 (B22 m c)
/-- After region 9: `main_v126` holds what the region's write-backs leave, every other buffer is as it was. -/
def B24 (c : Dev nD) : Valuation τ sig (Elt F) :=
  Function.update (B23 m c) main_v126 ((dat9 (fun c b => B23 m c b) c).arrAt 2 cfg9.N)
/-- After the host stretch that follows it. -/
def B25 (c : Dev nD) : Valuation τ sig (Elt F) := StableHlo.after hostOps10 (B24 m c)
/-- After region 10: `main_v136` holds what the region's write-backs leave, every other buffer is as it was. -/
def B26 (c : Dev nD) : Valuation τ sig (Elt F) :=
  Function.update (B25 m c) main_v136 ((dat10 (fun c b => B25 m c b) c).arrAt 3 cfg10.N)
/-- After the host stretch that follows it. -/
def B27 (c : Dev nD) : Valuation τ sig (Elt F) := StableHlo.after hostOps11 (B26 m c)
/-- After region 11: `main_v141` holds what the region's write-backs leave, every other buffer is as it was. -/
def B28 (c : Dev nD) : Valuation τ sig (Elt F) :=
  Function.update (B27 m c) main_v141 ((dat11 (fun c b => B27 m c b) c).arrAt 3 cfg11.N)
/-- After the host stretch that follows it. -/
def B29 (c : Dev nD) : Valuation τ sig (Elt F) := StableHlo.after hostOps12 (B28 m c)

/-- What each region leaves, as the generated conditional run wants it named: by item number, every reference read off the
    boundary valuation after that item. -/
def outs : Outs (F := F) := fun J r c =>
  match J with
  | 6 => B6 m c r
  | 8 => B8 m c r
  | 10 => B10 m c r
  | 12 => B12 m c r
  | 14 => B14 m c r
  | 16 => B16 m c r
  | 18 => B18 m c r
  | 20 => B20 m c r
  | 22 => B22 m c r
  | 24 => B24 m c r
  | 26 => B26 m c r
  | 28 => B28 m c r
  | _ => m (c, r)

/-- Every proof datum at the valuation its region is entered from. -/
def pdats : (p : Fin 12) → (c : Dev nD) → Dat τ (Elt F) Unit ℕ (Pipeline.UD sig nD τ) ℕ (cfgs p) c
  | ⟨0, _⟩ => fun c => dat0 (fun c b => B5 m c b) c
  | ⟨1, _⟩ => fun c => dat1 (fun c b => B7 m c b) c
  | ⟨2, _⟩ => fun c => dat2 (fun c b => B9 m c b) c
  | ⟨3, _⟩ => fun c => dat3 (fun c b => B11 m c b) c
  | ⟨4, _⟩ => fun c => dat4 (fun c b => B13 m c b) c
  | ⟨5, _⟩ => fun c => dat5 (fun c b => B15 m c b) c
  | ⟨6, _⟩ => fun c => dat6 (fun c b => B17 m c b) c
  | ⟨7, _⟩ => fun c => dat7 (fun c b => B19 m c b) c
  | ⟨8, _⟩ => fun c => dat8 (fun c b => B21 m c b) c
  | ⟨9, _⟩ => fun c => dat9 (fun c b => B23 m c b) c
  | ⟨10, _⟩ => fun c => dat10 (fun c b => B25 m c b) c
  | ⟨11, _⟩ => fun c => dat11 (fun c b => B27 m c b) c

/-! The generated boundary valuations at these outputs ARE the ones above. -/
theorem V5_eq (c : Dev nD) : V5 m c = B5 m c := rfl
theorem V6_eq (c : Dev nD) : V6 m (outs m) c = B6 m c := by
  show Function.update (V5 m c) main_v57 (B6 m c main_v57) = _
  rw [V5_eq]; unfold B6; rw [Function.update_self]
theorem V7_eq (c : Dev nD) : V7 m (outs m) c = B7 m c := by
  show StableHlo.after hostOps1 (V6 m (outs m) c) = _
  rw [V6_eq]; rfl
theorem V8_eq (c : Dev nD) : V8 m (outs m) c = B8 m c := by
  show Function.update (V7 m (outs m) c) main_v62 (B8 m c main_v62) = _
  rw [V7_eq]; unfold B8; rw [Function.update_self]
theorem V9_eq (c : Dev nD) : V9 m (outs m) c = B9 m c := by
  show StableHlo.after hostOps2 (V8 m (outs m) c) = _
  rw [V8_eq]; rfl
theorem V10_eq (c : Dev nD) : V10 m (outs m) c = B10 m c := by
  show Function.update (V9 m (outs m) c) main_v72 (B10 m c main_v72) = _
  rw [V9_eq]; unfold B10; rw [Function.update_self]
theorem V11_eq (c : Dev nD) : V11 m (outs m) c = B11 m c := by
  show StableHlo.after hostOps3 (V10 m (outs m) c) = _
  rw [V10_eq]; rfl
theorem V12_eq (c : Dev nD) : V12 m (outs m) c = B12 m c := by
  show Function.update (V11 m (outs m) c) main_v78 (B12 m c main_v78) = _
  rw [V11_eq]; unfold B12; rw [Function.update_self]
theorem V13_eq (c : Dev nD) : V13 m (outs m) c = B13 m c := by
  show StableHlo.after hostOps4 (V12 m (outs m) c) = _
  rw [V12_eq]; rfl
theorem V14_eq (c : Dev nD) : V14 m (outs m) c = B14 m c := by
  show Function.update (V13 m (outs m) c) main_v88 (B14 m c main_v88) = _
  rw [V13_eq]; unfold B14; rw [Function.update_self]
theorem V15_eq (c : Dev nD) : V15 m (outs m) c = B15 m c := by
  show StableHlo.after hostOps5 (V14 m (outs m) c) = _
  rw [V14_eq]; rfl
theorem V16_eq (c : Dev nD) : V16 m (outs m) c = B16 m c := by
  show Function.update (V15 m (outs m) c) main_v94 (B16 m c main_v94) = _
  rw [V15_eq]; unfold B16; rw [Function.update_self]
theorem V17_eq (c : Dev nD) : V17 m (outs m) c = B17 m c := by
  show StableHlo.after hostOps6 (V16 m (outs m) c) = _
  rw [V16_eq]; rfl
theorem V18_eq (c : Dev nD) : V18 m (outs m) c = B18 m c := by
  show Function.update (V17 m (outs m) c) main_v104 (B18 m c main_v104) = _
  rw [V17_eq]; unfold B18; rw [Function.update_self]
theorem V19_eq (c : Dev nD) : V19 m (outs m) c = B19 m c := by
  show StableHlo.after hostOps7 (V18 m (outs m) c) = _
  rw [V18_eq]; rfl
theorem V20_eq (c : Dev nD) : V20 m (outs m) c = B20 m c := by
  show Function.update (V19 m (outs m) c) main_v110 (B20 m c main_v110) = _
  rw [V19_eq]; unfold B20; rw [Function.update_self]
theorem V21_eq (c : Dev nD) : V21 m (outs m) c = B21 m c := by
  show StableHlo.after hostOps8 (V20 m (outs m) c) = _
  rw [V20_eq]; rfl
theorem V22_eq (c : Dev nD) : V22 m (outs m) c = B22 m c := by
  show Function.update (V21 m (outs m) c) main_v120 (B22 m c main_v120) = _
  rw [V21_eq]; unfold B22; rw [Function.update_self]
theorem V23_eq (c : Dev nD) : V23 m (outs m) c = B23 m c := by
  show StableHlo.after hostOps9 (V22 m (outs m) c) = _
  rw [V22_eq]; rfl
theorem V24_eq (c : Dev nD) : V24 m (outs m) c = B24 m c := by
  show Function.update (V23 m (outs m) c) main_v126 (B24 m c main_v126) = _
  rw [V23_eq]; unfold B24; rw [Function.update_self]
theorem V25_eq (c : Dev nD) : V25 m (outs m) c = B25 m c := by
  show StableHlo.after hostOps10 (V24 m (outs m) c) = _
  rw [V24_eq]; rfl
theorem V26_eq (c : Dev nD) : V26 m (outs m) c = B26 m c := by
  show Function.update (V25 m (outs m) c) main_v136 (B26 m c main_v136) = _
  rw [V25_eq]; unfold B26; rw [Function.update_self]
theorem V27_eq (c : Dev nD) : V27 m (outs m) c = B27 m c := by
  show StableHlo.after hostOps11 (V26 m (outs m) c) = _
  rw [V26_eq]; rfl
theorem V28_eq (c : Dev nD) : V28 m (outs m) c = B28 m c := by
  show Function.update (V27 m (outs m) c) main_v141 (B28 m c main_v141) = _
  rw [V27_eq]; unfold B28; rw [Function.update_self]
theorem V29_eq (c : Dev nD) : V29 m (outs m) c = B29 m c := by
  show StableHlo.after hostOps12 (V28 m (outs m) c) = _
  rw [V28_eq]; rfl

/-! From here on the boundary valuations are opaque: each is a long composition of host operations, and nothing about a
    region needs to look inside the valuation it is entered from. Their defining equations stay available by name. -/
attribute [irreducible] B5 B6 B7 B8 B9 B10 B11 B12 B13 B14 B15 B16 B17 B18 B19 B20 B21 B22 B23 B24 B25 B26 B27 B28 B29

end Cert.KernelIdeal.Hand

end
-- ==== Proof.RegCommon.lean ====
import proofs.«169470_j5557687681111_1_alg».proof.Proof.Bounds
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

/-! What every region record of this program shares: no variant, no level, and the state that rides beside the buffers through
    every item — the generator register at some state and the core owing nothing. -/

abbrev 𝒱₀ : Variants := Variants.none
abbrev L : GSem nD τ sig → Finset Unit := fun _ => ∅
abbrev lv : GSem nD τ sig → Unit → ℕ := fun _ _ => 0
abbrev Rest (c : Dev nD) : sProp 𝕄 := iprop((∃ r, prngReg c r) ∗ ∃ W, owes (c : Thread nD τ) (0 : CellTallies nD τ sig Unit) W)

end Cert.KernelIdeal.Hand

end
-- ==== Proof.Reg0.lean ====
import proofs.«169470_j5557687681111_1_alg».proof.Proof.RegCommon
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 0 each of its arrays holds what the valuation after it says: the inputs as entered, the output what the
    write-backs leave. -/
theorem arrs_out0 (c : Dev nD) : ∀ w : Fin cfg0.W,
    (dat0 (fun c b => B5 m c b) c).arrAt w cfg0.N = B6 m c (Pipeline.arrRef spec0 w) := by
  have hin0 : (dat0 (fun c b => B5 m c b) c).arrAt (⟨0, by decide⟩ : Fin cfg0.W) cfg0.N = B6 m c (Pipeline.arrRef spec0 (⟨0, by decide⟩ : Fin cfg0.W)) :=
    ((dat0 (fun c b => B5 m c b) c).arrAt_in ⟨0, by decide⟩ rfl _).trans
      (by unfold B6; rw [Function.update_of_ne (StableHlo.devRef_ne_of_ne (by decide))]; rfl)
  have hin1 : (dat0 (fun c b => B5 m c b) c).arrAt (⟨1, by decide⟩ : Fin cfg0.W) cfg0.N = B6 m c (Pipeline.arrRef spec0 (⟨1, by decide⟩ : Fin cfg0.W)) :=
    ((dat0 (fun c b => B5 m c b) c).arrAt_in ⟨1, by decide⟩ rfl _).trans
      (by unfold B6; rw [Function.update_of_ne (StableHlo.devRef_ne_of_ne (by decide))]; rfl)
  have hin2 : (dat0 (fun c b => B5 m c b) c).arrAt (⟨2, by decide⟩ : Fin cfg0.W) cfg0.N = B6 m c (Pipeline.arrRef spec0 (⟨2, by decide⟩ : Fin cfg0.W)) :=
    ((dat0 (fun c b => B5 m c b) c).arrAt_in ⟨2, by decide⟩ rfl _).trans
      (by unfold B6; rw [Function.update_of_ne (StableHlo.devRef_ne_of_ne (by decide))]; rfl)
  have hres : (dat0 (fun c b => B5 m c b) c).arrAt (⟨3, by decide⟩ : Fin cfg0.W) cfg0.N = B6 m c (Pipeline.arrRef spec0 (⟨3, by decide⟩ : Fin cfg0.W)) := by
    unfold B6; exact (Function.update_self (Proc.devRef .tc main_v57) _ (B5 m c)).symm
  intro w
  match w with
  | ⟨0, _⟩ => exact hin0
  | ⟨1, _⟩ => exact hin1
  | ⟨2, _⟩ => exact hin2
  | ⟨3, _⟩ => exact hres

/-- Every other unscoped buffer is as it was. -/
theorem others_kept0 (c : Dev nD) (b : Ref sig .tc) (hb : b ∉ Finset.univ.image (Pipeline.arrRef spec0)) :
    B6 m c b = B5 m c b := by
  unfold B6
  exact Function.update_of_ne (StableHlo.devRef_ne_of_ne fun e => hb (Finset.mem_image.mpr ⟨⟨3, by decide⟩, Finset.mem_univ _, by subst e; rfl⟩)) _ _

set_option backward.isDefEq.respectTransparency.types false in
/-- Region 0 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => B5 m c b) c).loose
  hwaits := Pipeline.hwaits_of_owed_zero _ _ _ _ L lv 0 fun _ _ => rfl
  pre c := iprop(StableHlo.held (c : Thread nD τ) (Pipeline.ucRefs τ sig) (B5 m c) ∗ Rest c)
  post c := iprop(StableHlo.held (c : Thread nD τ) (Pipeline.ucRefs τ sig) (B6 m c) ∗ Rest c)
  X c := iprop(∃ r, prngReg c r)
  Y c := iprop(∃ r, prngReg c r)
  Z c := Pipeline.unscopedRest (Ix := Unit) (Name := ℕ) (U := Pipeline.UD sig nD τ) (Lvl := ℕ) spec0 c (fun b => B5 m c b)
  hentry c := by
    have harr := Pipeline.arrays_of_unscopedBufs (p := 0) (pcfgs (F := F)) adm (pdats m) launch0.win launch0.arr_whole c
      ((pdats m 0 c).share_full fun _ => rfl) (fun b => B5 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := by
    rw [show (pdats m 0 c).Φ 0 = Pipeline.ΦA spec0 c from rfl]; unfold Pipeline.ΦA
    iintro ⟨Hreg, -, Hscoped⟩
    isplitl [Hscoped] <;> iassumption
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hback := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (fun b => B5 m c b) (fun b => B6 m c b) ((pdats m 0 c).arrAt · cfg0.N) (arrs_out0 m c) (others_kept0 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.KernelIdeal.Hand

end
-- ==== Proof.Reg1.lean ====
import proofs.«169470_j5557687681111_1_alg».proof.Proof.RegCommon
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 1 each of its arrays holds what the valuation after it says: the inputs as entered, the output what the
    write-backs leave. -/
theorem arrs_out1 (c : Dev nD) : ∀ w : Fin cfg1.W,
    (dat1 (fun c b => B7 m c b) c).arrAt w cfg1.N = B8 m c (Pipeline.arrRef spec1 w) := by
  have hin0 : (dat1 (fun c b => B7 m c b) c).arrAt (⟨0, by decide⟩ : Fin cfg1.W) cfg1.N = B8 m c (Pipeline.arrRef spec1 (⟨0, by decide⟩ : Fin cfg1.W)) :=
    ((dat1 (fun c b => B7 m c b) c).arrAt_in ⟨0, by decide⟩ rfl _).trans
      (by unfold B8; rw [Function.update_of_ne (StableHlo.devRef_ne_of_ne (by decide))]; rfl)
  have hin1 : (dat1 (fun c b => B7 m c b) c).arrAt (⟨1, by decide⟩ : Fin cfg1.W) cfg1.N = B8 m c (Pipeline.arrRef spec1 (⟨1, by decide⟩ : Fin cfg1.W)) :=
    ((dat1 (fun c b => B7 m c b) c).arrAt_in ⟨1, by decide⟩ rfl _).trans
      (by unfold B8; rw [Function.update_of_ne (StableHlo.devRef_ne_of_ne (by decide))]; rfl)
  have hres : (dat1 (fun c b => B7 m c b) c).arrAt (⟨2, by decide⟩ : Fin cfg1.W) cfg1.N = B8 m c (Pipeline.arrRef spec1 (⟨2, by decide⟩ : Fin cfg1.W)) := by
    unfold B8; exact (Function.update_self (Proc.devRef .tc main_v62) _ (B7 m c)).symm
  intro w
  match w with
  | ⟨0, _⟩ => exact hin0
  | ⟨1, _⟩ => exact hin1
  | ⟨2, _⟩ => exact hres

/-- Every other unscoped buffer is as it was. -/
theorem others_kept1 (c : Dev nD) (b : Ref sig .tc) (hb : b ∉ Finset.univ.image (Pipeline.arrRef spec1)) :
    B8 m c b = B7 m c b := by
  unfold B8
  exact Function.update_of_ne (StableHlo.devRef_ne_of_ne fun e => hb (Finset.mem_image.mpr ⟨⟨2, by decide⟩, Finset.mem_univ _, by subst e; rfl⟩)) _ _

set_option backward.isDefEq.respectTransparency.types false in
/-- Region 1 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => B7 m c b) c).loose
  hwaits := Pipeline.hwaits_of_owed_zero _ _ _ _ L lv 1 fun _ _ => rfl
  pre c := iprop(StableHlo.held (c : Thread nD τ) (Pipeline.ucRefs τ sig) (B7 m c) ∗ Rest c)
  post c := iprop(StableHlo.held (c : Thread nD τ) (Pipeline.ucRefs τ sig) (B8 m c) ∗ Rest c)
  X c := iprop(∃ r, prngReg c r)
  Y c := iprop(∃ r, prngReg c r)
  Z c := Pipeline.unscopedRest (Ix := Unit) (Name := ℕ) (U := Pipeline.UD sig nD τ) (Lvl := ℕ) spec1 c (fun b => B7 m c b)
  hentry c := by
    have harr := Pipeline.arrays_of_unscopedBufs (p := 1) (pcfgs (F := F)) adm (pdats m) launch1.win launch1.arr_whole c
      ((pdats m 1 c).share_full fun _ => rfl) (fun b => B7 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := by
    rw [show (pdats m 1 c).Φ 0 = Pipeline.ΦA spec1 c from rfl]; unfold Pipeline.ΦA
    iintro ⟨Hreg, -, Hscoped⟩
    isplitl [Hscoped] <;> iassumption
  hout c := by
    rw [Pipeline.ownSems0_none, show (pdats m 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have hback := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (fun b => B7 m c b) (fun b => B8 m c b) ((pdats m 1 c).arrAt · cfg1.N) (arrs_out1 m c) (others_kept1 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.KernelIdeal.Hand

end
-- ==== Proof.Reg2.lean ====
import proofs.«169470_j5557687681111_1_alg».proof.Proof.RegCommon
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 2 each of its arrays holds what the valuation after it says: the inputs as entered, the output what the
    write-backs leave. -/
theorem arrs_out2 (c : Dev nD) : ∀ w : Fin cfg2.W,
    (dat2 (fun c b => B9 m c b) c).arrAt w cfg2.N = B10 m c (Pipeline.arrRef spec2 w) := by
  have hin0 : (dat2 (fun c b => B9 m c b) c).arrAt (⟨0, by decide⟩ : Fin cfg2.W) cfg2.N = B10 m c (Pipeline.arrRef spec2 (⟨0, by decide⟩ : Fin cfg2.W)) :=
    ((dat2 (fun c b => B9 m c b) c).arrAt_in ⟨0, by decide⟩ rfl _).trans
      (by unfold B10; rw [Function.update_of_ne (StableHlo.devRef_ne_of_ne (by decide))]; rfl)
  have hin1 : (dat2 (fun c b => B9 m c b) c).arrAt (⟨1, by decide⟩ : Fin cfg2.W) cfg2.N = B10 m c (Pipeline.arrRef spec2 (⟨1, by decide⟩ : Fin cfg2.W)) :=
    ((dat2 (fun c b => B9 m c b) c).arrAt_in ⟨1, by decide⟩ rfl _).trans
      (by unfold B10; rw [Function.update_of_ne (StableHlo.devRef_ne_of_ne (by decide))]; rfl)
  have hin2 : (dat2 (fun c b => B9 m c b) c).arrAt (⟨2, by decide⟩ : Fin cfg2.W) cfg2.N = B10 m c (Pipeline.arrRef spec2 (⟨2, by decide⟩ : Fin cfg2.W)) :=
    ((dat2 (fun c b => B9 m c b) c).arrAt_in ⟨2, by decide⟩ rfl _).trans
      (by unfold B10; rw [Function.update_of_ne (StableHlo.devRef_ne_of_ne (by decide))]; rfl)
  have hres : (dat2 (fun c b => B9 m c b) c).arrAt (⟨3, by decide⟩ : Fin cfg2.W) cfg2.N = B10 m c (Pipeline.arrRef spec2 (⟨3, by decide⟩ : Fin cfg2.W)) := by
    unfold B10; exact (Function.update_self (Proc.devRef .tc main_v72) _ (B9 m c)).symm
  intro w
  match w with
  | ⟨0, _⟩ => exact hin0
  | ⟨1, _⟩ => exact hin1
  | ⟨2, _⟩ => exact hin2
  | ⟨3, _⟩ => exact hres

/-- Every other unscoped buffer is as it was. -/
theorem others_kept2 (c : Dev nD) (b : Ref sig .tc) (hb : b ∉ Finset.univ.image (Pipeline.arrRef spec2)) :
    B10 m c b = B9 m c b := by
  unfold B10
  exact Function.update_of_ne (StableHlo.devRef_ne_of_ne fun e => hb (Finset.mem_image.mpr ⟨⟨3, by decide⟩, Finset.mem_univ _, by subst e; rfl⟩)) _ _

set_option backward.isDefEq.respectTransparency.types false in
/-- Region 2 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => B9 m c b) c).loose
  hwaits := Pipeline.hwaits_of_owed_zero _ _ _ _ L lv 2 fun _ _ => rfl
  pre c := iprop(StableHlo.held (c : Thread nD τ) (Pipeline.ucRefs τ sig) (B9 m c) ∗ Rest c)
  post c := iprop(StableHlo.held (c : Thread nD τ) (Pipeline.ucRefs τ sig) (B10 m c) ∗ Rest c)
  X c := iprop(∃ r, prngReg c r)
  Y c := iprop(∃ r, prngReg c r)
  Z c := Pipeline.unscopedRest (Ix := Unit) (Name := ℕ) (U := Pipeline.UD sig nD τ) (Lvl := ℕ) spec2 c (fun b => B9 m c b)
  hentry c := by
    have harr := Pipeline.arrays_of_unscopedBufs (p := 2) (pcfgs (F := F)) adm (pdats m) launch2.win launch2.arr_whole c
      ((pdats m 2 c).share_full fun _ => rfl) (fun b => B9 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := hin2 (fun c b => B9 m c b) c _
  hout c := hout2 (fun c b => B9 m c b) c
  hexit c := by
    have hback := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (fun b => B9 m c b) (fun b => B10 m c b) ((pdats m 2 c).arrAt · cfg2.N) (arrs_out2 m c) (others_kept2 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.KernelIdeal.Hand

end
-- ==== Proof.Reg3.lean ====
import proofs.«169470_j5557687681111_1_alg».proof.Proof.RegCommon
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 3 each of its arrays holds what the valuation after it says: the inputs as entered, the output what the
    write-backs leave. -/
theorem arrs_out3 (c : Dev nD) : ∀ w : Fin cfg3.W,
    (dat3 (fun c b => B11 m c b) c).arrAt w cfg3.N = B12 m c (Pipeline.arrRef spec3 w) := by
  have hin0 : (dat3 (fun c b => B11 m c b) c).arrAt (⟨0, by decide⟩ : Fin cfg3.W) cfg3.N = B12 m c (Pipeline.arrRef spec3 (⟨0, by decide⟩ : Fin cfg3.W)) :=
    ((dat3 (fun c b => B11 m c b) c).arrAt_in ⟨0, by decide⟩ rfl _).trans
      (by unfold B12; rw [Function.update_of_ne (StableHlo.devRef_ne_of_ne (by decide))]; rfl)
  have hin1 : (dat3 (fun c b => B11 m c b) c).arrAt (⟨1, by decide⟩ : Fin cfg3.W) cfg3.N = B12 m c (Pipeline.arrRef spec3 (⟨1, by decide⟩ : Fin cfg3.W)) :=
    ((dat3 (fun c b => B11 m c b) c).arrAt_in ⟨1, by decide⟩ rfl _).trans
      (by unfold B12; rw [Function.update_of_ne (StableHlo.devRef_ne_of_ne (by decide))]; rfl)
  have hres : (dat3 (fun c b => B11 m c b) c).arrAt (⟨2, by decide⟩ : Fin cfg3.W) cfg3.N = B12 m c (Pipeline.arrRef spec3 (⟨2, by decide⟩ : Fin cfg3.W)) := by
    unfold B12; exact (Function.update_self (Proc.devRef .tc main_v78) _ (B11 m c)).symm
  intro w
  match w with
  | ⟨0, _⟩ => exact hin0
  | ⟨1, _⟩ => exact hin1
  | ⟨2, _⟩ => exact hres

/-- Every other unscoped buffer is as it was. -/
theorem others_kept3 (c : Dev nD) (b : Ref sig .tc) (hb : b ∉ Finset.univ.image (Pipeline.arrRef spec3)) :
    B12 m c b = B11 m c b := by
  unfold B12
  exact Function.update_of_ne (StableHlo.devRef_ne_of_ne fun e => hb (Finset.mem_image.mpr ⟨⟨2, by decide⟩, Finset.mem_univ _, by subst e; rfl⟩)) _ _

set_option backward.isDefEq.respectTransparency.types false in
/-- Region 3 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => B11 m c b) c).loose
  hwaits := Pipeline.hwaits_of_owed_zero _ _ _ _ L lv 3 fun _ _ => rfl
  pre c := iprop(StableHlo.held (c : Thread nD τ) (Pipeline.ucRefs τ sig) (B11 m c) ∗ Rest c)
  post c := iprop(StableHlo.held (c : Thread nD τ) (Pipeline.ucRefs τ sig) (B12 m c) ∗ Rest c)
  X c := iprop(∃ r, prngReg c r)
  Y c := iprop(∃ r, prngReg c r)
  Z c := Pipeline.unscopedRest (Ix := Unit) (Name := ℕ) (U := Pipeline.UD sig nD τ) (Lvl := ℕ) spec3 c (fun b => B11 m c b)
  hentry c := by
    have harr := Pipeline.arrays_of_unscopedBufs (p := 3) (pcfgs (F := F)) adm (pdats m) launch3.win launch3.arr_whole c
      ((pdats m 3 c).share_full fun _ => rfl) (fun b => B11 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := by
    rw [show (pdats m 3 c).Φ 0 = Pipeline.ΦA spec3 c from rfl]; unfold Pipeline.ΦA
    iintro ⟨Hreg, -, Hscoped⟩
    isplitl [Hscoped] <;> iassumption
  hout c := by
    rw [Pipeline.ownSems0_none, show (pdats m 3 c).Φ (Fin.last _) = Pipeline.ΦA spec3 c from rfl]; unfold Pipeline.ΦA
    iintro ⟨Hscoped, Hreg⟩
    isplitl [Hreg]; · iexact Hreg
    isplitr; · iempintro
    iexact Hscoped
  hexit c := by
    have hback := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (fun b => B11 m c b) (fun b => B12 m c b) ((pdats m 3 c).arrAt · cfg3.N) (arrs_out3 m c) (others_kept3 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.KernelIdeal.Hand

end
-- ==== Proof.Reg4.lean ====
import proofs.«169470_j5557687681111_1_alg».proof.Proof.RegCommon
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 4 each of its arrays holds what the valuation after it says: the inputs as entered, the output what the
    write-backs leave. -/
theorem arrs_out4 (c : Dev nD) : ∀ w : Fin cfg4.W,
    (dat4 (fun c b => B13 m c b) c).arrAt w cfg4.N = B14 m c (Pipeline.arrRef spec4 w) := by
  have hin0 : (dat4 (fun c b => B13 m c b) c).arrAt (⟨0, by decide⟩ : Fin cfg4.W) cfg4.N = B14 m c (Pipeline.arrRef spec4 (⟨0, by decide⟩ : Fin cfg4.W)) :=
    ((dat4 (fun c b => B13 m c b) c).arrAt_in ⟨0, by decide⟩ rfl _).trans
      (by unfold B14; rw [Function.update_of_ne (StableHlo.devRef_ne_of_ne (by decide))]; rfl)
  have hin1 : (dat4 (fun c b => B13 m c b) c).arrAt (⟨1, by decide⟩ : Fin cfg4.W) cfg4.N = B14 m c (Pipeline.arrRef spec4 (⟨1, by decide⟩ : Fin cfg4.W)) :=
    ((dat4 (fun c b => B13 m c b) c).arrAt_in ⟨1, by decide⟩ rfl _).trans
      (by unfold B14; rw [Function.update_of_ne (StableHlo.devRef_ne_of_ne (by decide))]; rfl)
  have hin2 : (dat4 (fun c b => B13 m c b) c).arrAt (⟨2, by decide⟩ : Fin cfg4.W) cfg4.N = B14 m c (Pipeline.arrRef spec4 (⟨2, by decide⟩ : Fin cfg4.W)) :=
    ((dat4 (fun c b => B13 m c b) c).arrAt_in ⟨2, by decide⟩ rfl _).trans
      (by unfold B14; rw [Function.update_of_ne (StableHlo.devRef_ne_of_ne (by decide))]; rfl)
  have hres : (dat4 (fun c b => B13 m c b) c).arrAt (⟨3, by decide⟩ : Fin cfg4.W) cfg4.N = B14 m c (Pipeline.arrRef spec4 (⟨3, by decide⟩ : Fin cfg4.W)) := by
    unfold B14; exact (Function.update_self (Proc.devRef .tc main_v88) _ (B13 m c)).symm
  intro w
  match w with
  | ⟨0, _⟩ => exact hin0
  | ⟨1, _⟩ => exact hin1
  | ⟨2, _⟩ => exact hin2
  | ⟨3, _⟩ => exact hres

/-- Every other unscoped buffer is as it was. -/
theorem others_kept4 (c : Dev nD) (b : Ref sig .tc) (hb : b ∉ Finset.univ.image (Pipeline.arrRef spec4)) :
    B14 m c b = B13 m c b := by
  unfold B14
  exact Function.update_of_ne (StableHlo.devRef_ne_of_ne fun e => hb (Finset.mem_image.mpr ⟨⟨3, by decide⟩, Finset.mem_univ _, by subst e; rfl⟩)) _ _

set_option backward.isDefEq.respectTransparency.types false in
/-- Region 4 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => B13 m c b) c).loose
  hwaits := Pipeline.hwaits_of_owed_zero _ _ _ _ L lv 4 fun _ _ => rfl
  pre c := iprop(StableHlo.held (c : Thread nD τ) (Pipeline.ucRefs τ sig) (B13 m c) ∗ Rest c)
  post c := iprop(StableHlo.held (c : Thread nD τ) (Pipeline.ucRefs τ sig) (B14 m c) ∗ Rest c)
  X c := iprop(∃ r, prngReg c r)
  Y c := iprop(∃ r, prngReg c r)
  Z c := Pipeline.unscopedRest (Ix := Unit) (Name := ℕ) (U := Pipeline.UD sig nD τ) (Lvl := ℕ) spec4 c (fun b => B13 m c b)
  hentry c := by
    have harr := Pipeline.arrays_of_unscopedBufs (p := 4) (pcfgs (F := F)) adm (pdats m) launch4.win launch4.arr_whole c
      ((pdats m 4 c).share_full fun _ => rfl) (fun b => B13 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := hin4 (fun c b => B13 m c b) c _
  hout c := hout4 (fun c b => B13 m c b) c
  hexit c := by
    have hback := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (fun b => B13 m c b) (fun b => B14 m c b) ((pdats m 4 c).arrAt · cfg4.N) (arrs_out4 m c) (others_kept4 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.KernelIdeal.Hand

end
-- ==== Proof.Reg5.lean ====
import proofs.«169470_j5557687681111_1_alg».proof.Proof.RegCommon
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 5 each of its arrays holds what the valuation after it says: the inputs as entered, the output what the
    write-backs leave. -/
theorem arrs_out5 (c : Dev nD) : ∀ w : Fin cfg5.W,
    (dat5 (fun c b => B15 m c b) c).arrAt w cfg5.N = B16 m c (Pipeline.arrRef spec5 w) := by
  have hin0 : (dat5 (fun c b => B15 m c b) c).arrAt (⟨0, by decide⟩ : Fin cfg5.W) cfg5.N = B16 m c (Pipeline.arrRef spec5 (⟨0, by decide⟩ : Fin cfg5.W)) :=
    ((dat5 (fun c b => B15 m c b) c).arrAt_in ⟨0, by decide⟩ rfl _).trans
      (by unfold B16; rw [Function.update_of_ne (StableHlo.devRef_ne_of_ne (by decide))]; rfl)
  have hin1 : (dat5 (fun c b => B15 m c b) c).arrAt (⟨1, by decide⟩ : Fin cfg5.W) cfg5.N = B16 m c (Pipeline.arrRef spec5 (⟨1, by decide⟩ : Fin cfg5.W)) :=
    ((dat5 (fun c b => B15 m c b) c).arrAt_in ⟨1, by decide⟩ rfl _).trans
      (by unfold B16; rw [Function.update_of_ne (StableHlo.devRef_ne_of_ne (by decide))]; rfl)
  have hres : (dat5 (fun c b => B15 m c b) c).arrAt (⟨2, by decide⟩ : Fin cfg5.W) cfg5.N = B16 m c (Pipeline.arrRef spec5 (⟨2, by decide⟩ : Fin cfg5.W)) := by
    unfold B16; exact (Function.update_self (Proc.devRef .tc main_v94) _ (B15 m c)).symm
  intro w
  match w with
  | ⟨0, _⟩ => exact hin0
  | ⟨1, _⟩ => exact hin1
  | ⟨2, _⟩ => exact hres

/-- Every other unscoped buffer is as it was. -/
theorem others_kept5 (c : Dev nD) (b : Ref sig .tc) (hb : b ∉ Finset.univ.image (Pipeline.arrRef spec5)) :
    B16 m c b = B15 m c b := by
  unfold B16
  exact Function.update_of_ne (StableHlo.devRef_ne_of_ne fun e => hb (Finset.mem_image.mpr ⟨⟨2, by decide⟩, Finset.mem_univ _, by subst e; rfl⟩)) _ _

set_option backward.isDefEq.respectTransparency.types false in
/-- Region 5 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (fun c b => B15 m c b) c).loose
  hwaits := Pipeline.hwaits_of_owed_zero _ _ _ _ L lv 5 fun _ _ => rfl
  pre c := iprop(StableHlo.held (c : Thread nD τ) (Pipeline.ucRefs τ sig) (B15 m c) ∗ Rest c)
  post c := iprop(StableHlo.held (c : Thread nD τ) (Pipeline.ucRefs τ sig) (B16 m c) ∗ Rest c)
  X c := iprop(∃ r, prngReg c r)
  Y c := iprop(∃ r, prngReg c r)
  Z c := Pipeline.unscopedRest (Ix := Unit) (Name := ℕ) (U := Pipeline.UD sig nD τ) (Lvl := ℕ) spec5 c (fun b => B15 m c b)
  hentry c := by
    have harr := Pipeline.arrays_of_unscopedBufs (p := 5) (pcfgs (F := F)) adm (pdats m) launch5.win launch5.arr_whole c
      ((pdats m 5 c).share_full fun _ => rfl) (fun b => B15 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := by
    rw [show (pdats m 5 c).Φ 0 = Pipeline.ΦA spec5 c from rfl]; unfold Pipeline.ΦA
    iintro ⟨Hreg, -, Hscoped⟩
    isplitl [Hscoped] <;> iassumption
  hout c := by
    rw [Pipeline.ownSems0_none, show (pdats m 5 c).Φ (Fin.last _) = Pipeline.ΦA spec5 c from rfl]; unfold Pipeline.ΦA
    iintro ⟨Hscoped, Hreg⟩
    isplitl [Hreg]; · iexact Hreg
    isplitr; · iempintro
    iexact Hscoped
  hexit c := by
    have hback := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (fun b => B15 m c b) (fun b => B16 m c b) ((pdats m 5 c).arrAt · cfg5.N) (arrs_out5 m c) (others_kept5 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.KernelIdeal.Hand

end
-- ==== Proof.Reg6.lean ====
import proofs.«169470_j5557687681111_1_alg».proof.Proof.RegCommon
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 6 each of its arrays holds what the valuation after it says: the inputs as entered, the output what the
    write-backs leave. -/
theorem arrs_out6 (c : Dev nD) : ∀ w : Fin cfg6.W,
    (dat6 (fun c b => B17 m c b) c).arrAt w cfg6.N = B18 m c (Pipeline.arrRef spec6 w) := by
  have hin0 : (dat6 (fun c b => B17 m c b) c).arrAt (⟨0, by decide⟩ : Fin cfg6.W) cfg6.N = B18 m c (Pipeline.arrRef spec6 (⟨0, by decide⟩ : Fin cfg6.W)) :=
    ((dat6 (fun c b => B17 m c b) c).arrAt_in ⟨0, by decide⟩ rfl _).trans
      (by unfold B18; rw [Function.update_of_ne (StableHlo.devRef_ne_of_ne (by decide))]; rfl)
  have hin1 : (dat6 (fun c b => B17 m c b) c).arrAt (⟨1, by decide⟩ : Fin cfg6.W) cfg6.N = B18 m c (Pipeline.arrRef spec6 (⟨1, by decide⟩ : Fin cfg6.W)) :=
    ((dat6 (fun c b => B17 m c b) c).arrAt_in ⟨1, by decide⟩ rfl _).trans
      (by unfold B18; rw [Function.update_of_ne (StableHlo.devRef_ne_of_ne (by decide))]; rfl)
  have hin2 : (dat6 (fun c b => B17 m c b) c).arrAt (⟨2, by decide⟩ : Fin cfg6.W) cfg6.N = B18 m c (Pipeline.arrRef spec6 (⟨2, by decide⟩ : Fin cfg6.W)) :=
    ((dat6 (fun c b => B17 m c b) c).arrAt_in ⟨2, by decide⟩ rfl _).trans
      (by unfold B18; rw [Function.update_of_ne (StableHlo.devRef_ne_of_ne (by decide))]; rfl)
  have hres : (dat6 (fun c b => B17 m c b) c).arrAt (⟨3, by decide⟩ : Fin cfg6.W) cfg6.N = B18 m c (Pipeline.arrRef spec6 (⟨3, by decide⟩ : Fin cfg6.W)) := by
    unfold B18; exact (Function.update_self (Proc.devRef .tc main_v104) _ (B17 m c)).symm
  intro w
  match w with
  | ⟨0, _⟩ => exact hin0
  | ⟨1, _⟩ => exact hin1
  | ⟨2, _⟩ => exact hin2
  | ⟨3, _⟩ => exact hres

/-- Every other unscoped buffer is as it was. -/
theorem others_kept6 (c : Dev nD) (b : Ref sig .tc) (hb : b ∉ Finset.univ.image (Pipeline.arrRef spec6)) :
    B18 m c b = B17 m c b := by
  unfold B18
  exact Function.update_of_ne (StableHlo.devRef_ne_of_ne fun e => hb (Finset.mem_image.mpr ⟨⟨3, by decide⟩, Finset.mem_univ _, by subst e; rfl⟩)) _ _

set_option backward.isDefEq.respectTransparency.types false in
/-- Region 6 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg6 : RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (fun c b => B17 m c b) c).loose
  hwaits := Pipeline.hwaits_of_owed_zero _ _ _ _ L lv 6 fun _ _ => rfl
  pre c := iprop(StableHlo.held (c : Thread nD τ) (Pipeline.ucRefs τ sig) (B17 m c) ∗ Rest c)
  post c := iprop(StableHlo.held (c : Thread nD τ) (Pipeline.ucRefs τ sig) (B18 m c) ∗ Rest c)
  X c := iprop(∃ r, prngReg c r)
  Y c := iprop(∃ r, prngReg c r)
  Z c := Pipeline.unscopedRest (Ix := Unit) (Name := ℕ) (U := Pipeline.UD sig nD τ) (Lvl := ℕ) spec6 c (fun b => B17 m c b)
  hentry c := by
    have harr := Pipeline.arrays_of_unscopedBufs (p := 6) (pcfgs (F := F)) adm (pdats m) launch6.win launch6.arr_whole c
      ((pdats m 6 c).share_full fun _ => rfl) (fun b => B17 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := hin6 (fun c b => B17 m c b) c _
  hout c := hout6 (fun c b => B17 m c b) c
  hexit c := by
    have hback := Pipeline.unscopedBufs_of_arrays (p := 6) (pcfgs (F := F)) adm (Ix := Unit) (Name := ℕ) (U := Pipeline.UD sig nD τ) (Lvl := ℕ)
      launch6.win launch6.arr_whole c (pdats m) ((pdats m 6 c).share_full fun _ => rfl)
      (fun b => B17 m c b) (fun b => B18 m c b) ((pdats m 6 c).arrAt · cfg6.N) (arrs_out6 m c) (others_kept6 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.KernelIdeal.Hand

end
-- ==== Proof.Reg7.lean ====
import proofs.«169470_j5557687681111_1_alg».proof.Proof.RegCommon
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 7 each of its arrays holds what the valuation after it says: the inputs as entered, the output what the
    write-backs leave. -/
theorem arrs_out7 (c : Dev nD) : ∀ w : Fin cfg7.W,
    (dat7 (fun c b => B19 m c b) c).arrAt w cfg7.N = B20 m c (Pipeline.arrRef spec7 w) := by
  have hin0 : (dat7 (fun c b => B19 m c b) c).arrAt (⟨0, by decide⟩ : Fin cfg7.W) cfg7.N = B20 m c (Pipeline.arrRef spec7 (⟨0, by decide⟩ : Fin cfg7.W)) :=
    ((dat7 (fun c b => B19 m c b) c).arrAt_in ⟨0, by decide⟩ rfl _).trans
      (by unfold B20; rw [Function.update_of_ne (StableHlo.devRef_ne_of_ne (by decide))]; rfl)
  have hin1 : (dat7 (fun c b => B19 m c b) c).arrAt (⟨1, by decide⟩ : Fin cfg7.W) cfg7.N = B20 m c (Pipeline.arrRef spec7 (⟨1, by decide⟩ : Fin cfg7.W)) :=
    ((dat7 (fun c b => B19 m c b) c).arrAt_in ⟨1, by decide⟩ rfl _).trans
      (by unfold B20; rw [Function.update_of_ne (StableHlo.devRef_ne_of_ne (by decide))]; rfl)
  have hres : (dat7 (fun c b => B19 m c b) c).arrAt (⟨2, by decide⟩ : Fin cfg7.W) cfg7.N = B20 m c (Pipeline.arrRef spec7 (⟨2, by decide⟩ : Fin cfg7.W)) := by
    unfold B20; exact (Function.update_self (Proc.devRef .tc main_v110) _ (B19 m c)).symm
  intro w
  match w with
  | ⟨0, _⟩ => exact hin0
  | ⟨1, _⟩ => exact hin1
  | ⟨2, _⟩ => exact hres

/-- Every other unscoped buffer is as it was. -/
theorem others_kept7 (c : Dev nD) (b : Ref sig .tc) (hb : b ∉ Finset.univ.image (Pipeline.arrRef spec7)) :
    B20 m c b = B19 m c b := by
  unfold B20
  exact Function.update_of_ne (StableHlo.devRef_ne_of_ne fun e => hb (Finset.mem_image.mpr ⟨⟨2, by decide⟩, Finset.mem_univ _, by subst e; rfl⟩)) _ _

set_option backward.isDefEq.respectTransparency.types false in
/-- Region 7 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg7 : RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (fun c b => B19 m c b) c).loose
  hwaits := Pipeline.hwaits_of_owed_zero _ _ _ _ L lv 7 fun _ _ => rfl
  pre c := iprop(StableHlo.held (c : Thread nD τ) (Pipeline.ucRefs τ sig) (B19 m c) ∗ Rest c)
  post c := iprop(StableHlo.held (c : Thread nD τ) (Pipeline.ucRefs τ sig) (B20 m c) ∗ Rest c)
  X c := iprop(∃ r, prngReg c r)
  Y c := iprop(∃ r, prngReg c r)
  Z c := Pipeline.unscopedRest (Ix := Unit) (Name := ℕ) (U := Pipeline.UD sig nD τ) (Lvl := ℕ) spec7 c (fun b => B19 m c b)
  hentry c := by
    have harr := Pipeline.arrays_of_unscopedBufs (p := 7) (pcfgs (F := F)) adm (pdats m) launch7.win launch7.arr_whole c
      ((pdats m 7 c).share_full fun _ => rfl) (fun b => B19 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := by
    rw [show (pdats m 7 c).Φ 0 = Pipeline.ΦA spec7 c from rfl]; unfold Pipeline.ΦA
    iintro ⟨Hreg, -, Hscoped⟩
    isplitl [Hscoped] <;> iassumption
  hout c := by
    rw [Pipeline.ownSems0_none, show (pdats m 7 c).Φ (Fin.last _) = Pipeline.ΦA spec7 c from rfl]; unfold Pipeline.ΦA
    iintro ⟨Hscoped, Hreg⟩
    isplitl [Hreg]; · iexact Hreg
    isplitr; · iempintro
    iexact Hscoped
  hexit c := by
    have hback := Pipeline.unscopedBufs_of_arrays (p := 7) (pcfgs (F := F)) adm (Ix := Unit) (Name := ℕ) (U := Pipeline.UD sig nD τ) (Lvl := ℕ)
      launch7.win launch7.arr_whole c (pdats m) ((pdats m 7 c).share_full fun _ => rfl)
      (fun b => B19 m c b) (fun b => B20 m c b) ((pdats m 7 c).arrAt · cfg7.N) (arrs_out7 m c) (others_kept7 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.KernelIdeal.Hand

end
-- ==== Proof.Reg8.lean ====
import proofs.«169470_j5557687681111_1_alg».proof.Proof.RegCommon
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 8 each of its arrays holds what the valuation after it says: the inputs as entered, the output what the
    write-backs leave. -/
theorem arrs_out8 (c : Dev nD) : ∀ w : Fin cfg8.W,
    (dat8 (fun c b => B21 m c b) c).arrAt w cfg8.N = B22 m c (Pipeline.arrRef spec8 w) := by
  have hin0 : (dat8 (fun c b => B21 m c b) c).arrAt (⟨0, by decide⟩ : Fin cfg8.W) cfg8.N = B22 m c (Pipeline.arrRef spec8 (⟨0, by decide⟩ : Fin cfg8.W)) :=
    ((dat8 (fun c b => B21 m c b) c).arrAt_in ⟨0, by decide⟩ rfl _).trans
      (by unfold B22; rw [Function.update_of_ne (StableHlo.devRef_ne_of_ne (by decide))]; rfl)
  have hin1 : (dat8 (fun c b => B21 m c b) c).arrAt (⟨1, by decide⟩ : Fin cfg8.W) cfg8.N = B22 m c (Pipeline.arrRef spec8 (⟨1, by decide⟩ : Fin cfg8.W)) :=
    ((dat8 (fun c b => B21 m c b) c).arrAt_in ⟨1, by decide⟩ rfl _).trans
      (by unfold B22; rw [Function.update_of_ne (StableHlo.devRef_ne_of_ne (by decide))]; rfl)
  have hin2 : (dat8 (fun c b => B21 m c b) c).arrAt (⟨2, by decide⟩ : Fin cfg8.W) cfg8.N = B22 m c (Pipeline.arrRef spec8 (⟨2, by decide⟩ : Fin cfg8.W)) :=
    ((dat8 (fun c b => B21 m c b) c).arrAt_in ⟨2, by decide⟩ rfl _).trans
      (by unfold B22; rw [Function.update_of_ne (StableHlo.devRef_ne_of_ne (by decide))]; rfl)
  have hres : (dat8 (fun c b => B21 m c b) c).arrAt (⟨3, by decide⟩ : Fin cfg8.W) cfg8.N = B22 m c (Pipeline.arrRef spec8 (⟨3, by decide⟩ : Fin cfg8.W)) := by
    unfold B22; exact (Function.update_self (Proc.devRef .tc main_v120) _ (B21 m c)).symm
  intro w
  match w with
  | ⟨0, _⟩ => exact hin0
  | ⟨1, _⟩ => exact hin1
  | ⟨2, _⟩ => exact hin2
  | ⟨3, _⟩ => exact hres

/-- Every other unscoped buffer is as it was. -/
theorem others_kept8 (c : Dev nD) (b : Ref sig .tc) (hb : b ∉ Finset.univ.image (Pipeline.arrRef spec8)) :
    B22 m c b = B21 m c b := by
  unfold B22
  exact Function.update_of_ne (StableHlo.devRef_ne_of_ne fun e => hb (Finset.mem_image.mpr ⟨⟨3, by decide⟩, Finset.mem_univ _, by subst e; rfl⟩)) _ _

set_option backward.isDefEq.respectTransparency.types false in
/-- Region 8 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg8 : RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (fun c b => B21 m c b) c).loose
  hwaits := Pipeline.hwaits_of_owed_zero _ _ _ _ L lv 8 fun _ _ => rfl
  pre c := iprop(StableHlo.held (c : Thread nD τ) (Pipeline.ucRefs τ sig) (B21 m c) ∗ Rest c)
  post c := iprop(StableHlo.held (c : Thread nD τ) (Pipeline.ucRefs τ sig) (B22 m c) ∗ Rest c)
  X c := iprop(∃ r, prngReg c r)
  Y c := iprop(∃ r, prngReg c r)
  Z c := Pipeline.unscopedRest (Ix := Unit) (Name := ℕ) (U := Pipeline.UD sig nD τ) (Lvl := ℕ) spec8 c (fun b => B21 m c b)
  hentry c := by
    have harr := Pipeline.arrays_of_unscopedBufs (p := 8) (pcfgs (F := F)) adm (pdats m) launch8.win launch8.arr_whole c
      ((pdats m 8 c).share_full fun _ => rfl) (fun b => B21 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := hin8 (fun c b => B21 m c b) c _
  hout c := hout8 (fun c b => B21 m c b) c
  hexit c := by
    have hback := Pipeline.unscopedBufs_of_arrays (p := 8) (pcfgs (F := F)) adm (Ix := Unit) (Name := ℕ) (U := Pipeline.UD sig nD τ) (Lvl := ℕ)
      launch8.win launch8.arr_whole c (pdats m) ((pdats m 8 c).share_full fun _ => rfl)
      (fun b => B21 m c b) (fun b => B22 m c b) ((pdats m 8 c).arrAt · cfg8.N) (arrs_out8 m c) (others_kept8 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.KernelIdeal.Hand

end
-- ==== Proof.Reg9.lean ====
import proofs.«169470_j5557687681111_1_alg».proof.Proof.RegCommon
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 9 each of its arrays holds what the valuation after it says: the inputs as entered, the output what the
    write-backs leave. -/
theorem arrs_out9 (c : Dev nD) : ∀ w : Fin cfg9.W,
    (dat9 (fun c b => B23 m c b) c).arrAt w cfg9.N = B24 m c (Pipeline.arrRef spec9 w) := by
  have hin0 : (dat9 (fun c b => B23 m c b) c).arrAt (⟨0, by decide⟩ : Fin cfg9.W) cfg9.N = B24 m c (Pipeline.arrRef spec9 (⟨0, by decide⟩ : Fin cfg9.W)) :=
    ((dat9 (fun c b => B23 m c b) c).arrAt_in ⟨0, by decide⟩ rfl _).trans
      (by unfold B24; rw [Function.update_of_ne (StableHlo.devRef_ne_of_ne (by decide))]; rfl)
  have hin1 : (dat9 (fun c b => B23 m c b) c).arrAt (⟨1, by decide⟩ : Fin cfg9.W) cfg9.N = B24 m c (Pipeline.arrRef spec9 (⟨1, by decide⟩ : Fin cfg9.W)) :=
    ((dat9 (fun c b => B23 m c b) c).arrAt_in ⟨1, by decide⟩ rfl _).trans
      (by unfold B24; rw [Function.update_of_ne (StableHlo.devRef_ne_of_ne (by decide))]; rfl)
  have hres : (dat9 (fun c b => B23 m c b) c).arrAt (⟨2, by decide⟩ : Fin cfg9.W) cfg9.N = B24 m c (Pipeline.arrRef spec9 (⟨2, by decide⟩ : Fin cfg9.W)) := by
    unfold B24; exact (Function.update_self (Proc.devRef .tc main_v126) _ (B23 m c)).symm
  intro w
  match w with
  | ⟨0, _⟩ => exact hin0
  | ⟨1, _⟩ => exact hin1
  | ⟨2, _⟩ => exact hres

/-- Every other unscoped buffer is as it was. -/
theorem others_kept9 (c : Dev nD) (b : Ref sig .tc) (hb : b ∉ Finset.univ.image (Pipeline.arrRef spec9)) :
    B24 m c b = B23 m c b := by
  unfold B24
  exact Function.update_of_ne (StableHlo.devRef_ne_of_ne fun e => hb (Finset.mem_image.mpr ⟨⟨2, by decide⟩, Finset.mem_univ _, by subst e; rfl⟩)) _ _

set_option backward.isDefEq.respectTransparency.types false in
/-- Region 9 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg9 : RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (fun c b => B23 m c b) c).loose
  hwaits := Pipeline.hwaits_of_owed_zero _ _ _ _ L lv 9 fun _ _ => rfl
  pre c := iprop(StableHlo.held (c : Thread nD τ) (Pipeline.ucRefs τ sig) (B23 m c) ∗ Rest c)
  post c := iprop(StableHlo.held (c : Thread nD τ) (Pipeline.ucRefs τ sig) (B24 m c) ∗ Rest c)
  X c := iprop(∃ r, prngReg c r)
  Y c := iprop(∃ r, prngReg c r)
  Z c := Pipeline.unscopedRest (Ix := Unit) (Name := ℕ) (U := Pipeline.UD sig nD τ) (Lvl := ℕ) spec9 c (fun b => B23 m c b)
  hentry c := by
    have harr := Pipeline.arrays_of_unscopedBufs (p := 9) (pcfgs (F := F)) adm (pdats m) launch9.win launch9.arr_whole c
      ((pdats m 9 c).share_full fun _ => rfl) (fun b => B23 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := by
    rw [show (pdats m 9 c).Φ 0 = Pipeline.ΦA spec9 c from rfl]; unfold Pipeline.ΦA
    iintro ⟨Hreg, -, Hscoped⟩
    isplitl [Hscoped] <;> iassumption
  hout c := by
    rw [Pipeline.ownSems0_none, show (pdats m 9 c).Φ (Fin.last _) = Pipeline.ΦA spec9 c from rfl]; unfold Pipeline.ΦA
    iintro ⟨Hscoped, Hreg⟩
    isplitl [Hreg]; · iexact Hreg
    isplitr; · iempintro
    iexact Hscoped
  hexit c := by
    have hback := Pipeline.unscopedBufs_of_arrays (p := 9) (pcfgs (F := F)) adm (Ix := Unit) (Name := ℕ) (U := Pipeline.UD sig nD τ) (Lvl := ℕ)
      launch9.win launch9.arr_whole c (pdats m) ((pdats m 9 c).share_full fun _ => rfl)
      (fun b => B23 m c b) (fun b => B24 m c b) ((pdats m 9 c).arrAt · cfg9.N) (arrs_out9 m c) (others_kept9 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.KernelIdeal.Hand

end
-- ==== Proof.Reg10.lean ====
import proofs.«169470_j5557687681111_1_alg».proof.Proof.RegCommon
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 10 each of its arrays holds what the valuation after it says: the inputs as entered, the output what the
    write-backs leave. -/
theorem arrs_out10 (c : Dev nD) : ∀ w : Fin cfg10.W,
    (dat10 (fun c b => B25 m c b) c).arrAt w cfg10.N = B26 m c (Pipeline.arrRef spec10 w) := by
  have hin0 : (dat10 (fun c b => B25 m c b) c).arrAt (⟨0, by decide⟩ : Fin cfg10.W) cfg10.N = B26 m c (Pipeline.arrRef spec10 (⟨0, by decide⟩ : Fin cfg10.W)) :=
    ((dat10 (fun c b => B25 m c b) c).arrAt_in ⟨0, by decide⟩ rfl _).trans
      (by unfold B26; rw [Function.update_of_ne (StableHlo.devRef_ne_of_ne (by decide))]; rfl)
  have hin1 : (dat10 (fun c b => B25 m c b) c).arrAt (⟨1, by decide⟩ : Fin cfg10.W) cfg10.N = B26 m c (Pipeline.arrRef spec10 (⟨1, by decide⟩ : Fin cfg10.W)) :=
    ((dat10 (fun c b => B25 m c b) c).arrAt_in ⟨1, by decide⟩ rfl _).trans
      (by unfold B26; rw [Function.update_of_ne (StableHlo.devRef_ne_of_ne (by decide))]; rfl)
  have hin2 : (dat10 (fun c b => B25 m c b) c).arrAt (⟨2, by decide⟩ : Fin cfg10.W) cfg10.N = B26 m c (Pipeline.arrRef spec10 (⟨2, by decide⟩ : Fin cfg10.W)) :=
    ((dat10 (fun c b => B25 m c b) c).arrAt_in ⟨2, by decide⟩ rfl _).trans
      (by unfold B26; rw [Function.update_of_ne (StableHlo.devRef_ne_of_ne (by decide))]; rfl)
  have hres : (dat10 (fun c b => B25 m c b) c).arrAt (⟨3, by decide⟩ : Fin cfg10.W) cfg10.N = B26 m c (Pipeline.arrRef spec10 (⟨3, by decide⟩ : Fin cfg10.W)) := by
    unfold B26; exact (Function.update_self (Proc.devRef .tc main_v136) _ (B25 m c)).symm
  intro w
  match w with
  | ⟨0, _⟩ => exact hin0
  | ⟨1, _⟩ => exact hin1
  | ⟨2, _⟩ => exact hin2
  | ⟨3, _⟩ => exact hres

/-- Every other unscoped buffer is as it was. -/
theorem others_kept10 (c : Dev nD) (b : Ref sig .tc) (hb : b ∉ Finset.univ.image (Pipeline.arrRef spec10)) :
    B26 m c b = B25 m c b := by
  unfold B26
  exact Function.update_of_ne (StableHlo.devRef_ne_of_ne fun e => hb (Finset.mem_image.mpr ⟨⟨3, by decide⟩, Finset.mem_univ _, by subst e; rfl⟩)) _ _

set_option backward.isDefEq.respectTransparency.types false in
/-- Region 10 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg10 : RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (fun c b => B25 m c b) c).loose
  hwaits := Pipeline.hwaits_of_owed_zero _ _ _ _ L lv 10 fun _ _ => rfl
  pre c := iprop(StableHlo.held (c : Thread nD τ) (Pipeline.ucRefs τ sig) (B25 m c) ∗ Rest c)
  post c := iprop(StableHlo.held (c : Thread nD τ) (Pipeline.ucRefs τ sig) (B26 m c) ∗ Rest c)
  X c := iprop(∃ r, prngReg c r)
  Y c := iprop(∃ r, prngReg c r)
  Z c := Pipeline.unscopedRest (Ix := Unit) (Name := ℕ) (U := Pipeline.UD sig nD τ) (Lvl := ℕ) spec10 c (fun b => B25 m c b)
  hentry c := by
    have harr := Pipeline.arrays_of_unscopedBufs (p := 10) (pcfgs (F := F)) adm (pdats m) launch10.win launch10.arr_whole c
      ((pdats m 10 c).share_full fun _ => rfl) (fun b => B25 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := hin10 (fun c b => B25 m c b) c _
  hout c := hout10 (fun c b => B25 m c b) c
  hexit c := by
    have hback := Pipeline.unscopedBufs_of_arrays (p := 10) (pcfgs (F := F)) adm (Ix := Unit) (Name := ℕ) (U := Pipeline.UD sig nD τ) (Lvl := ℕ)
      launch10.win launch10.arr_whole c (pdats m) ((pdats m 10 c).share_full fun _ => rfl)
      (fun b => B25 m c b) (fun b => B26 m c b) ((pdats m 10 c).arrAt · cfg10.N) (arrs_out10 m c) (others_kept10 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.KernelIdeal.Hand

end
-- ==== Proof.Reg11.lean ====
import proofs.«169470_j5557687681111_1_alg».proof.Proof.RegCommon
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 11 each of its arrays holds what the valuation after it says: the inputs as entered, the output what the
    write-backs leave. -/
theorem arrs_out11 (c : Dev nD) : ∀ w : Fin cfg11.W,
    (dat11 (fun c b => B27 m c b) c).arrAt w cfg11.N = B28 m c (Pipeline.arrRef spec11 w) := by
  have hin0 : (dat11 (fun c b => B27 m c b) c).arrAt (⟨0, by decide⟩ : Fin cfg11.W) cfg11.N = B28 m c (Pipeline.arrRef spec11 (⟨0, by decide⟩ : Fin cfg11.W)) :=
    ((dat11 (fun c b => B27 m c b) c).arrAt_in ⟨0, by decide⟩ rfl _).trans
      (by unfold B28; rw [Function.update_of_ne (StableHlo.devRef_ne_of_ne (by decide))]; rfl)
  have hin1 : (dat11 (fun c b => B27 m c b) c).arrAt (⟨1, by decide⟩ : Fin cfg11.W) cfg11.N = B28 m c (Pipeline.arrRef spec11 (⟨1, by decide⟩ : Fin cfg11.W)) :=
    ((dat11 (fun c b => B27 m c b) c).arrAt_in ⟨1, by decide⟩ rfl _).trans
      (by unfold B28; rw [Function.update_of_ne (StableHlo.devRef_ne_of_ne (by decide))]; rfl)
  have hin2 : (dat11 (fun c b => B27 m c b) c).arrAt (⟨2, by decide⟩ : Fin cfg11.W) cfg11.N = B28 m c (Pipeline.arrRef spec11 (⟨2, by decide⟩ : Fin cfg11.W)) :=
    ((dat11 (fun c b => B27 m c b) c).arrAt_in ⟨2, by decide⟩ rfl _).trans
      (by unfold B28; rw [Function.update_of_ne (StableHlo.devRef_ne_of_ne (by decide))]; rfl)
  have hres : (dat11 (fun c b => B27 m c b) c).arrAt (⟨3, by decide⟩ : Fin cfg11.W) cfg11.N = B28 m c (Pipeline.arrRef spec11 (⟨3, by decide⟩ : Fin cfg11.W)) := by
    unfold B28; exact (Function.update_self (Proc.devRef .tc main_v141) _ (B27 m c)).symm
  intro w
  match w with
  | ⟨0, _⟩ => exact hin0
  | ⟨1, _⟩ => exact hin1
  | ⟨2, _⟩ => exact hin2
  | ⟨3, _⟩ => exact hres

/-- Every other unscoped buffer is as it was. -/
theorem others_kept11 (c : Dev nD) (b : Ref sig .tc) (hb : b ∉ Finset.univ.image (Pipeline.arrRef spec11)) :
    B28 m c b = B27 m c b := by
  unfold B28
  exact Function.update_of_ne (StableHlo.devRef_ne_of_ne fun e => hb (Finset.mem_image.mpr ⟨⟨3, by decide⟩, Finset.mem_univ _, by subst e; rfl⟩)) _ _

set_option backward.isDefEq.respectTransparency.types false in
/-- Region 11 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg11 : RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (fun c b => B27 m c b) c).loose
  hwaits := Pipeline.hwaits_of_owed_zero _ _ _ _ L lv 11 fun _ _ => rfl
  pre c := iprop(StableHlo.held (c : Thread nD τ) (Pipeline.ucRefs τ sig) (B27 m c) ∗ Rest c)
  post c := iprop(StableHlo.held (c : Thread nD τ) (Pipeline.ucRefs τ sig) (B28 m c) ∗ Rest c)
  X c := iprop(∃ r, prngReg c r)
  Y c := iprop(∃ r, prngReg c r)
  Z c := Pipeline.unscopedRest (Ix := Unit) (Name := ℕ) (U := Pipeline.UD sig nD τ) (Lvl := ℕ) spec11 c (fun b => B27 m c b)
  hentry c := by
    have harr := Pipeline.arrays_of_unscopedBufs (p := 11) (pcfgs (F := F)) adm (pdats m) launch11.win launch11.arr_whole c
      ((pdats m 11 c).share_full fun _ => rfl) (fun b => B27 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := by
    rw [show (pdats m 11 c).Φ 0 = Pipeline.ΦA spec11 c from rfl]; unfold Pipeline.ΦA
    iintro ⟨Hreg, -, Hscoped⟩
    isplitl [Hscoped] <;> iassumption
  hout c := by
    rw [Pipeline.ownSems0_none, show (pdats m 11 c).Φ (Fin.last _) = Pipeline.ΦA spec11 c from rfl]; unfold Pipeline.ΦA
    iintro ⟨Hscoped, Hreg⟩
    isplitl [Hreg]; · iexact Hreg
    isplitr; · iempintro
    iexact Hscoped
  hexit c := by
    have hback := Pipeline.unscopedBufs_of_arrays (p := 11) (pcfgs (F := F)) adm (Ix := Unit) (Name := ℕ) (U := Pipeline.UD sig nD τ) (Lvl := ℕ)
      launch11.win launch11.arr_whole c (pdats m) ((pdats m 11 c).share_full fun _ => rfl)
      (fun b => B27 m c b) (fun b => B28 m c b) ((pdats m 11 c).arrAt · cfg11.N) (arrs_out11 m c) (others_kept11 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.KernelIdeal.Hand

end
-- ==== Proof.RunCond.lean ====
import proofs.«169470_j5557687681111_1_alg».proof.Proof.Gen.KernelIdeal.Regions

/-! The whole program's run, given each kernel region's record: every weakly fair execution of the host program
    ends, and in the final memory EVERY buffer that lives outside the kernels' scoped memory holds the contents of
    the last boundary valuation — the launch memory pushed through each host stretch and each region's output.
    The frame claim (the arguments end as launched) and the value of the result buffer are both read off it. -/

set_option maxRecDepth 1500

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in
/-- Given, per region, a segment record entered from the boundary valuation before it and left at the one after it,
    the program runs to the end and every unscoped buffer ends at the last boundary valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 12) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 13 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE12 : ∀ c : Dev nD, E 12 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V21 m outs c) ∗ E 8 c) ⊢ R8.pre c)
    (hpost8 : ∀ c : Dev nD, R8.post c ⊢ iprop(StableHlo.held (c : Thread nD τ) (Pipeline.ucRefs τ sig) (V22 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V23 m outs c) ∗ E 9 c) ⊢ R9.pre c)
    (hpost9 : ∀ c : Dev nD, R9.post c ⊢ iprop(StableHlo.held (c : Thread nD τ) (Pipeline.ucRefs τ sig) (V24 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V25 m outs c) ∗ E 10 c) ⊢ R10.pre c)
    (hpost10 : ∀ c : Dev nD, R10.post c ⊢ iprop(StableHlo.held (c : Thread nD τ) (Pipeline.ucRefs τ sig) (V26 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V27 m outs c) ∗ E 11 c) ⊢ R11.pre c)
    (hpost11 : ∀ c : Dev nD, R11.post c ⊢ iprop(StableHlo.held (c : Thread nD τ) (Pipeline.ucRefs τ sig) (V28 m outs c) ∗ E 12 c)) :
    θ_run defs (onTc (τ := τ) (main (F := F))) ⟨m, fun _ => 0, ρ⟩ (fun r => ∀ c : Dev nD,
      ∀ b ∈ Pipeline.ucRefs τ sig, r.2.mem (((c.tc : Thread nD τ)).1, b) = V29 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11)
    (fun c Q => by
      rewrite [main_chain c, Seg.run_eq_chain,
        show (segs m outs 𝒱₀ L lv E ι pdats R0 R1 R2 R3 R4 R5 R6 R7 R8 R9 R10 R11 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V29 m outs c))
    (hch := fun c => ⟨.rfl, .rfl, .rfl, .rfl, .rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, sep_mono .rfl (hE12 c)⟩)
    (hinit := ?_) (QY := fun c s => ∀ b ∈ Pipeline.ucRefs τ sig, s.mem (((c : Thread nD τ)).1, b) = V29 m outs c b)
    (hfin := fun c s' => ?_) (hQ := fun _ h => h)
  · -- The launch state. On each core the unscoped buffers at the launch memory ARE those references held at the first
    -- valuation; a separating product over the cores of a product is the product of the two products, on both sides; the
    -- buffers pass through untouched and the remainder, with the level facts, becomes the first rest state on all cores.
    have hheld : ∀ c : Dev nD,
        (unscopedBufs c (fun b => m ((c.tc : Thread nD τ).loc b)) : sProp (MT nD τ sig Ix (Elt F) ℕ U Lvl))
          = StableHlo.held (c : Thread nD τ) (Pipeline.ucRefs τ sig) (V0 m c) :=
      fun c => Pipeline.unscopedBufs_held (Ix := Ix) (Name := ℕ) (U := U) (Lvl := Lvl) c (V0 m c)
    simp only [hheld]
    rw [bigSep_sep']
    iintro ⟨⟨Hbufs, Hrest⟩, Hlev⟩
    imod hE0 $$ [Hrest Hlev] with Hfirst
    · isplitl [Hrest] <;> iassumption
    imodintro
    rw [bigSep_sep']
    isplitl [Hbufs] <;> iassumption
  · -- The end. The last thread state holds every unscoped reference at the last valuation; read against the final
    -- memory, each such buffer is that valuation's.
    unfold StableHlo.held
    iintro ⟨Hh, HSI⟩
    imodintro
    iapply (pointsTo_read_all (Pipeline.ucRefs τ sig) (fun b => ((c : Thread nD τ).1, b)) (V29 m outs c) s')
    isplitl [Hh] <;> iassumption

end Cert.KernelIdeal.Hand

end
-- ==== Proof.KernelRun.lean ====
import proofs.«169470_j5557687681111_1_alg».proof.Proof.Reg0
import proofs.«169470_j5557687681111_1_alg».proof.Proof.Reg1
import proofs.«169470_j5557687681111_1_alg».proof.Proof.Reg2
import proofs.«169470_j5557687681111_1_alg».proof.Proof.Reg3
import proofs.«169470_j5557687681111_1_alg».proof.Proof.Reg4
import proofs.«169470_j5557687681111_1_alg».proof.Proof.Reg5
import proofs.«169470_j5557687681111_1_alg».proof.Proof.Reg6
import proofs.«169470_j5557687681111_1_alg».proof.Proof.Reg7
import proofs.«169470_j5557687681111_1_alg».proof.Proof.Reg8
import proofs.«169470_j5557687681111_1_alg».proof.Proof.Reg9
import proofs.«169470_j5557687681111_1_alg».proof.Proof.Reg10
import proofs.«169470_j5557687681111_1_alg».proof.Proof.Reg11
import proofs.«169470_j5557687681111_1_alg».proof.Proof.RunCond
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! The kernel program's run: every weakly fair execution ends, and every buffer outside the kernels' scoped memory ends at the
    last boundary valuation. -/

set_option backward.isDefEq.respectTransparency.types false in
theorem kernel_run : θ_run defs (onTc (τ := τ) (main (F := F))) ⟨m, fun _ => 0, ρ⟩ (fun r => ∀ c : Dev nD,
    ∀ b ∈ Pipeline.ucRefs τ sig, r.2.mem (((c.tc : Thread nD τ)).1, b) = B29 m c b) := by
  have key : θ_run defs (onTc (τ := τ) (main (F := F))) ⟨m, fun _ => 0, ρ⟩ (fun r => ∀ c : Dev nD,
      ∀ b ∈ Pipeline.ucRefs τ sig, r.2.mem (((c.tc : Thread nD τ)).1, b) = V29 m (outs m) c b) := by
    refine run_cond m (Ix := Unit) (U := Pipeline.UD sig nD τ) (Lvl := ℕ) embL () 𝒱₀ L lv (fun _ _ => rfl) ρ (outs m) (pdats m)
      (fun _ => 0) (fun _ => iprop(emp)) (initOf (Pipeline.cells cfgs cellOf_inj) (Pipeline.launchToks cfgs cellOf_inj), 1) ?hu
      (fun _ c => Rest c) ?hE0 ?hE12
      (reg0 m)
      (fun c => by rw [V5_eq]; exact .rfl)
      (fun c => by rw [V6_eq]; exact .rfl)
      (reg1 m)
      (fun c => by rw [V7_eq]; exact .rfl)
      (fun c => by rw [V8_eq]; exact .rfl)
      (reg2 m)
      (fun c => by rw [V9_eq]; exact .rfl)
      (fun c => by rw [V10_eq]; exact .rfl)
      (reg3 m)
      (fun c => by rw [V11_eq]; exact .rfl)
      (fun c => by rw [V12_eq]; exact .rfl)
      (reg4 m)
      (fun c => by rw [V13_eq]; exact .rfl)
      (fun c => by rw [V14_eq]; exact .rfl)
      (reg5 m)
      (fun c => by rw [V15_eq]; exact .rfl)
      (fun c => by rw [V16_eq]; exact .rfl)
      (reg6 m)
      (fun c => by rw [V17_eq]; exact .rfl)
      (fun c => by rw [V18_eq]; exact .rfl)
      (reg7 m)
      (fun c => by rw [V19_eq]; exact .rfl)
      (fun c => by rw [V20_eq]; exact .rfl)
      (reg8 m)
      (fun c => by rw [V21_eq]; exact .rfl)
      (fun c => by rw [V22_eq]; exact .rfl)
      (reg9 m)
      (fun c => by rw [V23_eq]; exact .rfl)
      (fun c => by rw [V24_eq]; exact .rfl)
      (reg10 m)
      (fun c => by rw [V25_eq]; exact .rfl)
      (fun c => by rw [V26_eq]; exact .rfl)
      (reg11 m)
      (fun c => by rw [V27_eq]; exact .rfl)
      (fun c => by rw [V28_eq]; exact .rfl)
    case hu =>
      -- the launch element is a pair: the pipeline library's part is what the run needs; nothing else is handed to the cores
      iintro Hu
      ihave Hpair := (ownU_pair _ _) $$ Hu
      icases Hpair with ⟨Hlib, -⟩
      imodintro
      isplitl [Hlib]; · iexact Hlib
      have hemp : (BI.emp : sProp 𝕄) ⊢ bigSep Finset.univ (fun _ : Dev nD => (BI.emp : sProp 𝕄)) := by
        rw [BI.bigSep_emp_const]
      iapply hemp; iempintro
    case hE0 =>
      -- on every core: the generator register at its launch state and the core owing nothing are the rest state
      have hcore : ∀ c : Dev nD, (iprop(unscopedSems0 c ∗ owes (c.tc : Thread nD τ) (0 : CellTallies nD τ sig Unit) ∅
          ∗ Pipeline.launchCred (fun _ => 0) c ∗ prngReg c (ρ c) ∗ emp) : sProp 𝕄) ⊢ Rest c := by
        intro c
        iintro ⟨-, Howes, -, Hreg, -⟩
        isplitl [Hreg]
        · iexists _; iexact Hreg
        iexists ∅; iexact Howes
      iintro ⟨Hall, -⟩
      imodintro
      have hall : (bigSep Finset.univ (fun c : Dev nD => iprop(unscopedSems0 c ∗ owes (c.tc : Thread nD τ) (0 : CellTallies nD τ sig Unit) ∅
          ∗ Pipeline.launchCred (fun _ => 0) c ∗ prngReg c (ρ c) ∗ emp)) : sProp 𝕄) ⊢ bigSep Finset.univ (fun c : Dev nD => Rest c) :=
        bigSep_mono fun c _ => hcore c
      iapply hall
      iexact Hall
    case hE12 =>
      intro c
      iintro ⟨-, Howes⟩
      iexact Howes
  exact (θ_run defs _ _).mono (fun r h c b hb => (h c b hb).trans (congrFun (V29_eq m c) b)) key

end Cert.KernelIdeal.Hand

end
-- ==== Proof.Frames.lean ====
import proofs.«169470_j5557687681111_1_alg».proof.Proof.KernelRun
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! What the kernel program's run says about the buffers the claims speak of: the nine argument arrays end as launched (no
    host operation writes one and no region may change one), and the result buffer ends at the last boundary valuation. -/

/-- The frame: the program runs to the end and every argument array ends holding its launch contents. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c =>
    ⟨(h c _ (Finset.mem_filter.mpr ⟨StableHlo.devRef_mem_tcRefs main_arg0, by decide⟩)).trans (((congrFun (V29_eq m c) _).symm).trans (V29_main_arg0 m (outs m) c)),
     (h c _ (Finset.mem_filter.mpr ⟨StableHlo.devRef_mem_tcRefs main_arg1, by decide⟩)).trans (((congrFun (V29_eq m c) _).symm).trans (V29_main_arg1 m (outs m) c)),
     (h c _ (Finset.mem_filter.mpr ⟨StableHlo.devRef_mem_tcRefs main_arg2, by decide⟩)).trans (((congrFun (V29_eq m c) _).symm).trans (V29_main_arg2 m (outs m) c)),
     (h c _ (Finset.mem_filter.mpr ⟨StableHlo.devRef_mem_tcRefs main_arg3, by decide⟩)).trans (((congrFun (V29_eq m c) _).symm).trans (V29_main_arg3 m (outs m) c)),
     (h c _ (Finset.mem_filter.mpr ⟨StableHlo.devRef_mem_tcRefs main_arg4, by decide⟩)).trans (((congrFun (V29_eq m c) _).symm).trans (V29_main_arg4 m (outs m) c)),
     (h c _ (Finset.mem_filter.mpr ⟨StableHlo.devRef_mem_tcRefs main_arg5, by decide⟩)).trans (((congrFun (V29_eq m c) _).symm).trans (V29_main_arg5 m (outs m) c)),
     (h c _ (Finset.mem_filter.mpr ⟨StableHlo.devRef_mem_tcRefs main_arg6, by decide⟩)).trans (((congrFun (V29_eq m c) _).symm).trans (V29_main_arg6 m (outs m) c)),
     (h c _ (Finset.mem_filter.mpr ⟨StableHlo.devRef_mem_tcRefs main_arg7, by decide⟩)).trans (((congrFun (V29_eq m c) _).symm).trans (V29_main_arg7 m (outs m) c)),
     (h c _ (Finset.mem_filter.mpr ⟨StableHlo.devRef_mem_tcRefs main_arg8, by decide⟩)).trans (((congrFun (V29_eq m c) _).symm).trans (V29_main_arg8 m (outs m) c))⟩) (kernel_run m ρ)

/-- The same run, also naming the result buffer: it ends at the last boundary valuation. -/
theorem result_run : θ_run defs (onTc (τ := τ) (main (F := F))) ⟨m, fun _ => 0, ρ⟩ (fun r => ∀ c : Dev nD,
      r.2.mem ((c.tc : Thread nD τ).loc main_v143) = B29 m c main_v143
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c (Proc.devRef .tc main_v143)
        (Finset.mem_filter.mpr ⟨StableHlo.devRef_mem_tcRefs main_v143, by decide⟩ : Proc.devRef (τ := τ) .tc main_v143 ∈ Pipeline.ucRefs τ sig),
     (h c _ (Finset.mem_filter.mpr ⟨StableHlo.devRef_mem_tcRefs main_arg0, by decide⟩)).trans (((congrFun (V29_eq m c) _).symm).trans (V29_main_arg0 m (outs m) c)),
     (h c _ (Finset.mem_filter.mpr ⟨StableHlo.devRef_mem_tcRefs main_arg1, by decide⟩)).trans (((congrFun (V29_eq m c) _).symm).trans (V29_main_arg1 m (outs m) c)),
     (h c _ (Finset.mem_filter.mpr ⟨StableHlo.devRef_mem_tcRefs main_arg2, by decide⟩)).trans (((congrFun (V29_eq m c) _).symm).trans (V29_main_arg2 m (outs m) c)),
     (h c _ (Finset.mem_filter.mpr ⟨StableHlo.devRef_mem_tcRefs main_arg3, by decide⟩)).trans (((congrFun (V29_eq m c) _).symm).trans (V29_main_arg3 m (outs m) c)),
     (h c _ (Finset.mem_filter.mpr ⟨StableHlo.devRef_mem_tcRefs main_arg4, by decide⟩)).trans (((congrFun (V29_eq m c) _).symm).trans (V29_main_arg4 m (outs m) c)),
     (h c _ (Finset.mem_filter.mpr ⟨StableHlo.devRef_mem_tcRefs main_arg5, by decide⟩)).trans (((congrFun (V29_eq m c) _).symm).trans (V29_main_arg5 m (outs m) c)),
     (h c _ (Finset.mem_filter.mpr ⟨StableHlo.devRef_mem_tcRefs main_arg6, by decide⟩)).trans (((congrFun (V29_eq m c) _).symm).trans (V29_main_arg6 m (outs m) c)),
     (h c _ (Finset.mem_filter.mpr ⟨StableHlo.devRef_mem_tcRefs main_arg7, by decide⟩)).trans (((congrFun (V29_eq m c) _).symm).trans (V29_main_arg7 m (outs m) c)),
     (h c _ (Finset.mem_filter.mpr ⟨StableHlo.devRef_mem_tcRefs main_arg8, by decide⟩)).trans (((congrFun (V29_eq m c) _).symm).trans (V29_main_arg8 m (outs m) c))⟩) (kernel_run m ρ)

end Cert.KernelIdeal.Hand

end
-- ==== Proof.KLin0.lean ====
import proofs.«169470_j5557687681111_1_alg».proof.Proof.Gen.Kernel.Launch
import proofs.«169470_j5557687681111_1_alg».proof.Proof.Gen.Kernel.Skeleton
import proofs.«169470_j5557687681111_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The input linear layer with bias and rectifier (pallas_call 0): features [81920,515] times weights [515,256], plus bias [1,256], clamped below at zero, by row blocks

The grid has forty points; point `t` takes rows `2048·t … 2048·t + 2047` of the f32 features, rounds them and the
whole f32 weight matrix to bf16, multiplies them accumulating in f32, adds the bias row to every row, takes the maximum
with zero, rounds to bf16, and writes the same rows of the result. The features' block moves with the point and is
fetched at each; the weights and the bias are whole arrays, fetched once; the result's block is written back at each
point. -/

/-- What window `w` of the layer holds for grid point `t`, read out of the arrays as the layer finds them (`V`):
    for the features and the result the `t`-th block of 2048 rows, for the weights and the bias the whole array. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## The input buffers when the body runs -/

/-- The features' staging buffer holds the point's block of rows whenever the body runs, for any proof data over the
    entry arrays `V` whose body leaves that block where it found it. The array's block at a point is `iblk0`
    (`hblock`); the window is an input, never idle and not cut, so a fetch fills the whole buffer with the block, and
    where no fetch happens the block index has not moved since the last one (`Dat.before_in_eq_fetched`). -/
theorem before0_0_of {c : Dev nD} (dat : Dat τ (Elt F) Unit ℕ (Pipeline.UD sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hblock : ∀ t, dat.blockOf 0 t = iblk0 V c 0 t := fun t => by unfold Dat.blockOf iblk0; rw [hA]
  rw [dat.before_in_eq_fetched 0 rfl (fun _ => rfl) (fun _ _ _ => rfl) (fun t => by rw [hafter, hblock]) t d]
  exact hblock t

/-- The weights' staging buffer holds the whole weight matrix whenever the body runs: it is fetched at the first point
    only, its block index is the same at every point, and the body leaves it as found. -/
theorem before0_1_of {c : Dev nD} (dat : Dat τ (Elt F) Unit ℕ (Pipeline.UD sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hblock : ∀ t, dat.blockOf 1 t = iblk0 V c 1 t := fun t => by unfold Dat.blockOf iblk0; rw [hA]
  rw [dat.before_in_eq_fetched 1 rfl (fun _ => rfl) (fun _ _ _ => rfl) (fun t => by rw [hafter, hblock]) t d]
  exact hblock t

/-- The bias row's staging buffer likewise holds the whole bias whenever the body runs. -/
theorem before0_2_of {c : Dev nD} (dat : Dat τ (Elt F) Unit ℕ (Pipeline.UD sig nD τ) ℕ cfg0 c)
    (hA : dat.A 2 = V c (Pipeline.arrRef spec0 2)) (hafter : ∀ t, dat.after 2 t = iblk0 V c 2 t)
    (t : Fin cfg0.N) (d) : dat.before 2 t d = iblk0 V c 2 t := by
  have hblock : ∀ t, dat.blockOf 2 t = iblk0 V c 2 t := fun t => by unfold Dat.blockOf iblk0; rw [hA]
  rw [dat.before_in_eq_fetched 2 rfl (fun _ => rfl) (fun _ _ _ => rfl) (fun t => by rw [hafter, hblock]) t d]
  exact hblock t

/-! ## What the body does to its buffers -/

/-- The body touches each staging buffer as a whole: the 2048x515 block of features, -/
abbrev rowsAll0 : Rect S2048x515 := Rect.unit (s := S2048x515) ![0, 0] S2048x515.size inb_S2048x515_S2048x515_0_0
/-- the 515x256 weights, -/
abbrev weightsAll0 : Rect S515x256 := Rect.unit (s := S515x256) ![0, 0] S515x256.size inb_S515x256_S515x256_0_0
/-- the 1x256 bias row, -/
abbrev biasAll0 : Rect S1x256 := Rect.unit (s := S1x256) ![0, 0] S1x256.size inb_S1x256_S1x256_0_0
/-- and the 2048x256 result block. -/
abbrev resultAll0 : Rect S2048x256 := Rect.unit (s := S2048x256) ![0, 0] S2048x256.size inb_S2048x256_S2048x256_0_0

/-- The result block the body leaves from a block `x` of features, the weights `wt` and the bias `b`: its one store
    writes `k0_pay1` of what it loaded (the rounded product plus the bias, clamped below at zero, rounded to bf16) over the whole buffer. -/
def out0_3 (x : Vec F S2048x515 .f32) (wt : Vec F S515x256 .f32) (b : Vec F S1x256 .f32) : Vec F S2048x256 .bf16 :=
  View.canon [⟨resultAll0, k0_pay1 (View.ld x rowsAll0) (View.ld wt weightsAll0) (View.ld b biasAll0)⟩]

/-- That one store is of the whole 2048x256 shape, so it covers the buffer. -/
theorem store_covers0 (p : Vec F S2048x256 .bf16) (y : S2048x256.Idx) :
    ∃ pc ∈ ([⟨resultAll0, p⟩] : List (View.Piece (Elt F) S2048x256 .bf16)), y ∈ pc.1.set :=
  View.cover_of_wholeMem _ (View.Piece.wholeMem_here rfl) y

set_option maxHeartbeats 1000000 in
/-- The kernel body on whole staging buffers: given the features' buffer reading `x`, the weights' reading `wt`, the
    bias's reading `b` and the result's holding anything, it returns with the three inputs as they were and the
    result's buffer reading `out0_3 x wt b`. The printed function is its skeleton — three loads, a load of the result
    buffer whose value goes unused, one store —, which is run operation by operation; what the store's writes leave
    reads as their canonical contents because the store covers the buffer. -/
theorem sound_kernel0 (c : Dev nD) (E : Set ℕ) (i : grid0.Coords)
    (xbuf : Memref sig .tc .vmem S2048x515 .f32) (hx : xbuf.IsWhole)
    (wbuf : Memref sig .tc .vmem S515x256 .f32) (hw : wbuf.IsWhole)
    (bbuf : Memref sig .tc .vmem S1x256 .f32) (hb : bbuf.IsWhole)
    (obuf : Memref sig .tc .vmem S2048x256 .bf16) (ho : obuf.IsWhole)
    (x : Vec F S2048x515 .f32) (wt : Vec F S515x256 .f32) (b : Vec F S1x256 .f32) (K : PUnit → sProp 𝕄) :
    iprop(owns (c : Thread nD τ) xbuf fullShare x ∗ owns (c : Thread nD τ) wbuf fullShare wt
        ∗ owns (c : Thread nD τ) bbuf fullShare b ∗ (∃ d, owns (c : Thread nD τ) obuf fullShare d)
        ∗ (iprop(owns (c : Thread nD τ) xbuf fullShare x ∗ owns (c : Thread nD τ) wbuf fullShare wt
            ∗ owns (c : Thread nD τ) bbuf fullShare b ∗ owns (c : Thread nD τ) obuf fullShare (out0_3 x wt b)) -∗ K ⟨⟩))
      ⊢ wp frame (wpE (defs₀ (F := F)) Variants.none c none) E (cc0_kernel i xbuf hx wbuf hw bbuf hb obuf ho) K := by
  simp only [cc0_kernel_eq_skeleton]; unfold cc0_kernel_skel
  unfold owns
  iintro ⟨⟨%fx, %hfx, Hx⟩, ⟨%fw, %hfw, Hw⟩, ⟨%fb, %hfb, Hb⟩, ⟨%d, %fo, -, Ho⟩, Hk⟩
  subst hfx; subst hfw; subst hfb
  sl_exec
  sl_step
  iapply Hk
  isplitl [Hx]
  · iexists fx; isplitr
    · ipureintro; rfl
    · iexact Hx
  isplitl [Hw]
  · iexists fw; isplitr
    · ipureintro; rfl
    · iexact Hw
  isplitl [Hb]
  · iexists fb; isplitr
    · ipureintro; rfl
    · iexact Hb
  iexists _; isplitr
  pick_goal 2
  · iexact Ho
  · ipureintro; exact View.read_writes_eq_canon _ _ _ (store_covers0 _)

/-! ## The pipeline's proof data -/

/-- The proof data of the layer's pipeline on core `c`: the arrays as found (`V`); after the body at point `t` the
    three inputs' buffers at their blocks and the result's at `out0_3` of those; the invariant of a pipeline whose
    body touches only its windows' buffers (`Pipeline.ΦA`); full shares; nothing owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- Its arrays are the entry contents. -/
theorem A_eq0 (c : Dev nD) (w : Fin cfg0.W) : (dat0 V c).A w = V c (Pipeline.arrRef spec0 w) := by
  dsimp only [dat0]

/-- What the body leaves in each window's buffer, one window at a time. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- So the body finds the block of features, the weights and the bias in its input buffers at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- The invariant and the tallies owed are the same before and after every point: the body reads neither. -/
theorem Φ_step0 (c : Dev nD) (t : Fin cfg0.N) : (dat0 V c).Φ t.succ = (dat0 V c).Φ t.castSucc := rfl
theorem owes_step0 (c : Dev nD) (t : Fin cfg0.N) :
    (dat0 V c).owesAt () t.succ = (dat0 V c).owesAt () t.castSucc := rfl

/-! ## The body obligation -/

/-- The body at grid point `t`, window by window: handed the invariant, what is owed, and its four current staging
    buffers holding what `Dat.before` says, it returns them holding what `dat0` says it leaves. The inputs hold their
    blocks (`before0_0`, `before0_1`, `before0_2`), so the kernel's triple applies; the invariant and the tallies
    pass by. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t))) := by
  simp only [before0_0, before0_1, before0_2]
  rw [Φ_step0, owes_step0, after0_0, after0_1, after0_2, after0_3]
  iintro ⟨HΦ, Howed, ⟨%d0, Hx⟩, ⟨%d1, Hw⟩, ⟨%d2, Hb⟩, ⟨%d3, Ho⟩⟩
  iapply (sound_kernel0 c Set.univ (grid0.coords t) _ _ _ _ _ _ _ _
    (iblk0 V c 0 t) (iblk0 V c 1 t) (iblk0 V c 2 t) _)
  isplitl [Hx]; · iexact Hx
  isplitl [Hw]; · iexact Hw
  isplitl [Hb]; · iexact Hb
  isplitl [Ho]; · iexists _; iexact Ho
  iintro ⟨Hx, Hw, Hb, Ho⟩
  isplitl [HΦ]; · iexact HΦ
  isplitl [Howed]; · iexact Howed
  isplitl [Hx]; · iexact Hx
  isplitl [Hw]; · iexact Hw
  isplitl [Hb]; · iexact Hb
  iexact Ho

/-- The library's body obligation for the layer, at every grid point. -/
theorem body_obligation0 (c : Dev nD) :
    BodyObligation (dat0 (F := F) V c) (defs₀ (F := F)) Variants.none () Set.univ := fun t => by
  rw [bigSep_W0, bigSep_W0]
  exact sound_body0 V c t

end Cert.Kernel.Hand
-- ==== Proof.KLin1.lean ====
import proofs.«169470_j5557687681111_1_alg».proof.Proof.Gen.Kernel.Launch
import proofs.«169470_j5557687681111_1_alg».proof.Proof.Gen.Kernel.Skeleton
import proofs.«169470_j5557687681111_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The first bias-free linear layer (pallas_call 1): activations [81920,256] times weights [256,256], by row blocks

The grid has forty points; point `t` multiplies rows `2048·t … 2048·t + 2047` of the bf16 activations by the whole
f32 weight matrix (rounded to bf16, accumulated in f32, rounded back to bf16) and writes the same rows of the result.
The activations' block moves with the point and is fetched at each; the weights' block is the whole matrix, fetched
once; the result's block is written back at each point. -/

/-- What window `w` of the layer holds for grid point `t`, read out of the arrays as the layer finds them (`V`):
    for the activations and the result the `t`-th block of 2048 rows, for the weights the whole matrix. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The input buffers when the body runs -/

/-- The activations' staging buffer holds the point's block of rows whenever the body runs, for any proof data over
    the entry arrays `V` whose body leaves that block where it found it. The array's block at a point is `iblk1`
    (`hblock`); the window is an input, never idle and not cut, so a fetch fills the whole buffer with the block, and
    where no fetch happens the block index has not moved since the last one (`Dat.before_in_eq_fetched`). -/
theorem before1_0_of {c : Dev nD} (dat : Dat τ (Elt F) Unit ℕ (Pipeline.UD sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  have hblock : ∀ t, dat.blockOf 0 t = iblk1 V c 0 t := fun t => by unfold Dat.blockOf iblk1; rw [hA]
  rw [dat.before_in_eq_fetched 0 rfl (fun _ => rfl) (fun _ _ _ => rfl) (fun t => by rw [hafter, hblock]) t d]
  exact hblock t

/-- The weights' staging buffer holds the whole weight matrix whenever the body runs: it is fetched at the first point
    only, its block index is the same at every point, and the body leaves it as found. -/
theorem before1_1_of {c : Dev nD} (dat : Dat τ (Elt F) Unit ℕ (Pipeline.UD sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  have hblock : ∀ t, dat.blockOf 1 t = iblk1 V c 1 t := fun t => by unfold Dat.blockOf iblk1; rw [hA]
  rw [dat.before_in_eq_fetched 1 rfl (fun _ => rfl) (fun _ _ _ => rfl) (fun t => by rw [hafter, hblock]) t d]
  exact hblock t

/-! ## What the body does to its buffers -/

/-- The body touches each staging buffer as a whole: all 2048 rows by 256 columns of an activation block, -/
abbrev rowsAll1 : Rect S2048x256 := Rect.unit (s := S2048x256) ![0, 0] S2048x256.size inb_S2048x256_S2048x256_0_0
/-- and all 256 by 256 entries of the weights. -/
abbrev weightsAll1 : Rect S256x256 := Rect.unit (s := S256x256) ![0, 0] S256x256.size inb_S256x256_S256x256_0_0

/-- The result block the body leaves from an activation block `h` and the weights `wt`: its one store writes the
    product `k1_pay1` of what it loaded over the whole buffer. -/
def out1_2 (h : Vec F S2048x256 .bf16) (wt : Vec F S256x256 .f32) : Vec F S2048x256 .bf16 :=
  View.canon [⟨rowsAll1, k1_pay1 (View.ld h rowsAll1) (View.ld wt weightsAll1)⟩]

/-- That one store is of the whole 2048 by 256 shape, so it covers the buffer. -/
theorem store_covers1 (p : Vec F S2048x256 .bf16) (y : S2048x256.Idx) :
    ∃ pc ∈ ([⟨rowsAll1, p⟩] : List (View.Piece (Elt F) S2048x256 .bf16)), y ∈ pc.1.set :=
  View.cover_of_wholeMem _ (View.Piece.wholeMem_here rfl) y

set_option maxHeartbeats 1000000 in
/-- The kernel body on whole staging buffers: given the activations' buffer reading `h`, the weights' reading `wt` and
    the result's holding anything, it returns with the two inputs as they were and the result's buffer reading
    `out1_2 h wt`. The printed function is its skeleton — two loads, a load of the result buffer whose value goes
    unused, one store —, which the executor runs; what the store's writes leave reads as their canonical contents
    because the store covers the buffer. -/
theorem sound_kernel1 (c : Dev nD) (E : Set ℕ) (i : grid1.Coords)
    (hbuf : Memref sig .tc .vmem S2048x256 .bf16) (hh : hbuf.IsWhole)
    (wbuf : Memref sig .tc .vmem S256x256 .f32) (hw : wbuf.IsWhole)
    (obuf : Memref sig .tc .vmem S2048x256 .bf16) (ho : obuf.IsWhole)
    (h : Vec F S2048x256 .bf16) (wt : Vec F S256x256 .f32) (K : PUnit → sProp 𝕄) :
    iprop(owns (c : Thread nD τ) hbuf fullShare h ∗ owns (c : Thread nD τ) wbuf fullShare wt
        ∗ (∃ d, owns (c : Thread nD τ) obuf fullShare d)
        ∗ (iprop(owns (c : Thread nD τ) hbuf fullShare h ∗ owns (c : Thread nD τ) wbuf fullShare wt
            ∗ owns (c : Thread nD τ) obuf fullShare (out1_2 h wt)) -∗ K ⟨⟩))
      ⊢ wp frame (wpE (defs₀ (F := F)) Variants.none c none) E (cc1_kernel i hbuf hh wbuf hw obuf ho) K := by
  simp only [cc1_kernel_eq_skeleton]; unfold cc1_kernel_skel
  unfold owns
  iintro ⟨⟨%fh, %hfh, Hh⟩, ⟨%fw, %hfw, Hw⟩, ⟨%d, %fo, -, Ho⟩, Hk⟩
  subst hfh; subst hfw
  sl_exec
  sl_step
  iapply Hk
  isplitl [Hh]
  · iexists fh; isplitr
    · ipureintro; rfl
    · iexact Hh
  isplitl [Hw]
  · iexists fw; isplitr
    · ipureintro; rfl
    · iexact Hw
  iexists _; isplitr
  pick_goal 2
  · iexact Ho
  · ipureintro; exact View.read_writes_eq_canon _ _ _ (store_covers1 _)

/-! ## The pipeline's proof data -/

/-- The proof data of the layer's pipeline on core `c`: the arrays as found (`V`); after the body at point `t` the
    two inputs' buffers at their blocks and the result's at `out1_2` of those; the invariant of a pipeline whose body
    touches only its windows' buffers (`Pipeline.ΦA`); full shares; nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- Its arrays are the entry contents. -/
theorem A_eq1 (c : Dev nD) (w : Fin cfg1.W) : (dat1 V c).A w = V c (Pipeline.arrRef spec1 w) := by
  dsimp only [dat1]

/-- What the body leaves in each window's buffer, one window at a time. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- So the body finds the activations' block and the weights in its input buffers at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The invariant and the tallies owed are the same before and after every point: the body reads neither. -/
theorem Φ_step1 (c : Dev nD) (t : Fin cfg1.N) : (dat1 V c).Φ t.succ = (dat1 V c).Φ t.castSucc := rfl
theorem owes_step1 (c : Dev nD) (t : Fin cfg1.N) :
    (dat1 V c).owesAt () t.succ = (dat1 V c).owesAt () t.castSucc := rfl

/-! ## The body obligation -/

/-- The body at grid point `t`, window by window: handed the invariant, what is owed, and its three current staging
    buffers holding what `Dat.before` says, it returns them holding what `dat1` says it leaves. The inputs hold their
    blocks (`before1_0`, `before1_1`), so the kernel's triple applies; the invariant and the tallies pass by. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  simp only [before1_0, before1_1]
  rw [Φ_step1, owes_step1, after1_0, after1_1, after1_2]
  iintro ⟨HΦ, Howed, ⟨%d0, Hh⟩, ⟨%d1, Hw⟩, ⟨%d2, Ho⟩⟩
  iapply (sound_kernel1 c Set.univ (grid1.coords t) _ _ _ _ _ _ (iblk1 V c 0 t) (iblk1 V c 1 t) _)
  isplitl [Hh]; · iexact Hh
  isplitl [Hw]; · iexact Hw
  isplitl [Ho]; · iexists _; iexact Ho
  iintro ⟨Hh, Hw, Ho⟩
  isplitl [HΦ]; · iexact HΦ
  isplitl [Howed]; · iexact Howed
  isplitl [Hh]; · iexact Hh
  isplitl [Hw]; · iexact Hw
  iexact Ho

/-- The library's body obligation for the layer, at every grid point. -/
theorem body_obligation1 (c : Dev nD) :
    BodyObligation (dat1 (F := F) V c) (defs₀ (F := F)) Variants.none () Set.univ := fun t => by
  rw [bigSep_W1, bigSep_W1]
  exact sound_body1 V c t

end Cert.Kernel.Hand
-- ==== Proof.KAgg2.lean ====
import proofs.«169470_j5557687681111_1_alg».proof.Proof.Gen.Kernel.Launch
import proofs.«169470_j5557687681111_1_alg».proof.Proof.Gen.Kernel.Skeleton
import proofs.«169470_j5557687681111_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 2 of @main: the aggregation `out = relu(A · Hc + bias)`, blocked over (i, k) on an 8 × 8 grid

The body keeps an f32 accumulator in a scratch buffer from grid point to grid point: zeroed at k = 0, added into at every
k, and read out into the output block (bias added, clamped at zero, rounded to bf16) at k = 7. -/

/-! ## Whole-buffer accesses

Every load and store of the body goes through the rectangle of the buffer's own sizes at offsets `![0, 0]`. -/

/-- The offsets `![0, 0]` are the zero offsets. -/
theorem offs00 : (![0, 0] : Fin 2 → ℕ) = fun _ => 0 := by
  funext a; fin_cases a <;> rfl

/-- A load through the whole-buffer rectangle of a whole memref held at the contents that read `X` reads `X`. -/
theorem readAt_whole_unread {κ : Kind} {sp : Space} {S : Shape} {e : EltTy} {m : Memref sig κ sp S e} (hm : m.IsWhole)
    {off : Fin S.rank → ℕ} (h0 : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h0]

/-- After a store through the whole-buffer rectangle, made last, the buffer reads as that store's payload. -/
theorem read_writes_whole {κ : Kind} {sp : Space} {S : Shape} {e : EltTy} (v : View sig κ sp S e) (f : v.ty.Contents (Elt F))
    {off : Fin S.rank → ℕ} (h0 : off = fun _ => 0) (inb : ∀ a, off a + S.size a ≤ S.size a) (p : S.Idx → Elt F e)
    (L : List (View.Piece (Elt F) S e)) :
    v.read (Elt F) (v.writes (Elt F) f ((⟨Rect.unit off S.size inb, p⟩ : View.Piece (Elt F) S e) :: L)) = p := by
  rw [View.read_writes_eq_canon v f _ (fun y => ⟨_, List.mem_cons_self, View.mem_set_unit_zero h0 inb y⟩),
    View.canon_cons_unit_zero h0]

/-! ## The body's two conditions -/

/-- The condition of the body's first `scf.if` (zero the accumulator), from the grid coordinates. -/
abbrev isFirstK2 (i : grid2.Coords) : Prop :=
  (Scalar.cmpi .ne (Scalar.extui (Scalar.cmpi .eq (BitVec.ofNat 32 (i 1).val) 0#32)) 0#32) = 1#1
/-- The condition of its second `scf.if` (store the output block). -/
abbrev isLastK2 (i : grid2.Coords) : Prop := k2_cond2 i = 1#1

/-- The first holds at the points with k = 0, -/
theorem isFirstK2_iff : ∀ t : Fin cfg2.N, isFirstK2 (grid2.coords t) ↔ t.val % 8 = 0 :=
  (by decide +kernel : ∀ t : Fin grid2.N, isFirstK2 (grid2.coords t) ↔ t.val % 8 = 0)
/-- the second at the points with k = 7. -/
theorem isLastK2_iff : ∀ t : Fin cfg2.N, isLastK2 (grid2.coords t) ↔ t.val % 8 = 7 :=
  (by decide +kernel : ∀ t : Fin grid2.N, isLastK2 (grid2.coords t) ↔ t.val % 8 = 7)

/-! ## The body's triple, one per case

On whole memrefs: `a`, `h`, `b` are what the three input buffers read, `s` what the accumulator reads on entry. -/

set_option maxHeartbeats 1000000 in
/-- k = 0: the accumulator, whatever it held, ends at `zeros + a · h`; the output buffer is handed back untouched. -/
theorem cc2_first (c : Dev nD) (E : Set ℕ) (i : grid2.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : isFirstK2 i) (hc1 : ¬isLastK2 i)
    (a : Vec F S1280x1280 .bf16) (h : Vec F S1280x2048 .bf16) (b : Vec F S1x2048 .f32) (o : Vec F S1280x2048 .bf16)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ (∃ s, owns (c : Thread nD τ) arg6 fullShare s)
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k2_pay2 (k2_pay1 (F := F)) a h)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f2, %hf2, H2⟩, ⟨%f3, %hf3, H3⟩, ⟨%f4, %hf4, H4⟩, ⟨%f5, %hf5, H5⟩, ⟨%s, %f6, -, H6⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  sl_unfold_run_names
  rw [read_writes_whole _ _ offs00, View.readCov_unit_zero _ offs00, readAt_whole_unread harg2 offs00, readAt_whole_unread harg3 offs00]

set_option maxHeartbeats 1000000 in
/-- 0 < k < 7: the accumulator goes from `s` to `s + a · h`; the output buffer is handed back untouched. -/
theorem cc2_mid (c : Dev nD) (E : Set ℕ) (i : grid2.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK2 i) (hc1 : ¬isLastK2 i)
    (a : Vec F S1280x1280 .bf16) (h : Vec F S1280x2048 .bf16) (b : Vec F S1x2048 .f32) (o : Vec F S1280x2048 .bf16) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k2_pay2 s a h)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [read_writes_whole _ _ offs00, readAt_whole_unread harg6 offs00, readAt_whole_unread harg2 offs00, readAt_whole_unread harg3 offs00]

set_option maxHeartbeats 1000000 in
/-- k = 7: the accumulator goes from `s` to `s + a · h`, and the output buffer, whatever it held, ends at
    `max(s + a · h + b, 0)` rounded to bf16. -/
theorem cc2_last (c : Dev nD) (E : Set ℕ) (i : grid2.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK2 i) (hc1 : isLastK2 i)
    (a : Vec F S1280x1280 .bf16) (h : Vec F S1280x2048 .bf16) (b : Vec F S1x2048 .f32) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ (∃ o, owns (c : Thread nD τ) arg5 fullShare o) ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare (k2_pay3 (k2_pay2 s a h) b) ∗ owns (c : Thread nD τ) arg6 fullShare (k2_pay2 s a h)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f2, %hf2, H2⟩, ⟨%f3, %hf3, H3⟩, ⟨%f4, %hf4, H4⟩, ⟨%o, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [read_writes_whole _ _ offs00, View.readCov_unit_zero _ offs00, readAt_whole_unread harg6 offs00, readAt_whole_unread harg2 offs00,
      readAt_whole_unread harg3 offs00, readAt_whole_unread harg4 offs00]
  iexists _; isplitr
  swap; · iexact H6
  ipureintro
  sl_unfold_run_names
  rw [read_writes_whole _ _ offs00, readAt_whole_unread harg6 offs00, readAt_whole_unread harg2 offs00, readAt_whole_unread harg3 offs00]

section Region

-- the TensorCore's buffer contents when the region is entered: everything below is stated at this parameter
variable (V : (c : Dev nD) → (b : Ref sig .tc) → Buf (Elt F) ((c : Thread nD τ).loc b))

/-! ## The windows' blocks -/

/-- Window `w`'s block at point `t`, read off the window's array as the region finds it. Window 0 is the block (i, k) of
    `A`, window 1 the block (k, 0) of `Hc`, window 2 the bias row, window 3 the block (i, 0) of the output. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulator, point by point -/

/-- What the accumulator holds AFTER the body at point `n`: at a point with k = 0 the product of the point's blocks added
    to zeros, at any other the product added to what the point before left. -/
def accAfter2 (c : Dev nD) : (n : ℕ) → n < cfg2.N → Vec F S1280x2048 .f32
  | 0, hn => k2_pay2 (k2_pay1 (F := F)) (iblk2 V c 0 ⟨0, hn⟩) (iblk2 V c 1 ⟨0, hn⟩)
  | n + 1, hn =>
    if (n + 1) % 8 = 0 then k2_pay2 (k2_pay1 (F := F)) (iblk2 V c 0 ⟨n + 1, hn⟩) (iblk2 V c 1 ⟨n + 1, hn⟩)
    else k2_pay2 (accAfter2 c n (Nat.lt_of_succ_lt hn)) (iblk2 V c 0 ⟨n + 1, hn⟩) (iblk2 V c 1 ⟨n + 1, hn⟩)

/-- At a point with k = 0 the accumulator restarts from zeros. -/
theorem accAfter2_first (c : Dev nD) (t : Fin cfg2.N) (h0 : t.val % 8 = 0) :
    accAfter2 V c t.val t.isLt = k2_pay2 (k2_pay1 (F := F)) (iblk2 V c 0 t) (iblk2 V c 1 t) := by
  obtain ⟨n, hn⟩ := t
  cases n with
  | zero => rfl
  | succ n => exact if_pos h0

/-- At any other point it adds to what the point before left. -/
theorem accAfter2_next (c : Dev nD) (t : Fin cfg2.N) (h0 : ¬t.val % 8 = 0) :
    accAfter2 V c t.val t.isLt
      = k2_pay2 (accAfter2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact if_neg h0

/-- What the scratch holds BEFORE point `t`: what the point before left (before the first point the scratch holds
    anything — the zeros here are a placeholder the invariant does not use). -/
def acc2 (c : Dev nD) (t : Fin (cfg2.N + 1)) : Vec F S1280x2048 .f32 :=
  match t with
  | ⟨0, _⟩ => k2_pay1 (F := F)
  | ⟨n + 1, h⟩ => accAfter2 V c n (Nat.lt_of_succ_lt_succ h)

/-- What the output's staging buffer holds after the body at a point with k = 7: the accumulator, bias added, clamped at
    zero, rounded. (At the other points the body does not touch that buffer and the pipeline does not write it back; the
    proof data's entry there is not consulted.) -/
def out2_3 (c : Dev nD) (t : Fin cfg2.N) : Vec F S1280x2048 .bf16 :=
  k2_pay3 (accAfter2 V c t.val t.isLt) (iblk2 V c 2 t)

/-! ## The row fold: the value the region writes back -/

/-- The accumulator of the row block whose first point is `n0`, after its column blocks 0 … k: a left fold of
    `k2_pay2` from the zeros `k2_pay1` over the blocks at the points `n0`, …, `n0 + k`. -/
def rowAcc2 (c : Dev nD) (n0 : ℕ) : (k : ℕ) → n0 + k < cfg2.N → Vec F S1280x2048 .f32
  | 0, h => k2_pay2 (k2_pay1 (F := F)) (iblk2 V c 0 ⟨n0, h⟩) (iblk2 V c 1 ⟨n0, h⟩)
  | k + 1, h => k2_pay2 (rowAcc2 c n0 k (Nat.lt_of_succ_lt h)) (iblk2 V c 0 ⟨n0 + (k + 1), h⟩) (iblk2 V c 1 ⟨n0 + (k + 1), h⟩)

/-- Within a row block (first point `n0` ≡ 0 mod 8, k < 8) the point-by-point accumulator is the row fold. -/
theorem accAfter2_eq_rowAcc2 (c : Dev nD) (n0 : ℕ) (h0 : n0 % 8 = 0) :
    ∀ (k : ℕ) (_ : k < 8) (h : n0 + k < cfg2.N), accAfter2 V c (n0 + k) h = rowAcc2 V c n0 k h
  | 0, _, h => accAfter2_first V c ⟨n0, h⟩ h0
  | k + 1, hk, h => by
    have hne : ¬(n0 + (k + 1)) % 8 = 0 := by omega
    have e := accAfter2_next V c ⟨n0 + (k + 1), h⟩ hne
    have ih := accAfter2_eq_rowAcc2 c n0 h0 k (by omega) (Nat.lt_of_succ_lt h)
    simp only [Nat.add_succ_sub_one] at e
    rw [e, ih]; rfl

/-- THE VALUE written back for a row block: at a point `t` with k = 7 the output buffer holds `k2_pay3` of the fold of
    `k2_pay2` from `k2_pay1` over the eight points `8 · (t / 8) + k`, k = 0 … 7, and of the bias block. -/
theorem out2_3_last (c : Dev nD) (t : Fin cfg2.N) (h7 : t.val % 8 = 7) :
    out2_3 V c t = k2_pay3 (rowAcc2 V c (8 * (t.val / 8)) 7 (by have := t.isLt; omega)) (iblk2 V c 2 t) := by
  unfold out2_3
  have e : t.val = 8 * (t.val / 8) + 7 := by omega
  have h := accAfter2_eq_rowAcc2 V c (8 * (t.val / 8)) (by omega) 7 (by omega) (by have := t.isLt; omega)
  congr 1
  rw [← h]; congr 1

/-! ## The invariant: the scratch carried from point to point -/

/-- The accumulator scratch as a memref: a whole scoped buffer of the kernel's own, passed beside the windows. -/
abbrev scM2 : Memref sig .tc .vmem S1280x2048 .f32 := Memref.whole cc2_scratch0

/-- Every scoped buffer of the core that is neither a staging buffer of this call nor its scratch, at some contents:
    carried through the region unopened. -/
abbrev others2 (c : Dev nD) : sProp 𝕄 :=
  Pipeline.scopedRestBut (Ix := Unit) (Name := ℕ) (U := Pipeline.UD sig nD τ) (Lvl := ℕ) (Val := Elt F) spec2 c [cc2_scratch0]

/-- The class invariant with the scratch split out and owned as a memref at some contents. -/
theorem PhiA2_eq (c : Dev nD) :
    (Pipeline.ΦA spec2 c : sProp 𝕄)
      = iprop(iprop((∃ d, owns (c : Thread nD τ) scM2 fullShare d) ∗ others2 c) ∗ (∃ r, prngReg c r)) := by
  unfold Pipeline.ΦA; rw [scopedRest2_split]; simp only [scM2, owns_whole]; rfl

/-- The invariant before position `n`: before the first point the class's (the scratch at anything); afterwards the
    same with the scratch at what the point before left in it. -/
def Phi2 (c : Dev nD) : (n : ℕ) → n ≤ cfg2.N → sProp 𝕄
  | 0, _ => Pipeline.ΦA spec2 c
  | n + 1, hn => iprop(iprop(owns (c : Thread nD τ) scM2 fullShare (accAfter2 V c n hn) ∗ others2 c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (accAfter2 V c n hn) ∗ others2 c) ∗ (∃ r, prngReg c r)) := rfl

theorem Phi2_pos (c : Dev nD) (n : ℕ) (h : n ≤ cfg2.N) (hz : n ≠ 0) :
    Phi2 V c n h = iprop(iprop(owns (c : Thread nD τ) scM2 fullShare (accAfter2 V c (n - 1) (by omega)) ∗ others2 c) ∗ (∃ r, prngReg c r)) := by
  cases n with
  | zero => exact absurd rfl hz
  | succ n => rfl

/-! ## The pipeline's proof data -/

/-- The proof data of the region's pipeline on core `c`: the arrays as the region finds them; after the body each input's
    buffer at its block and the output's at `out2_3`; the invariant `Phi2`; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 V c t := by dsimp only [dat2]

/-- The invariant at a point's start, restated at the point's position. -/
theorem Phi2_castSucc (c : Dev nD) (t : Fin cfg2.N) :
    (dat2 V c).Φ t.castSucc = Phi2 V c t.val (Nat.le_of_lt t.isLt) := by
  dsimp only [dat2]; simp only [Fin.coe_castSucc]

/-! ## What the body finds in the inputs' buffers

Each input's current staging buffer holds the window's block at every point, whether the pipeline fetched it there or
not: the body leaves the inputs in place, and an input not fetched at a point has the block index of the point before
(the bias row, fetched once). -/

theorem before2_0 (c : Dev nD) (t : Fin cfg2.N) (d) : (dat2 V c).before 0 t d = iblk2 V c 0 t := by
  have hkeep : ∀ t, (cfg2.win 0).cut (cfg2.grid.coords t) ((dat2 V c).after 0 t) = (dat2 V c).blockOf 0 t := fun t => by
    rw [after2_0]; unfold Dat.blockOf iblk2; rw [A_eq2]; try rfl
  rw [(dat2 V c).before_in_eq_fetched 0 rfl (fun _ => rfl) (fun _ _ _ => rfl) hkeep t d]
  unfold Dat.fetched Dat.blockOf iblk2; rw [A_eq2]; try rfl

theorem before2_1 (c : Dev nD) (t : Fin cfg2.N) (d) : (dat2 V c).before 1 t d = iblk2 V c 1 t := by
  have hkeep : ∀ t, (cfg2.win 1).cut (cfg2.grid.coords t) ((dat2 V c).after 1 t) = (dat2 V c).blockOf 1 t := fun t => by
    rw [after2_1]; unfold Dat.blockOf iblk2; rw [A_eq2]; try rfl
  rw [(dat2 V c).before_in_eq_fetched 1 rfl (fun _ => rfl) (fun _ _ _ => rfl) hkeep t d]
  unfold Dat.fetched Dat.blockOf iblk2; rw [A_eq2]; try rfl

theorem before2_2 (c : Dev nD) (t : Fin cfg2.N) (d) : (dat2 V c).before 2 t d = iblk2 V c 2 t := by
  have hkeep : ∀ t, (cfg2.win 2).cut (cfg2.grid.coords t) ((dat2 V c).after 2 t) = (dat2 V c).blockOf 2 t := fun t => by
    rw [after2_2]; unfold Dat.blockOf iblk2; rw [A_eq2]; try rfl
  rw [(dat2 V c).before_in_eq_fetched 2 rfl (fun _ => rfl) (fun _ _ _ => rfl) hkeep t d]
  unfold Dat.fetched Dat.blockOf iblk2; rw [A_eq2]; try rfl

/-! ## Where the output window is idle -/

/-- Away from k = 7 the printed configuration calls the output window idle (the body does not store into it), -/
theorem idle2_3 : ∀ t : Fin cfg2.N, ¬t.val % 8 = 7 → cfg2.idle 3 (cfg2.grid.coords t) = true := by decide +kernel
/-- and the pipeline does not write its block back; -/
theorem noFlush2_3 (t : Fin cfg2.N) (h : ¬t.val % 8 = 7) : (cfg2.win 3).flush t = false :=
  Bool.eq_false_iff.mpr fun hf => h ((flush2_3 t).mp hf)
/-- at k = 7 it is live. -/
theorem live2_3 : ∀ t : Fin cfg2.N, t.val % 8 = 7 → cfg2.idle 3 (cfg2.grid.coords t) = false := by decide +kernel

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

/-- An input window's buffer is left at its block. -/
theorem leaves2_0 (c : Dev nD) (t : Fin cfg2.N) :
    (dat2 V c).leavesExact 0 t = owns (c : Thread nD τ) (st2_0 t) fullShare (iblk2 V c 0 t) := by
  rw [← after2_0]
theorem leaves2_1 (c : Dev nD) (t : Fin cfg2.N) :
    (dat2 V c).leavesExact 1 t = owns (c : Thread nD τ) (st2_1 t) fullShare (iblk2 V c 1 t) := by
  rw [← after2_1]
theorem leaves2_2 (c : Dev nD) (t : Fin cfg2.N) :
    (dat2 V c).leavesExact 2 t = owns (c : Thread nD τ) (st2_2 t) fullShare (iblk2 V c 2 t) := by
  rw [← after2_2]
/-- The output window's, away from k = 7, as the body found it; at k = 7 at `out2_3`. -/
theorem leaves2_3_idle (c : Dev nD) (t : Fin cfg2.N) (h : ¬t.val % 8 = 7) :
    (dat2 V c).leavesExact 3 t = iprop(∃ d, owns (c : Thread nD τ) (st2_3 t) fullShare ((dat2 V c).before 3 t d)) :=
  Dat.leavesExact_idle (dat2 V c) 3 t (idle2_3 t h) (noFlush2_3 t h)
theorem leaves2_3_live (c : Dev nD) (t : Fin cfg2.N) (h : t.val % 8 = 7) :
    (dat2 V c).leavesExact 3 t = owns (c : Thread nD τ) (st2_3 t) fullShare (out2_3 V c t) := by
  unfold Dat.leavesExact; rw [live2_3 t h, after2_3]

set_option maxHeartbeats 4000000 in
/-- The body at any point. The inputs' memrefs hold their blocks (`before2_W`); the position of the point in its row
    (k = 0, 0 < k < 7, k = 7) says which of the three triples applies; the invariant hands the body the scratch at what
    the point before left (at anything before the first point, and at a k = 0 point the triple asks no more) and takes
    it back at this point's contents; the output's buffer is handed back as found away from k = 7 and at `out2_3`
    there; the other scoped buffers, the generator register and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2, Phi2_castSucc]
  have hN : t.val < 64 := lt_of_lt_of_eq t.isLt (show cfg2.N = 64 from N_2)
  by_cases h0 : t.val % 8 = 0
  · have h7 : ¬t.val % 8 = 7 := by omega
    rw [leaves2_3_idle V c t h7, accAfter2_first V c t h0]
    by_cases hz : t.val = 0
    · rw [Phi2_zero V c _ _ hz, PhiA2_eq]
      iintro ⟨⟨⟨HS, HR⟩, Hg⟩, Ho, ⟨%d0, H0⟩, ⟨%d1, H1⟩, ⟨%d2, H2⟩, ⟨%d3, H3⟩⟩
      iapply (cc2_first c Set.univ (grid2.coords t) _ _ _ _ _ _ _ _ _ _ ((isFirstK2_iff t).mpr h0) (fun h => h7 ((isLastK2_iff t).mp h))
        (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi2_pos V c _ _ hz]
      iintro ⟨⟨⟨HS, HR⟩, Hg⟩, Ho, ⟨%d0, H0⟩, ⟨%d1, H1⟩, ⟨%d2, H2⟩, ⟨%d3, H3⟩⟩
      iapply (cc2_first c Set.univ (grid2.coords t) _ _ _ _ _ _ _ _ _ _ ((isFirstK2_iff t).mpr h0) (fun h => h7 ((isLastK2_iff t).mp h))
        (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [Phi2_pos V c _ _ hz, accAfter2_next V c t h0]
    by_cases h7 : t.val % 8 = 7
    · rw [leaves2_3_live V c t h7]; unfold out2_3; rw [accAfter2_next V c t h0]
      iintro ⟨⟨⟨HS, HR⟩, Hg⟩, Ho, ⟨%d0, H0⟩, ⟨%d1, H1⟩, ⟨%d2, H2⟩, ⟨%d3, H3⟩⟩
      iapply (cc2_last c Set.univ (grid2.coords t) _ _ _ _ _ _ _ _ _ _ (fun h => h0 ((isFirstK2_iff t).mp h)) ((isLastK2_iff t).mpr h7)
        (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [leaves2_3_idle V c t h7]
      iintro ⟨⟨⟨HS, HR⟩, Hg⟩, Ho, ⟨%d0, H0⟩, ⟨%d1, H1⟩, ⟨%d2, H2⟩, ⟨%d3, H3⟩⟩
      iapply (cc2_mid c Set.univ (grid2.coords t) _ _ _ _ _ _ _ _ _ _ (fun h => h0 ((isFirstK2_iff t).mp h)) (fun h => h7 ((isLastK2_iff t).mp h))
        (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Around the invariant: what the region hands it and takes back -/

/-- The invariant before the first point, from the generator register, anything `T` handed beside it (the prefetched
    tables: this pipeline has none, and the invariant keeps nothing of them) and the scoped buffers no window stages. -/
theorem hin2 (c : Dev nD) (T : sProp 𝕄) :
    iprop((∃ r, prngReg c r) ∗ T
        ∗ Pipeline.scopedRest (Ix := Unit) (Name := ℕ) (U := Pipeline.UD sig nD τ) (Lvl := ℕ) (Val := Elt F) spec2 c)
      ⊢ (dat2 V c).Φ 0 := by
  rw [show (dat2 V c).Φ 0 = Phi2 V c 0 (Nat.zero_le _) from rfl, Phi2_zero V c 0 _ rfl]; unfold Pipeline.ΦA
  iintro ⟨Hg, -, Hr⟩
  isplitl [Hr]; · iexact Hr
  iexact Hg

/-- After any point but the first the invariant gives the class's back: the scratch's named contents are forgotten. -/
theorem Phi2_forget (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨HS, HR⟩, Hg⟩
  isplitl [HS HR]
  · isplitl [HS]; · iexists _; iexact HS
    iexact HR
  iexact Hg

/-- The invariant after the last point gives back the generator register, the kernel's own semaphores (it has none) and
    the scoped buffers no window stages. -/
theorem hout2 (c : Dev nD) :
    (dat2 V c).Φ (Fin.last cfg2.N)
      ⊢ iprop((∃ r, prngReg c r)
          ∗ Pipeline.ownSems0 (Ix := Unit) (Name := ℕ) (U := Pipeline.UD sig nD τ) (Lvl := ℕ) (Val := Elt F) (τ := τ) (fun k : PEmpty => k.elim) c
          ∗ Pipeline.scopedRest (Ix := Unit) (Name := ℕ) (U := Pipeline.UD sig nD τ) (Lvl := ℕ) (Val := Elt F) spec2 c) := by
  rw [Pipeline.ownSems0_none]
  refine (Phi2_forget V c _ (by rw [Fin.val_last]; have : cfg2.N = 64 := N_2; omega)).trans ?_
  unfold Pipeline.ΦA
  iintro ⟨Hr, Hg⟩
  isplitl [Hg]; · iexact Hg
  isplitr; · iempintro
  iexact Hr

end Region

end Cert.Kernel.Hand

end
-- ==== Proof.KLin3.lean ====
import proofs.«169470_j5557687681111_1_alg».proof.Proof.Gen.Kernel.Launch
import proofs.«169470_j5557687681111_1_alg».proof.Proof.Gen.Kernel.Skeleton
import proofs.«169470_j5557687681111_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The second bias-free linear layer (pallas_call 3): activations [81920,256] times weights [256,256], by row blocks

The grid has forty points; point `t` multiplies rows `2048·t … 2048·t + 2047` of the bf16 activations by the whole
f32 weight matrix (rounded to bf16, accumulated in f32, rounded back to bf16) and writes the same rows of the result.
The activations' block moves with the point and is fetched at each; the weights' block is the whole matrix, fetched
once; the result's block is written back at each point. -/

/-- What window `w` of the layer holds for grid point `t`, read out of the arrays as the layer finds them (`V`):
    for the activations and the result the `t`-th block of 2048 rows, for the weights the whole matrix. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-! ## The input buffers when the body runs -/

/-- The activations' staging buffer holds the point's block of rows whenever the body runs, for any proof data over
    the entry arrays `V` whose body leaves that block where it found it. The array's block at a point is `iblk3`
    (`hblock`); the window is an input, never idle and not cut, so a fetch fills the whole buffer with the block, and
    where no fetch happens the block index has not moved since the last one (`Dat.before_in_eq_fetched`). -/
theorem before3_0_of {c : Dev nD} (dat : Dat τ (Elt F) Unit ℕ (Pipeline.UD sig nD τ) ℕ cfg3 c)
    (hA : dat.A 0 = V c (Pipeline.arrRef spec3 0)) (hafter : ∀ t, dat.after 0 t = iblk3 V c 0 t)
    (t : Fin cfg3.N) (d) : dat.before 0 t d = iblk3 V c 0 t := by
  have hblock : ∀ t, dat.blockOf 0 t = iblk3 V c 0 t := fun t => by unfold Dat.blockOf iblk3; rw [hA]
  rw [dat.before_in_eq_fetched 0 rfl (fun _ => rfl) (fun _ _ _ => rfl) (fun t => by rw [hafter, hblock]) t d]
  exact hblock t

/-- The weights' staging buffer holds the whole weight matrix whenever the body runs: it is fetched at the first point
    only, its block index is the same at every point, and the body leaves it as found. -/
theorem before3_1_of {c : Dev nD} (dat : Dat τ (Elt F) Unit ℕ (Pipeline.UD sig nD τ) ℕ cfg3 c)
    (hA : dat.A 1 = V c (Pipeline.arrRef spec3 1)) (hafter : ∀ t, dat.after 1 t = iblk3 V c 1 t)
    (t : Fin cfg3.N) (d) : dat.before 1 t d = iblk3 V c 1 t := by
  have hblock : ∀ t, dat.blockOf 1 t = iblk3 V c 1 t := fun t => by unfold Dat.blockOf iblk3; rw [hA]
  rw [dat.before_in_eq_fetched 1 rfl (fun _ => rfl) (fun _ _ _ => rfl) (fun t => by rw [hafter, hblock]) t d]
  exact hblock t

/-! ## What the body does to its buffers -/

/-- The body touches each staging buffer as a whole: all 2048 rows by 256 columns of an activation block, -/
abbrev rowsAll3 : Rect S2048x256 := Rect.unit (s := S2048x256) ![0, 0] S2048x256.size inb_S2048x256_S2048x256_0_0
/-- and all 256 by 256 entries of the weights. -/
abbrev weightsAll3 : Rect S256x256 := Rect.unit (s := S256x256) ![0, 0] S256x256.size inb_S256x256_S256x256_0_0

/-- The result block the body leaves from an activation block `h` and the weights `wt`: its one store writes the
    product `k3_pay1` of what it loaded over the whole buffer. -/
def out3_2 (h : Vec F S2048x256 .bf16) (wt : Vec F S256x256 .f32) : Vec F S2048x256 .bf16 :=
  View.canon [⟨rowsAll3, k3_pay1 (View.ld h rowsAll3) (View.ld wt weightsAll3)⟩]

/-- That one store is of the whole 2048 by 256 shape, so it covers the buffer. -/
theorem store_covers3 (p : Vec F S2048x256 .bf16) (y : S2048x256.Idx) :
    ∃ pc ∈ ([⟨rowsAll3, p⟩] : List (View.Piece (Elt F) S2048x256 .bf16)), y ∈ pc.1.set :=
  View.cover_of_wholeMem _ (View.Piece.wholeMem_here rfl) y

set_option maxHeartbeats 1000000 in
/-- The kernel body on whole staging buffers: given the activations' buffer reading `h`, the weights' reading `wt` and
    the result's holding anything, it returns with the two inputs as they were and the result's buffer reading
    `out3_2 h wt`. The printed function is its skeleton — two loads, a load of the result buffer whose value goes
    unused, one store —, which the executor runs; what the store's writes leave reads as their canonical contents
    because the store covers the buffer. -/
theorem sound_kernel3 (c : Dev nD) (E : Set ℕ) (i : grid3.Coords)
    (hbuf : Memref sig .tc .vmem S2048x256 .bf16) (hh : hbuf.IsWhole)
    (wbuf : Memref sig .tc .vmem S256x256 .f32) (hw : wbuf.IsWhole)
    (obuf : Memref sig .tc .vmem S2048x256 .bf16) (ho : obuf.IsWhole)
    (h : Vec F S2048x256 .bf16) (wt : Vec F S256x256 .f32) (K : PUnit → sProp 𝕄) :
    iprop(owns (c : Thread nD τ) hbuf fullShare h ∗ owns (c : Thread nD τ) wbuf fullShare wt
        ∗ (∃ d, owns (c : Thread nD τ) obuf fullShare d)
        ∗ (iprop(owns (c : Thread nD τ) hbuf fullShare h ∗ owns (c : Thread nD τ) wbuf fullShare wt
            ∗ owns (c : Thread nD τ) obuf fullShare (out3_2 h wt)) -∗ K ⟨⟩))
      ⊢ wp frame (wpE (defs₀ (F := F)) Variants.none c none) E (cc3_kernel i hbuf hh wbuf hw obuf ho) K := by
  simp only [cc3_kernel_eq_skeleton]; unfold cc3_kernel_skel
  unfold owns
  iintro ⟨⟨%fh, %hfh, Hh⟩, ⟨%fw, %hfw, Hw⟩, ⟨%d, %fo, -, Ho⟩, Hk⟩
  subst hfh; subst hfw
  sl_exec
  sl_step
  iapply Hk
  isplitl [Hh]
  · iexists fh; isplitr
    · ipureintro; rfl
    · iexact Hh
  isplitl [Hw]
  · iexists fw; isplitr
    · ipureintro; rfl
    · iexact Hw
  iexists _; isplitr
  pick_goal 2
  · iexact Ho
  · ipureintro; exact View.read_writes_eq_canon _ _ _ (store_covers3 _)

/-! ## The pipeline's proof data -/

/-- The proof data of the layer's pipeline on core `c`: the arrays as found (`V`); after the body at point `t` the
    two inputs' buffers at their blocks and the result's at `out3_2` of those; the invariant of a pipeline whose body
    touches only its windows' buffers (`Pipeline.ΦA`); full shares; nothing owed. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- Its arrays are the entry contents. -/
theorem A_eq3 (c : Dev nD) (w : Fin cfg3.W) : (dat3 V c).A w = V c (Pipeline.arrRef spec3 w) := by
  dsimp only [dat3]

/-- What the body leaves in each window's buffer, one window at a time. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

/-- So the body finds the activations' block and the weights in its input buffers at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- The invariant and the tallies owed are the same before and after every point: the body reads neither. -/
theorem Φ_step3 (c : Dev nD) (t : Fin cfg3.N) : (dat3 V c).Φ t.succ = (dat3 V c).Φ t.castSucc := rfl
theorem owes_step3 (c : Dev nD) (t : Fin cfg3.N) :
    (dat3 V c).owesAt () t.succ = (dat3 V c).owesAt () t.castSucc := rfl

/-! ## The body obligation -/

/-- The body at grid point `t`, window by window: handed the invariant, what is owed, and its three current staging
    buffers holding what `Dat.before` says, it returns them holding what `dat3` says it leaves. The inputs hold their
    blocks (`before3_0`, `before3_1`), so the kernel's triple applies; the invariant and the tallies pass by. -/
theorem sound_body3 (c : Dev nD) (t : Fin cfg3.N) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d)))
      ⊢ wp frame (wpE (defs₀ (F := F)) Variants.none c none) Set.univ (bodyAt3 t) (fun _ =>
          iprop((dat3 V c).Φ t.succ ∗ (dat3 V c).owesAt () t.succ
            ∗ owns (c : Thread nD τ) (st3_0 t) fullShare ((dat3 V c).after 0 t)
            ∗ owns (c : Thread nD τ) (st3_1 t) fullShare ((dat3 V c).after 1 t)
            ∗ owns (c : Thread nD τ) (st3_2 t) fullShare ((dat3 V c).after 2 t))) := by
  simp only [before3_0, before3_1]
  rw [Φ_step3, owes_step3, after3_0, after3_1, after3_2]
  iintro ⟨HΦ, Howed, ⟨%d0, Hh⟩, ⟨%d1, Hw⟩, ⟨%d2, Ho⟩⟩
  iapply (sound_kernel3 c Set.univ (grid3.coords t) _ _ _ _ _ _ (iblk3 V c 0 t) (iblk3 V c 1 t) _)
  isplitl [Hh]; · iexact Hh
  isplitl [Hw]; · iexact Hw
  isplitl [Ho]; · iexists _; iexact Ho
  iintro ⟨Hh, Hw, Ho⟩
  isplitl [HΦ]; · iexact HΦ
  isplitl [Howed]; · iexact Howed
  isplitl [Hh]; · iexact Hh
  isplitl [Hw]; · iexact Hw
  iexact Ho

/-- The library's body obligation for the layer, at every grid point. -/
theorem body_obligation3 (c : Dev nD) :
    BodyObligation (dat3 (F := F) V c) (defs₀ (F := F)) Variants.none () Set.univ := fun t => by
  rw [bigSep_W3, bigSep_W3]
  exact sound_body3 V c t

end Cert.Kernel.Hand
-- ==== Proof.KAgg4.lean ====
import proofs.«169470_j5557687681111_1_alg».proof.Proof.Gen.Kernel.Launch
import proofs.«169470_j5557687681111_1_alg».proof.Proof.Gen.Kernel.Skeleton
import proofs.«169470_j5557687681111_1_alg».proof.Proof.Gen.Kernel.Points
import proofs.«169470_j5557687681111_1_alg».proof.Proof.KAgg2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 4 of @main: the aggregation `out = relu(A · Hc + bias)`, blocked over (i, k) on an 8 × 8 grid

The same kernel as region 2's on this layer's operands: an f32 accumulator kept in a scratch buffer from grid point to
grid point, zeroed at k = 0, added into at every k, read out into the output block at k = 7. The whole-buffer access
lemmas are region 2's. -/

/-! ## The body's two conditions -/

/-- The condition of the body's first `scf.if` (zero the accumulator), from the grid coordinates. -/
abbrev isFirstK4 (i : grid4.Coords) : Prop :=
  (Scalar.cmpi .ne (Scalar.extui (Scalar.cmpi .eq (BitVec.ofNat 32 (i 1).val) 0#32)) 0#32) = 1#1
/-- The condition of its second `scf.if` (store the output block). -/
abbrev isLastK4 (i : grid4.Coords) : Prop := k4_cond2 i = 1#1

/-- The first holds at the points with k = 0, -/
theorem isFirstK4_iff : ∀ t : Fin cfg4.N, isFirstK4 (grid4.coords t) ↔ t.val % 8 = 0 :=
  (by decide +kernel : ∀ t : Fin grid4.N, isFirstK4 (grid4.coords t) ↔ t.val % 8 = 0)
/-- the second at the points with k = 7. -/
theorem isLastK4_iff : ∀ t : Fin cfg4.N, isLastK4 (grid4.coords t) ↔ t.val % 8 = 7 :=
  (by decide +kernel : ∀ t : Fin grid4.N, isLastK4 (grid4.coords t) ↔ t.val % 8 = 7)

/-! ## The body's triple, one per case

On whole memrefs: `a`, `h`, `b` are what the three input buffers read, `s` what the accumulator reads on entry. -/

set_option maxHeartbeats 1000000 in
/-- k = 0: the accumulator, whatever it held, ends at `zeros + a · h`; the output buffer is handed back untouched. -/
theorem cc4_first (c : Dev nD) (E : Set ℕ) (i : grid4.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : isFirstK4 i) (hc1 : ¬isLastK4 i)
    (a : Vec F S1280x1280 .bf16) (h : Vec F S1280x2048 .bf16) (b : Vec F S1x2048 .f32) (o : Vec F S1280x2048 .bf16)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ (∃ s, owns (c : Thread nD τ) arg6 fullShare s)
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k4_pay2 (k4_pay1 (F := F)) a h)) -∗ K ⟨⟩))
      ⊢ wp frame (wpE (defs₀ (F := F)) Variants.none c none) E (cc4_kernel i arg2 harg2 arg3 harg3 arg4 harg4 arg5 harg5 arg6 harg6) K := by
  simp only [cc4_kernel_eq_skeleton]; unfold cc4_kernel_skel
  unfold owns
  iintro ⟨⟨%f2, %hf2, H2⟩, ⟨%f3, %hf3, H3⟩, ⟨%f4, %hf4, H4⟩, ⟨%f5, %hf5, H5⟩, ⟨%s, %f6, -, H6⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  sl_unfold_run_names
  rw [read_writes_whole _ _ offs00, View.readCov_unit_zero _ offs00, readAt_whole_unread harg2 offs00, readAt_whole_unread harg3 offs00]

set_option maxHeartbeats 1000000 in
/-- 0 < k < 7: the accumulator goes from `s` to `s + a · h`; the output buffer is handed back untouched. -/
theorem cc4_mid (c : Dev nD) (E : Set ℕ) (i : grid4.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK4 i) (hc1 : ¬isLastK4 i)
    (a : Vec F S1280x1280 .bf16) (h : Vec F S1280x2048 .bf16) (b : Vec F S1x2048 .f32) (o : Vec F S1280x2048 .bf16) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k4_pay2 s a h)) -∗ K ⟨⟩))
      ⊢ wp frame (wpE (defs₀ (F := F)) Variants.none c none) E (cc4_kernel i arg2 harg2 arg3 harg3 arg4 harg4 arg5 harg5 arg6 harg6) K := by
  simp only [cc4_kernel_eq_skeleton]; unfold cc4_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [read_writes_whole _ _ offs00, readAt_whole_unread harg6 offs00, readAt_whole_unread harg2 offs00, readAt_whole_unread harg3 offs00]

set_option maxHeartbeats 1000000 in
/-- k = 7: the accumulator goes from `s` to `s + a · h`, and the output buffer, whatever it held, ends at
    `max(s + a · h + b, 0)` rounded to bf16. -/
theorem cc4_last (c : Dev nD) (E : Set ℕ) (i : grid4.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK4 i) (hc1 : isLastK4 i)
    (a : Vec F S1280x1280 .bf16) (h : Vec F S1280x2048 .bf16) (b : Vec F S1x2048 .f32) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ (∃ o, owns (c : Thread nD τ) arg5 fullShare o) ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare (k4_pay3 (k4_pay2 s a h) b) ∗ owns (c : Thread nD τ) arg6 fullShare (k4_pay2 s a h)) -∗ K ⟨⟩))
      ⊢ wp frame (wpE (defs₀ (F := F)) Variants.none c none) E (cc4_kernel i arg2 harg2 arg3 harg3 arg4 harg4 arg5 harg5 arg6 harg6) K := by
  simp only [cc4_kernel_eq_skeleton]; unfold cc4_kernel_skel
  unfold owns
  iintro ⟨⟨%f2, %hf2, H2⟩, ⟨%f3, %hf3, H3⟩, ⟨%f4, %hf4, H4⟩, ⟨%o, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [read_writes_whole _ _ offs00, View.readCov_unit_zero _ offs00, readAt_whole_unread harg6 offs00, readAt_whole_unread harg2 offs00,
      readAt_whole_unread harg3 offs00, readAt_whole_unread harg4 offs00]
  iexists _; isplitr
  swap; · iexact H6
  ipureintro
  sl_unfold_run_names
  rw [read_writes_whole _ _ offs00, readAt_whole_unread harg6 offs00, readAt_whole_unread harg2 offs00, readAt_whole_unread harg3 offs00]

section Region

-- the TensorCore's buffer contents when the region is entered: everything below is stated at this parameter
variable (V : (c : Dev nD) → (b : Ref sig .tc) → Buf (Elt F) ((c : Thread nD τ).loc b))

/-! ## The windows' blocks -/

/-- Window `w`'s block at point `t`, read off the window's array as the region finds it. Window 0 is the block (i, k) of
    `A`, window 1 the block (k, 0) of `Hc`, window 2 the bias row, window 3 the block (i, 0) of the output. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The accumulator, point by point -/

/-- What the accumulator holds AFTER the body at point `n`: at a point with k = 0 the product of the point's blocks added
    to zeros, at any other the product added to what the point before left. -/
def accAfter4 (c : Dev nD) : (n : ℕ) → n < cfg4.N → Vec F S1280x2048 .f32
  | 0, hn => k4_pay2 (k4_pay1 (F := F)) (iblk4 V c 0 ⟨0, hn⟩) (iblk4 V c 1 ⟨0, hn⟩)
  | n + 1, hn =>
    if (n + 1) % 8 = 0 then k4_pay2 (k4_pay1 (F := F)) (iblk4 V c 0 ⟨n + 1, hn⟩) (iblk4 V c 1 ⟨n + 1, hn⟩)
    else k4_pay2 (accAfter4 c n (Nat.lt_of_succ_lt hn)) (iblk4 V c 0 ⟨n + 1, hn⟩) (iblk4 V c 1 ⟨n + 1, hn⟩)

/-- At a point with k = 0 the accumulator restarts from zeros. -/
theorem accAfter4_first (c : Dev nD) (t : Fin cfg4.N) (h0 : t.val % 8 = 0) :
    accAfter4 V c t.val t.isLt = k4_pay2 (k4_pay1 (F := F)) (iblk4 V c 0 t) (iblk4 V c 1 t) := by
  obtain ⟨n, hn⟩ := t
  cases n with
  | zero => rfl
  | succ n => exact if_pos h0

/-- At any other point it adds to what the point before left. -/
theorem accAfter4_next (c : Dev nD) (t : Fin cfg4.N) (h0 : ¬t.val % 8 = 0) :
    accAfter4 V c t.val t.isLt
      = k4_pay2 (accAfter4 V c (t.val - 1) (Nat.lt_of_le_of_lt (Nat.sub_le _ _) t.isLt)) (iblk4 V c 0 t) (iblk4 V c 1 t) := by
  obtain ⟨n, hn⟩ := t
  cases n with
  | zero => exact absurd (Nat.zero_mod _) h0
  | succ n => exact if_neg h0

/-- What the scratch holds BEFORE point `t`: what the point before left (before the first point the scratch holds
    anything — the zeros here are a placeholder the invariant does not use). -/
def acc4 (c : Dev nD) (t : Fin (cfg4.N + 1)) : Vec F S1280x2048 .f32 :=
  match t with
  | ⟨0, _⟩ => k4_pay1 (F := F)
  | ⟨n + 1, h⟩ => accAfter4 V c n (Nat.lt_of_succ_lt_succ h)

/-- What the output's staging buffer holds after the body at a point with k = 7: the accumulator, bias added, clamped at
    zero, rounded. (At the other points the body does not touch that buffer and the pipeline does not write it back; the
    proof data's entry there is not consulted.) -/
def out4_3 (c : Dev nD) (t : Fin cfg4.N) : Vec F S1280x2048 .bf16 :=
  k4_pay3 (accAfter4 V c t.val t.isLt) (iblk4 V c 2 t)

/-! ## The row fold: the value the region writes back -/

/-- The accumulator of the row block whose first point is `n0`, after its column blocks 0 … k: a left fold of
    `k4_pay2` from the zeros `k4_pay1` over the blocks at the points `n0`, …, `n0 + k`. -/
def rowAcc4 (c : Dev nD) (n0 : ℕ) : (k : ℕ) → n0 + k < cfg4.N → Vec F S1280x2048 .f32
  | 0, h => k4_pay2 (k4_pay1 (F := F)) (iblk4 V c 0 ⟨n0, h⟩) (iblk4 V c 1 ⟨n0, h⟩)
  | k + 1, h => k4_pay2 (rowAcc4 c n0 k (Nat.lt_of_succ_lt h)) (iblk4 V c 0 ⟨n0 + (k + 1), h⟩) (iblk4 V c 1 ⟨n0 + (k + 1), h⟩)

/-- Within a row block (first point `n0` ≡ 0 mod 8, k < 8) the point-by-point accumulator is the row fold. -/
theorem accAfter4_eq_rowAcc4 (c : Dev nD) (n0 : ℕ) (h0 : n0 % 8 = 0) :
    ∀ (k : ℕ) (_ : k < 8) (h : n0 + k < cfg4.N), accAfter4 V c (n0 + k) h = rowAcc4 V c n0 k h
  | 0, _, h => accAfter4_first V c ⟨n0, h⟩ h0
  | k + 1, hk, h => by
    have hne : ¬(n0 + (k + 1)) % 8 = 0 := by omega
    have e := accAfter4_next V c ⟨n0 + (k + 1), h⟩ hne
    have ih := accAfter4_eq_rowAcc4 c n0 h0 k (by omega) (Nat.lt_of_succ_lt h)
    simp only [Nat.add_succ_sub_one] at e
    rw [e, ih]; rfl

/-- THE VALUE written back for a row block: at a point `t` with k = 7 the output buffer holds `k4_pay3` of the fold of
    `k4_pay2` from `k4_pay1` over the eight points `8 · (t / 8) + k`, k = 0 … 7, and of the bias block. -/
theorem out4_3_last (c : Dev nD) (t : Fin cfg4.N) (h7 : t.val % 8 = 7) :
    out4_3 V c t = k4_pay3 (rowAcc4 V c (8 * (t.val / 8)) 7 (by have := t.isLt; omega)) (iblk4 V c 2 t) := by
  unfold out4_3
  have e : t.val = 8 * (t.val / 8) + 7 := by omega
  have h := accAfter4_eq_rowAcc4 V c (8 * (t.val / 8)) (by omega) 7 (by omega) (by have := t.isLt; omega)
  congr 1
  rw [← h]; congr 1

/-! ## The invariant: the scratch carried from point to point -/

/-- The accumulator scratch as a memref: a whole scoped buffer of the kernel's own, passed beside the windows. -/
abbrev scM4 : Memref sig .tc .vmem S1280x2048 .f32 := Memref.whole cc4_scratch0

/-- Every scoped buffer of the core that is neither a staging buffer of this call nor its scratch, at some contents:
    carried through the region unopened. -/
abbrev others4 (c : Dev nD) : sProp 𝕄 :=
  Pipeline.scopedRestBut (Ix := Unit) (Name := ℕ) (U := Pipeline.UD sig nD τ) (Lvl := ℕ) (Val := Elt F) spec4 c [cc4_scratch0]

/-- The class invariant with the scratch split out and owned as a memref at some contents. -/
theorem PhiA4_eq (c : Dev nD) :
    (Pipeline.ΦA spec4 c : sProp 𝕄)
      = iprop(iprop((∃ d, owns (c : Thread nD τ) scM4 fullShare d) ∗ others4 c) ∗ (∃ r, prngReg c r)) := by
  unfold Pipeline.ΦA; rw [scopedRest4_split]; simp only [scM4, owns_whole]; rfl

/-- The invariant before position `n`: before the first point the class's (the scratch at anything); afterwards the
    same with the scratch at what the point before left in it. -/
def Phi4 (c : Dev nD) : (n : ℕ) → n ≤ cfg4.N → sProp 𝕄
  | 0, _ => Pipeline.ΦA spec4 c
  | n + 1, hn => iprop(iprop(owns (c : Thread nD τ) scM4 fullShare (accAfter4 V c n hn) ∗ others4 c) ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(owns (c : Thread nD τ) scM4 fullShare (accAfter4 V c n hn) ∗ others4 c) ∗ (∃ r, prngReg c r)) := rfl

theorem Phi4_pos (c : Dev nD) (n : ℕ) (h : n ≤ cfg4.N) (hz : n ≠ 0) :
    Phi4 V c n h = iprop(iprop(owns (c : Thread nD τ) scM4 fullShare (accAfter4 V c (n - 1) (by omega)) ∗ others4 c) ∗ (∃ r, prngReg c r)) := by
  cases n with
  | zero => exact absurd rfl hz
  | succ n => rfl

/-! ## The pipeline's proof data -/

/-- The proof data of the region's pipeline on core `c`: the arrays as the region finds them; after the body each input's
    buffer at its block and the output's at `out4_3`; the invariant `Phi4`; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 V c t
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 V c t := by dsimp only [dat4]

/-- The invariant at a point's start, restated at the point's position. -/
theorem Phi4_castSucc (c : Dev nD) (t : Fin cfg4.N) :
    (dat4 V c).Φ t.castSucc = Phi4 V c t.val (Nat.le_of_lt t.isLt) := by
  dsimp only [dat4]; simp only [Fin.coe_castSucc]

/-! ## What the body finds in the inputs' buffers

Each input's current staging buffer holds the window's block at every point, whether the pipeline fetched it there or
not: the body leaves the inputs in place, and an input not fetched at a point has the block index of the point before
(the bias row, fetched once). -/

theorem before4_0 (c : Dev nD) (t : Fin cfg4.N) (d) : (dat4 V c).before 0 t d = iblk4 V c 0 t := by
  have hkeep : ∀ t, (cfg4.win 0).cut (cfg4.grid.coords t) ((dat4 V c).after 0 t) = (dat4 V c).blockOf 0 t := fun t => by
    rw [after4_0]; unfold Dat.blockOf iblk4; rw [A_eq4]; try rfl
  rw [(dat4 V c).before_in_eq_fetched 0 rfl (fun _ => rfl) (fun _ _ _ => rfl) hkeep t d]
  unfold Dat.fetched Dat.blockOf iblk4; rw [A_eq4]; try rfl

theorem before4_1 (c : Dev nD) (t : Fin cfg4.N) (d) : (dat4 V c).before 1 t d = iblk4 V c 1 t := by
  have hkeep : ∀ t, (cfg4.win 1).cut (cfg4.grid.coords t) ((dat4 V c).after 1 t) = (dat4 V c).blockOf 1 t := fun t => by
    rw [after4_1]; unfold Dat.blockOf iblk4; rw [A_eq4]; try rfl
  rw [(dat4 V c).before_in_eq_fetched 1 rfl (fun _ => rfl) (fun _ _ _ => rfl) hkeep t d]
  unfold Dat.fetched Dat.blockOf iblk4; rw [A_eq4]; try rfl

theorem before4_2 (c : Dev nD) (t : Fin cfg4.N) (d) : (dat4 V c).before 2 t d = iblk4 V c 2 t := by
  have hkeep : ∀ t, (cfg4.win 2).cut (cfg4.grid.coords t) ((dat4 V c).after 2 t) = (dat4 V c).blockOf 2 t := fun t => by
    rw [after4_2]; unfold Dat.blockOf iblk4; rw [A_eq4]; try rfl
  rw [(dat4 V c).before_in_eq_fetched 2 rfl (fun _ => rfl) (fun _ _ _ => rfl) hkeep t d]
  unfold Dat.fetched Dat.blockOf iblk4; rw [A_eq4]; try rfl

/-! ## Where the output window is idle -/

/-- Away from k = 7 the printed configuration calls the output window idle (the body does not store into it), -/
theorem idle4_3 : ∀ t : Fin cfg4.N, ¬t.val % 8 = 7 → cfg4.idle 3 (cfg4.grid.coords t) = true := by decide +kernel
/-- and the pipeline does not write its block back; -/
theorem noFlush4_3 (t : Fin cfg4.N) (h : ¬t.val % 8 = 7) : (cfg4.win 3).flush t = false :=
  Bool.eq_false_iff.mpr fun hf => h ((flush4_3 t).mp hf)
/-- at k = 7 it is live. -/
theorem live4_3 : ∀ t : Fin cfg4.N, t.val % 8 = 7 → cfg4.idle 3 (cfg4.grid.coords t) = false := by decide +kernel

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

/-- An input window's buffer is left at its block. -/
theorem leaves4_0 (c : Dev nD) (t : Fin cfg4.N) :
    (dat4 V c).leavesExact 0 t = owns (c : Thread nD τ) (st4_0 t) fullShare (iblk4 V c 0 t) := by
  rw [← after4_0]
theorem leaves4_1 (c : Dev nD) (t : Fin cfg4.N) :
    (dat4 V c).leavesExact 1 t = owns (c : Thread nD τ) (st4_1 t) fullShare (iblk4 V c 1 t) := by
  rw [← after4_1]
theorem leaves4_2 (c : Dev nD) (t : Fin cfg4.N) :
    (dat4 V c).leavesExact 2 t = owns (c : Thread nD τ) (st4_2 t) fullShare (iblk4 V c 2 t) := by
  rw [← after4_2]
/-- The output window's, away from k = 7, as the body found it; at k = 7 at `out4_3`. -/
theorem leaves4_3_idle (c : Dev nD) (t : Fin cfg4.N) (h : ¬t.val % 8 = 7) :
    (dat4 V c).leavesExact 3 t = iprop(∃ d, owns (c : Thread nD τ) (st4_3 t) fullShare ((dat4 V c).before 3 t d)) :=
  Dat.leavesExact_idle (dat4 V c) 3 t (idle4_3 t h) (noFlush4_3 t h)
theorem leaves4_3_live (c : Dev nD) (t : Fin cfg4.N) (h : t.val % 8 = 7) :
    (dat4 V c).leavesExact 3 t = owns (c : Thread nD τ) (st4_3 t) fullShare (out4_3 V c t) := by
  unfold Dat.leavesExact; rw [live4_3 t h, after4_3]

set_option maxHeartbeats 4000000 in
/-- The body at any point. The inputs' memrefs hold their blocks (`before4_W`); the position of the point in its row
    (k = 0, 0 < k < 7, k = 7) says which of the three triples applies; the invariant hands the body the scratch at what
    the point before left (at anything before the first point, and at a k = 0 point the triple asks no more) and takes
    it back at this point's contents; the output's buffer is handed back as found away from k = 7 and at `out4_3`
    there; the other scoped buffers, the generator register and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = Phi4 V c (t.val + 1) t.isLt from rfl, Phi4_succ]
  rw [leaves4_0, leaves4_1, leaves4_2, Phi4_castSucc]
  have hN : t.val < 64 := lt_of_lt_of_eq t.isLt (show cfg4.N = 64 from N_4)
  by_cases h0 : t.val % 8 = 0
  · have h7 : ¬t.val % 8 = 7 := by omega
    rw [leaves4_3_idle V c t h7, accAfter4_first V c t h0]
    by_cases hz : t.val = 0
    · rw [Phi4_zero V c _ _ hz, PhiA4_eq]
      iintro ⟨⟨⟨HS, HR⟩, Hg⟩, Ho, ⟨%d0, H0⟩, ⟨%d1, H1⟩, ⟨%d2, H2⟩, ⟨%d3, H3⟩⟩
      iapply (cc4_first c Set.univ (grid4.coords t) _ _ _ _ _ _ _ _ _ _ ((isFirstK4_iff t).mpr h0) (fun h => h7 ((isLastK4_iff t).mp h))
        (iblk4 V c 0 t) (iblk4 V c 1 t) (iblk4 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi4_pos V c _ _ hz]
      iintro ⟨⟨⟨HS, HR⟩, Hg⟩, Ho, ⟨%d0, H0⟩, ⟨%d1, H1⟩, ⟨%d2, H2⟩, ⟨%d3, H3⟩⟩
      iapply (cc4_first c Set.univ (grid4.coords t) _ _ _ _ _ _ _ _ _ _ ((isFirstK4_iff t).mpr h0) (fun h => h7 ((isLastK4_iff t).mp h))
        (iblk4 V c 0 t) (iblk4 V c 1 t) (iblk4 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [Phi4_pos V c _ _ hz, accAfter4_next V c t h0]
    by_cases h7 : t.val % 8 = 7
    · rw [leaves4_3_live V c t h7]; unfold out4_3; rw [accAfter4_next V c t h0]
      iintro ⟨⟨⟨HS, HR⟩, Hg⟩, Ho, ⟨%d0, H0⟩, ⟨%d1, H1⟩, ⟨%d2, H2⟩, ⟨%d3, H3⟩⟩
      iapply (cc4_last c Set.univ (grid4.coords t) _ _ _ _ _ _ _ _ _ _ (fun h => h0 ((isFirstK4_iff t).mp h)) ((isLastK4_iff t).mpr h7)
        (iblk4 V c 0 t) (iblk4 V c 1 t) (iblk4 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [leaves4_3_idle V c t h7]
      iintro ⟨⟨⟨HS, HR⟩, Hg⟩, Ho, ⟨%d0, H0⟩, ⟨%d1, H1⟩, ⟨%d2, H2⟩, ⟨%d3, H3⟩⟩
      iapply (cc4_mid c Set.univ (grid4.coords t) _ _ _ _ _ _ _ _ _ _ (fun h => h0 ((isFirstK4_iff t).mp h)) (fun h => h7 ((isLastK4_iff t).mp h))
        (iblk4 V c 0 t) (iblk4 V c 1 t) (iblk4 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Around the invariant: what the region hands it and takes back -/

/-- The invariant before the first point, from the generator register, anything `T` handed beside it (the prefetched
    tables: this pipeline has none, and the invariant keeps nothing of them) and the scoped buffers no window stages. -/
theorem hin4 (c : Dev nD) (T : sProp 𝕄) :
    iprop((∃ r, prngReg c r) ∗ T
        ∗ Pipeline.scopedRest (Ix := Unit) (Name := ℕ) (U := Pipeline.UD sig nD τ) (Lvl := ℕ) (Val := Elt F) spec4 c)
      ⊢ (dat4 V c).Φ 0 := by
  rw [show (dat4 V c).Φ 0 = Phi4 V c 0 (Nat.zero_le _) from rfl, Phi4_zero V c 0 _ rfl]; unfold Pipeline.ΦA
  iintro ⟨Hg, -, Hr⟩
  isplitl [Hr]; · iexact Hr
  iexact Hg

/-- After any point but the first the invariant gives the class's back: the scratch's named contents are forgotten. -/
theorem Phi4_forget (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨⟨HS, HR⟩, Hg⟩
  isplitl [HS HR]
  · isplitl [HS]; · iexists _; iexact HS
    iexact HR
  iexact Hg

/-- The invariant after the last point gives back the generator register, the kernel's own semaphores (it has none) and
    the scoped buffers no window stages. -/
theorem hout4 (c : Dev nD) :
    (dat4 V c).Φ (Fin.last cfg4.N)
      ⊢ iprop((∃ r, prngReg c r)
          ∗ Pipeline.ownSems0 (Ix := Unit) (Name := ℕ) (U := Pipeline.UD sig nD τ) (Lvl := ℕ) (Val := Elt F) (τ := τ) (fun k : PEmpty => k.elim) c
          ∗ Pipeline.scopedRest (Ix := Unit) (Name := ℕ) (U := Pipeline.UD sig nD τ) (Lvl := ℕ) (Val := Elt F) spec4 c) := by
  rw [Pipeline.ownSems0_none]
  refine (Phi4_forget V c _ (by rw [Fin.val_last]; have : cfg4.N = 64 := N_4; omega)).trans ?_
  unfold Pipeline.ΦA
  iintro ⟨Hr, Hg⟩
  isplitl [Hg]; · iexact Hg
  isplitr; · iempintro
  iexact Hr

end Region

end Cert.Kernel.Hand

end
-- ==== Proof.KLin5.lean ====
import proofs.«169470_j5557687681111_1_alg».proof.Proof.Gen.Kernel.Launch
import proofs.«169470_j5557687681111_1_alg».proof.Proof.Gen.Kernel.Skeleton
import proofs.«169470_j5557687681111_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The third bias-free linear layer (pallas_call 5): activations [81920,256] times weights [256,256], by row blocks

The grid has forty points; point `t` multiplies rows `2048·t … 2048·t + 2047` of the bf16 activations by the whole
f32 weight matrix (rounded to bf16, accumulated in f32, rounded back to bf16) and writes the same rows of the result.
The activations' block moves with the point and is fetched at each; the weights' block is the whole matrix, fetched
once; the result's block is written back at each point. -/

/-- What window `w` of the layer holds for grid point `t`, read out of the arrays as the layer finds them (`V`):
    for the activations and the result the `t`-th block of 2048 rows, for the weights the whole matrix. -/
def iblk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-! ## The input buffers when the body runs -/

/-- The activations' staging buffer holds the point's block of rows whenever the body runs, for any proof data over
    the entry arrays `V` whose body leaves that block where it found it. The array's block at a point is `iblk5`
    (`hblock`); the window is an input, never idle and not cut, so a fetch fills the whole buffer with the block, and
    where no fetch happens the block index has not moved since the last one (`Dat.before_in_eq_fetched`). -/
theorem before5_0_of {c : Dev nD} (dat : Dat τ (Elt F) Unit ℕ (Pipeline.UD sig nD τ) ℕ cfg5 c)
    (hA : dat.A 0 = V c (Pipeline.arrRef spec5 0)) (hafter : ∀ t, dat.after 0 t = iblk5 V c 0 t)
    (t : Fin cfg5.N) (d) : dat.before 0 t d = iblk5 V c 0 t := by
  have hblock : ∀ t, dat.blockOf 0 t = iblk5 V c 0 t := fun t => by unfold Dat.blockOf iblk5; rw [hA]
  rw [dat.before_in_eq_fetched 0 rfl (fun _ => rfl) (fun _ _ _ => rfl) (fun t => by rw [hafter, hblock]) t d]
  exact hblock t

/-- The weights' staging buffer holds the whole weight matrix whenever the body runs: it is fetched at the first point
    only, its block index is the same at every point, and the body leaves it as found. -/
theorem before5_1_of {c : Dev nD} (dat : Dat τ (Elt F) Unit ℕ (Pipeline.UD sig nD τ) ℕ cfg5 c)
    (hA : dat.A 1 = V c (Pipeline.arrRef spec5 1)) (hafter : ∀ t, dat.after 1 t = iblk5 V c 1 t)
    (t : Fin cfg5.N) (d) : dat.before 1 t d = iblk5 V c 1 t := by
  have hblock : ∀ t, dat.blockOf 1 t = iblk5 V c 1 t := fun t => by unfold Dat.blockOf iblk5; rw [hA]
  rw [dat.before_in_eq_fetched 1 rfl (fun _ => rfl) (fun _ _ _ => rfl) (fun t => by rw [hafter, hblock]) t d]
  exact hblock t

/-! ## What the body does to its buffers -/

/-- The body touches each staging buffer as a whole: all 2048 rows by 256 columns of an activation block, -/
abbrev rowsAll5 : Rect S2048x256 := Rect.unit (s := S2048x256) ![0, 0] S2048x256.size inb_S2048x256_S2048x256_0_0
/-- and all 256 by 256 entries of the weights. -/
abbrev weightsAll5 : Rect S256x256 := Rect.unit (s := S256x256) ![0, 0] S256x256.size inb_S256x256_S256x256_0_0

/-- The result block the body leaves from an activation block `h` and the weights `wt`: its one store writes the
    product `k5_pay1` of what it loaded over the whole buffer. -/
def out5_2 (h : Vec F S2048x256 .bf16) (wt : Vec F S256x256 .f32) : Vec F S2048x256 .bf16 :=
  View.canon [⟨rowsAll5, k5_pay1 (View.ld h rowsAll5) (View.ld wt weightsAll5)⟩]

/-- That one store is of the whole 2048 by 256 shape, so it covers the buffer. -/
theorem store_covers5 (p : Vec F S2048x256 .bf16) (y : S2048x256.Idx) :
    ∃ pc ∈ ([⟨rowsAll5, p⟩] : List (View.Piece (Elt F) S2048x256 .bf16)), y ∈ pc.1.set :=
  View.cover_of_wholeMem _ (View.Piece.wholeMem_here rfl) y

set_option maxHeartbeats 1000000 in
/-- The kernel body on whole staging buffers: given the activations' buffer reading `h`, the weights' reading `wt` and
    the result's holding anything, it returns with the two inputs as they were and the result's buffer reading
    `out5_2 h wt`. The printed function is its skeleton — two loads, a load of the result buffer whose value goes
    unused, one store —, which the executor runs; what the store's writes leave reads as their canonical contents
    because the store covers the buffer. -/
theorem sound_kernel5 (c : Dev nD) (E : Set ℕ) (i : grid5.Coords)
    (hbuf : Memref sig .tc .vmem S2048x256 .bf16) (hh : hbuf.IsWhole)
    (wbuf : Memref sig .tc .vmem S256x256 .f32) (hw : wbuf.IsWhole)
    (obuf : Memref sig .tc .vmem S2048x256 .bf16) (ho : obuf.IsWhole)
    (h : Vec F S2048x256 .bf16) (wt : Vec F S256x256 .f32) (K : PUnit → sProp 𝕄) :
    iprop(owns (c : Thread nD τ) hbuf fullShare h ∗ owns (c : Thread nD τ) wbuf fullShare wt
        ∗ (∃ d, owns (c : Thread nD τ) obuf fullShare d)
        ∗ (iprop(owns (c : Thread nD τ) hbuf fullShare h ∗ owns (c : Thread nD τ) wbuf fullShare wt
            ∗ owns (c : Thread nD τ) obuf fullShare (out5_2 h wt)) -∗ K ⟨⟩))
      ⊢ wp frame (wpE (defs₀ (F := F)) Variants.none c none) E (cc5_kernel i hbuf hh wbuf hw obuf ho) K := by
  simp only [cc5_kernel_eq_skeleton]; unfold cc5_kernel_skel
  unfold owns
  iintro ⟨⟨%fh, %hfh, Hh⟩, ⟨%fw, %hfw, Hw⟩, ⟨%d, %fo, -, Ho⟩, Hk⟩
  subst hfh; subst hfw
  sl_exec
  sl_step
  iapply Hk
  isplitl [Hh]
  · iexists fh; isplitr
    · ipureintro; rfl
    · iexact Hh
  isplitl [Hw]
  · iexists fw; isplitr
    · ipureintro; rfl
    · iexact Hw
  iexists _; isplitr
  pick_goal 2
  · iexact Ho
  · ipureintro; exact View.read_writes_eq_canon _ _ _ (store_covers5 _)

/-! ## The pipeline's proof data -/

/-- The proof data of the layer's pipeline on core `c`: the arrays as found (`V`); after the body at point `t` the
    two inputs' buffers at their blocks and the result's at `out5_2` of those; the invariant of a pipeline whose body
    touches only its windows' buffers (`Pipeline.ΦA`); full shares; nothing owed. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- Its arrays are the entry contents. -/
theorem A_eq5 (c : Dev nD) (w : Fin cfg5.W) : (dat5 V c).A w = V c (Pipeline.arrRef spec5 w) := by
  dsimp only [dat5]

/-- What the body leaves in each window's buffer, one window at a time. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) :
    (dat5 V c).after 2 t = out5_2 (iblk5 V c 0 t) (iblk5 V c 1 t) := by dsimp only [dat5]

/-- So the body finds the activations' block and the weights in its input buffers at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- The invariant and the tallies owed are the same before and after every point: the body reads neither. -/
theorem Φ_step5 (c : Dev nD) (t : Fin cfg5.N) : (dat5 V c).Φ t.succ = (dat5 V c).Φ t.castSucc := rfl
theorem owes_step5 (c : Dev nD) (t : Fin cfg5.N) :
    (dat5 V c).owesAt () t.succ = (dat5 V c).owesAt () t.castSucc := rfl

/-! ## The body obligation -/

/-- The body at grid point `t`, window by window: handed the invariant, what is owed, and its three current staging
    buffers holding what `Dat.before` says, it returns them holding what `dat5` says it leaves. The inputs hold their
    blocks (`before5_0`, `before5_1`), so the kernel's triple applies; the invariant and the tallies pass by. -/
theorem sound_body5 (c : Dev nD) (t : Fin cfg5.N) :
    iprop((dat5 V c).Φ t.castSucc ∗ (dat5 V c).owesAt () t.castSucc
        ∗ (∃ d, owns (c : Thread nD τ) (st5_0 t) fullShare ((dat5 V c).before 0 t d))
        ∗ (∃ d, owns (c : Thread nD τ) (st5_1 t) fullShare ((dat5 V c).before 1 t d))
        ∗ (∃ d, owns (c : Thread nD τ) (st5_2 t) fullShare ((dat5 V c).before 2 t d)))
      ⊢ wp frame (wpE (defs₀ (F := F)) Variants.none c none) Set.univ (bodyAt5 t) (fun _ =>
          iprop((dat5 V c).Φ t.succ ∗ (dat5 V c).owesAt () t.succ
            ∗ owns (c : Thread nD τ) (st5_0 t) fullShare ((dat5 V c).after 0 t)
            ∗ owns (c : Thread nD τ) (st5_1 t) fullShare ((dat5 V c).after 1 t)
            ∗ owns (c : Thread nD τ) (st5_2 t) fullShare ((dat5 V c).after 2 t))) := by
  simp only [before5_0, before5_1]
  rw [Φ_step5, owes_step5, after5_0, after5_1, after5_2]
  iintro ⟨HΦ, Howed, ⟨%d0, Hh⟩, ⟨%d1, Hw⟩, ⟨%d2, Ho⟩⟩
  iapply (sound_kernel5 c Set.univ (grid5.coords t) _ _ _ _ _ _ (iblk5 V c 0 t) (iblk5 V c 1 t) _)
  isplitl [Hh]; · iexact Hh
  isplitl [Hw]; · iexact Hw
  isplitl [Ho]; · iexists _; iexact Ho
  iintro ⟨Hh, Hw, Ho⟩
  isplitl [HΦ]; · iexact HΦ
  isplitl [Howed]; · iexact Howed
  isplitl [Hh]; · iexact Hh
  isplitl [Hw]; · iexact Hw
  iexact Ho

/-- The library's body obligation for the layer, at every grid point. -/
theorem body_obligation5 (c : Dev nD) :
    BodyObligation (dat5 (F := F) V c) (defs₀ (F := F)) Variants.none () Set.univ := fun t => by
  rw [bigSep_W5, bigSep_W5]
  exact sound_body5 V c t

end Cert.Kernel.Hand
-- ==== Proof.KAgg6.lean ====
import proofs.«169470_j5557687681111_1_alg».proof.Proof.Gen.Kernel.Launch
import proofs.«169470_j5557687681111_1_alg».proof.Proof.Gen.Kernel.Skeleton
import proofs.«169470_j5557687681111_1_alg».proof.Proof.Gen.Kernel.Points
import proofs.«169470_j5557687681111_1_alg».proof.Proof.KAgg2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 6 of @main: the aggregation `out = relu(A · Hc + bias)`, blocked over (i, k) on an 8 × 8 grid

The same kernel as region 2's on this layer's operands: an f32 accumulator kept in a scratch buffer from grid point to
grid point, zeroed at k = 0, added into at every k, read out into the output block at k = 7. The whole-buffer access
lemmas are region 2's. -/

/-! ## The body's two conditions -/

/-- The condition of the body's first `scf.if` (zero the accumulator), from the grid coordinates. -/
abbrev isFirstK6 (i : grid6.Coords) : Prop :=
  (Scalar.cmpi .ne (Scalar.extui (Scalar.cmpi .eq (BitVec.ofNat 32 (i 1).val) 0#32)) 0#32) = 1#1
/-- The condition of its second `scf.if` (store the output block). -/
abbrev isLastK6 (i : grid6.Coords) : Prop := k6_cond2 i = 1#1

/-- The first holds at the points with k = 0, -/
theorem isFirstK6_iff : ∀ t : Fin cfg6.N, isFirstK6 (grid6.coords t) ↔ t.val % 8 = 0 :=
  (by decide +kernel : ∀ t : Fin grid6.N, isFirstK6 (grid6.coords t) ↔ t.val % 8 = 0)
/-- the second at the points with k = 7. -/
theorem isLastK6_iff : ∀ t : Fin cfg6.N, isLastK6 (grid6.coords t) ↔ t.val % 8 = 7 :=
  (by decide +kernel : ∀ t : Fin grid6.N, isLastK6 (grid6.coords t) ↔ t.val % 8 = 7)

/-! ## The body's triple, one per case

On whole memrefs: `a`, `h`, `b` are what the three input buffers read, `s` what the accumulator reads on entry. -/

set_option maxHeartbeats 1000000 in
/-- k = 0: the accumulator, whatever it held, ends at `zeros + a · h`; the output buffer is handed back untouched. -/
theorem cc6_first (c : Dev nD) (E : Set ℕ) (i : grid6.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : isFirstK6 i) (hc1 : ¬isLastK6 i)
    (a : Vec F S1280x1280 .bf16) (h : Vec F S1280x2048 .bf16) (b : Vec F S1x2048 .f32) (o : Vec F S1280x2048 .bf16)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ (∃ s, owns (c : Thread nD τ) arg6 fullShare s)
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k6_pay2 (k6_pay1 (F := F)) a h)) -∗ K ⟨⟩))
      ⊢ wp frame (wpE (defs₀ (F := F)) Variants.none c none) E (cc6_kernel i arg2 harg2 arg3 harg3 arg4 harg4 arg5 harg5 arg6 harg6) K := by
  simp only [cc6_kernel_eq_skeleton]; unfold cc6_kernel_skel
  unfold owns
  iintro ⟨⟨%f2, %hf2, H2⟩, ⟨%f3, %hf3, H3⟩, ⟨%f4, %hf4, H4⟩, ⟨%f5, %hf5, H5⟩, ⟨%s, %f6, -, H6⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  sl_unfold_run_names
  rw [read_writes_whole _ _ offs00, View.readCov_unit_zero _ offs00, readAt_whole_unread harg2 offs00, readAt_whole_unread harg3 offs00]

set_option maxHeartbeats 1000000 in
/-- 0 < k < 7: the accumulator goes from `s` to `s + a · h`; the output buffer is handed back untouched. -/
theorem cc6_mid (c : Dev nD) (E : Set ℕ) (i : grid6.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK6 i) (hc1 : ¬isLastK6 i)
    (a : Vec F S1280x1280 .bf16) (h : Vec F S1280x2048 .bf16) (b : Vec F S1x2048 .f32) (o : Vec F S1280x2048 .bf16) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k6_pay2 s a h)) -∗ K ⟨⟩))
      ⊢ wp frame (wpE (defs₀ (F := F)) Variants.none c none) E (cc6_kernel i arg2 harg2 arg3 harg3 arg4 harg4 arg5 harg5 arg6 harg6) K := by
  simp only [cc6_kernel_eq_skeleton]; unfold cc6_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [read_writes_whole _ _ offs00, readAt_whole_unread harg6 offs00, readAt_whole_unread harg2 offs00, readAt_whole_unread harg3 offs00]

set_option maxHeartbeats 1000000 in
/-- k = 7: the accumulator goes from `s` to `s + a · h`, and the output buffer, whatever it held, ends at
    `max(s + a · h + b, 0)` rounded to bf16. -/
theorem cc6_last (c : Dev nD) (E : Set ℕ) (i : grid6.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK6 i) (hc1 : isLastK6 i)
    (a : Vec F S1280x1280 .bf16) (h : Vec F S1280x2048 .bf16) (b : Vec F S1x2048 .f32) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ (∃ o, owns (c : Thread nD τ) arg5 fullShare o) ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare (k6_pay3 (k6_pay2 s a h) b) ∗ owns (c : Thread nD τ) arg6 fullShare (k6_pay2 s a h)) -∗ K ⟨⟩))
      ⊢ wp frame (wpE (defs₀ (F := F)) Variants.none c none) E (cc6_kernel i arg2 harg2 arg3 harg3 arg4 harg4 arg5 harg5 arg6 harg6) K := by
  simp only [cc6_kernel_eq_skeleton]; unfold cc6_kernel_skel
  unfold owns
  iintro ⟨⟨%f2, %hf2, H2⟩, ⟨%f3, %hf3, H3⟩, ⟨%f4, %hf4, H4⟩, ⟨%o, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [read_writes_whole _ _ offs00, View.readCov_unit_zero _ offs00, readAt_whole_unread harg6 offs00, readAt_whole_unread harg2 offs00,
      readAt_whole_unread harg3 offs00, readAt_whole_unread harg4 offs00]
  iexists _; isplitr
  swap; · iexact H6
  ipureintro
  sl_unfold_run_names
  rw [read_writes_whole _ _ offs00, readAt_whole_unread harg6 offs00, readAt_whole_unread harg2 offs00, readAt_whole_unread harg3 offs00]

section Region

-- the TensorCore's buffer contents when the region is entered: everything below is stated at this parameter
variable (V : (c : Dev nD) → (b : Ref sig .tc) → Buf (Elt F) ((c : Thread nD τ).loc b))

/-! ## The windows' blocks -/

/-- Window `w`'s block at point `t`, read off the window's array as the region finds it. Window 0 is the block (i, k) of
    `A`, window 1 the block (k, 0) of `Hc`, window 2 the bias row, window 3 the block (i, 0) of the output. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The accumulator, point by point -/

/-- What the accumulator holds AFTER the body at point `n`: at a point with k = 0 the product of the point's blocks added
    to zeros, at any other the product added to what the point before left. -/
def accAfter6 (c : Dev nD) : (n : ℕ) → n < cfg6.N → Vec F S1280x2048 .f32
  | 0, hn => k6_pay2 (k6_pay1 (F := F)) (iblk6 V c 0 ⟨0, hn⟩) (iblk6 V c 1 ⟨0, hn⟩)
  | n + 1, hn =>
    if (n + 1) % 8 = 0 then k6_pay2 (k6_pay1 (F := F)) (iblk6 V c 0 ⟨n + 1, hn⟩) (iblk6 V c 1 ⟨n + 1, hn⟩)
    else k6_pay2 (accAfter6 c n (Nat.lt_of_succ_lt hn)) (iblk6 V c 0 ⟨n + 1, hn⟩) (iblk6 V c 1 ⟨n + 1, hn⟩)

/-- At a point with k = 0 the accumulator restarts from zeros. -/
theorem accAfter6_first (c : Dev nD) (t : Fin cfg6.N) (h0 : t.val % 8 = 0) :
    accAfter6 V c t.val t.isLt = k6_pay2 (k6_pay1 (F := F)) (iblk6 V c 0 t) (iblk6 V c 1 t) := by
  obtain ⟨n, hn⟩ := t
  cases n with
  | zero => rfl
  | succ n => exact if_pos h0

/-- At any other point it adds to what the point before left. -/
theorem accAfter6_next (c : Dev nD) (t : Fin cfg6.N) (h0 : ¬t.val % 8 = 0) :
    accAfter6 V c t.val t.isLt
      = k6_pay2 (accAfter6 V c (t.val - 1) (Nat.lt_of_le_of_lt (Nat.sub_le _ _) t.isLt)) (iblk6 V c 0 t) (iblk6 V c 1 t) := by
  obtain ⟨n, hn⟩ := t
  cases n with
  | zero => exact absurd (Nat.zero_mod _) h0
  | succ n => exact if_neg h0

/-- What the scratch holds BEFORE point `t`: what the point before left (before the first point the scratch holds
    anything — the zeros here are a placeholder the invariant does not use). -/
def acc6 (c : Dev nD) (t : Fin (cfg6.N + 1)) : Vec F S1280x2048 .f32 :=
  match t with
  | ⟨0, _⟩ => k6_pay1 (F := F)
  | ⟨n + 1, h⟩ => accAfter6 V c n (Nat.lt_of_succ_lt_succ h)

/-- What the output's staging buffer holds after the body at a point with k = 7: the accumulator, bias added, clamped at
    zero, rounded. (At the other points the body does not touch that buffer and the pipeline does not write it back; the
    proof data's entry there is not consulted.) -/
def out6_3 (c : Dev nD) (t : Fin cfg6.N) : Vec F S1280x2048 .bf16 :=
  k6_pay3 (accAfter6 V c t.val t.isLt) (iblk6 V c 2 t)

/-! ## The row fold: the value the region writes back -/

/-- The accumulator of the row block whose first point is `n0`, after its column blocks 0 … k: a left fold of
    `k6_pay2` from the zeros `k6_pay1` over the blocks at the points `n0`, …, `n0 + k`. -/
def rowAcc6 (c : Dev nD) (n0 : ℕ) : (k : ℕ) → n0 + k < cfg6.N → Vec F S1280x2048 .f32
  | 0, h => k6_pay2 (k6_pay1 (F := F)) (iblk6 V c 0 ⟨n0, h⟩) (iblk6 V c 1 ⟨n0, h⟩)
  | k + 1, h => k6_pay2 (rowAcc6 c n0 k (Nat.lt_of_succ_lt h)) (iblk6 V c 0 ⟨n0 + (k + 1), h⟩) (iblk6 V c 1 ⟨n0 + (k + 1), h⟩)

/-- Within a row block (first point `n0` ≡ 0 mod 8, k < 8) the point-by-point accumulator is the row fold. -/
theorem accAfter6_eq_rowAcc6 (c : Dev nD) (n0 : ℕ) (h0 : n0 % 8 = 0) :
    ∀ (k : ℕ) (_ : k < 8) (h : n0 + k < cfg6.N), accAfter6 V c (n0 + k) h = rowAcc6 V c n0 k h
  | 0, _, h => accAfter6_first V c ⟨n0, h⟩ h0
  | k + 1, hk, h => by
    have hne : ¬(n0 + (k + 1)) % 8 = 0 := by omega
    have e := accAfter6_next V c ⟨n0 + (k + 1), h⟩ hne
    have ih := accAfter6_eq_rowAcc6 c n0 h0 k (by omega) (Nat.lt_of_succ_lt h)
    simp only [Nat.add_succ_sub_one] at e
    rw [e, ih]; rfl

/-- THE VALUE written back for a row block: at a point `t` with k = 7 the output buffer holds `k6_pay3` of the fold of
    `k6_pay2` from `k6_pay1` over the eight points `8 · (t / 8) + k`, k = 0 … 7, and of the bias block. -/
theorem out6_3_last (c : Dev nD) (t : Fin cfg6.N) (h7 : t.val % 8 = 7) :
    out6_3 V c t = k6_pay3 (rowAcc6 V c (8 * (t.val / 8)) 7 (by have := t.isLt; omega)) (iblk6 V c 2 t) := by
  unfold out6_3
  have e : t.val = 8 * (t.val / 8) + 7 := by omega
  have h := accAfter6_eq_rowAcc6 V c (8 * (t.val / 8)) (by omega) 7 (by omega) (by have := t.isLt; omega)
  congr 1
  rw [← h]; congr 1

/-! ## The invariant: the scratch carried from point to point -/

/-- The accumulator scratch as a memref: a whole scoped buffer of the kernel's own, passed beside the windows. -/
abbrev scM6 : Memref sig .tc .vmem S1280x2048 .f32 := Memref.whole cc6_scratch0

/-- Every scoped buffer of the core that is neither a staging buffer of this call nor its scratch, at some contents:
    carried through the region unopened. -/
abbrev others6 (c : Dev nD) : sProp 𝕄 :=
  Pipeline.scopedRestBut (Ix := Unit) (Name := ℕ) (U := Pipeline.UD sig nD τ) (Lvl := ℕ) (Val := Elt F) spec6 c [cc6_scratch0]

/-- The class invariant with the scratch split out and owned as a memref at some contents. -/
theorem PhiA6_eq (c : Dev nD) :
    (Pipeline.ΦA spec6 c : sProp 𝕄)
      = iprop(iprop((∃ d, owns (c : Thread nD τ) scM6 fullShare d) ∗ others6 c) ∗ (∃ r, prngReg c r)) := by
  unfold Pipeline.ΦA; rw [scopedRest6_split]; simp only [scM6, owns_whole]; rfl

/-- The invariant before position `n`: before the first point the class's (the scratch at anything); afterwards the
    same with the scratch at what the point before left in it. -/
def Phi6 (c : Dev nD) : (n : ℕ) → n ≤ cfg6.N → sProp 𝕄
  | 0, _ => Pipeline.ΦA spec6 c
  | n + 1, hn => iprop(iprop(owns (c : Thread nD τ) scM6 fullShare (accAfter6 V c n hn) ∗ others6 c) ∗ (∃ r, prngReg c r))

theorem Phi6_zero (c : Dev nD) (n : ℕ) (h : n ≤ cfg6.N) (hz : n = 0) : Phi6 V c n h = Pipeline.ΦA spec6 c := by
  subst hz; rfl

theorem Phi6_succ (c : Dev nD) (n : ℕ) (hn : n < cfg6.N) :
    Phi6 V c (n + 1) hn = iprop(iprop(owns (c : Thread nD τ) scM6 fullShare (accAfter6 V c n hn) ∗ others6 c) ∗ (∃ r, prngReg c r)) := rfl

theorem Phi6_pos (c : Dev nD) (n : ℕ) (h : n ≤ cfg6.N) (hz : n ≠ 0) :
    Phi6 V c n h = iprop(iprop(owns (c : Thread nD τ) scM6 fullShare (accAfter6 V c (n - 1) (by omega)) ∗ others6 c) ∗ (∃ r, prngReg c r)) := by
  cases n with
  | zero => exact absurd rfl hz
  | succ n => rfl

/-! ## The pipeline's proof data -/

/-- The proof data of the region's pipeline on core `c`: the arrays as the region finds them; after the body each input's
    buffer at its block and the output's at `out6_3`; the invariant `Phi6`; nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 V c t
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 V c t := by dsimp only [dat6]

/-- The invariant at a point's start, restated at the point's position. -/
theorem Phi6_castSucc (c : Dev nD) (t : Fin cfg6.N) :
    (dat6 V c).Φ t.castSucc = Phi6 V c t.val (Nat.le_of_lt t.isLt) := by
  dsimp only [dat6]; simp only [Fin.coe_castSucc]

/-! ## What the body finds in the inputs' buffers

Each input's current staging buffer holds the window's block at every point, whether the pipeline fetched it there or
not: the body leaves the inputs in place, and an input not fetched at a point has the block index of the point before
(the bias row, fetched once). -/

theorem before6_0 (c : Dev nD) (t : Fin cfg6.N) (d) : (dat6 V c).before 0 t d = iblk6 V c 0 t := by
  have hkeep : ∀ t, (cfg6.win 0).cut (cfg6.grid.coords t) ((dat6 V c).after 0 t) = (dat6 V c).blockOf 0 t := fun t => by
    rw [after6_0]; unfold Dat.blockOf iblk6; rw [A_eq6]; try rfl
  rw [(dat6 V c).before_in_eq_fetched 0 rfl (fun _ => rfl) (fun _ _ _ => rfl) hkeep t d]
  unfold Dat.fetched Dat.blockOf iblk6; rw [A_eq6]; try rfl

theorem before6_1 (c : Dev nD) (t : Fin cfg6.N) (d) : (dat6 V c).before 1 t d = iblk6 V c 1 t := by
  have hkeep : ∀ t, (cfg6.win 1).cut (cfg6.grid.coords t) ((dat6 V c).after 1 t) = (dat6 V c).blockOf 1 t := fun t => by
    rw [after6_1]; unfold Dat.blockOf iblk6; rw [A_eq6]; try rfl
  rw [(dat6 V c).before_in_eq_fetched 1 rfl (fun _ => rfl) (fun _ _ _ => rfl) hkeep t d]
  unfold Dat.fetched Dat.blockOf iblk6; rw [A_eq6]; try rfl

theorem before6_2 (c : Dev nD) (t : Fin cfg6.N) (d) : (dat6 V c).before 2 t d = iblk6 V c 2 t := by
  have hkeep : ∀ t, (cfg6.win 2).cut (cfg6.grid.coords t) ((dat6 V c).after 2 t) = (dat6 V c).blockOf 2 t := fun t => by
    rw [after6_2]; unfold Dat.blockOf iblk6; rw [A_eq6]; try rfl
  rw [(dat6 V c).before_in_eq_fetched 2 rfl (fun _ => rfl) (fun _ _ _ => rfl) hkeep t d]
  unfold Dat.fetched Dat.blockOf iblk6; rw [A_eq6]; try rfl

/-! ## Where the output window is idle -/

/-- Away from k = 7 the printed configuration calls the output window idle (the body does not store into it), -/
theorem idle6_3 : ∀ t : Fin cfg6.N, ¬t.val % 8 = 7 → cfg6.idle 3 (cfg6.grid.coords t) = true := by decide +kernel
/-- and the pipeline does not write its block back; -/
theorem noFlush6_3 (t : Fin cfg6.N) (h : ¬t.val % 8 = 7) : (cfg6.win 3).flush t = false :=
  Bool.eq_false_iff.mpr fun hf => h ((flush6_3 t).mp hf)
/-- at k = 7 it is live. -/
theorem live6_3 : ∀ t : Fin cfg6.N, t.val % 8 = 7 → cfg6.idle 3 (cfg6.grid.coords t) = false := by decide +kernel

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

/-- An input window's buffer is left at its block. -/
theorem leaves6_0 (c : Dev nD) (t : Fin cfg6.N) :
    (dat6 V c).leavesExact 0 t = owns (c : Thread nD τ) (st6_0 t) fullShare (iblk6 V c 0 t) := by
  rw [← after6_0]
theorem leaves6_1 (c : Dev nD) (t : Fin cfg6.N) :
    (dat6 V c).leavesExact 1 t = owns (c : Thread nD τ) (st6_1 t) fullShare (iblk6 V c 1 t) := by
  rw [← after6_1]
theorem leaves6_2 (c : Dev nD) (t : Fin cfg6.N) :
    (dat6 V c).leavesExact 2 t = owns (c : Thread nD τ) (st6_2 t) fullShare (iblk6 V c 2 t) := by
  rw [← after6_2]
/-- The output window's, away from k = 7, as the body found it; at k = 7 at `out6_3`. -/
theorem leaves6_3_idle (c : Dev nD) (t : Fin cfg6.N) (h : ¬t.val % 8 = 7) :
    (dat6 V c).leavesExact 3 t = iprop(∃ d, owns (c : Thread nD τ) (st6_3 t) fullShare ((dat6 V c).before 3 t d)) :=
  Dat.leavesExact_idle (dat6 V c) 3 t (idle6_3 t h) (noFlush6_3 t h)
theorem leaves6_3_live (c : Dev nD) (t : Fin cfg6.N) (h : t.val % 8 = 7) :
    (dat6 V c).leavesExact 3 t = owns (c : Thread nD τ) (st6_3 t) fullShare (out6_3 V c t) := by
  unfold Dat.leavesExact; rw [live6_3 t h, after6_3]

set_option maxHeartbeats 4000000 in
/-- The body at any point. The inputs' memrefs hold their blocks (`before6_W`); the position of the point in its row
    (k = 0, 0 < k < 7, k = 7) says which of the three triples applies; the invariant hands the body the scratch at what
    the point before left (at anything before the first point, and at a k = 0 point the triple asks no more) and takes
    it back at this point's contents; the output's buffer is handed back as found away from k = 7 and at `out6_3`
    there; the other scoped buffers, the generator register and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = Phi6 V c (t.val + 1) t.isLt from rfl, Phi6_succ]
  rw [leaves6_0, leaves6_1, leaves6_2, Phi6_castSucc]
  have hN : t.val < 64 := lt_of_lt_of_eq t.isLt (show cfg6.N = 64 from N_6)
  by_cases h0 : t.val % 8 = 0
  · have h7 : ¬t.val % 8 = 7 := by omega
    rw [leaves6_3_idle V c t h7, accAfter6_first V c t h0]
    by_cases hz : t.val = 0
    · rw [Phi6_zero V c _ _ hz, PhiA6_eq]
      iintro ⟨⟨⟨HS, HR⟩, Hg⟩, Ho, ⟨%d0, H0⟩, ⟨%d1, H1⟩, ⟨%d2, H2⟩, ⟨%d3, H3⟩⟩
      iapply (cc6_first c Set.univ (grid6.coords t) _ _ _ _ _ _ _ _ _ _ ((isFirstK6_iff t).mpr h0) (fun h => h7 ((isLastK6_iff t).mp h))
        (iblk6 V c 0 t) (iblk6 V c 1 t) (iblk6 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi6_pos V c _ _ hz]
      iintro ⟨⟨⟨HS, HR⟩, Hg⟩, Ho, ⟨%d0, H0⟩, ⟨%d1, H1⟩, ⟨%d2, H2⟩, ⟨%d3, H3⟩⟩
      iapply (cc6_first c Set.univ (grid6.coords t) _ _ _ _ _ _ _ _ _ _ ((isFirstK6_iff t).mpr h0) (fun h => h7 ((isLastK6_iff t).mp h))
        (iblk6 V c 0 t) (iblk6 V c 1 t) (iblk6 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [Phi6_pos V c _ _ hz, accAfter6_next V c t h0]
    by_cases h7 : t.val % 8 = 7
    · rw [leaves6_3_live V c t h7]; unfold out6_3; rw [accAfter6_next V c t h0]
      iintro ⟨⟨⟨HS, HR⟩, Hg⟩, Ho, ⟨%d0, H0⟩, ⟨%d1, H1⟩, ⟨%d2, H2⟩, ⟨%d3, H3⟩⟩
      iapply (cc6_last c Set.univ (grid6.coords t) _ _ _ _ _ _ _ _ _ _ (fun h => h0 ((isFirstK6_iff t).mp h)) ((isLastK6_iff t).mpr h7)
        (iblk6 V c 0 t) (iblk6 V c 1 t) (iblk6 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [leaves6_3_idle V c t h7]
      iintro ⟨⟨⟨HS, HR⟩, Hg⟩, Ho, ⟨%d0, H0⟩, ⟨%d1, H1⟩, ⟨%d2, H2⟩, ⟨%d3, H3⟩⟩
      iapply (cc6_mid c Set.univ (grid6.coords t) _ _ _ _ _ _ _ _ _ _ (fun h => h0 ((isFirstK6_iff t).mp h)) (fun h => h7 ((isLastK6_iff t).mp h))
        (iblk6 V c 0 t) (iblk6 V c 1 t) (iblk6 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## Around the invariant: what the region hands it and takes back -/

/-- The invariant before the first point, from the generator register, anything `T` handed beside it (the prefetched
    tables: this pipeline has none, and the invariant keeps nothing of them) and the scoped buffers no window stages. -/
theorem hin6 (c : Dev nD) (T : sProp 𝕄) :
    iprop((∃ r, prngReg c r) ∗ T
        ∗ Pipeline.scopedRest (Ix := Unit) (Name := ℕ) (U := Pipeline.UD sig nD τ) (Lvl := ℕ) (Val := Elt F) spec6 c)
      ⊢ (dat6 V c).Φ 0 := by
  rw [show (dat6 V c).Φ 0 = Phi6 V c 0 (Nat.zero_le _) from rfl, Phi6_zero V c 0 _ rfl]; unfold Pipeline.ΦA
  iintro ⟨Hg, -, Hr⟩
  isplitl [Hr]; · iexact Hr
  iexact Hg

/-- After any point but the first the invariant gives the class's back: the scratch's named contents are forgotten. -/
theorem Phi6_forget (c : Dev nD) (t : Fin (cfg6.N + 1)) (ht : t.val ≠ 0) : (dat6 V c).Φ t ⊢ Pipeline.ΦA spec6 c := by
  rw [show (dat6 V c).Φ t = Phi6 V c t.val (Nat.le_of_lt_succ t.isLt) from rfl, Phi6_pos V c _ _ ht, PhiA6_eq]
  iintro ⟨⟨HS, HR⟩, Hg⟩
  isplitl [HS HR]
  · isplitl [HS]; · iexists _; iexact HS
    iexact HR
  iexact Hg

/-- The invariant after the last point gives back the generator register, the kernel's own semaphores (it has none) and
    the scoped buffers no window stages. -/
theorem hout6 (c : Dev nD) :
    (dat6 V c).Φ (Fin.last cfg6.N)
      ⊢ iprop((∃ r, prngReg c r)
          ∗ Pipeline.ownSems0 (Ix := Unit) (Name := ℕ) (U := Pipeline.UD sig nD τ) (Lvl := ℕ) (Val := Elt F) (τ := τ) (fun k : PEmpty => k.elim) c
          ∗ Pipeline.scopedRest (Ix := Unit) (Name := ℕ) (U := Pipeline.UD sig nD τ) (Lvl := ℕ) (Val := Elt F) spec6 c) := by
  rw [Pipeline.ownSems0_none]
  refine (Phi6_forget V c _ (by rw [Fin.val_last]; have : cfg6.N = 64 := N_6; omega)).trans ?_
  unfold Pipeline.ΦA
  iintro ⟨Hr, Hg⟩
  isplitl [Hg]; · iexact Hg
  isplitr; · iempintro
  iexact Hr

end Region

end Cert.Kernel.Hand

end
-- ==== Proof.KLin7.lean ====
import proofs.«169470_j5557687681111_1_alg».proof.Proof.Gen.Kernel.Launch
import proofs.«169470_j5557687681111_1_alg».proof.Proof.Gen.Kernel.Skeleton
import proofs.«169470_j5557687681111_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The fourth bias-free linear layer (pallas_call 7): activations [81920,256] times weights [256,256], by row blocks

The grid has forty points; point `t` multiplies rows `2048·t … 2048·t + 2047` of the bf16 activations by the whole
f32 weight matrix (rounded to bf16, accumulated in f32, rounded back to bf16) and writes the same rows of the result.
The activations' block moves with the point and is fetched at each; the weights' block is the whole matrix, fetched
once; the result's block is written back at each point. -/

/-- What window `w` of the layer holds for grid point `t`, read out of the arrays as the layer finds them (`V`):
    for the activations and the result the `t`-th block of 2048 rows, for the weights the whole matrix. -/
def iblk7 (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-! ## The input buffers when the body runs -/

/-- The activations' staging buffer holds the point's block of rows whenever the body runs, for any proof data over
    the entry arrays `V` whose body leaves that block where it found it. The array's block at a point is `iblk7`
    (`hblock`); the window is an input, never idle and not cut, so a fetch fills the whole buffer with the block, and
    where no fetch happens the block index has not moved since the last one (`Dat.before_in_eq_fetched`). -/
theorem before7_0_of {c : Dev nD} (dat : Dat τ (Elt F) Unit ℕ (Pipeline.UD sig nD τ) ℕ cfg7 c)
    (hA : dat.A 0 = V c (Pipeline.arrRef spec7 0)) (hafter : ∀ t, dat.after 0 t = iblk7 V c 0 t)
    (t : Fin cfg7.N) (d) : dat.before 0 t d = iblk7 V c 0 t := by
  have hblock : ∀ t, dat.blockOf 0 t = iblk7 V c 0 t := fun t => by unfold Dat.blockOf iblk7; rw [hA]
  rw [dat.before_in_eq_fetched 0 rfl (fun _ => rfl) (fun _ _ _ => rfl) (fun t => by rw [hafter, hblock]) t d]
  exact hblock t

/-- The weights' staging buffer holds the whole weight matrix whenever the body runs: it is fetched at the first point
    only, its block index is the same at every point, and the body leaves it as found. -/
theorem before7_1_of {c : Dev nD} (dat : Dat τ (Elt F) Unit ℕ (Pipeline.UD sig nD τ) ℕ cfg7 c)
    (hA : dat.A 1 = V c (Pipeline.arrRef spec7 1)) (hafter : ∀ t, dat.after 1 t = iblk7 V c 1 t)
    (t : Fin cfg7.N) (d) : dat.before 1 t d = iblk7 V c 1 t := by
  have hblock : ∀ t, dat.blockOf 1 t = iblk7 V c 1 t := fun t => by unfold Dat.blockOf iblk7; rw [hA]
  rw [dat.before_in_eq_fetched 1 rfl (fun _ => rfl) (fun _ _ _ => rfl) (fun t => by rw [hafter, hblock]) t d]
  exact hblock t

/-! ## What the body does to its buffers -/

/-- The body touches each staging buffer as a whole: all 2048 rows by 256 columns of an activation block, -/
abbrev rowsAll7 : Rect S2048x256 := Rect.unit (s := S2048x256) ![0, 0] S2048x256.size inb_S2048x256_S2048x256_0_0
/-- and all 256 by 256 entries of the weights. -/
abbrev weightsAll7 : Rect S256x256 := Rect.unit (s := S256x256) ![0, 0] S256x256.size inb_S256x256_S256x256_0_0

/-- The result block the body leaves from an activation block `h` and the weights `wt`: its one store writes the
    product `k7_pay1` of what it loaded over the whole buffer. -/
def out7_2 (h : Vec F S2048x256 .bf16) (wt : Vec F S256x256 .f32) : Vec F S2048x256 .bf16 :=
  View.canon [⟨rowsAll7, k7_pay1 (View.ld h rowsAll7) (View.ld wt weightsAll7)⟩]

/-- That one store is of the whole 2048 by 256 shape, so it covers the buffer. -/
theorem store_covers7 (p : Vec F S2048x256 .bf16) (y : S2048x256.Idx) :
    ∃ pc ∈ ([⟨rowsAll7, p⟩] : List (View.Piece (Elt F) S2048x256 .bf16)), y ∈ pc.1.set :=
  View.cover_of_wholeMem _ (View.Piece.wholeMem_here rfl) y

set_option maxHeartbeats 1000000 in
/-- The kernel body on whole staging buffers: given the activations' buffer reading `h`, the weights' reading `wt` and
    the result's holding anything, it returns with the two inputs as they were and the result's buffer reading
    `out7_2 h wt`. The printed function is its skeleton — two loads, a load of the result buffer whose value goes
    unused, one store —, which the executor runs; what the store's writes leave reads as their canonical contents
    because the store covers the buffer. -/
theorem sound_kernel7 (c : Dev nD) (E : Set ℕ) (i : grid7.Coords)
    (hbuf : Memref sig .tc .vmem S2048x256 .bf16) (hh : hbuf.IsWhole)
    (wbuf : Memref sig .tc .vmem S256x256 .f32) (hw : wbuf.IsWhole)
    (obuf : Memref sig .tc .vmem S2048x256 .bf16) (ho : obuf.IsWhole)
    (h : Vec F S2048x256 .bf16) (wt : Vec F S256x256 .f32) (K : PUnit → sProp 𝕄) :
    iprop(owns (c : Thread nD τ) hbuf fullShare h ∗ owns (c : Thread nD τ) wbuf fullShare wt
        ∗ (∃ d, owns (c : Thread nD τ) obuf fullShare d)
        ∗ (iprop(owns (c : Thread nD τ) hbuf fullShare h ∗ owns (c : Thread nD τ) wbuf fullShare wt
            ∗ owns (c : Thread nD τ) obuf fullShare (out7_2 h wt)) -∗ K ⟨⟩))
      ⊢ wp frame (wpE (defs₀ (F := F)) Variants.none c none) E (cc7_kernel i hbuf hh wbuf hw obuf ho) K := by
  simp only [cc7_kernel_eq_skeleton]; unfold cc7_kernel_skel
  unfold owns
  iintro ⟨⟨%fh, %hfh, Hh⟩, ⟨%fw, %hfw, Hw⟩, ⟨%d, %fo, -, Ho⟩, Hk⟩
  subst hfh; subst hfw
  sl_exec
  sl_step
  iapply Hk
  isplitl [Hh]
  · iexists fh; isplitr
    · ipureintro; rfl
    · iexact Hh
  isplitl [Hw]
  · iexists fw; isplitr
    · ipureintro; rfl
    · iexact Hw
  iexists _; isplitr
  pick_goal 2
  · iexact Ho
  · ipureintro; exact View.read_writes_eq_canon _ _ _ (store_covers7 _)

/-! ## The pipeline's proof data -/

/-- The proof data of the layer's pipeline on core `c`: the arrays as found (`V`); after the body at point `t` the
    two inputs' buffers at their blocks and the result's at `out7_2` of those; the invariant of a pipeline whose body
    touches only its windows' buffers (`Pipeline.ΦA`); full shares; nothing owed. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

/-- Its arrays are the entry contents. -/
theorem A_eq7 (c : Dev nD) (w : Fin cfg7.W) : (dat7 V c).A w = V c (Pipeline.arrRef spec7 w) := by
  dsimp only [dat7]

/-- What the body leaves in each window's buffer, one window at a time. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) :
    (dat7 V c).after 2 t = out7_2 (iblk7 V c 0 t) (iblk7 V c 1 t) := by dsimp only [dat7]

/-- So the body finds the activations' block and the weights in its input buffers at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- The invariant and the tallies owed are the same before and after every point: the body reads neither. -/
theorem Φ_step7 (c : Dev nD) (t : Fin cfg7.N) : (dat7 V c).Φ t.succ = (dat7 V c).Φ t.castSucc := rfl
theorem owes_step7 (c : Dev nD) (t : Fin cfg7.N) :
    (dat7 V c).owesAt () t.succ = (dat7 V c).owesAt () t.castSucc := rfl

/-! ## The body obligation -/

/-- The body at grid point `t`, window by window: handed the invariant, what is owed, and its three current staging
    buffers holding what `Dat.before` says, it returns them holding what `dat7` says it leaves. The inputs hold their
    blocks (`before7_0`, `before7_1`), so the kernel's triple applies; the invariant and the tallies pass by. -/
theorem sound_body7 (c : Dev nD) (t : Fin cfg7.N) :
    iprop((dat7 V c).Φ t.castSucc ∗ (dat7 V c).owesAt () t.castSucc
        ∗ (∃ d, owns (c : Thread nD τ) (st7_0 t) fullShare ((dat7 V c).before 0 t d))
        ∗ (∃ d, owns (c : Thread nD τ) (st7_1 t) fullShare ((dat7 V c).before 1 t d))
        ∗ (∃ d, owns (c : Thread nD τ) (st7_2 t) fullShare ((dat7 V c).before 2 t d)))
      ⊢ wp frame (wpE (defs₀ (F := F)) Variants.none c none) Set.univ (bodyAt7 t) (fun _ =>
          iprop((dat7 V c).Φ t.succ ∗ (dat7 V c).owesAt () t.succ
            ∗ owns (c : Thread nD τ) (st7_0 t) fullShare ((dat7 V c).after 0 t)
            ∗ owns (c : Thread nD τ) (st7_1 t) fullShare ((dat7 V c).after 1 t)
            ∗ owns (c : Thread nD τ) (st7_2 t) fullShare ((dat7 V c).after 2 t))) := by
  simp only [before7_0, before7_1]
  rw [Φ_step7, owes_step7, after7_0, after7_1, after7_2]
  iintro ⟨HΦ, Howed, ⟨%d0, Hh⟩, ⟨%d1, Hw⟩, ⟨%d2, Ho⟩⟩
  iapply (sound_kernel7 c Set.univ (grid7.coords t) _ _ _ _ _ _ (iblk7 V c 0 t) (iblk7 V c 1 t) _)
  isplitl [Hh]; · iexact Hh
  isplitl [Hw]; · iexact Hw
  isplitl [Ho]; · iexists _; iexact Ho
  iintro ⟨Hh, Hw, Ho⟩
  isplitl [HΦ]; · iexact HΦ
  isplitl [Howed]; · iexact Howed
  isplitl [Hh]; · iexact Hh
  isplitl [Hw]; · iexact Hw
  iexact Ho

/-- The library's body obligation for the layer, at every grid point. -/
theorem body_obligation7 (c : Dev nD) :
    BodyObligation (dat7 (F := F) V c) (defs₀ (F := F)) Variants.none () Set.univ := fun t => by
  rw [bigSep_W7, bigSep_W7]
  exact sound_body7 V c t

end Cert.Kernel.Hand
-- ==== Proof.KAgg8.lean ====
import proofs.«169470_j5557687681111_1_alg».proof.Proof.Gen.Kernel.Launch
import proofs.«169470_j5557687681111_1_alg».proof.Proof.Gen.Kernel.Skeleton
import proofs.«169470_j5557687681111_1_alg».proof.Proof.Gen.Kernel.Points
import proofs.«169470_j5557687681111_1_alg».proof.Proof.KAgg2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 8 of @main: the aggregation `out = relu(A · Hc + bias)`, blocked over (i, k) on an 8 × 8 grid

The same kernel as region 2's on this layer's operands: an f32 accumulator kept in a scratch buffer from grid point to
grid point, zeroed at k = 0, added into at every k, read out into the output block at k = 7. The whole-buffer access
lemmas are region 2's. -/

/-! ## The body's two conditions -/

/-- The condition of the body's first `scf.if` (zero the accumulator), from the grid coordinates. -/
abbrev isFirstK8 (i : grid8.Coords) : Prop :=
  (Scalar.cmpi .ne (Scalar.extui (Scalar.cmpi .eq (BitVec.ofNat 32 (i 1).val) 0#32)) 0#32) = 1#1
/-- The condition of its second `scf.if` (store the output block). -/
abbrev isLastK8 (i : grid8.Coords) : Prop := k8_cond2 i = 1#1

/-- The first holds at the points with k = 0, -/
theorem isFirstK8_iff : ∀ t : Fin cfg8.N, isFirstK8 (grid8.coords t) ↔ t.val % 8 = 0 :=
  (by decide +kernel : ∀ t : Fin grid8.N, isFirstK8 (grid8.coords t) ↔ t.val % 8 = 0)
/-- the second at the points with k = 7. -/
theorem isLastK8_iff : ∀ t : Fin cfg8.N, isLastK8 (grid8.coords t) ↔ t.val % 8 = 7 :=
  (by decide +kernel : ∀ t : Fin grid8.N, isLastK8 (grid8.coords t) ↔ t.val % 8 = 7)

/-! ## The body's triple, one per case

On whole memrefs: `a`, `h`, `b` are what the three input buffers read, `s` what the accumulator reads on entry. -/

set_option maxHeartbeats 1000000 in
/-- k = 0: the accumulator, whatever it held, ends at `zeros + a · h`; the output buffer is handed back untouched. -/
theorem cc8_first (c : Dev nD) (E : Set ℕ) (i : grid8.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : isFirstK8 i) (hc1 : ¬isLastK8 i)
    (a : Vec F S1280x1280 .bf16) (h : Vec F S1280x2048 .bf16) (b : Vec F S1x2048 .f32) (o : Vec F S1280x2048 .bf16)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ (∃ s, owns (c : Thread nD τ) arg6 fullShare s)
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k8_pay2 (k8_pay1 (F := F)) a h)) -∗ K ⟨⟩))
      ⊢ wp frame (wpE (defs₀ (F := F)) Variants.none c none) E (cc8_kernel i arg2 harg2 arg3 harg3 arg4 harg4 arg5 harg5 arg6 harg6) K := by
  simp only [cc8_kernel_eq_skeleton]; unfold cc8_kernel_skel
  unfold owns
  iintro ⟨⟨%f2, %hf2, H2⟩, ⟨%f3, %hf3, H3⟩, ⟨%f4, %hf4, H4⟩, ⟨%f5, %hf5, H5⟩, ⟨%s, %f6, -, H6⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  sl_unfold_run_names
  rw [read_writes_whole _ _ offs00, View.readCov_unit_zero _ offs00, readAt_whole_unread harg2 offs00, readAt_whole_unread harg3 offs00]

set_option maxHeartbeats 1000000 in
/-- 0 < k < 7: the accumulator goes from `s` to `s + a · h`; the output buffer is handed back untouched. -/
theorem cc8_mid (c : Dev nD) (E : Set ℕ) (i : grid8.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK8 i) (hc1 : ¬isLastK8 i)
    (a : Vec F S1280x1280 .bf16) (h : Vec F S1280x2048 .bf16) (b : Vec F S1x2048 .f32) (o : Vec F S1280x2048 .bf16) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k8_pay2 s a h)) -∗ K ⟨⟩))
      ⊢ wp frame (wpE (defs₀ (F := F)) Variants.none c none) E (cc8_kernel i arg2 harg2 arg3 harg3 arg4 harg4 arg5 harg5 arg6 harg6) K := by
  simp only [cc8_kernel_eq_skeleton]; unfold cc8_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [read_writes_whole _ _ offs00, readAt_whole_unread harg6 offs00, readAt_whole_unread harg2 offs00, readAt_whole_unread harg3 offs00]

set_option maxHeartbeats 1000000 in
/-- k = 7: the accumulator goes from `s` to `s + a · h`, and the output buffer, whatever it held, ends at
    `max(s + a · h + b, 0)` rounded to bf16. -/
theorem cc8_last (c : Dev nD) (E : Set ℕ) (i : grid8.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK8 i) (hc1 : isLastK8 i)
    (a : Vec F S1280x1280 .bf16) (h : Vec F S1280x2048 .bf16) (b : Vec F S1x2048 .f32) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ (∃ o, owns (c : Thread nD τ) arg5 fullShare o) ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare (k8_pay3 (k8_pay2 s a h) b) ∗ owns (c : Thread nD τ) arg6 fullShare (k8_pay2 s a h)) -∗ K ⟨⟩))
      ⊢ wp frame (wpE (defs₀ (F := F)) Variants.none c none) E (cc8_kernel i arg2 harg2 arg3 harg3 arg4 harg4 arg5 harg5 arg6 harg6) K := by
  simp only [cc8_kernel_eq_skeleton]; unfold cc8_kernel_skel
  unfold owns
  iintro ⟨⟨%f2, %hf2, H2⟩, ⟨%f3, %hf3, H3⟩, ⟨%f4, %hf4, H4⟩, ⟨%o, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [read_writes_whole _ _ offs00, View.readCov_unit_zero _ offs00, readAt_whole_unread harg6 offs00, readAt_whole_unread harg2 offs00,
      readAt_whole_unread harg3 offs00, readAt_whole_unread harg4 offs00]
  iexists _; isplitr
  swap; · iexact H6
  ipureintro
  sl_unfold_run_names
  rw [read_writes_whole _ _ offs00, readAt_whole_unread harg6 offs00, readAt_whole_unread harg2 offs00, readAt_whole_unread harg3 offs00]

section Region

-- the TensorCore's buffer contents when the region is entered: everything below is stated at this parameter
variable (V : (c : Dev nD) → (b : Ref sig .tc) → Buf (Elt F) ((c : Thread nD τ).loc b))

/-! ## The windows' blocks -/

/-- Window `w`'s block at point `t`, read off the window's array as the region finds it. Window 0 is the block (i, k) of
    `A`, window 1 the block (k, 0) of `Hc`, window 2 the bias row, window 3 the block (i, 0) of the output. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The accumulator, point by point -/

/-- What the accumulator holds AFTER the body at point `n`: at a point with k = 0 the product of the point's blocks added
    to zeros, at any other the product added to what the point before left. -/
def accAfter8 (c : Dev nD) : (n : ℕ) → n < cfg8.N → Vec F S1280x2048 .f32
  | 0, hn => k8_pay2 (k8_pay1 (F := F)) (iblk8 V c 0 ⟨0, hn⟩) (iblk8 V c 1 ⟨0, hn⟩)
  | n + 1, hn =>
    if (n + 1) % 8 = 0 then k8_pay2 (k8_pay1 (F := F)) (iblk8 V c 0 ⟨n + 1, hn⟩) (iblk8 V c 1 ⟨n + 1, hn⟩)
    else k8_pay2 (accAfter8 c n (Nat.lt_of_succ_lt hn)) (iblk8 V c 0 ⟨n + 1, hn⟩) (iblk8 V c 1 ⟨n + 1, hn⟩)

/-- At a point with k = 0 the accumulator restarts from zeros. -/
theorem accAfter8_first (c : Dev nD) (t : Fin cfg8.N) (h0 : t.val % 8 = 0) :
    accAfter8 V c t.val t.isLt = k8_pay2 (k8_pay1 (F := F)) (iblk8 V c 0 t) (iblk8 V c 1 t) := by
  obtain ⟨n, hn⟩ := t
  cases n with
  | zero => rfl
  | succ n => exact if_pos h0

/-- At any other point it adds to what the point before left. -/
theorem accAfter8_next (c : Dev nD) (t : Fin cfg8.N) (h0 : ¬t.val % 8 = 0) :
    accAfter8 V c t.val t.isLt
      = k8_pay2 (accAfter8 V c (t.val - 1) (Nat.lt_of_le_of_lt (Nat.sub_le _ _) t.isLt)) (iblk8 V c 0 t) (iblk8 V c 1 t) := by
  obtain ⟨n, hn⟩ := t
  cases n with
  | zero => exact absurd (Nat.zero_mod _) h0
  | succ n => exact if_neg h0

/-- What the scratch holds BEFORE point `t`: what the point before left (before the first point the scratch holds
    anything — the zeros here are a placeholder the invariant does not use). -/
def acc8 (c : Dev nD) (t : Fin (cfg8.N + 1)) : Vec F S1280x2048 .f32 :=
  match t with
  | ⟨0, _⟩ => k8_pay1 (F := F)
  | ⟨n + 1, h⟩ => accAfter8 V c n (Nat.lt_of_succ_lt_succ h)

/-- What the output's staging buffer holds after the body at a point with k = 7: the accumulator, bias added, clamped at
    zero, rounded. (At the other points the body does not touch that buffer and the pipeline does not write it back; the
    proof data's entry there is not consulted.) -/
def out8_3 (c : Dev nD) (t : Fin cfg8.N) : Vec F S1280x2048 .bf16 :=
  k8_pay3 (accAfter8 V c t.val t.isLt) (iblk8 V c 2 t)

/-! ## The row fold: the value the region writes back -/

/-- The accumulator of the row block whose first point is `n0`, after its column blocks 0 … k: a left fold of
    `k8_pay2` from the zeros `k8_pay1` over the blocks at the points `n0`, …, `n0 + k`. -/
def rowAcc8 (c : Dev nD) (n0 : ℕ) : (k : ℕ) → n0 + k < cfg8.N → Vec F S1280x2048 .f32
  | 0, h => k8_pay2 (k8_pay1 (F := F)) (iblk8 V c 0 ⟨n0, h⟩) (iblk8 V c 1 ⟨n0, h⟩)
  | k + 1, h => k8_pay2 (rowAcc8 c n0 k (Nat.lt_of_succ_lt h)) (iblk8 V c 0 ⟨n0 + (k + 1), h⟩) (iblk8 V c 1 ⟨n0 + (k + 1), h⟩)

/-- Within a row block (first point `n0` ≡ 0 mod 8, k < 8) the point-by-point accumulator is the row fold. -/
theorem accAfter8_eq_rowAcc8 (c : Dev nD) (n0 : ℕ) (h0 : n0 % 8 = 0) :
    ∀ (k : ℕ) (_ : k < 8) (h : n0 + k < cfg8.N), accAfter8 V c (n0 + k) h = rowAcc8 V c n0 k h
  | 0, _, h => accAfter8_first V c ⟨n0, h⟩ h0
  | k + 1, hk, h => by
    have hne : ¬(n0 + (k + 1)) % 8 = 0 := by omega
    have e := accAfter8_next V c ⟨n0 + (k + 1), h⟩ hne
    have ih := accAfter8_eq_rowAcc8 c n0 h0 k (by omega) (Nat.lt_of_succ_lt h)
    simp only [Nat.add_succ_sub_one] at e
    rw [e, ih]; rfl

/-- THE VALUE written back for a row block: at a point `t` with k = 7 the output buffer holds `k8_pay3` of the fold of
    `k8_pay2` from `k8_pay1` over the eight points `8 · (t / 8) + k`, k = 0 … 7, and of the bias block. -/
theorem out8_3_last (c : Dev nD) (t : Fin cfg8.N) (h7 : t.val % 8 = 7) :
    out8_3 V c t = k8_pay3 (rowAcc8 V c (8 * (t.val / 8)) 7 (by have := t.isLt; omega)) (iblk8 V c 2 t) := by
  unfold out8_3
  have e : t.val = 8 * (t.val / 8) + 7 := by omega
  have h := accAfter8_eq_rowAcc8 V c (8 * (t.val / 8)) (by omega) 7 (by omega) (by have := t.isLt; omega)
  congr 1
  rw [← h]; congr 1

/-! ## The invariant: the scratch carried from point to point -/

/-- The accumulator scratch as a memref: a whole scoped buffer of the kernel's own, passed beside the windows. -/
abbrev scM8 : Memref sig .tc .vmem S1280x2048 .f32 := Memref.whole cc8_scratch0

/-- Every scoped buffer of the core that is neither a staging buffer of this call nor its scratch, at some contents:
    carried through the region unopened. -/
abbrev others8 (c : Dev nD) : sProp 𝕄 :=
  Pipeline.scopedRestBut (Ix := Unit) (Name := ℕ) (U := Pipeline.UD sig nD τ) (Lvl := ℕ) (Val := Elt F) spec8 c [cc8_scratch0]

/-- The class invariant with the scratch split out and owned as a memref at some contents. -/
theorem PhiA8_eq (c : Dev nD) :
    (Pipeline.ΦA spec8 c : sProp 𝕄)
      = iprop(iprop((∃ d, owns (c : Thread nD τ) scM8 fullShare d) ∗ others8 c) ∗ (∃ r, prngReg c r)) := by
  unfold Pipeline.ΦA; rw [scopedRest8_split]; simp only [scM8, owns_whole]; rfl

/-- The invariant before position `n`: before the first point the class's (the scratch at anything); afterwards the
    same with the scratch at what the point before left in it. -/
def Phi8 (c : Dev nD) : (n : ℕ) → n ≤ cfg8.N → sProp 𝕄
  | 0, _ => Pipeline.ΦA spec8 c
  | n + 1, hn => iprop(iprop(owns (c : Thread nD τ) scM8 fullShare (accAfter8 V c n hn) ∗ others8 c) ∗ (∃ r, prngReg c r))

theorem Phi8_zero (c : Dev nD) (n : ℕ) (h : n ≤ cfg8.N) (hz : n = 0) : Phi8 V c n h = Pipeline.ΦA spec8 c := by
  subst hz; rfl

theorem Phi8_succ (c : Dev nD) (n : ℕ) (hn : n < cfg8.N) :
    Phi8 V c (n + 1) hn = iprop(iprop(owns (c : Thread nD τ) scM8 fullShare (accAfter8 V c n hn) ∗ others8 c) ∗ (∃ r, prngReg c r)) := rfl

theorem Phi8_pos (c : Dev nD) (n : ℕ) (h : n ≤ cfg8.N) (hz : n ≠ 0) :
    Phi8 V c n h = iprop(iprop(owns (c : Thread nD τ) scM8 fullShare (accAfter8 V c (n - 1) (by omega)) ∗ others8 c) ∗ (∃ r, prngReg c r)) := by
  cases n with
  | zero => exact absurd rfl hz
  | succ n => rfl

/-! ## The pipeline's proof data -/

/-- The proof data of the region's pipeline on core `c`: the arrays as the region finds them; after the body each input's
    buffer at its block and the output's at `out8_3`; the invariant `Phi8`; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 V c t
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 V c t := by dsimp only [dat8]

/-- The invariant at a point's start, restated at the point's position. -/
theorem Phi8_castSucc (c : Dev nD) (t : Fin cfg8.N) :
    (dat8 V c).Φ t.castSucc = Phi8 V c t.val (Nat.le_of_lt t.isLt) := by
  dsimp only [dat8]; simp only [Fin.coe_castSucc]

/-! ## What the body finds in the inputs' buffers

Each input's current staging buffer holds the window's block at every point, whether the pipeline fetched it there or
not: the body leaves the inputs in place, and an input not fetched at a point has the block index of the point before
(the bias row, fetched once). -/

theorem before8_0 (c : Dev nD) (t : Fin cfg8.N) (d) : (dat8 V c).before 0 t d = iblk8 V c 0 t := by
  have hkeep : ∀ t, (cfg8.win 0).cut (cfg8.grid.coords t) ((dat8 V c).after 0 t) = (dat8 V c).blockOf 0 t := fun t => by
    rw [after8_0]; unfold Dat.blockOf iblk8; rw [A_eq8]; try rfl
  rw [(dat8 V c).before_in_eq_fetched 0 rfl (fun _ => rfl) (fun _ _ _ => rfl) hkeep t d]
  unfold Dat.fetched Dat.blockOf iblk8; rw [A_eq8]; try rfl

theorem before8_1 (c : Dev nD) (t : Fin cfg8.N) (d) : (dat8 V c).before 1 t d = iblk8 V c 1 t := by
  have hkeep : ∀ t, (cfg8.win 1).cut (cfg8.grid.coords t) ((dat8 V c).after 1 t) = (dat8 V c).blockOf 1 t := fun t => by
    rw [after8_1]; unfold Dat.blockOf iblk8; rw [A_eq8]; try rfl
  rw [(dat8 V c).before_in_eq_fetched 1 rfl (fun _ => rfl) (fun _ _ _ => rfl) hkeep t d]
  unfold Dat.fetched Dat.blockOf iblk8; rw [A_eq8]; try rfl

theorem before8_2 (c : Dev nD) (t : Fin cfg8.N) (d) : (dat8 V c).before 2 t d = iblk8 V c 2 t := by
  have hkeep : ∀ t, (cfg8.win 2).cut (cfg8.grid.coords t) ((dat8 V c).after 2 t) = (dat8 V c).blockOf 2 t := fun t => by
    rw [after8_2]; unfold Dat.blockOf iblk8; rw [A_eq8]; try rfl
  rw [(dat8 V c).before_in_eq_fetched 2 rfl (fun _ => rfl) (fun _ _ _ => rfl) hkeep t d]
  unfold Dat.fetched Dat.blockOf iblk8; rw [A_eq8]; try rfl

/-! ## Where the output window is idle -/

/-- Away from k = 7 the printed configuration calls the output window idle (the body does not store into it), -/
theorem idle8_3 : ∀ t : Fin cfg8.N, ¬t.val % 8 = 7 → cfg8.idle 3 (cfg8.grid.coords t) = true := by decide +kernel
/-- and the pipeline does not write its block back; -/
theorem noFlush8_3 (t : Fin cfg8.N) (h : ¬t.val % 8 = 7) : (cfg8.win 3).flush t = false :=
  Bool.eq_false_iff.mpr fun hf => h ((flush8_3 t).mp hf)
/-- at k = 7 it is live. -/
theorem live8_3 : ∀ t : Fin cfg8.N, t.val % 8 = 7 → cfg8.idle 3 (cfg8.grid.coords t) = false := by decide +kernel

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

/-- An input window's buffer is left at its block. -/
theorem leaves8_0 (c : Dev nD) (t : Fin cfg8.N) :
    (dat8 V c).leavesExact 0 t = owns (c : Thread nD τ) (st8_0 t) fullShare (iblk8 V c 0 t) := by
  rw [← after8_0]
theorem leaves8_1 (c : Dev nD) (t : Fin cfg8.N) :
    (dat8 V c).leavesExact 1 t = owns (c : Thread nD τ) (st8_1 t) fullShare (iblk8 V c 1 t) := by
  rw [← after8_1]
theorem leaves8_2 (c : Dev nD) (t : Fin cfg8.N) :
    (dat8 V c).leavesExact 2 t = owns (c : Thread nD τ) (st8_2 t) fullShare (iblk8 V c 2 t) := by
  rw [← after8_2]
/-- The output window's, away from k = 7, as the body found it; at k = 7 at `out8_3`. -/
theorem leaves8_3_idle (c : Dev nD) (t : Fin cfg8.N) (h : ¬t.val % 8 = 7) :
    (dat8 V c).leavesExact 3 t = iprop(∃ d, owns (c : Thread nD τ) (st8_3 t) fullShare ((dat8 V c).before 3 t d)) :=
  Dat.leavesExact_idle (dat8 V c) 3 t (idle8_3 t h) (noFlush8_3 t h)
theorem leaves8_3_live (c : Dev nD) (t : Fin cfg8.N) (h : t.val % 8 = 7) :
    (dat8 V c).leavesExact 3 t = owns (c : Thread nD τ) (st8_3 t) fullShare (out8_3 V c t) := by
  unfold Dat.leavesExact; rw [live8_3 t h, after8_3]

set_option maxHeartbeats 4000000 in
/-- The body at any point. The inputs' memrefs hold their blocks (`before8_W`); the position of the point in its row
    (k = 0, 0 < k < 7, k = 7) says which of the three triples applies; the invariant hands the body the scratch at what
    the point before left (at anything before the first point, and at a k = 0 point the triple asks no more) and takes
    it back at this point's contents; the output's buffer is handed back as found away from k = 7 and at `out8_3`
    there; the other scoped buffers, the generator register and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).owesAt () t.succ = (dat8 V c).owesAt () t.castSucc from rfl]
  rw [show (dat8 V c).Φ t.succ = Phi8 V c (t.val + 1) t.isLt from rfl, Phi8_succ]
  rw [leaves8_0, leaves8_1, leaves8_2, Phi8_castSucc]
  have hN : t.val < 64 := lt_of_lt_of_eq t.isLt (show cfg8.N = 64 from N_8)
  by_cases h0 : t.val % 8 = 0
  · have h7 : ¬t.val % 8 = 7 := by omega
    rw [leaves8_3_idle V c t h7, accAfter8_first V c t h0]
    by_cases hz : t.val = 0
    · rw [Phi8_zero V c _ _ hz, PhiA8_eq]
      iintro ⟨⟨⟨HS, HR⟩, Hg⟩, Ho, ⟨%d0, H0⟩, ⟨%d1, H1⟩, ⟨%d2, H2⟩, ⟨%d3, H3⟩⟩
      iapply (cc8_first c Set.univ (grid8.coords t) _ _ _ _ _ _ _ _ _ _ ((isFirstK8_iff t).mpr h0) (fun h => h7 ((isLastK8_iff t).mp h))
        (iblk8 V c 0 t) (iblk8 V c 1 t) (iblk8 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi8_pos V c _ _ hz]
      iintro ⟨⟨⟨HS, HR⟩, Hg⟩, Ho, ⟨%d0, H0⟩, ⟨%d1, H1⟩, ⟨%d2, H2⟩, ⟨%d3, H3⟩⟩
      iapply (cc8_first c Set.univ (grid8.coords t) _ _ _ _ _ _ _ _ _ _ ((isFirstK8_iff t).mpr h0) (fun h => h7 ((isLastK8_iff t).mp h))
        (iblk8 V c 0 t) (iblk8 V c 1 t) (iblk8 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [Phi8_pos V c _ _ hz, accAfter8_next V c t h0]
    by_cases h7 : t.val % 8 = 7
    · rw [leaves8_3_live V c t h7]; unfold out8_3; rw [accAfter8_next V c t h0]
      iintro ⟨⟨⟨HS, HR⟩, Hg⟩, Ho, ⟨%d0, H0⟩, ⟨%d1, H1⟩, ⟨%d2, H2⟩, ⟨%d3, H3⟩⟩
      iapply (cc8_last c Set.univ (grid8.coords t) _ _ _ _ _ _ _ _ _ _ (fun h => h0 ((isFirstK8_iff t).mp h)) ((isLastK8_iff t).mpr h7)
        (iblk8 V c 0 t) (iblk8 V c 1 t) (iblk8 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [leaves8_3_idle V c t h7]
      iintro ⟨⟨⟨HS, HR⟩, Hg⟩, Ho, ⟨%d0, H0⟩, ⟨%d1, H1⟩, ⟨%d2, H2⟩, ⟨%d3, H3⟩⟩
      iapply (cc8_mid c Set.univ (grid8.coords t) _ _ _ _ _ _ _ _ _ _ (fun h => h0 ((isFirstK8_iff t).mp h)) (fun h => h7 ((isLastK8_iff t).mp h))
        (iblk8 V c 0 t) (iblk8 V c 1 t) (iblk8 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## Around the invariant: what the region hands it and takes back -/

/-- The invariant before the first point, from the generator register, anything `T` handed beside it (the prefetched
    tables: this pipeline has none, and the invariant keeps nothing of them) and the scoped buffers no window stages. -/
theorem hin8 (c : Dev nD) (T : sProp 𝕄) :
    iprop((∃ r, prngReg c r) ∗ T
        ∗ Pipeline.scopedRest (Ix := Unit) (Name := ℕ) (U := Pipeline.UD sig nD τ) (Lvl := ℕ) (Val := Elt F) spec8 c)
      ⊢ (dat8 V c).Φ 0 := by
  rw [show (dat8 V c).Φ 0 = Phi8 V c 0 (Nat.zero_le _) from rfl, Phi8_zero V c 0 _ rfl]; unfold Pipeline.ΦA
  iintro ⟨Hg, -, Hr⟩
  isplitl [Hr]; · iexact Hr
  iexact Hg

/-- After any point but the first the invariant gives the class's back: the scratch's named contents are forgotten. -/
theorem Phi8_forget (c : Dev nD) (t : Fin (cfg8.N + 1)) (ht : t.val ≠ 0) : (dat8 V c).Φ t ⊢ Pipeline.ΦA spec8 c := by
  rw [show (dat8 V c).Φ t = Phi8 V c t.val (Nat.le_of_lt_succ t.isLt) from rfl, Phi8_pos V c _ _ ht, PhiA8_eq]
  iintro ⟨⟨HS, HR⟩, Hg⟩
  isplitl [HS HR]
  · isplitl [HS]; · iexists _; iexact HS
    iexact HR
  iexact Hg

/-- The invariant after the last point gives back the generator register, the kernel's own semaphores (it has none) and
    the scoped buffers no window stages. -/
theorem hout8 (c : Dev nD) :
    (dat8 V c).Φ (Fin.last cfg8.N)
      ⊢ iprop((∃ r, prngReg c r)
          ∗ Pipeline.ownSems0 (Ix := Unit) (Name := ℕ) (U := Pipeline.UD sig nD τ) (Lvl := ℕ) (Val := Elt F) (τ := τ) (fun k : PEmpty => k.elim) c
          ∗ Pipeline.scopedRest (Ix := Unit) (Name := ℕ) (U := Pipeline.UD sig nD τ) (Lvl := ℕ) (Val := Elt F) spec8 c) := by
  rw [Pipeline.ownSems0_none]
  refine (Phi8_forget V c _ (by rw [Fin.val_last]; have : cfg8.N = 64 := N_8; omega)).trans ?_
  unfold Pipeline.ΦA
  iintro ⟨Hr, Hg⟩
  isplitl [Hg]; · iexact Hg
  isplitr; · iempintro
  iexact Hr

end Region

end Cert.Kernel.Hand

end
-- ==== Proof.KLin9.lean ====
import proofs.«169470_j5557687681111_1_alg».proof.Proof.Gen.Kernel.Launch
import proofs.«169470_j5557687681111_1_alg».proof.Proof.Gen.Kernel.Skeleton
import proofs.«169470_j5557687681111_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The fifth bias-free linear layer (pallas_call 9): activations [81920,256] times weights [256,256], by row blocks

The grid has forty points; point `t` multiplies rows `2048·t … 2048·t + 2047` of the bf16 activations by the whole
f32 weight matrix (rounded to bf16, accumulated in f32, rounded back to bf16) and writes the same rows of the result.
The activations' block moves with the point and is fetched at each; the weights' block is the whole matrix, fetched
once; the result's block is written back at each point. -/

/-- What window `w` of the layer holds for grid point `t`, read out of the arrays as the layer finds them (`V`):
    for the activations and the result the `t`-th block of 2048 rows, for the weights the whole matrix. -/
def iblk9 (c : Dev nD) (w : Fin cfg9.W) (t : Fin cfg9.N) :
    ((cfg9.win w).xblock (cfg9.grid.coords t)).Idx → Elt F (cfg9.win w).elt :=
  ((cfg9.win w).blk t).view.read (Elt F) (V c (Pipeline.arrRef spec9 w))

/-! ## The input buffers when the body runs -/

/-- The activations' staging buffer holds the point's block of rows whenever the body runs, for any proof data over
    the entry arrays `V` whose body leaves that block where it found it. The array's block at a point is `iblk9`
    (`hblock`); the window is an input, never idle and not cut, so a fetch fills the whole buffer with the block, and
    where no fetch happens the block index has not moved since the last one (`Dat.before_in_eq_fetched`). -/
theorem before9_0_of {c : Dev nD} (dat : Dat τ (Elt F) Unit ℕ (Pipeline.UD sig nD τ) ℕ cfg9 c)
    (hA : dat.A 0 = V c (Pipeline.arrRef spec9 0)) (hafter : ∀ t, dat.after 0 t = iblk9 V c 0 t)
    (t : Fin cfg9.N) (d) : dat.before 0 t d = iblk9 V c 0 t := by
  have hblock : ∀ t, dat.blockOf 0 t = iblk9 V c 0 t := fun t => by unfold Dat.blockOf iblk9; rw [hA]
  rw [dat.before_in_eq_fetched 0 rfl (fun _ => rfl) (fun _ _ _ => rfl) (fun t => by rw [hafter, hblock]) t d]
  exact hblock t

/-- The weights' staging buffer holds the whole weight matrix whenever the body runs: it is fetched at the first point
    only, its block index is the same at every point, and the body leaves it as found. -/
theorem before9_1_of {c : Dev nD} (dat : Dat τ (Elt F) Unit ℕ (Pipeline.UD sig nD τ) ℕ cfg9 c)
    (hA : dat.A 1 = V c (Pipeline.arrRef spec9 1)) (hafter : ∀ t, dat.after 1 t = iblk9 V c 1 t)
    (t : Fin cfg9.N) (d) : dat.before 1 t d = iblk9 V c 1 t := by
  have hblock : ∀ t, dat.blockOf 1 t = iblk9 V c 1 t := fun t => by unfold Dat.blockOf iblk9; rw [hA]
  rw [dat.before_in_eq_fetched 1 rfl (fun _ => rfl) (fun _ _ _ => rfl) (fun t => by rw [hafter, hblock]) t d]
  exact hblock t

/-! ## What the body does to its buffers -/

/-- The body touches each staging buffer as a whole: all 2048 rows by 256 columns of an activation block, -/
abbrev rowsAll9 : Rect S2048x256 := Rect.unit (s := S2048x256) ![0, 0] S2048x256.size inb_S2048x256_S2048x256_0_0
/-- and all 256 by 256 entries of the weights. -/
abbrev weightsAll9 : Rect S256x256 := Rect.unit (s := S256x256) ![0, 0] S256x256.size inb_S256x256_S256x256_0_0

/-- The result block the body leaves from an activation block `h` and the weights `wt`: its one store writes the
    product `k9_pay1` of what it loaded over the whole buffer. -/
def out9_2 (h : Vec F S2048x256 .bf16) (wt : Vec F S256x256 .f32) : Vec F S2048x256 .bf16 :=
  View.canon [⟨rowsAll9, k9_pay1 (View.ld h rowsAll9) (View.ld wt weightsAll9)⟩]

/-- That one store is of the whole 2048 by 256 shape, so it covers the buffer. -/
theorem store_covers9 (p : Vec F S2048x256 .bf16) (y : S2048x256.Idx) :
    ∃ pc ∈ ([⟨rowsAll9, p⟩] : List (View.Piece (Elt F) S2048x256 .bf16)), y ∈ pc.1.set :=
  View.cover_of_wholeMem _ (View.Piece.wholeMem_here rfl) y

set_option maxHeartbeats 1000000 in
/-- The kernel body on whole staging buffers: given the activations' buffer reading `h`, the weights' reading `wt` and
    the result's holding anything, it returns with the two inputs as they were and the result's buffer reading
    `out9_2 h wt`. The printed function is its skeleton — two loads, a load of the result buffer whose value goes
    unused, one store —, which the executor runs; what the store's writes leave reads as their canonical contents
    because the store covers the buffer. -/
theorem sound_kernel9 (c : Dev nD) (E : Set ℕ) (i : grid9.Coords)
    (hbuf : Memref sig .tc .vmem S2048x256 .bf16) (hh : hbuf.IsWhole)
    (wbuf : Memref sig .tc .vmem S256x256 .f32) (hw : wbuf.IsWhole)
    (obuf : Memref sig .tc .vmem S2048x256 .bf16) (ho : obuf.IsWhole)
    (h : Vec F S2048x256 .bf16) (wt : Vec F S256x256 .f32) (K : PUnit → sProp 𝕄) :
    iprop(owns (c : Thread nD τ) hbuf fullShare h ∗ owns (c : Thread nD τ) wbuf fullShare wt
        ∗ (∃ d, owns (c : Thread nD τ) obuf fullShare d)
        ∗ (iprop(owns (c : Thread nD τ) hbuf fullShare h ∗ owns (c : Thread nD τ) wbuf fullShare wt
            ∗ owns (c : Thread nD τ) obuf fullShare (out9_2 h wt)) -∗ K ⟨⟩))
      ⊢ wp frame (wpE (defs₀ (F := F)) Variants.none c none) E (cc9_kernel i hbuf hh wbuf hw obuf ho) K := by
  simp only [cc9_kernel_eq_skeleton]; unfold cc9_kernel_skel
  unfold owns
  iintro ⟨⟨%fh, %hfh, Hh⟩, ⟨%fw, %hfw, Hw⟩, ⟨%d, %fo, -, Ho⟩, Hk⟩
  subst hfh; subst hfw
  sl_exec
  sl_step
  iapply Hk
  isplitl [Hh]
  · iexists fh; isplitr
    · ipureintro; rfl
    · iexact Hh
  isplitl [Hw]
  · iexists fw; isplitr
    · ipureintro; rfl
    · iexact Hw
  iexists _; isplitr
  pick_goal 2
  · iexact Ho
  · ipureintro; exact View.read_writes_eq_canon _ _ _ (store_covers9 _)

/-! ## The pipeline's proof data -/

/-- The proof data of the layer's pipeline on core `c`: the arrays as found (`V`); after the body at point `t` the
    two inputs' buffers at their blocks and the result's at `out9_2` of those; the invariant of a pipeline whose body
    touches only its windows' buffers (`Pipeline.ΦA`); full shares; nothing owed. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- Its arrays are the entry contents. -/
theorem A_eq9 (c : Dev nD) (w : Fin cfg9.W) : (dat9 V c).A w = V c (Pipeline.arrRef spec9 w) := by
  dsimp only [dat9]

/-- What the body leaves in each window's buffer, one window at a time. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) :
    (dat9 V c).after 2 t = out9_2 (iblk9 V c 0 t) (iblk9 V c 1 t) := by dsimp only [dat9]

/-- So the body finds the activations' block and the weights in its input buffers at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- The invariant and the tallies owed are the same before and after every point: the body reads neither. -/
theorem Φ_step9 (c : Dev nD) (t : Fin cfg9.N) : (dat9 V c).Φ t.succ = (dat9 V c).Φ t.castSucc := rfl
theorem owes_step9 (c : Dev nD) (t : Fin cfg9.N) :
    (dat9 V c).owesAt () t.succ = (dat9 V c).owesAt () t.castSucc := rfl

/-! ## The body obligation -/

/-- The body at grid point `t`, window by window: handed the invariant, what is owed, and its three current staging
    buffers holding what `Dat.before` says, it returns them holding what `dat9` says it leaves. The inputs hold their
    blocks (`before9_0`, `before9_1`), so the kernel's triple applies; the invariant and the tallies pass by. -/
theorem sound_body9 (c : Dev nD) (t : Fin cfg9.N) :
    iprop((dat9 V c).Φ t.castSucc ∗ (dat9 V c).owesAt () t.castSucc
        ∗ (∃ d, owns (c : Thread nD τ) (st9_0 t) fullShare ((dat9 V c).before 0 t d))
        ∗ (∃ d, owns (c : Thread nD τ) (st9_1 t) fullShare ((dat9 V c).before 1 t d))
        ∗ (∃ d, owns (c : Thread nD τ) (st9_2 t) fullShare ((dat9 V c).before 2 t d)))
      ⊢ wp frame (wpE (defs₀ (F := F)) Variants.none c none) Set.univ (bodyAt9 t) (fun _ =>
          iprop((dat9 V c).Φ t.succ ∗ (dat9 V c).owesAt () t.succ
            ∗ owns (c : Thread nD τ) (st9_0 t) fullShare ((dat9 V c).after 0 t)
            ∗ owns (c : Thread nD τ) (st9_1 t) fullShare ((dat9 V c).after 1 t)
            ∗ owns (c : Thread nD τ) (st9_2 t) fullShare ((dat9 V c).after 2 t))) := by
  simp only [before9_0, before9_1]
  rw [Φ_step9, owes_step9, after9_0, after9_1, after9_2]
  iintro ⟨HΦ, Howed, ⟨%d0, Hh⟩, ⟨%d1, Hw⟩, ⟨%d2, Ho⟩⟩
  iapply (sound_kernel9 c Set.univ (grid9.coords t) _ _ _ _ _ _ (iblk9 V c 0 t) (iblk9 V c 1 t) _)
  isplitl [Hh]; · iexact Hh
  isplitl [Hw]; · iexact Hw
  isplitl [Ho]; · iexists _; iexact Ho
  iintro ⟨Hh, Hw, Ho⟩
  isplitl [HΦ]; · iexact HΦ
  isplitl [Howed]; · iexact Howed
  isplitl [Hh]; · iexact Hh
  isplitl [Hw]; · iexact Hw
  iexact Ho

/-- The library's body obligation for the layer, at every grid point. -/
theorem body_obligation9 (c : Dev nD) :
    BodyObligation (dat9 (F := F) V c) (defs₀ (F := F)) Variants.none () Set.univ := fun t => by
  rw [bigSep_W9, bigSep_W9]
  exact sound_body9 V c t

end Cert.Kernel.Hand
-- ==== Proof.KAgg10.lean ====
import proofs.«169470_j5557687681111_1_alg».proof.Proof.Gen.Kernel.Launch
import proofs.«169470_j5557687681111_1_alg».proof.Proof.Gen.Kernel.Skeleton
import proofs.«169470_j5557687681111_1_alg».proof.Proof.Gen.Kernel.Points
import proofs.«169470_j5557687681111_1_alg».proof.Proof.KAgg2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 10 of @main: the aggregation `out = relu(A · Hc + bias)`, blocked over (i, k) on an 8 × 8 grid

The same kernel as region 2's on this layer's operands: an f32 accumulator kept in a scratch buffer from grid point to
grid point, zeroed at k = 0, added into at every k, read out into the output block at k = 7. The whole-buffer access
lemmas are region 2's. -/

/-! ## The body's two conditions -/

/-- The condition of the body's first `scf.if` (zero the accumulator), from the grid coordinates. -/
abbrev isFirstK10 (i : grid10.Coords) : Prop :=
  (Scalar.cmpi .ne (Scalar.extui (Scalar.cmpi .eq (BitVec.ofNat 32 (i 1).val) 0#32)) 0#32) = 1#1
/-- The condition of its second `scf.if` (store the output block). -/
abbrev isLastK10 (i : grid10.Coords) : Prop := k10_cond2 i = 1#1

/-- The first holds at the points with k = 0, -/
theorem isFirstK10_iff : ∀ t : Fin cfg10.N, isFirstK10 (grid10.coords t) ↔ t.val % 8 = 0 :=
  (by decide +kernel : ∀ t : Fin grid10.N, isFirstK10 (grid10.coords t) ↔ t.val % 8 = 0)
/-- the second at the points with k = 7. -/
theorem isLastK10_iff : ∀ t : Fin cfg10.N, isLastK10 (grid10.coords t) ↔ t.val % 8 = 7 :=
  (by decide +kernel : ∀ t : Fin grid10.N, isLastK10 (grid10.coords t) ↔ t.val % 8 = 7)

/-! ## The body's triple, one per case

On whole memrefs: `a`, `h`, `b` are what the three input buffers read, `s` what the accumulator reads on entry. -/

set_option maxHeartbeats 1000000 in
/-- k = 0: the accumulator, whatever it held, ends at `zeros + a · h`; the output buffer is handed back untouched. -/
theorem cc10_first (c : Dev nD) (E : Set ℕ) (i : grid10.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : isFirstK10 i) (hc1 : ¬isLastK10 i)
    (a : Vec F S1280x1280 .bf16) (h : Vec F S1280x2048 .bf16) (b : Vec F S1x2048 .f32) (o : Vec F S1280x2048 .bf16)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ (∃ s, owns (c : Thread nD τ) arg6 fullShare s)
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k10_pay2 (k10_pay1 (F := F)) a h)) -∗ K ⟨⟩))
      ⊢ wp frame (wpE (defs₀ (F := F)) Variants.none c none) E (cc10_kernel i arg2 harg2 arg3 harg3 arg4 harg4 arg5 harg5 arg6 harg6) K := by
  simp only [cc10_kernel_eq_skeleton]; unfold cc10_kernel_skel
  unfold owns
  iintro ⟨⟨%f2, %hf2, H2⟩, ⟨%f3, %hf3, H3⟩, ⟨%f4, %hf4, H4⟩, ⟨%f5, %hf5, H5⟩, ⟨%s, %f6, -, H6⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  sl_unfold_run_names
  rw [read_writes_whole _ _ offs00, View.readCov_unit_zero _ offs00, readAt_whole_unread harg2 offs00, readAt_whole_unread harg3 offs00]

set_option maxHeartbeats 1000000 in
/-- 0 < k < 7: the accumulator goes from `s` to `s + a · h`; the output buffer is handed back untouched. -/
theorem cc10_mid (c : Dev nD) (E : Set ℕ) (i : grid10.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK10 i) (hc1 : ¬isLastK10 i)
    (a : Vec F S1280x1280 .bf16) (h : Vec F S1280x2048 .bf16) (b : Vec F S1x2048 .f32) (o : Vec F S1280x2048 .bf16) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ owns (c : Thread nD τ) arg5 fullShare o ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare o ∗ owns (c : Thread nD τ) arg6 fullShare (k10_pay2 s a h)) -∗ K ⟨⟩))
      ⊢ wp frame (wpE (defs₀ (F := F)) Variants.none c none) E (cc10_kernel i arg2 harg2 arg3 harg3 arg4 harg4 arg5 harg5 arg6 harg6) K := by
  simp only [cc10_kernel_eq_skeleton]; unfold cc10_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [read_writes_whole _ _ offs00, readAt_whole_unread harg6 offs00, readAt_whole_unread harg2 offs00, readAt_whole_unread harg3 offs00]

set_option maxHeartbeats 1000000 in
/-- k = 7: the accumulator goes from `s` to `s + a · h`, and the output buffer, whatever it held, ends at
    `max(s + a · h + b, 0)` rounded to bf16. -/
theorem cc10_last (c : Dev nD) (E : Set ℕ) (i : grid10.Coords)
    (arg2 : Memref sig .tc .vmem S1280x1280 .bf16) (harg2 : arg2.IsWhole) (arg3 : Memref sig .tc .vmem S1280x2048 .bf16) (harg3 : arg3.IsWhole)
    (arg4 : Memref sig .tc .vmem S1x2048 .f32) (harg4 : arg4.IsWhole) (arg5 : Memref sig .tc .vmem S1280x2048 .bf16) (harg5 : arg5.IsWhole)
    (arg6 : Memref sig .tc .vmem S1280x2048 .f32) (harg6 : arg6.IsWhole)
    (hc0 : ¬isFirstK10 i) (hc1 : isLastK10 i)
    (a : Vec F S1280x1280 .bf16) (h : Vec F S1280x2048 .bf16) (b : Vec F S1x2048 .f32) (s : Vec F S1280x2048 .f32)
    (K : PUnit → sProp 𝕄) :
    iprop(owns (c : Thread nD τ) arg2 fullShare a ∗ owns (c : Thread nD τ) arg3 fullShare h ∗ owns (c : Thread nD τ) arg4 fullShare b
        ∗ (∃ o, owns (c : Thread nD τ) arg5 fullShare o) ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare (k10_pay3 (k10_pay2 s a h) b) ∗ owns (c : Thread nD τ) arg6 fullShare (k10_pay2 s a h)) -∗ K ⟨⟩))
      ⊢ wp frame (wpE (defs₀ (F := F)) Variants.none c none) E (cc10_kernel i arg2 harg2 arg3 harg3 arg4 harg4 arg5 harg5 arg6 harg6) K := by
  simp only [cc10_kernel_eq_skeleton]; unfold cc10_kernel_skel
  unfold owns
  iintro ⟨⟨%f2, %hf2, H2⟩, ⟨%f3, %hf3, H3⟩, ⟨%f4, %hf4, H4⟩, ⟨%o, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [read_writes_whole _ _ offs00, View.readCov_unit_zero _ offs00, readAt_whole_unread harg6 offs00, readAt_whole_unread harg2 offs00,
      readAt_whole_unread harg3 offs00, readAt_whole_unread harg4 offs00]
  iexists _; isplitr
  swap; · iexact H6
  ipureintro
  sl_unfold_run_names
  rw [read_writes_whole _ _ offs00, readAt_whole_unread harg6 offs00, readAt_whole_unread harg2 offs00, readAt_whole_unread harg3 offs00]

section Region

-- the TensorCore's buffer contents when the region is entered: everything below is stated at this parameter
variable (V : (c : Dev nD) → (b : Ref sig .tc) → Buf (Elt F) ((c : Thread nD τ).loc b))

/-! ## The windows' blocks -/

/-- Window `w`'s block at point `t`, read off the window's array as the region finds it. Window 0 is the block (i, k) of
    `A`, window 1 the block (k, 0) of `Hc`, window 2 the bias row, window 3 the block (i, 0) of the output. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The accumulator, point by point -/

/-- What the accumulator holds AFTER the body at point `n`: at a point with k = 0 the product of the point's blocks added
    to zeros, at any other the product added to what the point before left. -/
def accAfter10 (c : Dev nD) : (n : ℕ) → n < cfg10.N → Vec F S1280x2048 .f32
  | 0, hn => k10_pay2 (k10_pay1 (F := F)) (iblk10 V c 0 ⟨0, hn⟩) (iblk10 V c 1 ⟨0, hn⟩)
  | n + 1, hn =>
    if (n + 1) % 8 = 0 then k10_pay2 (k10_pay1 (F := F)) (iblk10 V c 0 ⟨n + 1, hn⟩) (iblk10 V c 1 ⟨n + 1, hn⟩)
    else k10_pay2 (accAfter10 c n (Nat.lt_of_succ_lt hn)) (iblk10 V c 0 ⟨n + 1, hn⟩) (iblk10 V c 1 ⟨n + 1, hn⟩)

/-- At a point with k = 0 the accumulator restarts from zeros. -/
theorem accAfter10_first (c : Dev nD) (t : Fin cfg10.N) (h0 : t.val % 8 = 0) :
    accAfter10 V c t.val t.isLt = k10_pay2 (k10_pay1 (F := F)) (iblk10 V c 0 t) (iblk10 V c 1 t) := by
  obtain ⟨n, hn⟩ := t
  cases n with
  | zero => rfl
  | succ n => exact if_pos h0

/-- At any other point it adds to what the point before left. -/
theorem accAfter10_next (c : Dev nD) (t : Fin cfg10.N) (h0 : ¬t.val % 8 = 0) :
    accAfter10 V c t.val t.isLt
      = k10_pay2 (accAfter10 V c (t.val - 1) (Nat.lt_of_le_of_lt (Nat.sub_le _ _) t.isLt)) (iblk10 V c 0 t) (iblk10 V c 1 t) := by
  obtain ⟨n, hn⟩ := t
  cases n with
  | zero => exact absurd (Nat.zero_mod _) h0
  | succ n => exact if_neg h0

/-- What the scratch holds BEFORE point `t`: what the point before left (before the first point the scratch holds
    anything — the zeros here are a placeholder the invariant does not use). -/
def acc10 (c : Dev nD) (t : Fin (cfg10.N + 1)) : Vec F S1280x2048 .f32 :=
  match t with
  | ⟨0, _⟩ => k10_pay1 (F := F)
  | ⟨n + 1, h⟩ => accAfter10 V c n (Nat.lt_of_succ_lt_succ h)

/-- What the output's staging buffer holds after the body at a point with k = 7: the accumulator, bias added, clamped at
    zero, rounded. (At the other points the body does not touch that buffer and the pipeline does not write it back; the
    proof data's entry there is not consulted.) -/
def out10_3 (c : Dev nD) (t : Fin cfg10.N) : Vec F S1280x2048 .bf16 :=
  k10_pay3 (accAfter10 V c t.val t.isLt) (iblk10 V c 2 t)

/-! ## The row fold: the value the region writes back -/

/-- The accumulator of the row block whose first point is `n0`, after its column blocks 0 … k: a left fold of
    `k10_pay2` from the zeros `k10_pay1` over the blocks at the points `n0`, …, `n0 + k`. -/
def rowAcc10 (c : Dev nD) (n0 : ℕ) : (k : ℕ) → n0 + k < cfg10.N → Vec F S1280x2048 .f32
  | 0, h => k10_pay2 (k10_pay1 (F := F)) (iblk10 V c 0 ⟨n0, h⟩) (iblk10 V c 1 ⟨n0, h⟩)
  | k + 1, h => k10_pay2 (rowAcc10 c n0 k (Nat.lt_of_succ_lt h)) (iblk10 V c 0 ⟨n0 + (k + 1), h⟩) (iblk10 V c 1 ⟨n0 + (k + 1), h⟩)

/-- Within a row block (first point `n0` ≡ 0 mod 8, k < 8) the point-by-point accumulator is the row fold. -/
theorem accAfter10_eq_rowAcc10 (c : Dev nD) (n0 : ℕ) (h0 : n0 % 8 = 0) :
    ∀ (k : ℕ) (_ : k < 8) (h : n0 + k < cfg10.N), accAfter10 V c (n0 + k) h = rowAcc10 V c n0 k h
  | 0, _, h => accAfter10_first V c ⟨n0, h⟩ h0
  | k + 1, hk, h => by
    have hne : ¬(n0 + (k + 1)) % 8 = 0 := by omega
    have e := accAfter10_next V c ⟨n0 + (k + 1), h⟩ hne
    have ih := accAfter10_eq_rowAcc10 c n0 h0 k (by omega) (Nat.lt_of_succ_lt h)
    simp only [Nat.add_succ_sub_one] at e
    rw [e, ih]; rfl

/-- THE VALUE written back for a row block: at a point `t` with k = 7 the output buffer holds `k10_pay3` of the fold of
    `k10_pay2` from `k10_pay1` over the eight points `8 · (t / 8) + k`, k = 0 … 7, and of the bias block. -/
theorem out10_3_last (c : Dev nD) (t : Fin cfg10.N) (h7 : t.val % 8 = 7) :
    out10_3 V c t = k10_pay3 (rowAcc10 V c (8 * (t.val / 8)) 7 (by have := t.isLt; omega)) (iblk10 V c 2 t) := by
  unfold out10_3
  have e : t.val = 8 * (t.val / 8) + 7 := by omega
  have h := accAfter10_eq_rowAcc10 V c (8 * (t.val / 8)) (by omega) 7 (by omega) (by have := t.isLt; omega)
  congr 1
  rw [← h]; congr 1

/-! ## The invariant: the scratch carried from point to point -/

/-- The accumulator scratch as a memref: a whole scoped buffer of the kernel's own, passed beside the windows. -/
abbrev scM10 : Memref sig .tc .vmem S1280x2048 .f32 := Memref.whole cc10_scratch0

/-- Every scoped buffer of the core that is neither a staging buffer of this call nor its scratch, at some contents:
    carried through the region unopened. -/
abbrev others10 (c : Dev nD) : sProp 𝕄 :=
  Pipeline.scopedRestBut (Ix := Unit) (Name := ℕ) (U := Pipeline.UD sig nD τ) (Lvl := ℕ) (Val := Elt F) spec10 c [cc10_scratch0]

/-- The class invariant with the scratch split out and owned as a memref at some contents. -/
theorem PhiA10_eq (c : Dev nD) :
    (Pipeline.ΦA spec10 c : sProp 𝕄)
      = iprop(iprop((∃ d, owns (c : Thread nD τ) scM10 fullShare d) ∗ others10 c) ∗ (∃ r, prngReg c r)) := by
  unfold Pipeline.ΦA; rw [scopedRest10_split]; simp only [scM10, owns_whole]; rfl

/-- The invariant before position `n`: before the first point the class's (the scratch at anything); afterwards the
    same with the scratch at what the point before left in it. -/
def Phi10 (c : Dev nD) : (n : ℕ) → n ≤ cfg10.N → sProp 𝕄
  | 0, _ => Pipeline.ΦA spec10 c
  | n + 1, hn => iprop(iprop(owns (c : Thread nD τ) scM10 fullShare (accAfter10 V c n hn) ∗ others10 c) ∗ (∃ r, prngReg c r))

theorem Phi10_zero (c : Dev nD) (n : ℕ) (h : n ≤ cfg10.N) (hz : n = 0) : Phi10 V c n h = Pipeline.ΦA spec10 c := by
  subst hz; rfl

theorem Phi10_succ (c : Dev nD) (n : ℕ) (hn : n < cfg10.N) :
    Phi10 V c (n + 1) hn = iprop(iprop(owns (c : Thread nD τ) scM10 fullShare (accAfter10 V c n hn) ∗ others10 c) ∗ (∃ r, prngReg c r)) := rfl

theorem Phi10_pos (c : Dev nD) (n : ℕ) (h : n ≤ cfg10.N) (hz : n ≠ 0) :
    Phi10 V c n h = iprop(iprop(owns (c : Thread nD τ) scM10 fullShare (accAfter10 V c (n - 1) (by omega)) ∗ others10 c) ∗ (∃ r, prngReg c r)) := by
  cases n with
  | zero => exact absurd rfl hz
  | succ n => rfl

/-! ## The pipeline's proof data -/

/-- The proof data of the region's pipeline on core `c`: the arrays as the region finds them; after the body each input's
    buffer at its block and the output's at `out10_3`; the invariant `Phi10`; nothing owed; full shares. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 V c t
  Φ t := Phi10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = out10_3 V c t := by dsimp only [dat10]

/-- The invariant at a point's start, restated at the point's position. -/
theorem Phi10_castSucc (c : Dev nD) (t : Fin cfg10.N) :
    (dat10 V c).Φ t.castSucc = Phi10 V c t.val (Nat.le_of_lt t.isLt) := by
  dsimp only [dat10]; simp only [Fin.coe_castSucc]

/-! ## What the body finds in the inputs' buffers

Each input's current staging buffer holds the window's block at every point, whether the pipeline fetched it there or
not: the body leaves the inputs in place, and an input not fetched at a point has the block index of the point before
(the bias row, fetched once). -/

theorem before10_0 (c : Dev nD) (t : Fin cfg10.N) (d) : (dat10 V c).before 0 t d = iblk10 V c 0 t := by
  have hkeep : ∀ t, (cfg10.win 0).cut (cfg10.grid.coords t) ((dat10 V c).after 0 t) = (dat10 V c).blockOf 0 t := fun t => by
    rw [after10_0]; unfold Dat.blockOf iblk10; rw [A_eq10]; try rfl
  rw [(dat10 V c).before_in_eq_fetched 0 rfl (fun _ => rfl) (fun _ _ _ => rfl) hkeep t d]
  unfold Dat.fetched Dat.blockOf iblk10; rw [A_eq10]; try rfl

theorem before10_1 (c : Dev nD) (t : Fin cfg10.N) (d) : (dat10 V c).before 1 t d = iblk10 V c 1 t := by
  have hkeep : ∀ t, (cfg10.win 1).cut (cfg10.grid.coords t) ((dat10 V c).after 1 t) = (dat10 V c).blockOf 1 t := fun t => by
    rw [after10_1]; unfold Dat.blockOf iblk10; rw [A_eq10]; try rfl
  rw [(dat10 V c).before_in_eq_fetched 1 rfl (fun _ => rfl) (fun _ _ _ => rfl) hkeep t d]
  unfold Dat.fetched Dat.blockOf iblk10; rw [A_eq10]; try rfl

theorem before10_2 (c : Dev nD) (t : Fin cfg10.N) (d) : (dat10 V c).before 2 t d = iblk10 V c 2 t := by
  have hkeep : ∀ t, (cfg10.win 2).cut (cfg10.grid.coords t) ((dat10 V c).after 2 t) = (dat10 V c).blockOf 2 t := fun t => by
    rw [after10_2]; unfold Dat.blockOf iblk10; rw [A_eq10]; try rfl
  rw [(dat10 V c).before_in_eq_fetched 2 rfl (fun _ => rfl) (fun _ _ _ => rfl) hkeep t d]
  unfold Dat.fetched Dat.blockOf iblk10; rw [A_eq10]; try rfl

/-! ## Where the output window is idle -/

/-- Away from k = 7 the printed configuration calls the output window idle (the body does not store into it), -/
theorem idle10_3 : ∀ t : Fin cfg10.N, ¬t.val % 8 = 7 → cfg10.idle 3 (cfg10.grid.coords t) = true := by decide +kernel
/-- and the pipeline does not write its block back; -/
theorem noFlush10_3 (t : Fin cfg10.N) (h : ¬t.val % 8 = 7) : (cfg10.win 3).flush t = false :=
  Bool.eq_false_iff.mpr fun hf => h ((flush10_3 t).mp hf)
/-- at k = 7 it is live. -/
theorem live10_3 : ∀ t : Fin cfg10.N, t.val % 8 = 7 → cfg10.idle 3 (cfg10.grid.coords t) = false := by decide +kernel

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

/-- An input window's buffer is left at its block. -/
theorem leaves10_0 (c : Dev nD) (t : Fin cfg10.N) :
    (dat10 V c).leavesExact 0 t = owns (c : Thread nD τ) (st10_0 t) fullShare (iblk10 V c 0 t) := by
  rw [← after10_0]
theorem leaves10_1 (c : Dev nD) (t : Fin cfg10.N) :
    (dat10 V c).leavesExact 1 t = owns (c : Thread nD τ) (st10_1 t) fullShare (iblk10 V c 1 t) := by
  rw [← after10_1]
theorem leaves10_2 (c : Dev nD) (t : Fin cfg10.N) :
    (dat10 V c).leavesExact 2 t = owns (c : Thread nD τ) (st10_2 t) fullShare (iblk10 V c 2 t) := by
  rw [← after10_2]
/-- The output window's, away from k = 7, as the body found it; at k = 7 at `out10_3`. -/
theorem leaves10_3_idle (c : Dev nD) (t : Fin cfg10.N) (h : ¬t.val % 8 = 7) :
    (dat10 V c).leavesExact 3 t = iprop(∃ d, owns (c : Thread nD τ) (st10_3 t) fullShare ((dat10 V c).before 3 t d)) :=
  Dat.leavesExact_idle (dat10 V c) 3 t (idle10_3 t h) (noFlush10_3 t h)
theorem leaves10_3_live (c : Dev nD) (t : Fin cfg10.N) (h : t.val % 8 = 7) :
    (dat10 V c).leavesExact 3 t = owns (c : Thread nD τ) (st10_3 t) fullShare (out10_3 V c t) := by
  unfold Dat.leavesExact; rw [live10_3 t h, after10_3]

set_option maxHeartbeats 4000000 in
/-- The body at any point. The inputs' memrefs hold their blocks (`before10_W`); the position of the point in its row
    (k = 0, 0 < k < 7, k = 7) says which of the three triples applies; the invariant hands the body the scratch at what
    the point before left (at anything before the first point, and at a k = 0 point the triple asks no more) and takes
    it back at this point's contents; the output's buffer is handed back as found away from k = 7 and at `out10_3`
    there; the other scoped buffers, the generator register and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).owesAt () t.succ = (dat10 V c).owesAt () t.castSucc from rfl]
  rw [show (dat10 V c).Φ t.succ = Phi10 V c (t.val + 1) t.isLt from rfl, Phi10_succ]
  rw [leaves10_0, leaves10_1, leaves10_2, Phi10_castSucc]
  have hN : t.val < 64 := lt_of_lt_of_eq t.isLt (show cfg10.N = 64 from N_10)
  by_cases h0 : t.val % 8 = 0
  · have h7 : ¬t.val % 8 = 7 := by omega
    rw [leaves10_3_idle V c t h7, accAfter10_first V c t h0]
    by_cases hz : t.val = 0
    · rw [Phi10_zero V c _ _ hz, PhiA10_eq]
      iintro ⟨⟨⟨HS, HR⟩, Hg⟩, Ho, ⟨%d0, H0⟩, ⟨%d1, H1⟩, ⟨%d2, H2⟩, ⟨%d3, H3⟩⟩
      iapply (cc10_first c Set.univ (grid10.coords t) _ _ _ _ _ _ _ _ _ _ ((isFirstK10_iff t).mpr h0) (fun h => h7 ((isLastK10_iff t).mp h))
        (iblk10 V c 0 t) (iblk10 V c 1 t) (iblk10 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi10_pos V c _ _ hz]
      iintro ⟨⟨⟨HS, HR⟩, Hg⟩, Ho, ⟨%d0, H0⟩, ⟨%d1, H1⟩, ⟨%d2, H2⟩, ⟨%d3, H3⟩⟩
      iapply (cc10_first c Set.univ (grid10.coords t) _ _ _ _ _ _ _ _ _ _ ((isFirstK10_iff t).mpr h0) (fun h => h7 ((isLastK10_iff t).mp h))
        (iblk10 V c 0 t) (iblk10 V c 1 t) (iblk10 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [Phi10_pos V c _ _ hz, accAfter10_next V c t h0]
    by_cases h7 : t.val % 8 = 7
    · rw [leaves10_3_live V c t h7]; unfold out10_3; rw [accAfter10_next V c t h0]
      iintro ⟨⟨⟨HS, HR⟩, Hg⟩, Ho, ⟨%d0, H0⟩, ⟨%d1, H1⟩, ⟨%d2, H2⟩, ⟨%d3, H3⟩⟩
      iapply (cc10_last c Set.univ (grid10.coords t) _ _ _ _ _ _ _ _ _ _ (fun h => h0 ((isFirstK10_iff t).mp h)) ((isLastK10_iff t).mpr h7)
        (iblk10 V c 0 t) (iblk10 V c 1 t) (iblk10 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [leaves10_3_idle V c t h7]
      iintro ⟨⟨⟨HS, HR⟩, Hg⟩, Ho, ⟨%d0, H0⟩, ⟨%d1, H1⟩, ⟨%d2, H2⟩, ⟨%d3, H3⟩⟩
      iapply (cc10_mid c Set.univ (grid10.coords t) _ _ _ _ _ _ _ _ _ _ (fun h => h0 ((isFirstK10_iff t).mp h)) (fun h => h7 ((isLastK10_iff t).mp h))
        (iblk10 V c 0 t) (iblk10 V c 1 t) (iblk10 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## Around the invariant: what the region hands it and takes back -/

/-- The invariant before the first point, from the generator register, anything `T` handed beside it (the prefetched
    tables: this pipeline has none, and the invariant keeps nothing of them) and the scoped buffers no window stages. -/
theorem hin10 (c : Dev nD) (T : sProp 𝕄) :
    iprop((∃ r, prngReg c r) ∗ T
        ∗ Pipeline.scopedRest (Ix := Unit) (Name := ℕ) (U := Pipeline.UD sig nD τ) (Lvl := ℕ) (Val := Elt F) spec10 c)
      ⊢ (dat10 V c).Φ 0 := by
  rw [show (dat10 V c).Φ 0 = Phi10 V c 0 (Nat.zero_le _) from rfl, Phi10_zero V c 0 _ rfl]; unfold Pipeline.ΦA
  iintro ⟨Hg, -, Hr⟩
  isplitl [Hr]; · iexact Hr
  iexact Hg

/-- After any point but the first the invariant gives the class's back: the scratch's named contents are forgotten. -/
theorem Phi10_forget (c : Dev nD) (t : Fin (cfg10.N + 1)) (ht : t.val ≠ 0) : (dat10 V c).Φ t ⊢ Pipeline.ΦA spec10 c := by
  rw [show (dat10 V c).Φ t = Phi10 V c t.val (Nat.le_of_lt_succ t.isLt) from rfl, Phi10_pos V c _ _ ht, PhiA10_eq]
  iintro ⟨⟨HS, HR⟩, Hg⟩
  isplitl [HS HR]
  · isplitl [HS]; · iexists _; iexact HS
    iexact HR
  iexact Hg

/-- The invariant after the last point gives back the generator register, the kernel's own semaphores (it has none) and
    the scoped buffers no window stages. -/
theorem hout10 (c : Dev nD) :
    (dat10 V c).Φ (Fin.last cfg10.N)
      ⊢ iprop((∃ r, prngReg c r)
          ∗ Pipeline.ownSems0 (Ix := Unit) (Name := ℕ) (U := Pipeline.UD sig nD τ) (Lvl := ℕ) (Val := Elt F) (τ := τ) (fun k : PEmpty => k.elim) c
          ∗ Pipeline.scopedRest (Ix := Unit) (Name := ℕ) (U := Pipeline.UD sig nD τ) (Lvl := ℕ) (Val := Elt F) spec10 c) := by
  rw [Pipeline.ownSems0_none]
  refine (Phi10_forget V c _ (by rw [Fin.val_last]; have : cfg10.N = 64 := N_10; omega)).trans ?_
  unfold Pipeline.ΦA
  iintro ⟨Hr, Hg⟩
  isplitl [Hg]; · iexact Hg
  isplitr; · iempintro
  iexact Hr

end Region

end Cert.Kernel.Hand

end
-- ==== Proof.KLin11.lean ====
import proofs.«169470_j5557687681111_1_alg».proof.Proof.Gen.Kernel.Launch
import proofs.«169470_j5557687681111_1_alg».proof.Proof.Gen.Kernel.Skeleton
import proofs.«169470_j5557687681111_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The output linear layer with bias (pallas_call 11): activations [81920,256] times weights [256,3], plus bias [1,3], by row blocks

The grid has forty points; point `t` takes rows `2048·t … 2048·t + 2047` of the bf16 activations, multiplies them by
the whole f32 weight matrix rounded to bf16, accumulating in f32, adds the bias row to every row, and writes the same
rows of the f32 result. The activations' block moves with the point and is fetched at each; the weights and the bias
are whole arrays, fetched once; the result's block is written back at each point. -/

/-- What window `w` of the layer holds for grid point `t`, read out of the arrays as the layer finds them (`V`):
    for the activations and the result the `t`-th block of 2048 rows, for the weights and the bias the whole array. -/
def iblk11 (c : Dev nD) (w : Fin cfg11.W) (t : Fin cfg11.N) :
    ((cfg11.win w).xblock (cfg11.grid.coords t)).Idx → Elt F (cfg11.win w).elt :=
  ((cfg11.win w).blk t).view.read (Elt F) (V c (Pipeline.arrRef spec11 w))

/-! ## The input buffers when the body runs -/

/-- The activations' staging buffer holds the point's block of rows whenever the body runs, for any proof data over the
    entry arrays `V` whose body leaves that block where it found it. The array's block at a point is `iblk11`
    (`hblock`); the window is an input, never idle and not cut, so a fetch fills the whole buffer with the block, and
    where no fetch happens the block index has not moved since the last one (`Dat.before_in_eq_fetched`). -/
theorem before11_0_of {c : Dev nD} (dat : Dat τ (Elt F) Unit ℕ (Pipeline.UD sig nD τ) ℕ cfg11 c)
    (hA : dat.A 0 = V c (Pipeline.arrRef spec11 0)) (hafter : ∀ t, dat.after 0 t = iblk11 V c 0 t)
    (t : Fin cfg11.N) (d) : dat.before 0 t d = iblk11 V c 0 t := by
  have hblock : ∀ t, dat.blockOf 0 t = iblk11 V c 0 t := fun t => by unfold Dat.blockOf iblk11; rw [hA]
  rw [dat.before_in_eq_fetched 0 rfl (fun _ => rfl) (fun _ _ _ => rfl) (fun t => by rw [hafter, hblock]) t d]
  exact hblock t

/-- The weights' staging buffer holds the whole weight matrix whenever the body runs: it is fetched at the first point
    only, its block index is the same at every point, and the body leaves it as found. -/
theorem before11_1_of {c : Dev nD} (dat : Dat τ (Elt F) Unit ℕ (Pipeline.UD sig nD τ) ℕ cfg11 c)
    (hA : dat.A 1 = V c (Pipeline.arrRef spec11 1)) (hafter : ∀ t, dat.after 1 t = iblk11 V c 1 t)
    (t : Fin cfg11.N) (d) : dat.before 1 t d = iblk11 V c 1 t := by
  have hblock : ∀ t, dat.blockOf 1 t = iblk11 V c 1 t := fun t => by unfold Dat.blockOf iblk11; rw [hA]
  rw [dat.before_in_eq_fetched 1 rfl (fun _ => rfl) (fun _ _ _ => rfl) (fun t => by rw [hafter, hblock]) t d]
  exact hblock t

/-- The bias row's staging buffer likewise holds the whole bias whenever the body runs. -/
theorem before11_2_of {c : Dev nD} (dat : Dat τ (Elt F) Unit ℕ (Pipeline.UD sig nD τ) ℕ cfg11 c)
    (hA : dat.A 2 = V c (Pipeline.arrRef spec11 2)) (hafter : ∀ t, dat.after 2 t = iblk11 V c 2 t)
    (t : Fin cfg11.N) (d) : dat.before 2 t d = iblk11 V c 2 t := by
  have hblock : ∀ t, dat.blockOf 2 t = iblk11 V c 2 t := fun t => by unfold Dat.blockOf iblk11; rw [hA]
  rw [dat.before_in_eq_fetched 2 rfl (fun _ => rfl) (fun _ _ _ => rfl) (fun t => by rw [hafter, hblock]) t d]
  exact hblock t

/-! ## What the body does to its buffers -/

/-- The body touches each staging buffer as a whole: the 2048x256 block of activations, -/
abbrev rowsAll11 : Rect S2048x256 := Rect.unit (s := S2048x256) ![0, 0] S2048x256.size inb_S2048x256_S2048x256_0_0
/-- the 256x3 weights, -/
abbrev weightsAll11 : Rect S256x3 := Rect.unit (s := S256x3) ![0, 0] S256x3.size inb_S256x3_S256x3_0_0
/-- the 1x3 bias row, -/
abbrev biasAll11 : Rect S1x3 := Rect.unit (s := S1x3) ![0, 0] S1x3.size inb_S1x3_S1x3_0_0
/-- and the 2048x3 result block. -/
abbrev resultAll11 : Rect S2048x3 := Rect.unit (s := S2048x3) ![0, 0] S2048x3.size inb_S2048x3_S2048x3_0_0

/-- The result block the body leaves from a block `x` of activations, the weights `wt` and the bias `b`: its one store
    writes `k11_pay1` of what it loaded (the product in f32 plus the bias) over the whole buffer. -/
def out11_3 (x : Vec F S2048x256 .bf16) (wt : Vec F S256x3 .f32) (b : Vec F S1x3 .f32) : Vec F S2048x3 .f32 :=
  View.canon [⟨resultAll11, k11_pay1 (View.ld x rowsAll11) (View.ld wt weightsAll11) (View.ld b biasAll11)⟩]

/-- That one store is of the whole 2048x3 shape, so it covers the buffer. -/
theorem store_covers11 (p : Vec F S2048x3 .f32) (y : S2048x3.Idx) :
    ∃ pc ∈ ([⟨resultAll11, p⟩] : List (View.Piece (Elt F) S2048x3 .f32)), y ∈ pc.1.set :=
  View.cover_of_wholeMem _ (View.Piece.wholeMem_here rfl) y

set_option maxHeartbeats 1000000 in
/-- The kernel body on whole staging buffers: given the activations' buffer reading `x`, the weights' reading `wt`, the
    bias's reading `b` and the result's holding anything, it returns with the three inputs as they were and the
    result's buffer reading `out11_3 x wt b`. The printed function is its skeleton — three loads, a load of the result
    buffer whose value goes unused, one store —, which is run operation by operation; what the store's writes leave
    reads as their canonical contents because the store covers the buffer. -/
theorem sound_kernel11 (c : Dev nD) (E : Set ℕ) (i : grid11.Coords)
    (xbuf : Memref sig .tc .vmem S2048x256 .bf16) (hx : xbuf.IsWhole)
    (wbuf : Memref sig .tc .vmem S256x3 .f32) (hw : wbuf.IsWhole)
    (bbuf : Memref sig .tc .vmem S1x3 .f32) (hb : bbuf.IsWhole)
    (obuf : Memref sig .tc .vmem S2048x3 .f32) (ho : obuf.IsWhole)
    (x : Vec F S2048x256 .bf16) (wt : Vec F S256x3 .f32) (b : Vec F S1x3 .f32) (K : PUnit → sProp 𝕄) :
    iprop(owns (c : Thread nD τ) xbuf fullShare x ∗ owns (c : Thread nD τ) wbuf fullShare wt
        ∗ owns (c : Thread nD τ) bbuf fullShare b ∗ (∃ d, owns (c : Thread nD τ) obuf fullShare d)
        ∗ (iprop(owns (c : Thread nD τ) xbuf fullShare x ∗ owns (c : Thread nD τ) wbuf fullShare wt
            ∗ owns (c : Thread nD τ) bbuf fullShare b ∗ owns (c : Thread nD τ) obuf fullShare (out11_3 x wt b)) -∗ K ⟨⟩))
      ⊢ wp frame (wpE (defs₀ (F := F)) Variants.none c none) E (cc11_kernel i xbuf hx wbuf hw bbuf hb obuf ho) K := by
  simp only [cc11_kernel_eq_skeleton]; unfold cc11_kernel_skel
  unfold owns
  iintro ⟨⟨%fx, %hfx, Hx⟩, ⟨%fw, %hfw, Hw⟩, ⟨%fb, %hfb, Hb⟩, ⟨%d, %fo, -, Ho⟩, Hk⟩
  subst hfx; subst hfw; subst hfb
  sl_exec
  sl_step
  iapply Hk
  isplitl [Hx]
  · iexists fx; isplitr
    · ipureintro; rfl
    · iexact Hx
  isplitl [Hw]
  · iexists fw; isplitr
    · ipureintro; rfl
    · iexact Hw
  isplitl [Hb]
  · iexists fb; isplitr
    · ipureintro; rfl
    · iexact Hb
  iexists _; isplitr
  pick_goal 2
  · iexact Ho
  · ipureintro; exact View.read_writes_eq_canon _ _ _ (store_covers11 _)

/-! ## The pipeline's proof data -/

/-- The proof data of the layer's pipeline on core `c`: the arrays as found (`V`); after the body at point `t` the
    three inputs' buffers at their blocks and the result's at `out11_3` of those; the invariant of a pipeline whose
    body touches only its windows' buffers (`Pipeline.ΦA`); full shares; nothing owed. -/
def dat11 (c : Dev nD) : Dat τ (Elt F) Unit ℕ (Pipeline.UD sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

/-- Its arrays are the entry contents. -/
theorem A_eq11 (c : Dev nD) (w : Fin cfg11.W) : (dat11 V c).A w = V c (Pipeline.arrRef spec11 w) := by
  dsimp only [dat11]

/-- What the body leaves in each window's buffer, one window at a time. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) :
    (dat11 V c).after 3 t = out11_3 (iblk11 V c 0 t) (iblk11 V c 1 t) (iblk11 V c 2 t) := by dsimp only [dat11]

/-- So the body finds the block of activations, the weights and the bias in its input buffers at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- The invariant and the tallies owed are the same before and after every point: the body reads neither. -/
theorem Φ_step11 (c : Dev nD) (t : Fin cfg11.N) : (dat11 V c).Φ t.succ = (dat11 V c).Φ t.castSucc := rfl
theorem owes_step11 (c : Dev nD) (t : Fin cfg11.N) :
    (dat11 V c).owesAt () t.succ = (dat11 V c).owesAt () t.castSucc := rfl

/-! ## The body obligation -/

/-- The body at grid point `t`, window by window: handed the invariant, what is owed, and its four current staging
    buffers holding what `Dat.before` says, it returns them holding what `dat11` says it leaves. The inputs hold their
    blocks (`before11_0`, `before11_1`, `before11_2`), so the kernel's triple applies; the invariant and the tallies
    pass by. -/
theorem sound_body11 (c : Dev nD) (t : Fin cfg11.N) :
    iprop((dat11 V c).Φ t.castSucc ∗ (dat11 V c).owesAt () t.castSucc
        ∗ (∃ d, owns (c : Thread nD τ) (st11_0 t) fullShare ((dat11 V c).before 0 t d))
        ∗ (∃ d, owns (c : Thread nD τ) (st11_1 t) fullShare ((dat11 V c).before 1 t d))
        ∗ (∃ d, owns (c : Thread nD τ) (st11_2 t) fullShare ((dat11 V c).before 2 t d))
        ∗ (∃ d, owns (c : Thread nD τ) (st11_3 t) fullShare ((dat11 V c).before 3 t d)))
      ⊢ wp frame (wpE (defs₀ (F := F)) Variants.none c none) Set.univ (bodyAt11 t) (fun _ =>
          iprop((dat11 V c).Φ t.succ ∗ (dat11 V c).owesAt () t.succ
            ∗ owns (c : Thread nD τ) (st11_0 t) fullShare ((dat11 V c).after 0 t)
            ∗ owns (c : Thread nD τ) (st11_1 t) fullShare ((dat11 V c).after 1 t)
            ∗ owns (c : Thread nD τ) (st11_2 t) fullShare ((dat11 V c).after 2 t)
            ∗ owns (c : Thread nD τ) (st11_3 t) fullShare ((dat11 V c).after 3 t))) := by
  simp only [before11_0, before11_1, before11_2]
  rw [Φ_step11, owes_step11, after11_0, after11_1, after11_2, after11_3]
  iintro ⟨HΦ, Howed, ⟨%d0, Hx⟩, ⟨%d1, Hw⟩, ⟨%d2, Hb⟩, ⟨%d3, Ho⟩⟩
  iapply (sound_kernel11 c Set.univ (grid11.coords t) _ _ _ _ _ _ _ _
    (iblk11 V c 0 t) (iblk11 V c 1 t) (iblk11 V c 2 t) _)
  isplitl [Hx]; · iexact Hx
  isplitl [Hw]; · iexact Hw
  isplitl [Hb]; · iexact Hb
  isplitl [Ho]; · iexists _; iexact Ho
  iintro ⟨Hx, Hw, Hb, Ho⟩
  isplitl [HΦ]; · iexact HΦ
  isplitl [Howed]; · iexact Howed
  isplitl [Hx]; · iexact Hx
  isplitl [Hw]; · iexact Hw
  isplitl [Hb]; · iexact Hb
  iexact Ho

/-- The library's body obligation for the layer, at every grid point. -/
theorem body_obligation11 (c : Dev nD) :
    BodyObligation (dat11 (F := F) V c) (defs₀ (F := F)) Variants.none () Set.univ := fun t => by
  rw [bigSep_W11, bigSep_W11]
  exact sound_body11 V c t

end Cert.Kernel.Hand
-- ==== Proof.KBounds.lean ====
import proofs.«169470_j5557687681111_1_alg».proof.Proof.Gen.Kernel.Regions
import proofs.«169470_j5557687681111_1_alg».proof.Proof.KLin0
import proofs.«169470_j5557687681111_1_alg».proof.Proof.KLin1
import proofs.«169470_j5557687681111_1_alg».proof.Proof.KAgg2
import proofs.«169470_j5557687681111_1_alg».proof.Proof.KLin3
import proofs.«169470_j5557687681111_1_alg».proof.Proof.KAgg4
import proofs.«169470_j5557687681111_1_alg».proof.Proof.KLin5
import proofs.«169470_j5557687681111_1_alg».proof.Proof.KAgg6
import proofs.«169470_j5557687681111_1_alg».proof.Proof.KLin7
import proofs.«169470_j5557687681111_1_alg».proof.Proof.KAgg8
import proofs.«169470_j5557687681111_1_alg».proof.Proof.KLin9
import proofs.«169470_j5557687681111_1_alg».proof.Proof.KAgg10
import proofs.«169470_j5557687681111_1_alg».proof.Proof.KLin11

/-! The buffers' contents at every boundary between two items of the host program: the launch memory pushed through each
    host stretch (the operations' pure results) and, at each kernel region, the region's output array replaced by what the
    region's write-backs leave (the region's proof data read at the valuation the region is entered from). -/

set_option maxRecDepth 16384

noncomputable section

namespace Cert.Kernel.Hand

open Cert.Kernel Cert.Kernel.Gen
open Idealize.ShloMosaic Idealize.ShloMosaic.TcCoe
open Idealize.ShloMosaic.Pipeline (Dat)

variable {F : FTy → Type} [FloatOps F]
variable (m : (ℓ : Loc nD τ sig) → Buf (Elt F) ℓ)

/-- Before the first region: the five leading host stretches have run. -/
def B5 (c : Dev nD) : Valuation τ sig (Elt F) := V5 m c
/-- After region 0: `main_v57` holds what the region's write-backs leave, every other buffer is as it was. -/
def B6 (c : Dev nD) : Valuation τ sig (Elt F) :=
  Function.update (B5 m c) main_v57 ((dat0 (fun c b => B5 m c b) c).arrAt 3 cfg0.N)
/-- After the host stretch that follows it. -/
def B7 (c : Dev nD) : Valuation τ sig (Elt F) := StableHlo.after hostOps1 (B6 m c)
/-- After region 1: `main_v62` holds what the region's write-backs leave, every other buffer is as it was. -/
def B8 (c : Dev nD) : Valuation τ sig (Elt F) :=
  Function.update (B7 m c) main_v62 ((dat1 (fun c b => B7 m c b) c).arrAt 2 cfg1.N)
/-- After the host stretch that follows it. -/
def B9 (c : Dev nD) : Valuation τ sig (Elt F) := StableHlo.after hostOps2 (B8 m c)
/-- After region 2: `main_v72` holds what the region's write-backs leave, every other buffer is as it was. -/
def B10 (c : Dev nD) : Valuation τ sig (Elt F) :=
  Function.update (B9 m c) main_v72 ((dat2 (fun c b => B9 m c b) c).arrAt 3 cfg2.N)
/-- After the host stretch that follows it. -/
def B11 (c : Dev nD) : Valuation τ sig (Elt F) := StableHlo.after hostOps3 (B10 m c)
/-- After region 3: `main_v78` holds what the region's write-backs leave, every other buffer is as it was. -/
def B12 (c : Dev nD) : Valuation τ sig (Elt F) :=
  Function.update (B11 m c) main_v78 ((dat3 (fun c b => B11 m c b) c).arrAt 2 cfg3.N)
/-- After the host stretch that follows it. -/
def B13 (c : Dev nD) : Valuation τ sig (Elt F) := StableHlo.after hostOps4 (B12 m c)
/-- After region 4: `main_v88` holds what the region's write-backs leave, every other buffer is as it was. -/
def B14 (c : Dev nD) : Valuation τ sig (Elt F) :=
  Function.update (B13 m c) main_v88 ((dat4 (fun c b => B13 m c b) c).arrAt 3 cfg4.N)
/-- After the host stretch that follows it. -/
def B15 (c : Dev nD) : Valuation τ sig (Elt F) := StableHlo.after hostOps5 (B14 m c)
/-- After region 5: `main_v94` holds what the region's write-backs leave, every other buffer is as it was. -/
def B16 (c : Dev nD) : Valuation τ sig (Elt F) :=
  Function.update (B15 m c) main_v94 ((dat5 (fun c b => B15 m c b) c).arrAt 2 cfg5.N)
/-- After the host stretch that follows it. -/
def B17 (c : Dev nD) : Valuation τ sig (Elt F) := StableHlo.after hostOps6 (B16 m c)
/-- After region 6: `main_v104` holds what the region's write-backs leave, every other buffer is as it was. -/
def B18 (c : Dev nD) : Valuation τ sig (Elt F) :=
  Function.update (B17 m c) main_v104 ((dat6 (fun c b => B17 m c b) c).arrAt 3 cfg6.N)
/-- After the host stretch that follows it. -/
def B19 (c : Dev nD) : Valuation τ sig (Elt F) := StableHlo.after hostOps7 (B18 m c)
/-- After region 7: `main_v110` holds what the region's write-backs leave, every other buffer is as it was. -/
def B20 (c : Dev nD) : Valuation τ sig (Elt F) :=
  Function.update (B19 m c) main_v110 ((dat7 (fun c b => B19 m c b) c).arrAt 2 cfg7.N)
/-- After the host stretch that follows it. -/
def B21 (c : Dev nD) : Valuation τ sig (Elt F) := StableHlo.after hostOps8 (B20 m c)
/-- After region 8: `main_v120` holds what the region's write-backs leave, every other buffer is as it was. -/
def B22 (c : Dev nD) : Valuation τ sig (Elt F) :=
  Function.update (B21 m c) main_v120 ((dat8 (fun c b => B21 m c b) c).arrAt 3 cfg8.N)
/-- After the host stretch that follows it. -/
def B23 (c : Dev nD) : Valuation τ sig (Elt F) := StableHlo.after hostOps9 (B22 m c)
/-- After region 9: `main_v126` holds what the region's write-backs leave, every other buffer is as it was. -/
def B24 (c : Dev nD) : Valuation τ sig (Elt F) :=
  Function.update (B23 m c) main_v126 ((dat9 (fun c b => B23 m c b) c).arrAt 2 cfg9.N)
/-- After the host stretch that follows it. -/
def B25 (c : Dev nD) : Valuation τ sig (Elt F) := StableHlo.after hostOps10 (B24 m c)
/-- After region 10: `main_v136` holds what the region's write-backs leave, every other buffer is as it was. -/
def B26 (c : Dev nD) : Valuation τ sig (Elt F) :=
  Function.update (B25 m c) main_v136 ((dat10 (fun c b => B25 m c b) c).arrAt 3 cfg10.N)
/-- After the host stretch that follows it. -/
def B27 (c : Dev nD) : Valuation τ sig (Elt F) := StableHlo.after hostOps11 (B26 m c)
/-- After region 11: `main_v141` holds what the region's write-backs leave, every other buffer is as it was. -/
def B28 (c : Dev nD) : Valuation τ sig (Elt F) :=
  Function.update (B27 m c) main_v141 ((dat11 (fun c b => B27 m c b) c).arrAt 3 cfg11.N)
/-- After the host stretch that follows it. -/
def B29 (c : Dev nD) : Valuation τ sig (Elt F) := StableHlo.after hostOps12 (B28 m c)

/-- What each region leaves, as the generated conditional run wants it named: by item number, every reference read off the
    boundary valuation after that item. -/
def outs : Outs (F := F) := fun J r c =>
  match J with
  | 6 => B6 m c r
  | 8 => B8 m c r
  | 10 => B10 m c r
  | 12 => B12 m c r
  | 14 => B14 m c r
  | 16 => B16 m c r
  | 18 => B18 m c r
  | 20 => B20 m c r
  | 22 => B22 m c r
  | 24 => B24 m c r
  | 26 => B26 m c r
  | 28 => B28 m c r
  | _ => m (c, r)

/-- Every proof datum at the valuation its region is entered from. -/
def pdats : (p : Fin 12) → (c : Dev nD) → Dat τ (Elt F) Unit ℕ (Pipeline.UD sig nD τ) ℕ (cfgs p) c
  | ⟨0, _⟩ => fun c => dat0 (fun c b => B5 m c b) c
  | ⟨1, _⟩ => fun c => dat1 (fun c b => B7 m c b) c
  | ⟨2, _⟩ => fun c => dat2 (fun c b => B9 m c b) c
  | ⟨3, _⟩ => fun c => dat3 (fun c b => B11 m c b) c
  | ⟨4, _⟩ => fun c => dat4 (fun c b => B13 m c b) c
  | ⟨5, _⟩ => fun c => dat5 (fun c b => B15 m c b) c
  | ⟨6, _⟩ => fun c => dat6 (fun c b => B17 m c b) c
  | ⟨7, _⟩ => fun c => dat7 (fun c b => B19 m c b) c
  | ⟨8, _⟩ => fun c => dat8 (fun c b => B21 m c b) c
  | ⟨9, _⟩ => fun c => dat9 (fun c b => B23 m c b) c
  | ⟨10, _⟩ => fun c => dat10 (fun c b => B25 m c b) c
  | ⟨11, _⟩ => fun c => dat11 (fun c b => B27 m c b) c

/-! The generated boundary valuations at these outputs ARE the ones above. -/
theorem V5_eq (c : Dev nD) : V5 m c = B5 m c := rfl
theorem V6_eq (c : Dev nD) : V6 m (outs m) c = B6 m c := by
  show Function.update (V5 m c) main_v57 (B6 m c main_v57) = _
  rw [V5_eq]; unfold B6; rw [Function.update_self]
theorem V7_eq (c : Dev nD) : V7 m (outs m) c = B7 m c := by
  show StableHlo.after hostOps1 (V6 m (outs m) c) = _
  rw [V6_eq]; rfl
theorem V8_eq (c : Dev nD) : V8 m (outs m) c = B8 m c := by
  show Function.update (V7 m (outs m) c) main_v62 (B8 m c main_v62) = _
  rw [V7_eq]; unfold B8; rw [Function.update_self]
theorem V9_eq (c : Dev nD) : V9 m (outs m) c = B9 m c := by
  show StableHlo.after hostOps2 (V8 m (outs m) c) = _
  rw [V8_eq]; rfl
theorem V10_eq (c : Dev nD) : V10 m (outs m) c = B10 m c := by
  show Function.update (V9 m (outs m) c) main_v72 (B10 m c main_v72) = _
  rw [V9_eq]; unfold B10; rw [Function.update_self]
theorem V11_eq (c : Dev nD) : V11 m (outs m) c = B11 m c := by
  show StableHlo.after hostOps3 (V10 m (outs m) c) = _
  rw [V10_eq]; rfl
theorem V12_eq (c : Dev nD) : V12 m (outs m) c = B12 m c := by
  show Function.update (V11 m (outs m) c) main_v78 (B12 m c main_v78) = _
  rw [V11_eq]; unfold B12; rw [Function.update_self]
theorem V13_eq (c : Dev nD) : V13 m (outs m) c = B13 m c := by
  show StableHlo.after hostOps4 (V12 m (outs m) c) = _
  rw [V12_eq]; rfl
theorem V14_eq (c : Dev nD) : V14 m (outs m) c = B14 m c := by
  show Function.update (V13 m (outs m) c) main_v88 (B14 m c main_v88) = _
  rw [V13_eq]; unfold B14; rw [Function.update_self]
theorem V15_eq (c : Dev nD) : V15 m (outs m) c = B15 m c := by
  show StableHlo.after hostOps5 (V14 m (outs m) c) = _
  rw [V14_eq]; rfl
theorem V16_eq (c : Dev nD) : V16 m (outs m) c = B16 m c := by
  show Function.update (V15 m (outs m) c) main_v94 (B16 m c main_v94) = _
  rw [V15_eq]; unfold B16; rw [Function.update_self]
theorem V17_eq (c : Dev nD) : V17 m (outs m) c = B17 m c := by
  show StableHlo.after hostOps6 (V16 m (outs m) c) = _
  rw [V16_eq]; rfl
theorem V18_eq (c : Dev nD) : V18 m (outs m) c = B18 m c := by
  show Function.update (V17 m (outs m) c) main_v104 (B18 m c main_v104) = _
  rw [V17_eq]; unfold B18; rw [Function.update_self]
theorem V19_eq (c : Dev nD) : V19 m (outs m) c = B19 m c := by
  show StableHlo.after hostOps7 (V18 m (outs m) c) = _
  rw [V18_eq]; rfl
theorem V20_eq (c : Dev nD) : V20 m (outs m) c = B20 m c := by
  show Function.update (V19 m (outs m) c) main_v110 (B20 m c main_v110) = _
  rw [V19_eq]; unfold B20; rw [Function.update_self]
theorem V21_eq (c : Dev nD) : V21 m (outs m) c = B21 m c := by
  show StableHlo.after hostOps8 (V20 m (outs m) c) = _
  rw [V20_eq]; rfl
theorem V22_eq (c : Dev nD) : V22 m (outs m) c = B22 m c := by
  show Function.update (V21 m (outs m) c) main_v120 (B22 m c main_v120) = _
  rw [V21_eq]; unfold B22; rw [Function.update_self]
theorem V23_eq (c : Dev nD) : V23 m (outs m) c = B23 m c := by
  show StableHlo.after hostOps9 (V22 m (outs m) c) = _
  rw [V22_eq]; rfl
theorem V24_eq (c : Dev nD) : V24 m (outs m) c = B24 m c := by
  show Function.update (V23 m (outs m) c) main_v126 (B24 m c main_v126) = _
  rw [V23_eq]; unfold B24; rw [Function.update_self]
theorem V25_eq (c : Dev nD) : V25 m (outs m) c = B25 m c := by
  show StableHlo.after hostOps10 (V24 m (outs m) c) = _
  rw [V24_eq]; rfl
theorem V26_eq (c : Dev nD) : V26 m (outs m) c = B26 m c := by
  show Function.update (V25 m (outs m) c) main_v136 (B26 m c main_v136) = _
  rw [V25_eq]; unfold B26; rw [Function.update_self]
theorem V27_eq (c : Dev nD) : V27 m (outs m) c = B27 m c := by
  show StableHlo.after hostOps11 (V26 m (outs m) c) = _
  rw [V26_eq]; rfl
theorem V28_eq (c : Dev nD) : V28 m (outs m) c = B28 m c := by
  show Function.update (V27 m (outs m) c) main_v141 (B28 m c main_v141) = _
  rw [V27_eq]; unfold B28; rw [Function.update_self]
theorem V29_eq (c : Dev nD) : V29 m (outs m) c = B29 m c := by
  show StableHlo.after hostOps12 (V28 m (outs m) c) = _
  rw [V28_eq]; rfl

/-! From here on the boundary valuations are opaque: each is a long composition of host operations, and nothing about a
    region needs to look inside the valuation it is entered from. Their defining equations stay available by name. -/
attribute [irreducible] B5 B6 B7 B8 B9 B10 B11 B12 B13 B14 B15 B16 B17 B18 B19 B20 B21 B22 B23 B24 B25 B26 B27 B28 B29

end Cert.Kernel.Hand

end
-- ==== Proof.KRegCommon.lean ====
import proofs.«169470_j5557687681111_1_alg».proof.Proof.KBounds
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

/-! What every region record of this program shares: no variant, no level, and the state that rides beside the buffers through
    every item — the generator register at some state and the core owing nothing. -/

abbrev 𝒱₀ : Variants := Variants.none
abbrev L : GSem nD τ sig → Finset Unit := fun _ => ∅
abbrev lv : GSem nD τ sig → Unit → ℕ := fun _ _ => 0
abbrev Rest (c : Dev nD) : sProp 𝕄 := iprop((∃ r, prngReg c r) ∗ ∃ W, owes (c : Thread nD τ) (0 : CellTallies nD τ sig Unit) W)

end Cert.Kernel.Hand

end
-- ==== Proof.KReg0.lean ====
import proofs.«169470_j5557687681111_1_alg».proof.Proof.KRegCommon
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 0 each of its arrays holds what the valuation after it says: the inputs as entered, the output what the
    write-backs leave. -/
theorem arrs_out0 (c : Dev nD) : ∀ w : Fin cfg0.W,
    (dat0 (fun c b => B5 m c b) c).arrAt w cfg0.N = B6 m c (Pipeline.arrRef spec0 w) := by
  have hin0 : (dat0 (fun c b => B5 m c b) c).arrAt (⟨0, by decide⟩ : Fin cfg0.W) cfg0.N = B6 m c (Pipeline.arrRef spec0 (⟨0, by decide⟩ : Fin cfg0.W)) :=
    ((dat0 (fun c b => B5 m c b) c).arrAt_in ⟨0, by decide⟩ rfl _).trans
      (by unfold B6; rw [Function.update_of_ne (StableHlo.devRef_ne_of_ne (by decide))]; rfl)
  have hin1 : (dat0 (fun c b => B5 m c b) c).arrAt (⟨1, by decide⟩ : Fin cfg0.W) cfg0.N = B6 m c (Pipeline.arrRef spec0 (⟨1, by decide⟩ : Fin cfg0.W)) :=
    ((dat0 (fun c b => B5 m c b) c).arrAt_in ⟨1, by decide⟩ rfl _).trans
      (by unfold B6; rw [Function.update_of_ne (StableHlo.devRef_ne_of_ne (by decide))]; rfl)
  have hin2 : (dat0 (fun c b => B5 m c b) c).arrAt (⟨2, by decide⟩ : Fin cfg0.W) cfg0.N = B6 m c (Pipeline.arrRef spec0 (⟨2, by decide⟩ : Fin cfg0.W)) :=
    ((dat0 (fun c b => B5 m c b) c).arrAt_in ⟨2, by decide⟩ rfl _).trans
      (by unfold B6; rw [Function.update_of_ne (StableHlo.devRef_ne_of_ne (by decide))]; rfl)
  have hres : (dat0 (fun c b => B5 m c b) c).arrAt (⟨3, by decide⟩ : Fin cfg0.W) cfg0.N = B6 m c (Pipeline.arrRef spec0 (⟨3, by decide⟩ : Fin cfg0.W)) := by
    unfold B6; exact (Function.update_self (Proc.devRef .tc main_v57) _ (B5 m c)).symm
  intro w
  match w with
  | ⟨0, _⟩ => exact hin0
  | ⟨1, _⟩ => exact hin1
  | ⟨2, _⟩ => exact hin2
  | ⟨3, _⟩ => exact hres

/-- Every other unscoped buffer is as it was. -/
theorem others_kept0 (c : Dev nD) (b : Ref sig .tc) (hb : b ∉ Finset.univ.image (Pipeline.arrRef spec0)) :
    B6 m c b = B5 m c b := by
  unfold B6
  exact Function.update_of_ne (StableHlo.devRef_ne_of_ne fun e => hb (Finset.mem_image.mpr ⟨⟨3, by decide⟩, Finset.mem_univ _, by subst e; rfl⟩)) _ _

set_option backward.isDefEq.respectTransparency.types false in
/-- Region 0 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => B5 m c b) c).loose
  hwaits := Pipeline.hwaits_of_owed_zero _ _ _ _ L lv 0 fun _ _ => rfl
  pre c := iprop(StableHlo.held (c : Thread nD τ) (Pipeline.ucRefs τ sig) (B5 m c) ∗ Rest c)
  post c := iprop(StableHlo.held (c : Thread nD τ) (Pipeline.ucRefs τ sig) (B6 m c) ∗ Rest c)
  X c := iprop(∃ r, prngReg c r)
  Y c := iprop(∃ r, prngReg c r)
  Z c := Pipeline.unscopedRest (Ix := Unit) (Name := ℕ) (U := Pipeline.UD sig nD τ) (Lvl := ℕ) spec0 c (fun b => B5 m c b)
  hentry c := by
    have harr := Pipeline.arrays_of_unscopedBufs (p := 0) (pcfgs (F := F)) adm (pdats m) launch0.win launch0.arr_whole c
      ((pdats m 0 c).share_full fun _ => rfl) (fun b => B5 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := by
    rw [show (pdats m 0 c).Φ 0 = Pipeline.ΦA spec0 c from rfl]; unfold Pipeline.ΦA
    iintro ⟨Hreg, -, Hscoped⟩
    isplitl [Hscoped] <;> iassumption
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hback := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (fun b => B5 m c b) (fun b => B6 m c b) ((pdats m 0 c).arrAt · cfg0.N) (arrs_out0 m c) (others_kept0 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.Kernel.Hand

end
-- ==== Proof.KReg1.lean ====
import proofs.«169470_j5557687681111_1_alg».proof.Proof.KRegCommon
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 1 each of its arrays holds what the valuation after it says: the inputs as entered, the output what the
    write-backs leave. -/
theorem arrs_out1 (c : Dev nD) : ∀ w : Fin cfg1.W,
    (dat1 (fun c b => B7 m c b) c).arrAt w cfg1.N = B8 m c (Pipeline.arrRef spec1 w) := by
  have hin0 : (dat1 (fun c b => B7 m c b) c).arrAt (⟨0, by decide⟩ : Fin cfg1.W) cfg1.N = B8 m c (Pipeline.arrRef spec1 (⟨0, by decide⟩ : Fin cfg1.W)) :=
    ((dat1 (fun c b => B7 m c b) c).arrAt_in ⟨0, by decide⟩ rfl _).trans
      (by unfold B8; rw [Function.update_of_ne (StableHlo.devRef_ne_of_ne (by decide))]; rfl)
  have hin1 : (dat1 (fun c b => B7 m c b) c).arrAt (⟨1, by decide⟩ : Fin cfg1.W) cfg1.N = B8 m c (Pipeline.arrRef spec1 (⟨1, by decide⟩ : Fin cfg1.W)) :=
    ((dat1 (fun c b => B7 m c b) c).arrAt_in ⟨1, by decide⟩ rfl _).trans
      (by unfold B8; rw [Function.update_of_ne (StableHlo.devRef_ne_of_ne (by decide))]; rfl)
  have hres : (dat1 (fun c b => B7 m c b) c).arrAt (⟨2, by decide⟩ : Fin cfg1.W) cfg1.N = B8 m c (Pipeline.arrRef spec1 (⟨2, by decide⟩ : Fin cfg1.W)) := by
    unfold B8; exact (Function.update_self (Proc.devRef .tc main_v62) _ (B7 m c)).symm
  intro w
  match w with
  | ⟨0, _⟩ => exact hin0
  | ⟨1, _⟩ => exact hin1
  | ⟨2, _⟩ => exact hres

/-- Every other unscoped buffer is as it was. -/
theorem others_kept1 (c : Dev nD) (b : Ref sig .tc) (hb : b ∉ Finset.univ.image (Pipeline.arrRef spec1)) :
    B8 m c b = B7 m c b := by
  unfold B8
  exact Function.update_of_ne (StableHlo.devRef_ne_of_ne fun e => hb (Finset.mem_image.mpr ⟨⟨2, by decide⟩, Finset.mem_univ _, by subst e; rfl⟩)) _ _

set_option backward.isDefEq.respectTransparency.types false in
/-- Region 1 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => B7 m c b) c).loose
  hwaits := Pipeline.hwaits_of_owed_zero _ _ _ _ L lv 1 fun _ _ => rfl
  pre c := iprop(StableHlo.held (c : Thread nD τ) (Pipeline.ucRefs τ sig) (B7 m c) ∗ Rest c)
  post c := iprop(StableHlo.held (c : Thread nD τ) (Pipeline.ucRefs τ sig) (B8 m c) ∗ Rest c)
  X c := iprop(∃ r, prngReg c r)
  Y c := iprop(∃ r, prngReg c r)
  Z c := Pipeline.unscopedRest (Ix := Unit) (Name := ℕ) (U := Pipeline.UD sig nD τ) (Lvl := ℕ) spec1 c (fun b => B7 m c b)
  hentry c := by
    have harr := Pipeline.arrays_of_unscopedBufs (p := 1) (pcfgs (F := F)) adm (pdats m) launch1.win launch1.arr_whole c
      ((pdats m 1 c).share_full fun _ => rfl) (fun b => B7 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := by
    rw [show (pdats m 1 c).Φ 0 = Pipeline.ΦA spec1 c from rfl]; unfold Pipeline.ΦA
    iintro ⟨Hreg, -, Hscoped⟩
    isplitl [Hscoped] <;> iassumption
  hout c := by
    rw [Pipeline.ownSems0_none, show (pdats m 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have hback := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (fun b => B7 m c b) (fun b => B8 m c b) ((pdats m 1 c).arrAt · cfg1.N) (arrs_out1 m c) (others_kept1 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.Kernel.Hand

end
-- ==== Proof.KReg2.lean ====
import proofs.«169470_j5557687681111_1_alg».proof.Proof.KRegCommon
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 2 each of its arrays holds what the valuation after it says: the inputs as entered, the output what the
    write-backs leave. -/
theorem arrs_out2 (c : Dev nD) : ∀ w : Fin cfg2.W,
    (dat2 (fun c b => B9 m c b) c).arrAt w cfg2.N = B10 m c (Pipeline.arrRef spec2 w) := by
  have hin0 : (dat2 (fun c b => B9 m c b) c).arrAt (⟨0, by decide⟩ : Fin cfg2.W) cfg2.N = B10 m c (Pipeline.arrRef spec2 (⟨0, by decide⟩ : Fin cfg2.W)) :=
    ((dat2 (fun c b => B9 m c b) c).arrAt_in ⟨0, by decide⟩ rfl _).trans
      (by unfold B10; rw [Function.update_of_ne (StableHlo.devRef_ne_of_ne (by decide))]; rfl)
  have hin1 : (dat2 (fun c b => B9 m c b) c).arrAt (⟨1, by decide⟩ : Fin cfg2.W) cfg2.N = B10 m c (Pipeline.arrRef spec2 (⟨1, by decide⟩ : Fin cfg2.W)) :=
    ((dat2 (fun c b => B9 m c b) c).arrAt_in ⟨1, by decide⟩ rfl _).trans
      (by unfold B10; rw [Function.update_of_ne (StableHlo.devRef_ne_of_ne (by decide))]; rfl)
  have hin2 : (dat2 (fun c b => B9 m c b) c).arrAt (⟨2, by decide⟩ : Fin cfg2.W) cfg2.N = B10 m c (Pipeline.arrRef spec2 (⟨2, by decide⟩ : Fin cfg2.W)) :=
    ((dat2 (fun c b => B9 m c b) c).arrAt_in ⟨2, by decide⟩ rfl _).trans
      (by unfold B10; rw [Function.update_of_ne (StableHlo.devRef_ne_of_ne (by decide))]; rfl)
  have hres : (dat2 (fun c b => B9 m c b) c).arrAt (⟨3, by decide⟩ : Fin cfg2.W) cfg2.N = B10 m c (Pipeline.arrRef spec2 (⟨3, by decide⟩ : Fin cfg2.W)) := by
    unfold B10; exact (Function.update_self (Proc.devRef .tc main_v72) _ (B9 m c)).symm
  intro w
  match w with
  | ⟨0, _⟩ => exact hin0
  | ⟨1, _⟩ => exact hin1
  | ⟨2, _⟩ => exact hin2
  | ⟨3, _⟩ => exact hres

/-- Every other unscoped buffer is as it was. -/
theorem others_kept2 (c : Dev nD) (b : Ref sig .tc) (hb : b ∉ Finset.univ.image (Pipeline.arrRef spec2)) :
    B10 m c b = B9 m c b := by
  unfold B10
  exact Function.update_of_ne (StableHlo.devRef_ne_of_ne fun e => hb (Finset.mem_image.mpr ⟨⟨3, by decide⟩, Finset.mem_univ _, by subst e; rfl⟩)) _ _

set_option backward.isDefEq.respectTransparency.types false in
/-- Region 2 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => B9 m c b) c).loose
  hwaits := Pipeline.hwaits_of_owed_zero _ _ _ _ L lv 2 fun _ _ => rfl
  pre c := iprop(StableHlo.held (c : Thread nD τ) (Pipeline.ucRefs τ sig) (B9 m c) ∗ Rest c)
  post c := iprop(StableHlo.held (c : Thread nD τ) (Pipeline.ucRefs τ sig) (B10 m c) ∗ Rest c)
  X c := iprop(∃ r, prngReg c r)
  Y c := iprop(∃ r, prngReg c r)
  Z c := Pipeline.unscopedRest (Ix := Unit) (Name := ℕ) (U := Pipeline.UD sig nD τ) (Lvl := ℕ) spec2 c (fun b => B9 m c b)
  hentry c := by
    have harr := Pipeline.arrays_of_unscopedBufs (p := 2) (pcfgs (F := F)) adm (pdats m) launch2.win launch2.arr_whole c
      ((pdats m 2 c).share_full fun _ => rfl) (fun b => B9 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := hin2 (fun c b => B9 m c b) c _
  hout c := hout2 (fun c b => B9 m c b) c
  hexit c := by
    have hback := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (fun b => B9 m c b) (fun b => B10 m c b) ((pdats m 2 c).arrAt · cfg2.N) (arrs_out2 m c) (others_kept2 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.Kernel.Hand

end
-- ==== Proof.KReg3.lean ====
import proofs.«169470_j5557687681111_1_alg».proof.Proof.KRegCommon
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 3 each of its arrays holds what the valuation after it says: the inputs as entered, the output what the
    write-backs leave. -/
theorem arrs_out3 (c : Dev nD) : ∀ w : Fin cfg3.W,
    (dat3 (fun c b => B11 m c b) c).arrAt w cfg3.N = B12 m c (Pipeline.arrRef spec3 w) := by
  have hin0 : (dat3 (fun c b => B11 m c b) c).arrAt (⟨0, by decide⟩ : Fin cfg3.W) cfg3.N = B12 m c (Pipeline.arrRef spec3 (⟨0, by decide⟩ : Fin cfg3.W)) :=
    ((dat3 (fun c b => B11 m c b) c).arrAt_in ⟨0, by decide⟩ rfl _).trans
      (by unfold B12; rw [Function.update_of_ne (StableHlo.devRef_ne_of_ne (by decide))]; rfl)
  have hin1 : (dat3 (fun c b => B11 m c b) c).arrAt (⟨1, by decide⟩ : Fin cfg3.W) cfg3.N = B12 m c (Pipeline.arrRef spec3 (⟨1, by decide⟩ : Fin cfg3.W)) :=
    ((dat3 (fun c b => B11 m c b) c).arrAt_in ⟨1, by decide⟩ rfl _).trans
      (by unfold B12; rw [Function.update_of_ne (StableHlo.devRef_ne_of_ne (by decide))]; rfl)
  have hres : (dat3 (fun c b => B11 m c b) c).arrAt (⟨2, by decide⟩ : Fin cfg3.W) cfg3.N = B12 m c (Pipeline.arrRef spec3 (⟨2, by decide⟩ : Fin cfg3.W)) := by
    unfold B12; exact (Function.update_self (Proc.devRef .tc main_v78) _ (B11 m c)).symm
  intro w
  match w with
  | ⟨0, _⟩ => exact hin0
  | ⟨1, _⟩ => exact hin1
  | ⟨2, _⟩ => exact hres

/-- Every other unscoped buffer is as it was. -/
theorem others_kept3 (c : Dev nD) (b : Ref sig .tc) (hb : b ∉ Finset.univ.image (Pipeline.arrRef spec3)) :
    B12 m c b = B11 m c b := by
  unfold B12
  exact Function.update_of_ne (StableHlo.devRef_ne_of_ne fun e => hb (Finset.mem_image.mpr ⟨⟨2, by decide⟩, Finset.mem_univ _, by subst e; rfl⟩)) _ _

set_option backward.isDefEq.respectTransparency.types false in
/-- Region 3 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => B11 m c b) c).loose
  hwaits := Pipeline.hwaits_of_owed_zero _ _ _ _ L lv 3 fun _ _ => rfl
  pre c := iprop(StableHlo.held (c : Thread nD τ) (Pipeline.ucRefs τ sig) (B11 m c) ∗ Rest c)
  post c := iprop(StableHlo.held (c : Thread nD τ) (Pipeline.ucRefs τ sig) (B12 m c) ∗ Rest c)
  X c := iprop(∃ r, prngReg c r)
  Y c := iprop(∃ r, prngReg c r)
  Z c := Pipeline.unscopedRest (Ix := Unit) (Name := ℕ) (U := Pipeline.UD sig nD τ) (Lvl := ℕ) spec3 c (fun b => B11 m c b)
  hentry c := by
    have harr := Pipeline.arrays_of_unscopedBufs (p := 3) (pcfgs (F := F)) adm (pdats m) launch3.win launch3.arr_whole c
      ((pdats m 3 c).share_full fun _ => rfl) (fun b => B11 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := by
    rw [show (pdats m 3 c).Φ 0 = Pipeline.ΦA spec3 c from rfl]; unfold Pipeline.ΦA
    iintro ⟨Hreg, -, Hscoped⟩
    isplitl [Hscoped] <;> iassumption
  hout c := by
    rw [Pipeline.ownSems0_none, show (pdats m 3 c).Φ (Fin.last _) = Pipeline.ΦA spec3 c from rfl]; unfold Pipeline.ΦA
    iintro ⟨Hscoped, Hreg⟩
    isplitl [Hreg]; · iexact Hreg
    isplitr; · iempintro
    iexact Hscoped
  hexit c := by
    have hback := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (fun b => B11 m c b) (fun b => B12 m c b) ((pdats m 3 c).arrAt · cfg3.N) (arrs_out3 m c) (others_kept3 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.Kernel.Hand

end
-- ==== Proof.KReg4.lean ====
import proofs.«169470_j5557687681111_1_alg».proof.Proof.KRegCommon
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 4 each of its arrays holds what the valuation after it says: the inputs as entered, the output what the
    write-backs leave. -/
theorem arrs_out4 (c : Dev nD) : ∀ w : Fin cfg4.W,
    (dat4 (fun c b => B13 m c b) c).arrAt w cfg4.N = B14 m c (Pipeline.arrRef spec4 w) := by
  have hin0 : (dat4 (fun c b => B13 m c b) c).arrAt (⟨0, by decide⟩ : Fin cfg4.W) cfg4.N = B14 m c (Pipeline.arrRef spec4 (⟨0, by decide⟩ : Fin cfg4.W)) :=
    ((dat4 (fun c b => B13 m c b) c).arrAt_in ⟨0, by decide⟩ rfl _).trans
      (by unfold B14; rw [Function.update_of_ne (StableHlo.devRef_ne_of_ne (by decide))]; rfl)
  have hin1 : (dat4 (fun c b => B13 m c b) c).arrAt (⟨1, by decide⟩ : Fin cfg4.W) cfg4.N = B14 m c (Pipeline.arrRef spec4 (⟨1, by decide⟩ : Fin cfg4.W)) :=
    ((dat4 (fun c b => B13 m c b) c).arrAt_in ⟨1, by decide⟩ rfl _).trans
      (by unfold B14; rw [Function.update_of_ne (StableHlo.devRef_ne_of_ne (by decide))]; rfl)
  have hin2 : (dat4 (fun c b => B13 m c b) c).arrAt (⟨2, by decide⟩ : Fin cfg4.W) cfg4.N = B14 m c (Pipeline.arrRef spec4 (⟨2, by decide⟩ : Fin cfg4.W)) :=
    ((dat4 (fun c b => B13 m c b) c).arrAt_in ⟨2, by decide⟩ rfl _).trans
      (by unfold B14; rw [Function.update_of_ne (StableHlo.devRef_ne_of_ne (by decide))]; rfl)
  have hres : (dat4 (fun c b => B13 m c b) c).arrAt (⟨3, by decide⟩ : Fin cfg4.W) cfg4.N = B14 m c (Pipeline.arrRef spec4 (⟨3, by decide⟩ : Fin cfg4.W)) := by
    unfold B14; exact (Function.update_self (Proc.devRef .tc main_v88) _ (B13 m c)).symm
  intro w
  match w with
  | ⟨0, _⟩ => exact hin0
  | ⟨1, _⟩ => exact hin1
  | ⟨2, _⟩ => exact hin2
  | ⟨3, _⟩ => exact hres

/-- Every other unscoped buffer is as it was. -/
theorem others_kept4 (c : Dev nD) (b : Ref sig .tc) (hb : b ∉ Finset.univ.image (Pipeline.arrRef spec4)) :
    B14 m c b = B13 m c b := by
  unfold B14
  exact Function.update_of_ne (StableHlo.devRef_ne_of_ne fun e => hb (Finset.mem_image.mpr ⟨⟨3, by decide⟩, Finset.mem_univ _, by subst e; rfl⟩)) _ _

set_option backward.isDefEq.respectTransparency.types false in
/-- Region 4 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => B13 m c b) c).loose
  hwaits := Pipeline.hwaits_of_owed_zero _ _ _ _ L lv 4 fun _ _ => rfl
  pre c := iprop(StableHlo.held (c : Thread nD τ) (Pipeline.ucRefs τ sig) (B13 m c) ∗ Rest c)
  post c := iprop(StableHlo.held (c : Thread nD τ) (Pipeline.ucRefs τ sig) (B14 m c) ∗ Rest c)
  X c := iprop(∃ r, prngReg c r)
  Y c := iprop(∃ r, prngReg c r)
  Z c := Pipeline.unscopedRest (Ix := Unit) (Name := ℕ) (U := Pipeline.UD sig nD τ) (Lvl := ℕ) spec4 c (fun b => B13 m c b)
  hentry c := by
    have harr := Pipeline.arrays_of_unscopedBufs (p := 4) (pcfgs (F := F)) adm (pdats m) launch4.win launch4.arr_whole c
      ((pdats m 4 c).share_full fun _ => rfl) (fun b => B13 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := hin4 (fun c b => B13 m c b) c _
  hout c := hout4 (fun c b => B13 m c b) c
  hexit c := by
    have hback := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (fun b => B13 m c b) (fun b => B14 m c b) ((pdats m 4 c).arrAt · cfg4.N) (arrs_out4 m c) (others_kept4 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.Kernel.Hand

end
-- ==== Proof.KReg5.lean ====
import proofs.«169470_j5557687681111_1_alg».proof.Proof.KRegCommon
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 5 each of its arrays holds what the valuation after it says: the inputs as entered, the output what the
    write-backs leave. -/
theorem arrs_out5 (c : Dev nD) : ∀ w : Fin cfg5.W,
    (dat5 (fun c b => B15 m c b) c).arrAt w cfg5.N = B16 m c (Pipeline.arrRef spec5 w) := by
  have hin0 : (dat5 (fun c b => B15 m c b) c).arrAt (⟨0, by decide⟩ : Fin cfg5.W) cfg5.N = B16 m c (Pipeline.arrRef spec5 (⟨0, by decide⟩ : Fin cfg5.W)) :=
    ((dat5 (fun c b => B15 m c b) c).arrAt_in ⟨0, by decide⟩ rfl _).trans
      (by unfold B16; rw [Function.update_of_ne (StableHlo.devRef_ne_of_ne (by decide))]; rfl)
  have hin1 : (dat5 (fun c b => B15 m c b) c).arrAt (⟨1, by decide⟩ : Fin cfg5.W) cfg5.N = B16 m c (Pipeline.arrRef spec5 (⟨1, by decide⟩ : Fin cfg5.W)) :=
    ((dat5 (fun c b => B15 m c b) c).arrAt_in ⟨1, by decide⟩ rfl _).trans
      (by unfold B16; rw [Function.update_of_ne (StableHlo.devRef_ne_of_ne (by decide))]; rfl)
  have hres : (dat5 (fun c b => B15 m c b) c).arrAt (⟨2, by decide⟩ : Fin cfg5.W) cfg5.N = B16 m c (Pipeline.arrRef spec5 (⟨2, by decide⟩ : Fin cfg5.W)) := by
    unfold B16; exact (Function.update_self (Proc.devRef .tc main_v94) _ (B15 m c)).symm
  intro w
  match w with
  | ⟨0, _⟩ => exact hin0
  | ⟨1, _⟩ => exact hin1
  | ⟨2, _⟩ => exact hres

/-- Every other unscoped buffer is as it was. -/
theorem others_kept5 (c : Dev nD) (b : Ref sig .tc) (hb : b ∉ Finset.univ.image (Pipeline.arrRef spec5)) :
    B16 m c b = B15 m c b := by
  unfold B16
  exact Function.update_of_ne (StableHlo.devRef_ne_of_ne fun e => hb (Finset.mem_image.mpr ⟨⟨2, by decide⟩, Finset.mem_univ _, by subst e; rfl⟩)) _ _

set_option backward.isDefEq.respectTransparency.types false in
/-- Region 5 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (fun c b => B15 m c b) c).loose
  hwaits := Pipeline.hwaits_of_owed_zero _ _ _ _ L lv 5 fun _ _ => rfl
  pre c := iprop(StableHlo.held (c : Thread nD τ) (Pipeline.ucRefs τ sig) (B15 m c) ∗ Rest c)
  post c := iprop(StableHlo.held (c : Thread nD τ) (Pipeline.ucRefs τ sig) (B16 m c) ∗ Rest c)
  X c := iprop(∃ r, prngReg c r)
  Y c := iprop(∃ r, prngReg c r)
  Z c := Pipeline.unscopedRest (Ix := Unit) (Name := ℕ) (U := Pipeline.UD sig nD τ) (Lvl := ℕ) spec5 c (fun b => B15 m c b)
  hentry c := by
    have harr := Pipeline.arrays_of_unscopedBufs (p := 5) (pcfgs (F := F)) adm (pdats m) launch5.win launch5.arr_whole c
      ((pdats m 5 c).share_full fun _ => rfl) (fun b => B15 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := by
    rw [show (pdats m 5 c).Φ 0 = Pipeline.ΦA spec5 c from rfl]; unfold Pipeline.ΦA
    iintro ⟨Hreg, -, Hscoped⟩
    isplitl [Hscoped] <;> iassumption
  hout c := by
    rw [Pipeline.ownSems0_none, show (pdats m 5 c).Φ (Fin.last _) = Pipeline.ΦA spec5 c from rfl]; unfold Pipeline.ΦA
    iintro ⟨Hscoped, Hreg⟩
    isplitl [Hreg]; · iexact Hreg
    isplitr; · iempintro
    iexact Hscoped
  hexit c := by
    have hback := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (fun b => B15 m c b) (fun b => B16 m c b) ((pdats m 5 c).arrAt · cfg5.N) (arrs_out5 m c) (others_kept5 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.Kernel.Hand

end
-- ==== Proof.KReg6.lean ====
import proofs.«169470_j5557687681111_1_alg».proof.Proof.KRegCommon
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 6 each of its arrays holds what the valuation after it says: the inputs as entered, the output what the
    write-backs leave. -/
theorem arrs_out6 (c : Dev nD) : ∀ w : Fin cfg6.W,
    (dat6 (fun c b => B17 m c b) c).arrAt w cfg6.N = B18 m c (Pipeline.arrRef spec6 w) := by
  have hin0 : (dat6 (fun c b => B17 m c b) c).arrAt (⟨0, by decide⟩ : Fin cfg6.W) cfg6.N = B18 m c (Pipeline.arrRef spec6 (⟨0, by decide⟩ : Fin cfg6.W)) :=
    ((dat6 (fun c b => B17 m c b) c).arrAt_in ⟨0, by decide⟩ rfl _).trans
      (by unfold B18; rw [Function.update_of_ne (StableHlo.devRef_ne_of_ne (by decide))]; rfl)
  have hin1 : (dat6 (fun c b => B17 m c b) c).arrAt (⟨1, by decide⟩ : Fin cfg6.W) cfg6.N = B18 m c (Pipeline.arrRef spec6 (⟨1, by decide⟩ : Fin cfg6.W)) :=
    ((dat6 (fun c b => B17 m c b) c).arrAt_in ⟨1, by decide⟩ rfl _).trans
      (by unfold B18; rw [Function.update_of_ne (StableHlo.devRef_ne_of_ne (by decide))]; rfl)
  have hin2 : (dat6 (fun c b => B17 m c b) c).arrAt (⟨2, by decide⟩ : Fin cfg6.W) cfg6.N = B18 m c (Pipeline.arrRef spec6 (⟨2, by decide⟩ : Fin cfg6.W)) :=
    ((dat6 (fun c b => B17 m c b) c).arrAt_in ⟨2, by decide⟩ rfl _).trans
      (by unfold B18; rw [Function.update_of_ne (StableHlo.devRef_ne_of_ne (by decide))]; rfl)
  have hres : (dat6 (fun c b => B17 m c b) c).arrAt (⟨3, by decide⟩ : Fin cfg6.W) cfg6.N = B18 m c (Pipeline.arrRef spec6 (⟨3, by decide⟩ : Fin cfg6.W)) := by
    unfold B18; exact (Function.update_self (Proc.devRef .tc main_v104) _ (B17 m c)).symm
  intro w
  match w with
  | ⟨0, _⟩ => exact hin0
  | ⟨1, _⟩ => exact hin1
  | ⟨2, _⟩ => exact hin2
  | ⟨3, _⟩ => exact hres

/-- Every other unscoped buffer is as it was. -/
theorem others_kept6 (c : Dev nD) (b : Ref sig .tc) (hb : b ∉ Finset.univ.image (Pipeline.arrRef spec6)) :
    B18 m c b = B17 m c b := by
  unfold B18
  exact Function.update_of_ne (StableHlo.devRef_ne_of_ne fun e => hb (Finset.mem_image.mpr ⟨⟨3, by decide⟩, Finset.mem_univ _, by subst e; rfl⟩)) _ _

set_option backward.isDefEq.respectTransparency.types false in
/-- Region 6 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg6 : RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (fun c b => B17 m c b) c).loose
  hwaits := Pipeline.hwaits_of_owed_zero _ _ _ _ L lv 6 fun _ _ => rfl
  pre c := iprop(StableHlo.held (c : Thread nD τ) (Pipeline.ucRefs τ sig) (B17 m c) ∗ Rest c)
  post c := iprop(StableHlo.held (c : Thread nD τ) (Pipeline.ucRefs τ sig) (B18 m c) ∗ Rest c)
  X c := iprop(∃ r, prngReg c r)
  Y c := iprop(∃ r, prngReg c r)
  Z c := Pipeline.unscopedRest (Ix := Unit) (Name := ℕ) (U := Pipeline.UD sig nD τ) (Lvl := ℕ) spec6 c (fun b => B17 m c b)
  hentry c := by
    have harr := Pipeline.arrays_of_unscopedBufs (p := 6) (pcfgs (F := F)) adm (pdats m) launch6.win launch6.arr_whole c
      ((pdats m 6 c).share_full fun _ => rfl) (fun b => B17 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := hin6 (fun c b => B17 m c b) c _
  hout c := hout6 (fun c b => B17 m c b) c
  hexit c := by
    have hback := Pipeline.unscopedBufs_of_arrays (p := 6) (pcfgs (F := F)) adm (Ix := Unit) (Name := ℕ) (U := Pipeline.UD sig nD τ) (Lvl := ℕ)
      launch6.win launch6.arr_whole c (pdats m) ((pdats m 6 c).share_full fun _ => rfl)
      (fun b => B17 m c b) (fun b => B18 m c b) ((pdats m 6 c).arrAt · cfg6.N) (arrs_out6 m c) (others_kept6 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.Kernel.Hand

end
-- ==== Proof.KReg7.lean ====
import proofs.«169470_j5557687681111_1_alg».proof.Proof.KRegCommon
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 7 each of its arrays holds what the valuation after it says: the inputs as entered, the output what the
    write-backs leave. -/
theorem arrs_out7 (c : Dev nD) : ∀ w : Fin cfg7.W,
    (dat7 (fun c b => B19 m c b) c).arrAt w cfg7.N = B20 m c (Pipeline.arrRef spec7 w) := by
  have hin0 : (dat7 (fun c b => B19 m c b) c).arrAt (⟨0, by decide⟩ : Fin cfg7.W) cfg7.N = B20 m c (Pipeline.arrRef spec7 (⟨0, by decide⟩ : Fin cfg7.W)) :=
    ((dat7 (fun c b => B19 m c b) c).arrAt_in ⟨0, by decide⟩ rfl _).trans
      (by unfold B20; rw [Function.update_of_ne (StableHlo.devRef_ne_of_ne (by decide))]; rfl)
  have hin1 : (dat7 (fun c b => B19 m c b) c).arrAt (⟨1, by decide⟩ : Fin cfg7.W) cfg7.N = B20 m c (Pipeline.arrRef spec7 (⟨1, by decide⟩ : Fin cfg7.W)) :=
    ((dat7 (fun c b => B19 m c b) c).arrAt_in ⟨1, by decide⟩ rfl _).trans
      (by unfold B20; rw [Function.update_of_ne (StableHlo.devRef_ne_of_ne (by decide))]; rfl)
  have hres : (dat7 (fun c b => B19 m c b) c).arrAt (⟨2, by decide⟩ : Fin cfg7.W) cfg7.N = B20 m c (Pipeline.arrRef spec7 (⟨2, by decide⟩ : Fin cfg7.W)) := by
    unfold B20; exact (Function.update_self (Proc.devRef .tc main_v110) _ (B19 m c)).symm
  intro w
  match w with
  | ⟨0, _⟩ => exact hin0
  | ⟨1, _⟩ => exact hin1
  | ⟨2, _⟩ => exact hres

/-- Every other unscoped buffer is as it was. -/
theorem others_kept7 (c : Dev nD) (b : Ref sig .tc) (hb : b ∉ Finset.univ.image (Pipeline.arrRef spec7)) :
    B20 m c b = B19 m c b := by
  unfold B20
  exact Function.update_of_ne (StableHlo.devRef_ne_of_ne fun e => hb (Finset.mem_image.mpr ⟨⟨2, by decide⟩, Finset.mem_univ _, by subst e; rfl⟩)) _ _

set_option backward.isDefEq.respectTransparency.types false in
/-- Region 7 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg7 : RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (fun c b => B19 m c b) c).loose
  hwaits := Pipeline.hwaits_of_owed_zero _ _ _ _ L lv 7 fun _ _ => rfl
  pre c := iprop(StableHlo.held (c : Thread nD τ) (Pipeline.ucRefs τ sig) (B19 m c) ∗ Rest c)
  post c := iprop(StableHlo.held (c : Thread nD τ) (Pipeline.ucRefs τ sig) (B20 m c) ∗ Rest c)
  X c := iprop(∃ r, prngReg c r)
  Y c := iprop(∃ r, prngReg c r)
  Z c := Pipeline.unscopedRest (Ix := Unit) (Name := ℕ) (U := Pipeline.UD sig nD τ) (Lvl := ℕ) spec7 c (fun b => B19 m c b)
  hentry c := by
    have harr := Pipeline.arrays_of_unscopedBufs (p := 7) (pcfgs (F := F)) adm (pdats m) launch7.win launch7.arr_whole c
      ((pdats m 7 c).share_full fun _ => rfl) (fun b => B19 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := by
    rw [show (pdats m 7 c).Φ 0 = Pipeline.ΦA spec7 c from rfl]; unfold Pipeline.ΦA
    iintro ⟨Hreg, -, Hscoped⟩
    isplitl [Hscoped] <;> iassumption
  hout c := by
    rw [Pipeline.ownSems0_none, show (pdats m 7 c).Φ (Fin.last _) = Pipeline.ΦA spec7 c from rfl]; unfold Pipeline.ΦA
    iintro ⟨Hscoped, Hreg⟩
    isplitl [Hreg]; · iexact Hreg
    isplitr; · iempintro
    iexact Hscoped
  hexit c := by
    have hback := Pipeline.unscopedBufs_of_arrays (p := 7) (pcfgs (F := F)) adm (Ix := Unit) (Name := ℕ) (U := Pipeline.UD sig nD τ) (Lvl := ℕ)
      launch7.win launch7.arr_whole c (pdats m) ((pdats m 7 c).share_full fun _ => rfl)
      (fun b => B19 m c b) (fun b => B20 m c b) ((pdats m 7 c).arrAt · cfg7.N) (arrs_out7 m c) (others_kept7 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.Kernel.Hand

end
-- ==== Proof.KReg8.lean ====
import proofs.«169470_j5557687681111_1_alg».proof.Proof.KRegCommon
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 8 each of its arrays holds what the valuation after it says: the inputs as entered, the output what the
    write-backs leave. -/
theorem arrs_out8 (c : Dev nD) : ∀ w : Fin cfg8.W,
    (dat8 (fun c b => B21 m c b) c).arrAt w cfg8.N = B22 m c (Pipeline.arrRef spec8 w) := by
  have hin0 : (dat8 (fun c b => B21 m c b) c).arrAt (⟨0, by decide⟩ : Fin cfg8.W) cfg8.N = B22 m c (Pipeline.arrRef spec8 (⟨0, by decide⟩ : Fin cfg8.W)) :=
    ((dat8 (fun c b => B21 m c b) c).arrAt_in ⟨0, by decide⟩ rfl _).trans
      (by unfold B22; rw [Function.update_of_ne (StableHlo.devRef_ne_of_ne (by decide))]; rfl)
  have hin1 : (dat8 (fun c b => B21 m c b) c).arrAt (⟨1, by decide⟩ : Fin cfg8.W) cfg8.N = B22 m c (Pipeline.arrRef spec8 (⟨1, by decide⟩ : Fin cfg8.W)) :=
    ((dat8 (fun c b => B21 m c b) c).arrAt_in ⟨1, by decide⟩ rfl _).trans
      (by unfold B22; rw [Function.update_of_ne (StableHlo.devRef_ne_of_ne (by decide))]; rfl)
  have hin2 : (dat8 (fun c b => B21 m c b) c).arrAt (⟨2, by decide⟩ : Fin cfg8.W) cfg8.N = B22 m c (Pipeline.arrRef spec8 (⟨2, by decide⟩ : Fin cfg8.W)) :=
    ((dat8 (fun c b => B21 m c b) c).arrAt_in ⟨2, by decide⟩ rfl _).trans
      (by unfold B22; rw [Function.update_of_ne (StableHlo.devRef_ne_of_ne (by decide))]; rfl)
  have hres : (dat8 (fun c b => B21 m c b) c).arrAt (⟨3, by decide⟩ : Fin cfg8.W) cfg8.N = B22 m c (Pipeline.arrRef spec8 (⟨3, by decide⟩ : Fin cfg8.W)) := by
    unfold B22; exact (Function.update_self (Proc.devRef .tc main_v120) _ (B21 m c)).symm
  intro w
  match w with
  | ⟨0, _⟩ => exact hin0
  | ⟨1, _⟩ => exact hin1
  | ⟨2, _⟩ => exact hin2
  | ⟨3, _⟩ => exact hres

/-- Every other unscoped buffer is as it was. -/
theorem others_kept8 (c : Dev nD) (b : Ref sig .tc) (hb : b ∉ Finset.univ.image (Pipeline.arrRef spec8)) :
    B22 m c b = B21 m c b := by
  unfold B22
  exact Function.update_of_ne (StableHlo.devRef_ne_of_ne fun e => hb (Finset.mem_image.mpr ⟨⟨3, by decide⟩, Finset.mem_univ _, by subst e; rfl⟩)) _ _

set_option backward.isDefEq.respectTransparency.types false in
/-- Region 8 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg8 : RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (fun c b => B21 m c b) c).loose
  hwaits := Pipeline.hwaits_of_owed_zero _ _ _ _ L lv 8 fun _ _ => rfl
  pre c := iprop(StableHlo.held (c : Thread nD τ) (Pipeline.ucRefs τ sig) (B21 m c) ∗ Rest c)
  post c := iprop(StableHlo.held (c : Thread nD τ) (Pipeline.ucRefs τ sig) (B22 m c) ∗ Rest c)
  X c := iprop(∃ r, prngReg c r)
  Y c := iprop(∃ r, prngReg c r)
  Z c := Pipeline.unscopedRest (Ix := Unit) (Name := ℕ) (U := Pipeline.UD sig nD τ) (Lvl := ℕ) spec8 c (fun b => B21 m c b)
  hentry c := by
    have harr := Pipeline.arrays_of_unscopedBufs (p := 8) (pcfgs (F := F)) adm (pdats m) launch8.win launch8.arr_whole c
      ((pdats m 8 c).share_full fun _ => rfl) (fun b => B21 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := hin8 (fun c b => B21 m c b) c _
  hout c := hout8 (fun c b => B21 m c b) c
  hexit c := by
    have hback := Pipeline.unscopedBufs_of_arrays (p := 8) (pcfgs (F := F)) adm (Ix := Unit) (Name := ℕ) (U := Pipeline.UD sig nD τ) (Lvl := ℕ)
      launch8.win launch8.arr_whole c (pdats m) ((pdats m 8 c).share_full fun _ => rfl)
      (fun b => B21 m c b) (fun b => B22 m c b) ((pdats m 8 c).arrAt · cfg8.N) (arrs_out8 m c) (others_kept8 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.Kernel.Hand

end
-- ==== Proof.KReg9.lean ====
import proofs.«169470_j5557687681111_1_alg».proof.Proof.KRegCommon
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 9 each of its arrays holds what the valuation after it says: the inputs as entered, the output what the
    write-backs leave. -/
theorem arrs_out9 (c : Dev nD) : ∀ w : Fin cfg9.W,
    (dat9 (fun c b => B23 m c b) c).arrAt w cfg9.N = B24 m c (Pipeline.arrRef spec9 w) := by
  have hin0 : (dat9 (fun c b => B23 m c b) c).arrAt (⟨0, by decide⟩ : Fin cfg9.W) cfg9.N = B24 m c (Pipeline.arrRef spec9 (⟨0, by decide⟩ : Fin cfg9.W)) :=
    ((dat9 (fun c b => B23 m c b) c).arrAt_in ⟨0, by decide⟩ rfl _).trans
      (by unfold B24; rw [Function.update_of_ne (StableHlo.devRef_ne_of_ne (by decide))]; rfl)
  have hin1 : (dat9 (fun c b => B23 m c b) c).arrAt (⟨1, by decide⟩ : Fin cfg9.W) cfg9.N = B24 m c (Pipeline.arrRef spec9 (⟨1, by decide⟩ : Fin cfg9.W)) :=
    ((dat9 (fun c b => B23 m c b) c).arrAt_in ⟨1, by decide⟩ rfl _).trans
      (by unfold B24; rw [Function.update_of_ne (StableHlo.devRef_ne_of_ne (by decide))]; rfl)
  have hres : (dat9 (fun c b => B23 m c b) c).arrAt (⟨2, by decide⟩ : Fin cfg9.W) cfg9.N = B24 m c (Pipeline.arrRef spec9 (⟨2, by decide⟩ : Fin cfg9.W)) := by
    unfold B24; exact (Function.update_self (Proc.devRef .tc main_v126) _ (B23 m c)).symm
  intro w
  match w with
  | ⟨0, _⟩ => exact hin0
  | ⟨1, _⟩ => exact hin1
  | ⟨2, _⟩ => exact hres

/-- Every other unscoped buffer is as it was. -/
theorem others_kept9 (c : Dev nD) (b : Ref sig .tc) (hb : b ∉ Finset.univ.image (Pipeline.arrRef spec9)) :
    B24 m c b = B23 m c b := by
  unfold B24
  exact Function.update_of_ne (StableHlo.devRef_ne_of_ne fun e => hb (Finset.mem_image.mpr ⟨⟨2, by decide⟩, Finset.mem_univ _, by subst e; rfl⟩)) _ _

set_option backward.isDefEq.respectTransparency.types false in
/-- Region 9 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg9 : RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (fun c b => B23 m c b) c).loose
  hwaits := Pipeline.hwaits_of_owed_zero _ _ _ _ L lv 9 fun _ _ => rfl
  pre c := iprop(StableHlo.held (c : Thread nD τ) (Pipeline.ucRefs τ sig) (B23 m c) ∗ Rest c)
  post c := iprop(StableHlo.held (c : Thread nD τ) (Pipeline.ucRefs τ sig) (B24 m c) ∗ Rest c)
  X c := iprop(∃ r, prngReg c r)
  Y c := iprop(∃ r, prngReg c r)
  Z c := Pipeline.unscopedRest (Ix := Unit) (Name := ℕ) (U := Pipeline.UD sig nD τ) (Lvl := ℕ) spec9 c (fun b => B23 m c b)
  hentry c := by
    have harr := Pipeline.arrays_of_unscopedBufs (p := 9) (pcfgs (F := F)) adm (pdats m) launch9.win launch9.arr_whole c
      ((pdats m 9 c).share_full fun _ => rfl) (fun b => B23 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := by
    rw [show (pdats m 9 c).Φ 0 = Pipeline.ΦA spec9 c from rfl]; unfold Pipeline.ΦA
    iintro ⟨Hreg, -, Hscoped⟩
    isplitl [Hscoped] <;> iassumption
  hout c := by
    rw [Pipeline.ownSems0_none, show (pdats m 9 c).Φ (Fin.last _) = Pipeline.ΦA spec9 c from rfl]; unfold Pipeline.ΦA
    iintro ⟨Hscoped, Hreg⟩
    isplitl [Hreg]; · iexact Hreg
    isplitr; · iempintro
    iexact Hscoped
  hexit c := by
    have hback := Pipeline.unscopedBufs_of_arrays (p := 9) (pcfgs (F := F)) adm (Ix := Unit) (Name := ℕ) (U := Pipeline.UD sig nD τ) (Lvl := ℕ)
      launch9.win launch9.arr_whole c (pdats m) ((pdats m 9 c).share_full fun _ => rfl)
      (fun b => B23 m c b) (fun b => B24 m c b) ((pdats m 9 c).arrAt · cfg9.N) (arrs_out9 m c) (others_kept9 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.Kernel.Hand

end
-- ==== Proof.KReg10.lean ====
import proofs.«169470_j5557687681111_1_alg».proof.Proof.KRegCommon
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 10 each of its arrays holds what the valuation after it says: the inputs as entered, the output what the
    write-backs leave. -/
theorem arrs_out10 (c : Dev nD) : ∀ w : Fin cfg10.W,
    (dat10 (fun c b => B25 m c b) c).arrAt w cfg10.N = B26 m c (Pipeline.arrRef spec10 w) := by
  have hin0 : (dat10 (fun c b => B25 m c b) c).arrAt (⟨0, by decide⟩ : Fin cfg10.W) cfg10.N = B26 m c (Pipeline.arrRef spec10 (⟨0, by decide⟩ : Fin cfg10.W)) :=
    ((dat10 (fun c b => B25 m c b) c).arrAt_in ⟨0, by decide⟩ rfl _).trans
      (by unfold B26; rw [Function.update_of_ne (StableHlo.devRef_ne_of_ne (by decide))]; rfl)
  have hin1 : (dat10 (fun c b => B25 m c b) c).arrAt (⟨1, by decide⟩ : Fin cfg10.W) cfg10.N = B26 m c (Pipeline.arrRef spec10 (⟨1, by decide⟩ : Fin cfg10.W)) :=
    ((dat10 (fun c b => B25 m c b) c).arrAt_in ⟨1, by decide⟩ rfl _).trans
      (by unfold B26; rw [Function.update_of_ne (StableHlo.devRef_ne_of_ne (by decide))]; rfl)
  have hin2 : (dat10 (fun c b => B25 m c b) c).arrAt (⟨2, by decide⟩ : Fin cfg10.W) cfg10.N = B26 m c (Pipeline.arrRef spec10 (⟨2, by decide⟩ : Fin cfg10.W)) :=
    ((dat10 (fun c b => B25 m c b) c).arrAt_in ⟨2, by decide⟩ rfl _).trans
      (by unfold B26; rw [Function.update_of_ne (StableHlo.devRef_ne_of_ne (by decide))]; rfl)
  have hres : (dat10 (fun c b => B25 m c b) c).arrAt (⟨3, by decide⟩ : Fin cfg10.W) cfg10.N = B26 m c (Pipeline.arrRef spec10 (⟨3, by decide⟩ : Fin cfg10.W)) := by
    unfold B26; exact (Function.update_self (Proc.devRef .tc main_v136) _ (B25 m c)).symm
  intro w
  match w with
  | ⟨0, _⟩ => exact hin0
  | ⟨1, _⟩ => exact hin1
  | ⟨2, _⟩ => exact hin2
  | ⟨3, _⟩ => exact hres

/-- Every other unscoped buffer is as it was. -/
theorem others_kept10 (c : Dev nD) (b : Ref sig .tc) (hb : b ∉ Finset.univ.image (Pipeline.arrRef spec10)) :
    B26 m c b = B25 m c b := by
  unfold B26
  exact Function.update_of_ne (StableHlo.devRef_ne_of_ne fun e => hb (Finset.mem_image.mpr ⟨⟨3, by decide⟩, Finset.mem_univ _, by subst e; rfl⟩)) _ _

set_option backward.isDefEq.respectTransparency.types false in
/-- Region 10 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg10 : RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (fun c b => B25 m c b) c).loose
  hwaits := Pipeline.hwaits_of_owed_zero _ _ _ _ L lv 10 fun _ _ => rfl
  pre c := iprop(StableHlo.held (c : Thread nD τ) (Pipeline.ucRefs τ sig) (B25 m c) ∗ Rest c)
  post c := iprop(StableHlo.held (c : Thread nD τ) (Pipeline.ucRefs τ sig) (B26 m c) ∗ Rest c)
  X c := iprop(∃ r, prngReg c r)
  Y c := iprop(∃ r, prngReg c r)
  Z c := Pipeline.unscopedRest (Ix := Unit) (Name := ℕ) (U := Pipeline.UD sig nD τ) (Lvl := ℕ) spec10 c (fun b => B25 m c b)
  hentry c := by
    have harr := Pipeline.arrays_of_unscopedBufs (p := 10) (pcfgs (F := F)) adm (pdats m) launch10.win launch10.arr_whole c
      ((pdats m 10 c).share_full fun _ => rfl) (fun b => B25 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := hin10 (fun c b => B25 m c b) c _
  hout c := hout10 (fun c b => B25 m c b) c
  hexit c := by
    have hback := Pipeline.unscopedBufs_of_arrays (p := 10) (pcfgs (F := F)) adm (Ix := Unit) (Name := ℕ) (U := Pipeline.UD sig nD τ) (Lvl := ℕ)
      launch10.win launch10.arr_whole c (pdats m) ((pdats m 10 c).share_full fun _ => rfl)
      (fun b => B25 m c b) (fun b => B26 m c b) ((pdats m 10 c).arrAt · cfg10.N) (arrs_out10 m c) (others_kept10 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.Kernel.Hand

end
-- ==== Proof.KReg11.lean ====
import proofs.«169470_j5557687681111_1_alg».proof.Proof.KRegCommon
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ)

/-- After region 11 each of its arrays holds what the valuation after it says: the inputs as entered, the output what the
    write-backs leave. -/
theorem arrs_out11 (c : Dev nD) : ∀ w : Fin cfg11.W,
    (dat11 (fun c b => B27 m c b) c).arrAt w cfg11.N = B28 m c (Pipeline.arrRef spec11 w) := by
  have hin0 : (dat11 (fun c b => B27 m c b) c).arrAt (⟨0, by decide⟩ : Fin cfg11.W) cfg11.N = B28 m c (Pipeline.arrRef spec11 (⟨0, by decide⟩ : Fin cfg11.W)) :=
    ((dat11 (fun c b => B27 m c b) c).arrAt_in ⟨0, by decide⟩ rfl _).trans
      (by unfold B28; rw [Function.update_of_ne (StableHlo.devRef_ne_of_ne (by decide))]; rfl)
  have hin1 : (dat11 (fun c b => B27 m c b) c).arrAt (⟨1, by decide⟩ : Fin cfg11.W) cfg11.N = B28 m c (Pipeline.arrRef spec11 (⟨1, by decide⟩ : Fin cfg11.W)) :=
    ((dat11 (fun c b => B27 m c b) c).arrAt_in ⟨1, by decide⟩ rfl _).trans
      (by unfold B28; rw [Function.update_of_ne (StableHlo.devRef_ne_of_ne (by decide))]; rfl)
  have hin2 : (dat11 (fun c b => B27 m c b) c).arrAt (⟨2, by decide⟩ : Fin cfg11.W) cfg11.N = B28 m c (Pipeline.arrRef spec11 (⟨2, by decide⟩ : Fin cfg11.W)) :=
    ((dat11 (fun c b => B27 m c b) c).arrAt_in ⟨2, by decide⟩ rfl _).trans
      (by unfold B28; rw [Function.update_of_ne (StableHlo.devRef_ne_of_ne (by decide))]; rfl)
  have hres : (dat11 (fun c b => B27 m c b) c).arrAt (⟨3, by decide⟩ : Fin cfg11.W) cfg11.N = B28 m c (Pipeline.arrRef spec11 (⟨3, by decide⟩ : Fin cfg11.W)) := by
    unfold B28; exact (Function.update_self (Proc.devRef .tc main_v141) _ (B27 m c)).symm
  intro w
  match w with
  | ⟨0, _⟩ => exact hin0
  | ⟨1, _⟩ => exact hin1
  | ⟨2, _⟩ => exact hin2
  | ⟨3, _⟩ => exact hres

/-- Every other unscoped buffer is as it was. -/
theorem others_kept11 (c : Dev nD) (b : Ref sig .tc) (hb : b ∉ Finset.univ.image (Pipeline.arrRef spec11)) :
    B28 m c b = B27 m c b := by
  unfold B28
  exact Function.update_of_ne (StableHlo.devRef_ne_of_ne fun e => hb (Finset.mem_image.mpr ⟨⟨3, by decide⟩, Finset.mem_univ _, by subst e; rfl⟩)) _ _

set_option backward.isDefEq.respectTransparency.types false in
/-- Region 11 as a segment of the host program: entered with every unscoped buffer held at the valuation before it, left with
    them held at the valuation after it; its arrays are taken out of the unscoped buffers at entry and put back at exit; the
    generator register (and, for an accumulating kernel, the accumulator) goes into the region's invariant and comes back;
    nothing is owed and the kernel has no semaphore of its own. -/
def reg11 : RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (fun c b => B27 m c b) c).loose
  hwaits := Pipeline.hwaits_of_owed_zero _ _ _ _ L lv 11 fun _ _ => rfl
  pre c := iprop(StableHlo.held (c : Thread nD τ) (Pipeline.ucRefs τ sig) (B27 m c) ∗ Rest c)
  post c := iprop(StableHlo.held (c : Thread nD τ) (Pipeline.ucRefs τ sig) (B28 m c) ∗ Rest c)
  X c := iprop(∃ r, prngReg c r)
  Y c := iprop(∃ r, prngReg c r)
  Z c := Pipeline.unscopedRest (Ix := Unit) (Name := ℕ) (U := Pipeline.UD sig nD τ) (Lvl := ℕ) spec11 c (fun b => B27 m c b)
  hentry c := by
    have harr := Pipeline.arrays_of_unscopedBufs (p := 11) (pcfgs (F := F)) adm (pdats m) launch11.win launch11.arr_whole c
      ((pdats m 11 c).share_full fun _ => rfl) (fun b => B27 m c b) (fun _ => rfl)
    rw [Pipeline.unscopedBufs_held] at harr
    rw [Pipeline.ownSems0_none]
    iintro ⟨⟨Hbufs, Hreg, Howes⟩, -, -⟩
    ihave Hsplit := harr $$ Hbufs
    icases Hsplit with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := by
    rw [show (pdats m 11 c).Φ 0 = Pipeline.ΦA spec11 c from rfl]; unfold Pipeline.ΦA
    iintro ⟨Hreg, -, Hscoped⟩
    isplitl [Hscoped] <;> iassumption
  hout c := by
    rw [Pipeline.ownSems0_none, show (pdats m 11 c).Φ (Fin.last _) = Pipeline.ΦA spec11 c from rfl]; unfold Pipeline.ΦA
    iintro ⟨Hscoped, Hreg⟩
    isplitl [Hreg]; · iexact Hreg
    isplitr; · iempintro
    iexact Hscoped
  hexit c := by
    have hback := Pipeline.unscopedBufs_of_arrays (p := 11) (pcfgs (F := F)) adm (Ix := Unit) (Name := ℕ) (U := Pipeline.UD sig nD τ) (Lvl := ℕ)
      launch11.win launch11.arr_whole c (pdats m) ((pdats m 11 c).share_full fun _ => rfl)
      (fun b => B27 m c b) (fun b => B28 m c b) ((pdats m 11 c).arrAt · cfg11.N) (arrs_out11 m c) (others_kept11 m c)
    rw [Pipeline.unscopedBufs_held] at hback
    iintro ⟨Harrs, Howes, Hreg, Hothers⟩
    imodintro
    isplitl [Harrs Hothers]
    · iapply hback; isplitl [Harrs] <;> iassumption
    isplitl [Hreg]; · iexact Hreg
    unfold Pipeline.Dat.owesAt Pipeline.owesWithin
    icases Howes with ⟨%W, -, Howes⟩; iexists W; iexact Howes

end Cert.Kernel.Hand

end
-- ==== Proof.KRunCond.lean ====
import proofs.«169470_j5557687681111_1_alg».proof.Proof.Gen.Kernel.Regions

/-! The whole program's run, given each kernel region's record: every weakly fair execution of the host program
    ends, and in the final memory EVERY buffer that lives outside the kernels' scoped memory holds the contents of
    the last boundary valuation — the launch memory pushed through each host stretch and each region's output.
    The frame claim (the arguments end as launched) and the value of the result buffer are both read off it. -/

set_option maxRecDepth 1500

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in
/-- Given, per region, a segment record entered from the boundary valuation before it and left at the one after it,
    the program runs to the end and every unscoped buffer ends at the last boundary valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 12) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 13 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE12 : ∀ c : Dev nD, E 12 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V21 m outs c) ∗ E 8 c) ⊢ R8.pre c)
    (hpost8 : ∀ c : Dev nD, R8.post c ⊢ iprop(StableHlo.held (c : Thread nD τ) (Pipeline.ucRefs τ sig) (V22 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V23 m outs c) ∗ E 9 c) ⊢ R9.pre c)
    (hpost9 : ∀ c : Dev nD, R9.post c ⊢ iprop(StableHlo.held (c : Thread nD τ) (Pipeline.ucRefs τ sig) (V24 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V25 m outs c) ∗ E 10 c) ⊢ R10.pre c)
    (hpost10 : ∀ c : Dev nD, R10.post c ⊢ iprop(StableHlo.held (c : Thread nD τ) (Pipeline.ucRefs τ sig) (V26 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V27 m outs c) ∗ E 11 c) ⊢ R11.pre c)
    (hpost11 : ∀ c : Dev nD, R11.post c ⊢ iprop(StableHlo.held (c : Thread nD τ) (Pipeline.ucRefs τ sig) (V28 m outs c) ∗ E 12 c)) :
    θ_run defs (onTc (τ := τ) (main (F := F))) ⟨m, fun _ => 0, ρ⟩ (fun r => ∀ c : Dev nD,
      ∀ b ∈ Pipeline.ucRefs τ sig, r.2.mem (((c.tc : Thread nD τ)).1, b) = V29 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11)
    (fun c Q => by
      rewrite [main_chain c, Seg.run_eq_chain,
        show (segs m outs 𝒱₀ L lv E ι pdats R0 R1 R2 R3 R4 R5 R6 R7 R8 R9 R10 R11 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V29 m outs c))
    (hch := fun c => ⟨.rfl, .rfl, .rfl, .rfl, .rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, sep_mono .rfl (hE12 c)⟩)
    (hinit := ?_) (QY := fun c s => ∀ b ∈ Pipeline.ucRefs τ sig, s.mem (((c : Thread nD τ)).1, b) = V29 m outs c b)
    (hfin := fun c s' => ?_) (hQ := fun _ h => h)
  · -- The launch state. On each core the unscoped buffers at the launch memory ARE those references held at the first
    -- valuation; a separating product over the cores of a product is the product of the two products, on both sides; the
    -- buffers pass through untouched and the remainder, with the level facts, becomes the first rest state on all cores.
    have hheld : ∀ c : Dev nD,
        (unscopedBufs c (fun b => m ((c.tc : Thread nD τ).loc b)) : sProp (MT nD τ sig Ix (Elt F) ℕ U Lvl))
          = StableHlo.held (c : Thread nD τ) (Pipeline.ucRefs τ sig) (V0 m c) :=
      fun c => Pipeline.unscopedBufs_held (Ix := Ix) (Name := ℕ) (U := U) (Lvl := Lvl) c (V0 m c)
    simp only [hheld]
    rw [bigSep_sep']
    iintro ⟨⟨Hbufs, Hrest⟩, Hlev⟩
    imod hE0 $$ [Hrest Hlev] with Hfirst
    · isplitl [Hrest] <;> iassumption
    imodintro
    rw [bigSep_sep']
    isplitl [Hbufs] <;> iassumption
  · -- The end. The last thread state holds every unscoped reference at the last valuation; read against the final
    -- memory, each such buffer is that valuation's.
    unfold StableHlo.held
    iintro ⟨Hh, HSI⟩
    imodintro
    iapply (pointsTo_read_all (Pipeline.ucRefs τ sig) (fun b => ((c : Thread nD τ).1, b)) (V29 m outs c) s')
    isplitl [Hh] <;> iassumption

end Cert.Kernel.Hand

end
-- ==== Proof.KKernelRun.lean ====
import proofs.«169470_j5557687681111_1_alg».proof.Proof.KReg0
import proofs.«169470_j5557687681111_1_alg».proof.Proof.KReg1
import proofs.«169470_j5557687681111_1_alg».proof.Proof.KReg2
import proofs.«169470_j5557687681111_1_alg».proof.Proof.KReg3
import proofs.«169470_j5557687681111_1_alg».proof.Proof.KReg4
import proofs.«169470_j5557687681111_1_alg».proof.Proof.KReg5
import proofs.«169470_j5557687681111_1_alg».proof.Proof.KReg6
import proofs.«169470_j5557687681111_1_alg».proof.Proof.KReg7
import proofs.«169470_j5557687681111_1_alg».proof.Proof.KReg8
import proofs.«169470_j5557687681111_1_alg».proof.Proof.KReg9
import proofs.«169470_j5557687681111_1_alg».proof.Proof.KReg10
import proofs.«169470_j5557687681111_1_alg».proof.Proof.KReg11
import proofs.«169470_j5557687681111_1_alg».proof.Proof.KRunCond
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! The kernel program's run: every weakly fair execution ends, and every buffer outside the kernels' scoped memory ends at the
    last boundary valuation. -/

set_option backward.isDefEq.respectTransparency.types false in
theorem kernel_run : θ_run defs (onTc (τ := τ) (main (F := F))) ⟨m, fun _ => 0, ρ⟩ (fun r => ∀ c : Dev nD,
    ∀ b ∈ Pipeline.ucRefs τ sig, r.2.mem (((c.tc : Thread nD τ)).1, b) = B29 m c b) := by
  have key : θ_run defs (onTc (τ := τ) (main (F := F))) ⟨m, fun _ => 0, ρ⟩ (fun r => ∀ c : Dev nD,
      ∀ b ∈ Pipeline.ucRefs τ sig, r.2.mem (((c.tc : Thread nD τ)).1, b) = V29 m (outs m) c b) := by
    refine run_cond m (Ix := Unit) (U := Pipeline.UD sig nD τ) (Lvl := ℕ) embL () 𝒱₀ L lv (fun _ _ => rfl) ρ (outs m) (pdats m)
      (fun _ => 0) (fun _ => iprop(emp)) (initOf (Pipeline.cells cfgs cellOf_inj) (Pipeline.launchToks cfgs cellOf_inj), 1) ?hu
      (fun _ c => Rest c) ?hE0 ?hE12
      (reg0 m)
      (fun c => by rw [V5_eq]; exact .rfl)
      (fun c => by rw [V6_eq]; exact .rfl)
      (reg1 m)
      (fun c => by rw [V7_eq]; exact .rfl)
      (fun c => by rw [V8_eq]; exact .rfl)
      (reg2 m)
      (fun c => by rw [V9_eq]; exact .rfl)
      (fun c => by rw [V10_eq]; exact .rfl)
      (reg3 m)
      (fun c => by rw [V11_eq]; exact .rfl)
      (fun c => by rw [V12_eq]; exact .rfl)
      (reg4 m)
      (fun c => by rw [V13_eq]; exact .rfl)
      (fun c => by rw [V14_eq]; exact .rfl)
      (reg5 m)
      (fun c => by rw [V15_eq]; exact .rfl)
      (fun c => by rw [V16_eq]; exact .rfl)
      (reg6 m)
      (fun c => by rw [V17_eq]; exact .rfl)
      (fun c => by rw [V18_eq]; exact .rfl)
      (reg7 m)
      (fun c => by rw [V19_eq]; exact .rfl)
      (fun c => by rw [V20_eq]; exact .rfl)
      (reg8 m)
      (fun c => by rw [V21_eq]; exact .rfl)
      (fun c => by rw [V22_eq]; exact .rfl)
      (reg9 m)
      (fun c => by rw [V23_eq]; exact .rfl)
      (fun c => by rw [V24_eq]; exact .rfl)
      (reg10 m)
      (fun c => by rw [V25_eq]; exact .rfl)
      (fun c => by rw [V26_eq]; exact .rfl)
      (reg11 m)
      (fun c => by rw [V27_eq]; exact .rfl)
      (fun c => by rw [V28_eq]; exact .rfl)
    case hu =>
      -- the launch element is a pair: the pipeline library's part is what the run needs; nothing else is handed to the cores
      iintro Hu
      ihave Hpair := (ownU_pair _ _) $$ Hu
      icases Hpair with ⟨Hlib, -⟩
      imodintro
      isplitl [Hlib]; · iexact Hlib
      have hemp : (BI.emp : sProp 𝕄) ⊢ bigSep Finset.univ (fun _ : Dev nD => (BI.emp : sProp 𝕄)) := by
        rw [BI.bigSep_emp_const]
      iapply hemp; iempintro
    case hE0 =>
      -- on every core: the generator register at its launch state and the core owing nothing are the rest state
      have hcore : ∀ c : Dev nD, (iprop(unscopedSems0 c ∗ owes (c.tc : Thread nD τ) (0 : CellTallies nD τ sig Unit) ∅
          ∗ Pipeline.launchCred (fun _ => 0) c ∗ prngReg c (ρ c) ∗ emp) : sProp 𝕄) ⊢ Rest c := by
        intro c
        iintro ⟨-, Howes, -, Hreg, -⟩
        isplitl [Hreg]
        · iexists _; iexact Hreg
        iexists ∅; iexact Howes
      iintro ⟨Hall, -⟩
      imodintro
      have hall : (bigSep Finset.univ (fun c : Dev nD => iprop(unscopedSems0 c ∗ owes (c.tc : Thread nD τ) (0 : CellTallies nD τ sig Unit) ∅
          ∗ Pipeline.launchCred (fun _ => 0) c ∗ prngReg c (ρ c) ∗ emp)) : sProp 𝕄) ⊢ bigSep Finset.univ (fun c : Dev nD => Rest c) :=
        bigSep_mono fun c _ => hcore c
      iapply hall
      iexact Hall
    case hE12 =>
      intro c
      iintro ⟨-, Howes⟩
      iexact Howes
  exact (θ_run defs _ _).mono (fun r h c b hb => (h c b hb).trans (congrFun (V29_eq m c) b)) key

end Cert.Kernel.Hand

end
-- ==== Proof.KFrames.lean ====
import proofs.«169470_j5557687681111_1_alg».proof.Proof.KKernelRun
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! What the kernel program's run says about the buffers the claims speak of: the nine argument arrays end as launched (no
    host operation writes one and no region may change one), and the result buffer ends at the last boundary valuation. -/

/-- The frame: the program runs to the end and every argument array ends holding its launch contents. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c =>
    ⟨(h c _ (Finset.mem_filter.mpr ⟨StableHlo.devRef_mem_tcRefs main_arg0, by decide⟩)).trans (((congrFun (V29_eq m c) _).symm).trans (V29_main_arg0 m (outs m) c)),
     (h c _ (Finset.mem_filter.mpr ⟨StableHlo.devRef_mem_tcRefs main_arg1, by decide⟩)).trans (((congrFun (V29_eq m c) _).symm).trans (V29_main_arg1 m (outs m) c)),
     (h c _ (Finset.mem_filter.mpr ⟨StableHlo.devRef_mem_tcRefs main_arg2, by decide⟩)).trans (((congrFun (V29_eq m c) _).symm).trans (V29_main_arg2 m (outs m) c)),
     (h c _ (Finset.mem_filter.mpr ⟨StableHlo.devRef_mem_tcRefs main_arg3, by decide⟩)).trans (((congrFun (V29_eq m c) _).symm).trans (V29_main_arg3 m (outs m) c)),
     (h c _ (Finset.mem_filter.mpr ⟨StableHlo.devRef_mem_tcRefs main_arg4, by decide⟩)).trans (((congrFun (V29_eq m c) _).symm).trans (V29_main_arg4 m (outs m) c)),
     (h c _ (Finset.mem_filter.mpr ⟨StableHlo.devRef_mem_tcRefs main_arg5, by decide⟩)).trans (((congrFun (V29_eq m c) _).symm).trans (V29_main_arg5 m (outs m) c)),
     (h c _ (Finset.mem_filter.mpr ⟨StableHlo.devRef_mem_tcRefs main_arg6, by decide⟩)).trans (((congrFun (V29_eq m c) _).symm).trans (V29_main_arg6 m (outs m) c)),
     (h c _ (Finset.mem_filter.mpr ⟨StableHlo.devRef_mem_tcRefs main_arg7, by decide⟩)).trans (((congrFun (V29_eq m c) _).symm).trans (V29_main_arg7 m (outs m) c)),
     (h c _ (Finset.mem_filter.mpr ⟨StableHlo.devRef_mem_tcRefs main_arg8, by decide⟩)).trans (((congrFun (V29_eq m c) _).symm).trans (V29_main_arg8 m (outs m) c))⟩) (kernel_run m ρ)

/-- The same run, also naming the result buffer: it ends at the last boundary valuation. -/
theorem result_run : θ_run defs (onTc (τ := τ) (main (F := F))) ⟨m, fun _ => 0, ρ⟩ (fun r => ∀ c : Dev nD,
      r.2.mem ((c.tc : Thread nD τ).loc main_v143) = B29 m c main_v143
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c (Proc.devRef .tc main_v143)
        (Finset.mem_filter.mpr ⟨StableHlo.devRef_mem_tcRefs main_v143, by decide⟩ : Proc.devRef (τ := τ) .tc main_v143 ∈ Pipeline.ucRefs τ sig),
     (h c _ (Finset.mem_filter.mpr ⟨StableHlo.devRef_mem_tcRefs main_arg0, by decide⟩)).trans (((congrFun (V29_eq m c) _).symm).trans (V29_main_arg0 m (outs m) c)),
     (h c _ (Finset.mem_filter.mpr ⟨StableHlo.devRef_mem_tcRefs main_arg1, by decide⟩)).trans (((congrFun (V29_eq m c) _).symm).trans (V29_main_arg1 m (outs m) c)),
     (h c _ (Finset.mem_filter.mpr ⟨StableHlo.devRef_mem_tcRefs main_arg2, by decide⟩)).trans (((congrFun (V29_eq m c) _).symm).trans (V29_main_arg2 m (outs m) c)),
     (h c _ (Finset.mem_filter.mpr ⟨StableHlo.devRef_mem_tcRefs main_arg3, by decide⟩)).trans (((congrFun (V29_eq m c) _).symm).trans (V29_main_arg3 m (outs m) c)),
     (h c _ (Finset.mem_filter.mpr ⟨StableHlo.devRef_mem_tcRefs main_arg4, by decide⟩)).trans (((congrFun (V29_eq m c) _).symm).trans (V29_main_arg4 m (outs m) c)),
     (h c _ (Finset.mem_filter.mpr ⟨StableHlo.devRef_mem_tcRefs main_arg5, by decide⟩)).trans (((congrFun (V29_eq m c) _).symm).trans (V29_main_arg5 m (outs m) c)),
     (h c _ (Finset.mem_filter.mpr ⟨StableHlo.devRef_mem_tcRefs main_arg6, by decide⟩)).trans (((congrFun (V29_eq m c) _).symm).trans (V29_main_arg6 m (outs m) c)),
     (h c _ (Finset.mem_filter.mpr ⟨StableHlo.devRef_mem_tcRefs main_arg7, by decide⟩)).trans (((congrFun (V29_eq m c) _).symm).trans (V29_main_arg7 m (outs m) c)),
     (h c _ (Finset.mem_filter.mpr ⟨StableHlo.devRef_mem_tcRefs main_arg8, by decide⟩)).trans (((congrFun (V29_eq m c) _).symm).trans (V29_main_arg8 m (outs m) c))⟩) (kernel_run m ρ)

end Cert.Kernel.Hand

end
-- ==== Proof.Spec.lean ====
import Idealize.ShloMosaic.PureOps.Ideal
import Idealize.ShloMosaic.Lib.ValueIdx

/-!
# The graph convolution network, as one function of its nine argument arrays

V = 10000 nodes; 70000 edges: the 60000 listed ones followed by one self loop per node; 8 batches;
five convolution layers of width 256 between an input layer (515 features: 3 node coordinates, then the
batch's 512 latent features) and an output layer of width 3.

With s(e), d(e) the source and target node of edge e, deg(v) the number of edges with target v,
dinv(v) = 1/sqrt(deg v) where deg v > 0 and 0 elsewhere, and nrm(e) = dinv(s e) * dinv(d e):

  h0[b,v,o]      = max(sum_f x[b,v,f] * Win[o,f] + bin[o], 0)
  lin_l[b,v,o]   = sum_k h_l[b,v,k] * Wc[l,o,k]
  h_{l+1}[b,v,o] = max((sum over the edges e with d(e) = v of lin_l[b, s e, o] * nrm e) + bc[l,o], 0)
  result[b,v,o]  = sum_k h_5[b,v,k] * Wo[o,k] + bo[o]

Everything is over the extended reals. The normalisation nrm is kept as the composition of array
operations that computes it from the edge list (a scatter-add of ones for the degrees, a reciprocal
square root under a positivity test, two gathers and a product): neither reading of the network has
to open it. The message passing is a sum over all 70000 edges of a term that is zero unless d(e) = v.
-/

noncomputable section

namespace Cert.Spec

open Idealize.ShloMosaic Idealize.ShloMosaic.ValueIdx

/-! ## Shapes -/

abbrev S10000x3 : Shape := ⟨2, ![10000, 3]⟩
abbrev S8x512 : Shape := ⟨2, ![8, 512]⟩
abbrev S2x60000 : Shape := ⟨2, ![2, 60000]⟩
abbrev S256x515 : Shape := ⟨2, ![256, 515]⟩
abbrev S256 : Shape := ⟨1, ![256]⟩
abbrev S5x256x256 : Shape := ⟨3, ![5, 256, 256]⟩
abbrev S5x256 : Shape := ⟨2, ![5, 256]⟩
abbrev S3x256 : Shape := ⟨2, ![3, 256]⟩
abbrev S3 : Shape := ⟨1, ![3]⟩
abbrev S8x10000x3 : Shape := ⟨3, ![8, 10000, 3]⟩
abbrev S_ : Shape := ⟨0, ![]⟩
abbrev S1x60000 : Shape := ⟨2, ![1, 60000]⟩
abbrev S60000 : Shape := ⟨1, ![60000]⟩
abbrev S10000 : Shape := ⟨1, ![10000]⟩
abbrev S70000 : Shape := ⟨1, ![70000]⟩
abbrev S70000x1 : Shape := ⟨2, ![70000, 1]⟩

/-- A hidden state: one extended real per batch, node and channel. -/
abbrev Hidden : Type := Fin 8 → Fin 10000 → Fin 256 → EReal

/-! ## The edges

Edge e < 60000 is column e of the edge list (row 0 its source, row 1 its target); edge 60000 + v is
the self loop at node v. An entry of the edge list is read as a signed integer; the reduction modulo
10000 makes the node a node whatever the entry, and is the identity on an entry in [0, 10000). -/

/-- The node an entry of the edge list names. -/
def nodeOf (w : BitVec 32) : Fin 10000 := ⟨w.toInt.toNat % 10000, Nat.mod_lt _ (by decide)⟩

/-- The source node of edge e. -/
def edgeSrc (ei : IVec S2x60000 32) (e : Fin 70000) : Fin 10000 :=
  if h : e.val < 60000 then nodeOf (ei (ix2 (0 : Fin 2) (⟨e.val, h⟩ : Fin 60000)))
  else ⟨e.val - 60000, by have := e.isLt; omega⟩

/-- The target node of edge e. -/
def edgeDst (ei : IVec S2x60000 32) (e : Fin 70000) : Fin 10000 :=
  if h : e.val < 60000 then nodeOf (ei (ix2 (1 : Fin 2) (⟨e.val, h⟩ : Fin 60000)))
  else ⟨e.val - 60000, by have := e.isLt; omega⟩

/-! ## The normalisation, as the array operations that compute it -/

theorem slices_row0 : S2x60000.Slices ![0, 0] S1x60000 := by decide
theorem slices_row1 : S2x60000.Slices ![1, 0] S1x60000 := by decide
theorem casts_row : S1x60000.ShapeCasts S60000 := by decide
theorem concats_edges : Shape.Concatenates [S60000, S10000] S70000 0 := by decide
theorem bcast_S_S70000 : S_.BroadcastsInDim S70000 (![] : Fin 0 → Fin S70000.rank) := by decide
theorem bcast_S_S10000 : S_.BroadcastsInDim S10000 (![] : Fin 0 → Fin S10000.rank) := by decide
theorem bcast_col : S70000.BroadcastsInDim S70000x1 (![0] : Fin 1 → Fin S70000x1.rank) := by decide
theorem scatterDeg_wf : ScatterDims.WF S10000 S70000x1 S70000 [] [0] [0] 1 := by decide
theorem gatherNode_wf : GatherDims.WF S10000 S70000x1 S70000 [] [0] [] [0] [] 1 ![1] := by decide

/-- One update per edge, added at the node the edge's index names. -/
def scatterDeg : ScatterDims S10000 S70000x1 S70000 where
  updateWindowDims := []
  insertedWindowDims := [0]
  scatterDimsToOperandDims := [0]
  indexVectorDim := 1
  wf := scatterDeg_wf

/-- One element per edge, read at the node the edge's index names. -/
def gatherNode : GatherDims S10000 S70000x1 S70000 where
  offsetDims := []
  collapsedSliceDims := [0]
  operandBatchingDims := []
  startIndicesBatchingDims := []
  startIndexMap := [0]
  indexVectorDim := 1
  sliceSizes := ![1]
  wf := gatherNode_wf

/-- The 70000 source words: row 0 of the edge list, then the nodes in order. -/
def srcVec (ei : IVec S2x60000 32) : IVec S70000 32 :=
  concatenate S70000 0
    [⟨S60000, shapeCast _ (extractStridedSlice S1x60000 ![0, 0] ei slices_row0) casts_row⟩,
     ⟨S10000, iotaInDim S10000 32 0⟩] concats_edges

/-- The 70000 target words: row 1 of the edge list, then the nodes in order. -/
def dstVec (ei : IVec S2x60000 32) : IVec S70000 32 :=
  concatenate S70000 0
    [⟨S60000, shapeCast _ (extractStridedSlice S1x60000 ![1, 0] ei slices_row1) casts_row⟩,
     ⟨S10000, iotaInDim S10000 32 0⟩] concats_edges

/-- An index vector with a negative word moved up by 10000, as a column of indices. -/
def wrapIdx (v : IVec S70000 32) : IVec S70000x1 32 :=
  broadcastInDim S70000x1 ![0] bcast_col
    (select (cmpi .slt v (broadcastInDim S70000 ![] bcast_S_S70000 (constantI S_ 32 0#32)))
      (addi v (broadcastInDim S70000 ![] bcast_S_S70000 (constantI S_ 32 10000#32))) v)

/-- deg: a one added at the target of every edge. -/
def degVec (ei : IVec S2x60000 32) : FVec Ideal S10000 .f32 :=
  Host.scatterAdd scatterDeg
    (broadcastInDim S10000 ![] bcast_S_S10000 (constant (F := Ideal) S_ .f32 0x00000000#32))
    (broadcastInDim S70000x1 ![0] bcast_col (dstVec ei))
    (broadcastInDim S70000 ![] bcast_S_S70000 (constant (F := Ideal) S_ .f32 0x3F800000#32))

/-- dinv: the reciprocal square root of the degree where the degree is positive, zero elsewhere. -/
def dinvVec (ei : IVec S2x60000 32) : FVec Ideal S10000 .f32 :=
  select
    (cmpf .ogt (degVec ei) (broadcastInDim S10000 ![] bcast_S_S10000 (constant (F := Ideal) S_ .f32 0x00000000#32)))
    (Host.rsqrt (degVec ei))
    (broadcastInDim S10000 ![] bcast_S_S10000 (id (constant (F := Ideal) S_ .f32 0x00000000#32)))

/-- nrm, edge by edge: dinv at the source times dinv at the target. -/
def nrmVec (ei : IVec S2x60000 32) : FVec Ideal S70000 .f32 :=
  mulf (Host.gather gatherNode (dinvVec ei) (wrapIdx (srcVec ei)))
    (Host.gather gatherNode (dinvVec ei) (wrapIdx (dstVec ei)))

/-- The normalisation of edge e. -/
def nrm (ei : IVec S2x60000 32) (e : Fin 70000) : EReal := nrmVec ei (ix1 e)

/-! ## The layers -/

/-- The zero a rectifier compares with. -/
abbrev zero : EReal := Ideal.ofBits .f32 0x00000000#32

/-- A node's 515 input features in batch b: its three coordinates, then the batch's latent features. -/
def feat (xyz : FVec Ideal S10000x3 .f32) (lat : FVec Ideal S8x512 .f32) (b : Fin 8) (v : Fin 10000) (f : Fin 515) : EReal :=
  if h : f.val < 3 then xyz (ix2 v (⟨f.val, h⟩ : Fin 3))
  else lat (ix2 b (⟨f.val - 3, by have := f.isLt; omega⟩ : Fin 512))

/-- The input layer. -/
def hid0 (xyz : FVec Ideal S10000x3 .f32) (lat : FVec Ideal S8x512 .f32) (Win : FVec Ideal S256x515 .f32)
    (bin : FVec Ideal S256 .f32) : Hidden :=
  fun b v o => max ((∑ f : Fin 515, feat xyz lat b v f * Win (ix2 o f)) + bin (ix1 o)) zero

/-- The linear map of convolution layer l. -/
def lin (Wc : FVec Ideal S5x256x256 .f32) (l : Fin 5) (h : Hidden) : Hidden :=
  fun b v o => ∑ k : Fin 256, h b v k * Wc (ix3 l o k)

/-- Message passing: at node v, the sum over the edges with target v of the source's value times the
    edge's normalisation. -/
def agg (ei : IVec S2x60000 32) (m : Hidden) : Hidden :=
  fun b v o => ∑ e : Fin 70000, if edgeDst ei e = v then m b (edgeSrc ei e) o * nrm ei e else 0

/-- Convolution layer l: linear map, message passing, bias, rectifier. -/
def conv (ei : IVec S2x60000 32) (Wc : FVec Ideal S5x256x256 .f32) (bc : FVec Ideal S5x256 .f32) (l : Fin 5)
    (h : Hidden) : Hidden :=
  fun b v o => max (agg ei (lin Wc l h) b v o + bc (ix2 l o)) zero

/-- The hidden state after the input layer and the first l convolution layers (l ≤ 5). -/
def hid (xyz : FVec Ideal S10000x3 .f32) (lat : FVec Ideal S8x512 .f32) (ei : IVec S2x60000 32)
    (Win : FVec Ideal S256x515 .f32) (bin : FVec Ideal S256 .f32) (Wc : FVec Ideal S5x256x256 .f32)
    (bc : FVec Ideal S5x256 .f32) : Nat → Hidden
  | 0 => hid0 xyz lat Win bin
  | l + 1 => if h : l < 5 then conv ei Wc bc ⟨l, h⟩ (hid xyz lat ei Win bin Wc bc l) else hid xyz lat ei Win bin Wc bc l

theorem hid_zero (xyz : FVec Ideal S10000x3 .f32) (lat : FVec Ideal S8x512 .f32) (ei : IVec S2x60000 32)
    (Win : FVec Ideal S256x515 .f32) (bin : FVec Ideal S256 .f32) (Wc : FVec Ideal S5x256x256 .f32)
    (bc : FVec Ideal S5x256 .f32) : hid xyz lat ei Win bin Wc bc 0 = hid0 xyz lat Win bin := rfl

theorem hid_succ (xyz : FVec Ideal S10000x3 .f32) (lat : FVec Ideal S8x512 .f32) (ei : IVec S2x60000 32)
    (Win : FVec Ideal S256x515 .f32) (bin : FVec Ideal S256 .f32) (Wc : FVec Ideal S5x256x256 .f32)
    (bc : FVec Ideal S5x256 .f32) (l : Fin 5) :
    hid xyz lat ei Win bin Wc bc (l.val + 1) = conv ei Wc bc l (hid xyz lat ei Win bin Wc bc l.val) := by
  show (if h : l.val < 5 then conv ei Wc bc ⟨l.val, h⟩ (hid xyz lat ei Win bin Wc bc l.val)
    else hid xyz lat ei Win bin Wc bc l.val) = _
  rw [dif_pos l.isLt]

/-- The output layer. -/
def outLayer (Wo : FVec Ideal S3x256 .f32) (bo : FVec Ideal S3 .f32) (h : Hidden) (b : Fin 8) (v : Fin 10000)
    (o : Fin 3) : EReal :=
  (∑ k : Fin 256, h b v k * Wo (ix2 o k)) + bo (ix1 o)

/-- THE NETWORK: the result array as a function of the nine argument arrays. -/
def gcn (xyz : FVec Ideal S10000x3 .f32) (lat : FVec Ideal S8x512 .f32) (ei : IVec S2x60000 32)
    (Win : FVec Ideal S256x515 .f32) (bin : FVec Ideal S256 .f32) (Wc : FVec Ideal S5x256x256 .f32)
    (bc : FVec Ideal S5x256 .f32) (Wo : FVec Ideal S3x256 .f32) (bo : FVec Ideal S3 .f32) :
    FVec Ideal S8x10000x3 .f32 :=
  fun i => outLayer Wo bo (hid xyz lat ei Win bin Wc bc 5) (i 0) (i 1) (i 2)

end Cert.Spec

end
-- ==== Proof.RefChain.lean ====
import proofs.«169470_j5557687681111_1_alg».proof.Proof.Spec
import Idealize.ShloMosaic.Lib.Pipeline.Value

/-! The edge words of the specification, read at an edge. -/

noncomputable section

namespace Cert.Spec

open Idealize.ShloMosaic Idealize.ShloMosaic.ValueIdx

/-- Row 0 of the edge list, flattened, at position p. -/
theorem row0_apply (ei : IVec S2x60000 32) (p : Fin 60000) :
    shapeCast S60000 (extractStridedSlice S1x60000 ![0, 0] ei slices_row0) casts_row (ix1 p)
      = ei (ix2 (0 : Fin 2) p) := by
  refine (shapeCast_apply _ casts_row (ix1 p) (ix2 (0 : Fin 1) p) ?_).trans ?_
  · rw [Shape.rowMajor_val_two, Shape.rowMajor_val_one]
    show 0 * 60000 + p.val = p.val
    omega
  · exact extractStridedSlice_apply ![0, 0] ei slices_row0 (ix2 (0 : Fin 1) p) (ix2 (0 : Fin 2) p) (fun a => match a with
      | ⟨0, _⟩ => rfl
      | ⟨1, _⟩ => by show p.val = 0 + p.val; omega)

/-- Row 1 of the edge list, flattened, at position p. -/
theorem row1_apply (ei : IVec S2x60000 32) (p : Fin 60000) :
    shapeCast S60000 (extractStridedSlice S1x60000 ![1, 0] ei slices_row1) casts_row (ix1 p)
      = ei (ix2 (1 : Fin 2) p) := by
  refine (shapeCast_apply _ casts_row (ix1 p) (ix2 (0 : Fin 1) p) ?_).trans ?_
  · rw [Shape.rowMajor_val_two, Shape.rowMajor_val_one]
    show 0 * 60000 + p.val = p.val
    omega
  · exact extractStridedSlice_apply ![1, 0] ei slices_row1 (ix2 (0 : Fin 1) p) (ix2 (1 : Fin 2) p) (fun a => match a with
      | ⟨0, _⟩ => rfl
      | ⟨1, _⟩ => by show p.val = 0 + p.val; omega)

/-- The source word of a listed edge is its entry in row 0. -/
theorem srcVec_lt (ei : IVec S2x60000 32) (e : Fin 70000) (h : e.val < 60000) :
    srcVec ei (ix1 e) = ei (ix2 (0 : Fin 2) (⟨e.val, h⟩ : Fin 60000)) := by
  unfold srcVec
  refine (concatenate_pair_apply_left (0 : Fin S70000.rank) _ _ concats_edges (ix1 e) rfl
    (ix1 (⟨e.val, h⟩ : Fin 60000)) (fun b => match b with | ⟨0, _⟩ => rfl)).trans ?_
  exact row0_apply ei ⟨e.val, h⟩

/-- The source word of the self loop at node v is v. -/
theorem srcVec_ge (ei : IVec S2x60000 32) (e : Fin 70000) (h : 60000 ≤ e.val) :
    srcVec ei (ix1 e) = BitVec.ofNat 32 (e.val - 60000) := by
  unfold srcVec
  exact concatenate_pair_apply_right (0 : Fin S70000.rank) _ _ concats_edges (ix1 e) rfl rfl
    (ix1 (⟨e.val - 60000, by have := e.isLt; omega⟩ : Fin 10000))
    (fun b hb => match b with | ⟨0, _⟩ => absurd rfl hb)
    (by show (e.val - 60000) + 60000 = e.val; omega)

/-- The target word of a listed edge is its entry in row 1. -/
theorem dstVec_lt (ei : IVec S2x60000 32) (e : Fin 70000) (h : e.val < 60000) :
    dstVec ei (ix1 e) = ei (ix2 (1 : Fin 2) (⟨e.val, h⟩ : Fin 60000)) := by
  unfold dstVec
  refine (concatenate_pair_apply_left (0 : Fin S70000.rank) _ _ concats_edges (ix1 e) rfl
    (ix1 (⟨e.val, h⟩ : Fin 60000)) (fun b => match b with | ⟨0, _⟩ => rfl)).trans ?_
  exact row1_apply ei ⟨e.val, h⟩

/-- The target word of the self loop at node v is v. -/
theorem dstVec_ge (ei : IVec S2x60000 32) (e : Fin 70000) (h : 60000 ≤ e.val) :
    dstVec ei (ix1 e) = BitVec.ofNat 32 (e.val - 60000) := by
  unfold dstVec
  exact concatenate_pair_apply_right (0 : Fin S70000.rank) _ _ concats_edges (ix1 e) rfl rfl
    (ix1 (⟨e.val - 60000, by have := e.isLt; omega⟩ : Fin 10000))
    (fun b hb => match b with | ⟨0, _⟩ => absurd rfl hb)
    (by show (e.val - 60000) + 60000 = e.val; omega)

/-- A word in [0, 10000) names the node with its value. -/
theorem nodeOf_val (w : BitVec 32) (h0 : 0 ≤ w.toInt) (h1 : w.toInt < 10000) : ((nodeOf w).val : Int) = w.toInt := by
  show ((w.toInt.toNat % 10000 : Nat) : Int) = w.toInt
  omega

/-- A small natural number as a 32-bit word reads back, signed, as itself. -/
theorem toInt_ofNat_small (n : Nat) (h : n < 10000) : (BitVec.ofNat 32 n).toInt = (n : Int) := by
  rw [BitVec.toInt_eq_toNat_cond, BitVec.toNat_ofNat]
  have e : n % 2 ^ 32 = n := Nat.mod_eq_of_lt (by omega)
  rw [e]
  split <;> omega

/-- Entries in range: every word of the edge list, read signed, is a node. -/
def InRange (ei : IVec S2x60000 32) : Prop := ∀ i : S2x60000.Idx, 0 ≤ (ei i).toInt ∧ (ei i).toInt < 10000

/-- Under the range hypothesis the source word of edge e, read signed, is the node edgeSrc names. -/
theorem srcVec_toInt (ei : IVec S2x60000 32) (hidx : InRange ei) (e : Fin 70000) :
    (srcVec ei (ix1 e)).toInt = ((edgeSrc ei e).val : Int) := by
  by_cases h : e.val < 60000
  · rw [srcVec_lt ei e h]
    unfold edgeSrc
    rw [dif_pos h]
    exact (nodeOf_val _ (hidx _).1 (hidx _).2).symm
  · rw [srcVec_ge ei e (by omega)]
    unfold edgeSrc
    rw [dif_neg h]
    exact toInt_ofNat_small _ (by have := e.isLt; omega)

/-- Under the range hypothesis the target word of edge e, read signed, is the node edgeDst names. -/
theorem dstVec_toInt (ei : IVec S2x60000 32) (hidx : InRange ei) (e : Fin 70000) :
    (dstVec ei (ix1 e)).toInt = ((edgeDst ei e).val : Int) := by
  by_cases h : e.val < 60000
  · rw [dstVec_lt ei e h]
    unfold edgeDst
    rw [dif_pos h]
    exact (nodeOf_val _ (hidx _).1 (hidx _).2).symm
  · rw [dstVec_ge ei e (by omega)]
    unfold edgeDst
    rw [dif_neg h]
    exact toInt_ofNat_small _ (by have := e.isLt; omega)

/-- A word that is not negative is left alone by the wrap. -/
theorem wrapIdx_apply (v : IVec S70000 32) (e : Fin 70000) (h : 0 ≤ (v (ix1 e)).toInt) :
    wrapIdx v (ix2 e (0 : Fin 1)) = v (ix1 e) := by
  unfold wrapIdx
  refine (broadcastInDim_apply ![0] bcast_col _ (ix2 e (0 : Fin 1)) (ix1 e) (fun a => match a with
    | ⟨0, _⟩ => by show e.val = if (70000 : Nat) = 1 then 0 else e.val; rw [if_neg (by decide)])).trans ?_
  show Scalar.select (IntOp.cmpi .slt (v (ix1 e)) 0#32) (IntOp.addi (v (ix1 e)) 10000#32) (v (ix1 e)) = v (ix1 e)
  have hs : IntOp.cmpi .slt (v (ix1 e)) 0#32 = 0#1 := by
    show BitVec.ofBool (BitVec.slt (v (ix1 e)) 0#32) = 0#1
    have : BitVec.slt (v (ix1 e)) 0#32 = false := by
      rw [BitVec.slt, decide_eq_false_iff_not]
      have z : (0#32 : BitVec 32).toInt = 0 := by decide
      rw [z]; omega
    rw [this]; rfl
  rw [hs]
  exact select_zero _ _

end Cert.Spec

end
-- ==== Proof.RefLayer.lean ====
import proofs.«169470_j5557687681111_1_alg».proof.Proof.Gen.ReferenceIdeal
import proofs.«169470_j5557687681111_1_alg».proof.Proof.RefChain
import Idealize.ShloMosaic.Lib.Pipeline.Value
import Idealize.ShloMosaic.Lib.ValueIdx
import Idealize.ShloMosaic.PureOps.Ideal.Laws

/-! One convolution layer as the reference spells it — a linear map, a gather of the sources' rows, a product with the
edges' normalisation, a scatter-add at the targets, a bias, a rectifier — read at one index, over abstract operands;
and, with the edge list in range, that it is the specification's layer. -/

noncomputable section

namespace Cert.ReferenceIdeal.RefLayer

open Cert.ReferenceIdeal Cert.ReferenceIdeal.Gen Idealize.ShloMosaic Idealize.ShloMosaic.ValueIdx

/-- The gather of one row per edge out of a hidden state. -/
abbrev gatherRows : GatherDims S8x10000x256 S70000x1 S8x70000x256 :=
  gather_S8x10000x256_S70000x1_S8x70000x256_02_1_n_n_1_1_81256
/-- The scatter of one row per edge into a hidden state. -/
abbrev scatterRows : ScatterDims S8x10000x256 S70000x1 S8x70000x256 :=
  scatter_S8x10000x256_S70000x1_S8x70000x256_02_1_1_1

/-- THE GATHER AT (b, e, o): the operand at (b, the node edge e's index word names clamped into range, o). -/
theorem gather3_apply {α : Type} {w : Nat} (x : S8x10000x256.Idx → α) (idx : IVec S70000x1 w)
    (b : Fin 8) (e : Fin 70000) (o : Fin 256) :
    Host.gather gatherRows x idx (ix3 b e o)
      = x (ix3 b (⟨min (idx (ix2 e (0 : Fin 1))).toInt.toNat (10000 - 1), by omega⟩ : Fin 10000) o) := by
  unfold Host.gather
  congr 1
  funext a
  refine Fin.ext ?_
  show gatherRows.start (ix3 b e o) idx a + gatherRows.batchCoord (ix3 b e o) a + gatherRows.offCoord (ix3 b e o) a = _
  rw [GatherDims.batchCoord_eq_zero _ _ _ List.not_mem_nil, Nat.add_zero]
  match a with
  | ⟨0, _⟩ =>
    have h0 : gatherRows.start (ix3 b e o) idx 0 = 0 := by
      unfold GatherDims.start; rw [dif_neg (by decide)]
    have h1 : gatherRows.offCoord (ix3 b e o) 0 = b.val := by
      unfold GatherDims.offCoord; rw [dif_pos (by decide)]; rfl
    show gatherRows.start (ix3 b e o) idx 0 + gatherRows.offCoord (ix3 b e o) 0 = b.val
    rw [h0, h1, Nat.zero_add]
  | ⟨1, _⟩ =>
    have h0 : gatherRows.start (ix3 b e o) idx 1 = min (idx (ix2 e (0 : Fin 1))).toInt.toNat (10000 - 1) := by
      unfold GatherDims.start
      rw [dif_pos (show (1 : Fin S8x10000x256.rank) ∈ gatherRows.startIndexMap by decide)]
      have hsi : gatherRows.siIdx (ix3 b e o) ⟨List.idxOf (1 : Fin S8x10000x256.rank) gatherRows.startIndexMap,
          List.idxOf_lt_length_iff.2 (show (1 : Fin S8x10000x256.rank) ∈ gatherRows.startIndexMap by decide)⟩ = ix2 e (0 : Fin 1) := by
        funext c; refine Fin.ext ?_
        match c with
        | ⟨0, _⟩ => rfl
        | ⟨1, _⟩ => rfl
      rw [hsi]
      rfl
    have h1 : gatherRows.offCoord (ix3 b e o) 1 = 0 := GatherDims.offCoord_eq_zero _ _ _ (by decide)
    show gatherRows.start (ix3 b e o) idx 1 + gatherRows.offCoord (ix3 b e o) 1 = _
    rw [h0, h1, Nat.add_zero]
  | ⟨2, _⟩ =>
    have h0 : gatherRows.start (ix3 b e o) idx 2 = 0 := by
      unfold GatherDims.start; rw [dif_neg (by decide)]
    have h1 : gatherRows.offCoord (ix3 b e o) 2 = o.val := by
      unfold GatherDims.offCoord; rw [dif_pos (by decide)]; rfl
    show gatherRows.start (ix3 b e o) idx 2 + gatherRows.offCoord (ix3 b e o) 2 = o.val
    rw [h0, h1, Nat.zero_add]

/-! ## The scatter-add -/

theorem scatterRows_start0 {w : Nat} (j : S8x70000x256.Idx) (idx : IVec S70000x1 w) : scatterRows.start j idx 0 = 0 := by
  unfold ScatterDims.start; rw [dif_neg (by decide)]

theorem scatterRows_start2 {w : Nat} (j : S8x70000x256.Idx) (idx : IVec S70000x1 w) : scatterRows.start j idx 2 = 0 := by
  unfold ScatterDims.start; rw [dif_neg (by decide)]

theorem scatterRows_start1 {w : Nat} (b : Fin 8) (e : Fin 70000) (o : Fin 256) (idx : IVec S70000x1 w) :
    scatterRows.start (ix3 b e o) idx 1 = (idx (ix2 e (0 : Fin 1))).toInt := by
  unfold ScatterDims.start
  rw [dif_pos (show (1 : Fin S8x10000x256.rank) ∈ scatterRows.scatterDimsToOperandDims by decide)]
  have hsi : scatterRows.siIdx (ix3 b e o) ⟨List.idxOf (1 : Fin S8x10000x256.rank) scatterRows.scatterDimsToOperandDims,
      List.idxOf_lt_length_iff.2 (show (1 : Fin S8x10000x256.rank) ∈ scatterRows.scatterDimsToOperandDims by decide)⟩ = ix2 e (0 : Fin 1) := by
    funext c; refine Fin.ext ?_
    match c with
    | ⟨0, _⟩ => rfl
    | ⟨1, _⟩ => rfl
  rw [hsi]

theorem scatterRows_window0 (b : Fin 8) (e : Fin 70000) (o : Fin 256) : scatterRows.window (ix3 b e o) 0 = b.val := by
  unfold ScatterDims.window; rw [dif_pos (by decide)]; rfl

theorem scatterRows_window1 (j : S8x70000x256.Idx) : scatterRows.window j 1 = 0 := by
  unfold ScatterDims.window; rw [dif_neg (by decide)]

theorem scatterRows_window2 (b : Fin 8) (e : Fin 70000) (o : Fin 256) : scatterRows.window (ix3 b e o) 2 = o.val := by
  unfold ScatterDims.window; rw [dif_pos (by decide)]; rfl

/-- WHERE AN UPDATE LANDS: update (b, e, o) lands at (b, v, o) when edge e's index word, read signed, is node v. -/
theorem scatterRows_resultIdx {w : Nat} (idx : IVec S70000x1 w) (b : Fin 8) (e : Fin 70000) (o : Fin 256) (v : Fin 10000)
    (hv : (idx (ix2 e (0 : Fin 1))).toInt = (v.val : Int)) :
    scatterRows.resultIdx? (ix3 b e o) idx = some (ix3 b v o) := by
  have hall : ∀ a : Fin S8x10000x256.rank,
      scatterRows.start (ix3 b e o) idx a + (scatterRows.window (ix3 b e o) a : Int) = ((ix3 b v o a).val : Int) := by
    intro a
    match a with
    | ⟨0, _⟩ =>
      show scatterRows.start (ix3 b e o) idx 0 + (scatterRows.window (ix3 b e o) 0 : Int) = (b.val : Int)
      rw [scatterRows_start0, scatterRows_window0]; omega
    | ⟨1, _⟩ =>
      show scatterRows.start (ix3 b e o) idx 1 + (scatterRows.window (ix3 b e o) 1 : Int) = (v.val : Int)
      rw [scatterRows_start1, scatterRows_window1, hv]; omega
    | ⟨2, _⟩ =>
      show scatterRows.start (ix3 b e o) idx 2 + (scatterRows.window (ix3 b e o) 2 : Int) = (o.val : Int)
      rw [scatterRows_start2, scatterRows_window2]; omega
  unfold ScatterDims.resultIdx?
  rw [dif_pos (fun a => by
    rw [hall a]
    exact ⟨Int.natCast_nonneg _, by exact_mod_cast (ix3 b v o a).isLt⟩)]
  congr 1
  funext a
  refine Fin.ext ?_
  show (scatterRows.start (ix3 b e o) idx a + (scatterRows.window (ix3 b e o) a : Int)).toNat = (ix3 b v o a).val
  rw [hall a]
  exact Int.toNat_natCast _

/-- Two rank-3 indices built from coordinates are equal only if the coordinates are. -/
theorem ix3_inj {n0 n1 n2 : Nat} {a a' : Fin n0} {b b' : Fin n1} {c c' : Fin n2} (h : ix3 a b c = ix3 a' b' c') :
    a = a' ∧ b = b' ∧ c = c' :=
  ⟨congrFun h 0, congrFun h 1, congrFun h 2⟩

/-- THE SCATTER-ADD AT (b, v, o), the index words in range: the operand there plus the sum over the edges whose
    index word names v of the update at (b, e, o). -/
theorem scatter3_apply {w : Nat} (x : FVec Ideal S8x10000x256 .f32) (idx : IVec S70000x1 w) (upd : FVec Ideal S8x70000x256 .f32)
    (d : Fin 70000 → Fin 10000) (hD : ∀ e, (idx (ix2 e (0 : Fin 1))).toInt = ((d e).val : Int))
    (b : Fin 8) (v : Fin 10000) (o : Fin 256) :
    Host.scatterAdd scatterRows x idx upd (ix3 b v o)
      = x (ix3 b v o) + ∑ e : Fin 70000, if d e = v then upd (ix3 b e o) else 0 := by
  show Ideal.hostScatterAdd scatterRows x idx upd (ix3 b v o) = _
  unfold Ideal.hostScatterAdd
  refine congrArg (fun t => x (ix3 b v o) + t) ?_
  refine (Finset.sum_congr
    (s₂ := (Finset.univ.filter fun e : Fin 70000 => d e = v).image (fun e => (ix3 b e o : S8x70000x256.Idx))) ?_
    (fun _ _ => rfl)).trans ?_
  · ext j
    simp only [Finset.mem_filter, Finset.mem_univ, true_and, Finset.mem_image]
    constructor
    · intro hj
      obtain ⟨jb, je, jo, rfl⟩ : ∃ (jb : Fin 8) (je : Fin 70000) (jo : Fin 256), j = ix3 jb je jo :=
        ⟨j 0, j 1, j 2, eq_ix3 j⟩
      rw [scatterRows_resultIdx idx jb je jo (d je) (hD je)] at hj
      obtain ⟨h0, h1, h2⟩ := ix3_inj (Option.some.inj hj)
      exact ⟨je, h1, by rw [h0, h2]⟩
    · rintro ⟨e, he, rfl⟩
      rw [scatterRows_resultIdx idx b e o (d e) (hD e), he]
  · rw [Finset.sum_image (fun e _ e' _ h => (ix3_inj h).2.1), Finset.sum_filter]

/-! ## One convolution layer after its linear map -/

/-- The edges' normalisation, repeated along the batches and the channels. -/
def nrmB (nv : FVec Ideal S70000 .f32) : FVec Ideal S8x70000x256 .f32 :=
  broadcastInDim S8x70000x256 ![0, 1, 2] Facts₀.bcast_S1x70000x1_S8x70000x256_0_1_2
    (broadcastInDim S1x70000x1 ![1] Facts₀.bcast_S70000_S1x70000x1_1 nv)

theorem nrmB_apply (nv : FVec Ideal S70000 .f32) (b : Fin 8) (e : Fin 70000) (o : Fin 256) :
    nrmB nv (ix3 b e o) = nv (ix1 e) := by
  unfold nrmB
  refine (broadcastInDim_apply ![0, 1, 2] Facts₀.bcast_S1x70000x1_S8x70000x256_0_1_2 _ (ix3 b e o)
    (ix3 (0 : Fin 1) e (0 : Fin 1)) (fun a => match a with
      | ⟨0, _⟩ => by show (0 : Nat) = if (1 : Nat) = 1 then 0 else b.val; rw [if_pos rfl]
      | ⟨1, _⟩ => by show e.val = if (70000 : Nat) = 1 then 0 else e.val; rw [if_neg (by decide)]
      | ⟨2, _⟩ => by show (0 : Nat) = if (1 : Nat) = 1 then 0 else o.val; rw [if_pos rfl])).trans ?_
  exact broadcastInDim_apply ![1] Facts₀.bcast_S70000_S1x70000x1_1 nv (ix3 (0 : Fin 1) e (0 : Fin 1)) (ix1 e)
    (fun a => match a with
      | ⟨0, _⟩ => by show e.val = if (70000 : Nat) = 1 then 0 else e.val; rw [if_neg (by decide)])

/-- A bias row, repeated along the batches and the nodes. -/
def biasB (bvec : FVec Ideal S256 .f32) : FVec Ideal S8x10000x256 .f32 :=
  broadcastInDim S8x10000x256 ![0, 1, 2] Facts₀.bcast_S1x1x256_S8x10000x256_0_1_2
    (broadcastInDim S1x1x256 ![2] Facts₀.bcast_S256_S1x1x256_2 bvec)

theorem biasB_apply (bvec : FVec Ideal S256 .f32) (b : Fin 8) (v : Fin 10000) (o : Fin 256) :
    biasB bvec (ix3 b v o) = bvec (ix1 o) := by
  unfold biasB
  refine (broadcastInDim_apply ![0, 1, 2] Facts₀.bcast_S1x1x256_S8x10000x256_0_1_2 _ (ix3 b v o)
    (ix3 (0 : Fin 1) (0 : Fin 1) o) (fun a => match a with
      | ⟨0, _⟩ => by show (0 : Nat) = if (1 : Nat) = 1 then 0 else b.val; rw [if_pos rfl]
      | ⟨1, _⟩ => by show (0 : Nat) = if (1 : Nat) = 1 then 0 else v.val; rw [if_pos rfl]
      | ⟨2, _⟩ => by show o.val = if (256 : Nat) = 1 then 0 else o.val; rw [if_neg (by decide)])).trans ?_
  exact broadcastInDim_apply ![2] Facts₀.bcast_S256_S1x1x256_2 bvec (ix3 (0 : Fin 1) (0 : Fin 1) o) (ix1 o)
    (fun a => match a with
      | ⟨0, _⟩ => by show o.val = if (256 : Nat) = 1 then 0 else o.val; rw [if_neg (by decide)])

/-- A hidden state of zeros. -/
def zerosH : FVec Ideal S8x10000x256 .f32 :=
  broadcastInDim S8x10000x256 ![] Facts₀.bcast_S_S8x10000x256 (constant (F := Ideal) S_ .f32 0x00000000#32)

theorem zerosH_apply (i : S8x10000x256.Idx) : zerosH i = Ideal.ofBits .f32 0x00000000#32 := rfl

/-- A CONVOLUTION LAYER AFTER ITS LINEAR MAP, as the operations spell it: gather the sources' rows of L, scale by the
    edges' normalisation, scatter-add at the targets into zeros, add the bias row, rectify. -/
def layerOps (idxS idxD : IVec S70000x1 32) (nv : FVec Ideal S70000 .f32) (L : FVec Ideal S8x10000x256 .f32)
    (bvec : FVec Ideal S256 .f32) : FVec Ideal S8x10000x256 .f32 :=
  maximumf (addf (Host.scatterAdd scatterRows zerosH idxD (mulf (Host.gather gatherRows L idxS) (nrmB nv))) (biasB bvec)) zerosH

/-- THE LAYER AT (b, v, o), the index words in range (edge e's source word names node s e, its target word d e):
    the rectified sum over the edges with target v of L at the source times the normalisation, plus the bias. -/
theorem layerOps_apply (idxS idxD : IVec S70000x1 32) (nv : FVec Ideal S70000 .f32) (L : FVec Ideal S8x10000x256 .f32)
    (bvec : FVec Ideal S256 .f32) (s d : Fin 70000 → Fin 10000)
    (hS : ∀ e, (idxS (ix2 e (0 : Fin 1))).toInt = ((s e).val : Int))
    (hD : ∀ e, (idxD (ix2 e (0 : Fin 1))).toInt = ((d e).val : Int))
    (b : Fin 8) (v : Fin 10000) (o : Fin 256) :
    layerOps idxS idxD nv L bvec (ix3 b v o)
      = max ((∑ e : Fin 70000, if d e = v then L (ix3 b (s e) o) * nv (ix1 e) else 0) + bvec (ix1 o))
          (Ideal.ofBits .f32 0x00000000#32) := by
  show max (Host.scatterAdd scatterRows zerosH idxD (mulf (Host.gather gatherRows L idxS) (nrmB nv)) (ix3 b v o) + biasB bvec (ix3 b v o))
    (zerosH (ix3 b v o)) = _
  rw [zerosH_apply]
  refine congrArg (fun t => max t (Ideal.ofBits .f32 0x00000000#32)) ?_
  rw [scatter3_apply zerosH idxD _ d hD b v o, biasB_apply, zerosH_apply, Ideal.ofBits_zero_f32, zero_add]
  refine congrArg (fun t => t + bvec (ix1 o)) (Finset.sum_congr rfl fun e _ => ?_)
  by_cases he : d e = v
  · rw [if_pos he, if_pos he]
    show Host.gather gatherRows L idxS (ix3 b e o) * nrmB nv (ix3 b e o) = _
    rw [gather3_apply, nrmB_apply]
    refine congrArg (fun t => L t * nv (ix1 e)) ?_
    refine congrArg (fun n : Fin 10000 => (ix3 b n o : S8x10000x256.Idx)) (Fin.ext ?_)
    show min (idxS (ix2 e (0 : Fin 1))).toInt.toNat (10000 - 1) = (s e).val
    rw [hS e, Int.toNat_natCast]
    have := (s e).isLt
    omega
  · rw [if_neg he, if_neg he]

/-! ## The linear map of a layer -/

/-- A hidden state times a 256 x 256 weight matrix, contracting the channel axis with the matrix's second axis. -/
abbrev D256 : DotDims S8x10000x256 S256x256 S8x10000x256 := dot_S8x10000x256_S256x256_S8x10000x256_2_1_01_0_n_n

theorem D256_lhs0 (i : S8x10000x256.Idx) (q : D256.contr.Idx) : (D256.lhsIdx i q 0).val = (i 0).val := by
  unfold DotDims.lhsIdx
  rw [dif_neg (show ¬(0 : Fin S8x10000x256.rank) ∈ D256.lhsBatch by decide),
    dif_pos (show (0 : Fin S8x10000x256.rank) ∈ D256.lhsNonContracting by decide)]
  rfl
theorem D256_lhs1 (i : S8x10000x256.Idx) (q : D256.contr.Idx) : (D256.lhsIdx i q 1).val = (i 1).val := by
  unfold DotDims.lhsIdx
  rw [dif_neg (show ¬(1 : Fin S8x10000x256.rank) ∈ D256.lhsBatch by decide),
    dif_pos (show (1 : Fin S8x10000x256.rank) ∈ D256.lhsNonContracting by decide)]
  rfl
theorem D256_lhs2 (i : S8x10000x256.Idx) (q : D256.contr.Idx) : (D256.lhsIdx i q 2).val = (q ⟨0, by decide⟩).val :=
  D256.lhsIdx_val_of_single rfl i q
theorem D256_rhs0 (i : S8x10000x256.Idx) (q : D256.contr.Idx) : (D256.rhsIdx i q 0).val = (i 2).val := by
  unfold DotDims.rhsIdx
  rw [dif_neg (show ¬(0 : Fin S256x256.rank) ∈ D256.rhsBatch by decide),
    dif_pos (show (0 : Fin S256x256.rank) ∈ D256.rhsNonContracting by decide)]
  rfl
theorem D256_rhs1 (i : S8x10000x256.Idx) (q : D256.contr.Idx) : (D256.rhsIdx i q 1).val = (q ⟨0, by decide⟩).val :=
  D256.rhsIdx_val_of_single rfl i q

/-- THE LINEAR MAP AT (b, v, o): the sum over the channels k of the state at (b, v, k) times the weight at (o, k). -/
theorem dot256_apply (H : FVec Ideal S8x10000x256 .f32) (W : FVec Ideal S256x256 .f32) (b : Fin 8) (v : Fin 10000) (o : Fin 256) :
    Host.dotGeneral D256 none H W (ix3 b v o) = ∑ k : Fin 256, H (ix3 b v k) * W (ix2 o k) := by
  simp only [Host.dotGeneral]
  rw [Ideal.dotGeneral_apply, ← Equiv.sum_comp (contrEquiv1 D256 256 rfl rfl).symm]
  refine Finset.sum_congr rfl fun k _ => ?_
  have hk := contrEquiv1_symm_val D256 256 rfl rfl k
  have el : D256.lhsIdx (ix3 b v o) ((contrEquiv1 D256 256 rfl rfl).symm k) = ix3 b v k := funext fun a => Fin.ext (by
    match a with
    | ⟨0, _⟩ => exact D256_lhs0 _ _
    | ⟨1, _⟩ => exact D256_lhs1 _ _
    | ⟨2, _⟩ => exact (D256_lhs2 _ _).trans hk)
  have er : D256.rhsIdx (ix3 b v o) ((contrEquiv1 D256 256 rfl rfl).symm k) = ix2 o k := funext fun a => Fin.ext (by
    match a with
    | ⟨0, _⟩ => exact D256_rhs0 _ _
    | ⟨1, _⟩ => exact (D256_rhs1 _ _).trans hk)
  rw [el, er]

/-- The weight matrix of layer r: a slice of the stack of five, flattened to a matrix, at (o, k). -/
theorem weight_read (r : Nat) (hr : r < 5) (x5 : FVec Ideal S5x256x256 .f32) (hs : S5x256x256.Slices ![r, 0, 0] S1x256x256)
    (o k : Fin 256) :
    shapeCast S256x256 (extractStridedSlice S1x256x256 ![r, 0, 0] x5 hs) Facts₀.shapeCasts_S1x256x256_S256x256 (ix2 o k)
      = x5 (ix3 (⟨r, hr⟩ : Fin 5) o k) := by
  refine (shapeCast_apply _ Facts₀.shapeCasts_S1x256x256_S256x256 (ix2 o k) (ix3 (0 : Fin 1) o k) ?_).trans ?_
  · rw [Shape.rowMajor_val_three, Shape.rowMajor_val_two]
    show (0 * 256 + o.val) * 256 + k.val = o.val * 256 + k.val
    omega
  · exact extractStridedSlice_apply ![r, 0, 0] x5 hs (ix3 (0 : Fin 1) o k) (ix3 (⟨r, hr⟩ : Fin 5) o k) (fun a => match a with
      | ⟨0, _⟩ => by show r = r + 0; omega
      | ⟨1, _⟩ => by show o.val = 0 + o.val; omega
      | ⟨2, _⟩ => by show k.val = 0 + k.val; omega)

/-- The bias row of layer r: a slice of the stack of five, flattened to a vector, at o. -/
theorem bias_read (r : Nat) (hr : r < 5) (x6 : FVec Ideal S5x256 .f32) (hs : S5x256.Slices ![r, 0] S1x256) (o : Fin 256) :
    shapeCast S256 (extractStridedSlice S1x256 ![r, 0] x6 hs) Facts₀.shapeCasts_S1x256_S256 (ix1 o)
      = x6 (ix2 (⟨r, hr⟩ : Fin 5) o) := by
  refine (shapeCast_apply _ Facts₀.shapeCasts_S1x256_S256 (ix1 o) (ix2 (0 : Fin 1) o) ?_).trans ?_
  · rw [Shape.rowMajor_val_two, Shape.rowMajor_val_one]
    show 0 * 256 + o.val = o.val
    omega
  · exact extractStridedSlice_apply ![r, 0] x6 hs (ix2 (0 : Fin 1) o) (ix2 (⟨r, hr⟩ : Fin 5) o) (fun a => match a with
      | ⟨0, _⟩ => by show r = r + 0; omega
      | ⟨1, _⟩ => by show o.val = 0 + o.val; omega)

/-! ## The layer is the specification's -/

open Cert.Spec in
/-- CONVOLUTION LAYER r OF THE REFERENCE IS THE SPECIFICATION'S: on a state H that is Hspec index by index, with the
    edge list in range, the operations' result at (b, v, o) is conv at layer r of Hspec. -/
theorem convOps_spec (x2 : IVec S2x60000 32) (hidx : InRange x2) (H : FVec Ideal S8x10000x256 .f32)
    (x5 : FVec Ideal S5x256x256 .f32) (x6 : FVec Ideal S5x256 .f32) (r : Nat) (hr : r < 5)
    (hsW : S5x256x256.Slices ![r, 0, 0] S1x256x256) (hsB : S5x256.Slices ![r, 0] S1x256)
    (Hspec : Hidden) (hH : ∀ b v k, H (ix3 b v k) = Hspec b v k) (b : Fin 8) (v : Fin 10000) (o : Fin 256) :
    layerOps (wrapIdx (srcVec x2)) (wrapIdx (dstVec x2)) (nrmVec x2)
        (Host.dotGeneral D256 none H
          (shapeCast S256x256 (extractStridedSlice S1x256x256 ![r, 0, 0] x5 hsW) Facts₀.shapeCasts_S1x256x256_S256x256))
        (shapeCast S256 (extractStridedSlice S1x256 ![r, 0] x6 hsB) Facts₀.shapeCasts_S1x256_S256) (ix3 b v o)
      = conv x2 x5 x6 ⟨r, hr⟩ Hspec b v o := by
  have hS : ∀ e, (wrapIdx (srcVec x2) (ix2 e (0 : Fin 1))).toInt = ((edgeSrc x2 e).val : Int) := fun e => by
    rw [wrapIdx_apply _ e (by rw [srcVec_toInt x2 hidx e]; exact Int.natCast_nonneg _), srcVec_toInt x2 hidx e]
  have hD : ∀ e, (wrapIdx (dstVec x2) (ix2 e (0 : Fin 1))).toInt = ((edgeDst x2 e).val : Int) := fun e => by
    rw [wrapIdx_apply _ e (by rw [dstVec_toInt x2 hidx e]; exact Int.natCast_nonneg _), dstVec_toInt x2 hidx e]
  rw [layerOps_apply _ _ _ _ _ (edgeSrc x2) (edgeDst x2) hS hD b v o, bias_read r hr x6 hsB o]
  show _ = max ((∑ e : Fin 70000, if edgeDst x2 e = v
      then (∑ k : Fin 256, Hspec b (edgeSrc x2 e) k * x5 (ix3 (⟨r, hr⟩ : Fin 5) o k)) * nrmVec x2 (ix1 e) else 0)
    + x6 (ix2 (⟨r, hr⟩ : Fin 5) o)) (Ideal.ofBits .f32 0x00000000#32)
  refine congrArg (fun t => max (t + x6 (ix2 (⟨r, hr⟩ : Fin 5) o)) (Ideal.ofBits .f32 0x00000000#32))
    (Finset.sum_congr rfl fun e _ => ?_)
  by_cases he : edgeDst x2 e = v
  · rw [if_pos he, if_pos he, dot256_apply]
    refine congrArg (fun t => t * nrmVec x2 (ix1 e)) (Finset.sum_congr rfl fun k _ => ?_)
    rw [hH, weight_read r hr x5 hsW o k]
  · rw [if_neg he, if_neg he]

end Cert.ReferenceIdeal.RefLayer

end
-- ==== Proof.RefValue.lean ====
import proofs.«169470_j5557687681111_1_alg».proof.Proof.RefLayer
import proofs.«169470_j5557687681111_1_alg».proof.Proof.RefRun

/-! The reference's value: the composition of its operations on the nine argument arrays — input layer, five
convolution layers, output layer — is the network of the specification, once the edge list is in range; and its run
ends with the result buffer at that network. -/

noncomputable section

namespace Cert.ReferenceIdeal.RefValue

open Cert.ReferenceIdeal Cert.ReferenceIdeal.Gen Cert.ReferenceIdeal.RefLayer Idealize.ShloMosaic Idealize.ShloMosaic.ValueIdx

/-! ## The input layer -/

abbrev D515 : DotDims S8x10000x515 S256x515 S8x10000x256 := dot_S8x10000x515_S256x515_S8x10000x256_2_1_01_0_n_n

theorem D515_lhs0 (i : S8x10000x256.Idx) (q : D515.contr.Idx) : (D515.lhsIdx i q 0).val = (i 0).val := by
  unfold DotDims.lhsIdx
  rw [dif_neg (show ¬(0 : Fin S8x10000x515.rank) ∈ D515.lhsBatch by decide),
    dif_pos (show (0 : Fin S8x10000x515.rank) ∈ D515.lhsNonContracting by decide)]
  rfl
theorem D515_lhs1 (i : S8x10000x256.Idx) (q : D515.contr.Idx) : (D515.lhsIdx i q 1).val = (i 1).val := by
  unfold DotDims.lhsIdx
  rw [dif_neg (show ¬(1 : Fin S8x10000x515.rank) ∈ D515.lhsBatch by decide),
    dif_pos (show (1 : Fin S8x10000x515.rank) ∈ D515.lhsNonContracting by decide)]
  rfl
theorem D515_lhs2 (i : S8x10000x256.Idx) (q : D515.contr.Idx) : (D515.lhsIdx i q 2).val = (q ⟨0, by decide⟩).val :=
  D515.lhsIdx_val_of_single rfl i q
theorem D515_rhs0 (i : S8x10000x256.Idx) (q : D515.contr.Idx) : (D515.rhsIdx i q 0).val = (i 2).val := by
  unfold DotDims.rhsIdx
  rw [dif_neg (show ¬(0 : Fin S256x515.rank) ∈ D515.rhsBatch by decide),
    dif_pos (show (0 : Fin S256x515.rank) ∈ D515.rhsNonContracting by decide)]
  rfl
theorem D515_rhs1 (i : S8x10000x256.Idx) (q : D515.contr.Idx) : (D515.rhsIdx i q 1).val = (q ⟨0, by decide⟩).val :=
  D515.rhsIdx_val_of_single rfl i q

theorem dot515_apply (X : FVec Ideal S8x10000x515 .f32) (W : FVec Ideal S256x515 .f32) (b : Fin 8) (v : Fin 10000) (o : Fin 256) :
    Host.dotGeneral D515 none X W (ix3 b v o) = ∑ k : Fin 515, X (ix3 b v k) * W (ix2 o k) := by
  simp only [Host.dotGeneral]
  rw [Ideal.dotGeneral_apply, ← Equiv.sum_comp (contrEquiv1 D515 515 rfl rfl).symm]
  refine Finset.sum_congr rfl fun k _ => ?_
  have hk := contrEquiv1_symm_val D515 515 rfl rfl k
  have el : D515.lhsIdx (ix3 b v o) ((contrEquiv1 D515 515 rfl rfl).symm k) = ix3 b v k := funext fun a => Fin.ext (by
    match a with
    | ⟨0, _⟩ => exact D515_lhs0 _ _
    | ⟨1, _⟩ => exact D515_lhs1 _ _
    | ⟨2, _⟩ => exact (D515_lhs2 _ _).trans hk)
  have er : D515.rhsIdx (ix3 b v o) ((contrEquiv1 D515 515 rfl rfl).symm k) = ix2 o k := funext fun a => Fin.ext (by
    match a with
    | ⟨0, _⟩ => exact D515_rhs0 _ _
    | ⟨1, _⟩ => exact (D515_rhs1 _ _).trans hk)
  rw [el, er]

/-- The node coordinates, repeated along the batches. -/
def xyzB (x0 : FVec Ideal S10000x3 .f32) : FVec Ideal S8x10000x3 .f32 :=
  broadcastInDim S8x10000x3 ![0, 1, 2] Facts₀.bcast_S1x10000x3_S8x10000x3_0_1_2
    (broadcastInDim S1x10000x3 ![1, 2] Facts₀.bcast_S10000x3_S1x10000x3_1_2 x0)

theorem xyzB_apply (x0 : FVec Ideal S10000x3 .f32) (b : Fin 8) (v : Fin 10000) (g : Fin 3) :
    xyzB x0 (ix3 b v g) = x0 (ix2 v g) := by
  unfold xyzB
  refine (broadcastInDim_apply ![0, 1, 2] Facts₀.bcast_S1x10000x3_S8x10000x3_0_1_2 _ (ix3 b v g)
    (ix3 (0 : Fin 1) v g) (fun a => match a with
      | ⟨0, _⟩ => by show (0 : Nat) = if (1 : Nat) = 1 then 0 else b.val; rw [if_pos rfl]
      | ⟨1, _⟩ => by show v.val = if (10000 : Nat) = 1 then 0 else v.val; rw [if_neg (by decide)]
      | ⟨2, _⟩ => by show g.val = if (3 : Nat) = 1 then 0 else g.val; rw [if_neg (by decide)])).trans ?_
  exact broadcastInDim_apply ![1, 2] Facts₀.bcast_S10000x3_S1x10000x3_1_2 x0 (ix3 (0 : Fin 1) v g) (ix2 v g)
    (fun a => match a with
      | ⟨0, _⟩ => by show v.val = if (10000 : Nat) = 1 then 0 else v.val; rw [if_neg (by decide)]
      | ⟨1, _⟩ => by show g.val = if (3 : Nat) = 1 then 0 else g.val; rw [if_neg (by decide)])

/-- The latent features, repeated along the nodes. -/
def latB (x1 : FVec Ideal S8x512 .f32) : FVec Ideal S8x10000x512 .f32 :=
  broadcastInDim S8x10000x512 ![0, 1, 2] Facts₀.bcast_S8x1x512_S8x10000x512_0_1_2
    (broadcastInDim S8x1x512 ![0, 2] Facts₀.bcast_S8x512_S8x1x512_0_2 x1)

theorem latB_apply (x1 : FVec Ideal S8x512 .f32) (b : Fin 8) (v : Fin 10000) (g : Fin 512) :
    latB x1 (ix3 b v g) = x1 (ix2 b g) := by
  unfold latB
  refine (broadcastInDim_apply ![0, 1, 2] Facts₀.bcast_S8x1x512_S8x10000x512_0_1_2 _ (ix3 b v g)
    (ix3 b (0 : Fin 1) g) (fun a => match a with
      | ⟨0, _⟩ => by show b.val = if (8 : Nat) = 1 then 0 else b.val; rw [if_neg (by decide)]
      | ⟨1, _⟩ => by show (0 : Nat) = if (1 : Nat) = 1 then 0 else v.val; rw [if_pos rfl]
      | ⟨2, _⟩ => by show g.val = if (512 : Nat) = 1 then 0 else g.val; rw [if_neg (by decide)])).trans ?_
  exact broadcastInDim_apply ![0, 2] Facts₀.bcast_S8x512_S8x1x512_0_2 x1 (ix3 b (0 : Fin 1) g) (ix2 b g)
    (fun a => match a with
      | ⟨0, _⟩ => by show b.val = if (8 : Nat) = 1 then 0 else b.val; rw [if_neg (by decide)]
      | ⟨1, _⟩ => by show g.val = if (512 : Nat) = 1 then 0 else g.val; rw [if_neg (by decide)])

/-- The 515 input features of every node in every batch. -/
def featOps (x0 : FVec Ideal S10000x3 .f32) (x1 : FVec Ideal S8x512 .f32) : FVec Ideal S8x10000x515 .f32 :=
  concatenate S8x10000x515 2 [⟨S8x10000x3, xyzB x0⟩, ⟨S8x10000x512, latB x1⟩]
    Facts₀.concatenates_S8x10000x3_S8x10000x512_S8x10000x515_d2

theorem featOps_apply (x0 : FVec Ideal S10000x3 .f32) (x1 : FVec Ideal S8x512 .f32) (b : Fin 8) (v : Fin 10000) (f : Fin 515) :
    featOps x0 x1 (ix3 b v f) = Cert.Spec.feat x0 x1 b v f := by
  unfold featOps Cert.Spec.feat
  by_cases h : f.val < 3
  · rw [dif_pos h]
    refine (concatenate_pair_apply_left (2 : Fin S8x10000x515.rank) _ _
      Facts₀.concatenates_S8x10000x3_S8x10000x512_S8x10000x515_d2 (ix3 b v f) rfl (ix3 b v (⟨f.val, h⟩ : Fin 3))
      (fun a => match a with | ⟨0, _⟩ => rfl | ⟨1, _⟩ => rfl | ⟨2, _⟩ => rfl)).trans ?_
    exact xyzB_apply x0 b v ⟨f.val, h⟩
  · rw [dif_neg h]
    refine (concatenate_pair_apply_right (2 : Fin S8x10000x515.rank) _ _
      Facts₀.concatenates_S8x10000x3_S8x10000x512_S8x10000x515_d2 (ix3 b v f) rfl rfl
      (ix3 b v (⟨f.val - 3, by have := f.isLt; omega⟩ : Fin 512))
      (fun a ha => match a with
        | ⟨0, _⟩ => rfl
        | ⟨1, _⟩ => rfl
        | ⟨2, _⟩ => absurd rfl ha)
      (by show (f.val - 3) + 3 = f.val; omega)).trans ?_
    exact latB_apply x1 b v _

/-- The input layer as the operations spell it. -/
def hid0Ops (x0 : FVec Ideal S10000x3 .f32) (x1 : FVec Ideal S8x512 .f32) (x3 : FVec Ideal S256x515 .f32)
    (x4 : FVec Ideal S256 .f32) : FVec Ideal S8x10000x256 .f32 :=
  maximumf (addf (Host.dotGeneral D515 none (featOps x0 x1) x3) (biasB x4)) zerosH

theorem hid0Ops_apply (x0 : FVec Ideal S10000x3 .f32) (x1 : FVec Ideal S8x512 .f32) (x3 : FVec Ideal S256x515 .f32)
    (x4 : FVec Ideal S256 .f32) (b : Fin 8) (v : Fin 10000) (o : Fin 256) :
    hid0Ops x0 x1 x3 x4 (ix3 b v o) = Cert.Spec.hid0 x0 x1 x3 x4 b v o := by
  show max (Host.dotGeneral D515 none (featOps x0 x1) x3 (ix3 b v o) + biasB x4 (ix3 b v o)) (zerosH (ix3 b v o)) = _
  rw [dot515_apply, biasB_apply, zerosH_apply]
  show _ = max ((∑ f : Fin 515, Cert.Spec.feat x0 x1 b v f * x3 (ix2 o f)) + x4 (ix1 o)) (Ideal.ofBits .f32 0x00000000#32)
  refine congrArg (fun t => max (t + x4 (ix1 o)) (Ideal.ofBits .f32 0x00000000#32)) (Finset.sum_congr rfl fun f _ => ?_)
  rw [featOps_apply]

/-! ## The output layer -/

abbrev D3 : DotDims S8x10000x256 S3x256 S8x10000x3 := dot_S8x10000x256_S3x256_S8x10000x3_2_1_01_0_n_n

theorem D3_lhs0 (i : S8x10000x3.Idx) (q : D3.contr.Idx) : (D3.lhsIdx i q 0).val = (i 0).val := by
  unfold DotDims.lhsIdx
  rw [dif_neg (show ¬(0 : Fin S8x10000x256.rank) ∈ D3.lhsBatch by decide),
    dif_pos (show (0 : Fin S8x10000x256.rank) ∈ D3.lhsNonContracting by decide)]
  rfl
theorem D3_lhs1 (i : S8x10000x3.Idx) (q : D3.contr.Idx) : (D3.lhsIdx i q 1).val = (i 1).val := by
  unfold DotDims.lhsIdx
  rw [dif_neg (show ¬(1 : Fin S8x10000x256.rank) ∈ D3.lhsBatch by decide),
    dif_pos (show (1 : Fin S8x10000x256.rank) ∈ D3.lhsNonContracting by decide)]
  rfl
theorem D3_lhs2 (i : S8x10000x3.Idx) (q : D3.contr.Idx) : (D3.lhsIdx i q 2).val = (q ⟨0, by decide⟩).val :=
  D3.lhsIdx_val_of_single rfl i q
theorem D3_rhs0 (i : S8x10000x3.Idx) (q : D3.contr.Idx) : (D3.rhsIdx i q 0).val = (i 2).val := by
  unfold DotDims.rhsIdx
  rw [dif_neg (show ¬(0 : Fin S3x256.rank) ∈ D3.rhsBatch by decide),
    dif_pos (show (0 : Fin S3x256.rank) ∈ D3.rhsNonContracting by decide)]
  rfl
theorem D3_rhs1 (i : S8x10000x3.Idx) (q : D3.contr.Idx) : (D3.rhsIdx i q 1).val = (q ⟨0, by decide⟩).val :=
  D3.rhsIdx_val_of_single rfl i q

theorem dot3_apply (X : FVec Ideal S8x10000x256 .f32) (W : FVec Ideal S3x256 .f32) (b : Fin 8) (v : Fin 10000) (o : Fin 3) :
    Host.dotGeneral D3 none X W (ix3 b v o) = ∑ k : Fin 256, X (ix3 b v k) * W (ix2 o k) := by
  simp only [Host.dotGeneral]
  rw [Ideal.dotGeneral_apply, ← Equiv.sum_comp (contrEquiv1 D3 256 rfl rfl).symm]
  refine Finset.sum_congr rfl fun k _ => ?_
  have hk := contrEquiv1_symm_val D3 256 rfl rfl k
  have el : D3.lhsIdx (ix3 b v o) ((contrEquiv1 D3 256 rfl rfl).symm k) = ix3 b v k := funext fun a => Fin.ext (by
    match a with
    | ⟨0, _⟩ => exact D3_lhs0 _ _
    | ⟨1, _⟩ => exact D3_lhs1 _ _
    | ⟨2, _⟩ => exact (D3_lhs2 _ _).trans hk)
  have er : D3.rhsIdx (ix3 b v o) ((contrEquiv1 D3 256 rfl rfl).symm k) = ix2 o k := funext fun a => Fin.ext (by
    match a with
    | ⟨0, _⟩ => exact D3_rhs0 _ _
    | ⟨1, _⟩ => exact (D3_rhs1 _ _).trans hk)
  rw [el, er]

/-- The output bias, repeated along the batches and the nodes. -/
def outBias (x8 : FVec Ideal S3 .f32) : FVec Ideal S8x10000x3 .f32 :=
  broadcastInDim S8x10000x3 ![0, 1, 2] Facts₀.bcast_S1x1x3_S8x10000x3_0_1_2
    (broadcastInDim S1x1x3 ![2] Facts₀.bcast_S3_S1x1x3_2 x8)

theorem outBias_apply (x8 : FVec Ideal S3 .f32) (b : Fin 8) (v : Fin 10000) (o : Fin 3) :
    outBias x8 (ix3 b v o) = x8 (ix1 o) := by
  unfold outBias
  refine (broadcastInDim_apply ![0, 1, 2] Facts₀.bcast_S1x1x3_S8x10000x3_0_1_2 _ (ix3 b v o)
    (ix3 (0 : Fin 1) (0 : Fin 1) o) (fun a => match a with
      | ⟨0, _⟩ => by show (0 : Nat) = if (1 : Nat) = 1 then 0 else b.val; rw [if_pos rfl]
      | ⟨1, _⟩ => by show (0 : Nat) = if (1 : Nat) = 1 then 0 else v.val; rw [if_pos rfl]
      | ⟨2, _⟩ => by show o.val = if (3 : Nat) = 1 then 0 else o.val; rw [if_neg (by decide)])).trans ?_
  exact broadcastInDim_apply ![2] Facts₀.bcast_S3_S1x1x3_2 x8 (ix3 (0 : Fin 1) (0 : Fin 1) o) (ix1 o)
    (fun a => match a with
      | ⟨0, _⟩ => by show o.val = if (3 : Nat) = 1 then 0 else o.val; rw [if_neg (by decide)])

/-! ## The whole network -/

open Cert.Spec in
/-- Convolution layer r of the reference on a hidden state H. -/
def layerR (r : Nat) (hsW : S5x256x256.Slices ![r, 0, 0] S1x256x256) (hsB : S5x256.Slices ![r, 0] S1x256)
    (x2 : IVec S2x60000 32) (x5 : FVec Ideal S5x256x256 .f32) (x6 : FVec Ideal S5x256 .f32)
    (H : FVec Ideal S8x10000x256 .f32) : FVec Ideal S8x10000x256 .f32 :=
  layerOps (wrapIdx (srcVec x2)) (wrapIdx (dstVec x2)) (nrmVec x2)
    (Host.dotGeneral D256 none H
      (shapeCast S256x256 (extractStridedSlice S1x256x256 ![r, 0, 0] x5 hsW) Facts₀.shapeCasts_S1x256x256_S256x256))
    (shapeCast S256 (extractStridedSlice S1x256 ![r, 0] x6 hsB) Facts₀.shapeCasts_S1x256_S256)

open Cert.Spec in
/-- One more layer: if H is the specification's state after n layers, layer n of the reference on H is the state after n + 1. -/
theorem layerR_spec (x0 : FVec Ideal S10000x3 .f32) (x1 : FVec Ideal S8x512 .f32) (x2 : IVec S2x60000 32) (hidx : InRange x2)
    (x3 : FVec Ideal S256x515 .f32) (x4 : FVec Ideal S256 .f32) (x5 : FVec Ideal S5x256x256 .f32) (x6 : FVec Ideal S5x256 .f32)
    (n : Nat) (hn : n < 5) (hsW : S5x256x256.Slices ![n, 0, 0] S1x256x256) (hsB : S5x256.Slices ![n, 0] S1x256)
    (H : FVec Ideal S8x10000x256 .f32) (hH : ∀ b v k, H (ix3 b v k) = hid x0 x1 x2 x3 x4 x5 x6 n b v k)
    (b : Fin 8) (v : Fin 10000) (o : Fin 256) :
    layerR n hsW hsB x2 x5 x6 H (ix3 b v o) = hid x0 x1 x2 x3 x4 x5 x6 (n + 1) b v o := by
  unfold layerR
  rw [convOps_spec x2 hidx H x5 x6 n hn hsW hsB (hid x0 x1 x2 x3 x4 x5 x6 n) hH b v o]
  exact (congrFun (congrFun (congrFun (hid_succ x0 x1 x2 x3 x4 x5 x6 ⟨n, hn⟩) b) v) o).symm

/-- THE REFERENCE'S RESULT as the composition of its operations on the nine argument arrays. -/
def refTerm (x0 : FVec Ideal S10000x3 .f32) (x1 : FVec Ideal S8x512 .f32) (x2 : IVec S2x60000 32)
    (x3 : FVec Ideal S256x515 .f32) (x4 : FVec Ideal S256 .f32) (x5 : FVec Ideal S5x256x256 .f32)
    (x6 : FVec Ideal S5x256 .f32) (x7 : FVec Ideal S3x256 .f32) (x8 : FVec Ideal S3 .f32) : FVec Ideal S8x10000x3 .f32 :=
  addf (Host.dotGeneral D3 none
    (layerR 4 Facts₀.slices_S5x256x256_S1x256x256_4_0_0 Facts₀.slices_S5x256_S1x256_4_0 x2 x5 x6
    (layerR 3 Facts₀.slices_S5x256x256_S1x256x256_3_0_0 Facts₀.slices_S5x256_S1x256_3_0 x2 x5 x6
    (layerR 2 Facts₀.slices_S5x256x256_S1x256x256_2_0_0 Facts₀.slices_S5x256_S1x256_2_0 x2 x5 x6
    (layerR 1 Facts₀.slices_S5x256x256_S1x256x256_1_0_0 Facts₀.slices_S5x256_S1x256_1_0 x2 x5 x6
    (layerR 0 Facts₀.slices_S5x256x256_S1x256x256_0_0_0 Facts₀.slices_S5x256_S1x256_0_0 x2 x5 x6
    (hid0Ops x0 x1 x3 x4)))))) x7) (outBias x8)

open Cert.Spec in
/-- THE REFERENCE IS THE NETWORK: with the edge list in range, the composition of the reference's operations is the
    specification's function of the nine argument arrays. -/
theorem refTerm_eq_gcn (x0 : FVec Ideal S10000x3 .f32) (x1 : FVec Ideal S8x512 .f32) (x2 : IVec S2x60000 32) (hidx : InRange x2)
    (x3 : FVec Ideal S256x515 .f32) (x4 : FVec Ideal S256 .f32) (x5 : FVec Ideal S5x256x256 .f32)
    (x6 : FVec Ideal S5x256 .f32) (x7 : FVec Ideal S3x256 .f32) (x8 : FVec Ideal S3 .f32) :
    refTerm x0 x1 x2 x3 x4 x5 x6 x7 x8 = gcn x0 x1 x2 x3 x4 x5 x6 x7 x8 := by
  funext i
  obtain ⟨b, v, o, rfl⟩ : ∃ (b : Fin 8) (v : Fin 10000) (o : Fin 3), i = ix3 b v o := ⟨i 0, i 1, i 2, eq_ix3 i⟩
  have h0 : ∀ b v k, hid0Ops x0 x1 x3 x4 (ix3 b v k) = hid x0 x1 x2 x3 x4 x5 x6 0 b v k :=
    fun b v k => hid0Ops_apply x0 x1 x3 x4 b v k
  have h1 := layerR_spec x0 x1 x2 hidx x3 x4 x5 x6 0 (by decide) Facts₀.slices_S5x256x256_S1x256x256_0_0_0
    Facts₀.slices_S5x256_S1x256_0_0 _ h0
  have h2 := layerR_spec x0 x1 x2 hidx x3 x4 x5 x6 1 (by decide) Facts₀.slices_S5x256x256_S1x256x256_1_0_0
    Facts₀.slices_S5x256_S1x256_1_0 _ h1
  have h3 := layerR_spec x0 x1 x2 hidx x3 x4 x5 x6 2 (by decide) Facts₀.slices_S5x256x256_S1x256x256_2_0_0
    Facts₀.slices_S5x256_S1x256_2_0 _ h2
  have h4 := layerR_spec x0 x1 x2 hidx x3 x4 x5 x6 3 (by decide) Facts₀.slices_S5x256x256_S1x256x256_3_0_0
    Facts₀.slices_S5x256_S1x256_3_0 _ h3
  have h5 := layerR_spec x0 x1 x2 hidx x3 x4 x5 x6 4 (by decide) Facts₀.slices_S5x256x256_S1x256x256_4_0_0
    Facts₀.slices_S5x256_S1x256_4_0 _ h4
  unfold refTerm
  show Host.dotGeneral D3 none _ x7 (ix3 b v o) + outBias x8 (ix3 b v o) = outLayer x7 x8 (hid x0 x1 x2 x3 x4 x5 x6 5) b v o
  rw [dot3_apply, outBias_apply]
  unfold outLayer
  refine congrArg (fun t => t + x8 (ix1 o)) (Finset.sum_congr rfl fun k _ => ?_)
  rw [h5 b v k]

/-! ## The run -/

open Idealize.ShloMosaic.TcCoe Idealize.SL.Sem Idealize.ShloMosaic.StableHlo

set_option maxRecDepth 8192 in
/-- The run's result term is the composition above: the same operations in the same order, the edge words, their
    wrap and the normalisation under the specification's names. -/
theorem res_eq_refTerm (m : (ℓ : Loc nD τ sig) → Buf (Elt Ideal) ℓ) (c : Dev nD) :
    Cert.ReferenceIdeal.ValueP.res_main_v178 (F := Ideal) m c
      = refTerm (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.ValueP.res_main_v178
  rfl

/-- THE REFERENCE'S VALUE: with the edge list in range, the run's result is the network of the specification at the
    nine argument arrays. -/
theorem ref_is_gcn (m : (ℓ : Loc nD τ sig) → Buf (Elt Ideal) ℓ) (c : Dev nD)
    (hidx : Cert.Spec.InRange (m ((c.tc : Thread nD τ).loc main_arg2))) :
    Cert.ReferenceIdeal.ValueP.res_main_v178 (F := Ideal) m c
      = Cert.Spec.gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  (res_eq_refTerm m c).trans (refTerm_eq_gcn _ _ _ hidx _ _ _ _ _ _)

/-- THE REFERENCE'S RUN: from any memory whose edge list is in range, every weakly fair execution ends with the result
    buffer at the network of the nine argument buffers, and those unchanged. -/
theorem run_gcn (m : (ℓ : Loc nD τ sig) → Buf (Elt Ideal) ℓ) (ρ : Dev nD → PrngReg)
    (hidx : ∀ c : Dev nD, Cert.Spec.InRange (m ((c.tc : Thread nD τ).loc main_arg2))) :
    θ_run (defs (F := Ideal)) (onTc (τ := τ) (main (F := Ideal))) ⟨m, fun _ => 0, ρ⟩ fun r => ∀ c : Dev nD,
      r.2.mem ((c.tc : Thread nD τ).loc main_v178)
        = Cert.Spec.gcn (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono (fun _ h c => ⟨(h c).1.trans (ref_is_gcn m c (hidx c)), (h c).2⟩)
    (Cert.ReferenceIdeal.ValueP.run (F := Ideal) m ρ)

end Cert.ReferenceIdeal.RefValue

end
-- ==== Proof.PreFacts.lean ====
import proofs.«169470_j5557687681111_1_alg».proof.Pre_finite_inputs
import Idealize.ShloMosaic.Lib.ReduceAll
import Idealize.ShloMosaic.PureOps.Ideal.Laws
import Idealize.ShloMosaic.Lib.ValueIdx

/-!
What the precondition says, at the extended reals. The predicate joins, by "and", nine statements, each a
"for all entries": for the eight arrays of numbers, that the absolute value of the entry is below +infinity; for
the array of 32-bit words, that the word read as a signed integer is at least 0 and below 10000. That the
predicate is 1 therefore gives: every entry of every array of numbers is a real number (neither infinity), and
every word of the index array, read signed, lies in [0, 10000) — hence also read unsigned.
-/

noncomputable section

namespace Cert.PreFacts

open Idealize.ShloMosaic Cert.Pre_finite_inputs

/-- The single-precision pattern of +infinity denotes the top extended real. -/
theorem ofBits_inf : Ideal.ofBits .f32 0x7F800000#32 = (⊤ : EReal) := by
  simp [Ideal.ofBits, Ideal.ieee]

theorem ofBool_eq_one {b : Bool} : BitVec.ofBool b = 1#1 ↔ b = true := by cases b <;> decide

/-- An extended real whose absolute value, max x (-x), is below +infinity is a real number. -/
theorem real_of_abs_lt (x : EReal)
    (h : FloatOps.cmpf (F := Ideal) (φ := .f32) .olt (FloatOps.absf (F := Ideal) (φ := .f32) x)
      (FloatOps.ofBits (F := Ideal) .f32 0x7F800000#32) = 1#1) :
    ∃ r : ℝ, x = (r : EReal) := by
  have h' : max x (-x) < (⊤ : EReal) := by
    have : Ideal.cmp .olt (max x (-x)) (Ideal.ofBits .f32 0x7F800000#32) = 1#1 := h
    rw [ofBits_inf] at this
    simpa [Ideal.cmp, ofBool_eq_one] using this
  induction x using EReal.rec with
  | bot => simp at h'
  | coe r => exact ⟨r, rfl⟩
  | top => simp at h'

/-- A word that is at least 0 and below 10000, both read signed. -/
theorem range_of_cmp (x : BitVec 32)
    (h : IntOp.andi (IntOp.cmpi .sge x 0#32) (IntOp.cmpi .slt x 10000#32) = 1#1) :
    0 ≤ x.toInt ∧ x.toInt < 10000 := by
  rw [IntOp.andi_eq_one, IntOp.cmpi_sge, IntOp.cmpi_slt] at h
  exact h

/-- A word in [0, 10000) read signed is the same number read unsigned. -/
theorem toNat_of_range (x : BitVec 32) (h : 0 ≤ x.toInt ∧ x.toInt < 10000) :
    x.toNat < 10000 ∧ x.toInt = (x.toNat : Int) := by
  have h32 := x.isLt
  obtain ⟨h0, h1⟩ := h
  unfold BitVec.toInt at h0 h1 ⊢
  split at h1 <;> simp at h0 h1 ⊢ <;> omega

instance : Subsingleton S_.Idx := ⟨fun a b => funext fun d => d.elim0⟩

variable [Facts]

/-- The precondition, decoded: each of the eight arrays of numbers has only real entries, and each word of
    the index array, read signed, lies in [0, 10000). -/
theorem decode (a0 : FVec Ideal S10000x3 .f32) (a1 : FVec Ideal S8x512 .f32) (a2 : IVec S2x60000 32)
    (a3 : FVec Ideal S256x515 .f32) (a4 : FVec Ideal S256 .f32) (a5 : FVec Ideal S5x256x256 .f32)
    (a6 : FVec Ideal S5x256 .f32) (a7 : FVec Ideal S3x256 .f32) (a8 : FVec Ideal S3 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧
    (∀ i, 0 ≤ (a2 i).toInt ∧ (a2 i).toInt < 10000) ∧
    (∀ i, ∃ r : ℝ, a3 i = (r : EReal)) ∧ (∀ i, ∃ r : ℝ, a4 i = (r : EReal)) ∧
    (∀ i, ∃ r : ℝ, a5 i = (r : EReal)) ∧ (∀ i, ∃ r : ℝ, a6 i = (r : EReal)) ∧
    (∀ i, ∃ r : ℝ, a7 i = (r : EReal)) ∧ (∀ i, ∃ r : ℝ, a8 i = (r : EReal)) := by
  have e := congrFun h ValueIdx.ix0
  dsimp only [fn, fn_part1, fn_part2] at e
  simp only [andi, IntOp.andi_eq_one] at e
  obtain ⟨⟨⟨⟨⟨⟨⟨⟨h0, h1⟩, h3⟩, h4⟩, h5⟩, h6⟩, h7⟩, h8⟩, h2⟩ := e
  refine ⟨fun i => ?_, fun i => ?_, fun i => ?_, fun i => ?_, fun i => ?_, fun i => ?_, fun i => ?_, fun i => ?_,
    fun i => ?_⟩
  · exact real_of_abs_lt _ (Host.reduce_andi_all _ _ _ _ _ h0 i)
  · exact real_of_abs_lt _ (Host.reduce_andi_all _ _ _ _ _ h1 i)
  · exact range_of_cmp _ (Host.reduce_andi_all _ _ _ _ _ h2 i)
  · exact real_of_abs_lt _ (Host.reduce_andi_all _ _ _ _ _ h3 i)
  · exact real_of_abs_lt _ (Host.reduce_andi_all _ _ _ _ _ h4 i)
  · exact real_of_abs_lt _ (Host.reduce_andi_all _ _ _ _ _ h5 i)
  · exact real_of_abs_lt _ (Host.reduce_andi_all _ _ _ _ _ h6 i)
  · exact real_of_abs_lt _ (Host.reduce_andi_all _ _ _ _ _ h7 i)
  · exact real_of_abs_lt _ (Host.reduce_andi_all _ _ _ _ _ h8 i)

/-- Every word of the index array lies in [0, 10000) read unsigned too, where it is the same number. -/
theorem index_toNat (a0 : FVec Ideal S10000x3 .f32) (a1 : FVec Ideal S8x512 .f32) (a2 : IVec S2x60000 32)
    (a3 : FVec Ideal S256x515 .f32) (a4 : FVec Ideal S256 .f32) (a5 : FVec Ideal S5x256x256 .f32)
    (a6 : FVec Ideal S5x256 .f32) (a7 : FVec Ideal S3x256 .f32) (a8 : FVec Ideal S3 .f32)
    (h : Cert.Pre_finite_inputs.fn (F := Ideal) a0 a1 a2 a3 a4 a5 a6 a7 a8 = fun _ => 1#1) (i : S2x60000.Idx) :
    (a2 i).toNat < 10000 ∧ (a2 i).toInt = ((a2 i).toNat : Int) :=
  toNat_of_range _ ((decode a0 a1 a2 a3 a4 a5 a6 a7 a8 h).2.2.1 i)

end Cert.PreFacts

end
-- ==== Proof.LinValue0.lean ====
import proofs.«169470_j5557687681111_1_alg».proof.Proof.Lin0
import Idealize.ShloMosaic.Lib.Pipeline.Value
import Idealize.ShloMosaic.Lib.ValueIdx
import Idealize.ShloMosaic.PureOps.Ideal.Laws

/-!
The array the input layer leaves, as one function of the arrays it found.

The layer's grid has forty points; point t multiplies rows 2048·t … 2048·t + 2047 of the features [81920,515] by
the whole weight matrix [515,256], adds the bias row and takes the maximum with zero, and writes the same rows of
the result. On the extended reals the roundings are the identity and the matrix unit's sum into a zero accumulator
is the plain sum, so entry (r, o) of the result is max (∑ k, X (r, k) · W (k, o) + b (0, o)) 0 whatever the block r
lies in: every point's block is the restriction of that one function, and the forty blocks tile the 81920 rows.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The payload at an index -/

/-- The dimension numbers of the layer's product: rows times contraction, contraction times columns. -/
local notation "D0" => dot_S2048x515_S515x256_S2048x256_1_0_0_1_n_n

theorem lhsRow0 (j : S2048x256.Idx) (q : (D0).contr.Idx) : ((D0).lhsIdx j q 0).val = (j 0).val := by
  unfold DotDims.lhsIdx
  rw [dif_neg (show ¬(0 : Fin S2048x515.rank) ∈ (D0).lhsBatch by decide),
    dif_pos (show (0 : Fin S2048x515.rank) ∈ (D0).lhsNonContracting by decide)]
  rfl

theorem rhsCol0 (j : S2048x256.Idx) (q : (D0).contr.Idx) : ((D0).rhsIdx j q 1).val = (j 1).val := by
  unfold DotDims.rhsIdx
  rw [dif_neg (show ¬(1 : Fin S515x256.rank) ∈ (D0).rhsBatch by decide),
    dif_pos (show (1 : Fin S515x256.rank) ∈ (D0).rhsNonContracting by decide)]
  rfl

/-- The matrix unit's product into a zero accumulator, at an index: the plain sum over the contraction. -/
theorem matmul0_apply (x : FVec Ideal S2048x515 .bf16) (wt : FVec Ideal S515x256 .bf16) (p : Fin 2048) (q : Fin 256) :
    FloatOps.matmul (D0) none x wt (constant S2048x256 .f32 0x00000000#32) (ix2 p q)
      = ∑ k : Fin 515, x (ix2 p k) * wt (ix2 k q) := by
  refine (Ideal.matmul_constant_zero_apply (D0) none _ _ _).trans ?_
  rw [← Equiv.sum_comp (contrEquiv1 (D0) 515 rfl rfl).symm]
  refine Finset.sum_congr rfl fun k _ => ?_
  have hk := contrEquiv1_symm_val (D0) 515 rfl rfl k
  have el : (D0).lhsIdx (ix2 p q) ((contrEquiv1 (D0) 515 rfl rfl).symm k) = ix2 p k := funext fun a => Fin.ext (by
    match a with
    | ⟨0, _⟩ => exact lhsRow0 _ _
    | ⟨1, _⟩ => exact ((D0).lhsIdx_val_of_single rfl _ _).trans hk)
  have er : (D0).rhsIdx (ix2 p q) ((contrEquiv1 (D0) 515 rfl rfl).symm k) = ix2 k q := funext fun a => Fin.ext (by
    match a with
    | ⟨0, _⟩ => exact ((D0).rhsIdx_val_of_single rfl _ _).trans hk
    | ⟨1, _⟩ => exact rhsCol0 _ _)
  rw [el, er]

/-- The bias row broadcast down the rows, at an index: the bias of the column. -/
theorem biasRow0_apply (b : FVec Ideal S1x256 .f32) (p : Fin 2048) (q : Fin 256) :
    broadcastTo S2048x256 b broadcasts_S1x256_S2048x256 (ix2 p q) = b (ix2 (0 : Fin 1) q) :=
  broadcastTo_apply b broadcasts_S1x256_S2048x256 (ix2 p q) (ix2 (0 : Fin 1) q) (fun a => by
    match a with
    | ⟨0, _⟩ => show (0 : ℕ) = if (1 : ℕ) = 1 then 0 else p.val; rw [if_pos rfl]
    | ⟨1, _⟩ => show q.val = if (256 : ℕ) = 1 then 0 else q.val; rw [if_neg (by decide)])

/-- The layer's payload at an index: entry (p, q) of the product of the feature block with the weights, plus the
    column's bias, against zero. -/
theorem pay0_apply (x : Vec Ideal S2048x515 .f32) (wt : Vec Ideal S515x256 .f32) (b : Vec Ideal S1x256 .f32)
    (p : Fin 2048) (q : Fin 256) :
    k0_pay1 (F := Ideal) x wt b (ix2 p q)
      = max (∑ k : Fin 515, x (ix2 p k) * wt (ix2 k q) + b (ix2 (0 : Fin 1) q))
          (Scalar.ofBits (F := Ideal) .f32 0x00000000#32) := by
  unfold k0_pay1
  simp only [shapeCast_self]
  rw [truncf_apply, maximumf_apply, addf_apply, broadcast_apply, biasRow0_apply]
  refine congrArg (fun z => max (z + b (ix2 (0 : Fin 1) q)) (Scalar.ofBits (F := Ideal) .f32 0x00000000#32)) ?_
  refine (matmul0_apply _ _ p q).trans ?_
  simp only [truncf_apply]

/-! ## From blocks to the array -/

/-- The whole layer: entry (r, o) is the sum over k of feature (r, k) times weight (k, o), plus bias (0, o),
    against zero. -/
abbrev linG0 (X : S81920x515.Idx → EReal) (W : S515x256.Idx → EReal) (B : S1x256.Idx → EReal) :
    S81920x256.Idx → EReal :=
  fun j => max (∑ k : Fin 515, X (ix2 (j 0) k) * W (ix2 k (j 1)) + B (ix2 (0 : Fin 1) (j 1)))
    (Scalar.ofBits (F := Ideal) .f32 0x00000000#32)

theorem zeros2_0 : (![0, 0] : Fin 2 → Nat) = fun _ => 0 := funext fun a => by fin_cases a <;> rfl

/-- The printed index maps, decided over the grid: the features' and the result's blocks are block row t, their
    one block column 0; the weights' and the bias row's block is the whole array. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of a block's result is an entry of the whole layer, when the block's row of features, the weights'
    column and the column's bias are the whole arrays' (stated over plain vectors and indices). -/
theorem blockEntry0 (X : S81920x515.Idx → EReal) (W : S515x256.Idx → EReal) (B : S1x256.Idx → EReal)
    (x : Vec Ideal S2048x515 .f32) (wt : Vec Ideal S515x256 .f32) (b : Vec Ideal S1x256 .f32)
    (y : S2048x256.Idx) (i : S81920x256.Idx)
    (hx : ∀ k : Fin 515, x (ix2 (y 0) k) = X (ix2 (i 0) k)) (hw : ∀ k : Fin 515, wt (ix2 k (y 1)) = W (ix2 k (i 1)))
    (hb : b (ix2 (0 : Fin 1) (y 1)) = B (ix2 (0 : Fin 1) (i 1))) :
    k0_pay1 (F := Ideal) x wt b y = linG0 X W B i := by
  obtain ⟨p, q, rfl⟩ : ∃ (p : Fin 2048) (q : Fin 256), y = ix2 p q := ⟨y 0, y 1, eq_ix2 y⟩
  rw [pay0_apply]
  refine congrArg₂ (fun s z => max (s + z) (Scalar.ofBits (F := Ideal) .f32 0x00000000#32)) ?_ hb
  exact Finset.sum_congr rfl fun k _ => congrArg₂ (· * ·) (hx k) (hw k)

/-- WHAT POINT t WRITES BACK is block t of the whole layer of the arrays as the layer finds them. -/
theorem flushed0_eq (c : Dev nD) (t : Fin cfg0.N) :
    (dat0 (F := Ideal) V c).flushed 3 t
      = ((cfg0.win 3).blk t).view.read (Elt Ideal) (linG0 (V c main_v55) (V c main_v52) (V c main_v56)) := by
  show (cfg0.win 3).cut (grid0.coords t) ((dat0 (F := Ideal) V c).after 3 t) = _
  rw [after0_3]
  unfold out0_3
  rw [View.canon_unit_zero zeros2_0]
  simp only [View.ld_unit_zero (S := S2048x515) zeros2_0, View.ld_unit_zero (S := S515x256) zeros2_0,
    View.ld_unit_zero (S := S1x256) zeros2_0]
  obtain ⟨e0, e1, e2, e3, e4, e5, e6, e7⟩ := blockIdx0 t
  funext j
  show k0_pay1 (F := Ideal) (iblk0 V c 0 t) (iblk0 V c 1 t) (iblk0 V c 2 t) j
    = linG0 (V c main_v55) (V c main_v52) (V c main_v56) (((cfg0.win 3).blk t).view.emb j)
  refine blockEntry0 (V c main_v55) (V c main_v52) (V c main_v56) (iblk0 V c 0 t) (iblk0 V c 1 t) (iblk0 V c 2 t) j
    (((cfg0.win 3).blk t).view.emb j) (fun k => ?_) (fun k => ?_) ?_
  · show V c main_v55 (((cfg0.win 0).blk t).view.emb (ix2 (j 0) k))
      = V c main_v55 (ix2 ((((cfg0.win 3).blk t).view.emb j) 0) k)
    refine congrArg _ (funext fun a => Fin.ext ?_)
    match a with
    | ⟨0, _⟩ =>
      show win0_0.index t (0 : Fin 2) * 2048 + 1 * (j 0).val = win0_3.index t (0 : Fin 2) * 2048 + 1 * (j 0).val
      omega
    | ⟨1, _⟩ =>
      show win0_0.index t (1 : Fin 2) * 515 + 1 * k.val = k.val
      omega
  · show V c main_v52 (((cfg0.win 1).blk t).view.emb (ix2 k (j 1)))
      = V c main_v52 (ix2 k ((((cfg0.win 3).blk t).view.emb j) 1))
    refine congrArg _ (funext fun a => Fin.ext ?_)
    match a with
    | ⟨0, _⟩ =>
      show win0_1.index t (0 : Fin 2) * 515 + 1 * k.val = k.val
      omega
    | ⟨1, _⟩ =>
      show win0_1.index t (1 : Fin 2) * 256 + 1 * (j 1).val = win0_3.index t (1 : Fin 2) * 256 + 1 * (j 1).val
      omega
  · show V c main_v56 (((cfg0.win 2).blk t).view.emb (ix2 (0 : Fin 1) (j 1)))
      = V c main_v56 (ix2 (0 : Fin 1) ((((cfg0.win 3).blk t).view.emb j) 1))
    refine congrArg _ (funext fun a => Fin.ext ?_)
    match a with
    | ⟨0, _⟩ =>
      show win0_2.index t (0 : Fin 2) * 1 + 1 * 0 = 0
      omega
    | ⟨1, _⟩ =>
      show win0_2.index t (1 : Fin 2) * 256 + 1 * (j 1).val = win0_3.index t (1 : Fin 2) * 256 + 1 * (j 1).val
      omega

/-- An index of the result is in point t's block iff each coordinate is in the block's range on its axis. -/
theorem memBlock0 (t : Fin cfg0.N) (i : S81920x256.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v57).slice (win0_3.rect t)).set ↔ _
  rw [View.set_slice_whole, Rect.mem_set_unit]
  exact Iff.rfl

/-- THE BLOCKS TILE THE ROWS: row r lies in the block of point r / 2048, and every point writes its block back. -/
theorem cover0 (i : S81920x256.Idx) :
    ∃ t : Fin cfg0.N, (cfg0.win 3).flush t = true ∧ i ∈ ((cfg0.win 3).blk t).view.set := by
  have hi0 : (i 0).val < 81920 := (i 0).isLt
  have hi1 : (i 1).val < 256 := (i 1).isLt
  have hN : cfg0.N = 40 := N_0
  have ht : (i 0).val / 2048 < cfg0.N := by rw [hN]; omega
  obtain ⟨-, -, -, -, -, -, e6, e7⟩ := blockIdx0 ⟨(i 0).val / 2048, ht⟩
  refine ⟨⟨(i 0).val / 2048, ht⟩, flush0_3 _, ?_⟩
  rw [memBlock0]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    rw [e6]
    show (i 0).val / 2048 * 2048 ≤ (i 0).val ∧ (i 0).val < (i 0).val / 2048 * 2048 + 2048
    omega
  | ⟨1, _⟩ =>
    show win0_3.index ⟨(i 0).val / 2048, ht⟩ (1 : Fin 2) * 256 ≤ (i 1).val
      ∧ (i 1).val < win0_3.index ⟨(i 0).val / 2048, ht⟩ (1 : Fin 2) * 256 + 256
    rw [e7]
    omega

/-- THE RESULT ARRAY after the layer: the whole layer of the features, the weights and the bias row as the layer
    found them. -/
theorem linArr0 (c : Dev nD) :
    (dat0 (F := Ideal) V c).arrAt 3 cfg0.N = linG0 (V c main_v55) (V c main_v52) (V c main_v56) :=
  (dat0 (F := Ideal) V c).arrAt_eq_of_cover 3 (linG0 (V c main_v55) (V c main_v52) (V c main_v56))
    (fun t _ => flushed0_eq V c t) cover0

end Cert.KernelIdeal.Hand

end
-- ==== Proof.LinValue1.lean ====
import proofs.«169470_j5557687681111_1_alg».proof.Proof.Lin1
import Idealize.ShloMosaic.Lib.Pipeline.Value
import Idealize.ShloMosaic.Lib.ValueIdx
import Idealize.ShloMosaic.PureOps.Ideal.Laws

/-!
The array a bias-free linear layer leaves, as one function of the arrays it found.

The layer's grid has forty points; point t multiplies rows 2048·t … 2048·t + 2047 of the activations by the whole
weight matrix and writes the same rows of the result. On the extended reals the roundings are the identity and the
matrix unit's sum into a zero accumulator is the plain sum, so entry (r, o) of the result is ∑ k, X (r, k) · W (k, o)
whatever the block r lies in: every point's block is the restriction of that one function, and the forty blocks
tile the 81920 rows.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The payload at an index -/

/-- The dimension numbers of the layer's product: rows times contraction, contraction times columns. -/
local notation "D1" => dot_S2048x256_S256x256_S2048x256_1_0_0_1_n_n

theorem lhsRow1 (j : S2048x256.Idx) (q : (D1).contr.Idx) : ((D1).lhsIdx j q 0).val = (j 0).val := by
  unfold DotDims.lhsIdx
  rw [dif_neg (show ¬(0 : Fin S2048x256.rank) ∈ (D1).lhsBatch by decide),
    dif_pos (show (0 : Fin S2048x256.rank) ∈ (D1).lhsNonContracting by decide)]
  rfl

theorem rhsCol1 (j : S2048x256.Idx) (q : (D1).contr.Idx) : ((D1).rhsIdx j q 1).val = (j 1).val := by
  unfold DotDims.rhsIdx
  rw [dif_neg (show ¬(1 : Fin S256x256.rank) ∈ (D1).rhsBatch by decide),
    dif_pos (show (1 : Fin S256x256.rank) ∈ (D1).rhsNonContracting by decide)]
  rfl

/-- The layer's payload at an index: entry (p, q) of the product of the activation block with the weights. -/
theorem pay1_apply (h : Vec Ideal S2048x256 .bf16) (wt : Vec Ideal S256x256 .f32) (p : Fin 2048) (q : Fin 256) :
    k1_pay1 (F := Ideal) h wt (ix2 p q) = ∑ k : Fin 256, h (ix2 p k) * wt (ix2 k q) := by
  unfold k1_pay1
  simp only [shapeCast_self]
  rw [truncf_apply]
  refine (Ideal.matmul_constant_zero_apply (D1) none _ _ _).trans ?_
  rw [← Equiv.sum_comp (contrEquiv1 (D1) 256 rfl rfl).symm]
  simp only [truncf_apply]
  refine Finset.sum_congr rfl fun k _ => ?_
  have hk := contrEquiv1_symm_val (D1) 256 rfl rfl k
  have el : (D1).lhsIdx (ix2 p q) ((contrEquiv1 (D1) 256 rfl rfl).symm k) = ix2 p k := funext fun a => Fin.ext (by
    match a with
    | ⟨0, _⟩ => exact lhsRow1 _ _
    | ⟨1, _⟩ => exact ((D1).lhsIdx_val_of_single rfl _ _).trans hk)
  have er : (D1).rhsIdx (ix2 p q) ((contrEquiv1 (D1) 256 rfl rfl).symm k) = ix2 k q := funext fun a => Fin.ext (by
    match a with
    | ⟨0, _⟩ => exact ((D1).rhsIdx_val_of_single rfl _ _).trans hk
    | ⟨1, _⟩ => exact rhsCol1 _ _)
  rw [el, er]

/-! ## From blocks to the array -/

/-- The whole product: entry (r, o) is the sum over k of activation (r, k) times weight (k, o). -/
abbrev linG1 (X : S81920x256.Idx → EReal) (W : S256x256.Idx → EReal) : S81920x256.Idx → EReal :=
  fun j => ∑ k : Fin 256, X (ix2 (j 0) k) * W (ix2 k (j 1))

theorem zeros2_1 : (![0, 0] : Fin 2 → Nat) = fun _ => 0 := funext fun a => by fin_cases a <;> rfl

/-- The printed index maps, decided over the grid: the activations' and the result's blocks are block row t, their
    one block column 0; the weights' block is the whole matrix. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry of a block's product is an entry of the whole product, when the block's row of activations and the
    weights' column are the whole arrays' (stated over plain vectors and indices). -/
theorem blockEntry1 (X : S81920x256.Idx → EReal) (W : S256x256.Idx → EReal)
    (h : Vec Ideal S2048x256 .bf16) (wt : Vec Ideal S256x256 .f32) (y : S2048x256.Idx) (i : S81920x256.Idx)
    (hh : ∀ k : Fin 256, h (ix2 (y 0) k) = X (ix2 (i 0) k)) (hw : ∀ k : Fin 256, wt (ix2 k (y 1)) = W (ix2 k (i 1))) :
    k1_pay1 (F := Ideal) h wt y = linG1 X W i := by
  obtain ⟨p, q, rfl⟩ : ∃ (p : Fin 2048) (q : Fin 256), y = ix2 p q := ⟨y 0, y 1, eq_ix2 y⟩
  rw [pay1_apply]
  exact Finset.sum_congr rfl fun k _ => congrArg₂ (· * ·) (hh k) (hw k)

/-- WHAT POINT t WRITES BACK is block t of the whole product of the arrays as the layer finds them. -/
theorem flushed1_eq (c : Dev nD) (t : Fin cfg1.N) :
    (dat1 (F := Ideal) V c).flushed 2 t
      = ((cfg1.win 2).blk t).view.read (Elt Ideal) (linG1 (V c main_v59) (V c main_v61)) := by
  show (cfg1.win 2).cut (grid1.coords t) ((dat1 (F := Ideal) V c).after 2 t) = _
  rw [after1_2]
  unfold out1_2
  rw [View.canon_unit_zero zeros2_1]
  simp only [View.ld_unit_zero (S := S2048x256) zeros2_1, View.ld_unit_zero (S := S256x256) zeros2_1]
  obtain ⟨e0, e1, e2, e3, e4, e5⟩ := blockIdx1 t
  funext j
  show k1_pay1 (F := Ideal) (iblk1 V c 0 t) (iblk1 V c 1 t) j
    = linG1 (V c main_v59) (V c main_v61) (((cfg1.win 2).blk t).view.emb j)
  refine blockEntry1 (V c main_v59) (V c main_v61) (iblk1 V c 0 t) (iblk1 V c 1 t) j
    (((cfg1.win 2).blk t).view.emb j) (fun k => ?_) (fun k => ?_)
  · show V c main_v59 (((cfg1.win 0).blk t).view.emb (ix2 (j 0) k))
      = V c main_v59 (ix2 ((((cfg1.win 2).blk t).view.emb j) 0) k)
    refine congrArg _ (funext fun a => Fin.ext ?_)
    match a with
    | ⟨0, _⟩ =>
      show win1_0.index t (0 : Fin 2) * 2048 + 1 * (j 0).val = win1_2.index t (0 : Fin 2) * 2048 + 1 * (j 0).val
      omega
    | ⟨1, _⟩ =>
      show win1_0.index t (1 : Fin 2) * 256 + 1 * k.val = k.val
      omega
  · show V c main_v61 (((cfg1.win 1).blk t).view.emb (ix2 k (j 1)))
      = V c main_v61 (ix2 k ((((cfg1.win 2).blk t).view.emb j) 1))
    refine congrArg _ (funext fun a => Fin.ext ?_)
    match a with
    | ⟨0, _⟩ =>
      show win1_1.index t (0 : Fin 2) * 256 + 1 * k.val = k.val
      omega
    | ⟨1, _⟩ =>
      show win1_1.index t (1 : Fin 2) * 256 + 1 * (j 1).val = win1_2.index t (1 : Fin 2) * 256 + 1 * (j 1).val
      omega

/-- An index of the result is in point t's block iff each coordinate is in the block's range on its axis. -/
theorem memBlock1 (t : Fin cfg1.N) (i : S81920x256.Idx) :
    i ∈ ((cfg1.win 2).blk t).view.set ↔ ∀ a : Fin 2, win1_2.index t a * S2048x256.size a ≤ (i a).val
      ∧ (i a).val < win1_2.index t a * S2048x256.size a + S2048x256.size a := by
  show i ∈ ((View.whole main_v62).slice (win1_2.rect t)).set ↔ _
  rw [View.set_slice_whole, Rect.mem_set_unit]
  exact Iff.rfl

/-- THE BLOCKS TILE THE ROWS: row r lies in the block of point r / 2048, and every point writes its block back. -/
theorem cover1 (i : S81920x256.Idx) :
    ∃ t : Fin cfg1.N, (cfg1.win 2).flush t = true ∧ i ∈ ((cfg1.win 2).blk t).view.set := by
  have hi0 : (i 0).val < 81920 := (i 0).isLt
  have hi1 : (i 1).val < 256 := (i 1).isLt
  have hN : cfg1.N = 40 := N_1
  have ht : (i 0).val / 2048 < cfg1.N := by rw [hN]; omega
  obtain ⟨-, -, -, -, e4, e5⟩ := blockIdx1 ⟨(i 0).val / 2048, ht⟩
  refine ⟨⟨(i 0).val / 2048, ht⟩, flush1_2 _, ?_⟩
  rw [memBlock1]
  intro a
  match a with
  | ⟨0, _⟩ =>
    show win1_2.index ⟨(i 0).val / 2048, ht⟩ (0 : Fin 2) * 2048 ≤ (i 0).val
      ∧ (i 0).val < win1_2.index ⟨(i 0).val / 2048, ht⟩ (0 : Fin 2) * 2048 + 2048
    rw [e4]
    show (i 0).val / 2048 * 2048 ≤ (i 0).val ∧ (i 0).val < (i 0).val / 2048 * 2048 + 2048
    omega
  | ⟨1, _⟩ =>
    show win1_2.index ⟨(i 0).val / 2048, ht⟩ (1 : Fin 2) * 256 ≤ (i 1).val
      ∧ (i 1).val < win1_2.index ⟨(i 0).val / 2048, ht⟩ (1 : Fin 2) * 256 + 256
    rw [e5]
    omega

/-- THE RESULT ARRAY after the layer: the whole product of the activations and the weights as the layer found them. -/
theorem linArr1 (c : Dev nD) :
    (dat1 (F := Ideal) V c).arrAt 2 cfg1.N = linG1 (V c main_v59) (V c main_v61) :=
  (dat1 (F := Ideal) V c).arrAt_eq_of_cover 2 (linG1 (V c main_v59) (V c main_v61))
    (fun t _ => flushed1_eq V c t) cover1

end Cert.KernelIdeal.Hand

end
-- ==== Proof.LinValue3.lean ====
import proofs.«169470_j5557687681111_1_alg».proof.Proof.Lin3
import Idealize.ShloMosaic.Lib.Pipeline.Value
import Idealize.ShloMosaic.Lib.ValueIdx
import Idealize.ShloMosaic.PureOps.Ideal.Laws

/-!
The array a bias-free linear layer leaves, as one function of the arrays it found.

The layer's grid has forty points; point t multiplies rows 2048·t … 2048·t + 2047 of the activations by the whole
weight matrix and writes the same rows of the result. On the extended reals the roundings are the identity and the
matrix unit's sum into a zero accumulator is the plain sum, so entry (r, o) of the result is ∑ k, X (r, k) · W (k, o)
whatever the block r lies in: every point's block is the restriction of that one function, and the forty blocks
tile the 81920 rows.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The payload at an index -/

/-- The dimension numbers of the layer's product: rows times contraction, contraction times columns. -/
local notation "D3" => dot_S2048x256_S256x256_S2048x256_1_0_0_1_n_n

theorem lhsRow3 (j : S2048x256.Idx) (q : (D3).contr.Idx) : ((D3).lhsIdx j q 0).val = (j 0).val := by
  unfold DotDims.lhsIdx
  rw [dif_neg (show ¬(0 : Fin S2048x256.rank) ∈ (D3).lhsBatch by decide),
    dif_pos (show (0 : Fin S2048x256.rank) ∈ (D3).lhsNonContracting by decide)]
  rfl

theorem rhsCol3 (j : S2048x256.Idx) (q : (D3).contr.Idx) : ((D3).rhsIdx j q 1).val = (j 1).val := by
  unfold DotDims.rhsIdx
  rw [dif_neg (show ¬(1 : Fin S256x256.rank) ∈ (D3).rhsBatch by decide),
    dif_pos (show (1 : Fin S256x256.rank) ∈ (D3).rhsNonContracting by decide)]
  rfl

/-- The layer's payload at an index: entry (p, q) of the product of the activation block with the weights. -/
theorem pay3_apply (h : Vec Ideal S2048x256 .bf16) (wt : Vec Ideal S256x256 .f32) (p : Fin 2048) (q : Fin 256) :
    k3_pay1 (F := Ideal) h wt (ix2 p q) = ∑ k : Fin 256, h (ix2 p k) * wt (ix2 k q) := by
  unfold k3_pay1
  simp only [shapeCast_self]
  rw [truncf_apply]
  refine (Ideal.matmul_constant_zero_apply (D3) none _ _ _).trans ?_
  rw [← Equiv.sum_comp (contrEquiv1 (D3) 256 rfl rfl).symm]
  simp only [truncf_apply]
  refine Finset.sum_congr rfl fun k _ => ?_
  have hk := contrEquiv1_symm_val (D3) 256 rfl rfl k
  have el : (D3).lhsIdx (ix2 p q) ((contrEquiv1 (D3) 256 rfl rfl).symm k) = ix2 p k := funext fun a => Fin.ext (by
    match a with
    | ⟨0, _⟩ => exact lhsRow3 _ _
    | ⟨1, _⟩ => exact ((D3).lhsIdx_val_of_single rfl _ _).trans hk)
  have er : (D3).rhsIdx (ix2 p q) ((contrEquiv1 (D3) 256 rfl rfl).symm k) = ix2 k q := funext fun a => Fin.ext (by
    match a with
    | ⟨0, _⟩ => exact ((D3).rhsIdx_val_of_single rfl _ _).trans hk
    | ⟨1, _⟩ => exact rhsCol3 _ _)
  rw [el, er]

/-! ## From blocks to the array -/

/-- The whole product: entry (r, o) is the sum over k of activation (r, k) times weight (k, o). -/
abbrev linG3 (X : S81920x256.Idx → EReal) (W : S256x256.Idx → EReal) : S81920x256.Idx → EReal :=
  fun j => ∑ k : Fin 256, X (ix2 (j 0) k) * W (ix2 k (j 1))

theorem zeros2_3 : (![0, 0] : Fin 2 → Nat) = fun _ => 0 := funext fun a => by fin_cases a <;> rfl

/-- The printed index maps, decided over the grid: the activations' and the result's blocks are block row t, their
    one block column 0; the weights' block is the whole matrix. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One entry of a block's product is an entry of the whole product, when the block's row of activations and the
    weights' column are the whole arrays' (stated over plain vectors and indices). -/
theorem blockEntry3 (X : S81920x256.Idx → EReal) (W : S256x256.Idx → EReal)
    (h : Vec Ideal S2048x256 .bf16) (wt : Vec Ideal S256x256 .f32) (y : S2048x256.Idx) (i : S81920x256.Idx)
    (hh : ∀ k : Fin 256, h (ix2 (y 0) k) = X (ix2 (i 0) k)) (hw : ∀ k : Fin 256, wt (ix2 k (y 1)) = W (ix2 k (i 1))) :
    k3_pay1 (F := Ideal) h wt y = linG3 X W i := by
  obtain ⟨p, q, rfl⟩ : ∃ (p : Fin 2048) (q : Fin 256), y = ix2 p q := ⟨y 0, y 1, eq_ix2 y⟩
  rw [pay3_apply]
  exact Finset.sum_congr rfl fun k _ => congrArg₂ (· * ·) (hh k) (hw k)

/-- WHAT POINT t WRITES BACK is block t of the whole product of the arrays as the layer finds them. -/
theorem flushed3_eq (c : Dev nD) (t : Fin cfg3.N) :
    (dat3 (F := Ideal) V c).flushed 2 t
      = ((cfg3.win 2).blk t).view.read (Elt Ideal) (linG3 (V c main_v75) (V c main_v77)) := by
  show (cfg3.win 2).cut (grid3.coords t) ((dat3 (F := Ideal) V c).after 2 t) = _
  rw [after3_2]
  unfold out3_2
  rw [View.canon_unit_zero zeros2_3]
  simp only [View.ld_unit_zero (S := S2048x256) zeros2_3, View.ld_unit_zero (S := S256x256) zeros2_3]
  obtain ⟨e0, e1, e2, e3, e4, e5⟩ := blockIdx3 t
  funext j
  show k3_pay1 (F := Ideal) (iblk3 V c 0 t) (iblk3 V c 1 t) j
    = linG3 (V c main_v75) (V c main_v77) (((cfg3.win 2).blk t).view.emb j)
  refine blockEntry3 (V c main_v75) (V c main_v77) (iblk3 V c 0 t) (iblk3 V c 1 t) j
    (((cfg3.win 2).blk t).view.emb j) (fun k => ?_) (fun k => ?_)
  · show V c main_v75 (((cfg3.win 0).blk t).view.emb (ix2 (j 0) k))
      = V c main_v75 (ix2 ((((cfg3.win 2).blk t).view.emb j) 0) k)
    refine congrArg _ (funext fun a => Fin.ext ?_)
    match a with
    | ⟨0, _⟩ =>
      show win3_0.index t (0 : Fin 2) * 2048 + 1 * (j 0).val = win3_2.index t (0 : Fin 2) * 2048 + 1 * (j 0).val
      omega
    | ⟨1, _⟩ =>
      show win3_0.index t (1 : Fin 2) * 256 + 1 * k.val = k.val
      omega
  · show V c main_v77 (((cfg3.win 1).blk t).view.emb (ix2 k (j 1)))
      = V c main_v77 (ix2 k ((((cfg3.win 2).blk t).view.emb j) 1))
    refine congrArg _ (funext fun a => Fin.ext ?_)
    match a with
    | ⟨0, _⟩ =>
      show win3_1.index t (0 : Fin 2) * 256 + 1 * k.val = k.val
      omega
    | ⟨1, _⟩ =>
      show win3_1.index t (1 : Fin 2) * 256 + 1 * (j 1).val = win3_2.index t (1 : Fin 2) * 256 + 1 * (j 1).val
      omega

/-- An index of the result is in point t's block iff each coordinate is in the block's range on its axis. -/
theorem memBlock3 (t : Fin cfg3.N) (i : S81920x256.Idx) :
    i ∈ ((cfg3.win 2).blk t).view.set ↔ ∀ a : Fin 2, win3_2.index t a * S2048x256.size a ≤ (i a).val
      ∧ (i a).val < win3_2.index t a * S2048x256.size a + S2048x256.size a := by
  show i ∈ ((View.whole main_v78).slice (win3_2.rect t)).set ↔ _
  rw [View.set_slice_whole, Rect.mem_set_unit]
  exact Iff.rfl

/-- THE BLOCKS TILE THE ROWS: row r lies in the block of point r / 2048, and every point writes its block back. -/
theorem cover3 (i : S81920x256.Idx) :
    ∃ t : Fin cfg3.N, (cfg3.win 2).flush t = true ∧ i ∈ ((cfg3.win 2).blk t).view.set := by
  have hi0 : (i 0).val < 81920 := (i 0).isLt
  have hi1 : (i 1).val < 256 := (i 1).isLt
  have hN : cfg3.N = 40 := N_3
  have ht : (i 0).val / 2048 < cfg3.N := by rw [hN]; omega
  obtain ⟨-, -, -, -, e4, e5⟩ := blockIdx3 ⟨(i 0).val / 2048, ht⟩
  refine ⟨⟨(i 0).val / 2048, ht⟩, flush3_2 _, ?_⟩
  rw [memBlock3]
  intro a
  match a with
  | ⟨0, _⟩ =>
    show win3_2.index ⟨(i 0).val / 2048, ht⟩ (0 : Fin 2) * 2048 ≤ (i 0).val
      ∧ (i 0).val < win3_2.index ⟨(i 0).val / 2048, ht⟩ (0 : Fin 2) * 2048 + 2048
    rw [e4]
    show (i 0).val / 2048 * 2048 ≤ (i 0).val ∧ (i 0).val < (i 0).val / 2048 * 2048 + 2048
    omega
  | ⟨1, _⟩ =>
    show win3_2.index ⟨(i 0).val / 2048, ht⟩ (1 : Fin 2) * 256 ≤ (i 1).val
      ∧ (i 1).val < win3_2.index ⟨(i 0).val / 2048, ht⟩ (1 : Fin 2) * 256 + 256
    rw [e5]
    omega

/-- THE RESULT ARRAY after the layer: the whole product of the activations and the weights as the layer found them. -/
theorem linArr3 (c : Dev nD) :
    (dat3 (F := Ideal) V c).arrAt 2 cfg3.N = linG3 (V c main_v75) (V c main_v77) :=
  (dat3 (F := Ideal) V c).arrAt_eq_of_cover 2 (linG3 (V c main_v75) (V c main_v77))
    (fun t _ => flushed3_eq V c t) cover3

end Cert.KernelIdeal.Hand

end
-- ==== Proof.LinValue5.lean ====
import proofs.«169470_j5557687681111_1_alg».proof.Proof.Lin5
import Idealize.ShloMosaic.Lib.Pipeline.Value
import Idealize.ShloMosaic.Lib.ValueIdx
import Idealize.ShloMosaic.PureOps.Ideal.Laws

/-!
The array a bias-free linear layer leaves, as one function of the arrays it found.

The layer's grid has forty points; point t multiplies rows 2048·t … 2048·t + 2047 of the activations by the whole
weight matrix and writes the same rows of the result. On the extended reals the roundings are the identity and the
matrix unit's sum into a zero accumulator is the plain sum, so entry (r, o) of the result is ∑ k, X (r, k) · W (k, o)
whatever the block r lies in: every point's block is the restriction of that one function, and the forty blocks
tile the 81920 rows.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The payload at an index -/

/-- The dimension numbers of the layer's product: rows times contraction, contraction times columns. -/
local notation "D5" => dot_S2048x256_S256x256_S2048x256_1_0_0_1_n_n

theorem lhsRow5 (j : S2048x256.Idx) (q : (D5).contr.Idx) : ((D5).lhsIdx j q 0).val = (j 0).val := by
  unfold DotDims.lhsIdx
  rw [dif_neg (show ¬(0 : Fin S2048x256.rank) ∈ (D5).lhsBatch by decide),
    dif_pos (show (0 : Fin S2048x256.rank) ∈ (D5).lhsNonContracting by decide)]
  rfl

theorem rhsCol5 (j : S2048x256.Idx) (q : (D5).contr.Idx) : ((D5).rhsIdx j q 1).val = (j 1).val := by
  unfold DotDims.rhsIdx
  rw [dif_neg (show ¬(1 : Fin S256x256.rank) ∈ (D5).rhsBatch by decide),
    dif_pos (show (1 : Fin S256x256.rank) ∈ (D5).rhsNonContracting by decide)]
  rfl

/-- The layer's payload at an index: entry (p, q) of the product of the activation block with the weights. -/
theorem pay5_apply (h : Vec Ideal S2048x256 .bf16) (wt : Vec Ideal S256x256 .f32) (p : Fin 2048) (q : Fin 256) :
    k5_pay1 (F := Ideal) h wt (ix2 p q) = ∑ k : Fin 256, h (ix2 p k) * wt (ix2 k q) := by
  unfold k5_pay1
  simp only [shapeCast_self]
  rw [truncf_apply]
  refine (Ideal.matmul_constant_zero_apply (D5) none _ _ _).trans ?_
  rw [← Equiv.sum_comp (contrEquiv1 (D5) 256 rfl rfl).symm]
  simp only [truncf_apply]
  refine Finset.sum_congr rfl fun k _ => ?_
  have hk := contrEquiv1_symm_val (D5) 256 rfl rfl k
  have el : (D5).lhsIdx (ix2 p q) ((contrEquiv1 (D5) 256 rfl rfl).symm k) = ix2 p k := funext fun a => Fin.ext (by
    match a with
    | ⟨0, _⟩ => exact lhsRow5 _ _
    | ⟨1, _⟩ => exact ((D5).lhsIdx_val_of_single rfl _ _).trans hk)
  have er : (D5).rhsIdx (ix2 p q) ((contrEquiv1 (D5) 256 rfl rfl).symm k) = ix2 k q := funext fun a => Fin.ext (by
    match a with
    | ⟨0, _⟩ => exact ((D5).rhsIdx_val_of_single rfl _ _).trans hk
    | ⟨1, _⟩ => exact rhsCol5 _ _)
  rw [el, er]

/-! ## From blocks to the array -/

/-- The whole product: entry (r, o) is the sum over k of activation (r, k) times weight (k, o). -/
abbrev linG5 (X : S81920x256.Idx → EReal) (W : S256x256.Idx → EReal) : S81920x256.Idx → EReal :=
  fun j => ∑ k : Fin 256, X (ix2 (j 0) k) * W (ix2 k (j 1))

theorem zeros2_5 : (![0, 0] : Fin 2 → Nat) = fun _ => 0 := funext fun a => by fin_cases a <;> rfl

/-- The printed index maps, decided over the grid: the activations' and the result's blocks are block row t, their
    one block column 0; the weights' block is the whole matrix. -/
theorem blockIdx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- One entry of a block's product is an entry of the whole product, when the block's row of activations and the
    weights' column are the whole arrays' (stated over plain vectors and indices). -/
theorem blockEntry5 (X : S81920x256.Idx → EReal) (W : S256x256.Idx → EReal)
    (h : Vec Ideal S2048x256 .bf16) (wt : Vec Ideal S256x256 .f32) (y : S2048x256.Idx) (i : S81920x256.Idx)
    (hh : ∀ k : Fin 256, h (ix2 (y 0) k) = X (ix2 (i 0) k)) (hw : ∀ k : Fin 256, wt (ix2 k (y 1)) = W (ix2 k (i 1))) :
    k5_pay1 (F := Ideal) h wt y = linG5 X W i := by
  obtain ⟨p, q, rfl⟩ : ∃ (p : Fin 2048) (q : Fin 256), y = ix2 p q := ⟨y 0, y 1, eq_ix2 y⟩
  rw [pay5_apply]
  exact Finset.sum_congr rfl fun k _ => congrArg₂ (· * ·) (hh k) (hw k)

/-- WHAT POINT t WRITES BACK is block t of the whole product of the arrays as the layer finds them. -/
theorem flushed5_eq (c : Dev nD) (t : Fin cfg5.N) :
    (dat5 (F := Ideal) V c).flushed 2 t
      = ((cfg5.win 2).blk t).view.read (Elt Ideal) (linG5 (V c main_v91) (V c main_v93)) := by
  show (cfg5.win 2).cut (grid5.coords t) ((dat5 (F := Ideal) V c).after 2 t) = _
  rw [after5_2]
  unfold out5_2
  rw [View.canon_unit_zero zeros2_5]
  simp only [View.ld_unit_zero (S := S2048x256) zeros2_5, View.ld_unit_zero (S := S256x256) zeros2_5]
  obtain ⟨e0, e1, e2, e3, e4, e5⟩ := blockIdx5 t
  funext j
  show k5_pay1 (F := Ideal) (iblk5 V c 0 t) (iblk5 V c 1 t) j
    = linG5 (V c main_v91) (V c main_v93) (((cfg5.win 2).blk t).view.emb j)
  refine blockEntry5 (V c main_v91) (V c main_v93) (iblk5 V c 0 t) (iblk5 V c 1 t) j
    (((cfg5.win 2).blk t).view.emb j) (fun k => ?_) (fun k => ?_)
  · show V c main_v91 (((cfg5.win 0).blk t).view.emb (ix2 (j 0) k))
      = V c main_v91 (ix2 ((((cfg5.win 2).blk t).view.emb j) 0) k)
    refine congrArg _ (funext fun a => Fin.ext ?_)
    match a with
    | ⟨0, _⟩ =>
      show win5_0.index t (0 : Fin 2) * 2048 + 1 * (j 0).val = win5_2.index t (0 : Fin 2) * 2048 + 1 * (j 0).val
      omega
    | ⟨1, _⟩ =>
      show win5_0.index t (1 : Fin 2) * 256 + 1 * k.val = k.val
      omega
  · show V c main_v93 (((cfg5.win 1).blk t).view.emb (ix2 k (j 1)))
      = V c main_v93 (ix2 k ((((cfg5.win 2).blk t).view.emb j) 1))
    refine congrArg _ (funext fun a => Fin.ext ?_)
    match a with
    | ⟨0, _⟩ =>
      show win5_1.index t (0 : Fin 2) * 256 + 1 * k.val = k.val
      omega
    | ⟨1, _⟩ =>
      show win5_1.index t (1 : Fin 2) * 256 + 1 * (j 1).val = win5_2.index t (1 : Fin 2) * 256 + 1 * (j 1).val
      omega

/-- An index of the result is in point t's block iff each coordinate is in the block's range on its axis. -/
theorem memBlock5 (t : Fin cfg5.N) (i : S81920x256.Idx) :
    i ∈ ((cfg5.win 2).blk t).view.set ↔ ∀ a : Fin 2, win5_2.index t a * S2048x256.size a ≤ (i a).val
      ∧ (i a).val < win5_2.index t a * S2048x256.size a + S2048x256.size a := by
  show i ∈ ((View.whole main_v94).slice (win5_2.rect t)).set ↔ _
  rw [View.set_slice_whole, Rect.mem_set_unit]
  exact Iff.rfl

/-- THE BLOCKS TILE THE ROWS: row r lies in the block of point r / 2048, and every point writes its block back. -/
theorem cover5 (i : S81920x256.Idx) :
    ∃ t : Fin cfg5.N, (cfg5.win 2).flush t = true ∧ i ∈ ((cfg5.win 2).blk t).view.set := by
  have hi0 : (i 0).val < 81920 := (i 0).isLt
  have hi1 : (i 1).val < 256 := (i 1).isLt
  have hN : cfg5.N = 40 := N_5
  have ht : (i 0).val / 2048 < cfg5.N := by rw [hN]; omega
  obtain ⟨-, -, -, -, e4, e5⟩ := blockIdx5 ⟨(i 0).val / 2048, ht⟩
  refine ⟨⟨(i 0).val / 2048, ht⟩, flush5_2 _, ?_⟩
  rw [memBlock5]
  intro a
  match a with
  | ⟨0, _⟩ =>
    show win5_2.index ⟨(i 0).val / 2048, ht⟩ (0 : Fin 2) * 2048 ≤ (i 0).val
      ∧ (i 0).val < win5_2.index ⟨(i 0).val / 2048, ht⟩ (0 : Fin 2) * 2048 + 2048
    rw [e4]
    show (i 0).val / 2048 * 2048 ≤ (i 0).val ∧ (i 0).val < (i 0).val / 2048 * 2048 + 2048
    omega
  | ⟨1, _⟩ =>
    show win5_2.index ⟨(i 0).val / 2048, ht⟩ (1 : Fin 2) * 256 ≤ (i 1).val
      ∧ (i 1).val < win5_2.index ⟨(i 0).val / 2048, ht⟩ (1 : Fin 2) * 256 + 256
    rw [e5]
    omega

/-- THE RESULT ARRAY after the layer: the whole product of the activations and the weights as the layer found them. -/
theorem linArr5 (c : Dev nD) :
    (dat5 (F := Ideal) V c).arrAt 2 cfg5.N = linG5 (V c main_v91) (V c main_v93) :=
  (dat5 (F := Ideal) V c).arrAt_eq_of_cover 2 (linG5 (V c main_v91) (V c main_v93))
    (fun t _ => flushed5_eq V c t) cover5

end Cert.KernelIdeal.Hand

end
-- ==== Proof.LinValue7.lean ====
import proofs.«169470_j5557687681111_1_alg».proof.Proof.Lin7
import Idealize.ShloMosaic.Lib.Pipeline.Value
import Idealize.ShloMosaic.Lib.ValueIdx
import Idealize.ShloMosaic.PureOps.Ideal.Laws

/-!
The array a bias-free linear layer leaves, as one function of the arrays it found.

The layer's grid has forty points; point t multiplies rows 2048·t … 2048·t + 2047 of the activations by the whole
weight matrix and writes the same rows of the result. On the extended reals the roundings are the identity and the
matrix unit's sum into a zero accumulator is the plain sum, so entry (r, o) of the result is ∑ k, X (r, k) · W (k, o)
whatever the block r lies in: every point's block is the restriction of that one function, and the forty blocks
tile the 81920 rows.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The payload at an index -/

/-- The dimension numbers of the layer's product: rows times contraction, contraction times columns. -/
local notation "D7" => dot_S2048x256_S256x256_S2048x256_1_0_0_1_n_n

theorem lhsRow7 (j : S2048x256.Idx) (q : (D7).contr.Idx) : ((D7).lhsIdx j q 0).val = (j 0).val := by
  unfold DotDims.lhsIdx
  rw [dif_neg (show ¬(0 : Fin S2048x256.rank) ∈ (D7).lhsBatch by decide),
    dif_pos (show (0 : Fin S2048x256.rank) ∈ (D7).lhsNonContracting by decide)]
  rfl

theorem rhsCol7 (j : S2048x256.Idx) (q : (D7).contr.Idx) : ((D7).rhsIdx j q 1).val = (j 1).val := by
  unfold DotDims.rhsIdx
  rw [dif_neg (show ¬(1 : Fin S256x256.rank) ∈ (D7).rhsBatch by decide),
    dif_pos (show (1 : Fin S256x256.rank) ∈ (D7).rhsNonContracting by decide)]
  rfl

/-- The layer's payload at an index: entry (p, q) of the product of the activation block with the weights. -/
theorem pay7_apply (h : Vec Ideal S2048x256 .bf16) (wt : Vec Ideal S256x256 .f32) (p : Fin 2048) (q : Fin 256) :
    k7_pay1 (F := Ideal) h wt (ix2 p q) = ∑ k : Fin 256, h (ix2 p k) * wt (ix2 k q) := by
  unfold k7_pay1
  simp only [shapeCast_self]
  rw [truncf_apply]
  refine (Ideal.matmul_constant_zero_apply (D7) none _ _ _).trans ?_
  rw [← Equiv.sum_comp (contrEquiv1 (D7) 256 rfl rfl).symm]
  simp only [truncf_apply]
  refine Finset.sum_congr rfl fun k _ => ?_
  have hk := contrEquiv1_symm_val (D7) 256 rfl rfl k
  have el : (D7).lhsIdx (ix2 p q) ((contrEquiv1 (D7) 256 rfl rfl).symm k) = ix2 p k := funext fun a => Fin.ext (by
    match a with
    | ⟨0, _⟩ => exact lhsRow7 _ _
    | ⟨1, _⟩ => exact ((D7).lhsIdx_val_of_single rfl _ _).trans hk)
  have er : (D7).rhsIdx (ix2 p q) ((contrEquiv1 (D7) 256 rfl rfl).symm k) = ix2 k q := funext fun a => Fin.ext (by
    match a with
    | ⟨0, _⟩ => exact ((D7).rhsIdx_val_of_single rfl _ _).trans hk
    | ⟨1, _⟩ => exact rhsCol7 _ _)
  rw [el, er]

/-! ## From blocks to the array -/

/-- The whole product: entry (r, o) is the sum over k of activation (r, k) times weight (k, o). -/
abbrev linG7 (X : S81920x256.Idx → EReal) (W : S256x256.Idx → EReal) : S81920x256.Idx → EReal :=
  fun j => ∑ k : Fin 256, X (ix2 (j 0) k) * W (ix2 k (j 1))

theorem zeros2_7 : (![0, 0] : Fin 2 → Nat) = fun _ => 0 := funext fun a => by fin_cases a <;> rfl

/-- The printed index maps, decided over the grid: the activations' and the result's blocks are block row t, their
    one block column 0; the weights' block is the whole matrix. -/
theorem blockIdx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- One entry of a block's product is an entry of the whole product, when the block's row of activations and the
    weights' column are the whole arrays' (stated over plain vectors and indices). -/
theorem blockEntry7 (X : S81920x256.Idx → EReal) (W : S256x256.Idx → EReal)
    (h : Vec Ideal S2048x256 .bf16) (wt : Vec Ideal S256x256 .f32) (y : S2048x256.Idx) (i : S81920x256.Idx)
    (hh : ∀ k : Fin 256, h (ix2 (y 0) k) = X (ix2 (i 0) k)) (hw : ∀ k : Fin 256, wt (ix2 k (y 1)) = W (ix2 k (i 1))) :
    k7_pay1 (F := Ideal) h wt y = linG7 X W i := by
  obtain ⟨p, q, rfl⟩ : ∃ (p : Fin 2048) (q : Fin 256), y = ix2 p q := ⟨y 0, y 1, eq_ix2 y⟩
  rw [pay7_apply]
  exact Finset.sum_congr rfl fun k _ => congrArg₂ (· * ·) (hh k) (hw k)

/-- WHAT POINT t WRITES BACK is block t of the whole product of the arrays as the layer finds them. -/
theorem flushed7_eq (c : Dev nD) (t : Fin cfg7.N) :
    (dat7 (F := Ideal) V c).flushed 2 t
      = ((cfg7.win 2).blk t).view.read (Elt Ideal) (linG7 (V c main_v107) (V c main_v109)) := by
  show (cfg7.win 2).cut (grid7.coords t) ((dat7 (F := Ideal) V c).after 2 t) = _
  rw [after7_2]
  unfold out7_2
  rw [View.canon_unit_zero zeros2_7]
  simp only [View.ld_unit_zero (S := S2048x256) zeros2_7, View.ld_unit_zero (S := S256x256) zeros2_7]
  obtain ⟨e0, e1, e2, e3, e4, e5⟩ := blockIdx7 t
  funext j
  show k7_pay1 (F := Ideal) (iblk7 V c 0 t) (iblk7 V c 1 t) j
    = linG7 (V c main_v107) (V c main_v109) (((cfg7.win 2).blk t).view.emb j)
  refine blockEntry7 (V c main_v107) (V c main_v109) (iblk7 V c 0 t) (iblk7 V c 1 t) j
    (((cfg7.win 2).blk t).view.emb j) (fun k => ?_) (fun k => ?_)
  · show V c main_v107 (((cfg7.win 0).blk t).view.emb (ix2 (j 0) k))
      = V c main_v107 (ix2 ((((cfg7.win 2).blk t).view.emb j) 0) k)
    refine congrArg _ (funext fun a => Fin.ext ?_)
    match a with
    | ⟨0, _⟩ =>
      show win7_0.index t (0 : Fin 2) * 2048 + 1 * (j 0).val = win7_2.index t (0 : Fin 2) * 2048 + 1 * (j 0).val
      omega
    | ⟨1, _⟩ =>
      show win7_0.index t (1 : Fin 2) * 256 + 1 * k.val = k.val
      omega
  · show V c main_v109 (((cfg7.win 1).blk t).view.emb (ix2 k (j 1)))
      = V c main_v109 (ix2 k ((((cfg7.win 2).blk t).view.emb j) 1))
    refine congrArg _ (funext fun a => Fin.ext ?_)
    match a with
    | ⟨0, _⟩ =>
      show win7_1.index t (0 : Fin 2) * 256 + 1 * k.val = k.val
      omega
    | ⟨1, _⟩ =>
      show win7_1.index t (1 : Fin 2) * 256 + 1 * (j 1).val = win7_2.index t (1 : Fin 2) * 256 + 1 * (j 1).val
      omega

/-- An index of the result is in point t's block iff each coordinate is in the block's range on its axis. -/
theorem memBlock7 (t : Fin cfg7.N) (i : S81920x256.Idx) :
    i ∈ ((cfg7.win 2).blk t).view.set ↔ ∀ a : Fin 2, win7_2.index t a * S2048x256.size a ≤ (i a).val
      ∧ (i a).val < win7_2.index t a * S2048x256.size a + S2048x256.size a := by
  show i ∈ ((View.whole main_v110).slice (win7_2.rect t)).set ↔ _
  rw [View.set_slice_whole, Rect.mem_set_unit]
  exact Iff.rfl

/-- THE BLOCKS TILE THE ROWS: row r lies in the block of point r / 2048, and every point writes its block back. -/
theorem cover7 (i : S81920x256.Idx) :
    ∃ t : Fin cfg7.N, (cfg7.win 2).flush t = true ∧ i ∈ ((cfg7.win 2).blk t).view.set := by
  have hi0 : (i 0).val < 81920 := (i 0).isLt
  have hi1 : (i 1).val < 256 := (i 1).isLt
  have hN : cfg7.N = 40 := N_7
  have ht : (i 0).val / 2048 < cfg7.N := by rw [hN]; omega
  obtain ⟨-, -, -, -, e4, e5⟩ := blockIdx7 ⟨(i 0).val / 2048, ht⟩
  refine ⟨⟨(i 0).val / 2048, ht⟩, flush7_2 _, ?_⟩
  rw [memBlock7]
  intro a
  match a with
  | ⟨0, _⟩ =>
    show win7_2.index ⟨(i 0).val / 2048, ht⟩ (0 : Fin 2) * 2048 ≤ (i 0).val
      ∧ (i 0).val < win7_2.index ⟨(i 0).val / 2048, ht⟩ (0 : Fin 2) * 2048 + 2048
    rw [e4]
    show (i 0).val / 2048 * 2048 ≤ (i 0).val ∧ (i 0).val < (i 0).val / 2048 * 2048 + 2048
    omega
  | ⟨1, _⟩ =>
    show win7_2.index ⟨(i 0).val / 2048, ht⟩ (1 : Fin 2) * 256 ≤ (i 1).val
      ∧ (i 1).val < win7_2.index ⟨(i 0).val / 2048, ht⟩ (1 : Fin 2) * 256 + 256
    rw [e5]
    omega

/-- THE RESULT ARRAY after the layer: the whole product of the activations and the weights as the layer found them. -/
theorem linArr7 (c : Dev nD) :
    (dat7 (F := Ideal) V c).arrAt 2 cfg7.N = linG7 (V c main_v107) (V c main_v109) :=
  (dat7 (F := Ideal) V c).arrAt_eq_of_cover 2 (linG7 (V c main_v107) (V c main_v109))
    (fun t _ => flushed7_eq V c t) cover7

end Cert.KernelIdeal.Hand

end
-- ==== Proof.LinValue9.lean ====
import proofs.«169470_j5557687681111_1_alg».proof.Proof.Lin9
import Idealize.ShloMosaic.Lib.Pipeline.Value
import Idealize.ShloMosaic.Lib.ValueIdx
import Idealize.ShloMosaic.PureOps.Ideal.Laws

/-!
The array a bias-free linear layer leaves, as one function of the arrays it found.

The layer's grid has forty points; point t multiplies rows 2048·t … 2048·t + 2047 of the activations by the whole
weight matrix and writes the same rows of the result. On the extended reals the roundings are the identity and the
matrix unit's sum into a zero accumulator is the plain sum, so entry (r, o) of the result is ∑ k, X (r, k) · W (k, o)
whatever the block r lies in: every point's block is the restriction of that one function, and the forty blocks
tile the 81920 rows.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The payload at an index -/

/-- The dimension numbers of the layer's product: rows times contraction, contraction times columns. -/
local notation "D9" => dot_S2048x256_S256x256_S2048x256_1_0_0_1_n_n

theorem lhsRow9 (j : S2048x256.Idx) (q : (D9).contr.Idx) : ((D9).lhsIdx j q 0).val = (j 0).val := by
  unfold DotDims.lhsIdx
  rw [dif_neg (show ¬(0 : Fin S2048x256.rank) ∈ (D9).lhsBatch by decide),
    dif_pos (show (0 : Fin S2048x256.rank) ∈ (D9).lhsNonContracting by decide)]
  rfl

theorem rhsCol9 (j : S2048x256.Idx) (q : (D9).contr.Idx) : ((D9).rhsIdx j q 1).val = (j 1).val := by
  unfold DotDims.rhsIdx
  rw [dif_neg (show ¬(1 : Fin S256x256.rank) ∈ (D9).rhsBatch by decide),
    dif_pos (show (1 : Fin S256x256.rank) ∈ (D9).rhsNonContracting by decide)]
  rfl

/-- The layer's payload at an index: entry (p, q) of the product of the activation block with the weights. -/
theorem pay9_apply (h : Vec Ideal S2048x256 .bf16) (wt : Vec Ideal S256x256 .f32) (p : Fin 2048) (q : Fin 256) :
    k9_pay1 (F := Ideal) h wt (ix2 p q) = ∑ k : Fin 256, h (ix2 p k) * wt (ix2 k q) := by
  unfold k9_pay1
  simp only [shapeCast_self]
  rw [truncf_apply]
  refine (Ideal.matmul_constant_zero_apply (D9) none _ _ _).trans ?_
  rw [← Equiv.sum_comp (contrEquiv1 (D9) 256 rfl rfl).symm]
  simp only [truncf_apply]
  refine Finset.sum_congr rfl fun k _ => ?_
  have hk := contrEquiv1_symm_val (D9) 256 rfl rfl k
  have el : (D9).lhsIdx (ix2 p q) ((contrEquiv1 (D9) 256 rfl rfl).symm k) = ix2 p k := funext fun a => Fin.ext (by
    match a with
    | ⟨0, _⟩ => exact lhsRow9 _ _
    | ⟨1, _⟩ => exact ((D9).lhsIdx_val_of_single rfl _ _).trans hk)
  have er : (D9).rhsIdx (ix2 p q) ((contrEquiv1 (D9) 256 rfl rfl).symm k) = ix2 k q := funext fun a => Fin.ext (by
    match a with
    | ⟨0, _⟩ => exact ((D9).rhsIdx_val_of_single rfl _ _).trans hk
    | ⟨1, _⟩ => exact rhsCol9 _ _)
  rw [el, er]

/-! ## From blocks to the array -/

/-- The whole product: entry (r, o) is the sum over k of activation (r, k) times weight (k, o). -/
abbrev linG9 (X : S81920x256.Idx → EReal) (W : S256x256.Idx → EReal) : S81920x256.Idx → EReal :=
  fun j => ∑ k : Fin 256, X (ix2 (j 0) k) * W (ix2 k (j 1))

theorem zeros2_9 : (![0, 0] : Fin 2 → Nat) = fun _ => 0 := funext fun a => by fin_cases a <;> rfl

/-- The printed index maps, decided over the grid: the activations' and the result's blocks are block row t, their
    one block column 0; the weights' block is the whole matrix. -/
theorem blockIdx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- One entry of a block's product is an entry of the whole product, when the block's row of activations and the
    weights' column are the whole arrays' (stated over plain vectors and indices). -/
theorem blockEntry9 (X : S81920x256.Idx → EReal) (W : S256x256.Idx → EReal)
    (h : Vec Ideal S2048x256 .bf16) (wt : Vec Ideal S256x256 .f32) (y : S2048x256.Idx) (i : S81920x256.Idx)
    (hh : ∀ k : Fin 256, h (ix2 (y 0) k) = X (ix2 (i 0) k)) (hw : ∀ k : Fin 256, wt (ix2 k (y 1)) = W (ix2 k (i 1))) :
    k9_pay1 (F := Ideal) h wt y = linG9 X W i := by
  obtain ⟨p, q, rfl⟩ : ∃ (p : Fin 2048) (q : Fin 256), y = ix2 p q := ⟨y 0, y 1, eq_ix2 y⟩
  rw [pay9_apply]
  exact Finset.sum_congr rfl fun k _ => congrArg₂ (· * ·) (hh k) (hw k)

/-- WHAT POINT t WRITES BACK is block t of the whole product of the arrays as the layer finds them. -/
theorem flushed9_eq (c : Dev nD) (t : Fin cfg9.N) :
    (dat9 (F := Ideal) V c).flushed 2 t
      = ((cfg9.win 2).blk t).view.read (Elt Ideal) (linG9 (V c main_v123) (V c main_v125)) := by
  show (cfg9.win 2).cut (grid9.coords t) ((dat9 (F := Ideal) V c).after 2 t) = _
  rw [after9_2]
  unfold out9_2
  rw [View.canon_unit_zero zeros2_9]
  simp only [View.ld_unit_zero (S := S2048x256) zeros2_9, View.ld_unit_zero (S := S256x256) zeros2_9]
  obtain ⟨e0, e1, e2, e3, e4, e5⟩ := blockIdx9 t
  funext j
  show k9_pay1 (F := Ideal) (iblk9 V c 0 t) (iblk9 V c 1 t) j
    = linG9 (V c main_v123) (V c main_v125) (((cfg9.win 2).blk t).view.emb j)
  refine blockEntry9 (V c main_v123) (V c main_v125) (iblk9 V c 0 t) (iblk9 V c 1 t) j
    (((cfg9.win 2).blk t).view.emb j) (fun k => ?_) (fun k => ?_)
  · show V c main_v123 (((cfg9.win 0).blk t).view.emb (ix2 (j 0) k))
      = V c main_v123 (ix2 ((((cfg9.win 2).blk t).view.emb j) 0) k)
    refine congrArg _ (funext fun a => Fin.ext ?_)
    match a with
    | ⟨0, _⟩ =>
      show win9_0.index t (0 : Fin 2) * 2048 + 1 * (j 0).val = win9_2.index t (0 : Fin 2) * 2048 + 1 * (j 0).val
      omega
    | ⟨1, _⟩ =>
      show win9_0.index t (1 : Fin 2) * 256 + 1 * k.val = k.val
      omega
  · show V c main_v125 (((cfg9.win 1).blk t).view.emb (ix2 k (j 1)))
      = V c main_v125 (ix2 k ((((cfg9.win 2).blk t).view.emb j) 1))
    refine congrArg _ (funext fun a => Fin.ext ?_)
    match a with
    | ⟨0, _⟩ =>
      show win9_1.index t (0 : Fin 2) * 256 + 1 * k.val = k.val
      omega
    | ⟨1, _⟩ =>
      show win9_1.index t (1 : Fin 2) * 256 + 1 * (j 1).val = win9_2.index t (1 : Fin 2) * 256 + 1 * (j 1).val
      omega

/-- An index of the result is in point t's block iff each coordinate is in the block's range on its axis. -/
theorem memBlock9 (t : Fin cfg9.N) (i : S81920x256.Idx) :
    i ∈ ((cfg9.win 2).blk t).view.set ↔ ∀ a : Fin 2, win9_2.index t a * S2048x256.size a ≤ (i a).val
      ∧ (i a).val < win9_2.index t a * S2048x256.size a + S2048x256.size a := by
  show i ∈ ((View.whole main_v126).slice (win9_2.rect t)).set ↔ _
  rw [View.set_slice_whole, Rect.mem_set_unit]
  exact Iff.rfl

/-- THE BLOCKS TILE THE ROWS: row r lies in the block of point r / 2048, and every point writes its block back. -/
theorem cover9 (i : S81920x256.Idx) :
    ∃ t : Fin cfg9.N, (cfg9.win 2).flush t = true ∧ i ∈ ((cfg9.win 2).blk t).view.set := by
  have hi0 : (i 0).val < 81920 := (i 0).isLt
  have hi1 : (i 1).val < 256 := (i 1).isLt
  have hN : cfg9.N = 40 := N_9
  have ht : (i 0).val / 2048 < cfg9.N := by rw [hN]; omega
  obtain ⟨-, -, -, -, e4, e5⟩ := blockIdx9 ⟨(i 0).val / 2048, ht⟩
  refine ⟨⟨(i 0).val / 2048, ht⟩, flush9_2 _, ?_⟩
  rw [memBlock9]
  intro a
  match a with
  | ⟨0, _⟩ =>
    show win9_2.index ⟨(i 0).val / 2048, ht⟩ (0 : Fin 2) * 2048 ≤ (i 0).val
      ∧ (i 0).val < win9_2.index ⟨(i 0).val / 2048, ht⟩ (0 : Fin 2) * 2048 + 2048
    rw [e4]
    show (i 0).val / 2048 * 2048 ≤ (i 0).val ∧ (i 0).val < (i 0).val / 2048 * 2048 + 2048
    omega
  | ⟨1, _⟩ =>
    show win9_2.index ⟨(i 0).val / 2048, ht⟩ (1 : Fin 2) * 256 ≤ (i 1).val
      ∧ (i 1).val < win9_2.index ⟨(i 0).val / 2048, ht⟩ (1 : Fin 2) * 256 + 256
    rw [e5]
    omega

/-- THE RESULT ARRAY after the layer: the whole product of the activations and the weights as the layer found them. -/
theorem linArr9 (c : Dev nD) :
    (dat9 (F := Ideal) V c).arrAt 2 cfg9.N = linG9 (V c main_v123) (V c main_v125) :=
  (dat9 (F := Ideal) V c).arrAt_eq_of_cover 2 (linG9 (V c main_v123) (V c main_v125))
    (fun t _ => flushed9_eq V c t) cover9

end Cert.KernelIdeal.Hand

end
-- ==== Proof.LinValue11.lean ====
import proofs.«169470_j5557687681111_1_alg».proof.Proof.Lin11
import Idealize.ShloMosaic.Lib.Pipeline.Value
import Idealize.ShloMosaic.Lib.ValueIdx
import Idealize.ShloMosaic.PureOps.Ideal.Laws

/-!
The array the output layer leaves, as one function of the arrays it found.

The layer's grid has forty points; point t multiplies rows 2048·t … 2048·t + 2047 of the activations [81920,256]
by the whole weight matrix [256,3] and adds the bias row, and writes the same rows of the result. On the extended
reals the roundings are the identity and the matrix unit's sum into a zero accumulator is the plain sum, so entry
(r, o) of the result is ∑ k, X (r, k) · W (k, o) + b (0, o) whatever the block r lies in: every point's block is the
restriction of that one function, and the forty blocks tile the 81920 rows.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The payload at an index -/

/-- The dimension numbers of the layer's product: rows times contraction, contraction times columns. -/
local notation "D11" => dot_S2048x256_S256x3_S2048x3_1_0_0_1_n_n

theorem lhsRow11 (j : S2048x3.Idx) (q : (D11).contr.Idx) : ((D11).lhsIdx j q 0).val = (j 0).val := by
  unfold DotDims.lhsIdx
  rw [dif_neg (show ¬(0 : Fin S2048x256.rank) ∈ (D11).lhsBatch by decide),
    dif_pos (show (0 : Fin S2048x256.rank) ∈ (D11).lhsNonContracting by decide)]
  rfl

theorem rhsCol11 (j : S2048x3.Idx) (q : (D11).contr.Idx) : ((D11).rhsIdx j q 1).val = (j 1).val := by
  unfold DotDims.rhsIdx
  rw [dif_neg (show ¬(1 : Fin S256x3.rank) ∈ (D11).rhsBatch by decide),
    dif_pos (show (1 : Fin S256x3.rank) ∈ (D11).rhsNonContracting by decide)]
  rfl

/-- The matrix unit's product into a zero accumulator, at an index: the plain sum over the contraction. -/
theorem matmul11_apply (x : FVec Ideal S2048x256 .bf16) (wt : FVec Ideal S256x3 .bf16) (p : Fin 2048) (q : Fin 3) :
    FloatOps.matmul (D11) none x wt (constant S2048x3 .f32 0x00000000#32) (ix2 p q)
      = ∑ k : Fin 256, x (ix2 p k) * wt (ix2 k q) := by
  refine (Ideal.matmul_constant_zero_apply (D11) none _ _ _).trans ?_
  rw [← Equiv.sum_comp (contrEquiv1 (D11) 256 rfl rfl).symm]
  refine Finset.sum_congr rfl fun k _ => ?_
  have hk := contrEquiv1_symm_val (D11) 256 rfl rfl k
  have el : (D11).lhsIdx (ix2 p q) ((contrEquiv1 (D11) 256 rfl rfl).symm k) = ix2 p k := funext fun a => Fin.ext (by
    match a with
    | ⟨0, _⟩ => exact lhsRow11 _ _
    | ⟨1, _⟩ => exact ((D11).lhsIdx_val_of_single rfl _ _).trans hk)
  have er : (D11).rhsIdx (ix2 p q) ((contrEquiv1 (D11) 256 rfl rfl).symm k) = ix2 k q := funext fun a => Fin.ext (by
    match a with
    | ⟨0, _⟩ => exact ((D11).rhsIdx_val_of_single rfl _ _).trans hk
    | ⟨1, _⟩ => exact rhsCol11 _ _)
  rw [el, er]

/-- The bias row broadcast down the rows, at an index: the bias of the column. -/
theorem biasRow11_apply (b : FVec Ideal S1x3 .f32) (p : Fin 2048) (q : Fin 3) :
    broadcastTo S2048x3 b broadcasts_S1x3_S2048x3 (ix2 p q) = b (ix2 (0 : Fin 1) q) :=
  broadcastTo_apply b broadcasts_S1x3_S2048x3 (ix2 p q) (ix2 (0 : Fin 1) q) (fun a => by
    match a with
    | ⟨0, _⟩ => show (0 : ℕ) = if (1 : ℕ) = 1 then 0 else p.val; rw [if_pos rfl]
    | ⟨1, _⟩ => show q.val = if (3 : ℕ) = 1 then 0 else q.val; rw [if_neg (by decide)])

/-- The layer's payload at an index: entry (p, q) of the product of the activation block with the weights, plus the
    column's bias. -/
theorem pay11_apply (x : Vec Ideal S2048x256 .bf16) (wt : Vec Ideal S256x3 .f32) (b : Vec Ideal S1x3 .f32)
    (p : Fin 2048) (q : Fin 3) :
    k11_pay1 (F := Ideal) x wt b (ix2 p q)
      = ∑ k : Fin 256, x (ix2 p k) * wt (ix2 k q) + b (ix2 (0 : Fin 1) q) := by
  unfold k11_pay1
  simp only [shapeCast_self]
  rw [addf_apply, biasRow11_apply]
  refine congrArg (fun z => z + b (ix2 (0 : Fin 1) q)) ?_
  refine (matmul11_apply _ _ p q).trans ?_
  simp only [truncf_apply]

/-! ## From blocks to the array -/

/-- The whole layer: entry (r, o) is the sum over k of activation (r, k) times weight (k, o), plus bias (0, o). -/
abbrev linG11 (X : S81920x256.Idx → EReal) (W : S256x3.Idx → EReal) (B : S1x3.Idx → EReal) :
    S81920x3.Idx → EReal :=
  fun j => ∑ k : Fin 256, X (ix2 (j 0) k) * W (ix2 k (j 1)) + B (ix2 (0 : Fin 1) (j 1))

theorem zeros2_11 : (![0, 0] : Fin 2 → Nat) = fun _ => 0 := funext fun a => by fin_cases a <;> rfl

/-- The printed index maps, decided over the grid: the activations' and the result's blocks are block row t, their
    one block column 0; the weights' and the bias row's block is the whole array. -/
theorem blockIdx11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- One entry of a block's result is an entry of the whole layer, when the block's row of activations, the weights'
    column and the column's bias are the whole arrays' (stated over plain vectors and indices). -/
theorem blockEntry11 (X : S81920x256.Idx → EReal) (W : S256x3.Idx → EReal) (B : S1x3.Idx → EReal)
    (x : Vec Ideal S2048x256 .bf16) (wt : Vec Ideal S256x3 .f32) (b : Vec Ideal S1x3 .f32)
    (y : S2048x3.Idx) (i : S81920x3.Idx)
    (hx : ∀ k : Fin 256, x (ix2 (y 0) k) = X (ix2 (i 0) k)) (hw : ∀ k : Fin 256, wt (ix2 k (y 1)) = W (ix2 k (i 1)))
    (hb : b (ix2 (0 : Fin 1) (y 1)) = B (ix2 (0 : Fin 1) (i 1))) :
    k11_pay1 (F := Ideal) x wt b y = linG11 X W B i := by
  obtain ⟨p, q, rfl⟩ : ∃ (p : Fin 2048) (q : Fin 3), y = ix2 p q := ⟨y 0, y 1, eq_ix2 y⟩
  rw [pay11_apply]
  refine congrArg₂ (fun s z => s + z) ?_ hb
  exact Finset.sum_congr rfl fun k _ => congrArg₂ (· * ·) (hx k) (hw k)

/-- WHAT POINT t WRITES BACK is block t of the whole layer of the arrays as the layer finds them. -/
theorem flushed11_eq (c : Dev nD) (t : Fin cfg11.N) :
    (dat11 (F := Ideal) V c).flushed 3 t
      = ((cfg11.win 3).blk t).view.read (Elt Ideal) (linG11 (V c main_v139) (V c main_v54) (V c main_v140)) := by
  show (cfg11.win 3).cut (grid11.coords t) ((dat11 (F := Ideal) V c).after 3 t) = _
  rw [after11_3]
  unfold out11_3
  rw [View.canon_unit_zero zeros2_11]
  simp only [View.ld_unit_zero (S := S2048x256) zeros2_11, View.ld_unit_zero (S := S256x3) zeros2_11,
    View.ld_unit_zero (S := S1x3) zeros2_11]
  obtain ⟨e0, e1, e2, e3, e4, e5, e6, e7⟩ := blockIdx11 t
  funext j
  show k11_pay1 (F := Ideal) (iblk11 V c 0 t) (iblk11 V c 1 t) (iblk11 V c 2 t) j
    = linG11 (V c main_v139) (V c main_v54) (V c main_v140) (((cfg11.win 3).blk t).view.emb j)
  refine blockEntry11 (V c main_v139) (V c main_v54) (V c main_v140) (iblk11 V c 0 t) (iblk11 V c 1 t) (iblk11 V c 2 t) j
    (((cfg11.win 3).blk t).view.emb j) (fun k => ?_) (fun k => ?_) ?_
  · show V c main_v139 (((cfg11.win 0).blk t).view.emb (ix2 (j 0) k))
      = V c main_v139 (ix2 ((((cfg11.win 3).blk t).view.emb j) 0) k)
    refine congrArg _ (funext fun a => Fin.ext ?_)
    match a with
    | ⟨0, _⟩ =>
      show win11_0.index t (0 : Fin 2) * 2048 + 1 * (j 0).val = win11_3.index t (0 : Fin 2) * 2048 + 1 * (j 0).val
      omega
    | ⟨1, _⟩ =>
      show win11_0.index t (1 : Fin 2) * 256 + 1 * k.val = k.val
      omega
  · show V c main_v54 (((cfg11.win 1).blk t).view.emb (ix2 k (j 1)))
      = V c main_v54 (ix2 k ((((cfg11.win 3).blk t).view.emb j) 1))
    refine congrArg _ (funext fun a => Fin.ext ?_)
    match a with
    | ⟨0, _⟩ =>
      show win11_1.index t (0 : Fin 2) * 256 + 1 * k.val = k.val
      omega
    | ⟨1, _⟩ =>
      show win11_1.index t (1 : Fin 2) * 3 + 1 * (j 1).val = win11_3.index t (1 : Fin 2) * 3 + 1 * (j 1).val
      omega
  · show V c main_v140 (((cfg11.win 2).blk t).view.emb (ix2 (0 : Fin 1) (j 1)))
      = V c main_v140 (ix2 (0 : Fin 1) ((((cfg11.win 3).blk t).view.emb j) 1))
    refine congrArg _ (funext fun a => Fin.ext ?_)
    match a with
    | ⟨0, _⟩ =>
      show win11_2.index t (0 : Fin 2) * 1 + 1 * 0 = 0
      omega
    | ⟨1, _⟩ =>
      show win11_2.index t (1 : Fin 2) * 3 + 1 * (j 1).val = win11_3.index t (1 : Fin 2) * 3 + 1 * (j 1).val
      omega

/-- An index of the result is in point t's block iff each coordinate is in the block's range on its axis. -/
theorem memBlock11 (t : Fin cfg11.N) (i : S81920x3.Idx) :
    i ∈ ((cfg11.win 3).blk t).view.set ↔ ∀ a : Fin 2, win11_3.index t a * S2048x3.size a ≤ (i a).val
      ∧ (i a).val < win11_3.index t a * S2048x3.size a + S2048x3.size a := by
  show i ∈ ((View.whole main_v141).slice (win11_3.rect t)).set ↔ _
  rw [View.set_slice_whole, Rect.mem_set_unit]
  exact Iff.rfl

/-- THE BLOCKS TILE THE ROWS: row r lies in the block of point r / 2048, and every point writes its block back. -/
theorem cover11 (i : S81920x3.Idx) :
    ∃ t : Fin cfg11.N, (cfg11.win 3).flush t = true ∧ i ∈ ((cfg11.win 3).blk t).view.set := by
  have hi0 : (i 0).val < 81920 := (i 0).isLt
  have hi1 : (i 1).val < 3 := (i 1).isLt
  have hN : cfg11.N = 40 := N_11
  have ht : (i 0).val / 2048 < cfg11.N := by rw [hN]; omega
  obtain ⟨-, -, -, -, -, -, e6, e7⟩ := blockIdx11 ⟨(i 0).val / 2048, ht⟩
  refine ⟨⟨(i 0).val / 2048, ht⟩, flush11_3 _, ?_⟩
  rw [memBlock11]
  intro a
  match a with
  | ⟨0, _⟩ =>
    show win11_3.index ⟨(i 0).val / 2048, ht⟩ (0 : Fin 2) * 2048 ≤ (i 0).val
      ∧ (i 0).val < win11_3.index ⟨(i 0).val / 2048, ht⟩ (0 : Fin 2) * 2048 + 2048
    rw [e6]
    show (i 0).val / 2048 * 2048 ≤ (i 0).val ∧ (i 0).val < (i 0).val / 2048 * 2048 + 2048
    omega
  | ⟨1, _⟩ =>
    show win11_3.index ⟨(i 0).val / 2048, ht⟩ (1 : Fin 2) * 3 ≤ (i 1).val
      ∧ (i 1).val < win11_3.index ⟨(i 0).val / 2048, ht⟩ (1 : Fin 2) * 3 + 3
    rw [e7]
    omega

/-- THE RESULT ARRAY after the layer: the whole layer of the activations, the weights and the bias row as the layer
    found them. -/
theorem linArr11 (c : Dev nD) :
    (dat11 (F := Ideal) V c).arrAt 3 cfg11.N = linG11 (V c main_v139) (V c main_v54) (V c main_v140) :=
  (dat11 (F := Ideal) V c).arrAt_eq_of_cover 3 (linG11 (V c main_v139) (V c main_v54) (V c main_v140))
    (fun t _ => flushed11_eq V c t) cover11

end Cert.KernelIdeal.Hand

end
-- ==== Proof.HostChain.lean ====
import proofs.«169470_j5557687681111_1_alg».proof.Proof.Bounds
import proofs.«169470_j5557687681111_1_alg».proof.Proof.LinValue0
import proofs.«169470_j5557687681111_1_alg».proof.Proof.LinValue1
import proofs.«169470_j5557687681111_1_alg».proof.Proof.LinValue3
import proofs.«169470_j5557687681111_1_alg».proof.Proof.LinValue5
import proofs.«169470_j5557687681111_1_alg».proof.Proof.LinValue7
import proofs.«169470_j5557687681111_1_alg».proof.Proof.LinValue9
import proofs.«169470_j5557687681111_1_alg».proof.Proof.LinValue11
import Idealize.ShloMosaic.Lib.Tactic

/-!
The host program between the regions, read: what every region finds in its input arrays, as a term of the previous
region's output array or of the argument arrays, and what it leaves in its output array.

A boundary valuation changes one buffer at a region (the region's output array) and the buffers a host stretch
writes at a stretch; every other buffer keeps its contents. The adjacency matrix, the transposed weights and the
argument arrays are written before the first region and never again, so every region reads them as the first
boundary holds them. Between a linear layer and an aggregation the [81920,256] array of rows (batch, node) is
regrouped into the [10240,2048] array of rows node and columns (batch, channel), and back afterwards.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.ShloMosaic.Pipeline (Dat)

variable (m : (ℓ : Loc nD τ sig) → Buf (Elt Ideal) ℓ)

/-! ## What each boundary leaves unchanged -/

theorem keep6 (c : Dev nD) (r : Ref sig .tc) (h : r ∉ ([main_v57] : List (Ref sig .tc))) : B6 m c r = B5 m c r := by
  rw [← V6_eq, ← V5_eq]; exact V6_of m (outs m) c r h
theorem keep7 (c : Dev nD) (r : Ref sig .tc) (h : r ∉ (hostOps1_W : List (Ref sig .tc))) : B7 m c r = B6 m c r := by
  rw [← V7_eq, ← V6_eq]; exact V7_of m (outs m) c r h
theorem keep8 (c : Dev nD) (r : Ref sig .tc) (h : r ∉ ([main_v62] : List (Ref sig .tc))) : B8 m c r = B7 m c r := by
  rw [← V8_eq, ← V7_eq]; exact V8_of m (outs m) c r h
theorem keep9 (c : Dev nD) (r : Ref sig .tc) (h : r ∉ (hostOps2_W : List (Ref sig .tc))) : B9 m c r = B8 m c r := by
  rw [← V9_eq, ← V8_eq]; exact V9_of m (outs m) c r h
theorem keep10 (c : Dev nD) (r : Ref sig .tc) (h : r ∉ ([main_v72] : List (Ref sig .tc))) : B10 m c r = B9 m c r := by
  rw [← V10_eq, ← V9_eq]; exact V10_of m (outs m) c r h
theorem keep11 (c : Dev nD) (r : Ref sig .tc) (h : r ∉ (hostOps3_W : List (Ref sig .tc))) : B11 m c r = B10 m c r := by
  rw [← V11_eq, ← V10_eq]; exact V11_of m (outs m) c r h
theorem keep12 (c : Dev nD) (r : Ref sig .tc) (h : r ∉ ([main_v78] : List (Ref sig .tc))) : B12 m c r = B11 m c r := by
  rw [← V12_eq, ← V11_eq]; exact V12_of m (outs m) c r h
theorem keep13 (c : Dev nD) (r : Ref sig .tc) (h : r ∉ (hostOps4_W : List (Ref sig .tc))) : B13 m c r = B12 m c r := by
  rw [← V13_eq, ← V12_eq]; exact V13_of m (outs m) c r h
theorem keep14 (c : Dev nD) (r : Ref sig .tc) (h : r ∉ ([main_v88] : List (Ref sig .tc))) : B14 m c r = B13 m c r := by
  rw [← V14_eq, ← V13_eq]; exact V14_of m (outs m) c r h
theorem keep15 (c : Dev nD) (r : Ref sig .tc) (h : r ∉ (hostOps5_W : List (Ref sig .tc))) : B15 m c r = B14 m c r := by
  rw [← V15_eq, ← V14_eq]; exact V15_of m (outs m) c r h
theorem keep16 (c : Dev nD) (r : Ref sig .tc) (h : r ∉ ([main_v94] : List (Ref sig .tc))) : B16 m c r = B15 m c r := by
  rw [← V16_eq, ← V15_eq]; exact V16_of m (outs m) c r h
theorem keep17 (c : Dev nD) (r : Ref sig .tc) (h : r ∉ (hostOps6_W : List (Ref sig .tc))) : B17 m c r = B16 m c r := by
  rw [← V17_eq, ← V16_eq]; exact V17_of m (outs m) c r h
theorem keep18 (c : Dev nD) (r : Ref sig .tc) (h : r ∉ ([main_v104] : List (Ref sig .tc))) : B18 m c r = B17 m c r := by
  rw [← V18_eq, ← V17_eq]; exact V18_of m (outs m) c r h
theorem keep19 (c : Dev nD) (r : Ref sig .tc) (h : r ∉ (hostOps7_W : List (Ref sig .tc))) : B19 m c r = B18 m c r := by
  rw [← V19_eq, ← V18_eq]; exact V19_of m (outs m) c r h
theorem keep20 (c : Dev nD) (r : Ref sig .tc) (h : r ∉ ([main_v110] : List (Ref sig .tc))) : B20 m c r = B19 m c r := by
  rw [← V20_eq, ← V19_eq]; exact V20_of m (outs m) c r h
theorem keep21 (c : Dev nD) (r : Ref sig .tc) (h : r ∉ (hostOps8_W : List (Ref sig .tc))) : B21 m c r = B20 m c r := by
  rw [← V21_eq, ← V20_eq]; exact V21_of m (outs m) c r h
theorem keep22 (c : Dev nD) (r : Ref sig .tc) (h : r ∉ ([main_v120] : List (Ref sig .tc))) : B22 m c r = B21 m c r := by
  rw [← V22_eq, ← V21_eq]; exact V22_of m (outs m) c r h
theorem keep23 (c : Dev nD) (r : Ref sig .tc) (h : r ∉ (hostOps9_W : List (Ref sig .tc))) : B23 m c r = B22 m c r := by
  rw [← V23_eq, ← V22_eq]; exact V23_of m (outs m) c r h
theorem keep24 (c : Dev nD) (r : Ref sig .tc) (h : r ∉ ([main_v126] : List (Ref sig .tc))) : B24 m c r = B23 m c r := by
  rw [← V24_eq, ← V23_eq]; exact V24_of m (outs m) c r h
theorem keep25 (c : Dev nD) (r : Ref sig .tc) (h : r ∉ (hostOps10_W : List (Ref sig .tc))) : B25 m c r = B24 m c r := by
  rw [← V25_eq, ← V24_eq]; exact V25_of m (outs m) c r h
theorem keep26 (c : Dev nD) (r : Ref sig .tc) (h : r ∉ ([main_v136] : List (Ref sig .tc))) : B26 m c r = B25 m c r := by
  rw [← V26_eq, ← V25_eq]; exact V26_of m (outs m) c r h
theorem keep27 (c : Dev nD) (r : Ref sig .tc) (h : r ∉ (hostOps11_W : List (Ref sig .tc))) : B27 m c r = B26 m c r := by
  rw [← V27_eq, ← V26_eq]; exact V27_of m (outs m) c r h
theorem keep28 (c : Dev nD) (r : Ref sig .tc) (h : r ∉ ([main_v141] : List (Ref sig .tc))) : B28 m c r = B27 m c r := by
  rw [← V28_eq, ← V27_eq]; exact V28_of m (outs m) c r h
theorem keep29 (c : Dev nD) (r : Ref sig .tc) (h : r ∉ (hostOps12_W : List (Ref sig .tc))) : B29 m c r = B28 m c r := by
  rw [← V29_eq, ← V28_eq]; exact V29_of m (outs m) c r h

/-- An argument array, and every buffer no leading host stretch writes, is at the first boundary as launched. -/
theorem keep5 (c : Dev nD) (r : Ref sig .tc) (h0 : r ∉ (hostOps0_W : List (Ref sig .tc))) (h1 : r ∉ (hostOps0_1_W : List (Ref sig .tc)))
    (h2 : r ∉ (hostOps0_2_W : List (Ref sig .tc))) (h3 : r ∉ (hostOps0_3_W : List (Ref sig .tc)))
    (h4 : r ∉ (hostOps0_4_W : List (Ref sig .tc))) : B5 m c r = m (c, r) := by
  rw [← V5_eq]
  exact (V5_of m c r h4).trans <| (V4_of m c r h3).trans <| (V3_of m c r h2).trans <| (V2_of m c r h1).trans <| V1_of m c r h0

/-! ## Buffers written once, before the first region -/

theorem adj_6 (c : Dev nD) : B6 m c main_v45 = B5 m c main_v45 := keep6 m c main_v45 (by decide)
theorem adj_7 (c : Dev nD) : B7 m c main_v45 = B5 m c main_v45 := (keep7 m c main_v45 (by decide)).trans (adj_6 m c)
theorem adj_8 (c : Dev nD) : B8 m c main_v45 = B5 m c main_v45 := (keep8 m c main_v45 (by decide)).trans (adj_7 m c)
theorem adj_9 (c : Dev nD) : B9 m c main_v45 = B5 m c main_v45 := (keep9 m c main_v45 (by decide)).trans (adj_8 m c)
theorem adj_10 (c : Dev nD) : B10 m c main_v45 = B5 m c main_v45 := (keep10 m c main_v45 (by decide)).trans (adj_9 m c)
theorem adj_11 (c : Dev nD) : B11 m c main_v45 = B5 m c main_v45 := (keep11 m c main_v45 (by decide)).trans (adj_10 m c)
theorem adj_12 (c : Dev nD) : B12 m c main_v45 = B5 m c main_v45 := (keep12 m c main_v45 (by decide)).trans (adj_11 m c)
theorem adj_13 (c : Dev nD) : B13 m c main_v45 = B5 m c main_v45 := (keep13 m c main_v45 (by decide)).trans (adj_12 m c)
theorem adj_14 (c : Dev nD) : B14 m c main_v45 = B5 m c main_v45 := (keep14 m c main_v45 (by decide)).trans (adj_13 m c)
theorem adj_15 (c : Dev nD) : B15 m c main_v45 = B5 m c main_v45 := (keep15 m c main_v45 (by decide)).trans (adj_14 m c)
theorem adj_16 (c : Dev nD) : B16 m c main_v45 = B5 m c main_v45 := (keep16 m c main_v45 (by decide)).trans (adj_15 m c)
theorem adj_17 (c : Dev nD) : B17 m c main_v45 = B5 m c main_v45 := (keep17 m c main_v45 (by decide)).trans (adj_16 m c)
theorem adj_18 (c : Dev nD) : B18 m c main_v45 = B5 m c main_v45 := (keep18 m c main_v45 (by decide)).trans (adj_17 m c)
theorem adj_19 (c : Dev nD) : B19 m c main_v45 = B5 m c main_v45 := (keep19 m c main_v45 (by decide)).trans (adj_18 m c)
theorem adj_20 (c : Dev nD) : B20 m c main_v45 = B5 m c main_v45 := (keep20 m c main_v45 (by decide)).trans (adj_19 m c)
theorem adj_21 (c : Dev nD) : B21 m c main_v45 = B5 m c main_v45 := (keep21 m c main_v45 (by decide)).trans (adj_20 m c)
theorem adj_22 (c : Dev nD) : B22 m c main_v45 = B5 m c main_v45 := (keep22 m c main_v45 (by decide)).trans (adj_21 m c)
theorem adj_23 (c : Dev nD) : B23 m c main_v45 = B5 m c main_v45 := (keep23 m c main_v45 (by decide)).trans (adj_22 m c)
theorem adj_24 (c : Dev nD) : B24 m c main_v45 = B5 m c main_v45 := (keep24 m c main_v45 (by decide)).trans (adj_23 m c)
theorem adj_25 (c : Dev nD) : B25 m c main_v45 = B5 m c main_v45 := (keep25 m c main_v45 (by decide)).trans (adj_24 m c)

theorem wts_6 (c : Dev nD) : B6 m c main_v53 = B5 m c main_v53 := keep6 m c main_v53 (by decide)
theorem wts_7 (c : Dev nD) : B7 m c main_v53 = B5 m c main_v53 := (keep7 m c main_v53 (by decide)).trans (wts_6 m c)
theorem wts_8 (c : Dev nD) : B8 m c main_v53 = B5 m c main_v53 := (keep8 m c main_v53 (by decide)).trans (wts_7 m c)
theorem wts_9 (c : Dev nD) : B9 m c main_v53 = B5 m c main_v53 := (keep9 m c main_v53 (by decide)).trans (wts_8 m c)
theorem wts_10 (c : Dev nD) : B10 m c main_v53 = B5 m c main_v53 := (keep10 m c main_v53 (by decide)).trans (wts_9 m c)
theorem wts_11 (c : Dev nD) : B11 m c main_v53 = B5 m c main_v53 := (keep11 m c main_v53 (by decide)).trans (wts_10 m c)
theorem wts_12 (c : Dev nD) : B12 m c main_v53 = B5 m c main_v53 := (keep12 m c main_v53 (by decide)).trans (wts_11 m c)
theorem wts_13 (c : Dev nD) : B13 m c main_v53 = B5 m c main_v53 := (keep13 m c main_v53 (by decide)).trans (wts_12 m c)
theorem wts_14 (c : Dev nD) : B14 m c main_v53 = B5 m c main_v53 := (keep14 m c main_v53 (by decide)).trans (wts_13 m c)
theorem wts_15 (c : Dev nD) : B15 m c main_v53 = B5 m c main_v53 := (keep15 m c main_v53 (by decide)).trans (wts_14 m c)
theorem wts_16 (c : Dev nD) : B16 m c main_v53 = B5 m c main_v53 := (keep16 m c main_v53 (by decide)).trans (wts_15 m c)
theorem wts_17 (c : Dev nD) : B17 m c main_v53 = B5 m c main_v53 := (keep17 m c main_v53 (by decide)).trans (wts_16 m c)
theorem wts_18 (c : Dev nD) : B18 m c main_v53 = B5 m c main_v53 := (keep18 m c main_v53 (by decide)).trans (wts_17 m c)
theorem wts_19 (c : Dev nD) : B19 m c main_v53 = B5 m c main_v53 := (keep19 m c main_v53 (by decide)).trans (wts_18 m c)
theorem wts_20 (c : Dev nD) : B20 m c main_v53 = B5 m c main_v53 := (keep20 m c main_v53 (by decide)).trans (wts_19 m c)
theorem wts_21 (c : Dev nD) : B21 m c main_v53 = B5 m c main_v53 := (keep21 m c main_v53 (by decide)).trans (wts_20 m c)
theorem wts_22 (c : Dev nD) : B22 m c main_v53 = B5 m c main_v53 := (keep22 m c main_v53 (by decide)).trans (wts_21 m c)

theorem cbias_6 (c : Dev nD) : B6 m c main_arg6 = B5 m c main_arg6 := keep6 m c main_arg6 (by decide)
theorem cbias_7 (c : Dev nD) : B7 m c main_arg6 = B5 m c main_arg6 := (keep7 m c main_arg6 (by decide)).trans (cbias_6 m c)
theorem cbias_8 (c : Dev nD) : B8 m c main_arg6 = B5 m c main_arg6 := (keep8 m c main_arg6 (by decide)).trans (cbias_7 m c)
theorem cbias_9 (c : Dev nD) : B9 m c main_arg6 = B5 m c main_arg6 := (keep9 m c main_arg6 (by decide)).trans (cbias_8 m c)
theorem cbias_10 (c : Dev nD) : B10 m c main_arg6 = B5 m c main_arg6 := (keep10 m c main_arg6 (by decide)).trans (cbias_9 m c)
theorem cbias_11 (c : Dev nD) : B11 m c main_arg6 = B5 m c main_arg6 := (keep11 m c main_arg6 (by decide)).trans (cbias_10 m c)
theorem cbias_12 (c : Dev nD) : B12 m c main_arg6 = B5 m c main_arg6 := (keep12 m c main_arg6 (by decide)).trans (cbias_11 m c)
theorem cbias_13 (c : Dev nD) : B13 m c main_arg6 = B5 m c main_arg6 := (keep13 m c main_arg6 (by decide)).trans (cbias_12 m c)
theorem cbias_14 (c : Dev nD) : B14 m c main_arg6 = B5 m c main_arg6 := (keep14 m c main_arg6 (by decide)).trans (cbias_13 m c)
theorem cbias_15 (c : Dev nD) : B15 m c main_arg6 = B5 m c main_arg6 := (keep15 m c main_arg6 (by decide)).trans (cbias_14 m c)
theorem cbias_16 (c : Dev nD) : B16 m c main_arg6 = B5 m c main_arg6 := (keep16 m c main_arg6 (by decide)).trans (cbias_15 m c)
theorem cbias_17 (c : Dev nD) : B17 m c main_arg6 = B5 m c main_arg6 := (keep17 m c main_arg6 (by decide)).trans (cbias_16 m c)
theorem cbias_18 (c : Dev nD) : B18 m c main_arg6 = B5 m c main_arg6 := (keep18 m c main_arg6 (by decide)).trans (cbias_17 m c)
theorem cbias_19 (c : Dev nD) : B19 m c main_arg6 = B5 m c main_arg6 := (keep19 m c main_arg6 (by decide)).trans (cbias_18 m c)
theorem cbias_20 (c : Dev nD) : B20 m c main_arg6 = B5 m c main_arg6 := (keep20 m c main_arg6 (by decide)).trans (cbias_19 m c)
theorem cbias_21 (c : Dev nD) : B21 m c main_arg6 = B5 m c main_arg6 := (keep21 m c main_arg6 (by decide)).trans (cbias_20 m c)
theorem cbias_22 (c : Dev nD) : B22 m c main_arg6 = B5 m c main_arg6 := (keep22 m c main_arg6 (by decide)).trans (cbias_21 m c)
theorem cbias_23 (c : Dev nD) : B23 m c main_arg6 = B5 m c main_arg6 := (keep23 m c main_arg6 (by decide)).trans (cbias_22 m c)
theorem cbias_24 (c : Dev nD) : B24 m c main_arg6 = B5 m c main_arg6 := (keep24 m c main_arg6 (by decide)).trans (cbias_23 m c)

theorem owts_6 (c : Dev nD) : B6 m c main_v54 = B5 m c main_v54 := keep6 m c main_v54 (by decide)
theorem owts_7 (c : Dev nD) : B7 m c main_v54 = B5 m c main_v54 := (keep7 m c main_v54 (by decide)).trans (owts_6 m c)
theorem owts_8 (c : Dev nD) : B8 m c main_v54 = B5 m c main_v54 := (keep8 m c main_v54 (by decide)).trans (owts_7 m c)
theorem owts_9 (c : Dev nD) : B9 m c main_v54 = B5 m c main_v54 := (keep9 m c main_v54 (by decide)).trans (owts_8 m c)
theorem owts_10 (c : Dev nD) : B10 m c main_v54 = B5 m c main_v54 := (keep10 m c main_v54 (by decide)).trans (owts_9 m c)
theorem owts_11 (c : Dev nD) : B11 m c main_v54 = B5 m c main_v54 := (keep11 m c main_v54 (by decide)).trans (owts_10 m c)
theorem owts_12 (c : Dev nD) : B12 m c main_v54 = B5 m c main_v54 := (keep12 m c main_v54 (by decide)).trans (owts_11 m c)
theorem owts_13 (c : Dev nD) : B13 m c main_v54 = B5 m c main_v54 := (keep13 m c main_v54 (by decide)).trans (owts_12 m c)
theorem owts_14 (c : Dev nD) : B14 m c main_v54 = B5 m c main_v54 := (keep14 m c main_v54 (by decide)).trans (owts_13 m c)
theorem owts_15 (c : Dev nD) : B15 m c main_v54 = B5 m c main_v54 := (keep15 m c main_v54 (by decide)).trans (owts_14 m c)
theorem owts_16 (c : Dev nD) : B16 m c main_v54 = B5 m c main_v54 := (keep16 m c main_v54 (by decide)).trans (owts_15 m c)
theorem owts_17 (c : Dev nD) : B17 m c main_v54 = B5 m c main_v54 := (keep17 m c main_v54 (by decide)).trans (owts_16 m c)
theorem owts_18 (c : Dev nD) : B18 m c main_v54 = B5 m c main_v54 := (keep18 m c main_v54 (by decide)).trans (owts_17 m c)
theorem owts_19 (c : Dev nD) : B19 m c main_v54 = B5 m c main_v54 := (keep19 m c main_v54 (by decide)).trans (owts_18 m c)
theorem owts_20 (c : Dev nD) : B20 m c main_v54 = B5 m c main_v54 := (keep20 m c main_v54 (by decide)).trans (owts_19 m c)
theorem owts_21 (c : Dev nD) : B21 m c main_v54 = B5 m c main_v54 := (keep21 m c main_v54 (by decide)).trans (owts_20 m c)
theorem owts_22 (c : Dev nD) : B22 m c main_v54 = B5 m c main_v54 := (keep22 m c main_v54 (by decide)).trans (owts_21 m c)
theorem owts_23 (c : Dev nD) : B23 m c main_v54 = B5 m c main_v54 := (keep23 m c main_v54 (by decide)).trans (owts_22 m c)
theorem owts_24 (c : Dev nD) : B24 m c main_v54 = B5 m c main_v54 := (keep24 m c main_v54 (by decide)).trans (owts_23 m c)
theorem owts_25 (c : Dev nD) : B25 m c main_v54 = B5 m c main_v54 := (keep25 m c main_v54 (by decide)).trans (owts_24 m c)
theorem owts_26 (c : Dev nD) : B26 m c main_v54 = B5 m c main_v54 := (keep26 m c main_v54 (by decide)).trans (owts_25 m c)
theorem owts_27 (c : Dev nD) : B27 m c main_v54 = B5 m c main_v54 := (keep27 m c main_v54 (by decide)).trans (owts_26 m c)

theorem obias_6 (c : Dev nD) : B6 m c main_arg8 = B5 m c main_arg8 := keep6 m c main_arg8 (by decide)
theorem obias_7 (c : Dev nD) : B7 m c main_arg8 = B5 m c main_arg8 := (keep7 m c main_arg8 (by decide)).trans (obias_6 m c)
theorem obias_8 (c : Dev nD) : B8 m c main_arg8 = B5 m c main_arg8 := (keep8 m c main_arg8 (by decide)).trans (obias_7 m c)
theorem obias_9 (c : Dev nD) : B9 m c main_arg8 = B5 m c main_arg8 := (keep9 m c main_arg8 (by decide)).trans (obias_8 m c)
theorem obias_10 (c : Dev nD) : B10 m c main_arg8 = B5 m c main_arg8 := (keep10 m c main_arg8 (by decide)).trans (obias_9 m c)
theorem obias_11 (c : Dev nD) : B11 m c main_arg8 = B5 m c main_arg8 := (keep11 m c main_arg8 (by decide)).trans (obias_10 m c)
theorem obias_12 (c : Dev nD) : B12 m c main_arg8 = B5 m c main_arg8 := (keep12 m c main_arg8 (by decide)).trans (obias_11 m c)
theorem obias_13 (c : Dev nD) : B13 m c main_arg8 = B5 m c main_arg8 := (keep13 m c main_arg8 (by decide)).trans (obias_12 m c)
theorem obias_14 (c : Dev nD) : B14 m c main_arg8 = B5 m c main_arg8 := (keep14 m c main_arg8 (by decide)).trans (obias_13 m c)
theorem obias_15 (c : Dev nD) : B15 m c main_arg8 = B5 m c main_arg8 := (keep15 m c main_arg8 (by decide)).trans (obias_14 m c)
theorem obias_16 (c : Dev nD) : B16 m c main_arg8 = B5 m c main_arg8 := (keep16 m c main_arg8 (by decide)).trans (obias_15 m c)
theorem obias_17 (c : Dev nD) : B17 m c main_arg8 = B5 m c main_arg8 := (keep17 m c main_arg8 (by decide)).trans (obias_16 m c)
theorem obias_18 (c : Dev nD) : B18 m c main_arg8 = B5 m c main_arg8 := (keep18 m c main_arg8 (by decide)).trans (obias_17 m c)
theorem obias_19 (c : Dev nD) : B19 m c main_arg8 = B5 m c main_arg8 := (keep19 m c main_arg8 (by decide)).trans (obias_18 m c)
theorem obias_20 (c : Dev nD) : B20 m c main_arg8 = B5 m c main_arg8 := (keep20 m c main_arg8 (by decide)).trans (obias_19 m c)
theorem obias_21 (c : Dev nD) : B21 m c main_arg8 = B5 m c main_arg8 := (keep21 m c main_arg8 (by decide)).trans (obias_20 m c)
theorem obias_22 (c : Dev nD) : B22 m c main_arg8 = B5 m c main_arg8 := (keep22 m c main_arg8 (by decide)).trans (obias_21 m c)
theorem obias_23 (c : Dev nD) : B23 m c main_arg8 = B5 m c main_arg8 := (keep23 m c main_arg8 (by decide)).trans (obias_22 m c)
theorem obias_24 (c : Dev nD) : B24 m c main_arg8 = B5 m c main_arg8 := (keep24 m c main_arg8 (by decide)).trans (obias_23 m c)
theorem obias_25 (c : Dev nD) : B25 m c main_arg8 = B5 m c main_arg8 := (keep25 m c main_arg8 (by decide)).trans (obias_24 m c)
theorem obias_26 (c : Dev nD) : B26 m c main_arg8 = B5 m c main_arg8 := (keep26 m c main_arg8 (by decide)).trans (obias_25 m c)

/-! ## The regroupings between a linear layer and an aggregation -/

/-- The [81920,256] array of rows (batch, node) regrouped as [10240,2048]: rows node, columns (batch, channel). -/
abbrev toAgg (P : S81920x256.Idx → EReal) : S10240x2048.Idx → EReal :=
  shapeCast S10240x2048 (transpose S10240x8x256 [1, 0, 2]
    (shapeCast S8x10240x256 P shapeCasts_S81920x256_S8x10240x256) transposes_S8x10240x256_S10240x8x256_1_0_2)
    shapeCasts_S10240x8x256_S10240x2048

/-- And back: the [10240,2048] array regrouped as [81920,256]. -/
abbrev toLin (Q : S10240x2048.Idx → EReal) : S81920x256.Idx → EReal :=
  shapeCast S81920x256 (transpose S8x10240x256 [1, 0, 2]
    (shapeCast S10240x8x256 Q shapeCasts_S10240x2048_S10240x8x256) transposes_S10240x8x256_S8x10240x256_1_0_2)
    shapeCasts_S8x10240x256_S81920x256

/-- A bias row of 256 channels repeated for the 8 batches: the [1,2048] row an aggregation adds. -/
abbrev tileOf (r : S1x256.Idx → EReal) : S1x2048.Idx → EReal :=
  shapeCast S1x2048 (shapeCast S2048 (broadcastInDim S8x256 ![0, 1] bcast_S1x256_S8x256_0_1
    (shapeCast S1x256 (shapeCast S256 r shapeCasts_S1x256_S256) shapeCasts_S256_S1x256))
    shapeCasts_S8x256_S2048) shapeCasts_S2048_S1x2048

/-! ## Each host stretch between two regions, read at any valuation -/

theorem ops04_v52 (ρ : Valuation τ sig (Elt Ideal)) :
    StableHlo.after hostOps0_4 ρ (Proc.devRef .tc main_v52) = transpose S515x256 [1, 0] (ρ main_arg3) transposes_S256x515_S515x256_1_0 := by
  after_results <;> rfl
theorem ops04_v53 (ρ : Valuation τ sig (Elt Ideal)) :
    StableHlo.after hostOps0_4 ρ (Proc.devRef .tc main_v53) = transpose S5x256x256 [0, 2, 1] (ρ main_arg5) transposes_S5x256x256_S5x256x256_0_2_1 := by
  after_results <;> rfl
theorem ops04_v54 (ρ : Valuation τ sig (Elt Ideal)) :
    StableHlo.after hostOps0_4 ρ (Proc.devRef .tc main_v54) = transpose S256x3 [1, 0] (ρ main_arg7) transposes_S3x256_S256x3_1_0 := by
  after_results <;> rfl
theorem ops04_v55 (ρ : Valuation τ sig (Elt Ideal)) :
    StableHlo.after hostOps0_4 ρ (Proc.devRef .tc main_v55) = shapeCast S81920x515 (ρ main_v51) shapeCasts_S8x10240x515_S81920x515 := by
  after_results <;> rfl
theorem ops04_v56 (ρ : Valuation τ sig (Elt Ideal)) :
    StableHlo.after hostOps0_4 ρ (Proc.devRef .tc main_v56) = shapeCast S1x256 (ρ main_arg4) shapeCasts_S256_S1x256 := by
  after_results <;> rfl
theorem ops1_v59 (ρ : Valuation τ sig (Elt Ideal)) :
    StableHlo.after hostOps1 ρ (Proc.devRef .tc main_v59) = shapeCast S81920x256 (shapeCast S8x10240x256 (ρ main_v57) shapeCasts_S81920x256_S8x10240x256) shapeCasts_S8x10240x256_S81920x256 := by
  after_results <;> rfl
theorem ops1_v61 (ρ : Valuation τ sig (Elt Ideal)) :
    StableHlo.after hostOps1 ρ (Proc.devRef .tc main_v61) = shapeCast S256x256 (extractStridedSlice S1x256x256 ![0, 0, 0] (ρ main_v53) slices_S5x256x256_S1x256x256_0_0_0) shapeCasts_S1x256x256_S256x256 := by
  after_results <;> rfl
theorem ops3_v75 (ρ : Valuation τ sig (Elt Ideal)) :
    StableHlo.after hostOps3 ρ (Proc.devRef .tc main_v75) = toLin (ρ main_v72) := by
  after_results <;> rfl
theorem ops3_v77 (ρ : Valuation τ sig (Elt Ideal)) :
    StableHlo.after hostOps3 ρ (Proc.devRef .tc main_v77) = shapeCast S256x256 (extractStridedSlice S1x256x256 ![1, 0, 0] (ρ main_v53) slices_S5x256x256_S1x256x256_1_0_0) shapeCasts_S1x256x256_S256x256 := by
  after_results <;> rfl
theorem ops5_v91 (ρ : Valuation τ sig (Elt Ideal)) :
    StableHlo.after hostOps5 ρ (Proc.devRef .tc main_v91) = toLin (ρ main_v88) := by
  after_results <;> rfl
theorem ops5_v93 (ρ : Valuation τ sig (Elt Ideal)) :
    StableHlo.after hostOps5 ρ (Proc.devRef .tc main_v93) = shapeCast S256x256 (extractStridedSlice S1x256x256 ![2, 0, 0] (ρ main_v53) slices_S5x256x256_S1x256x256_2_0_0) shapeCasts_S1x256x256_S256x256 := by
  after_results <;> rfl
theorem ops7_v107 (ρ : Valuation τ sig (Elt Ideal)) :
    StableHlo.after hostOps7 ρ (Proc.devRef .tc main_v107) = toLin (ρ main_v104) := by
  after_results <;> rfl
theorem ops7_v109 (ρ : Valuation τ sig (Elt Ideal)) :
    StableHlo.after hostOps7 ρ (Proc.devRef .tc main_v109) = shapeCast S256x256 (extractStridedSlice S1x256x256 ![3, 0, 0] (ρ main_v53) slices_S5x256x256_S1x256x256_3_0_0) shapeCasts_S1x256x256_S256x256 := by
  after_results <;> rfl
theorem ops9_v123 (ρ : Valuation τ sig (Elt Ideal)) :
    StableHlo.after hostOps9 ρ (Proc.devRef .tc main_v123) = toLin (ρ main_v120) := by
  after_results <;> rfl
theorem ops9_v125 (ρ : Valuation τ sig (Elt Ideal)) :
    StableHlo.after hostOps9 ρ (Proc.devRef .tc main_v125) = shapeCast S256x256 (extractStridedSlice S1x256x256 ![4, 0, 0] (ρ main_v53) slices_S5x256x256_S1x256x256_4_0_0) shapeCasts_S1x256x256_S256x256 := by
  after_results <;> rfl
theorem ops2_v65 (ρ : Valuation τ sig (Elt Ideal)) :
    StableHlo.after hostOps2 ρ (Proc.devRef .tc main_v65) = toAgg (ρ main_v62) := by
  after_results <;> rfl
theorem ops2_v71 (ρ : Valuation τ sig (Elt Ideal)) :
    StableHlo.after hostOps2 ρ (Proc.devRef .tc main_v71) = tileOf (extractStridedSlice S1x256 ![0, 0] (ρ main_arg6) slices_S5x256_S1x256_0_0) := by
  after_results <;> rfl
theorem ops4_v81 (ρ : Valuation τ sig (Elt Ideal)) :
    StableHlo.after hostOps4 ρ (Proc.devRef .tc main_v81) = toAgg (ρ main_v78) := by
  after_results <;> rfl
theorem ops4_v87 (ρ : Valuation τ sig (Elt Ideal)) :
    StableHlo.after hostOps4 ρ (Proc.devRef .tc main_v87) = tileOf (extractStridedSlice S1x256 ![1, 0] (ρ main_arg6) slices_S5x256_S1x256_1_0) := by
  after_results <;> rfl
theorem ops6_v97 (ρ : Valuation τ sig (Elt Ideal)) :
    StableHlo.after hostOps6 ρ (Proc.devRef .tc main_v97) = toAgg (ρ main_v94) := by
  after_results <;> rfl
theorem ops6_v103 (ρ : Valuation τ sig (Elt Ideal)) :
    StableHlo.after hostOps6 ρ (Proc.devRef .tc main_v103) = tileOf (extractStridedSlice S1x256 ![2, 0] (ρ main_arg6) slices_S5x256_S1x256_2_0) := by
  after_results <;> rfl
theorem ops8_v113 (ρ : Valuation τ sig (Elt Ideal)) :
    StableHlo.after hostOps8 ρ (Proc.devRef .tc main_v113) = toAgg (ρ main_v110) := by
  after_results <;> rfl
theorem ops8_v119 (ρ : Valuation τ sig (Elt Ideal)) :
    StableHlo.after hostOps8 ρ (Proc.devRef .tc main_v119) = tileOf (extractStridedSlice S1x256 ![3, 0] (ρ main_arg6) slices_S5x256_S1x256_3_0) := by
  after_results <;> rfl
theorem ops10_v129 (ρ : Valuation τ sig (Elt Ideal)) :
    StableHlo.after hostOps10 ρ (Proc.devRef .tc main_v129) = toAgg (ρ main_v126) := by
  after_results <;> rfl
theorem ops10_v135 (ρ : Valuation τ sig (Elt Ideal)) :
    StableHlo.after hostOps10 ρ (Proc.devRef .tc main_v135) = tileOf (extractStridedSlice S1x256 ![4, 0] (ρ main_arg6) slices_S5x256_S1x256_4_0) := by
  after_results <;> rfl
theorem ops11_v139 (ρ : Valuation τ sig (Elt Ideal)) :
    StableHlo.after hostOps11 ρ (Proc.devRef .tc main_v139) = toLin (ρ main_v136) := by
  after_results <;> rfl
theorem ops11_v140 (ρ : Valuation τ sig (Elt Ideal)) :
    StableHlo.after hostOps11 ρ (Proc.devRef .tc main_v140) = shapeCast S1x3 (ρ main_arg8) shapeCasts_S3_S1x3 := by
  after_results <;> rfl
theorem ops12_v143 (ρ : Valuation τ sig (Elt Ideal)) :
    StableHlo.after hostOps12 ρ (Proc.devRef .tc main_v143) = extractStridedSlice S8x10000x3 ![0, 0, 0] (shapeCast S8x10240x3 (ρ main_v141) shapeCasts_S81920x3_S8x10240x3) slices_S8x10240x3_S8x10000x3_0_0_0 := by
  after_results <;> rfl

/-! ## What each region finds in its input arrays and leaves in its output array -/

theorem arg_at5 (c : Dev nD) (r : Ref sig .tc) (h0 : r ∉ (hostOps0_W : List (Ref sig .tc))) (h1 : r ∉ (hostOps0_1_W : List (Ref sig .tc)))
    (h2 : r ∉ (hostOps0_2_W : List (Ref sig .tc))) (h3 : r ∉ (hostOps0_3_W : List (Ref sig .tc))) : V4 m c r = m (c, r) :=
  (V4_of m c r h3).trans <| (V3_of m c r h2).trans <| (V2_of m c r h1).trans <| V1_of m c r h0

/-- The input layer's weights: the argument's transpose. -/
theorem in0_W (c : Dev nD) :
    B5 m c main_v52 = transpose S515x256 [1, 0] (m (c, main_arg3)) transposes_S256x515_S515x256_1_0 := by
  rw [← V5_eq]
  exact (ops04_v52 (V4 m c)).trans (congrArg (fun x => transpose S515x256 [1, 0] x transposes_S256x515_S515x256_1_0)
    (arg_at5 m c main_arg3 (by decide) (by decide) (by decide) (by decide)))
/-- The transposed convolution weights, all five layers. -/
theorem wts_5 (c : Dev nD) :
    B5 m c main_v53 = transpose S5x256x256 [0, 2, 1] (m (c, main_arg5)) transposes_S5x256x256_S5x256x256_0_2_1 := by
  rw [← V5_eq]
  exact (ops04_v53 (V4 m c)).trans (congrArg (fun x => transpose S5x256x256 [0, 2, 1] x transposes_S5x256x256_S5x256x256_0_2_1)
    (arg_at5 m c main_arg5 (by decide) (by decide) (by decide) (by decide)))
/-- The output layer's weights: the argument's transpose. -/
theorem owts_5 (c : Dev nD) :
    B5 m c main_v54 = transpose S256x3 [1, 0] (m (c, main_arg7)) transposes_S3x256_S256x3_1_0 := by
  rw [← V5_eq]
  exact (ops04_v54 (V4 m c)).trans (congrArg (fun x => transpose S256x3 [1, 0] x transposes_S3x256_S256x3_1_0)
    (arg_at5 m c main_arg7 (by decide) (by decide) (by decide) (by decide)))
/-- The input layer's bias, as a row. -/
theorem in0_B (c : Dev nD) : B5 m c main_v56 = shapeCast S1x256 (m (c, main_arg4)) shapeCasts_S256_S1x256 := by
  rw [← V5_eq]
  exact (ops04_v56 (V4 m c)).trans (congrArg (fun x => shapeCast S1x256 x shapeCasts_S256_S1x256)
    (arg_at5 m c main_arg4 (by decide) (by decide) (by decide) (by decide)))
/-- The input layer's features: the padded feature array, flattened. -/
theorem in0_X (c : Dev nD) : B5 m c main_v55 = shapeCast S81920x515 (V4 m c main_v51) shapeCasts_S8x10240x515_S81920x515 := by
  rw [← V5_eq]
  exact ops04_v55 (V4 m c)
/-- The input layer's result. -/
theorem out0 (c : Dev nD) : B6 m c main_v57 = linG0 (B5 m c main_v55) (B5 m c main_v52) (B5 m c main_v56) := by
  unfold B6
  rw [Function.update_self]
  exact linArr0 (fun c b => B5 m c b) c
/-- The first linear layer reads the input layer's result (regrouped by batch and back). -/
theorem linX0 (c : Dev nD) : B7 m c main_v59 = B6 m c main_v57 := by
  unfold B7
  exact (ops1_v59 (B6 m c)).trans (shapeCast_shapeCast _ _ _)
theorem cbias_5 (c : Dev nD) : B5 m c main_arg6 = m (c, main_arg6) :=
  keep5 m c main_arg6 (by decide) (by decide) (by decide) (by decide) (by decide)
theorem obias_5 (c : Dev nD) : B5 m c main_arg8 = m (c, main_arg8) :=
  keep5 m c main_arg8 (by decide) (by decide) (by decide) (by decide) (by decide)
/-- Layer 0's weights: slice 0 of the transposed convolution weights. -/
theorem linW0 (c : Dev nD) : B7 m c main_v61 = shapeCast S256x256 (extractStridedSlice S1x256x256 ![0, 0, 0] (B5 m c main_v53) slices_S5x256x256_S1x256x256_0_0_0) shapeCasts_S1x256x256_S256x256 := by
  unfold B7
  exact (ops1_v61 (B6 m c)).trans (congrArg (fun x => shapeCast S256x256 (extractStridedSlice S1x256x256 ![0, 0, 0] (x) slices_S5x256x256_S1x256x256_0_0_0) shapeCasts_S1x256x256_S256x256) (wts_6 m c))
/-- Layer 0's linear map: the product of its input with its weights. -/
theorem linOut0 (c : Dev nD) : B8 m c main_v62 = linG1 (B7 m c main_v59) (B7 m c main_v61) := by
  unfold B8
  rw [Function.update_self]
  exact linArr1 (fun c b => B7 m c b) c
/-- Layer 0's aggregation reads the linear map's result regrouped into rows node, -/
theorem aggH0 (c : Dev nD) : B9 m c main_v65 = toAgg (B8 m c main_v62) := by
  unfold B9
  exact ops2_v65 (B8 m c)
/-- row 0 of the convolution biases repeated for the eight batches, -/
theorem aggT0 (c : Dev nD) : B9 m c main_v71 = tileOf (extractStridedSlice S1x256 ![0, 0] (m (c, main_arg6)) slices_S5x256_S1x256_0_0) := by
  unfold B9
  exact (ops2_v71 (B8 m c)).trans (congrArg (fun x => tileOf (extractStridedSlice S1x256 ![0, 0] (x) slices_S5x256_S1x256_0_0)) ((cbias_8 m c).trans (cbias_5 m c)))
/-- and the adjacency matrix as the first boundary holds it. -/
theorem aggA0 (c : Dev nD) : B9 m c main_v45 = B5 m c main_v45 := adj_9 m c
/-- Layer 1's linear map reads the previous aggregation's result, regrouped into rows (batch, node). -/
theorem linX1 (c : Dev nD) : B11 m c main_v75 = toLin (B10 m c main_v72) := by
  unfold B11
  exact ops3_v75 (B10 m c)
/-- Layer 1's weights: slice 1 of the transposed convolution weights. -/
theorem linW1 (c : Dev nD) : B11 m c main_v77 = shapeCast S256x256 (extractStridedSlice S1x256x256 ![1, 0, 0] (B5 m c main_v53) slices_S5x256x256_S1x256x256_1_0_0) shapeCasts_S1x256x256_S256x256 := by
  unfold B11
  exact (ops3_v77 (B10 m c)).trans (congrArg (fun x => shapeCast S256x256 (extractStridedSlice S1x256x256 ![1, 0, 0] (x) slices_S5x256x256_S1x256x256_1_0_0) shapeCasts_S1x256x256_S256x256) (wts_10 m c))
/-- Layer 1's linear map: the product of its input with its weights. -/
theorem linOut1 (c : Dev nD) : B12 m c main_v78 = linG3 (B11 m c main_v75) (B11 m c main_v77) := by
  unfold B12
  rw [Function.update_self]
  exact linArr3 (fun c b => B11 m c b) c
/-- Layer 1's aggregation reads the linear map's result regrouped into rows node, -/
theorem aggH1 (c : Dev nD) : B13 m c main_v81 = toAgg (B12 m c main_v78) := by
  unfold B13
  exact ops4_v81 (B12 m c)
/-- row 1 of the convolution biases repeated for the eight batches, -/
theorem aggT1 (c : Dev nD) : B13 m c main_v87 = tileOf (extractStridedSlice S1x256 ![1, 0] (m (c, main_arg6)) slices_S5x256_S1x256_1_0) := by
  unfold B13
  exact (ops4_v87 (B12 m c)).trans (congrArg (fun x => tileOf (extractStridedSlice S1x256 ![1, 0] (x) slices_S5x256_S1x256_1_0)) ((cbias_12 m c).trans (cbias_5 m c)))
/-- and the adjacency matrix as the first boundary holds it. -/
theorem aggA1 (c : Dev nD) : B13 m c main_v45 = B5 m c main_v45 := adj_13 m c
/-- Layer 2's linear map reads the previous aggregation's result, regrouped into rows (batch, node). -/
theorem linX2 (c : Dev nD) : B15 m c main_v91 = toLin (B14 m c main_v88) := by
  unfold B15
  exact ops5_v91 (B14 m c)
/-- Layer 2's weights: slice 2 of the transposed convolution weights. -/
theorem linW2 (c : Dev nD) : B15 m c main_v93 = shapeCast S256x256 (extractStridedSlice S1x256x256 ![2, 0, 0] (B5 m c main_v53) slices_S5x256x256_S1x256x256_2_0_0) shapeCasts_S1x256x256_S256x256 := by
  unfold B15
  exact (ops5_v93 (B14 m c)).trans (congrArg (fun x => shapeCast S256x256 (extractStridedSlice S1x256x256 ![2, 0, 0] (x) slices_S5x256x256_S1x256x256_2_0_0) shapeCasts_S1x256x256_S256x256) (wts_14 m c))
/-- Layer 2's linear map: the product of its input with its weights. -/
theorem linOut2 (c : Dev nD) : B16 m c main_v94 = linG5 (B15 m c main_v91) (B15 m c main_v93) := by
  unfold B16
  rw [Function.update_self]
  exact linArr5 (fun c b => B15 m c b) c
/-- Layer 2's aggregation reads the linear map's result regrouped into rows node, -/
theorem aggH2 (c : Dev nD) : B17 m c main_v97 = toAgg (B16 m c main_v94) := by
  unfold B17
  exact ops6_v97 (B16 m c)
/-- row 2 of the convolution biases repeated for the eight batches, -/
theorem aggT2 (c : Dev nD) : B17 m c main_v103 = tileOf (extractStridedSlice S1x256 ![2, 0] (m (c, main_arg6)) slices_S5x256_S1x256_2_0) := by
  unfold B17
  exact (ops6_v103 (B16 m c)).trans (congrArg (fun x => tileOf (extractStridedSlice S1x256 ![2, 0] (x) slices_S5x256_S1x256_2_0)) ((cbias_16 m c).trans (cbias_5 m c)))
/-- and the adjacency matrix as the first boundary holds it. -/
theorem aggA2 (c : Dev nD) : B17 m c main_v45 = B5 m c main_v45 := adj_17 m c
/-- Layer 3's linear map reads the previous aggregation's result, regrouped into rows (batch, node). -/
theorem linX3 (c : Dev nD) : B19 m c main_v107 = toLin (B18 m c main_v104) := by
  unfold B19
  exact ops7_v107 (B18 m c)
/-- Layer 3's weights: slice 3 of the transposed convolution weights. -/
theorem linW3 (c : Dev nD) : B19 m c main_v109 = shapeCast S256x256 (extractStridedSlice S1x256x256 ![3, 0, 0] (B5 m c main_v53) slices_S5x256x256_S1x256x256_3_0_0) shapeCasts_S1x256x256_S256x256 := by
  unfold B19
  exact (ops7_v109 (B18 m c)).trans (congrArg (fun x => shapeCast S256x256 (extractStridedSlice S1x256x256 ![3, 0, 0] (x) slices_S5x256x256_S1x256x256_3_0_0) shapeCasts_S1x256x256_S256x256) (wts_18 m c))
/-- Layer 3's linear map: the product of its input with its weights. -/
theorem linOut3 (c : Dev nD) : B20 m c main_v110 = linG7 (B19 m c main_v107) (B19 m c main_v109) := by
  unfold B20
  rw [Function.update_self]
  exact linArr7 (fun c b => B19 m c b) c
/-- Layer 3's aggregation reads the linear map's result regrouped into rows node, -/
theorem aggH3 (c : Dev nD) : B21 m c main_v113 = toAgg (B20 m c main_v110) := by
  unfold B21
  exact ops8_v113 (B20 m c)
/-- row 3 of the convolution biases repeated for the eight batches, -/
theorem aggT3 (c : Dev nD) : B21 m c main_v119 = tileOf (extractStridedSlice S1x256 ![3, 0] (m (c, main_arg6)) slices_S5x256_S1x256_3_0) := by
  unfold B21
  exact (ops8_v119 (B20 m c)).trans (congrArg (fun x => tileOf (extractStridedSlice S1x256 ![3, 0] (x) slices_S5x256_S1x256_3_0)) ((cbias_20 m c).trans (cbias_5 m c)))
/-- and the adjacency matrix as the first boundary holds it. -/
theorem aggA3 (c : Dev nD) : B21 m c main_v45 = B5 m c main_v45 := adj_21 m c
/-- Layer 4's linear map reads the previous aggregation's result, regrouped into rows (batch, node). -/
theorem linX4 (c : Dev nD) : B23 m c main_v123 = toLin (B22 m c main_v120) := by
  unfold B23
  exact ops9_v123 (B22 m c)
/-- Layer 4's weights: slice 4 of the transposed convolution weights. -/
theorem linW4 (c : Dev nD) : B23 m c main_v125 = shapeCast S256x256 (extractStridedSlice S1x256x256 ![4, 0, 0] (B5 m c main_v53) slices_S5x256x256_S1x256x256_4_0_0) shapeCasts_S1x256x256_S256x256 := by
  unfold B23
  exact (ops9_v125 (B22 m c)).trans (congrArg (fun x => shapeCast S256x256 (extractStridedSlice S1x256x256 ![4, 0, 0] (x) slices_S5x256x256_S1x256x256_4_0_0) shapeCasts_S1x256x256_S256x256) (wts_22 m c))
/-- Layer 4's linear map: the product of its input with its weights. -/
theorem linOut4 (c : Dev nD) : B24 m c main_v126 = linG9 (B23 m c main_v123) (B23 m c main_v125) := by
  unfold B24
  rw [Function.update_self]
  exact linArr9 (fun c b => B23 m c b) c
/-- Layer 4's aggregation reads the linear map's result regrouped into rows node, -/
theorem aggH4 (c : Dev nD) : B25 m c main_v129 = toAgg (B24 m c main_v126) := by
  unfold B25
  exact ops10_v129 (B24 m c)
/-- row 4 of the convolution biases repeated for the eight batches, -/
theorem aggT4 (c : Dev nD) : B25 m c main_v135 = tileOf (extractStridedSlice S1x256 ![4, 0] (m (c, main_arg6)) slices_S5x256_S1x256_4_0) := by
  unfold B25
  exact (ops10_v135 (B24 m c)).trans (congrArg (fun x => tileOf (extractStridedSlice S1x256 ![4, 0] (x) slices_S5x256_S1x256_4_0)) ((cbias_24 m c).trans (cbias_5 m c)))
/-- and the adjacency matrix as the first boundary holds it. -/
theorem aggA4 (c : Dev nD) : B25 m c main_v45 = B5 m c main_v45 := adj_25 m c
/-- The output layer reads the last aggregation's result, regrouped into rows (batch, node), -/
theorem outX (c : Dev nD) : B27 m c main_v139 = toLin (B26 m c main_v136) := by
  unfold B27
  exact ops11_v139 (B26 m c)
/-- the output weights' transpose, -/
theorem outW (c : Dev nD) : B27 m c main_v54 = transpose S256x3 [1, 0] (m (c, main_arg7)) transposes_S3x256_S256x3_1_0 :=
  (owts_27 m c).trans (owts_5 m c)
/-- and the output bias as a row. -/
theorem outB (c : Dev nD) : B27 m c main_v140 = shapeCast S1x3 (m (c, main_arg8)) shapeCasts_S3_S1x3 := by
  unfold B27
  exact (ops11_v140 (B26 m c)).trans (congrArg (fun x => shapeCast S1x3 x shapeCasts_S3_S1x3) ((obias_26 m c).trans (obias_5 m c)))
/-- The output layer's result. -/
theorem out11 (c : Dev nD) : B28 m c main_v141 = linG11 (B27 m c main_v139) (B27 m c main_v54) (B27 m c main_v140) := by
  unfold B28
  rw [Function.update_self]
  exact linArr11 (fun c b => B27 m c b) c
/-- THE RESULT BUFFER: the output layer's result regrouped by batch, its first 10000 nodes. -/
theorem result143 (c : Dev nD) : B29 m c main_v143 = extractStridedSlice S8x10000x3 ![0, 0, 0]
    (shapeCast S8x10240x3 (B28 m c main_v141) shapeCasts_S81920x3_S8x10240x3) slices_S8x10240x3_S8x10000x3_0_0_0 := by
  unfold B29
  exact ops12_v143 (B28 m c)

end Cert.KernelIdeal.Hand

end
-- ==== Proof.KernelEnds.lean ====
import proofs.«169470_j5557687681111_1_alg».proof.Proof.Gen.KernelIdeal.Launch
import proofs.«169470_j5557687681111_1_alg».proof.Proof.Spec
import Idealize.ShloMosaic.Lib.Pipeline.Value
import Idealize.ShloMosaic.Lib.ValueIdx
import Idealize.ShloMosaic.Lib.KernelVsHost
import Idealize.ShloMosaic.PureOps.Ideal.Laws
import Idealize.ShloMosaic.Lib.Tactic

/-!
The two ends of the network and the per-layer operands, at an index, over plain operands.

The input layer's features are each node's three coordinates joined to its batch's 512 latent features, padded from
10000 to 10240 nodes per batch with zeros and flattened to 81920 rows; the weights of every layer are read transposed;
a convolution layer's bias row is repeated for the eight batches. Each is a composition of layout operations, read
here at one index.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open scoped BigOperators

/-! ## The weights and the bias row of a convolution layer, at an index -/

/-- Layer l's weight matrix as the linear layer reads it, at (k, o): the argument's entry (l, o, k). -/
theorem weightAt (l : ℕ) (hl : l < 5) (hs : S5x256x256.Slices ![l, 0, 0] S1x256x256) (Wc : S5x256x256.Idx → EReal)
    (k o : Fin 256) :
    (shapeCast S256x256 (extractStridedSlice S1x256x256 ![l, 0, 0]
      (transpose S5x256x256 [0, 2, 1] Wc transposes_S5x256x256_S5x256x256_0_2_1) hs)
      shapeCasts_S1x256x256_S256x256 : S256x256.Idx → EReal) (ix2 k o) = Wc (ix3 (⟨l, hl⟩ : Fin 5) o k) := by
  refine (shapeCast_apply _ shapeCasts_S1x256x256_S256x256 (ix2 k o) (ix3 (0 : Fin 1) k o) ?_).trans ?_
  · rw [Shape.rowMajor_val_three, Shape.rowMajor_val_two]
    show (0 * 256 + k.val) * 256 + o.val = k.val * 256 + o.val
    omega
  refine (extractStridedSlice_apply ![l, 0, 0] _ hs (ix3 (0 : Fin 1) k o) (ix3 (⟨l, hl⟩ : Fin 5) k o) (fun a => match a with
      | ⟨0, _⟩ => by show l = l + 0; omega
      | ⟨1, _⟩ => by show k.val = 0 + k.val; omega
      | ⟨2, _⟩ => by show o.val = 0 + o.val; omega)).trans ?_
  exact transpose_apply [0, 2, 1] Wc transposes_S5x256x256_S5x256x256_0_2_1 (ix3 (⟨l, hl⟩ : Fin 5) k o)
    (ix3 (⟨l, hl⟩ : Fin 5) o k) (fun b => match b with
      | ⟨0, _⟩ => rfl
      | ⟨1, _⟩ => rfl
      | ⟨2, _⟩ => rfl)

/-- Layer l's bias row repeated for the eight batches, at column (b, o): the argument's entry (l, o). -/
theorem tileAt (l : ℕ) (hl : l < 5) (hs : S5x256.Slices ![l, 0] S1x256) (bc : S5x256.Idx → EReal) (b : Fin 8) (o : Fin 256) :
    (shapeCast S1x2048 (shapeCast S2048 (broadcastInDim S8x256 ![0, 1] bcast_S1x256_S8x256_0_1
      (shapeCast S1x256 (shapeCast S256 (extractStridedSlice S1x256 ![l, 0] bc hs) shapeCasts_S1x256_S256) shapeCasts_S256_S1x256))
      shapeCasts_S8x256_S2048) shapeCasts_S2048_S1x2048 : S1x2048.Idx → EReal)
      (ix2 (0 : Fin 1) (⟨b.val * 256 + o.val, by have := b.isLt; have := o.isLt; omega⟩ : Fin 2048))
      = bc (ix2 (⟨l, hl⟩ : Fin 5) o) := by
  have hb := b.isLt
  have ho := o.isLt
  refine (shapeCast_apply _ shapeCasts_S2048_S1x2048 _ (ix1 (⟨b.val * 256 + o.val, by omega⟩ : Fin 2048)) ?_).trans ?_
  · rw [Shape.rowMajor_val_two, Shape.rowMajor_val_one]
    show b.val * 256 + o.val = 0 * 2048 + (b.val * 256 + o.val)
    omega
  refine (shapeCast_apply _ shapeCasts_S8x256_S2048 _ (ix2 b o) ?_).trans ?_
  · rw [Shape.rowMajor_val_two, Shape.rowMajor_val_one]
    rfl
  refine (broadcastInDim_apply ![0, 1] bcast_S1x256_S8x256_0_1 _ (ix2 b o) (ix2 (0 : Fin 1) o) (fun a => match a with
      | ⟨0, _⟩ => by show (0 : ℕ) = if (1 : ℕ) = 1 then 0 else b.val; rw [if_pos rfl]
      | ⟨1, _⟩ => by show o.val = if (256 : ℕ) = 1 then 0 else o.val; rw [if_neg (by decide)])).trans ?_
  refine (shapeCast_apply _ shapeCasts_S256_S1x256 (ix2 (0 : Fin 1) o) (ix1 o) ?_).trans ?_
  · rw [Shape.rowMajor_val_two, Shape.rowMajor_val_one]
    show o.val = 0 * 256 + o.val
    omega
  refine (shapeCast_apply _ shapeCasts_S1x256_S256 (ix1 o) (ix2 (0 : Fin 1) o) ?_).trans ?_
  · rw [Shape.rowMajor_val_two, Shape.rowMajor_val_one]
    show 0 * 256 + o.val = o.val
    omega
  exact extractStridedSlice_apply ![l, 0] bc hs (ix2 (0 : Fin 1) o) (ix2 (⟨l, hl⟩ : Fin 5) o) (fun a => match a with
      | ⟨0, _⟩ => by show l = l + 0; omega
      | ⟨1, _⟩ => by show o.val = 0 + o.val; omega)

/-! ## The host stretches that build the features, read at any valuation -/

set_option maxHeartbeats 4000000 in
/-- The feature array: each node's coordinates joined to its batch's latent features. -/
theorem ops02_v50 (ρ : Valuation τ sig (Elt Ideal)) :
    StableHlo.after hostOps0_2 ρ (Proc.devRef .tc main_v50)
      = concatenate S8x10000x515 2
          [⟨S8x10000x3, broadcastInDim S8x10000x3 ![0, 1, 2] bcast_S1x10000x3_S8x10000x3_0_1_2
              (broadcastInDim S1x10000x3 ![1, 2] bcast_S10000x3_S1x10000x3_1_2 (ρ main_arg0))⟩,
           ⟨S8x10000x512, broadcastInDim S8x10000x512 ![0, 1, 2] bcast_S8x1x512_S8x10000x512_0_1_2
              (broadcastInDim S8x1x512 ![0, 2] bcast_S8x512_S8x1x512_0_2 (ρ main_arg1))⟩]
          concatenates_S8x10000x3_S8x10000x512_S8x10000x515_d2 := by
  after_results <;> rfl

set_option maxHeartbeats 4000000 in
/-- The integer zero the padding value is converted from. -/
theorem ops02_c11 (ρ : Valuation τ sig (Elt Ideal)) :
    StableHlo.after hostOps0_2 ρ (Proc.devRef .tc main_c_11) = constantI S_ 32 0#32 := by
  after_results <;> rfl

/-- The padded feature array: the features padded with the converted integer zero. -/
theorem ops03_v51 (ρ : Valuation τ sig (Elt Ideal)) :
    StableHlo.after hostOps0_3 ρ (Proc.devRef .tc main_v51)
      = pad S8x10240x515 ![0, 0, 0] ![0, 240, 0] ![0, 0, 0] (ρ main_v50) (sitofp .f32 (ρ main_c_11) : FVec Ideal S_ .f32)
          pads_S8x10000x515_S8x10240x515_000_02400_000 h_S_ := by
  after_results <;> rfl

/-! ## The features at an index -/

/-- The feature array over plain operands. -/
abbrev featArr (xyz : S10000x3.Idx → EReal) (lat : S8x512.Idx → EReal) : S8x10000x515.Idx → EReal :=
  concatenate S8x10000x515 2
    [⟨S8x10000x3, broadcastInDim S8x10000x3 ![0, 1, 2] bcast_S1x10000x3_S8x10000x3_0_1_2
        (broadcastInDim S1x10000x3 ![1, 2] bcast_S10000x3_S1x10000x3_1_2 xyz)⟩,
     ⟨S8x10000x512, broadcastInDim S8x10000x512 ![0, 1, 2] bcast_S8x1x512_S8x10000x512_0_1_2
        (broadcastInDim S8x1x512 ![0, 2] bcast_S8x512_S8x1x512_0_2 lat)⟩]
    concatenates_S8x10000x3_S8x10000x512_S8x10000x515_d2

/-- Feature f of node v in batch b: a coordinate of the node for f < 3, a latent feature of the batch after. -/
theorem featArr_apply (xyz : S10000x3.Idx → EReal) (lat : S8x512.Idx → EReal) (b : Fin 8) (v : Fin 10000) (f : Fin 515) :
    featArr xyz lat (ix3 b v f) = Cert.Spec.feat xyz lat b v f := by
  unfold Cert.Spec.feat
  by_cases h : f.val < 3
  · rw [dif_pos h]
    refine (concatenate_pair_apply_left (2 : Fin S8x10000x515.rank) _ _ concatenates_S8x10000x3_S8x10000x512_S8x10000x515_d2
      (ix3 b v f) rfl (ix3 b v (⟨f.val, h⟩ : Fin 3)) (fun a => match a with
        | ⟨0, _⟩ => rfl
        | ⟨1, _⟩ => rfl
        | ⟨2, _⟩ => rfl)).trans ?_
    refine (broadcastInDim_apply ![0, 1, 2] bcast_S1x10000x3_S8x10000x3_0_1_2 _ (ix3 b v (⟨f.val, h⟩ : Fin 3))
      (ix3 (0 : Fin 1) v (⟨f.val, h⟩ : Fin 3)) (fun a => match a with
        | ⟨0, _⟩ => by show (0 : ℕ) = if (1 : ℕ) = 1 then 0 else b.val; rw [if_pos rfl]
        | ⟨1, _⟩ => by show v.val = if (10000 : ℕ) = 1 then 0 else v.val; rw [if_neg (by decide)]
        | ⟨2, _⟩ => by show f.val = if (3 : ℕ) = 1 then 0 else f.val; rw [if_neg (by decide)])).trans ?_
    exact broadcastInDim_apply ![1, 2] bcast_S10000x3_S1x10000x3_1_2 xyz (ix3 (0 : Fin 1) v (⟨f.val, h⟩ : Fin 3))
      (ix2 v (⟨f.val, h⟩ : Fin 3)) (fun a => match a with
        | ⟨0, _⟩ => by show v.val = if (10000 : ℕ) = 1 then 0 else v.val; rw [if_neg (by decide)]
        | ⟨1, _⟩ => by show f.val = if (3 : ℕ) = 1 then 0 else f.val; rw [if_neg (by decide)])
  · rw [dif_neg h]
    have hf := f.isLt
    refine (concatenate_pair_apply_right (2 : Fin S8x10000x515.rank) _ _ concatenates_S8x10000x3_S8x10000x512_S8x10000x515_d2
      (ix3 b v f) rfl rfl (ix3 b v (⟨f.val - 3, by omega⟩ : Fin 512)) (fun a ha => match a with
        | ⟨0, _⟩ => rfl
        | ⟨1, _⟩ => rfl
        | ⟨2, _⟩ => absurd rfl ha) (by show (f.val - 3) + 3 = f.val; omega)).trans ?_
    refine (broadcastInDim_apply ![0, 1, 2] bcast_S8x1x512_S8x10000x512_0_1_2 _ (ix3 b v (⟨f.val - 3, by omega⟩ : Fin 512))
      (ix3 b (0 : Fin 1) (⟨f.val - 3, by omega⟩ : Fin 512)) (fun a => match a with
        | ⟨0, _⟩ => by show b.val = if (8 : ℕ) = 1 then 0 else b.val; rw [if_neg (by decide)]
        | ⟨1, _⟩ => by show (0 : ℕ) = if (1 : ℕ) = 1 then 0 else v.val; rw [if_pos rfl]
        | ⟨2, _⟩ => by show f.val - 3 = if (512 : ℕ) = 1 then 0 else f.val - 3; rw [if_neg (by decide)])).trans ?_
    exact broadcastInDim_apply ![0, 2] bcast_S8x512_S8x1x512_0_2 lat (ix3 b (0 : Fin 1) (⟨f.val - 3, by omega⟩ : Fin 512))
      (ix2 b (⟨f.val - 3, by omega⟩ : Fin 512)) (fun a => match a with
        | ⟨0, _⟩ => by show b.val = if (8 : ℕ) = 1 then 0 else b.val; rw [if_neg (by decide)]
        | ⟨1, _⟩ => by show f.val - 3 = if (512 : ℕ) = 1 then 0 else f.val - 3; rw [if_neg (by decide)])

/-- The features as the input layer reads them: padded to 10240 nodes per batch with the converted integer zero,
    and flattened to rows (batch, node). -/
abbrev padFeat (xyz : S10000x3.Idx → EReal) (lat : S8x512.Idx → EReal) : S81920x515.Idx → EReal :=
  shapeCast S81920x515
    (pad S8x10240x515 ![0, 0, 0] ![0, 240, 0] ![0, 0, 0] (featArr xyz lat)
      (sitofp .f32 (constantI S_ 32 0#32) : FVec Ideal S_ .f32) pads_S8x10000x515_S8x10240x515_000_02400_000 h_S_)
    shapeCasts_S8x10240x515_S81920x515

/-- Row b·10240 + v is row (b, v) of the padded array. -/
theorem padFeat_row (xyz : S10000x3.Idx → EReal) (lat : S8x512.Idx → EReal) (b : Fin 8) (v : Fin 10240) (f : Fin 515) :
    padFeat xyz lat (ix2 (⟨b.val * 10240 + v.val, by have := b.isLt; have := v.isLt; omega⟩ : Fin 81920) f)
      = pad S8x10240x515 ![0, 0, 0] ![0, 240, 0] ![0, 0, 0] (featArr xyz lat)
          (sitofp .f32 (constantI S_ 32 0#32) : FVec Ideal S_ .f32) pads_S8x10000x515_S8x10240x515_000_02400_000 h_S_
          (ix3 b v f) := by
  refine shapeCast_apply _ shapeCasts_S8x10240x515_S81920x515 _ (ix3 b v f) ?_
  rw [Shape.rowMajor_val_three, Shape.rowMajor_val_two]
  rfl

/-- At a node the padded features are the node's features. -/
theorem padFeat_node (xyz : S10000x3.Idx → EReal) (lat : S8x512.Idx → EReal) (b : Fin 8) (v : Fin 10000) (f : Fin 515) :
    padFeat xyz lat (ix2 (⟨b.val * 10240 + v.val, by have := b.isLt; have := v.isLt; omega⟩ : Fin 81920) f)
      = Cert.Spec.feat xyz lat b v f := by
  have hv := v.isLt
  refine (padFeat_row xyz lat b (⟨v.val, by omega⟩ : Fin 10240) f).trans ?_
  refine (pad_apply_of_inside ![0, 0, 0] ![0, 240, 0] ![0, 0, 0] _ _ pads_S8x10000x515_S8x10240x515_000_02400_000 h_S_
    (ix3 b (⟨v.val, by omega⟩ : Fin 10240) f) (ix3 b v f) (fun a => match a with
      | ⟨0, _⟩ => by show b.val = 0 + b.val * (0 + 1); omega
      | ⟨1, _⟩ => by show v.val = 0 + v.val * (0 + 1); omega
      | ⟨2, _⟩ => by show f.val = 0 + f.val * (0 + 1); omega)).trans ?_
  exact featArr_apply xyz lat b v f

/-- On a padding row the padded features are zero. -/
theorem padFeat_pad (xyz : S10000x3.Idx → EReal) (lat : S8x512.Idx → EReal) (b : Fin 8) (v : Fin 10240) (hv : 10000 ≤ v.val)
    (f : Fin 515) :
    padFeat xyz lat (ix2 (⟨b.val * 10240 + v.val, by have := b.isLt; have := v.isLt; omega⟩ : Fin 81920) f) = 0 := by
  refine (padFeat_row xyz lat b v f).trans ?_
  refine (pad_apply_of_not_inside ![0, 0, 0] ![0, 240, 0] ![0, 0, 0] _ _ pads_S8x10000x515_S8x10240x515_000_02400_000 h_S_
    (ix3 b v f) (1 : Fin S8x10000x515.rank) (fun h => ?_)).trans ?_
  · have h2 : (v.val - 0) / (0 + 1) < 10000 := h.2.2
    omega
  · show (((0#32 : BitVec 32).toInt : ℝ) : EReal) = 0
    have z : (0#32 : BitVec 32).toInt = 0 := by decide
    rw [z]
    simp

/-! ## Real numbers among the extended reals -/

theorem re_add {x y : EReal} (hx : ∃ r : ℝ, x = (r : EReal)) (hy : ∃ r : ℝ, y = (r : EReal)) : ∃ r : ℝ, x + y = (r : EReal) := by
  obtain ⟨a, rfl⟩ := hx; obtain ⟨b, rfl⟩ := hy; exact ⟨a + b, (EReal.coe_add a b).symm⟩

theorem re_mul {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩

theorem re_max {x y : EReal} (hx : ∃ r : ℝ, x = (r : EReal)) (hy : ∃ r : ℝ, y = (r : EReal)) : ∃ r : ℝ, max x y = (r : EReal) := by
  obtain ⟨a, rfl⟩ := hx; obtain ⟨b, rfl⟩ := hy
  exact ⟨max a b, (EReal.coe_strictMono.monotone.map_max).symm⟩

theorem re_sum {ι : Type*} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by simp⟩
  | insert a t ha ih =>
    rw [Finset.sum_insert ha]
    exact re_add (h a (Finset.mem_insert_self a t)) (ih fun i hi => h i (Finset.mem_insert_of_mem hi))

/-- The zero a rectifier compares with is the real zero. -/
theorem re_zero : ∃ r : ℝ, (Scalar.ofBits (F := Ideal) .f32 0x00000000#32 : EReal) = (r : EReal) :=
  ⟨0, by show Ideal.ofBits .f32 0x00000000#32 = _; rw [Ideal.ofBits_zero_f32]; rfl⟩

/-- Every row index of an array of 81920 rows is (batch, node): b·10240 + v. -/
theorem row_bv (r : Fin 81920) : ∃ (b : Fin 8) (v : Fin 10240), r = ⟨b.val * 10240 + v.val, by have := b.isLt; have := v.isLt; omega⟩ := by
  have hr := r.isLt
  exact ⟨⟨r.val / 10240, by omega⟩, ⟨r.val % 10240, Nat.mod_lt _ (by decide)⟩, Fin.ext (by show r.val = r.val / 10240 * 10240 + r.val % 10240; omega)⟩

/-- Every padded feature is real when the coordinates and the latent features are. -/
theorem padFeat_real (xyz : S10000x3.Idx → EReal) (lat : S8x512.Idx → EReal)
    (hx : ∀ i, ∃ r : ℝ, xyz i = (r : EReal)) (hl : ∀ i, ∃ r : ℝ, lat i = (r : EReal)) (j : S81920x515.Idx) :
    ∃ r : ℝ, padFeat xyz lat j = (r : EReal) := by
  obtain ⟨p, f, rfl⟩ : ∃ (p : Fin 81920) (f : Fin 515), j = ix2 p f := ⟨j 0, j 1, eq_ix2 j⟩
  obtain ⟨b, v, rfl⟩ := row_bv p
  by_cases hv : v.val < 10000
  · have e := padFeat_node xyz lat b (⟨v.val, hv⟩ : Fin 10000) f
    rw [e]
    unfold Cert.Spec.feat
    split
    · exact hx _
    · exact hl _
  · rw [padFeat_pad xyz lat b v (by omega) f]
    exact ⟨0, rfl⟩

/-! ## The input layer over plain operands -/

/-- The input layer's weights as the layer reads them, at (f, o): the argument's entry (o, f). -/
theorem inW_apply (Win : S256x515.Idx → EReal) (f : Fin 515) (o : Fin 256) :
    (transpose S515x256 [1, 0] Win transposes_S256x515_S515x256_1_0 : S515x256.Idx → EReal) (ix2 f o) = Win (ix2 o f) :=
  transpose_apply [1, 0] Win transposes_S256x515_S515x256_1_0 (ix2 f o) (ix2 o f) (fun b => match b with
    | ⟨0, _⟩ => rfl
    | ⟨1, _⟩ => rfl)

/-- The input layer's bias as a row, at column o. -/
theorem inB_apply (bin : S256.Idx → EReal) (o : Fin 256) :
    (shapeCast S1x256 bin shapeCasts_S256_S1x256 : S1x256.Idx → EReal) (ix2 (0 : Fin 1) o) = bin (ix1 o) := by
  refine shapeCast_apply _ shapeCasts_S256_S1x256 (ix2 (0 : Fin 1) o) (ix1 o) ?_
  rw [Shape.rowMajor_val_two, Shape.rowMajor_val_one]
  show o.val = 0 * 256 + o.val
  omega

/-- The input layer at a node is the specification's. -/
theorem inLayer_node (xyz : S10000x3.Idx → EReal) (lat : S8x512.Idx → EReal) (Win : S256x515.Idx → EReal)
    (bin : S256.Idx → EReal) (b : Fin 8) (v : Fin 10000) (o : Fin 256) :
    max ((∑ f : Fin 515, padFeat xyz lat (ix2 (⟨b.val * 10240 + v.val, by have := b.isLt; have := v.isLt; omega⟩ : Fin 81920) f)
        * (transpose S515x256 [1, 0] Win transposes_S256x515_S515x256_1_0 : S515x256.Idx → EReal) (ix2 f o))
      + (shapeCast S1x256 bin shapeCasts_S256_S1x256 : S1x256.Idx → EReal) (ix2 (0 : Fin 1) o))
      (Scalar.ofBits (F := Ideal) .f32 0x00000000#32)
      = Cert.Spec.hid0 xyz lat Win bin b v o := by
  unfold Cert.Spec.hid0
  rw [inB_apply]
  refine congrArg (fun s => max (s + bin (ix1 o)) (Scalar.ofBits (F := Ideal) .f32 0x00000000#32))
    (Finset.sum_congr rfl fun f _ => ?_)
  rw [padFeat_node, inW_apply]

/-- Every entry of the input layer's result is real when the arguments are. -/
theorem inLayer_real (xyz : S10000x3.Idx → EReal) (lat : S8x512.Idx → EReal) (Win : S256x515.Idx → EReal)
    (bin : S256.Idx → EReal) (hx : ∀ i, ∃ r : ℝ, xyz i = (r : EReal)) (hl : ∀ i, ∃ r : ℝ, lat i = (r : EReal))
    (hW : ∀ i, ∃ r : ℝ, Win i = (r : EReal)) (hb : ∀ i, ∃ r : ℝ, bin i = (r : EReal)) (p : Fin 81920) (o : Fin 256) :
    ∃ r : ℝ, max ((∑ f : Fin 515, padFeat xyz lat (ix2 p f)
        * (transpose S515x256 [1, 0] Win transposes_S256x515_S515x256_1_0 : S515x256.Idx → EReal) (ix2 f o))
      + (shapeCast S1x256 bin shapeCasts_S256_S1x256 : S1x256.Idx → EReal) (ix2 (0 : Fin 1) o))
      (Scalar.ofBits (F := Ideal) .f32 0x00000000#32) = (r : EReal) := by
  refine re_max (re_add (re_sum _ _ fun f _ => re_mul (padFeat_real xyz lat hx hl _) ?_) ?_) re_zero
  · rw [inW_apply]; exact hW _
  · rw [inB_apply]; exact hb _

/-! ## The output layer over plain operands -/

/-- The output layer's weights as the layer reads them, at (k, o): the argument's entry (o, k). -/
theorem outW_apply (Wo : S3x256.Idx → EReal) (k : Fin 256) (o : Fin 3) :
    (transpose S256x3 [1, 0] Wo transposes_S3x256_S256x3_1_0 : S256x3.Idx → EReal) (ix2 k o) = Wo (ix2 o k) :=
  transpose_apply [1, 0] Wo transposes_S3x256_S256x3_1_0 (ix2 k o) (ix2 o k) (fun b => match b with
    | ⟨0, _⟩ => rfl
    | ⟨1, _⟩ => rfl)

/-- The output layer's bias as a row, at column o. -/
theorem outB_apply (bo : S3.Idx → EReal) (o : Fin 3) :
    (shapeCast S1x3 bo shapeCasts_S3_S1x3 : S1x3.Idx → EReal) (ix2 (0 : Fin 1) o) = bo (ix1 o) := by
  refine shapeCast_apply _ shapeCasts_S3_S1x3 (ix2 (0 : Fin 1) o) (ix1 o) ?_
  rw [Shape.rowMajor_val_two, Shape.rowMajor_val_one]
  show o.val = 0 * 3 + o.val
  omega

/-- The result buffer at (b, v, o): the output layer's array at row b·10240 + v, column o. -/
theorem resultSlice_apply (R : S81920x3.Idx → EReal) (b : Fin 8) (v : Fin 10000) (o : Fin 3) :
    (extractStridedSlice S8x10000x3 ![0, 0, 0] (shapeCast S8x10240x3 R shapeCasts_S81920x3_S8x10240x3)
      slices_S8x10240x3_S8x10000x3_0_0_0 : S8x10000x3.Idx → EReal) (ix3 b v o)
      = R (ix2 (⟨b.val * 10240 + v.val, by have := b.isLt; have := v.isLt; omega⟩ : Fin 81920) o) := by
  have hv := v.isLt
  refine (extractStridedSlice_apply ![0, 0, 0] _ slices_S8x10240x3_S8x10000x3_0_0_0 (ix3 b v o)
    (ix3 b (⟨v.val, by omega⟩ : Fin 10240) o) (fun a => match a with
      | ⟨0, _⟩ => by show b.val = 0 + b.val; omega
      | ⟨1, _⟩ => by show v.val = 0 + v.val; omega
      | ⟨2, _⟩ => by show o.val = 0 + o.val; omega)).trans ?_
  refine shapeCast_apply _ shapeCasts_S81920x3_S8x10240x3 _ _ ?_
  rw [Shape.rowMajor_val_three, Shape.rowMajor_val_two]
  rfl

end Cert.KernelIdeal.Hand

end
-- ==== Proof.LibDenseAdj.lean ====
import Mathlib.Data.EReal.Inv
import Mathlib.Algebra.BigOperators.Fin
import Mathlib.Algebra.BigOperators.Ring.Finset
import Mathlib.Data.Fintype.BigOperators
import Mathlib.Logic.Equiv.Fin.Basic

/-!
A dense matrix built by scatter-adding edge weights, multiplied by a column, is gather–scale–scatter-add.

Let E (edges) and N (nodes) be finite index types, s d : E → N the source and destination of each edge,
w : E → EReal a weight per edge and H : N → EReal a value per node, ALL REAL (no infinity). The dense matrix
A v u := ∑ e, if d e = v ∧ s e = u then w e else 0 collects into entry (v, u) the weights of the edges u → v.
Then row v of the product A · H is the sum over the edges into v of the source's value times the edge's weight:
∑ u, A v u * H u = ∑ e, if d e = v then H (s e) * w e else 0. On the extended reals multiplication distributes
over a sum only off the infinities, which is why every value is taken real; the proof moves the statement to
the reals, where it is an exchange of two finite sums.

Also: the same product taken over a larger index type N' ⊇ N (an injection ι : N → N'), the matrix being zero
off the image; that the matrix and the product are real; and the regrouping of a sum over Fin (m * n) into m
consecutive blocks of n terms, added up from the left starting at zero.
-/

namespace Cert.LibDenseAdj

open scoped BigOperators

/-! ## The reals inside the extended reals -/

/-- The embedding of the reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The embedding of the reals commutes with a choice between a real and zero. -/
theorem coe_ite_zero (c : Prop) [Decidable c] (a : ℝ) :
    ((if c then a else 0 : ℝ) : EReal) = if c then (a : EReal) else 0 := by
  split_ifs <;> simp

/-! ## The dense matrix -/

/-- The scatter-add of the edge weights into a dense matrix: entry (v, u) is the sum of the weights of the
    edges with destination v and source u. -/
noncomputable def adj {E N : Type*} [Fintype E] [DecidableEq N] (s d : E → N) (w : E → EReal) (v u : N) : EReal :=
  ∑ e, if d e = v ∧ s e = u then w e else 0

/-- At real weights every entry of the dense matrix is real: it is the same sum taken on the reals. -/
theorem adj_real {E N : Type*} [Fintype E] [DecidableEq N] (s d : E → N) (w : E → EReal)
    (hw : ∀ e, ∃ r : ℝ, w e = (r : EReal)) (v u : N) : ∃ r : ℝ, adj s d w v u = (r : EReal) := by
  choose wr hwr using hw
  refine ⟨∑ e, if d e = v ∧ s e = u then wr e else 0, ?_⟩
  rw [coe_sum]
  exact Finset.sum_congr rfl fun e _ => by rw [coe_ite_zero, hwr e]

/-- On the reals: the dense product is gather–scale–scatter-add. -/
theorem real_dense_mul {E N : Type*} [Fintype E] [Fintype N] [DecidableEq N]
    (s d : E → N) (w : E → ℝ) (H : N → ℝ) (v : N) :
    ∑ u, (∑ e, if d e = v ∧ s e = u then w e else 0) * H u = ∑ e, if d e = v then H (s e) * w e else 0 := by
  simp_rw [Finset.sum_mul]
  rw [Finset.sum_comm]
  refine Finset.sum_congr rfl fun e _ => ?_
  by_cases hd : d e = v
  · simp [hd, mul_comm]
  · simp [hd]

/-- THE DENSE PRODUCT IS GATHER–SCALE–SCATTER-ADD, on the extended reals at real values. -/
theorem dense_mul {E N : Type*} [Fintype E] [Fintype N] [DecidableEq N]
    (s d : E → N) (w : E → EReal) (H : N → EReal)
    (hw : ∀ e, ∃ r : ℝ, w e = (r : EReal)) (hH : ∀ u, ∃ r : ℝ, H u = (r : EReal)) (v : N) :
    ∑ u, (∑ e, if d e = v ∧ s e = u then w e else 0) * H u = ∑ e, if d e = v then H (s e) * w e else 0 := by
  choose wr hwr using hw
  choose Hr hHr using hH
  have hL : ∀ u, (∑ e, if d e = v ∧ s e = u then w e else 0) * H u
      = (((∑ e, if d e = v ∧ s e = u then wr e else 0) * Hr u : ℝ) : EReal) := fun u => by
    rw [EReal.coe_mul, coe_sum, hHr u]
    congr 1
    exact Finset.sum_congr rfl fun e _ => by rw [coe_ite_zero, hwr e]
  have hR : ∀ e, (if d e = v then H (s e) * w e else 0)
      = ((if d e = v then Hr (s e) * wr e else 0 : ℝ) : EReal) := fun e => by
    rw [coe_ite_zero, EReal.coe_mul, hHr (s e), hwr e]
  simp_rw [hL, hR, ← coe_sum, real_dense_mul]

/-- The same with both sums written over the edges that qualify (a filtered sum adds the same terms). -/
theorem dense_mul_filter {E N : Type*} [Fintype E] [Fintype N] [DecidableEq N]
    (s d : E → N) (w : E → EReal) (H : N → EReal)
    (hw : ∀ e, ∃ r : ℝ, w e = (r : EReal)) (hH : ∀ u, ∃ r : ℝ, H u = (r : EReal)) (v : N) :
    ∑ u, (∑ e ∈ Finset.univ.filter (fun e => d e = v ∧ s e = u), w e) * H u
      = ∑ e ∈ Finset.univ.filter (fun e => d e = v), H (s e) * w e := by
  simp_rw [Finset.sum_filter]
  exact dense_mul s d w H hw hH v

/-- The same, the matrix by its name. -/
theorem adj_mul {E N : Type*} [Fintype E] [Fintype N] [DecidableEq N]
    (s d : E → N) (w : E → EReal) (H : N → EReal)
    (hw : ∀ e, ∃ r : ℝ, w e = (r : EReal)) (hH : ∀ u, ∃ r : ℝ, H u = (r : EReal)) (v : N) :
    ∑ u, adj s d w v u * H u = ∑ e, if d e = v then H (s e) * w e else 0 :=
  dense_mul s d w H hw hH v

/-- The product is real. -/
theorem dense_mul_real {E N : Type*} [Fintype E] [Fintype N] [DecidableEq N]
    (s d : E → N) (w : E → EReal) (H : N → EReal)
    (hw : ∀ e, ∃ r : ℝ, w e = (r : EReal)) (hH : ∀ u, ∃ r : ℝ, H u = (r : EReal)) (v : N) :
    ∃ r : ℝ, ∑ u, (∑ e, if d e = v ∧ s e = u then w e else 0) * H u = (r : EReal) := by
  rw [dense_mul s d w H hw hH v]
  choose wr hwr using hw
  choose Hr hHr using hH
  refine ⟨∑ e, if d e = v then Hr (s e) * wr e else 0, ?_⟩
  rw [coe_sum]
  exact Finset.sum_congr rfl fun e _ => by rw [coe_ite_zero, EReal.coe_mul, hHr (s e), hwr e]

/-! ## The padded matrix -/

/-- THE PADDED PRODUCT. The nodes sit inside a larger index type N' by an injection ι; a matrix A' over N'
    agrees with the dense matrix on the image and is zero in every column off the image (at the rows of the
    image); the column H' is real on the image and arbitrary elsewhere. Then the row of A' · H' at an image
    row ι v is the same gather–scale–scatter-add. -/
theorem padded_mul {E N N' : Type*} [Fintype E] [Fintype N] [Fintype N'] [DecidableEq N]
    (ι : N → N') (hι : Function.Injective ι) (s d : E → N) (w : E → EReal) (H' : N' → EReal) (A' : N' → N' → EReal)
    (hw : ∀ e, ∃ r : ℝ, w e = (r : EReal)) (hH : ∀ u, ∃ r : ℝ, H' (ι u) = (r : EReal))
    (hA : ∀ v u, A' (ι v) (ι u) = ∑ e, if d e = v ∧ s e = u then w e else 0)
    (hA0 : ∀ v u', u' ∉ Set.range ι → A' (ι v) u' = 0) (v : N) :
    ∑ u', A' (ι v) u' * H' u' = ∑ e, if d e = v then H' (ι (s e)) * w e else 0 := by
  rw [← dense_mul s d w (fun u => H' (ι u)) hw hH v]
  symm
  refine Fintype.sum_of_injective ι hι _ _ (fun u' hu' => ?_) (fun u => ?_)
  · rw [hA0 v u' hu', zero_mul]
  · rw [hA]

/-- THE PADDED PRODUCT, the matrix scattered directly over the larger index type: the edges' ends are sent
    into N' by the injection ι, and the scatter-add is taken there. -/
theorem padded_scatter_mul {E N N' : Type*} [Fintype E] [Fintype N'] [DecidableEq N] [DecidableEq N']
    (ι : N → N') (hι : Function.Injective ι) (s d : E → N) (w : E → EReal) (H' : N' → EReal)
    (hw : ∀ e, ∃ r : ℝ, w e = (r : EReal)) (hH : ∀ u', ∃ r : ℝ, H' u' = (r : EReal)) (v : N) :
    ∑ u', (∑ e, if ι (d e) = ι v ∧ ι (s e) = u' then w e else 0) * H' u'
      = ∑ e, if d e = v then H' (ι (s e)) * w e else 0 := by
  rw [dense_mul (fun e => ι (s e)) (fun e => ι (d e)) w H' hw hH (ι v)]
  exact Finset.sum_congr rfl fun e _ => by simp only [hι.eq_iff]

/-- A row of the directly scattered matrix that no edge ends in is zero, and so is its product. -/
theorem scatter_row_zero {E N' : Type*} [Fintype E] [Fintype N'] [DecidableEq N']
    (S D : E → N') (w : E → EReal) (H' : N' → EReal) (v' : N') (hv : ∀ e, D e ≠ v') :
    ∑ u', (∑ e, if D e = v' ∧ S e = u' then w e else 0) * H' u' = 0 := by
  refine Finset.sum_eq_zero fun u' _ => ?_
  rw [Finset.sum_eq_zero fun e _ => by rw [if_neg fun h => hv e h.1], zero_mul]

/-! ## Regrouping a sum into blocks -/

/-- A sum over Fin (m * n) is the sum over the m blocks of the n terms of each block; the term of block k at
    position j has index j + n * k. -/
theorem sum_blocks {M : Type*} [AddCommMonoid M] (m n : ℕ) (f : Fin (m * n) → M) :
    ∑ i, f i = ∑ k : Fin m, ∑ j : Fin n, f (finProdFinEquiv (k, j)) := by
  rw [← Fintype.sum_prod_type (f := fun p : Fin m × Fin n => f (finProdFinEquiv p))]
  exact (Equiv.sum_comp finProdFinEquiv f).symm

/-- The index of position j of block k. -/
theorem finProdFinEquiv_val {m n : ℕ} (k : Fin m) (j : Fin n) :
    (finProdFinEquiv (k, j) : Fin (m * n)).val = j.val + n * k.val := rfl

/-- A sum over Fin m is the left fold that starts at zero and adds the terms in order. -/
theorem sum_eq_foldl {M : Type*} [AddCommMonoid M] (m : ℕ) (g : Fin m → M) :
    ∑ k, g k = (List.finRange m).foldl (fun acc k => acc + g k) 0 := by
  rw [Fin.sum_univ_def, List.sum_eq_foldl, List.foldl_map]

/-- Eight terms, added from the left starting at zero. -/
theorem sum_eight_left {M : Type*} [AddCommMonoid M] (g : Fin 8 → M) :
    ∑ k, g k = 0 + g 0 + g 1 + g 2 + g 3 + g 4 + g 5 + g 6 + g 7 := by
  rw [Fin.sum_univ_eight, zero_add]

/-- A sum over Fin (8 * n) is the eight block sums added from the left starting at zero. -/
theorem sum_blocks_eight_left {M : Type*} [AddCommMonoid M] (n : ℕ) (f : Fin (8 * n) → M) :
    ∑ i, f i = 0 + (∑ j : Fin n, f (finProdFinEquiv (0, j))) + (∑ j : Fin n, f (finProdFinEquiv (1, j)))
      + (∑ j : Fin n, f (finProdFinEquiv (2, j))) + (∑ j : Fin n, f (finProdFinEquiv (3, j)))
      + (∑ j : Fin n, f (finProdFinEquiv (4, j))) + (∑ j : Fin n, f (finProdFinEquiv (5, j)))
      + (∑ j : Fin n, f (finProdFinEquiv (6, j))) + (∑ j : Fin n, f (finProdFinEquiv (7, j))) := by
  rw [sum_blocks 8 n f, sum_eight_left]

end Cert.LibDenseAdj
-- ==== Proof.KStep.lean ====
import proofs.«169470_j5557687681111_1_alg».proof.Proof.Gen.KernelIdeal
import proofs.«169470_j5557687681111_1_alg».proof.Proof.Spec
import proofs.«169470_j5557687681111_1_alg».proof.Proof.RefChain
import proofs.«169470_j5557687681111_1_alg».proof.Proof.LibDenseAdj
import Idealize.ShloMosaic.Lib.Pipeline.Value
import Idealize.ShloMosaic.Lib.ValueIdx

/-!
# One convolution layer of the kernel, as a function of arrays

Between two of its linear layers the kernel keeps the hidden state as an array of 81920 rows by 256 channels: row
`b·10240 + v` is node `v` of batch `b`, the 10240 rows of a batch being its 10000 nodes followed by 240 rows of padding.
A convolution layer takes that array `Hin` to the next one in four moves: the product with the layer's weights
(`linG`); a relay that regroups it as 10240 node rows by 8·256 batch-and-channel columns (`relayAgg`); the product with
the dense adjacency matrix, plus the tiled bias, clamped below at zero (`aggG`); and the relay back (`relayLin`).
`kstep` is their composition, and `PadHid` says when such an array holds a hidden state of the specification.
-/

noncomputable section

namespace Cert.KernelIdeal.Hand

open Cert.KernelIdeal Cert.KernelIdeal.Facts₀
open Idealize.ShloMosaic Idealize.ShloMosaic.ValueIdx
open scoped BigOperators

/-- The padded array `P` holds the hidden state `H`: row `b·10240 + v` of `P` is node `v < 10000` of batch `b` of `H`,
    channel by channel, and EVERY entry of `P` — the 240 padding rows of each batch too — is a real number. -/
def PadHid (P : S81920x256.Idx → EReal) (H : Cert.Spec.Hidden) : Prop :=
  (∀ (b : Fin 8) (v : Fin 10000) (k : Fin 256), P (ix2 ⟨b.val * 10240 + v.val, by omega⟩ k) = H b v k)
    ∧ (∀ j, ∃ r : ℝ, P j = (r : EReal))

/-- The linear layer as a whole array: entry `(r, o)` is the sum over `k` of activation `(r, k)` times weight `(k, o)`. -/
abbrev linG (X : S81920x256.Idx → EReal) (W : S256x256.Idx → EReal) : S81920x256.Idx → EReal :=
  fun j => ∑ k : Fin 256, X (ix2 (j 0) k) * W (ix2 k (j 1))

/-- The aggregation as a whole array: entry `(v, q)` is the sum over `s` of adjacency `(v, s)` times operand `(s, q)`,
    plus the bias of column `q`, clamped below at zero. -/
abbrev aggG (A : S10240x10240.Idx → EReal) (Hc : S10240x2048.Idx → EReal) (tile : S1x2048.Idx → EReal) :
    S10240x2048.Idx → EReal :=
  fun j => max ((∑ s : Fin 10240, A (ix2 (j 0) s) * Hc (ix2 s (j 1))) + tile (ix2 0 (j 1)))
    (Scalar.ofBits .f32 0x00000000#32 : Ideal .f32)

/-- From a linear layer's result to the aggregation's operand: [81920,256] read as [8,10240,256], its first two axes
    exchanged, read as [10240,2048]. Entry `(v, b·256 + k)` of the result is entry `(b·10240 + v, k)` of `L`. -/
def relayAgg (L : S81920x256.Idx → EReal) : S10240x2048.Idx → EReal :=
  shapeCast S10240x2048
    (transpose S10240x8x256 [1, 0, 2] (shapeCast S8x10240x256 L shapeCasts_S81920x256_S8x10240x256)
      transposes_S8x10240x256_S10240x8x256_1_0_2)
    shapeCasts_S10240x8x256_S10240x2048

/-- From the aggregation's result to the next linear layer's input: [10240,2048] read as [10240,8,256], its first two
    axes exchanged, read as [81920,256]. Entry `(b·10240 + v, o)` of the result is entry `(v, b·256 + o)` of `G`. -/
def relayLin (G : S10240x2048.Idx → EReal) : S81920x256.Idx → EReal :=
  shapeCast S81920x256
    (transpose S8x10240x256 [1, 0, 2] (shapeCast S10240x8x256 G shapeCasts_S10240x2048_S10240x8x256)
      transposes_S10240x8x256_S8x10240x256_1_0_2)
    shapeCasts_S8x10240x256_S81920x256

/-- One convolution layer of the kernel: the next linear layer's input from this one's (`Hin`), given the dense
    adjacency matrix `A`, the layer's weights `W` and its tiled bias `tile`. -/
def kstep (A : S10240x10240.Idx → EReal) (W : S256x256.Idx → EReal) (tile : S1x2048.Idx → EReal)
    (Hin : S81920x256.Idx → EReal) : S81920x256.Idx → EReal :=
  relayLin (aggG A (relayAgg (linG Hin W)) tile)

end Cert.KernelIdeal.Hand

end
-- ==== Proof.KStepSpec.lean ====
import proofs.«169470_j5557687681111_1_alg».proof.Proof.KStep
import Idealize.ShloMosaic.PureOps.Ideal.Laws

/-!
# One convolution layer of the kernel is the specification's convolution layer

If the padded array `Hin` holds the hidden state `H` (`PadHid`), the matrix `A` is the dense adjacency matrix of the
edge list with the edges' normalisations as weights, `W` is layer `l`'s weight matrix transposed and `tile` its bias
repeated once per batch, then `kstep A W tile Hin` holds `Cert.Spec.conv ei Wc bc l H`.

The two relays are index bookkeeping: each reads its operand at the index with the same row-major position, the middle
step exchanging two coordinates. A row `v < 10000` of the dense product is the sum over the edges that end in `v` of the
source's value times the edge's weight — no edge has an end among the 240 padding nodes, so those columns of `A` are
zero —, which is the specification's message passing. Every entry, padding included, stays a real number.
-/

noncomputable section

namespace Cert.KernelIdeal.Hand

open Cert.KernelIdeal Cert.KernelIdeal.Facts₀
open Idealize.ShloMosaic Idealize.ShloMosaic.ValueIdx
open scoped BigOperators

/-! ## The relays at an index -/

/-- Entry `(v, b·256 + k)` of the aggregation's operand is entry `(b·10240 + v, k)` of the linear layer's result. -/
theorem relayAgg_apply (L : S81920x256.Idx → EReal) (v : Fin 10240) (b : Fin 8) (k : Fin 256) :
    relayAgg L (ix2 v ⟨b.val * 256 + k.val, by omega⟩) = L (ix2 ⟨b.val * 10240 + v.val, by omega⟩ k) := by
  unfold relayAgg
  -- [10240,2048] at (v, b·256+k) is [10240,8,256] at (v, b, k): the same row-major position
  refine (shapeCast_apply _ _ _ (ix3 v b k) ?_).trans ?_
  · rw [Shape.rowMajor_val_three, Shape.rowMajor_val_two]
    show (v.val * 8 + b.val) * 256 + k.val = v.val * 2048 + (b.val * 256 + k.val)
    omega
  -- the exchange of the first two axes: (v, b, k) comes from (b, v, k)
  refine (transpose_apply _ _ _ _ (ix3 b v k) ?_).trans ?_
  · intro a; fin_cases a <;> rfl
  -- [8,10240,256] at (b, v, k) is [81920,256] at (b·10240+v, k)
  refine shapeCast_apply _ _ _ _ ?_
  rw [Shape.rowMajor_val_two, Shape.rowMajor_val_three]
  show (b.val * 10240 + v.val) * 256 + k.val = (b.val * 10240 + v.val) * 256 + k.val
  rfl

/-- Entry `(b·10240 + v, o)` of the next linear layer's input is entry `(v, b·256 + o)` of the aggregation's result. -/
theorem relayLin_apply (G : S10240x2048.Idx → EReal) (b : Fin 8) (v : Fin 10240) (o : Fin 256) :
    relayLin G (ix2 ⟨b.val * 10240 + v.val, by omega⟩ o) = G (ix2 v ⟨b.val * 256 + o.val, by omega⟩) := by
  unfold relayLin
  -- [81920,256] at (b·10240+v, o) is [8,10240,256] at (b, v, o)
  refine (shapeCast_apply _ _ _ (ix3 b v o) ?_).trans ?_
  · rw [Shape.rowMajor_val_three, Shape.rowMajor_val_two]
    show (b.val * 10240 + v.val) * 256 + o.val = (b.val * 10240 + v.val) * 256 + o.val
    rfl
  -- the exchange of the first two axes: (b, v, o) comes from (v, b, o)
  refine (transpose_apply _ _ _ _ (ix3 v b o) ?_).trans ?_
  · intro a; fin_cases a <;> rfl
  -- [10240,8,256] at (v, b, o) is [10240,2048] at (v, b·256+o)
  refine shapeCast_apply _ _ _ _ ?_
  rw [Shape.rowMajor_val_two, Shape.rowMajor_val_three]
  show v.val * 2048 + (b.val * 256 + o.val) = (v.val * 8 + b.val) * 256 + o.val
  omega

/-! ## Reals inside the extended reals -/

private theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb
  exact ⟨x * y, (EReal.coe_mul x y).symm⟩

private theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb
  exact ⟨x + y, (EReal.coe_add x y).symm⟩

private theorem real_sum {ι : Type} [Fintype ι] {f : ι → EReal} (hf : ∀ i, ∃ r : ℝ, f i = (r : EReal)) :
    ∃ r : ℝ, ∑ i, f i = (r : EReal) := by
  choose g hg using hf
  exact ⟨∑ i, g i, by rw [Cert.LibDenseAdj.coe_sum]; exact Finset.sum_congr rfl fun i _ => hg i⟩

private theorem real_max {a b : EReal} (ha : ∃ r : ℝ, a = (r : EReal)) (hb : ∃ r : ℝ, b = (r : EReal)) :
    ∃ r : ℝ, max a b = (r : EReal) := by
  rcases max_choice a b with h | h <;> rw [h] <;> assumption

/-- The zero the rectifier compares with is the real number zero. -/
private theorem real_zero : ∃ r : ℝ, (Scalar.ofBits .f32 0x00000000#32 : Ideal .f32) = (r : EReal) :=
  ⟨0, Ideal.ofBits_zero_f32.trans EReal.coe_zero.symm⟩

/-! ## Rows as batch and node -/

/-- Every index of the padded array is row `v` of some batch `b`, at some channel `o`. -/
theorem row_split (j : S81920x256.Idx) :
    ∃ (b : Fin 8) (v : Fin 10240) (o : Fin 256), j = ix2 ⟨b.val * 10240 + v.val, by omega⟩ o := by
  have h0 : (j 0).val < 81920 := idx2_lt0 j
  refine ⟨⟨(j 0).val / 10240, by omega⟩, ⟨(j 0).val % 10240, by omega⟩, ⟨(j 1).val, idx2_lt1 j⟩, ?_⟩
  funext a
  fin_cases a
  · exact Fin.ext (by show (j 0).val = (j 0).val / 10240 * 10240 + (j 0).val % 10240; omega)
  · rfl

/-! ## The layer at an index -/

/-- Entry `(b·10240 + v, o)` of the layer's result: row `v` of the adjacency matrix against column `o` of batch `b`'s
    linear-layer result, plus the bias of channel `o` as batch `b`'s tile carries it, clamped below at zero. -/
theorem kstep_apply (A : S10240x10240.Idx → EReal) (W : S256x256.Idx → EReal) (tile : S1x2048.Idx → EReal)
    (Hin : S81920x256.Idx → EReal) (b : Fin 8) (v : Fin 10240) (o : Fin 256) :
    kstep A W tile Hin (ix2 ⟨b.val * 10240 + v.val, by omega⟩ o)
      = max ((∑ s : Fin 10240, A (ix2 v s) *
                ∑ k : Fin 256, Hin (ix2 ⟨b.val * 10240 + s.val, by omega⟩ k) * W (ix2 k o))
              + tile (ix2 0 ⟨b.val * 256 + o.val, by omega⟩))
          (Scalar.ofBits .f32 0x00000000#32 : Ideal .f32) := by
  unfold kstep
  rw [relayLin_apply]
  show max ((∑ s : Fin 10240, A (ix2 v s) * relayAgg (linG Hin W) (ix2 s ⟨b.val * 256 + o.val, by omega⟩))
      + tile (ix2 0 ⟨b.val * 256 + o.val, by omega⟩)) _ = _
  simp only [relayAgg_apply]

/-! ## The theorem -/

/-- ONE CONVOLUTION LAYER. If `Hin` holds the hidden state `H`, `A` is the dense adjacency matrix of the edge list
    weighted by the normalisations (index form `hA`), the normalisations are real, `W` is layer `l`'s weights transposed
    (`hW`) and `tile` its bias once per batch (`ht`), the weights and biases being real, then the kernel's layer leaves
    an array that holds the specification's next hidden state. -/
theorem kstep_spec (ei : IVec Cert.Spec.S2x60000 32) (hidx : Cert.Spec.InRange ei) (H : Cert.Spec.Hidden) (l : Fin 5)
    (Wc : FVec Ideal Cert.Spec.S5x256x256 .f32) (bc : FVec Ideal Cert.Spec.S5x256 .f32)
    (hWc : ∀ i, ∃ r : ℝ, Wc i = (r : EReal)) (hbc : ∀ i, ∃ r : ℝ, bc i = (r : EReal))
    (A : S10240x10240.Idx → EReal) (W : S256x256.Idx → EReal) (tile : S1x2048.Idx → EReal)
    (Hin : S81920x256.Idx → EReal) (hP : PadHid Hin H)
    (hA : ∀ (v s : Fin 10240), A (ix2 v s) = ∑ e : Fin 70000,
      if (Cert.Spec.edgeDst ei e).val = v.val ∧ (Cert.Spec.edgeSrc ei e).val = s.val then Cert.Spec.nrm ei e else 0)
    (hn : ∀ e, ∃ r : ℝ, Cert.Spec.nrm ei e = (r : EReal))
    (hW : ∀ (k o : Fin 256), W (ix2 k o) = Wc (ix3 l o k))
    (ht : ∀ (b : Fin 8) (o : Fin 256), tile (ix2 0 ⟨b.val * 256 + o.val, by omega⟩) = bc (ix2 l o)) :
    PadHid (kstep A W tile Hin) (Cert.Spec.conv ei Wc bc l H) := by
  obtain ⟨hrows, hreal⟩ := hP
  -- the operands are real: the weights, the adjacency matrix, each batch's linear-layer column
  have hWr : ∀ (k o : Fin 256), ∃ r : ℝ, W (ix2 k o) = (r : EReal) := fun k o => by rw [hW]; exact hWc _
  have hAr : ∀ (v s : Fin 10240), ∃ r : ℝ, A (ix2 v s) = (r : EReal) := fun v s => by
    rw [hA]
    exact Cert.LibDenseAdj.adj_real (fun e => (Cert.Spec.edgeSrc ei e).val) (fun e => (Cert.Spec.edgeDst ei e).val)
      (Cert.Spec.nrm ei) hn v.val s.val
  have hLr : ∀ (b : Fin 8) (o : Fin 256) (s : Fin 10240),
      ∃ r : ℝ, (∑ k : Fin 256, Hin (ix2 ⟨b.val * 10240 + s.val, by omega⟩ k) * W (ix2 k o)) = (r : EReal) :=
    fun b o s => real_sum fun k => real_mul (hreal _) (hWr k o)
  refine ⟨fun b v o => ?_, fun j => ?_⟩
  · -- a real row: node v < 10000 of batch b
    refine (kstep_apply A W tile Hin b ⟨v.val, by omega⟩ o).trans ?_
    -- the rectifier's zero is the specification's, and the tile carries the layer's bias
    have hz : (Scalar.ofBits .f32 0x00000000#32 : Ideal .f32) = Cert.Spec.zero := rfl
    rw [hz, ht]
    show _ = max (Cert.Spec.agg ei (Cert.Spec.lin Wc l H) b v o + bc (ix2 l o)) Cert.Spec.zero
    refine congrArg (fun x => max (x + bc (ix2 l o)) Cert.Spec.zero) ?_
    -- the edges' ends as rows and columns of the padded matrix
    let src' : Fin 70000 → Fin 10240 := fun e => ⟨(Cert.Spec.edgeSrc ei e).val, by omega⟩
    let dst' : Fin 70000 → Fin 10240 := fun e => ⟨(Cert.Spec.edgeDst ei e).val, by omega⟩
    have hrow : ∀ s : Fin 10240, A (ix2 (⟨v.val, by omega⟩ : Fin 10240) s)
        = ∑ e : Fin 70000, if dst' e = ⟨v.val, by omega⟩ ∧ src' e = s then Cert.Spec.nrm ei e else 0 := fun s => by
      rw [hA]
      refine Finset.sum_congr rfl fun e _ => ?_
      simp only [src', dst', Fin.ext_iff]
    simp only [hrow]
    -- the dense product is the sum over the edges that end in the row's node
    rw [Cert.LibDenseAdj.dense_mul src' dst' (Cert.Spec.nrm ei)
      (fun s => ∑ k : Fin 256, Hin (ix2 ⟨b.val * 10240 + s.val, by omega⟩ k) * W (ix2 k o)) hn (hLr b o) ⟨v.val, by omega⟩]
    -- edge by edge: the source's row of the padded array is the source node's hidden state
    unfold Cert.Spec.agg
    refine Finset.sum_congr rfl fun e _ => ?_
    have hcond : (dst' e = (⟨v.val, by omega⟩ : Fin 10240)) ↔ Cert.Spec.edgeDst ei e = v := by
      simp only [dst', Fin.ext_iff]
    rw [if_congr hcond rfl rfl]
    refine congrArg (fun x => if Cert.Spec.edgeDst ei e = v then x * Cert.Spec.nrm ei e else 0) ?_
    show (∑ k : Fin 256, Hin (ix2 ⟨b.val * 10240 + (Cert.Spec.edgeSrc ei e).val, by omega⟩ k) * W (ix2 k o))
      = Cert.Spec.lin Wc l H b (Cert.Spec.edgeSrc ei e) o
    unfold Cert.Spec.lin
    exact Finset.sum_congr rfl fun k _ => by rw [hrows, hW]
  · -- every entry is real
    obtain ⟨b, v, o, hj⟩ := row_split j
    rw [hj, kstep_apply A W tile Hin b v o]
    refine real_max (real_add (real_sum fun s => real_mul (hAr v s) (hLr b o s)) ?_) real_zero
    rw [ht]; exact hbc _

end Cert.KernelIdeal.Hand

end
-- ==== Proof.AggValue2.lean ====
import proofs.«169470_j5557687681111_1_alg».proof.Proof.Agg2
import proofs.«169470_j5557687681111_1_alg».proof.Proof.LibDenseAdj
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! # The value of region 2 at the ideal values: `relu(A · Hc + bias)`

## The body's payloads at an index -/

/-- The block product `[1280,1280] · [1280,2048]` into an accumulator, at an index: the accumulator there plus the sum
    over the contracted coordinate of the products of the entries. -/
theorem blockProduct2_apply (a : FVec Ideal S1280x1280 .bf16) (h : FVec Ideal S1280x2048 .bf16) (acc : FVec Ideal S1280x2048 .f32)
    (p : Fin 1280) (q : Fin 2048) :
    matmul dot_S1280x1280_S1280x2048_S1280x2048_1_0_0_1_n_n none a h acc (ix2 p q)
      = acc (ix2 p q) + ∑ k : Fin 1280, a (ix2 p k) * h (ix2 k q) := by
  show FloatOps.matmul _ none a h acc (ix2 p q) = _
  rw [Ideal.matmul_apply, ← Equiv.sum_comp (contrEquiv1 dot_S1280x1280_S1280x2048_S1280x2048_1_0_0_1_n_n 1280 rfl rfl).symm]
  refine congrArg (acc (ix2 p q) + ·) (Finset.sum_congr rfl fun k _ => ?_)
  have ck := contrEquiv1_symm_val dot_S1280x1280_S1280x2048_S1280x2048_1_0_0_1_n_n 1280 rfl rfl k
  have hl : dot_S1280x1280_S1280x2048_S1280x2048_1_0_0_1_n_n.lhsIdx (ix2 p q) ((contrEquiv1 _ 1280 rfl rfl).symm k) = ix2 p k := by
    funext ax; apply Fin.ext
    match ax with
    | ⟨0, _⟩ => simp [DotDims.lhsIdx, dot_S1280x1280_S1280x2048_S1280x2048_1_0_0_1_n_n]; rfl
    | ⟨1, _⟩ => simp [DotDims.lhsIdx, dot_S1280x1280_S1280x2048_S1280x2048_1_0_0_1_n_n]; exact ck
  have hr : dot_S1280x1280_S1280x2048_S1280x2048_1_0_0_1_n_n.rhsIdx (ix2 p q) ((contrEquiv1 _ 1280 rfl rfl).symm k) = ix2 k q := by
    funext ax; apply Fin.ext
    match ax with
    | ⟨0, _⟩ => simp [DotDims.rhsIdx, dot_S1280x1280_S1280x2048_S1280x2048_1_0_0_1_n_n]; exact ck
    | ⟨1, _⟩ => simp [DotDims.rhsIdx, dot_S1280x1280_S1280x2048_S1280x2048_1_0_0_1_n_n]; rfl
  rw [hl, hr]

/-- The zeros the accumulator restarts from. -/
theorem zeros2_apply (j : S1280x2048.Idx) : k2_pay1 (F := Ideal) j = 0 := by
  unfold k2_pay1
  simp only [shapeCast_self, broadcast_apply]
  exact Ideal.ofBits_zero_f32

/-- One accumulation step at an index: what the accumulator held there plus the block product there. -/
theorem step2_apply (s : Vec Ideal S1280x2048 .f32) (a : Vec Ideal S1280x1280 .bf16) (h : Vec Ideal S1280x2048 .bf16)
    (p : Fin 1280) (q : Fin 2048) :
    k2_pay2 (F := Ideal) s a h (ix2 p q) = s (ix2 p q) + ∑ k : Fin 1280, a (ix2 p k) * h (ix2 k q) := by
  unfold k2_pay2
  simp only [shapeCast_self]
  rw [addf_apply, blockProduct2_apply, constant_apply, Ideal.ofBits_zero_f32, zero_add]

/-- The zero the output is clamped at, as the body spells it. -/
abbrev zero2 : Ideal .f32 := Scalar.ofBits .f32 0x00000000#32

/-- The read-out at an index: the accumulator plus the bias of the column, clamped at zero (the rounding to bf16 is the
    identity at the ideal values). -/
theorem readout2_apply (s : Vec Ideal S1280x2048 .f32) (b : Vec Ideal S1x2048 .f32) (p : Fin 1280) (q : Fin 2048) :
    k2_pay3 (F := Ideal) s b (ix2 p q) = max (s (ix2 p q) + b (ix2 0 q)) zero2 := by
  unfold k2_pay3
  simp only [shapeCast_self]
  rw [truncf_apply, maximumf_apply, addf_apply, broadcast_apply,
    broadcastTo_apply b broadcasts_S1x2048_S1280x2048 (ix2 p q) (ix2 0 q) (fun ax => by
      match ax with
      | ⟨0, _⟩ => rfl
      | ⟨1, _⟩ => rfl)]

section Value

variable (V : (c : Dev nD) → (b : Ref sig .tc) → Buf (Elt Ideal) ((c : Thread nD τ).loc b))

/-! ## The arrays, and where a block's entries sit in them -/

/-- The arrays the three input windows stage, as the region finds them: `A` [10240, 10240], `Hc` [10240, 2048] and the
    bias row [1, 2048]. -/
abbrev arrA2 (c : Dev nD) : S10240x10240.Idx → EReal := V c (Pipeline.arrRef spec2 0)
abbrev arrH2 (c : Dev nD) : S10240x2048.Idx → EReal := V c (Pipeline.arrRef spec2 1)
abbrev arrB2 (c : Dev nD) : S1x2048.Idx → EReal := V c (Pipeline.arrRef spec2 2)

/-- The printed index maps in closed form, decided over the grid: point `t` is (i, k) = (t / 8, t % 8); `A`'s block is
    (i, k), `Hc`'s (k, 0), the bias's (0, 0), the output's (i, 0). -/
theorem index_facts2 : ∀ t : Fin cfg2.N, win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = 0 ∧ win2_2.index t (1 : Fin 2) = 0
    ∧ win2_3.index t (0 : Fin 2) = t.val / 8 ∧ win2_3.index t (1 : Fin 2) = 0 :=
  (by decide +kernel : ∀ t : Fin grid2.N, _)

theorem point_lt2 (t : Fin cfg2.N) : t.val < 64 := lt_of_lt_of_eq t.isLt (show cfg2.N = 64 from N_2)

/-- The three input blocks at point `t`, at their literal types. -/
def ablk2 (c : Dev nD) (t : Fin cfg2.N) : Vec Ideal S1280x1280 .bf16 := iblk2 V c 0 t
def hblk2 (c : Dev nD) (t : Fin cfg2.N) : Vec Ideal S1280x2048 .bf16 := iblk2 V c 1 t
def bblk2 (c : Dev nD) (t : Fin cfg2.N) : Vec Ideal S1x2048 .f32 := iblk2 V c 2 t

/-- An entry of `A`'s block at point `t` is the entry of `A` at row 1280 · (t / 8) + p, column 1280 · (t % 8) + s. -/
theorem ablk2_apply (c : Dev nD) (t : Fin cfg2.N) (p s : Fin 1280) :
    ablk2 V c t (ix2 p s)
      = arrA2 V c (ix2 ⟨1280 * (t.val / 8) + p.val, by have := point_lt2 t; have := p.isLt; omega⟩
          ⟨1280 * (t.val % 8) + s.val, by have := s.isLt; omega⟩) := by
  obtain ⟨e0, e1, -⟩ := index_facts2 t
  unfold ablk2 iblk2
  show V c (Pipeline.arrRef spec2 0) (((cfg2.win 0).blk t).view.emb (ix2 p s)) = V c (Pipeline.arrRef spec2 0) _
  refine congrArg _ (funext fun a => Fin.ext ?_)
  match a with
  | ⟨0, _⟩ => show win2_0.index t (0 : Fin 2) * 1280 + 1 * p.val = 1280 * (t.val / 8) + p.val; omega
  | ⟨1, _⟩ => show win2_0.index t (1 : Fin 2) * 1280 + 1 * s.val = 1280 * (t.val % 8) + s.val; omega

/-- An entry of `Hc`'s block at point `t` is the entry of `Hc` at row 1280 · (t % 8) + s, the same column. -/
theorem hblk2_apply (c : Dev nD) (t : Fin cfg2.N) (s : Fin 1280) (q : Fin 2048) :
    hblk2 V c t (ix2 s q)
      = arrH2 V c (ix2 ⟨1280 * (t.val % 8) + s.val, by have := s.isLt; omega⟩ q) := by
  obtain ⟨-, -, e2, e3, -⟩ := index_facts2 t
  unfold hblk2 iblk2
  show V c (Pipeline.arrRef spec2 1) (((cfg2.win 1).blk t).view.emb (ix2 s q)) = V c (Pipeline.arrRef spec2 1) _
  refine congrArg _ (funext fun a => Fin.ext ?_)
  match a with
  | ⟨0, _⟩ => show win2_1.index t (0 : Fin 2) * 1280 + 1 * s.val = 1280 * (t.val % 8) + s.val; omega
  | ⟨1, _⟩ => show win2_1.index t (1 : Fin 2) * 2048 + 1 * q.val = q.val; omega

/-- The bias block is the bias row at every point. -/
theorem bblk2_apply (c : Dev nD) (t : Fin cfg2.N) (q : Fin 2048) :
    bblk2 V c t (ix2 0 q) = arrB2 V c (ix2 0 q) := by
  obtain ⟨-, -, -, -, e4, e5, -⟩ := index_facts2 t
  unfold bblk2 iblk2
  show V c (Pipeline.arrRef spec2 2) (((cfg2.win 2).blk t).view.emb (ix2 0 q)) = V c (Pipeline.arrRef spec2 2) _
  refine congrArg _ (funext fun a => Fin.ext ?_)
  match a with
  | ⟨0, _⟩ => show win2_2.index t (0 : Fin 2) * 1 + 1 * 0 = 0; omega
  | ⟨1, _⟩ => show win2_2.index t (1 : Fin 2) * 2048 + 1 * q.val = q.val; omega

/-! ## The row fold at an index -/

/-- The product of the two blocks of point `n`, at (p, q). -/
def blkProd2 (c : Dev nD) (n : ℕ) (hn : n < cfg2.N) (p : Fin 1280) (q : Fin 2048) : EReal :=
  ∑ s : Fin 1280, ablk2 V c ⟨n, hn⟩ (ix2 p s) * hblk2 V c ⟨n, hn⟩ (ix2 s q)

/-- The row fold at an index is the sum of the block products of its points. -/
theorem rowAcc2_apply (c : Dev nD) (n0 : ℕ) : ∀ (k : ℕ) (h : n0 + k < cfg2.N) (p : Fin 1280) (q : Fin 2048),
    rowAcc2 V c n0 k h (ix2 p q) = ∑ k' : Fin (k + 1), blkProd2 V c (n0 + k'.val) (by have := k'.isLt; omega) p q
  | 0, h, p, q => by
    show k2_pay2 (F := Ideal) (k2_pay1 (F := Ideal)) (ablk2 V c ⟨n0, h⟩) (hblk2 V c ⟨n0, h⟩) (ix2 p q) = _
    rw [step2_apply, zeros2_apply, zero_add, Fin.sum_univ_one]
    rfl
  | k + 1, h, p, q => by
    show k2_pay2 (F := Ideal) (rowAcc2 V c n0 k (Nat.lt_of_succ_lt h)) (ablk2 V c ⟨n0 + (k + 1), h⟩) (hblk2 V c ⟨n0 + (k + 1), h⟩) (ix2 p q) = _
    rw [step2_apply, rowAcc2_apply c n0 k (Nat.lt_of_succ_lt h) p q]
    exact (Fin.sum_univ_castSucc (fun k' : Fin (k + 1 + 1) => blkProd2 V c (n0 + k'.val) (by have := k'.isLt; omega) p q)).symm

/-! ## From blocks to the array -/

/-- The region's result as one function of the arrays: `max(∑ₛ A[r, s] · Hc[s, q] + bias[0, q], 0)`. -/
abbrev G2 (c : Dev nD) : S10240x2048.Idx → EReal := fun j =>
  max ((∑ s : Fin 10240, arrA2 V c (ix2 (j 0) s) * arrH2 V c (ix2 s (j 1))) + arrB2 V c (ix2 0 (j 1))) zero2

/-- The eight block products of a row block add up to the whole row's product: the sum over `Fin 10240` regrouped
    into 8 blocks of 1280. -/
theorem rowSum2 (c : Dev nD) (t : Fin cfg2.N) (h7 : t.val % 8 = 7) (p : Fin 1280) (q : Fin 2048) :
    ∑ k' : Fin 8, blkProd2 V c (8 * (t.val / 8) + k'.val) (by have := point_lt2 t; have := k'.isLt; exact lt_of_lt_of_eq (by omega : 8 * (t.val / 8) + k'.val < 64) N_2.symm) p q
      = ∑ s : Fin 10240, arrA2 V c (ix2 ⟨1280 * (t.val / 8) + p.val, by have := point_lt2 t; have := p.isLt; omega⟩ s) * arrH2 V c (ix2 s q) := by
  rw [Cert.LibDenseAdj.sum_blocks 8 1280 (fun s : Fin (8 * 1280) =>
    arrA2 V c (ix2 ⟨1280 * (t.val / 8) + p.val, by have := point_lt2 t; have := p.isLt; omega⟩ s) * arrH2 V c (ix2 s q))]
  refine Finset.sum_congr rfl fun k' _ => ?_
  unfold blkProd2
  refine Finset.sum_congr rfl fun s _ => ?_
  rw [ablk2_apply, hblk2_apply]
  have hk : k'.val < 8 := k'.isLt
  have hs : s.val < 1280 := s.isLt
  have hv := Cert.LibDenseAdj.finProdFinEquiv_val k' s
  have e1 : (⟨1280 * ((8 * (t.val / 8) + k'.val) % 8) + s.val, by omega⟩ : Fin 10240) = finProdFinEquiv (k', s) :=
    Fin.ext (by rw [hv]; show 1280 * ((8 * (t.val / 8) + k'.val) % 8) + s.val = s.val + 1280 * k'.val; omega)
  have e0 : (⟨1280 * ((8 * (t.val / 8) + k'.val) / 8) + p.val, by have := point_lt2 t; have := p.isLt; omega⟩ : Fin 10240)
      = ⟨1280 * (t.val / 8) + p.val, by have := point_lt2 t; have := p.isLt; omega⟩ :=
    Fin.ext (by show 1280 * ((8 * (t.val / 8) + k'.val) / 8) + p.val = 1280 * (t.val / 8) + p.val; omega)
  rw [e1, e0]

/-- WHAT A POINT WITH k = 7 WRITES BACK is its block of `G2`. -/
theorem flushed2_3_eq (c : Dev nD) (t : Fin cfg2.N) (h7 : t.val % 8 = 7) :
    (dat2 V c).flushed 3 t = ((cfg2.win 3).blk t).view.read (Elt Ideal) (G2 V c) := by
  show (cfg2.win 3).cut (grid2.coords t) ((dat2 V c).after 3 t) = _
  rw [after2_3, out2_3_last V c t h7]
  funext y
  obtain ⟨p, q, rfl⟩ : ∃ (p : Fin 1280) (q : Fin 2048), y = ix2 p q := ⟨y 0, y 1, eq_ix2 y⟩
  obtain ⟨-, -, -, -, -, -, e6, e7⟩ := index_facts2 t
  have hemb : ((cfg2.win 3).blk t).view.emb (ix2 p q)
      = ix2 ⟨1280 * (t.val / 8) + p.val, by have := point_lt2 t; have := p.isLt; omega⟩ q := by
    funext a; apply Fin.ext
    match a with
    | ⟨0, _⟩ => show win2_3.index t (0 : Fin 2) * 1280 + 1 * p.val = 1280 * (t.val / 8) + p.val; omega
    | ⟨1, _⟩ => show win2_3.index t (1 : Fin 2) * 2048 + 1 * q.val = q.val; omega
  show k2_pay3 (F := Ideal) (rowAcc2 V c (8 * (t.val / 8)) 7 _) (bblk2 V c t) (ix2 p q) = G2 V c (((cfg2.win 3).blk t).view.emb (ix2 p q))
  rw [hemb, readout2_apply, rowAcc2_apply, bblk2_apply, rowSum2 V c t h7 p q]

/-- An index of the output array is in point `t`'s block iff each coordinate is in the block's range on its axis. -/
theorem mem_blk2_3 (t : Fin cfg2.N) (i : S10240x2048.Idx) :
    i ∈ ((cfg2.win 3).blk t).view.set ↔ ∀ a : Fin 2, win2_3.index t a * S1280x2048.size a ≤ (i a).val ∧ (i a).val < win2_3.index t a * S1280x2048.size a + S1280x2048.size a := by
  show i ∈ ((View.whole (Pipeline.arrRef spec2 3)).slice (win2_3.rect t)).set ↔ _
  rw [View.set_slice_whole, Rect.mem_set_unit]
  exact Iff.rfl

/-- Every index of the output array is in the block of a point that writes back: row `r` in that of the point
    8 · (r / 1280) + 7. -/
theorem cover2_3 (i : S10240x2048.Idx) : ∃ t : Fin cfg2.N, (cfg2.win 3).flush t = true ∧ i ∈ ((cfg2.win 3).blk t).view.set := by
  have hi0 : (i 0).val < 10240 := (i 0).isLt
  have hi1 : (i 1).val < 2048 := (i 1).isLt
  have ht : 8 * ((i 0).val / 1280) + 7 < cfg2.N := by rw [show cfg2.N = 64 from N_2]; omega
  obtain ⟨-, -, -, -, -, -, e6, e7⟩ := index_facts2 ⟨8 * ((i 0).val / 1280) + 7, ht⟩
  refine ⟨⟨8 * ((i 0).val / 1280) + 7, ht⟩, (flush2_3 _).mpr (by show (8 * ((i 0).val / 1280) + 7) % 8 = 7; omega), ?_⟩
  rw [mem_blk2_3]
  intro a
  match a with
  | ⟨0, _⟩ =>
    show win2_3.index ⟨8 * ((i 0).val / 1280) + 7, ht⟩ (0 : Fin 2) * 1280 ≤ (i 0).val ∧ (i 0).val < win2_3.index ⟨8 * ((i 0).val / 1280) + 7, ht⟩ (0 : Fin 2) * 1280 + 1280
    rw [e6]; show (8 * ((i 0).val / 1280) + 7) / 8 * 1280 ≤ (i 0).val ∧ (i 0).val < (8 * ((i 0).val / 1280) + 7) / 8 * 1280 + 1280
    omega
  | ⟨1, _⟩ =>
    show win2_3.index ⟨8 * ((i 0).val / 1280) + 7, ht⟩ (1 : Fin 2) * 2048 ≤ (i 1).val ∧ (i 1).val < win2_3.index ⟨8 * ((i 0).val / 1280) + 7, ht⟩ (1 : Fin 2) * 2048 + 2048
    rw [e7]; omega

/-- THE OUTPUT ARRAY after the region: `relu(A · Hc + bias)`, index by index, of the arrays as the region finds them. -/
theorem aggArr2 (c : Dev nD) :
    ((dat2 (F := Ideal) V c).arrAt 3 cfg2.N : S10240x2048.Idx → EReal)
      = fun j => max ((∑ s : Fin 10240, arrA2 V c (ix2 (j 0) s) * arrH2 V c (ix2 s (j 1))) + arrB2 V c (ix2 0 (j 1))) zero2 :=
  (dat2 V c).arrAt_eq_of_cover 3 (G2 V c) (fun t hf => flushed2_3_eq V c t ((flush2_3 t).mp hf)) cover2_3

end Value

end Cert.KernelIdeal.Hand

end
-- ==== Proof.AggValue4.lean ====
import proofs.«169470_j5557687681111_1_alg».proof.Proof.Agg4
import proofs.«169470_j5557687681111_1_alg».proof.Proof.LibDenseAdj
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! # The value of region 4 at the ideal values: `relu(A · Hc + bias)`

## The body's payloads at an index -/

/-- The block product `[1280,1280] · [1280,2048]` into an accumulator, at an index: the accumulator there plus the sum
    over the contracted coordinate of the products of the entries. -/
theorem blockProduct4_apply (a : FVec Ideal S1280x1280 .bf16) (h : FVec Ideal S1280x2048 .bf16) (acc : FVec Ideal S1280x2048 .f32)
    (p : Fin 1280) (q : Fin 2048) :
    matmul dot_S1280x1280_S1280x2048_S1280x2048_1_0_0_1_n_n none a h acc (ix2 p q)
      = acc (ix2 p q) + ∑ k : Fin 1280, a (ix2 p k) * h (ix2 k q) := by
  show FloatOps.matmul _ none a h acc (ix2 p q) = _
  rw [Ideal.matmul_apply, ← Equiv.sum_comp (contrEquiv1 dot_S1280x1280_S1280x2048_S1280x2048_1_0_0_1_n_n 1280 rfl rfl).symm]
  refine congrArg (acc (ix2 p q) + ·) (Finset.sum_congr rfl fun k _ => ?_)
  have ck := contrEquiv1_symm_val dot_S1280x1280_S1280x2048_S1280x2048_1_0_0_1_n_n 1280 rfl rfl k
  have hl : dot_S1280x1280_S1280x2048_S1280x2048_1_0_0_1_n_n.lhsIdx (ix2 p q) ((contrEquiv1 _ 1280 rfl rfl).symm k) = ix2 p k := by
    funext ax; apply Fin.ext
    match ax with
    | ⟨0, _⟩ => simp [DotDims.lhsIdx, dot_S1280x1280_S1280x2048_S1280x2048_1_0_0_1_n_n]; rfl
    | ⟨1, _⟩ => simp [DotDims.lhsIdx, dot_S1280x1280_S1280x2048_S1280x2048_1_0_0_1_n_n]; exact ck
  have hr : dot_S1280x1280_S1280x2048_S1280x2048_1_0_0_1_n_n.rhsIdx (ix2 p q) ((contrEquiv1 _ 1280 rfl rfl).symm k) = ix2 k q := by
    funext ax; apply Fin.ext
    match ax with
    | ⟨0, _⟩ => simp [DotDims.rhsIdx, dot_S1280x1280_S1280x2048_S1280x2048_1_0_0_1_n_n]; exact ck
    | ⟨1, _⟩ => simp [DotDims.rhsIdx, dot_S1280x1280_S1280x2048_S1280x2048_1_0_0_1_n_n]; rfl
  rw [hl, hr]

/-- The zeros the accumulator restarts from. -/
theorem zeros4_apply (j : S1280x2048.Idx) : k4_pay1 (F := Ideal) j = 0 := by
  unfold k4_pay1
  simp only [shapeCast_self, broadcast_apply]
  exact Ideal.ofBits_zero_f32

/-- One accumulation step at an index: what the accumulator held there plus the block product there. -/
theorem step4_apply (s : Vec Ideal S1280x2048 .f32) (a : Vec Ideal S1280x1280 .bf16) (h : Vec Ideal S1280x2048 .bf16)
    (p : Fin 1280) (q : Fin 2048) :
    k4_pay2 (F := Ideal) s a h (ix2 p q) = s (ix2 p q) + ∑ k : Fin 1280, a (ix2 p k) * h (ix2 k q) := by
  unfold k4_pay2
  simp only [shapeCast_self]
  rw [addf_apply, blockProduct4_apply, constant_apply, Ideal.ofBits_zero_f32, zero_add]

/-- The zero the output is clamped at, as the body spells it. -/
abbrev zero4 : Ideal .f32 := Scalar.ofBits .f32 0x00000000#32

/-- The read-out at an index: the accumulator plus the bias of the column, clamped at zero (the rounding to bf16 is the
    identity at the ideal values). -/
theorem readout4_apply (s : Vec Ideal S1280x2048 .f32) (b : Vec Ideal S1x2048 .f32) (p : Fin 1280) (q : Fin 2048) :
    k4_pay3 (F := Ideal) s b (ix2 p q) = max (s (ix2 p q) + b (ix2 0 q)) zero4 := by
  unfold k4_pay3
  simp only [shapeCast_self]
  rw [truncf_apply, maximumf_apply, addf_apply, broadcast_apply,
    broadcastTo_apply b broadcasts_S1x2048_S1280x2048 (ix2 p q) (ix2 0 q) (fun ax => by
      match ax with
      | ⟨0, _⟩ => rfl
      | ⟨1, _⟩ => rfl)]

section Value

variable (V : (c : Dev nD) → (b : Ref sig .tc) → Buf (Elt Ideal) ((c : Thread nD τ).loc b))

/-! ## The arrays, and where a block's entries sit in them -/

/-- The arrays the three input windows stage, as the region finds them: `A` [10240, 10240], `Hc` [10240, 2048] and the
    bias row [1, 2048]. -/
abbrev arrA4 (c : Dev nD) : S10240x10240.Idx → EReal := V c (Pipeline.arrRef spec4 0)
abbrev arrH4 (c : Dev nD) : S10240x2048.Idx → EReal := V c (Pipeline.arrRef spec4 1)
abbrev arrB4 (c : Dev nD) : S1x2048.Idx → EReal := V c (Pipeline.arrRef spec4 2)

/-- The printed index maps in closed form, decided over the grid: point `t` is (i, k) = (t / 8, t % 8); `A`'s block is
    (i, k), `Hc`'s (k, 0), the bias's (0, 0), the output's (i, 0). -/
theorem index_facts4 : ∀ t : Fin cfg4.N, win4_0.index t (0 : Fin 2) = t.val / 8 ∧ win4_0.index t (1 : Fin 2) = t.val % 8
    ∧ win4_1.index t (0 : Fin 2) = t.val % 8 ∧ win4_1.index t (1 : Fin 2) = 0
    ∧ win4_2.index t (0 : Fin 2) = 0 ∧ win4_2.index t (1 : Fin 2) = 0
    ∧ win4_3.index t (0 : Fin 2) = t.val / 8 ∧ win4_3.index t (1 : Fin 2) = 0 :=
  (by decide +kernel : ∀ t : Fin grid4.N, _)

theorem point_lt4 (t : Fin cfg4.N) : t.val < 64 := lt_of_lt_of_eq t.isLt (show cfg4.N = 64 from N_4)

/-- The three input blocks at point `t`, at their literal types. -/
def ablk4 (c : Dev nD) (t : Fin cfg4.N) : Vec Ideal S1280x1280 .bf16 := iblk4 V c 0 t
def hblk4 (c : Dev nD) (t : Fin cfg4.N) : Vec Ideal S1280x2048 .bf16 := iblk4 V c 1 t
def bblk4 (c : Dev nD) (t : Fin cfg4.N) : Vec Ideal S1x2048 .f32 := iblk4 V c 2 t

/-- An entry of `A`'s block at point `t` is the entry of `A` at row 1280 · (t / 8) + p, column 1280 · (t % 8) + s. -/
theorem ablk4_apply (c : Dev nD) (t : Fin cfg4.N) (p s : Fin 1280) :
    ablk4 V c t (ix2 p s)
      = arrA4 V c (ix2 ⟨1280 * (t.val / 8) + p.val, by have := point_lt4 t; have := p.isLt; omega⟩
          ⟨1280 * (t.val % 8) + s.val, by have := s.isLt; omega⟩) := by
  obtain ⟨e0, e1, -⟩ := index_facts4 t
  unfold ablk4 iblk4
  show V c (Pipeline.arrRef spec4 0) (((cfg4.win 0).blk t).view.emb (ix2 p s)) = V c (Pipeline.arrRef spec4 0) _
  refine congrArg _ (funext fun a => Fin.ext ?_)
  match a with
  | ⟨0, _⟩ => show win4_0.index t (0 : Fin 2) * 1280 + 1 * p.val = 1280 * (t.val / 8) + p.val; omega
  | ⟨1, _⟩ => show win4_0.index t (1 : Fin 2) * 1280 + 1 * s.val = 1280 * (t.val % 8) + s.val; omega

/-- An entry of `Hc`'s block at point `t` is the entry of `Hc` at row 1280 · (t % 8) + s, the same column. -/
theorem hblk4_apply (c : Dev nD) (t : Fin cfg4.N) (s : Fin 1280) (q : Fin 2048) :
    hblk4 V c t (ix2 s q)
      = arrH4 V c (ix2 ⟨1280 * (t.val % 8) + s.val, by have := s.isLt; omega⟩ q) := by
  obtain ⟨-, -, e2, e3, -⟩ := index_facts4 t
  unfold hblk4 iblk4
  show V c (Pipeline.arrRef spec4 1) (((cfg4.win 1).blk t).view.emb (ix2 s q)) = V c (Pipeline.arrRef spec4 1) _
  refine congrArg _ (funext fun a => Fin.ext ?_)
  match a with
  | ⟨0, _⟩ => show win4_1.index t (0 : Fin 2) * 1280 + 1 * s.val = 1280 * (t.val % 8) + s.val; omega
  | ⟨1, _⟩ => show win4_1.index t (1 : Fin 2) * 2048 + 1 * q.val = q.val; omega

/-- The bias block is the bias row at every point. -/
theorem bblk4_apply (c : Dev nD) (t : Fin cfg4.N) (q : Fin 2048) :
    bblk4 V c t (ix2 0 q) = arrB4 V c (ix2 0 q) := by
  obtain ⟨-, -, -, -, e4, e5, -⟩ := index_facts4 t
  unfold bblk4 iblk4
  show V c (Pipeline.arrRef spec4 2) (((cfg4.win 2).blk t).view.emb (ix2 0 q)) = V c (Pipeline.arrRef spec4 2) _
  refine congrArg _ (funext fun a => Fin.ext ?_)
  match a with
  | ⟨0, _⟩ => show win4_2.index t (0 : Fin 2) * 1 + 1 * 0 = 0; omega
  | ⟨1, _⟩ => show win4_2.index t (1 : Fin 2) * 2048 + 1 * q.val = q.val; omega

/-! ## The row fold at an index -/

/-- The product of the two blocks of point `n`, at (p, q). -/
def blkProd4 (c : Dev nD) (n : ℕ) (hn : n < cfg4.N) (p : Fin 1280) (q : Fin 2048) : EReal :=
  ∑ s : Fin 1280, ablk4 V c ⟨n, hn⟩ (ix2 p s) * hblk4 V c ⟨n, hn⟩ (ix2 s q)

/-- The row fold at an index is the sum of the block products of its points. -/
theorem rowAcc4_apply (c : Dev nD) (n0 : ℕ) : ∀ (k : ℕ) (h : n0 + k < cfg4.N) (p : Fin 1280) (q : Fin 2048),
    rowAcc4 V c n0 k h (ix2 p q) = ∑ k' : Fin (k + 1), blkProd4 V c (n0 + k'.val) (by have := k'.isLt; omega) p q
  | 0, h, p, q => by
    show k4_pay2 (F := Ideal) (k4_pay1 (F := Ideal)) (ablk4 V c ⟨n0, h⟩) (hblk4 V c ⟨n0, h⟩) (ix2 p q) = _
    rw [step4_apply, zeros4_apply, zero_add, Fin.sum_univ_one]
    rfl
  | k + 1, h, p, q => by
    show k4_pay2 (F := Ideal) (rowAcc4 V c n0 k (Nat.lt_of_succ_lt h)) (ablk4 V c ⟨n0 + (k + 1), h⟩) (hblk4 V c ⟨n0 + (k + 1), h⟩) (ix2 p q) = _
    rw [step4_apply, rowAcc4_apply c n0 k (Nat.lt_of_succ_lt h) p q]
    exact (Fin.sum_univ_castSucc (fun k' : Fin (k + 1 + 1) => blkProd4 V c (n0 + k'.val) (by have := k'.isLt; omega) p q)).symm

/-! ## From blocks to the array -/

/-- The region's result as one function of the arrays: `max(∑ₛ A[r, s] · Hc[s, q] + bias[0, q], 0)`. -/
abbrev G4 (c : Dev nD) : S10240x2048.Idx → EReal := fun j =>
  max ((∑ s : Fin 10240, arrA4 V c (ix2 (j 0) s) * arrH4 V c (ix2 s (j 1))) + arrB4 V c (ix2 0 (j 1))) zero4

/-- The eight block products of a row block add up to the whole row's product: the sum over `Fin 10240` regrouped
    into 8 blocks of 1280. -/
theorem rowSum4 (c : Dev nD) (t : Fin cfg4.N) (h7 : t.val % 8 = 7) (p : Fin 1280) (q : Fin 2048) :
    ∑ k' : Fin 8, blkProd4 V c (8 * (t.val / 8) + k'.val) (by have := point_lt4 t; have := k'.isLt; exact lt_of_lt_of_eq (by omega : 8 * (t.val / 8) + k'.val < 64) N_4.symm) p q
      = ∑ s : Fin 10240, arrA4 V c (ix2 ⟨1280 * (t.val / 8) + p.val, by have := point_lt4 t; have := p.isLt; omega⟩ s) * arrH4 V c (ix2 s q) := by
  rw [Cert.LibDenseAdj.sum_blocks 8 1280 (fun s : Fin (8 * 1280) =>
    arrA4 V c (ix2 ⟨1280 * (t.val / 8) + p.val, by have := point_lt4 t; have := p.isLt; omega⟩ s) * arrH4 V c (ix2 s q))]
  refine Finset.sum_congr rfl fun k' _ => ?_
  unfold blkProd4
  refine Finset.sum_congr rfl fun s _ => ?_
  rw [ablk4_apply, hblk4_apply]
  have hk : k'.val < 8 := k'.isLt
  have hs : s.val < 1280 := s.isLt
  have hv := Cert.LibDenseAdj.finProdFinEquiv_val k' s
  have e1 : (⟨1280 * ((8 * (t.val / 8) + k'.val) % 8) + s.val, by omega⟩ : Fin 10240) = finProdFinEquiv (k', s) :=
    Fin.ext (by rw [hv]; show 1280 * ((8 * (t.val / 8) + k'.val) % 8) + s.val = s.val + 1280 * k'.val; omega)
  have e0 : (⟨1280 * ((8 * (t.val / 8) + k'.val) / 8) + p.val, by have := point_lt4 t; have := p.isLt; omega⟩ : Fin 10240)
      = ⟨1280 * (t.val / 8) + p.val, by have := point_lt4 t; have := p.isLt; omega⟩ :=
    Fin.ext (by show 1280 * ((8 * (t.val / 8) + k'.val) / 8) + p.val = 1280 * (t.val / 8) + p.val; omega)
  rw [e1, e0]

/-- WHAT A POINT WITH k = 7 WRITES BACK is its block of `G4`. -/
theorem flushed4_3_eq (c : Dev nD) (t : Fin cfg4.N) (h7 : t.val % 8 = 7) :
    (dat4 V c).flushed 3 t = ((cfg4.win 3).blk t).view.read (Elt Ideal) (G4 V c) := by
  show (cfg4.win 3).cut (grid4.coords t) ((dat4 V c).after 3 t) = _
  rw [after4_3, out4_3_last V c t h7]
  funext y
  obtain ⟨p, q, rfl⟩ : ∃ (p : Fin 1280) (q : Fin 2048), y = ix2 p q := ⟨y 0, y 1, eq_ix2 y⟩
  obtain ⟨-, -, -, -, -, -, e6, e7⟩ := index_facts4 t
  have hemb : ((cfg4.win 3).blk t).view.emb (ix2 p q)
      = ix2 ⟨1280 * (t.val / 8) + p.val, by have := point_lt4 t; have := p.isLt; omega⟩ q := by
    funext a; apply Fin.ext
    match a with
    | ⟨0, _⟩ => show win4_3.index t (0 : Fin 2) * 1280 + 1 * p.val = 1280 * (t.val / 8) + p.val; omega
    | ⟨1, _⟩ => show win4_3.index t (1 : Fin 2) * 2048 + 1 * q.val = q.val; omega
  show k4_pay3 (F := Ideal) (rowAcc4 V c (8 * (t.val / 8)) 7 _) (bblk4 V c t) (ix2 p q) = G4 V c (((cfg4.win 3).blk t).view.emb (ix2 p q))
  rw [hemb, readout4_apply, rowAcc4_apply, bblk4_apply, rowSum4 V c t h7 p q]

/-- An index of the output array is in point `t`'s block iff each coordinate is in the block's range on its axis. -/
theorem mem_blk4_3 (t : Fin cfg4.N) (i : S10240x2048.Idx) :
    i ∈ ((cfg4.win 3).blk t).view.set ↔ ∀ a : Fin 2, win4_3.index t a * S1280x2048.size a ≤ (i a).val ∧ (i a).val < win4_3.index t a * S1280x2048.size a + S1280x2048.size a := by
  show i ∈ ((View.whole (Pipeline.arrRef spec4 3)).slice (win4_3.rect t)).set ↔ _
  rw [View.set_slice_whole, Rect.mem_set_unit]
  exact Iff.rfl

/-- Every index of the output array is in the block of a point that writes back: row `r` in that of the point
    8 · (r / 1280) + 7. -/
theorem cover4_3 (i : S10240x2048.Idx) : ∃ t : Fin cfg4.N, (cfg4.win 3).flush t = true ∧ i ∈ ((cfg4.win 3).blk t).view.set := by
  have hi0 : (i 0).val < 10240 := (i 0).isLt
  have hi1 : (i 1).val < 2048 := (i 1).isLt
  have ht : 8 * ((i 0).val / 1280) + 7 < cfg4.N := by rw [show cfg4.N = 64 from N_4]; omega
  obtain ⟨-, -, -, -, -, -, e6, e7⟩ := index_facts4 ⟨8 * ((i 0).val / 1280) + 7, ht⟩
  refine ⟨⟨8 * ((i 0).val / 1280) + 7, ht⟩, (flush4_3 _).mpr (by show (8 * ((i 0).val / 1280) + 7) % 8 = 7; omega), ?_⟩
  rw [mem_blk4_3]
  intro a
  match a with
  | ⟨0, _⟩ =>
    show win4_3.index ⟨8 * ((i 0).val / 1280) + 7, ht⟩ (0 : Fin 2) * 1280 ≤ (i 0).val ∧ (i 0).val < win4_3.index ⟨8 * ((i 0).val / 1280) + 7, ht⟩ (0 : Fin 2) * 1280 + 1280
    rw [e6]; show (8 * ((i 0).val / 1280) + 7) / 8 * 1280 ≤ (i 0).val ∧ (i 0).val < (8 * ((i 0).val / 1280) + 7) / 8 * 1280 + 1280
    omega
  | ⟨1, _⟩ =>
    show win4_3.index ⟨8 * ((i 0).val / 1280) + 7, ht⟩ (1 : Fin 2) * 2048 ≤ (i 1).val ∧ (i 1).val < win4_3.index ⟨8 * ((i 0).val / 1280) + 7, ht⟩ (1 : Fin 2) * 2048 + 2048
    rw [e7]; omega

/-- THE OUTPUT ARRAY after the region: `relu(A · Hc + bias)`, index by index, of the arrays as the region finds them. -/
theorem aggArr4 (c : Dev nD) :
    ((dat4 (F := Ideal) V c).arrAt 3 cfg4.N : S10240x2048.Idx → EReal)
      = fun j => max ((∑ s : Fin 10240, arrA4 V c (ix2 (j 0) s) * arrH4 V c (ix2 s (j 1))) + arrB4 V c (ix2 0 (j 1))) zero4 :=
  (dat4 V c).arrAt_eq_of_cover 3 (G4 V c) (fun t hf => flushed4_3_eq V c t ((flush4_3 t).mp hf)) cover4_3

end Value

end Cert.KernelIdeal.Hand

end
-- ==== Proof.AggValue6.lean ====
import proofs.«169470_j5557687681111_1_alg».proof.Proof.Agg6
import proofs.«169470_j5557687681111_1_alg».proof.Proof.LibDenseAdj
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! # The value of region 6 at the ideal values: `relu(A · Hc + bias)`

## The body's payloads at an index -/

/-- The block product `[1280,1280] · [1280,2048]` into an accumulator, at an index: the accumulator there plus the sum
    over the contracted coordinate of the products of the entries. -/
theorem blockProduct6_apply (a : FVec Ideal S1280x1280 .bf16) (h : FVec Ideal S1280x2048 .bf16) (acc : FVec Ideal S1280x2048 .f32)
    (p : Fin 1280) (q : Fin 2048) :
    matmul dot_S1280x1280_S1280x2048_S1280x2048_1_0_0_1_n_n none a h acc (ix2 p q)
      = acc (ix2 p q) + ∑ k : Fin 1280, a (ix2 p k) * h (ix2 k q) := by
  show FloatOps.matmul _ none a h acc (ix2 p q) = _
  rw [Ideal.matmul_apply, ← Equiv.sum_comp (contrEquiv1 dot_S1280x1280_S1280x2048_S1280x2048_1_0_0_1_n_n 1280 rfl rfl).symm]
  refine congrArg (acc (ix2 p q) + ·) (Finset.sum_congr rfl fun k _ => ?_)
  have ck := contrEquiv1_symm_val dot_S1280x1280_S1280x2048_S1280x2048_1_0_0_1_n_n 1280 rfl rfl k
  have hl : dot_S1280x1280_S1280x2048_S1280x2048_1_0_0_1_n_n.lhsIdx (ix2 p q) ((contrEquiv1 _ 1280 rfl rfl).symm k) = ix2 p k := by
    funext ax; apply Fin.ext
    match ax with
    | ⟨0, _⟩ => simp [DotDims.lhsIdx, dot_S1280x1280_S1280x2048_S1280x2048_1_0_0_1_n_n]; rfl
    | ⟨1, _⟩ => simp [DotDims.lhsIdx, dot_S1280x1280_S1280x2048_S1280x2048_1_0_0_1_n_n]; exact ck
  have hr : dot_S1280x1280_S1280x2048_S1280x2048_1_0_0_1_n_n.rhsIdx (ix2 p q) ((contrEquiv1 _ 1280 rfl rfl).symm k) = ix2 k q := by
    funext ax; apply Fin.ext
    match ax with
    | ⟨0, _⟩ => simp [DotDims.rhsIdx, dot_S1280x1280_S1280x2048_S1280x2048_1_0_0_1_n_n]; exact ck
    | ⟨1, _⟩ => simp [DotDims.rhsIdx, dot_S1280x1280_S1280x2048_S1280x2048_1_0_0_1_n_n]; rfl
  rw [hl, hr]

/-- The zeros the accumulator restarts from. -/
theorem zeros6_apply (j : S1280x2048.Idx) : k6_pay1 (F := Ideal) j = 0 := by
  unfold k6_pay1
  simp only [shapeCast_self, broadcast_apply]
  exact Ideal.ofBits_zero_f32

/-- One accumulation step at an index: what the accumulator held there plus the block product there. -/
theorem step6_apply (s : Vec Ideal S1280x2048 .f32) (a : Vec Ideal S1280x1280 .bf16) (h : Vec Ideal S1280x2048 .bf16)
    (p : Fin 1280) (q : Fin 2048) :
    k6_pay2 (F := Ideal) s a h (ix2 p q) = s (ix2 p q) + ∑ k : Fin 1280, a (ix2 p k) * h (ix2 k q) := by
  unfold k6_pay2
  simp only [shapeCast_self]
  rw [addf_apply, blockProduct6_apply, constant_apply, Ideal.ofBits_zero_f32, zero_add]

/-- The zero the output is clamped at, as the body spells it. -/
abbrev zero6 : Ideal .f32 := Scalar.ofBits .f32 0x00000000#32

/-- The read-out at an index: the accumulator plus the bias of the column, clamped at zero (the rounding to bf16 is the
    identity at the ideal values). -/
theorem readout6_apply (s : Vec Ideal S1280x2048 .f32) (b : Vec Ideal S1x2048 .f32) (p : Fin 1280) (q : Fin 2048) :
    k6_pay3 (F := Ideal) s b (ix2 p q) = max (s (ix2 p q) + b (ix2 0 q)) zero6 := by
  unfold k6_pay3
  simp only [shapeCast_self]
  rw [truncf_apply, maximumf_apply, addf_apply, broadcast_apply,
    broadcastTo_apply b broadcasts_S1x2048_S1280x2048 (ix2 p q) (ix2 0 q) (fun ax => by
      match ax with
      | ⟨0, _⟩ => rfl
      | ⟨1, _⟩ => rfl)]

section Value

variable (V : (c : Dev nD) → (b : Ref sig .tc) → Buf (Elt Ideal) ((c : Thread nD τ).loc b))

/-! ## The arrays, and where a block's entries sit in them -/

/-- The arrays the three input windows stage, as the region finds them: `A` [10240, 10240], `Hc` [10240, 2048] and the
    bias row [1, 2048]. -/
abbrev arrA6 (c : Dev nD) : S10240x10240.Idx → EReal := V c (Pipeline.arrRef spec6 0)
abbrev arrH6 (c : Dev nD) : S10240x2048.Idx → EReal := V c (Pipeline.arrRef spec6 1)
abbrev arrB6 (c : Dev nD) : S1x2048.Idx → EReal := V c (Pipeline.arrRef spec6 2)

/-- The printed index maps in closed form, decided over the grid: point `t` is (i, k) = (t / 8, t % 8); `A`'s block is
    (i, k), `Hc`'s (k, 0), the bias's (0, 0), the output's (i, 0). -/
theorem index_facts6 : ∀ t : Fin cfg6.N, win6_0.index t (0 : Fin 2) = t.val / 8 ∧ win6_0.index t (1 : Fin 2) = t.val % 8
    ∧ win6_1.index t (0 : Fin 2) = t.val % 8 ∧ win6_1.index t (1 : Fin 2) = 0
    ∧ win6_2.index t (0 : Fin 2) = 0 ∧ win6_2.index t (1 : Fin 2) = 0
    ∧ win6_3.index t (0 : Fin 2) = t.val / 8 ∧ win6_3.index t (1 : Fin 2) = 0 :=
  (by decide +kernel : ∀ t : Fin grid6.N, _)

theorem point_lt6 (t : Fin cfg6.N) : t.val < 64 := lt_of_lt_of_eq t.isLt (show cfg6.N = 64 from N_6)

/-- The three input blocks at point `t`, at their literal types. -/
def ablk6 (c : Dev nD) (t : Fin cfg6.N) : Vec Ideal S1280x1280 .bf16 := iblk6 V c 0 t
def hblk6 (c : Dev nD) (t : Fin cfg6.N) : Vec Ideal S1280x2048 .bf16 := iblk6 V c 1 t
def bblk6 (c : Dev nD) (t : Fin cfg6.N) : Vec Ideal S1x2048 .f32 := iblk6 V c 2 t

/-- An entry of `A`'s block at point `t` is the entry of `A` at row 1280 · (t / 8) + p, column 1280 · (t % 8) + s. -/
theorem ablk6_apply (c : Dev nD) (t : Fin cfg6.N) (p s : Fin 1280) :
    ablk6 V c t (ix2 p s)
      = arrA6 V c (ix2 ⟨1280 * (t.val / 8) + p.val, by have := point_lt6 t; have := p.isLt; omega⟩
          ⟨1280 * (t.val % 8) + s.val, by have := s.isLt; omega⟩) := by
  obtain ⟨e0, e1, -⟩ := index_facts6 t
  unfold ablk6 iblk6
  show V c (Pipeline.arrRef spec6 0) (((cfg6.win 0).blk t).view.emb (ix2 p s)) = V c (Pipeline.arrRef spec6 0) _
  refine congrArg _ (funext fun a => Fin.ext ?_)
  match a with
  | ⟨0, _⟩ => show win6_0.index t (0 : Fin 2) * 1280 + 1 * p.val = 1280 * (t.val / 8) + p.val; omega
  | ⟨1, _⟩ => show win6_0.index t (1 : Fin 2) * 1280 + 1 * s.val = 1280 * (t.val % 8) + s.val; omega

/-- An entry of `Hc`'s block at point `t` is the entry of `Hc` at row 1280 · (t % 8) + s, the same column. -/
theorem hblk6_apply (c : Dev nD) (t : Fin cfg6.N) (s : Fin 1280) (q : Fin 2048) :
    hblk6 V c t (ix2 s q)
      = arrH6 V c (ix2 ⟨1280 * (t.val % 8) + s.val, by have := s.isLt; omega⟩ q) := by
  obtain ⟨-, -, e2, e3, -⟩ := index_facts6 t
  unfold hblk6 iblk6
  show V c (Pipeline.arrRef spec6 1) (((cfg6.win 1).blk t).view.emb (ix2 s q)) = V c (Pipeline.arrRef spec6 1) _
  refine congrArg _ (funext fun a => Fin.ext ?_)
  match a with
  | ⟨0, _⟩ => show win6_1.index t (0 : Fin 2) * 1280 + 1 * s.val = 1280 * (t.val % 8) + s.val; omega
  | ⟨1, _⟩ => show win6_1.index t (1 : Fin 2) * 2048 + 1 * q.val = q.val; omega

/-- The bias block is the bias row at every point. -/
theorem bblk6_apply (c : Dev nD) (t : Fin cfg6.N) (q : Fin 2048) :
    bblk6 V c t (ix2 0 q) = arrB6 V c (ix2 0 q) := by
  obtain ⟨-, -, -, -, e4, e5, -⟩ := index_facts6 t
  unfold bblk6 iblk6
  show V c (Pipeline.arrRef spec6 2) (((cfg6.win 2).blk t).view.emb (ix2 0 q)) = V c (Pipeline.arrRef spec6 2) _
  refine congrArg _ (funext fun a => Fin.ext ?_)
  match a with
  | ⟨0, _⟩ => show win6_2.index t (0 : Fin 2) * 1 + 1 * 0 = 0; omega
  | ⟨1, _⟩ => show win6_2.index t (1 : Fin 2) * 2048 + 1 * q.val = q.val; omega

/-! ## The row fold at an index -/

/-- The product of the two blocks of point `n`, at (p, q). -/
def blkProd6 (c : Dev nD) (n : ℕ) (hn : n < cfg6.N) (p : Fin 1280) (q : Fin 2048) : EReal :=
  ∑ s : Fin 1280, ablk6 V c ⟨n, hn⟩ (ix2 p s) * hblk6 V c ⟨n, hn⟩ (ix2 s q)

/-- The row fold at an index is the sum of the block products of its points. -/
theorem rowAcc6_apply (c : Dev nD) (n0 : ℕ) : ∀ (k : ℕ) (h : n0 + k < cfg6.N) (p : Fin 1280) (q : Fin 2048),
    rowAcc6 V c n0 k h (ix2 p q) = ∑ k' : Fin (k + 1), blkProd6 V c (n0 + k'.val) (by have := k'.isLt; omega) p q
  | 0, h, p, q => by
    show k6_pay2 (F := Ideal) (k6_pay1 (F := Ideal)) (ablk6 V c ⟨n0, h⟩) (hblk6 V c ⟨n0, h⟩) (ix2 p q) = _
    rw [step6_apply, zeros6_apply, zero_add, Fin.sum_univ_one]
    rfl
  | k + 1, h, p, q => by
    show k6_pay2 (F := Ideal) (rowAcc6 V c n0 k (Nat.lt_of_succ_lt h)) (ablk6 V c ⟨n0 + (k + 1), h⟩) (hblk6 V c ⟨n0 + (k + 1), h⟩) (ix2 p q) = _
    rw [step6_apply, rowAcc6_apply c n0 k (Nat.lt_of_succ_lt h) p q]
    exact (Fin.sum_univ_castSucc (fun k' : Fin (k + 1 + 1) => blkProd6 V c (n0 + k'.val) (by have := k'.isLt; omega) p q)).symm

/-! ## From blocks to the array -/

/-- The region's result as one function of the arrays: `max(∑ₛ A[r, s] · Hc[s, q] + bias[0, q], 0)`. -/
abbrev G6 (c : Dev nD) : S10240x2048.Idx → EReal := fun j =>
  max ((∑ s : Fin 10240, arrA6 V c (ix2 (j 0) s) * arrH6 V c (ix2 s (j 1))) + arrB6 V c (ix2 0 (j 1))) zero6

/-- The eight block products of a row block add up to the whole row's product: the sum over `Fin 10240` regrouped
    into 8 blocks of 1280. -/
theorem rowSum6 (c : Dev nD) (t : Fin cfg6.N) (h7 : t.val % 8 = 7) (p : Fin 1280) (q : Fin 2048) :
    ∑ k' : Fin 8, blkProd6 V c (8 * (t.val / 8) + k'.val) (by have := point_lt6 t; have := k'.isLt; exact lt_of_lt_of_eq (by omega : 8 * (t.val / 8) + k'.val < 64) N_6.symm) p q
      = ∑ s : Fin 10240, arrA6 V c (ix2 ⟨1280 * (t.val / 8) + p.val, by have := point_lt6 t; have := p.isLt; omega⟩ s) * arrH6 V c (ix2 s q) := by
  rw [Cert.LibDenseAdj.sum_blocks 8 1280 (fun s : Fin (8 * 1280) =>
    arrA6 V c (ix2 ⟨1280 * (t.val / 8) + p.val, by have := point_lt6 t; have := p.isLt; omega⟩ s) * arrH6 V c (ix2 s q))]
  refine Finset.sum_congr rfl fun k' _ => ?_
  unfold blkProd6
  refine Finset.sum_congr rfl fun s _ => ?_
  rw [ablk6_apply, hblk6_apply]
  have hk : k'.val < 8 := k'.isLt
  have hs : s.val < 1280 := s.isLt
  have hv := Cert.LibDenseAdj.finProdFinEquiv_val k' s
  have e1 : (⟨1280 * ((8 * (t.val / 8) + k'.val) % 8) + s.val, by omega⟩ : Fin 10240) = finProdFinEquiv (k', s) :=
    Fin.ext (by rw [hv]; show 1280 * ((8 * (t.val / 8) + k'.val) % 8) + s.val = s.val + 1280 * k'.val; omega)
  have e0 : (⟨1280 * ((8 * (t.val / 8) + k'.val) / 8) + p.val, by have := point_lt6 t; have := p.isLt; omega⟩ : Fin 10240)
      = ⟨1280 * (t.val / 8) + p.val, by have := point_lt6 t; have := p.isLt; omega⟩ :=
    Fin.ext (by show 1280 * ((8 * (t.val / 8) + k'.val) / 8) + p.val = 1280 * (t.val / 8) + p.val; omega)
  rw [e1, e0]

/-- WHAT A POINT WITH k = 7 WRITES BACK is its block of `G6`. -/
theorem flushed6_3_eq (c : Dev nD) (t : Fin cfg6.N) (h7 : t.val % 8 = 7) :
    (dat6 V c).flushed 3 t = ((cfg6.win 3).blk t).view.read (Elt Ideal) (G6 V c) := by
  show (cfg6.win 3).cut (grid6.coords t) ((dat6 V c).after 3 t) = _
  rw [after6_3, out6_3_last V c t h7]
  funext y
  obtain ⟨p, q, rfl⟩ : ∃ (p : Fin 1280) (q : Fin 2048), y = ix2 p q := ⟨y 0, y 1, eq_ix2 y⟩
  obtain ⟨-, -, -, -, -, -, e6, e7⟩ := index_facts6 t
  have hemb : ((cfg6.win 3).blk t).view.emb (ix2 p q)
      = ix2 ⟨1280 * (t.val / 8) + p.val, by have := point_lt6 t; have := p.isLt; omega⟩ q := by
    funext a; apply Fin.ext
    match a with
    | ⟨0, _⟩ => show win6_3.index t (0 : Fin 2) * 1280 + 1 * p.val = 1280 * (t.val / 8) + p.val; omega
    | ⟨1, _⟩ => show win6_3.index t (1 : Fin 2) * 2048 + 1 * q.val = q.val; omega
  show k6_pay3 (F := Ideal) (rowAcc6 V c (8 * (t.val / 8)) 7 _) (bblk6 V c t) (ix2 p q) = G6 V c (((cfg6.win 3).blk t).view.emb (ix2 p q))
  rw [hemb, readout6_apply, rowAcc6_apply, bblk6_apply, rowSum6 V c t h7 p q]

/-- An index of the output array is in point `t`'s block iff each coordinate is in the block's range on its axis. -/
theorem mem_blk6_3 (t : Fin cfg6.N) (i : S10240x2048.Idx) :
    i ∈ ((cfg6.win 3).blk t).view.set ↔ ∀ a : Fin 2, win6_3.index t a * S1280x2048.size a ≤ (i a).val ∧ (i a).val < win6_3.index t a * S1280x2048.size a + S1280x2048.size a := by
  show i ∈ ((View.whole (Pipeline.arrRef spec6 3)).slice (win6_3.rect t)).set ↔ _
  rw [View.set_slice_whole, Rect.mem_set_unit]
  exact Iff.rfl

/-- Every index of the output array is in the block of a point that writes back: row `r` in that of the point
    8 · (r / 1280) + 7. -/
theorem cover6_3 (i : S10240x2048.Idx) : ∃ t : Fin cfg6.N, (cfg6.win 3).flush t = true ∧ i ∈ ((cfg6.win 3).blk t).view.set := by
  have hi0 : (i 0).val < 10240 := (i 0).isLt
  have hi1 : (i 1).val < 2048 := (i 1).isLt
  have ht : 8 * ((i 0).val / 1280) + 7 < cfg6.N := by rw [show cfg6.N = 64 from N_6]; omega
  obtain ⟨-, -, -, -, -, -, e6, e7⟩ := index_facts6 ⟨8 * ((i 0).val / 1280) + 7, ht⟩
  refine ⟨⟨8 * ((i 0).val / 1280) + 7, ht⟩, (flush6_3 _).mpr (by show (8 * ((i 0).val / 1280) + 7) % 8 = 7; omega), ?_⟩
  rw [mem_blk6_3]
  intro a
  match a with
  | ⟨0, _⟩ =>
    show win6_3.index ⟨8 * ((i 0).val / 1280) + 7, ht⟩ (0 : Fin 2) * 1280 ≤ (i 0).val ∧ (i 0).val < win6_3.index ⟨8 * ((i 0).val / 1280) + 7, ht⟩ (0 : Fin 2) * 1280 + 1280
    rw [e6]; show (8 * ((i 0).val / 1280) + 7) / 8 * 1280 ≤ (i 0).val ∧ (i 0).val < (8 * ((i 0).val / 1280) + 7) / 8 * 1280 + 1280
    omega
  | ⟨1, _⟩ =>
    show win6_3.index ⟨8 * ((i 0).val / 1280) + 7, ht⟩ (1 : Fin 2) * 2048 ≤ (i 1).val ∧ (i 1).val < win6_3.index ⟨8 * ((i 0).val / 1280) + 7, ht⟩ (1 : Fin 2) * 2048 + 2048
    rw [e7]; omega

/-- THE OUTPUT ARRAY after the region: `relu(A · Hc + bias)`, index by index, of the arrays as the region finds them. -/
theorem aggArr6 (c : Dev nD) :
    ((dat6 (F := Ideal) V c).arrAt 3 cfg6.N : S10240x2048.Idx → EReal)
      = fun j => max ((∑ s : Fin 10240, arrA6 V c (ix2 (j 0) s) * arrH6 V c (ix2 s (j 1))) + arrB6 V c (ix2 0 (j 1))) zero6 :=
  (dat6 V c).arrAt_eq_of_cover 3 (G6 V c) (fun t hf => flushed6_3_eq V c t ((flush6_3 t).mp hf)) cover6_3

end Value

end Cert.KernelIdeal.Hand

end
-- ==== Proof.AggValue8.lean ====
import proofs.«169470_j5557687681111_1_alg».proof.Proof.Agg8
import proofs.«169470_j5557687681111_1_alg».proof.Proof.LibDenseAdj
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! # The value of region 8 at the ideal values: `relu(A · Hc + bias)`

## The body's payloads at an index -/

/-- The block product `[1280,1280] · [1280,2048]` into an accumulator, at an index: the accumulator there plus the sum
    over the contracted coordinate of the products of the entries. -/
theorem blockProduct8_apply (a : FVec Ideal S1280x1280 .bf16) (h : FVec Ideal S1280x2048 .bf16) (acc : FVec Ideal S1280x2048 .f32)
    (p : Fin 1280) (q : Fin 2048) :
    matmul dot_S1280x1280_S1280x2048_S1280x2048_1_0_0_1_n_n none a h acc (ix2 p q)
      = acc (ix2 p q) + ∑ k : Fin 1280, a (ix2 p k) * h (ix2 k q) := by
  show FloatOps.matmul _ none a h acc (ix2 p q) = _
  rw [Ideal.matmul_apply, ← Equiv.sum_comp (contrEquiv1 dot_S1280x1280_S1280x2048_S1280x2048_1_0_0_1_n_n 1280 rfl rfl).symm]
  refine congrArg (acc (ix2 p q) + ·) (Finset.sum_congr rfl fun k _ => ?_)
  have ck := contrEquiv1_symm_val dot_S1280x1280_S1280x2048_S1280x2048_1_0_0_1_n_n 1280 rfl rfl k
  have hl : dot_S1280x1280_S1280x2048_S1280x2048_1_0_0_1_n_n.lhsIdx (ix2 p q) ((contrEquiv1 _ 1280 rfl rfl).symm k) = ix2 p k := by
    funext ax; apply Fin.ext
    match ax with
    | ⟨0, _⟩ => simp [DotDims.lhsIdx, dot_S1280x1280_S1280x2048_S1280x2048_1_0_0_1_n_n]; rfl
    | ⟨1, _⟩ => simp [DotDims.lhsIdx, dot_S1280x1280_S1280x2048_S1280x2048_1_0_0_1_n_n]; exact ck
  have hr : dot_S1280x1280_S1280x2048_S1280x2048_1_0_0_1_n_n.rhsIdx (ix2 p q) ((contrEquiv1 _ 1280 rfl rfl).symm k) = ix2 k q := by
    funext ax; apply Fin.ext
    match ax with
    | ⟨0, _⟩ => simp [DotDims.rhsIdx, dot_S1280x1280_S1280x2048_S1280x2048_1_0_0_1_n_n]; exact ck
    | ⟨1, _⟩ => simp [DotDims.rhsIdx, dot_S1280x1280_S1280x2048_S1280x2048_1_0_0_1_n_n]; rfl
  rw [hl, hr]

/-- The zeros the accumulator restarts from. -/
theorem zeros8_apply (j : S1280x2048.Idx) : k8_pay1 (F := Ideal) j = 0 := by
  unfold k8_pay1
  simp only [shapeCast_self, broadcast_apply]
  exact Ideal.ofBits_zero_f32

/-- One accumulation step at an index: what the accumulator held there plus the block product there. -/
theorem step8_apply (s : Vec Ideal S1280x2048 .f32) (a : Vec Ideal S1280x1280 .bf16) (h : Vec Ideal S1280x2048 .bf16)
    (p : Fin 1280) (q : Fin 2048) :
    k8_pay2 (F := Ideal) s a h (ix2 p q) = s (ix2 p q) + ∑ k : Fin 1280, a (ix2 p k) * h (ix2 k q) := by
  unfold k8_pay2
  simp only [shapeCast_self]
  rw [addf_apply, blockProduct8_apply, constant_apply, Ideal.ofBits_zero_f32, zero_add]

/-- The zero the output is clamped at, as the body spells it. -/
abbrev zero8 : Ideal .f32 := Scalar.ofBits .f32 0x00000000#32

/-- The read-out at an index: the accumulator plus the bias of the column, clamped at zero (the rounding to bf16 is the
    identity at the ideal values). -/
theorem readout8_apply (s : Vec Ideal S1280x2048 .f32) (b : Vec Ideal S1x2048 .f32) (p : Fin 1280) (q : Fin 2048) :
    k8_pay3 (F := Ideal) s b (ix2 p q) = max (s (ix2 p q) + b (ix2 0 q)) zero8 := by
  unfold k8_pay3
  simp only [shapeCast_self]
  rw [truncf_apply, maximumf_apply, addf_apply, broadcast_apply,
    broadcastTo_apply b broadcasts_S1x2048_S1280x2048 (ix2 p q) (ix2 0 q) (fun ax => by
      match ax with
      | ⟨0, _⟩ => rfl
      | ⟨1, _⟩ => rfl)]

section Value

variable (V : (c : Dev nD) → (b : Ref sig .tc) → Buf (Elt Ideal) ((c : Thread nD τ).loc b))

/-! ## The arrays, and where a block's entries sit in them -/

/-- The arrays the three input windows stage, as the region finds them: `A` [10240, 10240], `Hc` [10240, 2048] and the
    bias row [1, 2048]. -/
abbrev arrA8 (c : Dev nD) : S10240x10240.Idx → EReal := V c (Pipeline.arrRef spec8 0)
abbrev arrH8 (c : Dev nD) : S10240x2048.Idx → EReal := V c (Pipeline.arrRef spec8 1)
abbrev arrB8 (c : Dev nD) : S1x2048.Idx → EReal := V c (Pipeline.arrRef spec8 2)

/-- The printed index maps in closed form, decided over the grid: point `t` is (i, k) = (t / 8, t % 8); `A`'s block is
    (i, k), `Hc`'s (k, 0), the bias's (0, 0), the output's (i, 0). -/
theorem index_facts8 : ∀ t : Fin cfg8.N, win8_0.index t (0 : Fin 2) = t.val / 8 ∧ win8_0.index t (1 : Fin 2) = t.val % 8
    ∧ win8_1.index t (0 : Fin 2) = t.val % 8 ∧ win8_1.index t (1 : Fin 2) = 0
    ∧ win8_2.index t (0 : Fin 2) = 0 ∧ win8_2.index t (1 : Fin 2) = 0
    ∧ win8_3.index t (0 : Fin 2) = t.val / 8 ∧ win8_3.index t (1 : Fin 2) = 0 :=
  (by decide +kernel : ∀ t : Fin grid8.N, _)

theorem point_lt8 (t : Fin cfg8.N) : t.val < 64 := lt_of_lt_of_eq t.isLt (show cfg8.N = 64 from N_8)

/-- The three input blocks at point `t`, at their literal types. -/
def ablk8 (c : Dev nD) (t : Fin cfg8.N) : Vec Ideal S1280x1280 .bf16 := iblk8 V c 0 t
def hblk8 (c : Dev nD) (t : Fin cfg8.N) : Vec Ideal S1280x2048 .bf16 := iblk8 V c 1 t
def bblk8 (c : Dev nD) (t : Fin cfg8.N) : Vec Ideal S1x2048 .f32 := iblk8 V c 2 t

/-- An entry of `A`'s block at point `t` is the entry of `A` at row 1280 · (t / 8) + p, column 1280 · (t % 8) + s. -/
theorem ablk8_apply (c : Dev nD) (t : Fin cfg8.N) (p s : Fin 1280) :
    ablk8 V c t (ix2 p s)
      = arrA8 V c (ix2 ⟨1280 * (t.val / 8) + p.val, by have := point_lt8 t; have := p.isLt; omega⟩
          ⟨1280 * (t.val % 8) + s.val, by have := s.isLt; omega⟩) := by
  obtain ⟨e0, e1, -⟩ := index_facts8 t
  unfold ablk8 iblk8
  show V c (Pipeline.arrRef spec8 0) (((cfg8.win 0).blk t).view.emb (ix2 p s)) = V c (Pipeline.arrRef spec8 0) _
  refine congrArg _ (funext fun a => Fin.ext ?_)
  match a with
  | ⟨0, _⟩ => show win8_0.index t (0 : Fin 2) * 1280 + 1 * p.val = 1280 * (t.val / 8) + p.val; omega
  | ⟨1, _⟩ => show win8_0.index t (1 : Fin 2) * 1280 + 1 * s.val = 1280 * (t.val % 8) + s.val; omega

/-- An entry of `Hc`'s block at point `t` is the entry of `Hc` at row 1280 · (t % 8) + s, the same column. -/
theorem hblk8_apply (c : Dev nD) (t : Fin cfg8.N) (s : Fin 1280) (q : Fin 2048) :
    hblk8 V c t (ix2 s q)
      = arrH8 V c (ix2 ⟨1280 * (t.val % 8) + s.val, by have := s.isLt; omega⟩ q) := by
  obtain ⟨-, -, e2, e3, -⟩ := index_facts8 t
  unfold hblk8 iblk8
  show V c (Pipeline.arrRef spec8 1) (((cfg8.win 1).blk t).view.emb (ix2 s q)) = V c (Pipeline.arrRef spec8 1) _
  refine congrArg _ (funext fun a => Fin.ext ?_)
  match a with
  | ⟨0, _⟩ => show win8_1.index t (0 : Fin 2) * 1280 + 1 * s.val = 1280 * (t.val % 8) + s.val; omega
  | ⟨1, _⟩ => show win8_1.index t (1 : Fin 2) * 2048 + 1 * q.val = q.val; omega

/-- The bias block is the bias row at every point. -/
theorem bblk8_apply (c : Dev nD) (t : Fin cfg8.N) (q : Fin 2048) :
    bblk8 V c t (ix2 0 q) = arrB8 V c (ix2 0 q) := by
  obtain ⟨-, -, -, -, e4, e5, -⟩ := index_facts8 t
  unfold bblk8 iblk8
  show V c (Pipeline.arrRef spec8 2) (((cfg8.win 2).blk t).view.emb (ix2 0 q)) = V c (Pipeline.arrRef spec8 2) _
  refine congrArg _ (funext fun a => Fin.ext ?_)
  match a with
  | ⟨0, _⟩ => show win8_2.index t (0 : Fin 2) * 1 + 1 * 0 = 0; omega
  | ⟨1, _⟩ => show win8_2.index t (1 : Fin 2) * 2048 + 1 * q.val = q.val; omega

/-! ## The row fold at an index -/

/-- The product of the two blocks of point `n`, at (p, q). -/
def blkProd8 (c : Dev nD) (n : ℕ) (hn : n < cfg8.N) (p : Fin 1280) (q : Fin 2048) : EReal :=
  ∑ s : Fin 1280, ablk8 V c ⟨n, hn⟩ (ix2 p s) * hblk8 V c ⟨n, hn⟩ (ix2 s q)

/-- The row fold at an index is the sum of the block products of its points. -/
theorem rowAcc8_apply (c : Dev nD) (n0 : ℕ) : ∀ (k : ℕ) (h : n0 + k < cfg8.N) (p : Fin 1280) (q : Fin 2048),
    rowAcc8 V c n0 k h (ix2 p q) = ∑ k' : Fin (k + 1), blkProd8 V c (n0 + k'.val) (by have := k'.isLt; omega) p q
  | 0, h, p, q => by
    show k8_pay2 (F := Ideal) (k8_pay1 (F := Ideal)) (ablk8 V c ⟨n0, h⟩) (hblk8 V c ⟨n0, h⟩) (ix2 p q) = _
    rw [step8_apply, zeros8_apply, zero_add, Fin.sum_univ_one]
    rfl
  | k + 1, h, p, q => by
    show k8_pay2 (F := Ideal) (rowAcc8 V c n0 k (Nat.lt_of_succ_lt h)) (ablk8 V c ⟨n0 + (k + 1), h⟩) (hblk8 V c ⟨n0 + (k + 1), h⟩) (ix2 p q) = _
    rw [step8_apply, rowAcc8_apply c n0 k (Nat.lt_of_succ_lt h) p q]
    exact (Fin.sum_univ_castSucc (fun k' : Fin (k + 1 + 1) => blkProd8 V c (n0 + k'.val) (by have := k'.isLt; omega) p q)).symm

/-! ## From blocks to the array -/

/-- The region's result as one function of the arrays: `max(∑ₛ A[r, s] · Hc[s, q] + bias[0, q], 0)`. -/
abbrev G8 (c : Dev nD) : S10240x2048.Idx → EReal := fun j =>
  max ((∑ s : Fin 10240, arrA8 V c (ix2 (j 0) s) * arrH8 V c (ix2 s (j 1))) + arrB8 V c (ix2 0 (j 1))) zero8

/-- The eight block products of a row block add up to the whole row's product: the sum over `Fin 10240` regrouped
    into 8 blocks of 1280. -/
theorem rowSum8 (c : Dev nD) (t : Fin cfg8.N) (h7 : t.val % 8 = 7) (p : Fin 1280) (q : Fin 2048) :
    ∑ k' : Fin 8, blkProd8 V c (8 * (t.val / 8) + k'.val) (by have := point_lt8 t; have := k'.isLt; exact lt_of_lt_of_eq (by omega : 8 * (t.val / 8) + k'.val < 64) N_8.symm) p q
      = ∑ s : Fin 10240, arrA8 V c (ix2 ⟨1280 * (t.val / 8) + p.val, by have := point_lt8 t; have := p.isLt; omega⟩ s) * arrH8 V c (ix2 s q) := by
  rw [Cert.LibDenseAdj.sum_blocks 8 1280 (fun s : Fin (8 * 1280) =>
    arrA8 V c (ix2 ⟨1280 * (t.val / 8) + p.val, by have := point_lt8 t; have := p.isLt; omega⟩ s) * arrH8 V c (ix2 s q))]
  refine Finset.sum_congr rfl fun k' _ => ?_
  unfold blkProd8
  refine Finset.sum_congr rfl fun s _ => ?_
  rw [ablk8_apply, hblk8_apply]
  have hk : k'.val < 8 := k'.isLt
  have hs : s.val < 1280 := s.isLt
  have hv := Cert.LibDenseAdj.finProdFinEquiv_val k' s
  have e1 : (⟨1280 * ((8 * (t.val / 8) + k'.val) % 8) + s.val, by omega⟩ : Fin 10240) = finProdFinEquiv (k', s) :=
    Fin.ext (by rw [hv]; show 1280 * ((8 * (t.val / 8) + k'.val) % 8) + s.val = s.val + 1280 * k'.val; omega)
  have e0 : (⟨1280 * ((8 * (t.val / 8) + k'.val) / 8) + p.val, by have := point_lt8 t; have := p.isLt; omega⟩ : Fin 10240)
      = ⟨1280 * (t.val / 8) + p.val, by have := point_lt8 t; have := p.isLt; omega⟩ :=
    Fin.ext (by show 1280 * ((8 * (t.val / 8) + k'.val) / 8) + p.val = 1280 * (t.val / 8) + p.val; omega)
  rw [e1, e0]

/-- WHAT A POINT WITH k = 7 WRITES BACK is its block of `G8`. -/
theorem flushed8_3_eq (c : Dev nD) (t : Fin cfg8.N) (h7 : t.val % 8 = 7) :
    (dat8 V c).flushed 3 t = ((cfg8.win 3).blk t).view.read (Elt Ideal) (G8 V c) := by
  show (cfg8.win 3).cut (grid8.coords t) ((dat8 V c).after 3 t) = _
  rw [after8_3, out8_3_last V c t h7]
  funext y
  obtain ⟨p, q, rfl⟩ : ∃ (p : Fin 1280) (q : Fin 2048), y = ix2 p q := ⟨y 0, y 1, eq_ix2 y⟩
  obtain ⟨-, -, -, -, -, -, e6, e7⟩ := index_facts8 t
  have hemb : ((cfg8.win 3).blk t).view.emb (ix2 p q)
      = ix2 ⟨1280 * (t.val / 8) + p.val, by have := point_lt8 t; have := p.isLt; omega⟩ q := by
    funext a; apply Fin.ext
    match a with
    | ⟨0, _⟩ => show win8_3.index t (0 : Fin 2) * 1280 + 1 * p.val = 1280 * (t.val / 8) + p.val; omega
    | ⟨1, _⟩ => show win8_3.index t (1 : Fin 2) * 2048 + 1 * q.val = q.val; omega
  show k8_pay3 (F := Ideal) (rowAcc8 V c (8 * (t.val / 8)) 7 _) (bblk8 V c t) (ix2 p q) = G8 V c (((cfg8.win 3).blk t).view.emb (ix2 p q))
  rw [hemb, readout8_apply, rowAcc8_apply, bblk8_apply, rowSum8 V c t h7 p q]

/-- An index of the output array is in point `t`'s block iff each coordinate is in the block's range on its axis. -/
theorem mem_blk8_3 (t : Fin cfg8.N) (i : S10240x2048.Idx) :
    i ∈ ((cfg8.win 3).blk t).view.set ↔ ∀ a : Fin 2, win8_3.index t a * S1280x2048.size a ≤ (i a).val ∧ (i a).val < win8_3.index t a * S1280x2048.size a + S1280x2048.size a := by
  show i ∈ ((View.whole (Pipeline.arrRef spec8 3)).slice (win8_3.rect t)).set ↔ _
  rw [View.set_slice_whole, Rect.mem_set_unit]
  exact Iff.rfl

/-- Every index of the output array is in the block of a point that writes back: row `r` in that of the point
    8 · (r / 1280) + 7. -/
theorem cover8_3 (i : S10240x2048.Idx) : ∃ t : Fin cfg8.N, (cfg8.win 3).flush t = true ∧ i ∈ ((cfg8.win 3).blk t).view.set := by
  have hi0 : (i 0).val < 10240 := (i 0).isLt
  have hi1 : (i 1).val < 2048 := (i 1).isLt
  have ht : 8 * ((i 0).val / 1280) + 7 < cfg8.N := by rw [show cfg8.N = 64 from N_8]; omega
  obtain ⟨-, -, -, -, -, -, e6, e7⟩ := index_facts8 ⟨8 * ((i 0).val / 1280) + 7, ht⟩
  refine ⟨⟨8 * ((i 0).val / 1280) + 7, ht⟩, (flush8_3 _).mpr (by show (8 * ((i 0).val / 1280) + 7) % 8 = 7; omega), ?_⟩
  rw [mem_blk8_3]
  intro a
  match a with
  | ⟨0, _⟩ =>
    show win8_3.index ⟨8 * ((i 0).val / 1280) + 7, ht⟩ (0 : Fin 2) * 1280 ≤ (i 0).val ∧ (i 0).val < win8_3.index ⟨8 * ((i 0).val / 1280) + 7, ht⟩ (0 : Fin 2) * 1280 + 1280
    rw [e6]; show (8 * ((i 0).val / 1280) + 7) / 8 * 1280 ≤ (i 0).val ∧ (i 0).val < (8 * ((i 0).val / 1280) + 7) / 8 * 1280 + 1280
    omega
  | ⟨1, _⟩ =>
    show win8_3.index ⟨8 * ((i 0).val / 1280) + 7, ht⟩ (1 : Fin 2) * 2048 ≤ (i 1).val ∧ (i 1).val < win8_3.index ⟨8 * ((i 0).val / 1280) + 7, ht⟩ (1 : Fin 2) * 2048 + 2048
    rw [e7]; omega

/-- THE OUTPUT ARRAY after the region: `relu(A · Hc + bias)`, index by index, of the arrays as the region finds them. -/
theorem aggArr8 (c : Dev nD) :
    ((dat8 (F := Ideal) V c).arrAt 3 cfg8.N : S10240x2048.Idx → EReal)
      = fun j => max ((∑ s : Fin 10240, arrA8 V c (ix2 (j 0) s) * arrH8 V c (ix2 s (j 1))) + arrB8 V c (ix2 0 (j 1))) zero8 :=
  (dat8 V c).arrAt_eq_of_cover 3 (G8 V c) (fun t hf => flushed8_3_eq V c t ((flush8_3 t).mp hf)) cover8_3

end Value

end Cert.KernelIdeal.Hand

end
-- ==== Proof.AggValue10.lean ====
import proofs.«169470_j5557687681111_1_alg».proof.Proof.Agg10
import proofs.«169470_j5557687681111_1_alg».proof.Proof.LibDenseAdj
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! # The value of region 10 at the ideal values: `relu(A · Hc + bias)`

## The body's payloads at an index -/

/-- The block product `[1280,1280] · [1280,2048]` into an accumulator, at an index: the accumulator there plus the sum
    over the contracted coordinate of the products of the entries. -/
theorem blockProduct10_apply (a : FVec Ideal S1280x1280 .bf16) (h : FVec Ideal S1280x2048 .bf16) (acc : FVec Ideal S1280x2048 .f32)
    (p : Fin 1280) (q : Fin 2048) :
    matmul dot_S1280x1280_S1280x2048_S1280x2048_1_0_0_1_n_n none a h acc (ix2 p q)
      = acc (ix2 p q) + ∑ k : Fin 1280, a (ix2 p k) * h (ix2 k q) := by
  show FloatOps.matmul _ none a h acc (ix2 p q) = _
  rw [Ideal.matmul_apply, ← Equiv.sum_comp (contrEquiv1 dot_S1280x1280_S1280x2048_S1280x2048_1_0_0_1_n_n 1280 rfl rfl).symm]
  refine congrArg (acc (ix2 p q) + ·) (Finset.sum_congr rfl fun k _ => ?_)
  have ck := contrEquiv1_symm_val dot_S1280x1280_S1280x2048_S1280x2048_1_0_0_1_n_n 1280 rfl rfl k
  have hl : dot_S1280x1280_S1280x2048_S1280x2048_1_0_0_1_n_n.lhsIdx (ix2 p q) ((contrEquiv1 _ 1280 rfl rfl).symm k) = ix2 p k := by
    funext ax; apply Fin.ext
    match ax with
    | ⟨0, _⟩ => simp [DotDims.lhsIdx, dot_S1280x1280_S1280x2048_S1280x2048_1_0_0_1_n_n]; rfl
    | ⟨1, _⟩ => simp [DotDims.lhsIdx, dot_S1280x1280_S1280x2048_S1280x2048_1_0_0_1_n_n]; exact ck
  have hr : dot_S1280x1280_S1280x2048_S1280x2048_1_0_0_1_n_n.rhsIdx (ix2 p q) ((contrEquiv1 _ 1280 rfl rfl).symm k) = ix2 k q := by
    funext ax; apply Fin.ext
    match ax with
    | ⟨0, _⟩ => simp [DotDims.rhsIdx, dot_S1280x1280_S1280x2048_S1280x2048_1_0_0_1_n_n]; exact ck
    | ⟨1, _⟩ => simp [DotDims.rhsIdx, dot_S1280x1280_S1280x2048_S1280x2048_1_0_0_1_n_n]; rfl
  rw [hl, hr]

/-- The zeros the accumulator restarts from. -/
theorem zeros10_apply (j : S1280x2048.Idx) : k10_pay1 (F := Ideal) j = 0 := by
  unfold k10_pay1
  simp only [shapeCast_self, broadcast_apply]
  exact Ideal.ofBits_zero_f32

/-- One accumulation step at an index: what the accumulator held there plus the block product there. -/
theorem step10_apply (s : Vec Ideal S1280x2048 .f32) (a : Vec Ideal S1280x1280 .bf16) (h : Vec Ideal S1280x2048 .bf16)
    (p : Fin 1280) (q : Fin 2048) :
    k10_pay2 (F := Ideal) s a h (ix2 p q) = s (ix2 p q) + ∑ k : Fin 1280, a (ix2 p k) * h (ix2 k q) := by
  unfold k10_pay2
  simp only [shapeCast_self]
  rw [addf_apply, blockProduct10_apply, constant_apply, Ideal.ofBits_zero_f32, zero_add]

/-- The zero the output is clamped at, as the body spells it. -/
abbrev zero10 : Ideal .f32 := Scalar.ofBits .f32 0x00000000#32

/-- The read-out at an index: the accumulator plus the bias of the column, clamped at zero (the rounding to bf16 is the
    identity at the ideal values). -/
theorem readout10_apply (s : Vec Ideal S1280x2048 .f32) (b : Vec Ideal S1x2048 .f32) (p : Fin 1280) (q : Fin 2048) :
    k10_pay3 (F := Ideal) s b (ix2 p q) = max (s (ix2 p q) + b (ix2 0 q)) zero10 := by
  unfold k10_pay3
  simp only [shapeCast_self]
  rw [truncf_apply, maximumf_apply, addf_apply, broadcast_apply,
    broadcastTo_apply b broadcasts_S1x2048_S1280x2048 (ix2 p q) (ix2 0 q) (fun ax => by
      match ax with
      | ⟨0, _⟩ => rfl
      | ⟨1, _⟩ => rfl)]

section Value

variable (V : (c : Dev nD) → (b : Ref sig .tc) → Buf (Elt Ideal) ((c : Thread nD τ).loc b))

/-! ## The arrays, and where a block's entries sit in them -/

/-- The arrays the three input windows stage, as the region finds them: `A` [10240, 10240], `Hc` [10240, 2048] and the
    bias row [1, 2048]. -/
abbrev arrA10 (c : Dev nD) : S10240x10240.Idx → EReal := V c (Pipeline.arrRef spec10 0)
abbrev arrH10 (c : Dev nD) : S10240x2048.Idx → EReal := V c (Pipeline.arrRef spec10 1)
abbrev arrB10 (c : Dev nD) : S1x2048.Idx → EReal := V c (Pipeline.arrRef spec10 2)

/-- The printed index maps in closed form, decided over the grid: point `t` is (i, k) = (t / 8, t % 8); `A`'s block is
    (i, k), `Hc`'s (k, 0), the bias's (0, 0), the output's (i, 0). -/
theorem index_facts10 : ∀ t : Fin cfg10.N, win10_0.index t (0 : Fin 2) = t.val / 8 ∧ win10_0.index t (1 : Fin 2) = t.val % 8
    ∧ win10_1.index t (0 : Fin 2) = t.val % 8 ∧ win10_1.index t (1 : Fin 2) = 0
    ∧ win10_2.index t (0 : Fin 2) = 0 ∧ win10_2.index t (1 : Fin 2) = 0
    ∧ win10_3.index t (0 : Fin 2) = t.val / 8 ∧ win10_3.index t (1 : Fin 2) = 0 :=
  (by decide +kernel : ∀ t : Fin grid10.N, _)

theorem point_lt10 (t : Fin cfg10.N) : t.val < 64 := lt_of_lt_of_eq t.isLt (show cfg10.N = 64 from N_10)

/-- The three input blocks at point `t`, at their literal types. -/
def ablk10 (c : Dev nD) (t : Fin cfg10.N) : Vec Ideal S1280x1280 .bf16 := iblk10 V c 0 t
def hblk10 (c : Dev nD) (t : Fin cfg10.N) : Vec Ideal S1280x2048 .bf16 := iblk10 V c 1 t
def bblk10 (c : Dev nD) (t : Fin cfg10.N) : Vec Ideal S1x2048 .f32 := iblk10 V c 2 t

/-- An entry of `A`'s block at point `t` is the entry of `A` at row 1280 · (t / 8) + p, column 1280 · (t % 8) + s. -/
theorem ablk10_apply (c : Dev nD) (t : Fin cfg10.N) (p s : Fin 1280) :
    ablk10 V c t (ix2 p s)
      = arrA10 V c (ix2 ⟨1280 * (t.val / 8) + p.val, by have := point_lt10 t; have := p.isLt; omega⟩
          ⟨1280 * (t.val % 8) + s.val, by have := s.isLt; omega⟩) := by
  obtain ⟨e0, e1, -⟩ := index_facts10 t
  unfold ablk10 iblk10
  show V c (Pipeline.arrRef spec10 0) (((cfg10.win 0).blk t).view.emb (ix2 p s)) = V c (Pipeline.arrRef spec10 0) _
  refine congrArg _ (funext fun a => Fin.ext ?_)
  match a with
  | ⟨0, _⟩ => show win10_0.index t (0 : Fin 2) * 1280 + 1 * p.val = 1280 * (t.val / 8) + p.val; omega
  | ⟨1, _⟩ => show win10_0.index t (1 : Fin 2) * 1280 + 1 * s.val = 1280 * (t.val % 8) + s.val; omega

/-- An entry of `Hc`'s block at point `t` is the entry of `Hc` at row 1280 · (t % 8) + s, the same column. -/
theorem hblk10_apply (c : Dev nD) (t : Fin cfg10.N) (s : Fin 1280) (q : Fin 2048) :
    hblk10 V c t (ix2 s q)
      = arrH10 V c (ix2 ⟨1280 * (t.val % 8) + s.val, by have := s.isLt; omega⟩ q) := by
  obtain ⟨-, -, e2, e3, -⟩ := index_facts10 t
  unfold hblk10 iblk10
  show V c (Pipeline.arrRef spec10 1) (((cfg10.win 1).blk t).view.emb (ix2 s q)) = V c (Pipeline.arrRef spec10 1) _
  refine congrArg _ (funext fun a => Fin.ext ?_)
  match a with
  | ⟨0, _⟩ => show win10_1.index t (0 : Fin 2) * 1280 + 1 * s.val = 1280 * (t.val % 8) + s.val; omega
  | ⟨1, _⟩ => show win10_1.index t (1 : Fin 2) * 2048 + 1 * q.val = q.val; omega

/-- The bias block is the bias row at every point. -/
theorem bblk10_apply (c : Dev nD) (t : Fin cfg10.N) (q : Fin 2048) :
    bblk10 V c t (ix2 0 q) = arrB10 V c (ix2 0 q) := by
  obtain ⟨-, -, -, -, e4, e5, -⟩ := index_facts10 t
  unfold bblk10 iblk10
  show V c (Pipeline.arrRef spec10 2) (((cfg10.win 2).blk t).view.emb (ix2 0 q)) = V c (Pipeline.arrRef spec10 2) _
  refine congrArg _ (funext fun a => Fin.ext ?_)
  match a with
  | ⟨0, _⟩ => show win10_2.index t (0 : Fin 2) * 1 + 1 * 0 = 0; omega
  | ⟨1, _⟩ => show win10_2.index t (1 : Fin 2) * 2048 + 1 * q.val = q.val; omega

/-! ## The row fold at an index -/

/-- The product of the two blocks of point `n`, at (p, q). -/
def blkProd10 (c : Dev nD) (n : ℕ) (hn : n < cfg10.N) (p : Fin 1280) (q : Fin 2048) : EReal :=
  ∑ s : Fin 1280, ablk10 V c ⟨n, hn⟩ (ix2 p s) * hblk10 V c ⟨n, hn⟩ (ix2 s q)

/-- The row fold at an index is the sum of the block products of its points. -/
theorem rowAcc10_apply (c : Dev nD) (n0 : ℕ) : ∀ (k : ℕ) (h : n0 + k < cfg10.N) (p : Fin 1280) (q : Fin 2048),
    rowAcc10 V c n0 k h (ix2 p q) = ∑ k' : Fin (k + 1), blkProd10 V c (n0 + k'.val) (by have := k'.isLt; omega) p q
  | 0, h, p, q => by
    show k10_pay2 (F := Ideal) (k10_pay1 (F := Ideal)) (ablk10 V c ⟨n0, h⟩) (hblk10 V c ⟨n0, h⟩) (ix2 p q) = _
    rw [step10_apply, zeros10_apply, zero_add, Fin.sum_univ_one]
    rfl
  | k + 1, h, p, q => by
    show k10_pay2 (F := Ideal) (rowAcc10 V c n0 k (Nat.lt_of_succ_lt h)) (ablk10 V c ⟨n0 + (k + 1), h⟩) (hblk10 V c ⟨n0 + (k + 1), h⟩) (ix2 p q) = _
    rw [step10_apply, rowAcc10_apply c n0 k (Nat.lt_of_succ_lt h) p q]
    exact (Fin.sum_univ_castSucc (fun k' : Fin (k + 1 + 1) => blkProd10 V c (n0 + k'.val) (by have := k'.isLt; omega) p q)).symm

/-! ## From blocks to the array -/

/-- The region's result as one function of the arrays: `max(∑ₛ A[r, s] · Hc[s, q] + bias[0, q], 0)`. -/
abbrev G10 (c : Dev nD) : S10240x2048.Idx → EReal := fun j =>
  max ((∑ s : Fin 10240, arrA10 V c (ix2 (j 0) s) * arrH10 V c (ix2 s (j 1))) + arrB10 V c (ix2 0 (j 1))) zero10

/-- The eight block products of a row block add up to the whole row's product: the sum over `Fin 10240` regrouped
    into 8 blocks of 1280. -/
theorem rowSum10 (c : Dev nD) (t : Fin cfg10.N) (h7 : t.val % 8 = 7) (p : Fin 1280) (q : Fin 2048) :
    ∑ k' : Fin 8, blkProd10 V c (8 * (t.val / 8) + k'.val) (by have := point_lt10 t; have := k'.isLt; exact lt_of_lt_of_eq (by omega : 8 * (t.val / 8) + k'.val < 64) N_10.symm) p q
      = ∑ s : Fin 10240, arrA10 V c (ix2 ⟨1280 * (t.val / 8) + p.val, by have := point_lt10 t; have := p.isLt; omega⟩ s) * arrH10 V c (ix2 s q) := by
  rw [Cert.LibDenseAdj.sum_blocks 8 1280 (fun s : Fin (8 * 1280) =>
    arrA10 V c (ix2 ⟨1280 * (t.val / 8) + p.val, by have := point_lt10 t; have := p.isLt; omega⟩ s) * arrH10 V c (ix2 s q))]
  refine Finset.sum_congr rfl fun k' _ => ?_
  unfold blkProd10
  refine Finset.sum_congr rfl fun s _ => ?_
  rw [ablk10_apply, hblk10_apply]
  have hk : k'.val < 8 := k'.isLt
  have hs : s.val < 1280 := s.isLt
  have hv := Cert.LibDenseAdj.finProdFinEquiv_val k' s
  have e1 : (⟨1280 * ((8 * (t.val / 8) + k'.val) % 8) + s.val, by omega⟩ : Fin 10240) = finProdFinEquiv (k', s) :=
    Fin.ext (by rw [hv]; show 1280 * ((8 * (t.val / 8) + k'.val) % 8) + s.val = s.val + 1280 * k'.val; omega)
  have e0 : (⟨1280 * ((8 * (t.val / 8) + k'.val) / 8) + p.val, by have := point_lt10 t; have := p.isLt; omega⟩ : Fin 10240)
      = ⟨1280 * (t.val / 8) + p.val, by have := point_lt10 t; have := p.isLt; omega⟩ :=
    Fin.ext (by show 1280 * ((8 * (t.val / 8) + k'.val) / 8) + p.val = 1280 * (t.val / 8) + p.val; omega)
  rw [e1, e0]

/-- WHAT A POINT WITH k = 7 WRITES BACK is its block of `G10`. -/
theorem flushed10_3_eq (c : Dev nD) (t : Fin cfg10.N) (h7 : t.val % 8 = 7) :
    (dat10 V c).flushed 3 t = ((cfg10.win 3).blk t).view.read (Elt Ideal) (G10 V c) := by
  show (cfg10.win 3).cut (grid10.coords t) ((dat10 V c).after 3 t) = _
  rw [after10_3, out10_3_last V c t h7]
  funext y
  obtain ⟨p, q, rfl⟩ : ∃ (p : Fin 1280) (q : Fin 2048), y = ix2 p q := ⟨y 0, y 1, eq_ix2 y⟩
  obtain ⟨-, -, -, -, -, -, e6, e7⟩ := index_facts10 t
  have hemb : ((cfg10.win 3).blk t).view.emb (ix2 p q)
      = ix2 ⟨1280 * (t.val / 8) + p.val, by have := point_lt10 t; have := p.isLt; omega⟩ q := by
    funext a; apply Fin.ext
    match a with
    | ⟨0, _⟩ => show win10_3.index t (0 : Fin 2) * 1280 + 1 * p.val = 1280 * (t.val / 8) + p.val; omega
    | ⟨1, _⟩ => show win10_3.index t (1 : Fin 2) * 2048 + 1 * q.val = q.val; omega
  show k10_pay3 (F := Ideal) (rowAcc10 V c (8 * (t.val / 8)) 7 _) (bblk10 V c t) (ix2 p q) = G10 V c (((cfg10.win 3).blk t).view.emb (ix2 p q))
  rw [hemb, readout10_apply, rowAcc10_apply, bblk10_apply, rowSum10 V c t h7 p q]

/-- An index of the output array is in point `t`'s block iff each coordinate is in the block's range on its axis. -/
theorem mem_blk10_3 (t : Fin cfg10.N) (i : S10240x2048.Idx) :
    i ∈ ((cfg10.win 3).blk t).view.set ↔ ∀ a : Fin 2, win10_3.index t a * S1280x2048.size a ≤ (i a).val ∧ (i a).val < win10_3.index t a * S1280x2048.size a + S1280x2048.size a := by
  show i ∈ ((View.whole (Pipeline.arrRef spec10 3)).slice (win10_3.rect t)).set ↔ _
  rw [View.set_slice_whole, Rect.mem_set_unit]
  exact Iff.rfl

/-- Every index of the output array is in the block of a point that writes back: row `r` in that of the point
    8 · (r / 1280) + 7. -/
theorem cover10_3 (i : S10240x2048.Idx) : ∃ t : Fin cfg10.N, (cfg10.win 3).flush t = true ∧ i ∈ ((cfg10.win 3).blk t).view.set := by
  have hi0 : (i 0).val < 10240 := (i 0).isLt
  have hi1 : (i 1).val < 2048 := (i 1).isLt
  have ht : 8 * ((i 0).val / 1280) + 7 < cfg10.N := by rw [show cfg10.N = 64 from N_10]; omega
  obtain ⟨-, -, -, -, -, -, e6, e7⟩ := index_facts10 ⟨8 * ((i 0).val / 1280) + 7, ht⟩
  refine ⟨⟨8 * ((i 0).val / 1280) + 7, ht⟩, (flush10_3 _).mpr (by show (8 * ((i 0).val / 1280) + 7) % 8 = 7; omega), ?_⟩
  rw [mem_blk10_3]
  intro a
  match a with
  | ⟨0, _⟩ =>
    show win10_3.index ⟨8 * ((i 0).val / 1280) + 7, ht⟩ (0 : Fin 2) * 1280 ≤ (i 0).val ∧ (i 0).val < win10_3.index ⟨8 * ((i 0).val / 1280) + 7, ht⟩ (0 : Fin 2) * 1280 + 1280
    rw [e6]; show (8 * ((i 0).val / 1280) + 7) / 8 * 1280 ≤ (i 0).val ∧ (i 0).val < (8 * ((i 0).val / 1280) + 7) / 8 * 1280 + 1280
    omega
  | ⟨1, _⟩ =>
    show win10_3.index ⟨8 * ((i 0).val / 1280) + 7, ht⟩ (1 : Fin 2) * 2048 ≤ (i 1).val ∧ (i 1).val < win10_3.index ⟨8 * ((i 0).val / 1280) + 7, ht⟩ (1 : Fin 2) * 2048 + 2048
    rw [e7]; omega

/-- THE OUTPUT ARRAY after the region: `relu(A · Hc + bias)`, index by index, of the arrays as the region finds them. -/
theorem aggArr10 (c : Dev nD) :
    ((dat10 (F := Ideal) V c).arrAt 3 cfg10.N : S10240x2048.Idx → EReal)
      = fun j => max ((∑ s : Fin 10240, arrA10 V c (ix2 (j 0) s) * arrH10 V c (ix2 s (j 1))) + arrB10 V c (ix2 0 (j 1))) zero10 :=
  (dat10 V c).arrAt_eq_of_cover 3 (G10 V c) (fun t hf => flushed10_3_eq V c t ((flush10_3 t).mp hf)) cover10_3

end Value

end Cert.KernelIdeal.Hand

end
-- ==== Proof.KAdj.lean ====
import proofs.«169470_j5557687681111_1_alg».proof.Proof.Gen.KernelIdeal
import proofs.«169470_j5557687681111_1_alg».proof.Proof.Spec
import proofs.«169470_j5557687681111_1_alg».proof.Proof.RefChain
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

/-! ## The scatter-add that builds the dense adjacency matrix -/

/-- One update per edge, added at (the edge's first index word, its second index word). -/
abbrev scatterAdj : ScatterDims S10240x10240 S70000x2 S70000 := scatter_S10240x10240_S70000x2_S70000_n_01_01_1

theorem scatterAdj_window (j : S70000.Idx) (a : Fin S10240x10240.rank) : scatterAdj.window j a = 0 := by
  unfold ScatterDims.window
  rw [dif_neg (by revert a; decide)]

theorem scatterAdj_start0 {w : Nat} (e : Fin 70000) (idx : IVec S70000x2 w) :
    scatterAdj.start (ix1 e) idx 0 = (idx (ix2 e (0 : Fin 2))).toInt := by
  unfold ScatterDims.start
  rw [dif_pos (show (0 : Fin S10240x10240.rank) ∈ scatterAdj.scatterDimsToOperandDims by decide)]
  have hsi : scatterAdj.siIdx (ix1 e) ⟨List.idxOf (0 : Fin S10240x10240.rank) scatterAdj.scatterDimsToOperandDims,
      List.idxOf_lt_length_iff.2 (show (0 : Fin S10240x10240.rank) ∈ scatterAdj.scatterDimsToOperandDims by decide)⟩
      = ix2 e (0 : Fin 2) := by
    funext c; refine Fin.ext ?_
    match c with
    | ⟨0, _⟩ => rfl
    | ⟨1, _⟩ => rfl
  rw [hsi]

theorem scatterAdj_start1 {w : Nat} (e : Fin 70000) (idx : IVec S70000x2 w) :
    scatterAdj.start (ix1 e) idx 1 = (idx (ix2 e (1 : Fin 2))).toInt := by
  unfold ScatterDims.start
  rw [dif_pos (show (1 : Fin S10240x10240.rank) ∈ scatterAdj.scatterDimsToOperandDims by decide)]
  have hsi : scatterAdj.siIdx (ix1 e) ⟨List.idxOf (1 : Fin S10240x10240.rank) scatterAdj.scatterDimsToOperandDims,
      List.idxOf_lt_length_iff.2 (show (1 : Fin S10240x10240.rank) ∈ scatterAdj.scatterDimsToOperandDims by decide)⟩
      = ix2 e (1 : Fin 2) := by
    funext c; refine Fin.ext ?_
    match c with
    | ⟨0, _⟩ => rfl
    | ⟨1, _⟩ => rfl
  rw [hsi]

/-- WHERE AN UPDATE LANDS: edge e's update lands at (v, u) when its two index words, read signed, are v and u. -/
theorem scatterAdj_resultIdx {w : Nat} (idx : IVec S70000x2 w) (e : Fin 70000) (v u : Fin 10240)
    (hv : (idx (ix2 e (0 : Fin 2))).toInt = (v.val : Int)) (hu : (idx (ix2 e (1 : Fin 2))).toInt = (u.val : Int)) :
    scatterAdj.resultIdx? (ix1 e) idx = some (ix2 v u) := by
  have hall : ∀ a : Fin S10240x10240.rank,
      scatterAdj.start (ix1 e) idx a + (scatterAdj.window (ix1 e) a : Int) = ((ix2 v u a).val : Int) := by
    intro a
    match a with
    | ⟨0, _⟩ =>
      show scatterAdj.start (ix1 e) idx 0 + (scatterAdj.window (ix1 e) 0 : Int) = (v.val : Int)
      rw [scatterAdj_start0, scatterAdj_window, hv]; omega
    | ⟨1, _⟩ =>
      show scatterAdj.start (ix1 e) idx 1 + (scatterAdj.window (ix1 e) 1 : Int) = (u.val : Int)
      rw [scatterAdj_start1, scatterAdj_window, hu]; omega
  unfold ScatterDims.resultIdx?
  rw [dif_pos (fun a => by
    rw [hall a]
    exact ⟨Int.natCast_nonneg _, by exact_mod_cast (ix2 v u a).isLt⟩)]
  congr 1
  funext a
  refine Fin.ext ?_
  show (scatterAdj.start (ix1 e) idx a + (scatterAdj.window (ix1 e) a : Int)).toNat = (ix2 v u a).val
  rw [hall a]
  exact Int.toNat_natCast _

theorem ix2_inj {n0 n1 : Nat} {a a' : Fin n0} {b b' : Fin n1} (h : ix2 a b = ix2 a' b') : a = a' ∧ b = b' :=
  ⟨congrFun h 0, congrFun h 1⟩

/-- THE SCATTER-ADD AT (v, u), the index words in range: the operand there plus the sum of the updates of the edges
    whose index words name (v, u). -/
theorem scatterAdj_apply {w : Nat} (x : FVec Ideal S10240x10240 .f32) (idx : IVec S70000x2 w) (upd : FVec Ideal S70000 .f32)
    (d s : Fin 70000 → Fin 10240)
    (hD : ∀ e, (idx (ix2 e (0 : Fin 2))).toInt = ((d e).val : Int))
    (hS : ∀ e, (idx (ix2 e (1 : Fin 2))).toInt = ((s e).val : Int)) (v u : Fin 10240) :
    Host.scatterAdd scatterAdj x idx upd (ix2 v u)
      = x (ix2 v u) + ∑ e : Fin 70000, if d e = v ∧ s e = u then upd (ix1 e) else 0 := by
  show Ideal.hostScatterAdd scatterAdj x idx upd (ix2 v u) = _
  unfold Ideal.hostScatterAdd
  refine congrArg (fun t => x (ix2 v u) + t) ?_
  refine (Finset.sum_congr
    (s₂ := (Finset.univ.filter fun e : Fin 70000 => d e = v ∧ s e = u).image (fun e => (ix1 e : S70000.Idx))) ?_
    (fun _ _ => rfl)).trans ?_
  · ext j
    simp only [Finset.mem_filter, Finset.mem_univ, true_and, Finset.mem_image]
    constructor
    · intro hj
      obtain ⟨je, rfl⟩ : ∃ je : Fin 70000, j = ix1 je := ⟨j 0, eq_ix1 j⟩
      rw [scatterAdj_resultIdx idx je (d je) (s je) (hD je) (hS je)] at hj
      obtain ⟨h0, h1⟩ := ix2_inj (Option.some.inj hj)
      exact ⟨je, ⟨h0, h1⟩, rfl⟩
    · rintro ⟨e, ⟨hd, hs⟩, rfl⟩
      rw [scatterAdj_resultIdx idx e (d e) (s e) (hD e) (hS e), hd, hs]
  · rw [Finset.sum_image (fun e _ e' _ h => congrFun h 0), Finset.sum_filter]

/-! ## The index columns of the adjacency scatter -/

/-- A word vector with a negative word moved up by 10240 (the padded extent). -/
def wrapPad (v : IVec S70000 32) : IVec S70000 32 :=
  select (cmpi .slt v (broadcastInDim S70000 ![] Facts₀.bcast_S_S70000 (constantI S_ 32 0#32)))
    (addi v (broadcastInDim S70000 ![] Facts₀.bcast_S_S70000 (constantI S_ 32 10240#32))) v

/-- A word that is not negative is left alone. -/
theorem wrapPad_apply (v : IVec S70000 32) (e : Fin 70000) (h : 0 ≤ (v (ix1 e)).toInt) :
    wrapPad v (ix1 e) = v (ix1 e) := by
  show Scalar.select (IntOp.cmpi .slt (v (ix1 e)) 0#32) (IntOp.addi (v (ix1 e)) 10240#32) (v (ix1 e)) = v (ix1 e)
  have hs : IntOp.cmpi .slt (v (ix1 e)) 0#32 = 0#1 := by
    show BitVec.ofBool (BitVec.slt (v (ix1 e)) 0#32) = 0#1
    have : BitVec.slt (v (ix1 e)) 0#32 = false := by
      rw [BitVec.slt, decide_eq_false_iff_not]
      have z : (0#32 : BitVec 32).toInt = 0 := by decide
      rw [z]; omega
    rw [this]; rfl
  rw [hs]
  exact select_zero _ _

/-- The two index columns of the scatter: the targets' words, then the sources' words, each wrapped. -/
def adjIdx (ei : IVec S2x60000 32) : IVec S70000x2 32 :=
  concatenate S70000x2 1
    [⟨S70000x1, broadcastInDim S70000x1 ![0] Facts₀.bcast_S70000_S70000x1_0 (wrapPad (Cert.Spec.dstVec ei))⟩,
     ⟨S70000x1, broadcastInDim S70000x1 ![0] Facts₀.bcast_S70000_S70000x1_0 (wrapPad (Cert.Spec.srcVec ei))⟩]
    Facts₀.concatenates_S70000x1_S70000x1_S70000x2_d1

theorem col_apply (v : IVec S70000 32) (e : Fin 70000) :
    broadcastInDim S70000x1 ![0] Facts₀.bcast_S70000_S70000x1_0 v (ix2 e (0 : Fin 1)) = v (ix1 e) :=
  broadcastInDim_apply ![0] Facts₀.bcast_S70000_S70000x1_0 v (ix2 e (0 : Fin 1)) (ix1 e) (fun a => match a with
    | ⟨0, _⟩ => by show e.val = if (70000 : Nat) = 1 then 0 else e.val; rw [if_neg (by decide)])

/-- Column 0 at edge e, the edge list in range: the target word of e. -/
theorem adjIdx_col0 (ei : IVec S2x60000 32) (hidx : Cert.Spec.InRange ei) (e : Fin 70000) :
    adjIdx ei (ix2 e (0 : Fin 2)) = Cert.Spec.dstVec ei (ix1 e) := by
  unfold adjIdx
  refine (concatenate_pair_apply_left (1 : Fin S70000x2.rank) _ _ Facts₀.concatenates_S70000x1_S70000x1_S70000x2_d1
    (ix2 e (0 : Fin 2)) rfl (ix2 e (0 : Fin 1)) (fun b => match b with | ⟨0, _⟩ => rfl | ⟨1, _⟩ => rfl)).trans ?_
  rw [col_apply]
  exact wrapPad_apply _ e (by rw [Cert.Spec.dstVec_toInt ei hidx e]; exact Int.natCast_nonneg _)

/-- Column 1 at edge e, the edge list in range: the source word of e. -/
theorem adjIdx_col1 (ei : IVec S2x60000 32) (hidx : Cert.Spec.InRange ei) (e : Fin 70000) :
    adjIdx ei (ix2 e (1 : Fin 2)) = Cert.Spec.srcVec ei (ix1 e) := by
  unfold adjIdx
  refine (concatenate_pair_apply_right (1 : Fin S70000x2.rank) _ _ Facts₀.concatenates_S70000x1_S70000x1_S70000x2_d1
    (ix2 e (1 : Fin 2)) rfl rfl (ix2 e (0 : Fin 1))
    (fun b hb => match b with
      | ⟨0, _⟩ => rfl
      | ⟨1, _⟩ => absurd rfl hb)
    (by show (0 : Nat) + 1 = 1; rfl)).trans ?_
  rw [col_apply]
  exact wrapPad_apply _ e (by rw [Cert.Spec.srcVec_toInt ei hidx e]; exact Int.natCast_nonneg _)

/-! ## The dense adjacency matrix -/

/-- THE ADJACENCY MATRIX as the operations spell it: zeros of the padded extent, the edges' normalisation added at
    (target, source), then the change of format (the identity on an extended real). -/
def adjTerm (ei : IVec S2x60000 32) : FVec Ideal S10240x10240 .bf16 :=
  truncf .bf16 (Host.scatterAdd scatterAdj
    (broadcastInDim S10240x10240 ![] Facts₀.bcast_S_S10240x10240 (constant (F := Ideal) S_ .f32 0x00000000#32))
    (adjIdx ei) (Cert.Spec.nrmVec ei)) Facts₀.bitsLt_bf16_f32

/-- THE ADJACENCY MATRIX AT (v, s), the edge list in range: the sum of the normalisations of the edges from s to v. -/
theorem adjTerm_apply (ei : IVec S2x60000 32) (hidx : Cert.Spec.InRange ei) (v s : Fin 10240) :
    (adjTerm ei : S10240x10240.Idx → EReal) (ix2 v s)
      = ∑ e : Fin 70000, if (Cert.Spec.edgeDst ei e).val = v.val ∧ (Cert.Spec.edgeSrc ei e).val = s.val
          then Cert.Spec.nrm ei e else 0 := by
  show Host.scatterAdd scatterAdj
    (broadcastInDim S10240x10240 ![] Facts₀.bcast_S_S10240x10240 (constant (F := Ideal) S_ .f32 0x00000000#32))
    (adjIdx ei) (Cert.Spec.nrmVec ei) (ix2 v s) = _
  rw [scatterAdj_apply _ (adjIdx ei) (Cert.Spec.nrmVec ei)
    (fun e => (⟨(Cert.Spec.edgeDst ei e).val, by have := (Cert.Spec.edgeDst ei e).isLt; omega⟩ : Fin 10240))
    (fun e => (⟨(Cert.Spec.edgeSrc ei e).val, by have := (Cert.Spec.edgeSrc ei e).isLt; omega⟩ : Fin 10240))
    (fun e => by rw [adjIdx_col0 ei hidx e, Cert.Spec.dstVec_toInt ei hidx e])
    (fun e => by rw [adjIdx_col1 ei hidx e, Cert.Spec.srcVec_toInt ei hidx e]) v s]
  have hz : broadcastInDim S10240x10240 ![] Facts₀.bcast_S_S10240x10240 (constant (F := Ideal) S_ .f32 0x00000000#32) (ix2 v s)
      = (0 : EReal) := Ideal.ofBits_zero_f32
  rw [hz, zero_add]
  refine Finset.sum_congr rfl fun e _ => ?_
  simp only [Fin.ext_iff]
  rfl

/-! ## The normalisation is a real number -/

/-- The reciprocal square root of anything positive — plus infinity too — is a real number. -/
theorem rsqrt_real_of_pos (x : EReal) (h : 0 < x) : ∃ r : ℝ, Ideal.rsqrt x = (r : EReal) := by
  induction x using EReal.rec with
  | bot => exact absurd h (by simp)
  | top => exact ⟨0, by simp⟩
  | coe r =>
    have hr : 0 < r := by exact_mod_cast h
    refine ⟨(Real.sqrt r)⁻¹, ?_⟩
    rw [Ideal.rsqrt_coe, if_neg (not_lt.2 hr.le), if_neg hr.ne']

/-- The reciprocal square root where the argument is positive, zero elsewhere: a real number whatever the argument. -/
theorem select_rsqrt_real (x : EReal) :
    ∃ r : ℝ, Scalar.select (Ideal.cmp .ogt x (Ideal.ofBits .f32 0x00000000#32)) (Ideal.rsqrt x)
      (Ideal.ofBits .f32 0x00000000#32) = (r : EReal) := by
  by_cases hc : Ideal.cmp .ogt x (Ideal.ofBits .f32 0x00000000#32) = 1#1
  · rw [hc, select_one]
    have hpos : (0 : EReal) < x := by
      have h' : decide (Ideal.ofBits .f32 0x00000000#32 < x) = true := by
        by_contra hn
        rw [Bool.not_eq_true] at hn
        have : Ideal.cmp .ogt x (Ideal.ofBits .f32 0x00000000#32) = 0#1 := by
          show BitVec.ofBool (decide (Ideal.ofBits .f32 0x00000000#32 < x)) = 0#1
          rw [hn]; rfl
        rw [this] at hc
        exact absurd hc (by decide)
      have := of_decide_eq_true h'
      rwa [Ideal.ofBits_zero_f32] at this
    exact rsqrt_real_of_pos _ hpos
  · rw [eq_zero_of_ne_one hc, select_zero]
    exact ⟨0, by rw [Ideal.ofBits_zero_f32]; rfl⟩

/-- dinv is a real number at every node, whatever the degree is. -/
theorem dinvVec_real (ei : IVec S2x60000 32) (i : Cert.Spec.S10000.Idx) : ∃ r : ℝ, Cert.Spec.dinvVec ei i = (r : EReal) := by
  unfold Cert.Spec.dinvVec
  rw [select_apply, cmpf_apply]
  generalize Cert.Spec.degVec ei = D
  exact select_rsqrt_real (D i)

/-- A gather of one element per edge at the node its index word names, clamped into range. -/
theorem gatherNode_apply {α : Type} {w : Nat} (x : Cert.Spec.S10000.Idx → α) (idx : IVec Cert.Spec.S70000x1 w) (e : Fin 70000) :
    Host.gather Cert.Spec.gatherNode x idx (ix1 e)
      = x (ix1 (⟨min (idx (ix2 e (0 : Fin 1))).toInt.toNat (10000 - 1), by omega⟩ : Fin 10000)) := by
  unfold Host.gather
  congr 1
  funext a
  obtain rfl : a = 0 := Subsingleton.elim _ _
  refine Fin.ext ?_
  show Cert.Spec.gatherNode.start (ix1 e) idx 0 + Cert.Spec.gatherNode.batchCoord (ix1 e) 0
    + Cert.Spec.gatherNode.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin Cert.Spec.S10000.rank) ∈ Cert.Spec.gatherNode.startIndexMap from List.mem_singleton.mpr rfl)]
  have hsi : Cert.Spec.gatherNode.siIdx (ix1 e) ⟨List.idxOf (0 : Fin Cert.Spec.S10000.rank) Cert.Spec.gatherNode.startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE NORMALISATION OF EVERY EDGE IS A REAL NUMBER: a product of two values of dinv. -/
theorem nrm_real (ei : IVec S2x60000 32) (hidx : Cert.Spec.InRange ei) (e : Fin 70000) :
    ∃ r : ℝ, Cert.Spec.nrm ei e = (r : EReal) := by
  show ∃ r : ℝ, Host.gather Cert.Spec.gatherNode (Cert.Spec.dinvVec ei) (Cert.Spec.wrapIdx (Cert.Spec.srcVec ei)) (ix1 e)
    * Host.gather Cert.Spec.gatherNode (Cert.Spec.dinvVec ei) (Cert.Spec.wrapIdx (Cert.Spec.dstVec ei)) (ix1 e) = (r : EReal)
  rw [gatherNode_apply, gatherNode_apply]
  obtain ⟨r1, h1⟩ := dinvVec_real ei (ix1 (⟨min (Cert.Spec.wrapIdx (Cert.Spec.srcVec ei) (ix2 e (0 : Fin 1))).toInt.toNat (10000 - 1), by omega⟩ : Fin 10000))
  obtain ⟨r2, h2⟩ := dinvVec_real ei (ix1 (⟨min (Cert.Spec.wrapIdx (Cert.Spec.dstVec ei) (ix2 e (0 : Fin 1))).toInt.toNat (10000 - 1), by omega⟩ : Fin 10000))
  exact ⟨r1 * r2, by rw [h1, h2, EReal.coe_mul]⟩

end Cert.KernelIdeal.Hand

end
-- ==== Proof.KAdjRead.lean ====
import proofs.«169470_j5557687681111_1_alg».proof.Proof.Bounds
import proofs.«169470_j5557687681111_1_alg».proof.Proof.KAdj
import Idealize.ShloMosaic.Lib.Tactic

/-!
The dense adjacency matrix as the first region finds it: the three leading host stretches compute the edge words,
the degrees, dinv, the edges' normalisation and the scatter-add of that normalisation at (target, source); nothing
later writes the matrix's buffer.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic

/-! ## The leading host stretches, read at any valuation -/

/-- The source words: row 0 of the edge list, then the nodes in order. -/
theorem ops0_v5 (ρ : Valuation τ sig (Elt Ideal)) :
    StableHlo.after hostOps0 ρ (Proc.devRef .tc main_v5) = Cert.Spec.srcVec (ρ main_arg2) := by
  after_results <;> rfl
/-- The target words: row 1 of the edge list, then the nodes in order. -/
theorem ops0_v6 (ρ : Valuation τ sig (Elt Ideal)) :
    StableHlo.after hostOps0 ρ (Proc.devRef .tc main_v6) = Cert.Spec.dstVec (ρ main_arg2) := by
  after_results <;> rfl
/-- The test "degree positive". -/
theorem ops0_v12 (ρ : Valuation τ sig (Elt Ideal)) :
    StableHlo.after hostOps0 ρ (Proc.devRef .tc main_v12)
      = cmpf (F := Ideal) .ogt (Cert.Spec.degVec (ρ main_arg2))
          (broadcastInDim S10000 ![] Facts₀.bcast_S_S10000 (constant (F := Ideal) S_ .f32 0x00000000#32)) := by
  after_results <;> rfl
/-- The reciprocal square root of the degree. -/
theorem ops0_v13 (ρ : Valuation τ sig (Elt Ideal)) :
    StableHlo.after hostOps0 ρ (Proc.devRef .tc main_v13) = Host.rsqrt (Cert.Spec.degVec (ρ main_arg2)) := by
  after_results <;> rfl
/-- The zero dinv takes where the degree is not positive. -/
theorem ops0_cst2 (ρ : Valuation τ sig (Elt Ideal)) :
    StableHlo.after hostOps0 ρ (Proc.devRef .tc main_cst_2) = constant (F := Ideal) S_ .f32 0x00000000#32 := by
  after_results <;> rfl
/-- dinv, from the test, the reciprocal square root and the zero. -/
theorem ops01_v14 (ρ : Valuation τ sig (Elt Ideal)) :
    StableHlo.after hostOps0_1 ρ (Proc.devRef .tc main_v14)
      = select (ρ main_v12) (ρ main_v13) (broadcastInDim S10000 ![] Facts₀.bcast_S_S10000 (id (ρ main_cst_2))) := by
  after_results <;> rfl
set_option maxHeartbeats 4000000 in
/-- The adjacency matrix, from the edge words and dinv. -/
theorem ops02_v45 (ρ : Valuation τ sig (Elt Ideal)) :
    StableHlo.after hostOps0_2 ρ (Proc.devRef .tc main_v45)
      = truncf .bf16 (Host.scatterAdd scatterAdj
          (broadcastInDim S10240x10240 ![] Facts₀.bcast_S_S10240x10240 (constant (F := Ideal) S_ .f32 0x00000000#32))
          (concatenate S70000x2 1
            [⟨S70000x1, broadcastInDim S70000x1 ![0] Facts₀.bcast_S70000_S70000x1_0 (wrapPad (ρ main_v6))⟩,
             ⟨S70000x1, broadcastInDim S70000x1 ![0] Facts₀.bcast_S70000_S70000x1_0 (wrapPad (ρ main_v5))⟩]
            Facts₀.concatenates_S70000x1_S70000x1_S70000x2_d1)
          (mulf (Host.gather Cert.Spec.gatherNode (ρ main_v14) (Cert.Spec.wrapIdx (ρ main_v5)))
            (Host.gather Cert.Spec.gatherNode (ρ main_v14) (Cert.Spec.wrapIdx (ρ main_v6))))) Facts₀.bitsLt_bf16_f32 := by
  after_results_simp <;> rfl

/-! ## The matrix at the first boundary -/

variable (m : (ℓ : Loc nD τ sig) → Buf (Elt Ideal) ℓ)

/-- dinv after the second host stretch is the specification's, of the launch's edge list. -/
theorem dinv_at2 (c : Dev nD) : V2 m c main_v14 = Cert.Spec.dinvVec (m (c, main_arg2)) := by
  refine (ops01_v14 (V1 m c)).trans ?_
  have h12 : V1 m c main_v12 = _ := ops0_v12 (V0 m c)
  have h13 : V1 m c main_v13 = _ := ops0_v13 (V0 m c)
  have hc : V1 m c main_cst_2 = _ := ops0_cst2 (V0 m c)
  rw [h12, h13, hc]
  rfl

/-- THE ADJACENCY MATRIX AT THE FIRST BOUNDARY is the operations' composed term of the launch's edge list. -/
theorem adj_read (c : Dev nD) :
    B5 (F := Ideal) m c main_v45 = adjTerm (m ((c.tc : Thread nD τ).loc main_arg2)) := by
  rw [← V5_eq]
  refine (V5_of m c main_v45 (by decide)).trans <| (V4_of m c main_v45 (by decide)).trans ?_
  refine (ops02_v45 (V2 m c)).trans ?_
  have h5 : V2 m c main_v5 = Cert.Spec.srcVec (m (c, main_arg2)) :=
    (V2_of m c main_v5 (by decide)).trans (ops0_v5 (V0 m c))
  have h6 : V2 m c main_v6 = Cert.Spec.dstVec (m (c, main_arg2)) :=
    (V2_of m c main_v6 (by decide)).trans (ops0_v6 (V0 m c))
  rw [h5, h6, dinv_at2 m c]
  rfl

end Cert.KernelIdeal.Hand

end
-- ==== Proof.KernelValue.lean ====
import proofs.«169470_j5557687681111_1_alg».proof.Proof.HostChain
import proofs.«169470_j5557687681111_1_alg».proof.Proof.KernelEnds
import proofs.«169470_j5557687681111_1_alg».proof.Proof.KStepSpec
import proofs.«169470_j5557687681111_1_alg».proof.Proof.AggValue2
import proofs.«169470_j5557687681111_1_alg».proof.Proof.AggValue4
import proofs.«169470_j5557687681111_1_alg».proof.Proof.AggValue6
import proofs.«169470_j5557687681111_1_alg».proof.Proof.AggValue8
import proofs.«169470_j5557687681111_1_alg».proof.Proof.AggValue10
import proofs.«169470_j5557687681111_1_alg».proof.Proof.KAdj
import proofs.«169470_j5557687681111_1_alg».proof.Proof.KAdjRead
import proofs.«169470_j5557687681111_1_alg».proof.Proof.PreFacts

/-!
The kernel's value on the extended reals: the result buffer after the last host stretch is the network of the nine
argument arrays.

The hidden state travels as an array of 81920 rows (batch, node) by 256 channels, the 240 padding rows of each batch
carried along. The input layer puts the specification's first hidden state on the node rows (and reals everywhere);
each convolution layer of the kernel — linear map, regrouping, product with the dense adjacency matrix plus bias
against zero, regrouping back — takes an array holding a hidden state to one holding the next; the output layer and
the final slice read the result off the node rows. The precondition gives what the steps need: every number in the
argument arrays is real, and every entry of the edge list names a node.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

variable (m : (ℓ : Loc nD τ sig) → Buf (Elt Ideal) ℓ)

/-! ## The aggregations' results -/

/-- Layer 0's aggregation: the adjacency matrix times the regrouped linear map, plus the bias row, against zero. -/
theorem aggOut0 (c : Dev nD) :
    B10 m c main_v72 = aggG (B9 m c main_v45) (B9 m c main_v65) (B9 m c main_v71) := by
  unfold B10
  rw [Function.update_self]
  exact aggArr2 (fun c b => B9 m c b) c
/-- Layer 1's aggregation: the adjacency matrix times the regrouped linear map, plus the bias row, against zero. -/
theorem aggOut1 (c : Dev nD) :
    B14 m c main_v88 = aggG (B13 m c main_v45) (B13 m c main_v81) (B13 m c main_v87) := by
  unfold B14
  rw [Function.update_self]
  exact aggArr4 (fun c b => B13 m c b) c
/-- Layer 2's aggregation: the adjacency matrix times the regrouped linear map, plus the bias row, against zero. -/
theorem aggOut2 (c : Dev nD) :
    B18 m c main_v104 = aggG (B17 m c main_v45) (B17 m c main_v97) (B17 m c main_v103) := by
  unfold B18
  rw [Function.update_self]
  exact aggArr6 (fun c b => B17 m c b) c
/-- Layer 3's aggregation: the adjacency matrix times the regrouped linear map, plus the bias row, against zero. -/
theorem aggOut3 (c : Dev nD) :
    B22 m c main_v120 = aggG (B21 m c main_v45) (B21 m c main_v113) (B21 m c main_v119) := by
  unfold B22
  rw [Function.update_self]
  exact aggArr8 (fun c b => B21 m c b) c
/-- Layer 4's aggregation: the adjacency matrix times the regrouped linear map, plus the bias row, against zero. -/
theorem aggOut4 (c : Dev nD) :
    B26 m c main_v136 = aggG (B25 m c main_v45) (B25 m c main_v129) (B25 m c main_v135) := by
  unfold B26
  rw [Function.update_self]
  exact aggArr10 (fun c b => B25 m c b) c

/-! ## Each convolution layer of the kernel is one step -/

/-- The input of the linear map after layer 0 is one step from layer 0's. -/
theorem layer0 (c : Dev nD) :
    B11 m c main_v75 = kstep (B5 m c main_v45) (B7 m c main_v61) (B9 m c main_v71) (B7 m c main_v59) := by
  rw [linX1, aggOut0, aggA0, aggH0, linOut0]
  rfl
/-- The input of the linear map after layer 1 is one step from layer 1's. -/
theorem layer1 (c : Dev nD) :
    B15 m c main_v91 = kstep (B5 m c main_v45) (B11 m c main_v77) (B13 m c main_v87) (B11 m c main_v75) := by
  rw [linX2, aggOut1, aggA1, aggH1, linOut1]
  rfl
/-- The input of the linear map after layer 2 is one step from layer 2's. -/
theorem layer2 (c : Dev nD) :
    B19 m c main_v107 = kstep (B5 m c main_v45) (B15 m c main_v93) (B17 m c main_v103) (B15 m c main_v91) := by
  rw [linX3, aggOut2, aggA2, aggH2, linOut2]
  rfl
/-- The input of the linear map after layer 3 is one step from layer 3's. -/
theorem layer3 (c : Dev nD) :
    B23 m c main_v123 = kstep (B5 m c main_v45) (B19 m c main_v109) (B21 m c main_v119) (B19 m c main_v107) := by
  rw [linX4, aggOut3, aggA3, aggH3, linOut3]
  rfl
/-- The input of the linear map after layer 4 is one step from layer 4's. -/
theorem layer4 (c : Dev nD) :
    B27 m c main_v139 = kstep (B5 m c main_v45) (B23 m c main_v125) (B25 m c main_v135) (B23 m c main_v123) := by
  rw [outX, aggOut4, aggA4, aggH4, linOut4]
  rfl

/-! ## The input layer's array -/

/-- The features the input layer reads: the padded features of the first two argument arrays. -/
theorem in0_feat (c : Dev nD) : B5 m c main_v55 = padFeat (m (c, main_arg0)) (m (c, main_arg1)) := by
  rw [in0_X]
  have e51 : V4 m c main_v51 = pad S8x10240x515 ![0, 0, 0] ![0, 240, 0] ![0, 0, 0] (V3 m c main_v50)
      (sitofp .f32 (V3 m c main_c_11) : FVec Ideal S_ .f32) pads_S8x10000x515_S8x10240x515_000_02400_000 h_S_ :=
    ops03_v51 (V3 m c)
  have e50 : V3 m c main_v50 = featArr (V2 m c main_arg0) (V2 m c main_arg1) := ops02_v50 (V2 m c)
  have e11 : V3 m c main_c_11 = constantI S_ 32 0#32 := ops02_c11 (V2 m c)
  have ea0 : V2 m c main_arg0 = m (c, main_arg0) := (V2_of m c main_arg0 (by decide)).trans (V1_of m c main_arg0 (by decide))
  have ea1 : V2 m c main_arg1 = m (c, main_arg1) := (V2_of m c main_arg1 (by decide)).trans (V1_of m c main_arg1 (by decide))
  rw [e51, e50, e11, ea0, ea1]

/-! ## The argument arrays -/

/-- The nine argument arrays on core c, at their plain types. -/
abbrev argXyz (c : Dev nD) : S10000x3.Idx → EReal := m (c, main_arg0)
abbrev argLat (c : Dev nD) : S8x512.Idx → EReal := m (c, main_arg1)
abbrev argEi (c : Dev nD) : IVec S2x60000 32 := m (c, main_arg2)
abbrev argWin (c : Dev nD) : S256x515.Idx → EReal := m (c, main_arg3)
abbrev argBin (c : Dev nD) : S256.Idx → EReal := m (c, main_arg4)
abbrev argWc (c : Dev nD) : S5x256x256.Idx → EReal := m (c, main_arg5)
abbrev argBc (c : Dev nD) : S5x256.Idx → EReal := m (c, main_arg6)
abbrev argWo (c : Dev nD) : S3x256.Idx → EReal := m (c, main_arg7)
abbrev argBo (c : Dev nD) : S3.Idx → EReal := m (c, main_arg8)

/-! ## The hidden state, layer by layer -/

/-- After the input layer the array holds the specification's first hidden state. -/
theorem pad0 (c : Dev nD) (hx : ∀ i, ∃ r : ℝ, argXyz m c i = (r : EReal)) (hl : ∀ i, ∃ r : ℝ, argLat m c i = (r : EReal))
    (hW : ∀ i, ∃ r : ℝ, argWin m c i = (r : EReal)) (hb : ∀ i, ∃ r : ℝ, argBin m c i = (r : EReal)) :
    PadHid (B7 m c main_v59) (Cert.Spec.hid0 (argXyz m c) (argLat m c) (argWin m c) (argBin m c)) := by
  rw [linX0, out0, in0_feat, in0_W, in0_B]
  refine ⟨fun b v k => ?_, fun j => ?_⟩
  · exact inLayer_node (argXyz m c) (argLat m c) (argWin m c) (argBin m c) b v k
  · obtain ⟨p, o, rfl⟩ : ∃ (p : Fin 81920) (o : Fin 256), j = ix2 p o := ⟨j 0, j 1, eq_ix2 j⟩
    exact inLayer_real (argXyz m c) (argLat m c) (argWin m c) (argBin m c) hx hl hW hb p o

/-- Convolution layer 0: an array holding a hidden state goes to one holding the specification's next. -/
theorem padStep0 (c : Dev nD) (hidx : Cert.Spec.InRange (argEi m c)) (hWc : ∀ i, ∃ r : ℝ, argWc m c i = (r : EReal))
    (hbc : ∀ i, ∃ r : ℝ, argBc m c i = (r : EReal)) (H : Cert.Spec.Hidden) (hP : PadHid (B7 m c main_v59) H) :
    PadHid (B11 m c main_v75) (Cert.Spec.conv (argEi m c) (argWc m c) (argBc m c) (⟨0, by decide⟩ : Fin 5) H) := by
  rw [layer0]
  refine kstep_spec (argEi m c) hidx H (⟨0, by decide⟩ : Fin 5) (argWc m c) (argBc m c) hWc hbc _ _ _ _ hP
    (fun v s => ?_) (fun e => nrm_real (argEi m c) hidx e) (fun k o => ?_) (fun b o => ?_)
  · rw [adj_read]
    exact adjTerm_apply (argEi m c) hidx v s
  · rw [linW0, wts_5]
    exact weightAt 0 (by decide) _ (argWc m c) k o
  · rw [aggT0]
    exact tileAt 0 (by decide) _ (argBc m c) b o

/-- Convolution layer 1: an array holding a hidden state goes to one holding the specification's next. -/
theorem padStep1 (c : Dev nD) (hidx : Cert.Spec.InRange (argEi m c)) (hWc : ∀ i, ∃ r : ℝ, argWc m c i = (r : EReal))
    (hbc : ∀ i, ∃ r : ℝ, argBc m c i = (r : EReal)) (H : Cert.Spec.Hidden) (hP : PadHid (B11 m c main_v75) H) :
    PadHid (B15 m c main_v91) (Cert.Spec.conv (argEi m c) (argWc m c) (argBc m c) (⟨1, by decide⟩ : Fin 5) H) := by
  rw [layer1]
  refine kstep_spec (argEi m c) hidx H (⟨1, by decide⟩ : Fin 5) (argWc m c) (argBc m c) hWc hbc _ _ _ _ hP
    (fun v s => ?_) (fun e => nrm_real (argEi m c) hidx e) (fun k o => ?_) (fun b o => ?_)
  · rw [adj_read]
    exact adjTerm_apply (argEi m c) hidx v s
  · rw [linW1, wts_5]
    exact weightAt 1 (by decide) _ (argWc m c) k o
  · rw [aggT1]
    exact tileAt 1 (by decide) _ (argBc m c) b o

/-- Convolution layer 2: an array holding a hidden state goes to one holding the specification's next. -/
theorem padStep2 (c : Dev nD) (hidx : Cert.Spec.InRange (argEi m c)) (hWc : ∀ i, ∃ r : ℝ, argWc m c i = (r : EReal))
    (hbc : ∀ i, ∃ r : ℝ, argBc m c i = (r : EReal)) (H : Cert.Spec.Hidden) (hP : PadHid (B15 m c main_v91) H) :
    PadHid (B19 m c main_v107) (Cert.Spec.conv (argEi m c) (argWc m c) (argBc m c) (⟨2, by decide⟩ : Fin 5) H) := by
  rw [layer2]
  refine kstep_spec (argEi m c) hidx H (⟨2, by decide⟩ : Fin 5) (argWc m c) (argBc m c) hWc hbc _ _ _ _ hP
    (fun v s => ?_) (fun e => nrm_real (argEi m c) hidx e) (fun k o => ?_) (fun b o => ?_)
  · rw [adj_read]
    exact adjTerm_apply (argEi m c) hidx v s
  · rw [linW2, wts_5]
    exact weightAt 2 (by decide) _ (argWc m c) k o
  · rw [aggT2]
    exact tileAt 2 (by decide) _ (argBc m c) b o

/-- Convolution layer 3: an array holding a hidden state goes to one holding the specification's next. -/
theorem padStep3 (c : Dev nD) (hidx : Cert.Spec.InRange (argEi m c)) (hWc : ∀ i, ∃ r : ℝ, argWc m c i = (r : EReal))
    (hbc : ∀ i, ∃ r : ℝ, argBc m c i = (r : EReal)) (H : Cert.Spec.Hidden) (hP : PadHid (B19 m c main_v107) H) :
    PadHid (B23 m c main_v123) (Cert.Spec.conv (argEi m c) (argWc m c) (argBc m c) (⟨3, by decide⟩ : Fin 5) H) := by
  rw [layer3]
  refine kstep_spec (argEi m c) hidx H (⟨3, by decide⟩ : Fin 5) (argWc m c) (argBc m c) hWc hbc _ _ _ _ hP
    (fun v s => ?_) (fun e => nrm_real (argEi m c) hidx e) (fun k o => ?_) (fun b o => ?_)
  · rw [adj_read]
    exact adjTerm_apply (argEi m c) hidx v s
  · rw [linW3, wts_5]
    exact weightAt 3 (by decide) _ (argWc m c) k o
  · rw [aggT3]
    exact tileAt 3 (by decide) _ (argBc m c) b o

/-- Convolution layer 4: an array holding a hidden state goes to one holding the specification's next. -/
theorem padStep4 (c : Dev nD) (hidx : Cert.Spec.InRange (argEi m c)) (hWc : ∀ i, ∃ r : ℝ, argWc m c i = (r : EReal))
    (hbc : ∀ i, ∃ r : ℝ, argBc m c i = (r : EReal)) (H : Cert.Spec.Hidden) (hP : PadHid (B23 m c main_v123) H) :
    PadHid (B27 m c main_v139) (Cert.Spec.conv (argEi m c) (argWc m c) (argBc m c) (⟨4, by decide⟩ : Fin 5) H) := by
  rw [layer4]
  refine kstep_spec (argEi m c) hidx H (⟨4, by decide⟩ : Fin 5) (argWc m c) (argBc m c) hWc hbc _ _ _ _ hP
    (fun v s => ?_) (fun e => nrm_real (argEi m c) hidx e) (fun k o => ?_) (fun b o => ?_)
  · rw [adj_read]
    exact adjTerm_apply (argEi m c) hidx v s
  · rw [linW4, wts_5]
    exact weightAt 4 (by decide) _ (argWc m c) k o
  · rw [aggT4]
    exact tileAt 4 (by decide) _ (argBc m c) b o

/-- After the five convolution layers the array holds the specification's last hidden state. -/
theorem pad5 (c : Dev nD) (hidx : Cert.Spec.InRange (argEi m c))
    (hx : ∀ i, ∃ r : ℝ, argXyz m c i = (r : EReal)) (hl : ∀ i, ∃ r : ℝ, argLat m c i = (r : EReal))
    (hW : ∀ i, ∃ r : ℝ, argWin m c i = (r : EReal)) (hb : ∀ i, ∃ r : ℝ, argBin m c i = (r : EReal))
    (hWc : ∀ i, ∃ r : ℝ, argWc m c i = (r : EReal)) (hbc : ∀ i, ∃ r : ℝ, argBc m c i = (r : EReal)) :
    PadHid (B27 m c main_v139)
      (Cert.Spec.hid (argXyz m c) (argLat m c) (argEi m c) (argWin m c) (argBin m c) (argWc m c) (argBc m c) 5) := by
  have h0 := pad0 m c hx hl hW hb
  have h1 := padStep0 m c hidx hWc hbc _ h0
  have h2 := padStep1 m c hidx hWc hbc _ h1
  have h3 := padStep2 m c hidx hWc hbc _ h2
  have h4 := padStep3 m c hidx hWc hbc _ h3
  have h5 := padStep4 m c hidx hWc hbc _ h4
  have e : Cert.Spec.hid (argXyz m c) (argLat m c) (argEi m c) (argWin m c) (argBin m c) (argWc m c) (argBc m c) 5
      = Cert.Spec.conv (argEi m c) (argWc m c) (argBc m c) (⟨4, by decide⟩ : Fin 5)
          (Cert.Spec.conv (argEi m c) (argWc m c) (argBc m c) (⟨3, by decide⟩ : Fin 5)
            (Cert.Spec.conv (argEi m c) (argWc m c) (argBc m c) (⟨2, by decide⟩ : Fin 5)
              (Cert.Spec.conv (argEi m c) (argWc m c) (argBc m c) (⟨1, by decide⟩ : Fin 5)
                (Cert.Spec.conv (argEi m c) (argWc m c) (argBc m c) (⟨0, by decide⟩ : Fin 5)
                  (Cert.Spec.hid0 (argXyz m c) (argLat m c) (argWin m c) (argBin m c)))))) := by
    have s4 := Cert.Spec.hid_succ (argXyz m c) (argLat m c) (argEi m c) (argWin m c) (argBin m c) (argWc m c) (argBc m c) (⟨4, by decide⟩ : Fin 5)
    have s3 := Cert.Spec.hid_succ (argXyz m c) (argLat m c) (argEi m c) (argWin m c) (argBin m c) (argWc m c) (argBc m c) (⟨3, by decide⟩ : Fin 5)
    have s2 := Cert.Spec.hid_succ (argXyz m c) (argLat m c) (argEi m c) (argWin m c) (argBin m c) (argWc m c) (argBc m c) (⟨2, by decide⟩ : Fin 5)
    have s1 := Cert.Spec.hid_succ (argXyz m c) (argLat m c) (argEi m c) (argWin m c) (argBin m c) (argWc m c) (argBc m c) (⟨1, by decide⟩ : Fin 5)
    have s0 := Cert.Spec.hid_succ (argXyz m c) (argLat m c) (argEi m c) (argWin m c) (argBin m c) (argWc m c) (argBc m c) (⟨0, by decide⟩ : Fin 5)
    exact s4.trans (congrArg _ (s3.trans (congrArg _ (s2.trans (congrArg _ (s1.trans (congrArg _ s0)))))))
  rw [e]
  exact h5

/-! ## The result -/

/-- The output layer at a node row of an array holding the hidden state H is the specification's output layer. -/
theorem outLayer_node (P : S81920x256.Idx → EReal) (H : Cert.Spec.Hidden) (Wo : S3x256.Idx → EReal) (bo : S3.Idx → EReal)
    (b : Fin 8) (v : Fin 10000) (o : Fin 3)
    (hP : ∀ k : Fin 256, P (ix2 (⟨b.val * 10240 + v.val, by have := b.isLt; have := v.isLt; omega⟩ : Fin 81920) k) = H b v k) :
    (∑ k : Fin 256, P (ix2 (⟨b.val * 10240 + v.val, by have := b.isLt; have := v.isLt; omega⟩ : Fin 81920) k)
        * (transpose S256x3 [1, 0] Wo transposes_S3x256_S256x3_1_0 : S256x3.Idx → EReal) (ix2 k o))
      + (shapeCast S1x3 bo shapeCasts_S3_S1x3 : S1x3.Idx → EReal) (ix2 (0 : Fin 1) o)
      = Cert.Spec.outLayer Wo bo H b v o := by
  unfold Cert.Spec.outLayer
  rw [outB_apply]
  refine congrArg (fun s => s + bo (ix1 o)) (Finset.sum_congr rfl fun k _ => ?_)
  rw [hP k, outW_apply]

variable [Cert.Pre_finite_inputs.Facts]

/-- THE KERNEL'S VALUE: under the precondition the result buffer after the last host stretch is the network of the
    nine argument arrays. -/
theorem kernel_value (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) = fun _ => 1#1) :
    B29 (F := Ideal) m c main_v143
      = Cert.Spec.gcn (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  obtain ⟨h0, h1, h2, h3, h4, h5, h6, h7, h8⟩ := Cert.PreFacts.decode _ _ _ _ _ _ _ _ _ hpre
  have hP := pad5 m c h2 h0 h1 h3 h4 h5 h6
  funext i
  obtain ⟨b, v, o, rfl⟩ : ∃ (b : Fin 8) (v : Fin 10000) (o : Fin 3), i = ix3 b v o := ⟨i 0, i 1, i 2, eq_ix3 i⟩
  rw [result143, resultSlice_apply, out11, outW, outB]
  exact outLayer_node (B27 m c main_v139) _ (argWo m c) (argBo m c) b v o (fun k => hP.1 b v k)

end Cert.KernelIdeal.Hand

end
-- ==== Proof.lean ====
/-
  The certificate of a five-layer graph convolution network, kernel against reference, on the extended reals.

  The kernel builds the normalised adjacency of the graph as a DENSE 10240 × 10240 matrix (a scatter-add of the edge weights
  d(s)^(-1/2) · d(t)^(-1/2), self loops included, into zeros) and runs each layer as two matrix products on the matrix unit:
  the feature transform H · Wᵀ row block by row block, and the aggregation max(A · H + b, 0) accumulated over eight blocks of
  the contracted axis in a scratch accumulator. The reference gathers the transformed features along the edges, scales them by
  the edge weights and scatter-adds them into the target nodes. On extended reals that are all REAL the two agree: the dense
  product's sum over source nodes of (sum of the weights of the edges t ← s) · H(s) is, by distributivity, the sum over the edges
  into t of weight · H(source) — and distributivity is where finiteness of the inputs is used; the padded rows of the kernel's
  arrays never meet a nonzero entry of A and are cut off at the end; a sum split in eight blocks is the same sum. The indices in
  edge_index must name nodes (0 ≤ · < 10000): the kernel normalises a negative index against its padded extent, the reference
  against the number of nodes, and an index into the padding reads a padded row that is not zero.

  The three frames: both readings of the kernel program (words, extended reals) run to the end through its twelve kernel
  regions with every argument array unchanged (one statement, generic in the float instance); the reference is host
  operations only. The idealization rewrote nothing, so 'preserves' is trivial.
-/
import proofs.«169470_j5557687681111_1_alg».proof.Defs
import proofs.«169470_j5557687681111_1_alg».proof.Proof.Gen.Kernel
import proofs.«169470_j5557687681111_1_alg».proof.Proof.Gen.KernelIdeal
import proofs.«169470_j5557687681111_1_alg».proof.Proof.Gen.ReferenceIdeal
import proofs.«169470_j5557687681111_1_alg».proof.Proof.Gen.Pre_finite_inputs
import proofs.«169470_j5557687681111_1_alg».proof.Proof.Frames
import proofs.«169470_j5557687681111_1_alg».proof.Proof.KFrames
import proofs.«169470_j5557687681111_1_alg».proof.Proof.RefValue
import proofs.«169470_j5557687681111_1_alg».proof.Proof.PreFacts
import proofs.«169470_j5557687681111_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel [Cert.Kernel.Facts] [Cert.Pre_finite_inputs.Facts] : Cert.frame_Kernel :=
  fun m ρ _ => Cert.Kernel.Hand.frame_run m ρ

/-- So does its reading on the extended reals. -/
theorem frame_kernelIdeal [Cert.KernelIdeal.Facts] [Cert.Pre_finite_inputs.Facts] : Cert.frame_KernelIdeal :=
  fun m ρ _ => Cert.KernelIdeal.Hand.frame_run m ρ

/-- The reference is host operations only: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- From memories agreeing on the arguments, under the precondition (every float input a real, every edge index a node), both
    programs end with the specification's network applied to the arguments in the result buffer. -/
theorem algebraic [Cert.KernelIdeal.Facts] [Cert.ReferenceIdeal.Facts] [Cert.Pre_finite_inputs.Facts] :
    Cert.algebraic_KernelIdeal_ReferenceIdeal := by
  intro m ρ m' ρ' hpre hagree
  -- the edge indices of the reference's memory are the kernel's, which the precondition puts in range
  have hidx : ∀ c : Dev Cert.ReferenceIdeal.nD, Cert.Spec.InRange (m' ((c.tc : Thread Cert.ReferenceIdeal.nD Cert.ReferenceIdeal.τ).loc Cert.ReferenceIdeal.main_arg2)) := by
    intro c
    rw [(hagree c).2.2.1]
    exact (Cert.PreFacts.decode _ _ _ _ _ _ _ _ _ (hpre c)).2.2.1
  refine ⟨fun c => Cert.Spec.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Hand.kernel_value m c (hpre c)), (h c).2⟩)
      (Cert.KernelIdeal.Hand.result_run (F := Ideal) m ρ)
  · refine (θ_run Cert.ReferenceIdeal.defs _ _).mono (fun _ h c => ⟨(h c).1.trans ?_, (h c).2⟩)
      (Cert.ReferenceIdeal.RefValue.run_gcn m' ρ' hidx)
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
